-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v432)) (v1 : (c : Dev Cert.KernelIdeal.nD) → Buf (Elt Ideal) ((c.tc : Thread Cert.KernelIdeal.nD Cert.KernelIdeal.τ).loc Cert.KernelIdeal.main_v428)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v432) = v0 c
          ∧ r.2.mem ((c.tc : Thread Cert.KernelIdeal.nD Cert.KernelIdeal.τ).loc Cert.KernelIdeal.main_v428) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v736) = v0 c
          ∧ r.2.mem ((c.tc : Thread Cert.ReferenceIdeal.nD Cert.ReferenceIdeal.τ).loc Cert.ReferenceIdeal.main_v738) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x32 : Shape := ⟨3, ![2048, 256, 32]⟩
abbrev S2048 : Shape := ⟨1, ![2048]⟩
abbrev S4x1024 : Shape := ⟨2, ![4, 1024]⟩
abbrev S8x8192 : Shape := ⟨2, ![8, 8192]⟩
abbrev S8x5120x1024 : Shape := ⟨3, ![8, 5120, 1024]⟩
abbrev S8x1024 : Shape := ⟨2, ![8, 1024]⟩
abbrev S8x1024x1024 : Shape := ⟨3, ![8, 1024, 1024]⟩
abbrev S8x1024x4096 : Shape := ⟨3, ![8, 1024, 4096]⟩
abbrev S8x4096 : Shape := ⟨2, ![8, 4096]⟩
abbrev S8 : Shape := ⟨1, ![8]⟩
abbrev S_ : Shape := ⟨0, ![]⟩

class Facts : Prop where
  bcast_S_S2048x256x32 : S_.BroadcastsInDim S2048x256x32 (![] : Fin 0 → Fin S2048x256x32.rank)
  reducesTo_S2048x256x32_S_d0_1_2 : S2048x256x32.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S8x8192 : S_.BroadcastsInDim S8x8192 (![] : Fin 0 → Fin S8x8192.rank)
  reducesTo_S8x8192_S_d0_1 : S8x8192.ReducesTo [0, 1] S_
  bcast_S_S8x5120x1024 : S_.BroadcastsInDim S8x5120x1024 (![] : Fin 0 → Fin S8x5120x1024.rank)
  reducesTo_S8x5120x1024_S_d0_1_2 : S8x5120x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg12 : FVec F S8x4096 .f32) (main_arg13 : FVec F S8 .f32) (main_v48 : IVec S_ 1) (main_v49 : FVec F S8x1024x4096 .f32) (main_v50 : FVec F S8x1024x4096 .f32) : IVec S_ 1 :=
  let main_v51 : IVec S8x1024x4096 1 := cmpf .olt main_v49 main_v50
  let main_c_19 : IVec S_ 1 := constantI S_ 1 1#1
  let main_v52 : IVec S_ 1 := (fun x v => Host.reduce IntOp.andi x v reducesTo_S8x1024x4096_S_d0_1_2 h_S_) main_v51 main_c_19
  let main_v53 : IVec S_ 1 := andi main_v48 main_v52
  let main_v54 : FVec F S8x4096 .f32 := Host.absf main_arg12
  let main_cst_20 : FVec F S_ .f32 := constant S_ .f32 0x7F800000#32
  let main_v55 : FVec F S8x4096 .f32 := broadcastInDim S8x4096 ![] bcast_S_S8x4096 main_cst_20
  let main_v56 : IVec S8x4096 1 := cmpf .olt main_v54 main_v55
  let main_c_21 : IVec S_ 1 := constantI S_ 1 1#1
  let main_v57 : IVec S_ 1 := (fun x v => Host.reduce IntOp.andi x v reducesTo_S8x4096_S_d0_1 h_S_) main_v56 main_c_21
  let main_v58 : IVec S_ 1 := andi main_v53 main_v57
  let main_v59 : FVec F S8 .f32 := Host.absf main_arg13
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg8 : FVec F S8x1024 .f32) (main_arg9 : FVec F S8x1024x4096 .f32) (main_arg10 : FVec F S8x4096 .f32) (main_arg11 : FVec F S8x1024x4096 .f32) (main_arg12 : FVec F S8x4096 .f32) (main_arg13 : FVec F S8 .f32) (main_v33 : IVec S_ 1) : IVec S_ 1 :=
  let main_v34 : FVec F S8x1024 .f32 := Host.absf main_arg8
  let main_cst_12 : FVec F S_ .f32 := constant S_ .f32 0x7F800000#32
  let main_v35 : FVec F S8x1024 .f32 := broadcastInDim S8x1024 ![] bcast_S_S8x1024 main_cst_12
  let main_v36 : IVec S8x1024 1 := cmpf .olt main_v34 main_v35
  let main_c_13 : IVec S_ 1 := constantI S_ 1 1#1
  let main_v37 : IVec S_ 1 := (fun x v => Host.reduce IntOp.andi x v reducesTo_S8x1024_S_d0_1 h_S_) main_v36 main_c_13
  let main_v38 : IVec S_ 1 := andi main_v33 main_v37
  let main_v39 : FVec F S8x1024x4096 .f32 := Host.absf main_arg9
  let main_cst_14 : FVec F S_ .f32 := constant S_ .f32 0x7F800000#32
  let main_v40 : FVec F S8x1024x4096 .f32 := broadcastInDim S8x1024x4096 ![] bcast_S_S8x1024x4096 main_cst_14
  let main_v41 : IVec S8x1024x4096 1 := cmpf .olt main_v39 main_v40
  let main_c_15 : IVec S_ 1 := constantI S_ 1 1#1
  let main_v42 : IVec S_ 1 := (fun x v => Host.reduce IntOp.andi x v reducesTo_S8x1024x4096_S_d0_1_2 h_S_) main_v41 main_c_15
  let main_v43 : IVec S_ 1 := andi main_v38 main_v42
  let main_v44 : FVec F S8x4096 .f32 := Host.absf main_arg10
  let main_cst_16 : FVec F S_ .f32 := constant S_ .f32 0x7F800000#32
  let main_v45 : FVec F S8x4096 .f32 := broadcastInDim S8x4096 ![] bcast_S_S8x4096 main_cst_16
  let main_v46 : IVec S8x4096 1 := cmpf .olt main_v44 main_v45
  let main_c_17 : IVec S_ 1 := constantI S_ 1 1#1
  let main_v47 : IVec S_ 1 := (fun x v => Host.reduce IntOp.andi x v reducesTo_S8x4096_S_d0_1 h_S_) main_v46 main_c_17
  let main_v48 : IVec S_ 1 := andi main_v43 main_v47
  let main_v49 : FVec F S8x1024x4096 .f32 := Host.absf main_arg11
  let main_cst_18 : FVec F S_ .f32 := constant S_ .f32 0x7F800000#32
  let main_v50 : FVec F S8x1024x4096 .f32 := broadcastInDim S8x1024x4096 ![] bcast_S_S8x1024x4096 main_cst_18
  fn_part3 (F := F) main_arg12 main_arg13 main_v48 main_v49 main_v50

def fn_part1 {F : FTy → Type} [FloatOps F] (main_arg5 : FVec F S8x5120x1024 .f32) (main_arg6 : FVec F S8x1024 .f32) (main_arg7 : FVec F S8x1024x1024 .f32) (main_arg8 : FVec F S8x1024 .f32) (main_arg9 : FVec F S8x1024x4096 .f32) (main_arg10 : FVec F S8x4096 .f32) (main_arg11 : FVec F S8x1024x4096 .f32) (main_arg12 : FVec F S8x4096 .f32) (main_arg13 : FVec F S8 .f32) (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  let main_v19 : FVec F S8x5120x1024 .f32 := Host.absf main_arg5
  let main_cst_6 : FVec F S_ .f32 := constant S_ .f32 0x7F800000#32
  let main_v20 : FVec F S8x5120x1024 .f32 := broadcastInDim S8x5120x1024 ![] bcast_S_S8x5120x1024 main_cst_6
  let main_v21 : IVec S8x5120x1024 1 := cmpf .olt main_v19 main_v20
  let main_c_7 : IVec S_ 1 := constantI S_ 1 1#1
  let main_v22 : IVec S_ 1 := (fun x v => Host.reduce IntOp.andi x v reducesTo_S8x5120x1024_S_d0_1_2 h_S_) main_v21 main_c_7
  let main_v23 : IVec S_ 1 := andi main_v18 main_v22
  let main_v24 : FVec F S8x1024 .f32 := Host.absf main_arg6
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  let main_v29 : FVec F S8x1024x1024 .f32 := Host.absf main_arg7
  let main_cst_10 : FVec F S_ .f32 := constant S_ .f32 0x7F800000#32
  let main_v30 : FVec F S8x1024x1024 .f32 := broadcastInDim S8x1024x1024 ![] bcast_S_S8x1024x1024 main_cst_10
  let main_v31 : IVec S8x1024x1024 1 := cmpf .olt main_v29 main_v30
  let main_c_11 : IVec S_ 1 := constantI S_ 1 1#1
  let main_v32 : IVec S_ 1 := (fun x v => Host.reduce IntOp.andi x v reducesTo_S8x1024x1024_S_d0_1_2 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S2048x256x32 .f32) (main_arg1 : IVec S2048 32) (main_arg2 : FVec F S4x1024 .f32) (main_arg3 : FVec F S8x8192 .f32) (main_arg4 : FVec F S8x8192 .f32) (main_arg5 : FVec F S8x5120x1024 .f32) (main_arg6 : FVec F S8x1024 .f32) (main_arg7 : FVec F S8x1024x1024 .f32) (main_arg8 : FVec F S8x1024 .f32) (main_arg9 : FVec F S8x1024x4096 .f32) (main_arg10 : FVec F S8x4096 .f32) (main_arg11 : FVec F S8x1024x4096 .f32) (main_arg12 : FVec F S8x4096 .f32) (main_arg13 : FVec F S8 .f32) : IVec S_ 1 :=
  let main_v0 : FVec F S2048x256x32 .f32 := Host.absf main_arg0
  let main_cst : FVec F S_ .f32 := constant S_ .f32 0x7F800000#32
  let main_v1 : FVec F S2048x256x32 .f32 := broadcastInDim S2048x256x32 ![] bcast_S_S2048x256x32 main_cst
  let main_v2 : IVec S2048x256x32 1 := cmpf .olt main_v0 main_v1
  let main_c : IVec S_ 1 := constantI S_ 1 1#1
  let main_v3 : IVec S_ 1 := (fun x v => Host.reduce IntOp.andi x v reducesTo_S2048x256x32_S_d0_1_2 h_S_) main_v2 main_c
  let main_v4 : FVec F S4x1024 .f32 := Host.absf main_arg2
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S8x8192 .f32 := Host.absf main_arg3
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  let main_v14 : FVec F S8x8192 .f32 := Host.absf main_arg4
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_arg5 main_arg6 main_arg7 main_arg8 main_arg9 main_arg10 main_arg11 main_arg12 main_arg13 main_v13 main_v16
-- ==== Kernel.lean ====
abbrev S2048x256x32 : Shape := ⟨3, ![2048, 256, 32]⟩
abbrev S2048 : Shape := ⟨1, ![2048]⟩
abbrev S4x1024 : Shape := ⟨2, ![4, 1024]⟩
abbrev S8x8192 : Shape := ⟨2, ![8, 8192]⟩
abbrev S8x5120x1024 : Shape := ⟨3, ![8, 5120, 1024]⟩
abbrev S8x1024 : Shape := ⟨2, ![8, 1024]⟩
abbrev S8x1024x1024 : Shape := ⟨3, ![8, 1024, 1024]⟩
abbrev S8x1024x4096 : Shape := ⟨3, ![8, 1024, 4096]⟩
abbrev S8x4096 : Shape := ⟨2, ![8, 4096]⟩
abbrev S8 : Shape := ⟨1, ![8]⟩
abbrev S2048x8192 : Shape := ⟨2, ![2048, 8192]⟩
abbrev S_ : Shape := ⟨0, ![]⟩
abbrev S2048x1 : Shape := ⟨2, ![2048, 1]⟩
abbrev S2048x1024 : Shape := ⟨2, ![2048, 1024]⟩
abbrev S8x4096x1024 : Shape := ⟨3, ![8, 4096, 1024]⟩
abbrev S1x8192 : Shape := ⟨2, ![1, 8192]⟩
abbrev S8192 : Shape := ⟨1, ![8192]⟩
abbrev S1 : Shape := ⟨1, ![1]⟩
abbrev S2048x4096x2 : Shape := ⟨3, ![2048, 4096, 2]⟩
abbrev S2048x4096x1 : Shape := ⟨3, ![2048, 4096, 1]⟩
abbrev S2048x4096 : Shape := ⟨2, ![2048, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x1 : Shape := ⟨2, ![1, 1]⟩
abbrev S64x4096 : Shape := ⟨2, ![64, 4096]⟩
abbrev S64x1024 : Shape := ⟨2, ![64, 1024]⟩
abbrev S64x1 : Shape := ⟨2, ![64, 1]⟩
abbrev S64 : Shape := ⟨1, ![64]⟩

abbrev nBuf : Space → Nat
  | .hbm => 459
  | .vmem => 160
  | .smem => 0
  | _ => 0

abbrev hbmTy0_0 (i : Nat) : BufTy := match i % 128 with
  | 0 => ⟨S2048x256x32, .f32⟩
  | 1 => ⟨S2048, .i32⟩
  | 2 => ⟨S4x1024, .f32⟩
  | 3 => ⟨S8x8192, .f32⟩
  | 4 => ⟨S8x8192, .f32⟩
  | 5 => ⟨S8x5120x1024, .f32⟩
  | 6 => ⟨S8x1024, .f32⟩
  | 7 => ⟨S8x1024x1024, .f32⟩
  | 8 => ⟨S8x1024, .f32⟩
  | 9 => ⟨S8x1024x4096, .f32⟩
  | 10 => ⟨S8x4096, .f32⟩
  | 11 => ⟨S8x1024x4096, .f32⟩
  | 12 => ⟨S8x4096, .f32⟩
  | 13 => ⟨S8, .f32⟩
  | 14 => ⟨S2048x8192, .f32⟩
  | 15 => ⟨S_, .i32⟩
  | 16 => ⟨S2048, .i32⟩
  | 17 => ⟨S2048, .i1⟩
  | 18 => ⟨S_, .i32⟩
  | 19 => ⟨S2048, .i32⟩
  | 20 => ⟨S2048, .i32⟩
  | 21 => ⟨S2048, .i32⟩
  | 22 => ⟨S2048x1, .i32⟩
  | 23 => ⟨S2048x1024, .f32⟩
  | 24 => ⟨S_, .f32⟩
  | 25 => ⟨S2048, .f32⟩
  | 26 => ⟨S_, .f32⟩
  | 27 => ⟨S8, .f32⟩
  | 28 => ⟨S8x4096x1024, .f32⟩
  | 29 => ⟨S8x4096x1024, .bf16⟩
  | 30 => ⟨S8x1024x1024, .f32⟩
  | 31 => ⟨S8x1024x1024, .bf16⟩
  | 32 => ⟨S8x1024x1024, .bf16⟩
  | 33 => ⟨S8x1024x4096, .bf16⟩
  | 34 => ⟨S8x1024x4096, .bf16⟩
  | 35 => ⟨S1x8192, .f32⟩
  | 36 => ⟨S8192, .f32⟩
  | 37 => ⟨S1x8192, .f32⟩
  | 38 => ⟨S2048x8192, .f32⟩
  | 39 => ⟨S2048x8192, .f32⟩
  | 40 => ⟨S1x8192, .f32⟩
  | 41 => ⟨S8192, .f32⟩
  | 42 => ⟨S8192, .f32⟩
  | 43 => ⟨S1x8192, .f32⟩
  | 44 => ⟨S2048x8192, .f32⟩
  | 45 => ⟨S2048x8192, .f32⟩
  | 46 => ⟨S1, .f32⟩
  | 47 => ⟨S_, .f32⟩
  | 48 => ⟨S2048, .f32⟩
  | 49 => ⟨S2048, .f32⟩
  | 50 => ⟨S2048x4096x2, .f32⟩
  | 51 => ⟨S2048x4096x1, .f32⟩
  | 52 => ⟨S2048x4096, .f32⟩
  | 53 => ⟨S2048x4096x1, .f32⟩
  | 54 => ⟨S2048x4096, .f32⟩
  | 55 => ⟨S1x4096x1024, .bf16⟩
  | 56 => ⟨S4096x1024, .bf16⟩
  | 57 => ⟨S1x1024x1024, .bf16⟩
  | 58 => ⟨S1024x1024, .bf16⟩
  | 59 => ⟨S1x1024, .f32⟩
  | 60 => ⟨S1024, .f32⟩
  | 61 => ⟨S1x1024, .f32⟩
  | 62 => ⟨S1x1024x1024, .bf16⟩
  | 63 => ⟨S1024x1024, .bf16⟩
  | 64 => ⟨S1x1024, .f32⟩
  | 65 => ⟨S1024, .f32⟩
  | 66 => ⟨S1x1024, .f32⟩
  | 67 => ⟨S1x1024x4096, .bf16⟩
  | 68 => ⟨S1024x4096, .bf16⟩
  | 69 => ⟨S1x4096, .f32⟩
  | 70 => ⟨S4096, .f32⟩
  | 71 => ⟨S1x4096, .f32⟩
  | 72 => ⟨S1x1024x4096, .bf16⟩
  | 73 => ⟨S1024x4096, .bf16⟩
  | 74 => ⟨S1x4096, .f32⟩
  | 75 => ⟨S4096, .f32⟩
  | 76 => ⟨S1x4096, .f32⟩
  | 77 => ⟨S1, .f32⟩
  | 78 => ⟨S_, .f32⟩
  | 79 => ⟨S1x1, .f32⟩
  | 80 => ⟨S2048x4096, .f32⟩
  | 81 => ⟨S2048x1, .f32⟩
  | 82 => ⟨S2048, .f32⟩
  | 83 => ⟨S2048, .f32⟩
  | 84 => ⟨S2048x4096x1, .f32⟩
  | 85 => ⟨S2048x4096x1, .f32⟩
  | 86 => ⟨S2048x4096x2, .f32⟩
  | 87 => ⟨S2048x8192, .f32⟩
  | 88 => ⟨S1x8192, .f32⟩
  | 89 => ⟨S8192, .f32⟩
  | 90 => ⟨S1x8192, .f32⟩
  | 91 => ⟨S2048x8192, .f32⟩
  | 92 => ⟨S2048x8192, .f32⟩
  | 93 => ⟨S1x8192, .f32⟩
  | 94 => ⟨S8192, .f32⟩
  | 95 => ⟨S8192, .f32⟩
  | 96 => ⟨S1x8192, .f32⟩
  | 97 => ⟨S2048x8192, .f32⟩
  | 98 => ⟨S2048x8192, .f32⟩
  | 99 => ⟨S1, .f32⟩
  | 100 => ⟨S_, .f32⟩
  | 101 => ⟨S2048, .f32⟩
  | 102 => ⟨S2048, .f32⟩
  | 103 => ⟨S2048x4096x2, .f32⟩
  | 104 => ⟨S2048x4096x1, .f32⟩
  | 105 => ⟨S2048x4096, .f32⟩
  | 106 => ⟨S2048x4096x1, .f32⟩
  | 107 => ⟨S2048x4096, .f32⟩
  | 108 => ⟨S1x4096x1024, .bf16⟩
  | 109 => ⟨S4096x1024, .bf16⟩
  | 110 => ⟨S1x1024x1024, .bf16⟩
  | 111 => ⟨S1024x1024, .bf16⟩
  | 112 => ⟨S1x1024, .f32⟩
  | 113 => ⟨S1024, .f32⟩
  | 114 => ⟨S1x1024, .f32⟩
  | 115 => ⟨S1x1024x1024, .bf16⟩
  | 116 => ⟨S1024x1024, .bf16⟩
  | 117 => ⟨S1x1024, .f32⟩
  | 118 => ⟨S1024, .f32⟩
  | 119 => ⟨S1x1024, .f32⟩
  | 120 => ⟨S1x1024x4096, .bf16⟩
  | 121 => ⟨S1024x4096, .bf16⟩
  | 122 => ⟨S1x4096, .f32⟩
  | 123 => ⟨S4096, .f32⟩
  | 124 => ⟨S1x4096, .f32⟩
  | 125 => ⟨S1x1024x4096, .bf16⟩
  | 126 => ⟨S1024x4096, .bf16⟩
  | 127 => ⟨S1x4096, .f32⟩
  | _ => ⟨S2048x256x32, .f32⟩

abbrev hbmTy0_1 (i : Nat) : BufTy := match i % 128 with
  | 0 => ⟨S4096, .f32⟩
  | 1 => ⟨S1x4096, .f32⟩
  | 2 => ⟨S1, .f32⟩
  | 3 => ⟨S_, .f32⟩
  | 4 => ⟨S1x1, .f32⟩
  | 5 => ⟨S2048x4096, .f32⟩
  | 6 => ⟨S2048x1, .f32⟩
  | 7 => ⟨S2048, .f32⟩
  | 8 => ⟨S2048, .f32⟩
  | 9 => ⟨S2048x4096x1, .f32⟩
  | 10 => ⟨S2048x4096x1, .f32⟩
  | 11 => ⟨S2048x4096x2, .f32⟩
  | 12 => ⟨S2048x8192, .f32⟩
  | 13 => ⟨S1x8192, .f32⟩
  | 14 => ⟨S8192, .f32⟩
  | 15 => ⟨S1x8192, .f32⟩
  | 16 => ⟨S2048x8192, .f32⟩
  | 17 => ⟨S2048x8192, .f32⟩
  | 18 => ⟨S1x8192, .f32⟩
  | 19 => ⟨S8192, .f32⟩
  | 20 => ⟨S8192, .f32⟩
  | 21 => ⟨S1x8192, .f32⟩
  | 22 => ⟨S2048x8192, .f32⟩
  | 23 => ⟨S2048x8192, .f32⟩
  | 24 => ⟨S1, .f32⟩
  | 25 => ⟨S_, .f32⟩
  | 26 => ⟨S2048, .f32⟩
  | 27 => ⟨S2048, .f32⟩
  | 28 => ⟨S2048x4096x2, .f32⟩
  | 29 => ⟨S2048x4096x1, .f32⟩
  | 30 => ⟨S2048x4096, .f32⟩
  | 31 => ⟨S2048x4096x1, .f32⟩
  | 32 => ⟨S2048x4096, .f32⟩
  | 33 => ⟨S1x4096x1024, .bf16⟩
  | 34 => ⟨S4096x1024, .bf16⟩
  | 35 => ⟨S1x1024x1024, .bf16⟩
  | 36 => ⟨S1024x1024, .bf16⟩
  | 37 => ⟨S1x1024, .f32⟩
  | 38 => ⟨S1024, .f32⟩
  | 39 => ⟨S1x1024, .f32⟩
  | 40 => ⟨S1x1024x1024, .bf16⟩
  | 41 => ⟨S1024x1024, .bf16⟩
  | 42 => ⟨S1x1024, .f32⟩
  | 43 => ⟨S1024, .f32⟩
  | 44 => ⟨S1x1024, .f32⟩
  | 45 => ⟨S1x1024x4096, .bf16⟩
  | 46 => ⟨S1024x4096, .bf16⟩
  | 47 => ⟨S1x4096, .f32⟩
  | 48 => ⟨S4096, .f32⟩
  | 49 => ⟨S1x4096, .f32⟩
  | 50 => ⟨S1x1024x4096, .bf16⟩
  | 51 => ⟨S1024x4096, .bf16⟩
  | 52 => ⟨S1x4096, .f32⟩
  | 53 => ⟨S4096, .f32⟩
  | 54 => ⟨S1x4096, .f32⟩
  | 55 => ⟨S1, .f32⟩
  | 56 => ⟨S_, .f32⟩
  | 57 => ⟨S1x1, .f32⟩
  | 58 => ⟨S2048x4096, .f32⟩
  | 59 => ⟨S2048x1, .f32⟩
  | 60 => ⟨S2048, .f32⟩
  | 61 => ⟨S2048, .f32⟩
  | 62 => ⟨S2048x4096x1, .f32⟩
  | 63 => ⟨S2048x4096x1, .f32⟩
  | 64 => ⟨S2048x4096x2, .f32⟩
  | 65 => ⟨S2048x8192, .f32⟩
  | 66 => ⟨S1x8192, .f32⟩
  | 67 => ⟨S8192, .f32⟩
  | 68 => ⟨S1x8192, .f32⟩
  | 69 => ⟨S2048x8192, .f32⟩
  | 70 => ⟨S2048x8192, .f32⟩
  | 71 => ⟨S1x8192, .f32⟩
  | 72 => ⟨S8192, .f32⟩
  | 73 => ⟨S8192, .f32⟩
  | 74 => ⟨S1x8192, .f32⟩
  | 75 => ⟨S2048x8192, .f32⟩
  | 76 => ⟨S2048x8192, .f32⟩
  | 77 => ⟨S1, .f32⟩
  | 78 => ⟨S_, .f32⟩
  | 79 => ⟨S2048, .f32⟩
  | 80 => ⟨S2048, .f32⟩
  | 81 => ⟨S2048x4096x2, .f32⟩
  | 82 => ⟨S2048x4096x1, .f32⟩
  | 83 => ⟨S2048x4096, .f32⟩
  | 84 => ⟨S2048x4096x1, .f32⟩
  | 85 => ⟨S2048x4096, .f32⟩
  | 86 => ⟨S1x4096x1024, .bf16⟩
  | 87 => ⟨S4096x1024, .bf16⟩
  | 88 => ⟨S1x1024x1024, .bf16⟩
  | 89 => ⟨S1024x1024, .bf16⟩
  | 90 => ⟨S1x1024, .f32⟩
  | 91 => ⟨S1024, .f32⟩
  | 92 => ⟨S1x1024, .f32⟩
  | 93 => ⟨S1x1024x1024, .bf16⟩
  | 94 => ⟨S1024x1024, .bf16⟩
  | 95 => ⟨S1x1024, .f32⟩
  | 96 => ⟨S1024, .f32⟩
  | 97 => ⟨S1x1024, .f32⟩
  | 98 => ⟨S1x1024x4096, .bf16⟩
  | 99 => ⟨S1024x4096, .bf16⟩
  | 100 => ⟨S1x4096, .f32⟩
  | 101 => ⟨S4096, .f32⟩
  | 102 => ⟨S1x4096, .f32⟩
  | 103 => ⟨S1x1024x4096, .bf16⟩
  | 104 => ⟨S1024x4096, .bf16⟩
  | 105 => ⟨S1x4096, .f32⟩
  | 106 => ⟨S4096, .f32⟩
  | 107 => ⟨S1x4096, .f32⟩
  | 108 => ⟨S1, .f32⟩
  | 109 => ⟨S_, .f32⟩
  | 110 => ⟨S1x1, .f32⟩
  | 111 => ⟨S2048x4096, .f32⟩
  | 112 => ⟨S2048x1, .f32⟩
  | 113 => ⟨S2048, .f32⟩
  | 114 => ⟨S2048, .f32⟩
  | 115 => ⟨S2048x4096x1, .f32⟩
  | 116 => ⟨S2048x4096x1, .f32⟩
  | 117 => ⟨S2048x4096x2, .f32⟩
  | 118 => ⟨S2048x8192, .f32⟩
  | 119 => ⟨S1x8192, .f32⟩
  | 120 => ⟨S8192, .f32⟩
  | 121 => ⟨S1x8192, .f32⟩
  | 122 => ⟨S2048x8192, .f32⟩
  | 123 => ⟨S2048x8192, .f32⟩
  | 124 => ⟨S1x8192, .f32⟩
  | 125 => ⟨S8192, .f32⟩
  | 126 => ⟨S8192, .f32⟩
  | 127 => ⟨S1x8192, .f32⟩
  | _ => ⟨S2048x256x32, .f32⟩

abbrev hbmTy0_2 (i : Nat) : BufTy := match i % 128 with
  | 0 => ⟨S2048x8192, .f32⟩
  | 1 => ⟨S2048x8192, .f32⟩
  | 2 => ⟨S1, .f32⟩
  | 3 => ⟨S_, .f32⟩
  | 4 => ⟨S2048, .f32⟩
  | 5 => ⟨S2048, .f32⟩
  | 6 => ⟨S2048x4096x2, .f32⟩
  | 7 => ⟨S2048x4096x1, .f32⟩
  | 8 => ⟨S2048x4096, .f32⟩
  | 9 => ⟨S2048x4096x1, .f32⟩
  | 10 => ⟨S2048x4096, .f32⟩
  | 11 => ⟨S1x4096x1024, .bf16⟩
  | 12 => ⟨S4096x1024, .bf16⟩
  | 13 => ⟨S1x1024x1024, .bf16⟩
  | 14 => ⟨S1024x1024, .bf16⟩
  | 15 => ⟨S1x1024, .f32⟩
  | 16 => ⟨S1024, .f32⟩
  | 17 => ⟨S1x1024, .f32⟩
  | 18 => ⟨S1x1024x1024, .bf16⟩
  | 19 => ⟨S1024x1024, .bf16⟩
  | 20 => ⟨S1x1024, .f32⟩
  | 21 => ⟨S1024, .f32⟩
  | 22 => ⟨S1x1024, .f32⟩
  | 23 => ⟨S1x1024x4096, .bf16⟩
  | 24 => ⟨S1024x4096, .bf16⟩
  | 25 => ⟨S1x4096, .f32⟩
  | 26 => ⟨S4096, .f32⟩
  | 27 => ⟨S1x4096, .f32⟩
  | 28 => ⟨S1x1024x4096, .bf16⟩
  | 29 => ⟨S1024x4096, .bf16⟩
  | 30 => ⟨S1x4096, .f32⟩
  | 31 => ⟨S4096, .f32⟩
  | 32 => ⟨S1x4096, .f32⟩
  | 33 => ⟨S1, .f32⟩
  | 34 => ⟨S_, .f32⟩
  | 35 => ⟨S1x1, .f32⟩
  | 36 => ⟨S2048x4096, .f32⟩
  | 37 => ⟨S2048x1, .f32⟩
  | 38 => ⟨S2048, .f32⟩
  | 39 => ⟨S2048, .f32⟩
  | 40 => ⟨S2048x4096x1, .f32⟩
  | 41 => ⟨S2048x4096x1, .f32⟩
  | 42 => ⟨S2048x4096x2, .f32⟩
  | 43 => ⟨S2048x8192, .f32⟩
  | 44 => ⟨S1x8192, .f32⟩
  | 45 => ⟨S8192, .f32⟩
  | 46 => ⟨S1x8192, .f32⟩
  | 47 => ⟨S2048x8192, .f32⟩
  | 48 => ⟨S2048x8192, .f32⟩
  | 49 => ⟨S1x8192, .f32⟩
  | 50 => ⟨S8192, .f32⟩
  | 51 => ⟨S8192, .f32⟩
  | 52 => ⟨S1x8192, .f32⟩
  | 53 => ⟨S2048x8192, .f32⟩
  | 54 => ⟨S2048x8192, .f32⟩
  | 55 => ⟨S1, .f32⟩
  | 56 => ⟨S_, .f32⟩
  | 57 => ⟨S2048, .f32⟩
  | 58 => ⟨S2048, .f32⟩
  | 59 => ⟨S2048x4096x2, .f32⟩
  | 60 => ⟨S2048x4096x1, .f32⟩
  | 61 => ⟨S2048x4096, .f32⟩
  | 62 => ⟨S2048x4096x1, .f32⟩
  | 63 => ⟨S2048x4096, .f32⟩
  | 64 => ⟨S1x4096x1024, .bf16⟩
  | 65 => ⟨S4096x1024, .bf16⟩
  | 66 => ⟨S1x1024x1024, .bf16⟩
  | 67 => ⟨S1024x1024, .bf16⟩
  | 68 => ⟨S1x1024, .f32⟩
  | 69 => ⟨S1024, .f32⟩
  | 70 => ⟨S1x1024, .f32⟩
  | 71 => ⟨S1x1024x1024, .bf16⟩
  | 72 => ⟨S1024x1024, .bf16⟩
  | 73 => ⟨S1x1024, .f32⟩
  | 74 => ⟨S1024, .f32⟩
  | 75 => ⟨S1x1024, .f32⟩
  | 76 => ⟨S1x1024x4096, .bf16⟩
  | 77 => ⟨S1024x4096, .bf16⟩
  | 78 => ⟨S1x4096, .f32⟩
  | 79 => ⟨S4096, .f32⟩
  | 80 => ⟨S1x4096, .f32⟩
  | 81 => ⟨S1x1024x4096, .bf16⟩
  | 82 => ⟨S1024x4096, .bf16⟩
  | 83 => ⟨S1x4096, .f32⟩
  | 84 => ⟨S4096, .f32⟩
  | 85 => ⟨S1x4096, .f32⟩
  | 86 => ⟨S1, .f32⟩
  | 87 => ⟨S_, .f32⟩
  | 88 => ⟨S1x1, .f32⟩
  | 89 => ⟨S2048x4096, .f32⟩
  | 90 => ⟨S2048x1, .f32⟩
  | 91 => ⟨S2048, .f32⟩
  | 92 => ⟨S2048, .f32⟩
  | 93 => ⟨S2048x4096x1, .f32⟩
  | 94 => ⟨S2048x4096x1, .f32⟩
  | 95 => ⟨S2048x4096x2, .f32⟩
  | 96 => ⟨S2048x8192, .f32⟩
  | 97 => ⟨S1x8192, .f32⟩
  | 98 => ⟨S8192, .f32⟩
  | 99 => ⟨S1x8192, .f32⟩
  | 100 => ⟨S2048x8192, .f32⟩
  | 101 => ⟨S2048x8192, .f32⟩
  | 102 => ⟨S1x8192, .f32⟩
  | 103 => ⟨S8192, .f32⟩
  | 104 => ⟨S8192, .f32⟩
  | 105 => ⟨S1x8192, .f32⟩
  | 106 => ⟨S2048x8192, .f32⟩
  | 107 => ⟨S2048x8192, .f32⟩
  | 108 => ⟨S1, .f32⟩
  | 109 => ⟨S_, .f32⟩
  | 110 => ⟨S2048, .f32⟩
  | 111 => ⟨S2048, .f32⟩
  | 112 => ⟨S2048x4096x2, .f32⟩
  | 113 => ⟨S2048x4096x1, .f32⟩
  | 114 => ⟨S2048x4096, .f32⟩
  | 115 => ⟨S2048x4096x1, .f32⟩
  | 116 => ⟨S2048x4096, .f32⟩
  | 117 => ⟨S1x4096x1024, .bf16⟩
  | 118 => ⟨S4096x1024, .bf16⟩
  | 119 => ⟨S1x1024x1024, .bf16⟩
  | 120 => ⟨S1024x1024, .bf16⟩
  | 121 => ⟨S1x1024, .f32⟩
  | 122 => ⟨S1024, .f32⟩
  | 123 => ⟨S1x1024, .f32⟩
  | 124 => ⟨S1x1024x1024, .bf16⟩
  | 125 => ⟨S1024x1024, .bf16⟩
  | 126 => ⟨S1x1024, .f32⟩
  | 127 => ⟨S1024, .f32⟩
  | _ => ⟨S2048x256x32, .f32⟩

abbrev hbmTy0_3 (i : Nat) : BufTy := match i % 128 with
  | 0 => ⟨S1x1024, .f32⟩
  | 1 => ⟨S1x1024x4096, .bf16⟩
  | 2 => ⟨S1024x4096, .bf16⟩
  | 3 => ⟨S1x4096, .f32⟩
  | 4 => ⟨S4096, .f32⟩
  | 5 => ⟨S1x4096, .f32⟩
  | 6 => ⟨S1x1024x4096, .bf16⟩
  | 7 => ⟨S1024x4096, .bf16⟩
  | 8 => ⟨S1x4096, .f32⟩
  | 9 => ⟨S4096, .f32⟩
  | 10 => ⟨S1x4096, .f32⟩
  | 11 => ⟨S1, .f32⟩
  | 12 => ⟨S_, .f32⟩
  | 13 => ⟨S1x1, .f32⟩
  | 14 => ⟨S2048x4096, .f32⟩
  | 15 => ⟨S2048x1, .f32⟩
  | 16 => ⟨S2048, .f32⟩
  | 17 => ⟨S2048, .f32⟩
  | 18 => ⟨S2048x4096x1, .f32⟩
  | 19 => ⟨S2048x4096x1, .f32⟩
  | 20 => ⟨S2048x4096x2, .f32⟩
  | 21 => ⟨S2048x8192, .f32⟩
  | 22 => ⟨S1x8192, .f32⟩
  | 23 => ⟨S8192, .f32⟩
  | 24 => ⟨S1x8192, .f32⟩
  | 25 => ⟨S2048x8192, .f32⟩
  | 26 => ⟨S2048x8192, .f32⟩
  | 27 => ⟨S1x8192, .f32⟩
  | 28 => ⟨S8192, .f32⟩
  | 29 => ⟨S8192, .f32⟩
  | 30 => ⟨S1x8192, .f32⟩
  | 31 => ⟨S2048x8192, .f32⟩
  | 32 => ⟨S2048x8192, .f32⟩
  | 33 => ⟨S1, .f32⟩
  | 34 => ⟨S_, .f32⟩
  | 35 => ⟨S2048, .f32⟩
  | 36 => ⟨S2048, .f32⟩
  | 37 => ⟨S2048x4096x2, .f32⟩
  | 38 => ⟨S2048x4096x1, .f32⟩
  | 39 => ⟨S2048x4096, .f32⟩
  | 40 => ⟨S2048x4096x1, .f32⟩
  | 41 => ⟨S2048x4096, .f32⟩
  | 42 => ⟨S1x4096x1024, .bf16⟩
  | 43 => ⟨S4096x1024, .bf16⟩
  | 44 => ⟨S1x1024x1024, .bf16⟩
  | 45 => ⟨S1024x1024, .bf16⟩
  | 46 => ⟨S1x1024, .f32⟩
  | 47 => ⟨S1024, .f32⟩
  | 48 => ⟨S1x1024, .f32⟩
  | 49 => ⟨S1x1024x1024, .bf16⟩
  | 50 => ⟨S1024x1024, .bf16⟩
  | 51 => ⟨S1x1024, .f32⟩
  | 52 => ⟨S1024, .f32⟩
  | 53 => ⟨S1x1024, .f32⟩
  | 54 => ⟨S1x1024x4096, .bf16⟩
  | 55 => ⟨S1024x4096, .bf16⟩
  | 56 => ⟨S1x4096, .f32⟩
  | 57 => ⟨S4096, .f32⟩
  | 58 => ⟨S1x4096, .f32⟩
  | 59 => ⟨S1x1024x4096, .bf16⟩
  | 60 => ⟨S1024x4096, .bf16⟩
  | 61 => ⟨S1x4096, .f32⟩
  | 62 => ⟨S4096, .f32⟩
  | 63 => ⟨S1x4096, .f32⟩
  | 64 => ⟨S1, .f32⟩
  | 65 => ⟨S_, .f32⟩
  | 66 => ⟨S1x1, .f32⟩
  | 67 => ⟨S2048x4096, .f32⟩
  | 68 => ⟨S2048x1, .f32⟩
  | 69 => ⟨S2048, .f32⟩
  | 70 => ⟨S2048, .f32⟩
  | 71 => ⟨S2048x4096x1, .f32⟩
  | 72 => ⟨S2048x4096x1, .f32⟩
  | 73 => ⟨S2048x4096x2, .f32⟩
  | 74 => ⟨S2048x8192, .f32⟩
  | _ => ⟨S2048x256x32, .f32⟩

abbrev hbmTy (i : Nat) : BufTy := match i / 128 with
  | 0 => hbmTy0_0 i
  | 1 => hbmTy0_1 i
  | 2 => hbmTy0_2 i
  | 3 => hbmTy0_3 i
  | _ => ⟨S2048x256x32, .f32⟩

abbrev vmemTy0_0 (i : Nat) : BufTy := match i % 128 with
  | 0 => ⟨S64x4096, .f32⟩
  | 1 => ⟨S64x4096, .f32⟩
  | 2 => ⟨S64x4096, .f32⟩
  | 3 => ⟨S64x4096, .f32⟩
  | 4 => ⟨S64x1024, .f32⟩
  | 5 => ⟨S64x1024, .f32⟩
  | 6 => ⟨S4096x1024, .bf16⟩
  | 7 => ⟨S1024x1024, .bf16⟩
  | 8 => ⟨S1x1024, .f32⟩
  | 9 => ⟨S1024x1024, .bf16⟩
  | 10 => ⟨S1x1024, .f32⟩
  | 11 => ⟨S1024x4096, .bf16⟩
  | 12 => ⟨S1x4096, .f32⟩
  | 13 => ⟨S1024x4096, .bf16⟩
  | 14 => ⟨S1x4096, .f32⟩
  | 15 => ⟨S1x1, .f32⟩
  | 16 => ⟨S64x4096, .f32⟩
  | 17 => ⟨S64x4096, .f32⟩
  | 18 => ⟨S64x1, .f32⟩
  | 19 => ⟨S64x1, .f32⟩
  | 20 => ⟨S64x4096, .f32⟩
  | 21 => ⟨S64x4096, .f32⟩
  | 22 => ⟨S64x4096, .f32⟩
  | 23 => ⟨S64x4096, .f32⟩
  | 24 => ⟨S64x1024, .f32⟩
  | 25 => ⟨S64x1024, .f32⟩
  | 26 => ⟨S4096x1024, .bf16⟩
  | 27 => ⟨S1024x1024, .bf16⟩
  | 28 => ⟨S1x1024, .f32⟩
  | 29 => ⟨S1024x1024, .bf16⟩
  | 30 => ⟨S1x1024, .f32⟩
  | 31 => ⟨S1024x4096, .bf16⟩
  | 32 => ⟨S1x4096, .f32⟩
  | 33 => ⟨S1024x4096, .bf16⟩
  | 34 => ⟨S1x4096, .f32⟩
  | 35 => ⟨S1x1, .f32⟩
  | 36 => ⟨S64x4096, .f32⟩
  | 37 => ⟨S64x4096, .f32⟩
  | 38 => ⟨S64x1, .f32⟩
  | 39 => ⟨S64x1, .f32⟩
  | 40 => ⟨S64x4096, .f32⟩
  | 41 => ⟨S64x4096, .f32⟩
  | 42 => ⟨S64x4096, .f32⟩
  | 43 => ⟨S64x4096, .f32⟩
  | 44 => ⟨S64x1024, .f32⟩
  | 45 => ⟨S64x1024, .f32⟩
  | 46 => ⟨S4096x1024, .bf16⟩
  | 47 => ⟨S1024x1024, .bf16⟩
  | 48 => ⟨S1x1024, .f32⟩
  | 49 => ⟨S1024x1024, .bf16⟩
  | 50 => ⟨S1x1024, .f32⟩
  | 51 => ⟨S1024x4096, .bf16⟩
  | 52 => ⟨S1x4096, .f32⟩
  | 53 => ⟨S1024x4096, .bf16⟩
  | 54 => ⟨S1x4096, .f32⟩
  | 55 => ⟨S1x1, .f32⟩
  | 56 => ⟨S64x4096, .f32⟩
  | 57 => ⟨S64x4096, .f32⟩
  | 58 => ⟨S64x1, .f32⟩
  | 59 => ⟨S64x1, .f32⟩
  | 60 => ⟨S64x4096, .f32⟩
  | 61 => ⟨S64x4096, .f32⟩
  | 62 => ⟨S64x4096, .f32⟩
  | 63 => ⟨S64x4096, .f32⟩
  | 64 => ⟨S64x1024, .f32⟩
  | 65 => ⟨S64x1024, .f32⟩
  | 66 => ⟨S4096x1024, .bf16⟩
  | 67 => ⟨S1024x1024, .bf16⟩
  | 68 => ⟨S1x1024, .f32⟩
  | 69 => ⟨S1024x1024, .bf16⟩
  | 70 => ⟨S1x1024, .f32⟩
  | 71 => ⟨S1024x4096, .bf16⟩
  | 72 => ⟨S1x4096, .f32⟩
  | 73 => ⟨S1024x4096, .bf16⟩
  | 74 => ⟨S1x4096, .f32⟩
  | 75 => ⟨S1x1, .f32⟩
  | 76 => ⟨S64x4096, .f32⟩
  | 77 => ⟨S64x4096, .f32⟩
  | 78 => ⟨S64x1, .f32⟩
  | 79 => ⟨S64x1, .f32⟩
  | 80 => ⟨S64x4096, .f32⟩
  | 81 => ⟨S64x4096, .f32⟩
  | 82 => ⟨S64x4096, .f32⟩
  | 83 => ⟨S64x4096, .f32⟩
  | 84 => ⟨S64x1024, .f32⟩
  | 85 => ⟨S64x1024, .f32⟩
  | 86 => ⟨S4096x1024, .bf16⟩
  | 87 => ⟨S1024x1024, .bf16⟩
  | 88 => ⟨S1x1024, .f32⟩
  | 89 => ⟨S1024x1024, .bf16⟩
  | 90 => ⟨S1x1024, .f32⟩
  | 91 => ⟨S1024x4096, .bf16⟩
  | 92 => ⟨S1x4096, .f32⟩
  | 93 => ⟨S1024x4096, .bf16⟩
  | 94 => ⟨S1x4096, .f32⟩
  | 95 => ⟨S1x1, .f32⟩
  | 96 => ⟨S64x4096, .f32⟩
  | 97 => ⟨S64x4096, .f32⟩
  | 98 => ⟨S64x1, .f32⟩
  | 99 => ⟨S64x1, .f32⟩
  | 100 => ⟨S64x4096, .f32⟩
  | 101 => ⟨S64x4096, .f32⟩
  | 102 => ⟨S64x4096, .f32⟩
  | 103 => ⟨S64x4096, .f32⟩
  | 104 => ⟨S64x1024, .f32⟩
  | 105 => ⟨S64x1024, .f32⟩
  | 106 => ⟨S4096x1024, .bf16⟩
  | 107 => ⟨S1024x1024, .bf16⟩
  | 108 => ⟨S1x1024, .f32⟩
  | 109 => ⟨S1024x1024, .bf16⟩
  | 110 => ⟨S1x1024, .f32⟩
  | 111 => ⟨S1024x4096, .bf16⟩
  | 112 => ⟨S1x4096, .f32⟩
  | 113 => ⟨S1024x4096, .bf16⟩
  | 114 => ⟨S1x4096, .f32⟩
  | 115 => ⟨S1x1, .f32⟩
  | 116 => ⟨S64x4096, .f32⟩
  | 117 => ⟨S64x4096, .f32⟩
  | 118 => ⟨S64x1, .f32⟩
  | 119 => ⟨S64x1, .f32⟩
  | 120 => ⟨S64x4096, .f32⟩
  | 121 => ⟨S64x4096, .f32⟩
  | 122 => ⟨S64x4096, .f32⟩
  | 123 => ⟨S64x4096, .f32⟩
  | 124 => ⟨S64x1024, .f32⟩
  | 125 => ⟨S64x1024, .f32⟩
  | 126 => ⟨S4096x1024, .bf16⟩
  | 127 => ⟨S1024x1024, .bf16⟩
  | _ => ⟨S2048x256x32, .f32⟩

abbrev vmemTy0_1 (i : Nat) : BufTy := match i % 128 with
  | 0 => ⟨S1x1024, .f32⟩
  | 1 => ⟨S1024x1024, .bf16⟩
  | 2 => ⟨S1x1024, .f32⟩
  | 3 => ⟨S1024x4096, .bf16⟩
  | 4 => ⟨S1x4096, .f32⟩
  | 5 => ⟨S1024x4096, .bf16⟩
  | 6 => ⟨S1x4096, .f32⟩
  | 7 => ⟨S1x1, .f32⟩
  | 8 => ⟨S64x4096, .f32⟩
  | 9 => ⟨S64x4096, .f32⟩
  | 10 => ⟨S64x1, .f32⟩
  | 11 => ⟨S64x1, .f32⟩
  | 12 => ⟨S64x4096, .f32⟩
  | 13 => ⟨S64x4096, .f32⟩
  | 14 => ⟨S64x4096, .f32⟩
  | 15 => ⟨S64x4096, .f32⟩
  | 16 => ⟨S64x1024, .f32⟩
  | 17 => ⟨S64x1024, .f32⟩
  | 18 => ⟨S4096x1024, .bf16⟩
  | 19 => ⟨S1024x1024, .bf16⟩
  | 20 => ⟨S1x1024, .f32⟩
  | 21 => ⟨S1024x1024, .bf16⟩
  | 22 => ⟨S1x1024, .f32⟩
  | 23 => ⟨S1024x4096, .bf16⟩
  | 24 => ⟨S1x4096, .f32⟩
  | 25 => ⟨S1024x4096, .bf16⟩
  | 26 => ⟨S1x4096, .f32⟩
  | 27 => ⟨S1x1, .f32⟩
  | 28 => ⟨S64x4096, .f32⟩
  | 29 => ⟨S64x4096, .f32⟩
  | 30 => ⟨S64x1, .f32⟩
  | 31 => ⟨S64x1, .f32⟩
  | _ => ⟨S2048x256x32, .f32⟩

abbrev vmemTy (i : Nat) : BufTy := match i / 128 with
  | 0 => vmemTy0_0 i
  | 1 => vmemTy0_1 i
  | _ => ⟨S2048x256x32, .f32⟩

abbrev bufTy : (tb : Table) → Fin (tcTables nBuf tb) → BufTy
  | .hbm, ⟨i, _⟩ => hbmTy i
  | .local _ .vmem, ⟨i, _⟩ => vmemTy i
  | _, _ => ⟨S2048x256x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 160 → Bool
  | ⟨i, _⟩ => dmaSemScopedAt i

abbrev sig : RefSig :=
  ofTc nBuf bufTy 0 160 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62_0 : Ref sig .tc := ⟨.hbm, 80, rfl⟩
abbrev main_v62_1 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114_0 : Ref sig .tc := ⟨.hbm, 133, rfl⟩
abbrev main_v114_1 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166_0 : Ref sig .tc := ⟨.hbm, 186, rfl⟩
abbrev main_v166_1 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218_0 : Ref sig .tc := ⟨.hbm, 239, rfl⟩
abbrev main_v218_1 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270_0 : Ref sig .tc := ⟨.hbm, 292, rfl⟩
abbrev main_v270_1 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_v302 : Ref sig .tc := ⟨.hbm, 325, rfl⟩
abbrev main_v303 : Ref sig .tc := ⟨.hbm, 326, rfl⟩
abbrev main_v304 : Ref sig .tc := ⟨.hbm, 327, rfl⟩
abbrev main_v305 : Ref sig .tc := ⟨.hbm, 328, rfl⟩
abbrev main_v306 : Ref sig .tc := ⟨.hbm, 329, rfl⟩
abbrev main_v307 : Ref sig .tc := ⟨.hbm, 330, rfl⟩
abbrev main_v308 : Ref sig .tc := ⟨.hbm, 331, rfl⟩
abbrev main_v309 : Ref sig .tc := ⟨.hbm, 332, rfl⟩
abbrev main_v310 : Ref sig .tc := ⟨.hbm, 333, rfl⟩
abbrev main_v311 : Ref sig .tc := ⟨.hbm, 334, rfl⟩
abbrev main_v312 : Ref sig .tc := ⟨.hbm, 335, rfl⟩
abbrev main_v313 : Ref sig .tc := ⟨.hbm, 336, rfl⟩
abbrev main_v314 : Ref sig .tc := ⟨.hbm, 337, rfl⟩
abbrev main_v315 : Ref sig .tc := ⟨.hbm, 338, rfl⟩
abbrev main_v316 : Ref sig .tc := ⟨.hbm, 339, rfl⟩
abbrev main_v317 : Ref sig .tc := ⟨.hbm, 340, rfl⟩
abbrev main_v318 : Ref sig .tc := ⟨.hbm, 341, rfl⟩
abbrev main_v319 : Ref sig .tc := ⟨.hbm, 342, rfl⟩
abbrev main_v320 : Ref sig .tc := ⟨.hbm, 343, rfl⟩
abbrev main_v321 : Ref sig .tc := ⟨.hbm, 344, rfl⟩
abbrev main_v322_0 : Ref sig .tc := ⟨.hbm, 345, rfl⟩
abbrev main_v322_1 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_v347 : Ref sig .tc := ⟨.hbm, 371, rfl⟩
abbrev main_v348 : Ref sig .tc := ⟨.hbm, 372, rfl⟩
abbrev main_v349 : Ref sig .tc := ⟨.hbm, 373, rfl⟩
abbrev main_v350 : Ref sig .tc := ⟨.hbm, 374, rfl⟩
abbrev main_v351 : Ref sig .tc := ⟨.hbm, 375, rfl⟩
abbrev main_v352 : Ref sig .tc := ⟨.hbm, 376, rfl⟩
abbrev main_v353 : Ref sig .tc := ⟨.hbm, 377, rfl⟩
abbrev main_v354 : Ref sig .tc := ⟨.hbm, 378, rfl⟩
abbrev main_v355 : Ref sig .tc := ⟨.hbm, 379, rfl⟩
abbrev main_v356 : Ref sig .tc := ⟨.hbm, 380, rfl⟩
abbrev main_v357 : Ref sig .tc := ⟨.hbm, 381, rfl⟩
abbrev main_v358 : Ref sig .tc := ⟨.hbm, 382, rfl⟩
abbrev main_v359 : Ref sig .tc := ⟨.hbm, 383, rfl⟩
abbrev main_v360 : Ref sig .tc := ⟨.hbm, 384, rfl⟩
abbrev main_v361 : Ref sig .tc := ⟨.hbm, 385, rfl⟩
abbrev main_v362 : Ref sig .tc := ⟨.hbm, 386, rfl⟩
abbrev main_v363 : Ref sig .tc := ⟨.hbm, 387, rfl⟩
abbrev main_v364 : Ref sig .tc := ⟨.hbm, 388, rfl⟩
abbrev main_v365 : Ref sig .tc := ⟨.hbm, 389, rfl⟩
abbrev main_v366 : Ref sig .tc := ⟨.hbm, 390, rfl⟩
abbrev main_v367 : Ref sig .tc := ⟨.hbm, 391, rfl⟩
abbrev main_v368 : Ref sig .tc := ⟨.hbm, 392, rfl⟩
abbrev main_v369 : Ref sig .tc := ⟨.hbm, 393, rfl⟩
abbrev main_v370 : Ref sig .tc := ⟨.hbm, 394, rfl⟩
abbrev main_v371 : Ref sig .tc := ⟨.hbm, 395, rfl⟩
abbrev main_v372 : Ref sig .tc := ⟨.hbm, 396, rfl⟩
abbrev main_v373 : Ref sig .tc := ⟨.hbm, 397, rfl⟩
abbrev main_v374_0 : Ref sig .tc := ⟨.hbm, 398, rfl⟩
abbrev main_v374_1 : Ref sig .tc := ⟨.hbm, 399, rfl⟩
abbrev main_v375 : Ref sig .tc := ⟨.hbm, 400, rfl⟩
abbrev main_v376 : Ref sig .tc := ⟨.hbm, 401, rfl⟩
abbrev main_v377 : Ref sig .tc := ⟨.hbm, 402, rfl⟩
abbrev main_v378 : Ref sig .tc := ⟨.hbm, 403, rfl⟩
abbrev main_v379 : Ref sig .tc := ⟨.hbm, 404, rfl⟩
abbrev main_v380 : Ref sig .tc := ⟨.hbm, 405, rfl⟩
abbrev main_v381 : Ref sig .tc := ⟨.hbm, 406, rfl⟩
abbrev main_v382 : Ref sig .tc := ⟨.hbm, 407, rfl⟩
abbrev main_v383 : Ref sig .tc := ⟨.hbm, 408, rfl⟩
abbrev main_v384 : Ref sig .tc := ⟨.hbm, 409, rfl⟩
abbrev main_v385 : Ref sig .tc := ⟨.hbm, 410, rfl⟩
abbrev main_v386 : Ref sig .tc := ⟨.hbm, 411, rfl⟩
abbrev main_v387 : Ref sig .tc := ⟨.hbm, 412, rfl⟩
abbrev main_v388 : Ref sig .tc := ⟨.hbm, 413, rfl⟩
abbrev main_v389 : Ref sig .tc := ⟨.hbm, 414, rfl⟩
abbrev main_v390 : Ref sig .tc := ⟨.hbm, 415, rfl⟩
abbrev main_v391 : Ref sig .tc := ⟨.hbm, 416, rfl⟩
abbrev main_v392 : Ref sig .tc := ⟨.hbm, 417, rfl⟩
abbrev main_v393 : Ref sig .tc := ⟨.hbm, 418, rfl⟩
abbrev main_v394 : Ref sig .tc := ⟨.hbm, 419, rfl⟩
abbrev main_v395 : Ref sig .tc := ⟨.hbm, 420, rfl⟩
abbrev main_v396 : Ref sig .tc := ⟨.hbm, 421, rfl⟩
abbrev main_v397 : Ref sig .tc := ⟨.hbm, 422, rfl⟩
abbrev main_v398 : Ref sig .tc := ⟨.hbm, 423, rfl⟩
abbrev main_v399 : Ref sig .tc := ⟨.hbm, 424, rfl⟩
abbrev main_v400 : Ref sig .tc := ⟨.hbm, 425, rfl⟩
abbrev main_v401 : Ref sig .tc := ⟨.hbm, 426, rfl⟩
abbrev main_v402 : Ref sig .tc := ⟨.hbm, 427, rfl⟩
abbrev main_v403 : Ref sig .tc := ⟨.hbm, 428, rfl⟩
abbrev main_v404 : Ref sig .tc := ⟨.hbm, 429, rfl⟩
abbrev main_v405 : Ref sig .tc := ⟨.hbm, 430, rfl⟩
abbrev main_v406 : Ref sig .tc := ⟨.hbm, 431, rfl⟩
abbrev main_v407 : Ref sig .tc := ⟨.hbm, 432, rfl⟩
abbrev main_v408 : Ref sig .tc := ⟨.hbm, 433, rfl⟩
abbrev main_v409 : Ref sig .tc := ⟨.hbm, 434, rfl⟩
abbrev main_v410 : Ref sig .tc := ⟨.hbm, 435, rfl⟩
abbrev main_v411 : Ref sig .tc := ⟨.hbm, 436, rfl⟩
abbrev main_v412 : Ref sig .tc := ⟨.hbm, 437, rfl⟩
abbrev main_v413 : Ref sig .tc := ⟨.hbm, 438, rfl⟩
abbrev main_v414 : Ref sig .tc := ⟨.hbm, 439, rfl⟩
abbrev main_v415 : Ref sig .tc := ⟨.hbm, 440, rfl⟩
abbrev main_v416 : Ref sig .tc := ⟨.hbm, 441, rfl⟩
abbrev main_v417 : Ref sig .tc := ⟨.hbm, 442, rfl⟩
abbrev main_v418 : Ref sig .tc := ⟨.hbm, 443, rfl⟩
abbrev main_v419 : Ref sig .tc := ⟨.hbm, 444, rfl⟩
abbrev main_v420 : Ref sig .tc := ⟨.hbm, 445, rfl⟩
abbrev main_v421 : Ref sig .tc := ⟨.hbm, 446, rfl⟩
abbrev main_v422 : Ref sig .tc := ⟨.hbm, 447, rfl⟩
abbrev main_v423 : Ref sig .tc := ⟨.hbm, 448, rfl⟩
abbrev main_v424 : Ref sig .tc := ⟨.hbm, 449, rfl⟩
abbrev main_v425 : Ref sig .tc := ⟨.hbm, 450, rfl⟩
abbrev main_v426_0 : Ref sig .tc := ⟨.hbm, 451, rfl⟩
abbrev main_v426_1 : Ref sig .tc := ⟨.hbm, 452, rfl⟩
abbrev main_v427 : Ref sig .tc := ⟨.hbm, 453, rfl⟩
abbrev main_v428 : Ref sig .tc := ⟨.hbm, 454, rfl⟩
abbrev main_v429 : Ref sig .tc := ⟨.hbm, 455, rfl⟩
abbrev main_v430 : Ref sig .tc := ⟨.hbm, 456, rfl⟩
abbrev main_v431 : Ref sig .tc := ⟨.hbm, 457, rfl⟩
abbrev main_v432 : Ref sig .tc := ⟨.hbm, 458, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc1_stg14_1 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg2_1 : Ref sig .tc := ⟨.vmem, 45, rfl⟩
abbrev cc2_stg3_0 : Ref sig .tc := ⟨.vmem, 46, rfl⟩
abbrev cc2_stg4_0 : Ref sig .tc := ⟨.vmem, 47, rfl⟩
abbrev cc2_stg5_0 : Ref sig .tc := ⟨.vmem, 48, rfl⟩
abbrev cc2_stg6_0 : Ref sig .tc := ⟨.vmem, 49, rfl⟩
abbrev cc2_stg7_0 : Ref sig .tc := ⟨.vmem, 50, rfl⟩
abbrev cc2_stg8_0 : Ref sig .tc := ⟨.vmem, 51, rfl⟩
abbrev cc2_stg9_0 : Ref sig .tc := ⟨.vmem, 52, rfl⟩
abbrev cc2_stg10_0 : Ref sig .tc := ⟨.vmem, 53, rfl⟩
abbrev cc2_stg11_0 : Ref sig .tc := ⟨.vmem, 54, rfl⟩
abbrev cc2_stg12_0 : Ref sig .tc := ⟨.vmem, 55, rfl⟩
abbrev cc2_stg13_0 : Ref sig .tc := ⟨.vmem, 56, rfl⟩
abbrev cc2_stg13_1 : Ref sig .tc := ⟨.vmem, 57, rfl⟩
abbrev cc2_stg14_0 : Ref sig .tc := ⟨.vmem, 58, rfl⟩
abbrev cc2_stg14_1 : Ref sig .tc := ⟨.vmem, 59, rfl⟩
abbrev cc3_stg0_0 : Ref sig .tc := ⟨.vmem, 60, rfl⟩
abbrev cc3_stg0_1 : Ref sig .tc := ⟨.vmem, 61, rfl⟩
abbrev cc3_stg1_0 : Ref sig .tc := ⟨.vmem, 62, rfl⟩
abbrev cc3_stg1_1 : Ref sig .tc := ⟨.vmem, 63, rfl⟩
abbrev cc3_stg2_0 : Ref sig .tc := ⟨.vmem, 64, rfl⟩
abbrev cc3_stg2_1 : Ref sig .tc := ⟨.vmem, 65, rfl⟩
abbrev cc3_stg3_0 : Ref sig .tc := ⟨.vmem, 66, rfl⟩
abbrev cc3_stg4_0 : Ref sig .tc := ⟨.vmem, 67, rfl⟩
abbrev cc3_stg5_0 : Ref sig .tc := ⟨.vmem, 68, rfl⟩
abbrev cc3_stg6_0 : Ref sig .tc := ⟨.vmem, 69, rfl⟩
abbrev cc3_stg7_0 : Ref sig .tc := ⟨.vmem, 70, rfl⟩
abbrev cc3_stg8_0 : Ref sig .tc := ⟨.vmem, 71, rfl⟩
abbrev cc3_stg9_0 : Ref sig .tc := ⟨.vmem, 72, rfl⟩
abbrev cc3_stg10_0 : Ref sig .tc := ⟨.vmem, 73, rfl⟩
abbrev cc3_stg11_0 : Ref sig .tc := ⟨.vmem, 74, rfl⟩
abbrev cc3_stg12_0 : Ref sig .tc := ⟨.vmem, 75, rfl⟩
abbrev cc3_stg13_0 : Ref sig .tc := ⟨.vmem, 76, rfl⟩
abbrev cc3_stg13_1 : Ref sig .tc := ⟨.vmem, 77, rfl⟩
abbrev cc3_stg14_0 : Ref sig .tc := ⟨.vmem, 78, rfl⟩
abbrev cc3_stg14_1 : Ref sig .tc := ⟨.vmem, 79, rfl⟩
abbrev cc4_stg0_0 : Ref sig .tc := ⟨.vmem, 80, rfl⟩
abbrev cc4_stg0_1 : Ref sig .tc := ⟨.vmem, 81, rfl⟩
abbrev cc4_stg1_0 : Ref sig .tc := ⟨.vmem, 82, rfl⟩
abbrev cc4_stg1_1 : Ref sig .tc := ⟨.vmem, 83, rfl⟩
abbrev cc4_stg2_0 : Ref sig .tc := ⟨.vmem, 84, rfl⟩
abbrev cc4_stg2_1 : Ref sig .tc := ⟨.vmem, 85, rfl⟩
abbrev cc4_stg3_0 : Ref sig .tc := ⟨.vmem, 86, rfl⟩
abbrev cc4_stg4_0 : Ref sig .tc := ⟨.vmem, 87, rfl⟩
abbrev cc4_stg5_0 : Ref sig .tc := ⟨.vmem, 88, rfl⟩
abbrev cc4_stg6_0 : Ref sig .tc := ⟨.vmem, 89, rfl⟩
abbrev cc4_stg7_0 : Ref sig .tc := ⟨.vmem, 90, rfl⟩
abbrev cc4_stg8_0 : Ref sig .tc := ⟨.vmem, 91, rfl⟩
abbrev cc4_stg9_0 : Ref sig .tc := ⟨.vmem, 92, rfl⟩
abbrev cc4_stg10_0 : Ref sig .tc := ⟨.vmem, 93, rfl⟩
abbrev cc4_stg11_0 : Ref sig .tc := ⟨.vmem, 94, rfl⟩
abbrev cc4_stg12_0 : Ref sig .tc := ⟨.vmem, 95, rfl⟩
abbrev cc4_stg13_0 : Ref sig .tc := ⟨.vmem, 96, rfl⟩
abbrev cc4_stg13_1 : Ref sig .tc := ⟨.vmem, 97, rfl⟩
abbrev cc4_stg14_0 : Ref sig .tc := ⟨.vmem, 98, rfl⟩
abbrev cc4_stg14_1 : Ref sig .tc := ⟨.vmem, 99, rfl⟩
abbrev cc5_stg0_0 : Ref sig .tc := ⟨.vmem, 100, rfl⟩
abbrev cc5_stg0_1 : Ref sig .tc := ⟨.vmem, 101, rfl⟩
abbrev cc5_stg1_0 : Ref sig .tc := ⟨.vmem, 102, rfl⟩
abbrev cc5_stg1_1 : Ref sig .tc := ⟨.vmem, 103, rfl⟩
abbrev cc5_stg2_0 : Ref sig .tc := ⟨.vmem, 104, rfl⟩
abbrev cc5_stg2_1 : Ref sig .tc := ⟨.vmem, 105, rfl⟩
abbrev cc5_stg3_0 : Ref sig .tc := ⟨.vmem, 106, rfl⟩
abbrev cc5_stg4_0 : Ref sig .tc := ⟨.vmem, 107, rfl⟩
abbrev cc5_stg5_0 : Ref sig .tc := ⟨.vmem, 108, rfl⟩
abbrev cc5_stg6_0 : Ref sig .tc := ⟨.vmem, 109, rfl⟩
abbrev cc5_stg7_0 : Ref sig .tc := ⟨.vmem, 110, rfl⟩
abbrev cc5_stg8_0 : Ref sig .tc := ⟨.vmem, 111, rfl⟩
abbrev cc5_stg9_0 : Ref sig .tc := ⟨.vmem, 112, rfl⟩
abbrev cc5_stg10_0 : Ref sig .tc := ⟨.vmem, 113, rfl⟩
abbrev cc5_stg11_0 : Ref sig .tc := ⟨.vmem, 114, rfl⟩
abbrev cc5_stg12_0 : Ref sig .tc := ⟨.vmem, 115, rfl⟩
abbrev cc5_stg13_0 : Ref sig .tc := ⟨.vmem, 116, rfl⟩
abbrev cc5_stg13_1 : Ref sig .tc := ⟨.vmem, 117, rfl⟩
abbrev cc5_stg14_0 : Ref sig .tc := ⟨.vmem, 118, rfl⟩
abbrev cc5_stg14_1 : Ref sig .tc := ⟨.vmem, 119, rfl⟩
abbrev cc6_stg0_0 : Ref sig .tc := ⟨.vmem, 120, rfl⟩
abbrev cc6_stg0_1 : Ref sig .tc := ⟨.vmem, 121, rfl⟩
abbrev cc6_stg1_0 : Ref sig .tc := ⟨.vmem, 122, rfl⟩
abbrev cc6_stg1_1 : Ref sig .tc := ⟨.vmem, 123, rfl⟩
abbrev cc6_stg2_0 : Ref sig .tc := ⟨.vmem, 124, rfl⟩
abbrev cc6_stg2_1 : Ref sig .tc := ⟨.vmem, 125, rfl⟩
abbrev cc6_stg3_0 : Ref sig .tc := ⟨.vmem, 126, rfl⟩
abbrev cc6_stg4_0 : Ref sig .tc := ⟨.vmem, 127, rfl⟩
abbrev cc6_stg5_0 : Ref sig .tc := ⟨.vmem, 128, rfl⟩
abbrev cc6_stg6_0 : Ref sig .tc := ⟨.vmem, 129, rfl⟩
abbrev cc6_stg7_0 : Ref sig .tc := ⟨.vmem, 130, rfl⟩
abbrev cc6_stg8_0 : Ref sig .tc := ⟨.vmem, 131, rfl⟩
abbrev cc6_stg9_0 : Ref sig .tc := ⟨.vmem, 132, rfl⟩
abbrev cc6_stg10_0 : Ref sig .tc := ⟨.vmem, 133, rfl⟩
abbrev cc6_stg11_0 : Ref sig .tc := ⟨.vmem, 134, rfl⟩
abbrev cc6_stg12_0 : Ref sig .tc := ⟨.vmem, 135, rfl⟩
abbrev cc6_stg13_0 : Ref sig .tc := ⟨.vmem, 136, rfl⟩
abbrev cc6_stg13_1 : Ref sig .tc := ⟨.vmem, 137, rfl⟩
abbrev cc6_stg14_0 : Ref sig .tc := ⟨.vmem, 138, rfl⟩
abbrev cc6_stg14_1 : Ref sig .tc := ⟨.vmem, 139, rfl⟩
abbrev cc7_stg0_0 : Ref sig .tc := ⟨.vmem, 140, rfl⟩
abbrev cc7_stg0_1 : Ref sig .tc := ⟨.vmem, 141, rfl⟩
abbrev cc7_stg1_0 : Ref sig .tc := ⟨.vmem, 142, rfl⟩
abbrev cc7_stg1_1 : Ref sig .tc := ⟨.vmem, 143, rfl⟩
abbrev cc7_stg2_0 : Ref sig .tc := ⟨.vmem, 144, rfl⟩
abbrev cc7_stg2_1 : Ref sig .tc := ⟨.vmem, 145, rfl⟩
abbrev cc7_stg3_0 : Ref sig .tc := ⟨.vmem, 146, rfl⟩
abbrev cc7_stg4_0 : Ref sig .tc := ⟨.vmem, 147, rfl⟩
abbrev cc7_stg5_0 : Ref sig .tc := ⟨.vmem, 148, rfl⟩
abbrev cc7_stg6_0 : Ref sig .tc := ⟨.vmem, 149, rfl⟩
abbrev cc7_stg7_0 : Ref sig .tc := ⟨.vmem, 150, rfl⟩
abbrev cc7_stg8_0 : Ref sig .tc := ⟨.vmem, 151, rfl⟩
abbrev cc7_stg9_0 : Ref sig .tc := ⟨.vmem, 152, rfl⟩
abbrev cc7_stg10_0 : Ref sig .tc := ⟨.vmem, 153, rfl⟩
abbrev cc7_stg11_0 : Ref sig .tc := ⟨.vmem, 154, rfl⟩
abbrev cc7_stg12_0 : Ref sig .tc := ⟨.vmem, 155, rfl⟩
abbrev cc7_stg13_0 : Ref sig .tc := ⟨.vmem, 156, rfl⟩
abbrev cc7_stg13_1 : Ref sig .tc := ⟨.vmem, 157, rfl⟩
abbrev cc7_stg14_0 : Ref sig .tc := ⟨.vmem, 158, rfl⟩
abbrev cc7_stg14_1 : Ref sig .tc := ⟨.vmem, 159, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem13_1 : DmaSem sig := 37
abbrev cc1_sem14_0 : DmaSem sig := 38
abbrev cc1_sem14_1 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem4_0 : DmaSem sig := 47
abbrev cc2_sem5_0 : DmaSem sig := 48
abbrev cc2_sem6_0 : DmaSem sig := 49
abbrev cc2_sem7_0 : DmaSem sig := 50
abbrev cc2_sem8_0 : DmaSem sig := 51
abbrev cc2_sem9_0 : DmaSem sig := 52
abbrev cc2_sem10_0 : DmaSem sig := 53
abbrev cc2_sem11_0 : DmaSem sig := 54
abbrev cc2_sem12_0 : DmaSem sig := 55
abbrev cc2_sem13_0 : DmaSem sig := 56
abbrev cc2_sem13_1 : DmaSem sig := 57
abbrev cc2_sem14_0 : DmaSem sig := 58
abbrev cc2_sem14_1 : DmaSem sig := 59
abbrev cc3_sem0_0 : DmaSem sig := 60
abbrev cc3_sem0_1 : DmaSem sig := 61
abbrev cc3_sem1_0 : DmaSem sig := 62
abbrev cc3_sem1_1 : DmaSem sig := 63
abbrev cc3_sem2_0 : DmaSem sig := 64
abbrev cc3_sem2_1 : DmaSem sig := 65
abbrev cc3_sem3_0 : DmaSem sig := 66
abbrev cc3_sem4_0 : DmaSem sig := 67
abbrev cc3_sem5_0 : DmaSem sig := 68
abbrev cc3_sem6_0 : DmaSem sig := 69
abbrev cc3_sem7_0 : DmaSem sig := 70
abbrev cc3_sem8_0 : DmaSem sig := 71
abbrev cc3_sem9_0 : DmaSem sig := 72
abbrev cc3_sem10_0 : DmaSem sig := 73
abbrev cc3_sem11_0 : DmaSem sig := 74
abbrev cc3_sem12_0 : DmaSem sig := 75
abbrev cc3_sem13_0 : DmaSem sig := 76
abbrev cc3_sem13_1 : DmaSem sig := 77
abbrev cc3_sem14_0 : DmaSem sig := 78
abbrev cc3_sem14_1 : DmaSem sig := 79
abbrev cc4_sem0_0 : DmaSem sig := 80
abbrev cc4_sem0_1 : DmaSem sig := 81
abbrev cc4_sem1_0 : DmaSem sig := 82
abbrev cc4_sem1_1 : DmaSem sig := 83
abbrev cc4_sem2_0 : DmaSem sig := 84
abbrev cc4_sem2_1 : DmaSem sig := 85
abbrev cc4_sem3_0 : DmaSem sig := 86
abbrev cc4_sem4_0 : DmaSem sig := 87
abbrev cc4_sem5_0 : DmaSem sig := 88
abbrev cc4_sem6_0 : DmaSem sig := 89
abbrev cc4_sem7_0 : DmaSem sig := 90
abbrev cc4_sem8_0 : DmaSem sig := 91
abbrev cc4_sem9_0 : DmaSem sig := 92
abbrev cc4_sem10_0 : DmaSem sig := 93
abbrev cc4_sem11_0 : DmaSem sig := 94
abbrev cc4_sem12_0 : DmaSem sig := 95
abbrev cc4_sem13_0 : DmaSem sig := 96
abbrev cc4_sem13_1 : DmaSem sig := 97
abbrev cc4_sem14_0 : DmaSem sig := 98
abbrev cc4_sem14_1 : DmaSem sig := 99
abbrev cc5_sem0_0 : DmaSem sig := 100
abbrev cc5_sem0_1 : DmaSem sig := 101
abbrev cc5_sem1_0 : DmaSem sig := 102
abbrev cc5_sem1_1 : DmaSem sig := 103
abbrev cc5_sem2_0 : DmaSem sig := 104
abbrev cc5_sem2_1 : DmaSem sig := 105
abbrev cc5_sem3_0 : DmaSem sig := 106
abbrev cc5_sem4_0 : DmaSem sig := 107
abbrev cc5_sem5_0 : DmaSem sig := 108
abbrev cc5_sem6_0 : DmaSem sig := 109
abbrev cc5_sem7_0 : DmaSem sig := 110
abbrev cc5_sem8_0 : DmaSem sig := 111
abbrev cc5_sem9_0 : DmaSem sig := 112
abbrev cc5_sem10_0 : DmaSem sig := 113
abbrev cc5_sem11_0 : DmaSem sig := 114
abbrev cc5_sem12_0 : DmaSem sig := 115
abbrev cc5_sem13_0 : DmaSem sig := 116
abbrev cc5_sem13_1 : DmaSem sig := 117
abbrev cc5_sem14_0 : DmaSem sig := 118
abbrev cc5_sem14_1 : DmaSem sig := 119
abbrev cc6_sem0_0 : DmaSem sig := 120
abbrev cc6_sem0_1 : DmaSem sig := 121
abbrev cc6_sem1_0 : DmaSem sig := 122
abbrev cc6_sem1_1 : DmaSem sig := 123
abbrev cc6_sem2_0 : DmaSem sig := 124
abbrev cc6_sem2_1 : DmaSem sig := 125
abbrev cc6_sem3_0 : DmaSem sig := 126
abbrev cc6_sem4_0 : DmaSem sig := 127
abbrev cc6_sem5_0 : DmaSem sig := 128
abbrev cc6_sem6_0 : DmaSem sig := 129
abbrev cc6_sem7_0 : DmaSem sig := 130
abbrev cc6_sem8_0 : DmaSem sig := 131
abbrev cc6_sem9_0 : DmaSem sig := 132
abbrev cc6_sem10_0 : DmaSem sig := 133
abbrev cc6_sem11_0 : DmaSem sig := 134
abbrev cc6_sem12_0 : DmaSem sig := 135
abbrev cc6_sem13_0 : DmaSem sig := 136
abbrev cc6_sem13_1 : DmaSem sig := 137
abbrev cc6_sem14_0 : DmaSem sig := 138
abbrev cc6_sem14_1 : DmaSem sig := 139
abbrev cc7_sem0_0 : DmaSem sig := 140
abbrev cc7_sem0_1 : DmaSem sig := 141
abbrev cc7_sem1_0 : DmaSem sig := 142
abbrev cc7_sem1_1 : DmaSem sig := 143
abbrev cc7_sem2_0 : DmaSem sig := 144
abbrev cc7_sem2_1 : DmaSem sig := 145
abbrev cc7_sem3_0 : DmaSem sig := 146
abbrev cc7_sem4_0 : DmaSem sig := 147
abbrev cc7_sem5_0 : DmaSem sig := 148
abbrev cc7_sem6_0 : DmaSem sig := 149
abbrev cc7_sem7_0 : DmaSem sig := 150
abbrev cc7_sem8_0 : DmaSem sig := 151
abbrev cc7_sem9_0 : DmaSem sig := 152
abbrev cc7_sem10_0 : DmaSem sig := 153
abbrev cc7_sem11_0 : DmaSem sig := 154
abbrev cc7_sem12_0 : DmaSem sig := 155
abbrev cc7_sem13_0 : DmaSem sig := 156
abbrev cc7_sem13_1 : DmaSem sig := 157
abbrev cc7_sem14_0 : DmaSem sig := 158
abbrev cc7_sem14_1 : DmaSem sig := 159

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x4096 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x4096 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x4096 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x4096 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S64x4096 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S64x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x4096 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x4096 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1024x4096 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x4096 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S64x4096 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S64x1 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S4096x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x4096 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x4096 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1024x4096 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x4096 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S64x4096 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S64x1 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S64x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S64x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S64x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S4096x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1024x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1024x1024 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1024x4096 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x4096 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1024x4096 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x4096 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x1 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S64x4096 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev stage4_14 : Fin 2 → Memref sig .tc .vmem S64x1 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S64x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S64x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S64x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S4096x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1024x1024 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1024x1024 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1024x4096 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x4096 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1024x4096 .bf16 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x4096 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x1 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S64x4096 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev stage5_14 : Fin 2 → Memref sig .tc .vmem S64x1 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_14 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S64x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S64x4096 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S64x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S4096x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1024x1024 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1024x1024 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1024x4096 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x4096 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1024x4096 .bf16 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x4096 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x1 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 2 → Memref sig .tc .vmem S64x4096 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

abbrev stage6_14 : Fin 2 → Memref sig .tc .vmem S64x1 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_14 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S64x4096 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S64x4096 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S64x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S4096x1024 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1024x1024 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1024x1024 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x1024 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1024x4096 .bf16 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x4096 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1024x4096 .bf16 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S1x4096 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x1 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 2 → Memref sig .tc .vmem S64x4096 .f32 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![true]

abbrev stage7_14 : Fin 2 → Memref sig .tc .vmem S64x1 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true]

class Facts₀ : Prop where
  shapeCasts_S2048x256x32_S2048x8192 : S2048x256x32.ShapeCasts S2048x8192
  bcast_S_S2048 : S_.BroadcastsInDim S2048 (![] : Fin 0 → Fin S2048.rank)
  bcast_S2048_S2048x1_0 : S2048.BroadcastsInDim S2048x1 (![0] : Fin 1 → Fin S2048x1.rank)
  reducesTo_S8x8192_S8_d1 : S8x8192.ReducesTo [1] S8
  h_S_ : 0 < S_.numel
  slices_S8x5120x1024_S8x4096x1024_0_0_0 : S8x5120x1024.Slices ![0, 0, 0] S8x4096x1024
  bitsLt_bf16_f32 : FTy.bits .bf16 < FTy.bits .f32
  slices_S8x5120x1024_S8x1024x1024_0_4096_0 : S8x5120x1024.Slices ![0, 4096, 0] S8x1024x1024
  slices_S8x8192_S1x8192_0_0 : S8x8192.Slices ![0, 0] S1x8192
  shapeCasts_S1x8192_S8192 : S1x8192.ShapeCasts S8192
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  slices_S8_S1_0 : S8.Slices ![0] S1
  shapeCasts_S1_S_ : S1.ShapeCasts S_
  shapeCasts_S2048x8192_S2048x4096x2 : S2048x8192.ShapeCasts S2048x4096x2
  slices_S2048x4096x2_S2048x4096x1_0_0_0 : S2048x4096x2.Slices ![0, 0, 0] S2048x4096x1
  shapeCasts_S2048x4096x1_S2048x4096 : S2048x4096x1.ShapeCasts S2048x4096
  slices_S2048x4096x2_S2048x4096x1_0_0_1 : S2048x4096x2.Slices ![0, 0, 1] S2048x4096x1
  slices_S8x4096x1024_S1x4096x1024_0_0_0 : S8x4096x1024.Slices ![0, 0, 0] S1x4096x1024
  shapeCasts_S1x4096x1024_S4096x1024 : S1x4096x1024.ShapeCasts S4096x1024
  slices_S8x1024x1024_S1x1024x1024_0_0_0 : S8x1024x1024.Slices ![0, 0, 0] S1x1024x1024
  shapeCasts_S1x1024x1024_S1024x1024 : S1x1024x1024.ShapeCasts S1024x1024
  slices_S8x1024_S1x1024_0_0 : S8x1024.Slices ![0, 0] S1x1024
  shapeCasts_S1x1024_S1024 : S1x1024.ShapeCasts S1024
  shapeCasts_S1024_S1x1024 : S1024.ShapeCasts S1x1024
  slices_S8x1024x4096_S1x1024x4096_0_0_0 : S8x1024x4096.Slices ![0, 0, 0] S1x1024x4096
  shapeCasts_S1x1024x4096_S1024x4096 : S1x1024x4096.ShapeCasts S1024x4096
  slices_S8x4096_S1x4096_0_0 : S8x4096.Slices ![0, 0] S1x4096
  shapeCasts_S1x4096_S4096 : S1x4096.ShapeCasts S4096
  shapeCasts_S4096_S1x4096 : S4096.ShapeCasts S1x4096
  shapeCasts_S_S1x1 : S_.ShapeCasts S1x1
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  reduces_S64x4096_S64 : S64x4096.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S2048x1_S2048 : S2048x1.ShapeCasts S2048
  bcast_S2048x4096_S2048x4096x1_0_1 : S2048x4096.BroadcastsInDim S2048x4096x1 (![0, 1] : Fin 2 → Fin S2048x4096x1.rank)
  concatenates_S2048x4096x1_S2048x4096x1_S2048x4096x2_d2 : Shape.Concatenates [S2048x4096x1, S2048x4096x1] S2048x4096x2 2
  shapeCasts_S2048x4096x2_S2048x8192 : S2048x4096x2.ShapeCasts S2048x8192
  slices_S8x8192_S1x8192_1_0 : S8x8192.Slices ![1, 0] S1x8192
  slices_S8_S1_1 : S8.Slices ![1] S1
  slices_S8x4096x1024_S1x4096x1024_1_0_0 : S8x4096x1024.Slices ![1, 0, 0] S1x4096x1024
  slices_S8x1024x1024_S1x1024x1024_1_0_0 : S8x1024x1024.Slices ![1, 0, 0] S1x1024x1024
  slices_S8x1024_S1x1024_1_0 : S8x1024.Slices ![1, 0] S1x1024
  slices_S8x1024x4096_S1x1024x4096_1_0_0 : S8x1024x4096.Slices ![1, 0, 0] S1x1024x4096
  slices_S8x4096_S1x4096_1_0 : S8x4096.Slices ![1, 0] S1x4096
  slices_S8x8192_S1x8192_2_0 : S8x8192.Slices ![2, 0] S1x8192
  slices_S8_S1_2 : S8.Slices ![2] S1
  slices_S8x4096x1024_S1x4096x1024_2_0_0 : S8x4096x1024.Slices ![2, 0, 0] S1x4096x1024
  slices_S8x1024x1024_S1x1024x1024_2_0_0 : S8x1024x1024.Slices ![2, 0, 0] S1x1024x1024
  slices_S8x1024_S1x1024_2_0 : S8x1024.Slices ![2, 0] S1x1024
  slices_S8x1024x4096_S1x1024x4096_2_0_0 : S8x1024x4096.Slices ![2, 0, 0] S1x1024x4096
  slices_S8x4096_S1x4096_2_0 : S8x4096.Slices ![2, 0] S1x4096
  slices_S8x8192_S1x8192_3_0 : S8x8192.Slices ![3, 0] S1x8192
  slices_S8_S1_3 : S8.Slices ![3] S1
  slices_S8x4096x1024_S1x4096x1024_3_0_0 : S8x4096x1024.Slices ![3, 0, 0] S1x4096x1024
  slices_S8x1024x1024_S1x1024x1024_3_0_0 : S8x1024x1024.Slices ![3, 0, 0] S1x1024x1024
  slices_S8x1024_S1x1024_3_0 : S8x1024.Slices ![3, 0] S1x1024
  slices_S8x1024x4096_S1x1024x4096_3_0_0 : S8x1024x4096.Slices ![3, 0, 0] S1x1024x4096
  slices_S8x4096_S1x4096_3_0 : S8x4096.Slices ![3, 0] S1x4096
  slices_S8x8192_S1x8192_4_0 : S8x8192.Slices ![4, 0] S1x8192
  slices_S8_S1_4 : S8.Slices ![4] S1
  slices_S8x4096x1024_S1x4096x1024_4_0_0 : S8x4096x1024.Slices ![4, 0, 0] S1x4096x1024
  slices_S8x1024x1024_S1x1024x1024_4_0_0 : S8x1024x1024.Slices ![4, 0, 0] S1x1024x1024
  slices_S8x1024_S1x1024_4_0 : S8x1024.Slices ![4, 0] S1x1024
  slices_S8x1024x4096_S1x1024x4096_4_0_0 : S8x1024x4096.Slices ![4, 0, 0] S1x1024x4096
  slices_S8x4096_S1x4096_4_0 : S8x4096.Slices ![4, 0] S1x4096
  slices_S8x8192_S1x8192_5_0 : S8x8192.Slices ![5, 0] S1x8192
  slices_S8_S1_5 : S8.Slices ![5] S1
  slices_S8x4096x1024_S1x4096x1024_5_0_0 : S8x4096x1024.Slices ![5, 0, 0] S1x4096x1024
  slices_S8x1024x1024_S1x1024x1024_5_0_0 : S8x1024x1024.Slices ![5, 0, 0] S1x1024x1024
  slices_S8x1024_S1x1024_5_0 : S8x1024.Slices ![5, 0] S1x1024
  slices_S8x1024x4096_S1x1024x4096_5_0_0 : S8x1024x4096.Slices ![5, 0, 0] S1x1024x4096
  slices_S8x4096_S1x4096_5_0 : S8x4096.Slices ![5, 0] S1x4096
  slices_S8x8192_S1x8192_6_0 : S8x8192.Slices ![6, 0] S1x8192
  slices_S8_S1_6 : S8.Slices ![6] S1
  slices_S8x4096x1024_S1x4096x1024_6_0_0 : S8x4096x1024.Slices ![6, 0, 0] S1x4096x1024
  slices_S8x1024x1024_S1x1024x1024_6_0_0 : S8x1024x1024.Slices ![6, 0, 0] S1x1024x1024
  slices_S8x1024_S1x1024_6_0 : S8x1024.Slices ![6, 0] S1x1024
  slices_S8x1024x4096_S1x1024x4096_6_0_0 : S8x1024x4096.Slices ![6, 0, 0] S1x1024x4096
  slices_S8x4096_S1x4096_6_0 : S8x4096.Slices ![6, 0] S1x4096
  slices_S8x8192_S1x8192_7_0 : S8x8192.Slices ![7, 0] S1x8192
  slices_S8_S1_7 : S8.Slices ![7] S1
  slices_S8x4096x1024_S1x4096x1024_7_0_0 : S8x4096x1024.Slices ![7, 0, 0] S1x4096x1024
  slices_S8x1024x1024_S1x1024x1024_7_0_0 : S8x1024x1024.Slices ![7, 0, 0] S1x1024x1024
  slices_S8x1024_S1x1024_7_0 : S8x1024.Slices ![7, 0] S1x1024
  slices_S8x1024x4096_S1x1024x4096_7_0_0 : S8x1024x4096.Slices ![7, 0, 0] S1x1024x4096
  slices_S8x4096_S1x4096_7_0 : S8x4096.Slices ![7, 0] S1x4096
  gather_S4x1024_S2048x1_S2048x1024_1_0_n_n_0_1_11024_wf : GatherDims.WF S4x1024 S2048x1 S2048x1024 [1] [0] [] [0] [] 1 ![1, 1024]
  dot_S64x4096_S4096x1024_S64x1024_1_0_0_1_n_n_wf : DotDims.WF S64x4096 S4096x1024 S64x1024 [1] [0] [0] [1] [] []
  dot_S64x1024_S1024x1024_S64x1024_1_0_0_1_n_n_wf : DotDims.WF S64x1024 S1024x1024 S64x1024 [1] [0] [0] [1] [] []
  dot_S64x1024_S1024x4096_S64x4096_1_0_0_1_n_n_wf : DotDims.WF S64x1024 S1024x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S2048x4096.size a
  hwx0_0 : ∀ i : grid0.Coords, EltTy.bits .f32 = 32 ∨ (Rect.block (s := S2048x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S2048x4096.size a
  hwx0_1 : ∀ i : grid0.Coords, EltTy.bits .f32 = 32 ∨ (Rect.block (s := S2048x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S2048x1024.size a
  hwx0_2 : ∀ i : grid0.Coords, EltTy.bits .f32 = 32 ∨ (Rect.block (s := S2048x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x4096.size a ≤ S1024x4096.size a
  hwx0_8 : ∀ i : grid0.Coords, EltTy.bits .bf16 = 32 ∨ (Rect.block (s := S1024x4096) S1024x4096.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x4096.size a ≤ S1024x4096.size a
  hwx0_10 : ∀ i : grid0.Coords, EltTy.bits .bf16 = 32 ∨ (Rect.block (s := S1024x4096) S1024x4096.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4096.size a ≤ S1x4096.size a
  hwx0_11 : ∀ i : grid0.Coords, EltTy.bits .f32 = 32 ∨ (Rect.block (s := S1x4096) S1x4096.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S64x4096.size a ≤ S2048x4096.size a
  hwx0_13 : ∀ i : grid0.Coords, EltTy.bits .f32 = 32 ∨ (Rect.block (s := S2048x4096) S64x4096.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x1.size a ≤ S2048x1.size a
  hwx0_14 : ∀ i : grid0.Coords, EltTy.bits .f32 = 32 ∨ (Rect.block (s := S2048x1) S64x1.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S2048x4096.size a
  hwx1_0 : ∀ i : grid1.Coords, EltTy.bits .f32 = 32 ∨ (Rect.block (s := S2048x4096) S64x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S2048x4096.size a
  hwx1_1 : ∀ i : grid1.Coords, EltTy.bits .f32 = 32 ∨ (Rect.block (s := S2048x4096) S64x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S2048x1024.size a
  hwx1_2 : ∀ i : grid1.Coords, EltTy.bits .f32 = 32 ∨ (Rect.block (s := S2048x1024) S64x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S1024x1024.size a
  hwx1_6 : ∀ i : grid1.Coords, EltTy.bits .bf16 = 32 ∨ (Rect.block (s := S1024x1024) S1024x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024x4096.size a ≤ S1024x4096.size a
  hwx1_8 : ∀ i : grid1.Coords, EltTy.bits .bf16 = 32 ∨ (Rect.block (s := S1024x4096) S1024x4096.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x4096.size a ≤ S1x4096.size a
  hwx1_9 : ∀ i : grid1.Coords, EltTy.bits .f32 = 32 ∨ (Rect.block (s := S1x4096) S1x4096.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1024x4096.size a ≤ S1024x4096.size a
  hwx1_10 : ∀ i : grid1.Coords, EltTy.bits .bf16 = 32 ∨ (Rect.block (s := S1024x4096) S1024x4096.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x4096.size a ≤ S1x4096.size a
  hwx1_11 : ∀ i : grid1.Coords, EltTy.bits .f32 = 32 ∨ (Rect.block (s := S1x4096) S1x4096.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S64x4096.size a ≤ S2048x4096.size a
  hwx1_13 : ∀ i : grid1.Coords, EltTy.bits .f32 = 32 ∨ (Rect.block (s := S2048x4096) S64x4096.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S64x1.size a ≤ S2048x1.size a
  hwx1_14 : ∀ i : grid1.Coords, EltTy.bits .f32 = 32 ∨ (Rect.block (s := S2048x1) S64x1.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S2048x4096.size a
  hwx2_0 : ∀ i : grid2.Coords, EltTy.bits .f32 = 32 ∨ (Rect.block (s := S2048x4096) S64x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x4096.size a ≤ S2048x4096.size a
  hwx2_1 : ∀ i : grid2.Coords, EltTy.bits .f32 = 32 ∨ (Rect.block (s := S2048x4096) S64x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x1024.size a ≤ S2048x1024.size a
  hwx2_2 : ∀ i : grid2.Coords, EltTy.bits .f32 = 32 ∨ (Rect.block (s := S2048x1024) S64x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x1024.size a ≤ S4096x1024.size a
  hwx2_3 : ∀ i : grid2.Coords, EltTy.bits .bf16 = 32 ∨ (Rect.block (s := S4096x1024) S4096x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S1024x1024.size a
  hwx2_4 : ∀ i : grid2.Coords, EltTy.bits .bf16 = 32 ∨ (Rect.block (s := S1024x1024) S1024x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024x1024.size a ≤ S1024x1024.size a
  hwx2_6 : ∀ i : grid2.Coords, EltTy.bits .bf16 = 32 ∨ (Rect.block (s := S1024x1024) S1024x1024.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1024.size a ≤ S1x1024.size a
  hwx2_7 : ∀ i : grid2.Coords, EltTy.bits .f32 = 32 ∨ (Rect.block (s := S1x1024) S1x1024.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1024x4096.size a ≤ S1024x4096.size a
  hwx2_8 : ∀ i : grid2.Coords, EltTy.bits .bf16 = 32 ∨ (Rect.block (s := S1024x4096) S1024x4096.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x4096.size a ≤ S1x4096.size a
  hwx2_9 : ∀ i : grid2.Coords, EltTy.bits .f32 = 32 ∨ (Rect.block (s := S1x4096) S1x4096.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1024x4096.size a ≤ S1024x4096.size a
  hwx2_10 : ∀ i : grid2.Coords, EltTy.bits .bf16 = 32 ∨ (Rect.block (s := S1024x4096) S1024x4096.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x4096.size a ≤ S1x4096.size a
  hwx2_11 : ∀ i : grid2.Coords, EltTy.bits .f32 = 32 ∨ (Rect.block (s := S1x4096) S1x4096.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x1.size a ≤ S1x1.size a
  hwx2_12 : ∀ i : grid2.Coords, EltTy.bits .f32 = 32 ∨ (Rect.block (s := S1x1) S1x1.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S64x4096.size a ≤ S2048x4096.size a
  hwx2_13 : ∀ i : grid2.Coords, EltTy.bits .f32 = 32 ∨ (Rect.block (s := S2048x4096) S64x4096.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S64x1.size a ≤ S2048x1.size a
  hwx2_14 : ∀ i : grid2.Coords, EltTy.bits .f32 = 32 ∨ (Rect.block (s := S2048x1) S64x1.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x4096.size a ≤ S2048x4096.size a
  hwx3_0 : ∀ i : grid3.Coords, EltTy.bits .f32 = 32 ∨ (Rect.block (s := S2048x4096) S64x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x4096.size a ≤ S2048x4096.size a
  hwx3_1 : ∀ i : grid3.Coords, EltTy.bits .f32 = 32 ∨ (Rect.block (s := S2048x4096) S64x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x1024.size a ≤ S2048x1024.size a
  hwx3_2 : ∀ i : grid3.Coords, EltTy.bits .f32 = 32 ∨ (Rect.block (s := S2048x1024) S64x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x1024.size a ≤ S4096x1024.size a
  hwx3_3 : ∀ i : grid3.Coords, EltTy.bits .bf16 = 32 ∨ (Rect.block (s := S4096x1024) S4096x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S1024x1024.size a
  hwx3_4 : ∀ i : grid3.Coords, EltTy.bits .bf16 = 32 ∨ (Rect.block (s := S1024x1024) S1024x1024.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x1024.size a ≤ S1024x1024.size a
  hwx3_6 : ∀ i : grid3.Coords, EltTy.bits .bf16 = 32 ∨ (Rect.block (s := S1024x1024) S1024x1024.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1024.size a ≤ S1x1024.size a
  hwx3_7 : ∀ i : grid3.Coords, EltTy.bits .f32 = 32 ∨ (Rect.block (s := S1x1024) S1x1024.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1024x4096.size a ≤ S1024x4096.size a
  hwx3_8 : ∀ i : grid3.Coords, EltTy.bits .bf16 = 32 ∨ (Rect.block (s := S1024x4096) S1024x4096.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x4096.size a ≤ S1x4096.size a
  hwx3_9 : ∀ i : grid3.Coords, EltTy.bits .f32 = 32 ∨ (Rect.block (s := S1x4096) S1x4096.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1024x4096.size a ≤ S1024x4096.size a
  hwx3_10 : ∀ i : grid3.Coords, EltTy.bits .bf16 = 32 ∨ (Rect.block (s := S1024x4096) S1024x4096.size (cc3_transform_10 i) (hinb3_10 i)).WholeWords (EltTy.packing .bf16)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x4096.size a ≤ S1x4096.size a
  hwx3_11 : ∀ i : grid3.Coords, EltTy.bits .f32 = 32 ∨ (Rect.block (s := S1x4096) S1x4096.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x1.size a ≤ S1x1.size a
  hwx3_12 : ∀ i : grid3.Coords, EltTy.bits .f32 = 32 ∨ (Rect.block (s := S1x1) S1x1.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S64x4096.size a ≤ S2048x4096.size a
  hwx3_13 : ∀ i : grid3.Coords, EltTy.bits .f32 = 32 ∨ (Rect.block (s := S2048x4096) S64x4096.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S64x1.size a ≤ S2048x1.size a
  hwx3_14 : ∀ i : grid3.Coords, EltTy.bits .f32 = 32 ∨ (Rect.block (s := S2048x1) S64x1.size (cc3_transform_14 i) (hinb3_14 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x4096.size a ≤ S2048x4096.size a
  hwx4_0 : ∀ i : grid4.Coords, EltTy.bits .f32 = 32 ∨ (Rect.block (s := S2048x4096) S64x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x4096.size a ≤ S2048x4096.size a
  hwx4_1 : ∀ i : grid4.Coords, EltTy.bits .f32 = 32 ∨ (Rect.block (s := S2048x4096) S64x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S64x1024.size a ≤ S2048x1024.size a
  hwx4_2 : ∀ i : grid4.Coords, EltTy.bits .f32 = 32 ∨ (Rect.block (s := S2048x1024) S64x1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4096x1024.size a ≤ S4096x1024.size a
  hwx4_3 : ∀ i : grid4.Coords, EltTy.bits .bf16 = 32 ∨ (Rect.block (s := S4096x1024) S4096x1024.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1024x1024.size a ≤ S1024x1024.size a
  hwx4_4 : ∀ i : grid4.Coords, EltTy.bits .bf16 = 32 ∨ (Rect.block (s := S1024x1024) S1024x1024.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1024.size a ≤ S1x1024.size a
  hwx4_5 : ∀ i : grid4.Coords, EltTy.bits .f32 = 32 ∨ (Rect.block (s := S1x1024) S1x1024.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1024x1024.size a ≤ S1024x1024.size a
  hwx4_6 : ∀ i : grid4.Coords, EltTy.bits .bf16 = 32 ∨ (Rect.block (s := S1024x1024) S1024x1024.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1024.size a ≤ S1x1024.size a
  hwx4_7 : ∀ i : grid4.Coords, EltTy.bits .f32 = 32 ∨ (Rect.block (s := S1x1024) S1x1024.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1024x4096.size a ≤ S1024x4096.size a
  hwx4_8 : ∀ i : grid4.Coords, EltTy.bits .bf16 = 32 ∨ (Rect.block (s := S1024x4096) S1024x4096.size (cc4_transform_8 i) (hinb4_8 i)).WholeWords (EltTy.packing .bf16)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x4096.size a ≤ S1x4096.size a
  hwx4_9 : ∀ i : grid4.Coords, EltTy.bits .f32 = 32 ∨ (Rect.block (s := S1x4096) S1x4096.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1024x4096.size a ≤ S1024x4096.size a
  hwx4_10 : ∀ i : grid4.Coords, EltTy.bits .bf16 = 32 ∨ (Rect.block (s := S1024x4096) S1024x4096.size (cc4_transform_10 i) (hinb4_10 i)).WholeWords (EltTy.packing .bf16)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x4096.size a ≤ S1x4096.size a
  hwx4_11 : ∀ i : grid4.Coords, EltTy.bits .f32 = 32 ∨ (Rect.block (s := S1x4096) S1x4096.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x1.size a ≤ S1x1.size a
  hwx4_12 : ∀ i : grid4.Coords, EltTy.bits .f32 = 32 ∨ (Rect.block (s := S1x1) S1x1.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S64x4096.size a ≤ S2048x4096.size a
  hwx4_13 : ∀ i : grid4.Coords, EltTy.bits .f32 = 32 ∨ (Rect.block (s := S2048x4096) S64x4096.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S64x1.size a ≤ S2048x1.size a
  hwx4_14 : ∀ i : grid4.Coords, EltTy.bits .f32 = 32 ∨ (Rect.block (s := S2048x1) S64x1.size (cc4_transform_14 i) (hinb4_14 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S64x4096.size a ≤ S2048x4096.size a
  hwx5_0 : ∀ i : grid5.Coords, EltTy.bits .f32 = 32 ∨ (Rect.block (s := S2048x4096) S64x4096.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S64x4096.size a ≤ S2048x4096.size a
  hwx5_1 : ∀ i : grid5.Coords, EltTy.bits .f32 = 32 ∨ (Rect.block (s := S2048x4096) S64x4096.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S64x1024.size a ≤ S2048x1024.size a
  hwx5_2 : ∀ i : grid5.Coords, EltTy.bits .f32 = 32 ∨ (Rect.block (s := S2048x1024) S64x1024.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S4096x1024.size a ≤ S4096x1024.size a
  hwx5_3 : ∀ i : grid5.Coords, EltTy.bits .bf16 = 32 ∨ (Rect.block (s := S4096x1024) S4096x1024.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1024x1024.size a ≤ S1024x1024.size a
  hwx5_4 : ∀ i : grid5.Coords, EltTy.bits .bf16 = 32 ∨ (Rect.block (s := S1024x1024) S1024x1024.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1024.size a ≤ S1x1024.size a
  hwx5_5 : ∀ i : grid5.Coords, EltTy.bits .f32 = 32 ∨ (Rect.block (s := S1x1024) S1x1024.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1024x1024.size a ≤ S1024x1024.size a
  hwx5_6 : ∀ i : grid5.Coords, EltTy.bits .bf16 = 32 ∨ (Rect.block (s := S1024x1024) S1024x1024.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x1024.size a ≤ S1x1024.size a
  hwx5_7 : ∀ i : grid5.Coords, EltTy.bits .f32 = 32 ∨ (Rect.block (s := S1x1024) S1x1024.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1024x4096.size a ≤ S1024x4096.size a
  hwx5_8 : ∀ i : grid5.Coords, EltTy.bits .bf16 = 32 ∨ (Rect.block (s := S1024x4096) S1024x4096.size (cc5_transform_8 i) (hinb5_8 i)).WholeWords (EltTy.packing .bf16)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x4096.size a ≤ S1x4096.size a
  hwx5_9 : ∀ i : grid5.Coords, EltTy.bits .f32 = 32 ∨ (Rect.block (s := S1x4096) S1x4096.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1024x4096.size a ≤ S1024x4096.size a
  hwx5_10 : ∀ i : grid5.Coords, EltTy.bits .bf16 = 32 ∨ (Rect.block (s := S1024x4096) S1024x4096.size (cc5_transform_10 i) (hinb5_10 i)).WholeWords (EltTy.packing .bf16)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x4096.size a ≤ S1x4096.size a
  hwx5_11 : ∀ i : grid5.Coords, EltTy.bits .f32 = 32 ∨ (Rect.block (s := S1x4096) S1x4096.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x1.size a ≤ S1x1.size a
  hwx5_12 : ∀ i : grid5.Coords, EltTy.bits .f32 = 32 ∨ (Rect.block (s := S1x1) S1x1.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S64x4096.size a ≤ S2048x4096.size a
  hwx5_13 : ∀ i : grid5.Coords, EltTy.bits .f32 = 32 ∨ (Rect.block (s := S2048x4096) S64x4096.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S64x1.size a ≤ S2048x1.size a
  hwx5_14 : ∀ i : grid5.Coords, EltTy.bits .f32 = 32 ∨ (Rect.block (s := S2048x1) S64x1.size (cc5_transform_14 i) (hinb5_14 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S64x4096.size a ≤ S2048x4096.size a
  hwx6_0 : ∀ i : grid6.Coords, EltTy.bits .f32 = 32 ∨ (Rect.block (s := S2048x4096) S64x4096.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S64x4096.size a ≤ S2048x4096.size a
  hwx6_1 : ∀ i : grid6.Coords, EltTy.bits .f32 = 32 ∨ (Rect.block (s := S2048x4096) S64x4096.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S64x1024.size a ≤ S2048x1024.size a
  hwx6_2 : ∀ i : grid6.Coords, EltTy.bits .f32 = 32 ∨ (Rect.block (s := S2048x1024) S64x1024.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S4096x1024.size a ≤ S4096x1024.size a
  hwx6_3 : ∀ i : grid6.Coords, EltTy.bits .bf16 = 32 ∨ (Rect.block (s := S4096x1024) S4096x1024.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1024x1024.size a ≤ S1024x1024.size a
  hwx6_4 : ∀ i : grid6.Coords, EltTy.bits .bf16 = 32 ∨ (Rect.block (s := S1024x1024) S1024x1024.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1024.size a ≤ S1x1024.size a
  hwx6_5 : ∀ i : grid6.Coords, EltTy.bits .f32 = 32 ∨ (Rect.block (s := S1x1024) S1x1024.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1024x1024.size a ≤ S1024x1024.size a
  hwx6_6 : ∀ i : grid6.Coords, EltTy.bits .bf16 = 32 ∨ (Rect.block (s := S1024x1024) S1024x1024.size (cc6_transform_6 i) (hinb6_6 i)).WholeWords (EltTy.packing .bf16)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x1024.size a ≤ S1x1024.size a
  hwx6_7 : ∀ i : grid6.Coords, EltTy.bits .f32 = 32 ∨ (Rect.block (s := S1x1024) S1x1024.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1024x4096.size a ≤ S1024x4096.size a
  hwx6_8 : ∀ i : grid6.Coords, EltTy.bits .bf16 = 32 ∨ (Rect.block (s := S1024x4096) S1024x4096.size (cc6_transform_8 i) (hinb6_8 i)).WholeWords (EltTy.packing .bf16)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x4096.size a ≤ S1x4096.size a
  hwx6_9 : ∀ i : grid6.Coords, EltTy.bits .f32 = 32 ∨ (Rect.block (s := S1x4096) S1x4096.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1024x4096.size a ≤ S1024x4096.size a
  hwx6_10 : ∀ i : grid6.Coords, EltTy.bits .bf16 = 32 ∨ (Rect.block (s := S1024x4096) S1024x4096.size (cc6_transform_10 i) (hinb6_10 i)).WholeWords (EltTy.packing .bf16)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x4096.size a ≤ S1x4096.size a
  hwx6_11 : ∀ i : grid6.Coords, EltTy.bits .f32 = 32 ∨ (Rect.block (s := S1x4096) S1x4096.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S1x1.size a ≤ S1x1.size a
  hwx6_12 : ∀ i : grid6.Coords, EltTy.bits .f32 = 32 ∨ (Rect.block (s := S1x1) S1x1.size (cc6_transform_12 i) (hinb6_12 i)).WholeWords (EltTy.packing .f32)
  hstage6_13 : ∀ j, (stage6_13 j).IsWhole
  nbuf6_13 : grid6.bufCount reads6_13 false = 2
  hreads6_13 : ∀ i i' : grid6.Coords, (∀ a, reads6_13 a = true → i a = i' a) → cc6_transform_13 i = cc6_transform_13 i'
  hinb6_13 : ∀ (i : grid6.Coords) a, (cc6_transform_13 i a + 1) * S64x4096.size a ≤ S2048x4096.size a
  hwx6_13 : ∀ i : grid6.Coords, EltTy.bits .f32 = 32 ∨ (Rect.block (s := S2048x4096) S64x4096.size (cc6_transform_13 i) (hinb6_13 i)).WholeWords (EltTy.packing .f32)
  hstage6_14 : ∀ j, (stage6_14 j).IsWhole
  nbuf6_14 : grid6.bufCount reads6_14 false = 2
  hreads6_14 : ∀ i i' : grid6.Coords, (∀ a, reads6_14 a = true → i a = i' a) → cc6_transform_14 i = cc6_transform_14 i'
  hinb6_14 : ∀ (i : grid6.Coords) a, (cc6_transform_14 i a + 1) * S64x1.size a ≤ S2048x1.size a
  hwx6_14 : ∀ i : grid6.Coords, EltTy.bits .f32 = 32 ∨ (Rect.block (s := S2048x1) S64x1.size (cc6_transform_14 i) (hinb6_14 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S64x4096.size a ≤ S2048x4096.size a
  hwx7_0 : ∀ i : grid7.Coords, EltTy.bits .f32 = 32 ∨ (Rect.block (s := S2048x4096) S64x4096.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S64x4096.size a ≤ S2048x4096.size a
  hwx7_1 : ∀ i : grid7.Coords, EltTy.bits .f32 = 32 ∨ (Rect.block (s := S2048x4096) S64x4096.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S64x1024.size a ≤ S2048x1024.size a
  hwx7_2 : ∀ i : grid7.Coords, EltTy.bits .f32 = 32 ∨ (Rect.block (s := S2048x1024) S64x1024.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S4096x1024.size a ≤ S4096x1024.size a
  hwx7_3 : ∀ i : grid7.Coords, EltTy.bits .bf16 = 32 ∨ (Rect.block (s := S4096x1024) S4096x1024.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1024x1024.size a ≤ S1024x1024.size a
  hwx7_4 : ∀ i : grid7.Coords, EltTy.bits .bf16 = 32 ∨ (Rect.block (s := S1024x1024) S1024x1024.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x1024.size a ≤ S1x1024.size a
  hwx7_5 : ∀ i : grid7.Coords, EltTy.bits .f32 = 32 ∨ (Rect.block (s := S1x1024) S1x1024.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1024x1024.size a ≤ S1024x1024.size a
  hwx7_6 : ∀ i : grid7.Coords, EltTy.bits .bf16 = 32 ∨ (Rect.block (s := S1024x1024) S1024x1024.size (cc7_transform_6 i) (hinb7_6 i)).WholeWords (EltTy.packing .bf16)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x1024.size a ≤ S1x1024.size a
  hwx7_7 : ∀ i : grid7.Coords, EltTy.bits .f32 = 32 ∨ (Rect.block (s := S1x1024) S1x1024.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1024x4096.size a ≤ S1024x4096.size a
  hwx7_8 : ∀ i : grid7.Coords, EltTy.bits .bf16 = 32 ∨ (Rect.block (s := S1024x4096) S1024x4096.size (cc7_transform_8 i) (hinb7_8 i)).WholeWords (EltTy.packing .bf16)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x4096.size a ≤ S1x4096.size a
  hwx7_9 : ∀ i : grid7.Coords, EltTy.bits .f32 = 32 ∨ (Rect.block (s := S1x4096) S1x4096.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1024x4096.size a ≤ S1024x4096.size a
  hwx7_10 : ∀ i : grid7.Coords, EltTy.bits .bf16 = 32 ∨ (Rect.block (s := S1024x4096) S1024x4096.size (cc7_transform_10 i) (hinb7_10 i)).WholeWords (EltTy.packing .bf16)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S1x4096.size a ≤ S1x4096.size a
  hwx7_11 : ∀ i : grid7.Coords, EltTy.bits .f32 = 32 ∨ (Rect.block (s := S1x4096) S1x4096.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S1x1.size a ≤ S1x1.size a
  hwx7_12 : ∀ i : grid7.Coords, EltTy.bits .f32 = 32 ∨ (Rect.block (s := S1x1) S1x1.size (cc7_transform_12 i) (hinb7_12 i)).WholeWords (EltTy.packing .f32)
  hstage7_13 : ∀ j, (stage7_13 j).IsWhole
  nbuf7_13 : grid7.bufCount reads7_13 false = 2
  hreads7_13 : ∀ i i' : grid7.Coords, (∀ a, reads7_13 a = true → i a = i' a) → cc7_transform_13 i = cc7_transform_13 i'
  hinb7_13 : ∀ (i : grid7.Coords) a, (cc7_transform_13 i a + 1) * S64x4096.size a ≤ S2048x4096.size a
  hwx7_13 : ∀ i : grid7.Coords, EltTy.bits .f32 = 32 ∨ (Rect.block (s := S2048x4096) S64x4096.size (cc7_transform_13 i) (hinb7_13 i)).WholeWords (EltTy.packing .f32)
  hstage7_14 : ∀ j, (stage7_14 j).IsWhole
  nbuf7_14 : grid7.bufCount reads7_14 false = 2
  hreads7_14 : ∀ i i' : grid7.Coords, (∀ a, reads7_14 a = true → i a = i' a) → cc7_transform_14 i = cc7_transform_14 i'
  hinb7_14 : ∀ (i : grid7.Coords) a, (cc7_transform_14 i a + 1) * S64x1.size a ≤ S2048x1.size a
  hwx7_14 : ∀ i : grid7.Coords, EltTy.bits .f32 = 32 ∨ (Rect.block (s := S2048x1) S64x1.size (cc7_transform_14 i) (hinb7_14 i)).WholeWords (EltTy.packing .f32)

variable [Facts₀]

def gather_S4x1024_S2048x1_S2048x1024_1_0_n_n_0_1_11024 : GatherDims S4x1024 S2048x1 S2048x1024 where
  offsetDims := [1]
  collapsedSliceDims := [0]
  operandBatchingDims := []
  startIndicesBatchingDims := []
  startIndexMap := [0]
  indexVectorDim := 1
  sliceSizes := ![1, 1024]
  wf := gather_S4x1024_S2048x1_S2048x1024_1_0_n_n_0_1_11024_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf

abbrev win0_0 : Pipeline.Window sig grid0 :=
  Pipeline.Window.ofSpec (Memref.whole main_v34) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v48) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S1024x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v55) S1024x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v58) S1x4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v61) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v62_0) S64x4096.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v62_1) S64x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v86) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v88) S64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S64x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v90) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v92) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v97) S1024x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v100) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v102) S1024x4096.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v105) S1x4096.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v107) S1024x4096.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v110) S1x4096.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v113) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v114_0) S64x4096.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v114_1) S64x1.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v138) S64x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v140) S64x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S64x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v142) S4096x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v144) S1024x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v147) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v149) S1024x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v152) S1x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v154) S1024x4096.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v157) S1x4096.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v159) S1024x4096.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v162) S1x4096.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v165) S1x1.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v166_0) S64x4096.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v166_1) S64x1.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v190) S64x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v192) S64x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S64x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v194) S4096x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v196) S1024x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v199) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v201) S1024x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v204) S1x1024.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v206) S1024x4096.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v209) S1x4096.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v211) S1024x4096.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v214) S1x4096.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v217) S1x1.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v218_0) S64x4096.size cc3_transform_13 reads3_13 true false 2 stage3_13 sem3_13
    hrank3 hreads3_13 hinb3_13 nbuf3_13 (Memref.isWhole_whole _) hwx3_13 hstage3_13

abbrev win3_14 : Pipeline.Window sig grid3 :=
  Pipeline.Window.ofSpec (Memref.whole main_v218_1) S64x1.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

abbrev win4_0 : Pipeline.Window sig grid4 :=
  Pipeline.Window.ofSpec (Memref.whole main_v242) S64x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v244) S64x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S64x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v246) S4096x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v248) S1024x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v251) S1x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v253) S1024x1024.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v256) S1x1024.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v258) S1024x4096.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v261) S1x4096.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v263) S1024x4096.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v266) S1x4096.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v269) S1x1.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v270_0) S64x4096.size cc4_transform_13 reads4_13 true false 2 stage4_13 sem4_13
    hrank4 hreads4_13 hinb4_13 nbuf4_13 (Memref.isWhole_whole _) hwx4_13 hstage4_13

abbrev win4_14 : Pipeline.Window sig grid4 :=
  Pipeline.Window.ofSpec (Memref.whole main_v270_1) S64x1.size cc4_transform_14 reads4_14 true false 2 stage4_14 sem4_14
    hrank4 hreads4_14 hinb4_14 nbuf4_14 (Memref.isWhole_whole _) hwx4_14 hstage4_14

abbrev win4 : Fin 15 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | ⟨_ + 15, h⟩ => absurd h (Nat.not_lt.2 (Nat.le_add_left _ _))
abbrev spec4 : Fin 15 → Pipeline.WinSpec sig grid4.rank := fun w => (win4 w).toWinSpec

abbrev win5_0 : Pipeline.Window sig grid5 :=
  Pipeline.Window.ofSpec (Memref.whole main_v294) S64x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v296) S64x4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S64x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v298) S4096x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v300) S1024x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v303) S1x1024.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v305) S1024x1024.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v308) S1x1024.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v310) S1024x4096.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v313) S1x4096.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v315) S1024x4096.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v318) S1x4096.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v321) S1x1.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v322_0) S64x4096.size cc5_transform_13 reads5_13 true false 2 stage5_13 sem5_13
    hrank5 hreads5_13 hinb5_13 nbuf5_13 (Memref.isWhole_whole _) hwx5_13 hstage5_13

abbrev win5_14 : Pipeline.Window sig grid5 :=
  Pipeline.Window.ofSpec (Memref.whole main_v322_1) S64x1.size cc5_transform_14 reads5_14 true false 2 stage5_14 sem5_14
    hrank5 hreads5_14 hinb5_14 nbuf5_14 (Memref.isWhole_whole _) hwx5_14 hstage5_14

abbrev win5 : Fin 15 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | ⟨_ + 15, h⟩ => absurd h (Nat.not_lt.2 (Nat.le_add_left _ _))
abbrev spec5 : Fin 15 → Pipeline.WinSpec sig grid5.rank := fun w => (win5 w).toWinSpec

abbrev win6_0 : Pipeline.Window sig grid6 :=
  Pipeline.Window.ofSpec (Memref.whole main_v346) S64x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v348) S64x4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v7) S64x1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v350) S4096x1024.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v352) S1024x1024.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v355) S1x1024.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v357) S1024x1024.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v360) S1x1024.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v362) S1024x4096.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v365) S1x4096.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v367) S1024x4096.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v370) S1x4096.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v373) S1x1.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v374_0) S64x4096.size cc6_transform_13 reads6_13 true false 2 stage6_13 sem6_13
    hrank6 hreads6_13 hinb6_13 nbuf6_13 (Memref.isWhole_whole _) hwx6_13 hstage6_13

abbrev win6_14 : Pipeline.Window sig grid6 :=
  Pipeline.Window.ofSpec (Memref.whole main_v374_1) S64x1.size cc6_transform_14 reads6_14 true false 2 stage6_14 sem6_14
    hrank6 hreads6_14 hinb6_14 nbuf6_14 (Memref.isWhole_whole _) hwx6_14 hstage6_14

abbrev win6 : Fin 15 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | ⟨_ + 15, h⟩ => absurd h (Nat.not_lt.2 (Nat.le_add_left _ _))
abbrev spec6 : Fin 15 → Pipeline.WinSpec sig grid6.rank := fun w => (win6 w).toWinSpec

abbrev win7_0 : Pipeline.Window sig grid7 :=
  Pipeline.Window.ofSpec (Memref.whole main_v398) S64x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v400) S64x4096.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v7) S64x1024.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v402) S4096x1024.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v404) S1024x1024.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v407) S1x1024.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v409) S1024x1024.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v412) S1x1024.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v414) S1024x4096.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v417) S1x4096.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v419) S1024x4096.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v422) S1x4096.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v425) S1x1.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_v426_0) S64x4096.size cc7_transform_13 reads7_13 true false 2 stage7_13 sem7_13
    hrank7 hreads7_13 hinb7_13 nbuf7_13 (Memref.isWhole_whole _) hwx7_13 hstage7_13

abbrev win7_14 : Pipeline.Window sig grid7 :=
  Pipeline.Window.ofSpec (Memref.whole main_v426_1) S64x1.size cc7_transform_14 reads7_14 true false 2 stage7_14 sem7_14
    hrank7 hreads7_14 hinb7_14 nbuf7_14 (Memref.isWhole_whole _) hwx7_14 hstage7_14

abbrev win7 : Fin 15 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | ⟨_ + 15, h⟩ => absurd h (Nat.not_lt.2 (Nat.le_add_left _ _))
abbrev spec7 : Fin 15 → Pipeline.WinSpec sig grid7.rank := fun w => (win7 w).toWinSpec

class Facts : Prop extends Facts₀ where

variable [Facts]
-- ==== ReferenceIdeal.lean ====
abbrev S2048x256x32 : Shape := ⟨3, ![2048, 256, 32]⟩
abbrev S2048 : Shape := ⟨1, ![2048]⟩
abbrev S4x1024 : Shape := ⟨2, ![4, 1024]⟩
abbrev S8x8192 : Shape := ⟨2, ![8, 8192]⟩
abbrev S8x5120x1024 : Shape := ⟨3, ![8, 5120, 1024]⟩
abbrev S8x1024 : Shape := ⟨2, ![8, 1024]⟩
abbrev S8x1024x1024 : Shape := ⟨3, ![8, 1024, 1024]⟩
abbrev S8x1024x4096 : Shape := ⟨3, ![8, 1024, 4096]⟩
abbrev S8x4096 : Shape := ⟨2, ![8, 4096]⟩
abbrev S8 : Shape := ⟨1, ![8]⟩
abbrev S2048x8192 : Shape := ⟨2, ![2048, 8192]⟩
abbrev S_ : Shape := ⟨0, ![]⟩
abbrev S2048x1 : Shape := ⟨2, ![2048, 1]⟩
abbrev S2048x1024 : Shape := ⟨2, ![2048, 1024]⟩
abbrev S4096 : Shape := ⟨1, ![4096]⟩
abbrev S1x8192 : Shape := ⟨2, ![1, 8192]⟩
abbrev S8192 : Shape := ⟨1, ![8192]⟩
abbrev S4096x1 : Shape := ⟨2, ![4096, 1]⟩
abbrev S2048x4096 : Shape := ⟨2, ![2048, 4096]⟩
abbrev S2048x5120 : Shape := ⟨2, ![2048, 5120]⟩
abbrev S1x5120x1024 : Shape := ⟨3, ![1, 5120, 1024]⟩
abbrev S5120x1024 : Shape := ⟨2, ![5120, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096 : Shape := ⟨2, ![1, 4096]⟩
abbrev S1 : Shape := ⟨1, ![1]⟩

abbrev nBuf : Space → Nat
  | .hbm => 960
  | .vmem => 0
  | .smem => 0
  | _ => 0

abbrev hbmTy0_0 (i : Nat) : BufTy := match i % 128 with
  | 0 => ⟨S2048x256x32, .f32⟩
  | 1 => ⟨S2048, .i32⟩
  | 2 => ⟨S4x1024, .f32⟩
  | 3 => ⟨S8x8192, .f32⟩
  | 4 => ⟨S8x8192, .f32⟩
  | 5 => ⟨S8x5120x1024, .f32⟩
  | 6 => ⟨S8x1024, .f32⟩
  | 7 => ⟨S8x1024x1024, .f32⟩
  | 8 => ⟨S8x1024, .f32⟩
  | 9 => ⟨S8x1024x4096, .f32⟩
  | 10 => ⟨S8x4096, .f32⟩
  | 11 => ⟨S8x1024x4096, .f32⟩
  | 12 => ⟨S8x4096, .f32⟩
  | 13 => ⟨S8, .f32⟩
  | 14 => ⟨S2048x8192, .f32⟩
  | 15 => ⟨S_, .i32⟩
  | 16 => ⟨S2048, .i32⟩
  | 17 => ⟨S2048, .i1⟩
  | 18 => ⟨S_, .i32⟩
  | 19 => ⟨S2048, .i32⟩
  | 20 => ⟨S2048, .i32⟩
  | 21 => ⟨S2048, .i32⟩
  | 22 => ⟨S2048x1, .i32⟩
  | 23 => ⟨S2048x1024, .f32⟩
  | 24 => ⟨S_, .f32⟩
  | 25 => ⟨S2048, .f32⟩
  | 26 => ⟨S4096, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S1x8192, .f32⟩
  | 41 => ⟨S8192, .f32⟩
  | 42 => ⟨S1x8192, .f32⟩
  | 43 => ⟨S2048x8192, .f32⟩
  | 44 => ⟨S2048x8192, .f32⟩
  | 45 => ⟨S1x8192, .f32⟩
  | 46 => ⟨S8192, .f32⟩
  | 47 => ⟨S8192, .f32⟩
  | 48 => ⟨S1x8192, .f32⟩
  | 49 => ⟨S2048x8192, .f32⟩
  | 50 => ⟨S2048x8192, .f32⟩
  | 51 => ⟨S1x8192, .f32⟩
  | 52 => ⟨S8192, .f32⟩
  | 53 => ⟨S_, .f32⟩
  | 54 => ⟨S_, .f32⟩
  | 55 => ⟨S2048, .f32⟩
  | 56 => ⟨S2048, .f32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S2048x4096, .f32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S2048x4096, .f32⟩
  | 75 => ⟨S2048x5120, .f32⟩
  | 76 => ⟨S1x5120x1024, .f32⟩
  | 77 => ⟨S5120x1024, .f32⟩
  | 78 => ⟨S2048x1024, .f32⟩
  | 79 => ⟨S1x1024, .f32⟩
  | 80 => ⟨S1024, .f32⟩
  | 81 => ⟨S1x1024, .f32⟩
  | 82 => ⟨S2048x1024, .f32⟩
  | 83 => ⟨S2048x1024, .f32⟩
  | 84 => ⟨S_, .f32⟩
  | 85 => ⟨S_, .f32⟩
  | 86 => ⟨S2048x1024, .f32⟩
  | 87 => ⟨S2048x1024, .i1⟩
  | 88 => ⟨S_, .f32⟩
  | 89 => ⟨S2048x1024, .f32⟩
  | 90 => ⟨S2048x1024, .f32⟩
  | 91 => ⟨S2048x1024, .f32⟩
  | 92 => ⟨S1x1024x1024, .f32⟩
  | 93 => ⟨S1024x1024, .f32⟩
  | 94 => ⟨S2048x1024, .f32⟩
  | 95 => ⟨S1x1024, .f32⟩
  | 96 => ⟨S1024, .f32⟩
  | 97 => ⟨S1x1024, .f32⟩
  | 98 => ⟨S2048x1024, .f32⟩
  | 99 => ⟨S2048x1024, .f32⟩
  | 100 => ⟨S_, .f32⟩
  | 101 => ⟨S_, .f32⟩
  | 102 => ⟨S2048x1024, .f32⟩
  | 103 => ⟨S2048x1024, .i1⟩
  | 104 => ⟨S_, .f32⟩
  | 105 => ⟨S2048x1024, .f32⟩
  | 106 => ⟨S2048x1024, .f32⟩
  | 107 => ⟨S2048x1024, .f32⟩
  | 108 => ⟨S1x1024x4096, .f32⟩
  | 109 => ⟨S1024x4096, .f32⟩
  | 110 => ⟨S2048x4096, .f32⟩
  | 111 => ⟨S1x4096, .f32⟩
  | 112 => ⟨S4096, .f32⟩
  | 113 => ⟨S1x4096, .f32⟩
  | 114 => ⟨S2048x4096, .f32⟩
  | 115 => ⟨S2048x4096, .f32⟩
  | 116 => ⟨S2048x4096, .f32⟩
  | 117 => ⟨S1, .f32⟩
  | 118 => ⟨S_, .f32⟩
  | 119 => ⟨S2048x4096, .f32⟩
  | 120 => ⟨S2048x4096, .f32⟩
  | 121 => ⟨S1x1024x4096, .f32⟩
  | 122 => ⟨S1024x4096, .f32⟩
  | 123 => ⟨S2048x4096, .f32⟩
  | 124 => ⟨S1x4096, .f32⟩
  | 125 => ⟨S4096, .f32⟩
  | 126 => ⟨S1x4096, .f32⟩
  | 127 => ⟨S2048x4096, .f32⟩
  | _ => ⟨S2048x256x32, .f32⟩

abbrev hbmTy0_1 (i : Nat) : BufTy := match i % 128 with
  | 0 => ⟨S2048x4096, .f32⟩
  | 1 => ⟨S2048x4096, .f32⟩
  | 2 => ⟨S2048x4096, .f32⟩
  | 3 => ⟨S2048x4096, .f32⟩
  | 4 => ⟨S_, .f32⟩
  | 5 => ⟨S2048x8192, .f32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S2048x8192, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S2048x8192, .f32⟩
  | 24 => ⟨S_, .f32⟩
  | 25 => ⟨S2048, .f32⟩
  | 26 => ⟨S2048, .f32⟩
  | 27 => ⟨S1x8192, .f32⟩
  | 28 => ⟨S8192, .f32⟩
  | 29 => ⟨S1x8192, .f32⟩
  | 30 => ⟨S2048x8192, .f32⟩
  | 31 => ⟨S2048x8192, .f32⟩
  | 32 => ⟨S1x8192, .f32⟩
  | 33 => ⟨S8192, .f32⟩
  | 34 => ⟨S8192, .f32⟩
  | 35 => ⟨S1x8192, .f32⟩
  | 36 => ⟨S2048x8192, .f32⟩
  | 37 => ⟨S2048x8192, .f32⟩
  | 38 => ⟨S1x8192, .f32⟩
  | 39 => ⟨S8192, .f32⟩
  | 40 => ⟨S_, .f32⟩
  | 41 => ⟨S_, .f32⟩
  | 42 => ⟨S2048, .f32⟩
  | 43 => ⟨S2048, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S2048x4096, .f32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S2048x4096, .f32⟩
  | 62 => ⟨S2048x5120, .f32⟩
  | 63 => ⟨S1x5120x1024, .f32⟩
  | 64 => ⟨S5120x1024, .f32⟩
  | 65 => ⟨S2048x1024, .f32⟩
  | 66 => ⟨S1x1024, .f32⟩
  | 67 => ⟨S1024, .f32⟩
  | 68 => ⟨S1x1024, .f32⟩
  | 69 => ⟨S2048x1024, .f32⟩
  | 70 => ⟨S2048x1024, .f32⟩
  | 71 => ⟨S_, .f32⟩
  | 72 => ⟨S_, .f32⟩
  | 73 => ⟨S2048x1024, .f32⟩
  | 74 => ⟨S2048x1024, .i1⟩
  | 75 => ⟨S_, .f32⟩
  | 76 => ⟨S2048x1024, .f32⟩
  | 77 => ⟨S2048x1024, .f32⟩
  | 78 => ⟨S2048x1024, .f32⟩
  | 79 => ⟨S1x1024x1024, .f32⟩
  | 80 => ⟨S1024x1024, .f32⟩
  | 81 => ⟨S2048x1024, .f32⟩
  | 82 => ⟨S1x1024, .f32⟩
  | 83 => ⟨S1024, .f32⟩
  | 84 => ⟨S1x1024, .f32⟩
  | 85 => ⟨S2048x1024, .f32⟩
  | 86 => ⟨S2048x1024, .f32⟩
  | 87 => ⟨S_, .f32⟩
  | 88 => ⟨S_, .f32⟩
  | 89 => ⟨S2048x1024, .f32⟩
  | 90 => ⟨S2048x1024, .i1⟩
  | 91 => ⟨S_, .f32⟩
  | 92 => ⟨S2048x1024, .f32⟩
  | 93 => ⟨S2048x1024, .f32⟩
  | 94 => ⟨S2048x1024, .f32⟩
  | 95 => ⟨S1x1024x4096, .f32⟩
  | 96 => ⟨S1024x4096, .f32⟩
  | 97 => ⟨S2048x4096, .f32⟩
  | 98 => ⟨S1x4096, .f32⟩
  | 99 => ⟨S4096, .f32⟩
  | 100 => ⟨S1x4096, .f32⟩
  | 101 => ⟨S2048x4096, .f32⟩
  | 102 => ⟨S2048x4096, .f32⟩
  | 103 => ⟨S2048x4096, .f32⟩
  | 104 => ⟨S1, .f32⟩
  | 105 => ⟨S_, .f32⟩
  | 106 => ⟨S2048x4096, .f32⟩
  | 107 => ⟨S2048x4096, .f32⟩
  | 108 => ⟨S1x1024x4096, .f32⟩
  | 109 => ⟨S1024x4096, .f32⟩
  | 110 => ⟨S2048x4096, .f32⟩
  | 111 => ⟨S1x4096, .f32⟩
  | 112 => ⟨S4096, .f32⟩
  | 113 => ⟨S1x4096, .f32⟩
  | 114 => ⟨S2048x4096, .f32⟩
  | 115 => ⟨S2048x4096, .f32⟩
  | 116 => ⟨S2048x4096, .f32⟩
  | 117 => ⟨S2048x4096, .f32⟩
  | 118 => ⟨S2048x4096, .f32⟩
  | 119 => ⟨S_, .f32⟩
  | 120 => ⟨S2048x8192, .f32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S2048x256x32, .f32⟩

abbrev hbmTy0_2 (i : Nat) : BufTy := match i % 128 with
  | 0 => ⟨S4096x1, .i32⟩
  | 1 => ⟨S2048x8192, .f32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S2048x8192, .f32⟩
  | 11 => ⟨S_, .f32⟩
  | 12 => ⟨S2048, .f32⟩
  | 13 => ⟨S2048, .f32⟩
  | 14 => ⟨S1x8192, .f32⟩
  | 15 => ⟨S8192, .f32⟩
  | 16 => ⟨S1x8192, .f32⟩
  | 17 => ⟨S2048x8192, .f32⟩
  | 18 => ⟨S2048x8192, .f32⟩
  | 19 => ⟨S1x8192, .f32⟩
  | 20 => ⟨S8192, .f32⟩
  | 21 => ⟨S8192, .f32⟩
  | 22 => ⟨S1x8192, .f32⟩
  | 23 => ⟨S2048x8192, .f32⟩
  | 24 => ⟨S2048x8192, .f32⟩
  | 25 => ⟨S1x8192, .f32⟩
  | 26 => ⟨S8192, .f32⟩
  | 27 => ⟨S_, .f32⟩
  | 28 => ⟨S_, .f32⟩
  | 29 => ⟨S2048, .f32⟩
  | 30 => ⟨S2048, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S2048x4096, .f32⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S2048x4096, .f32⟩
  | 49 => ⟨S2048x5120, .f32⟩
  | 50 => ⟨S1x5120x1024, .f32⟩
  | 51 => ⟨S5120x1024, .f32⟩
  | 52 => ⟨S2048x1024, .f32⟩
  | 53 => ⟨S1x1024, .f32⟩
  | 54 => ⟨S1024, .f32⟩
  | 55 => ⟨S1x1024, .f32⟩
  | 56 => ⟨S2048x1024, .f32⟩
  | 57 => ⟨S2048x1024, .f32⟩
  | 58 => ⟨S_, .f32⟩
  | 59 => ⟨S_, .f32⟩
  | 60 => ⟨S2048x1024, .f32⟩
  | 61 => ⟨S2048x1024, .i1⟩
  | 62 => ⟨S_, .f32⟩
  | 63 => ⟨S2048x1024, .f32⟩
  | 64 => ⟨S2048x1024, .f32⟩
  | 65 => ⟨S2048x1024, .f32⟩
  | 66 => ⟨S1x1024x1024, .f32⟩
  | 67 => ⟨S1024x1024, .f32⟩
  | 68 => ⟨S2048x1024, .f32⟩
  | 69 => ⟨S1x1024, .f32⟩
  | 70 => ⟨S1024, .f32⟩
  | 71 => ⟨S1x1024, .f32⟩
  | 72 => ⟨S2048x1024, .f32⟩
  | 73 => ⟨S2048x1024, .f32⟩
  | 74 => ⟨S_, .f32⟩
  | 75 => ⟨S_, .f32⟩
  | 76 => ⟨S2048x1024, .f32⟩
  | 77 => ⟨S2048x1024, .i1⟩
  | 78 => ⟨S_, .f32⟩
  | 79 => ⟨S2048x1024, .f32⟩
  | 80 => ⟨S2048x1024, .f32⟩
  | 81 => ⟨S2048x1024, .f32⟩
  | 82 => ⟨S1x1024x4096, .f32⟩
  | 83 => ⟨S1024x4096, .f32⟩
  | 84 => ⟨S2048x4096, .f32⟩
  | 85 => ⟨S1x4096, .f32⟩
  | 86 => ⟨S4096, .f32⟩
  | 87 => ⟨S1x4096, .f32⟩
  | 88 => ⟨S2048x4096, .f32⟩
  | 89 => ⟨S2048x4096, .f32⟩
  | 90 => ⟨S2048x4096, .f32⟩
  | 91 => ⟨S1, .f32⟩
  | 92 => ⟨S_, .f32⟩
  | 93 => ⟨S2048x4096, .f32⟩
  | 94 => ⟨S2048x4096, .f32⟩
  | 95 => ⟨S1x1024x4096, .f32⟩
  | 96 => ⟨S1024x4096, .f32⟩
  | 97 => ⟨S2048x4096, .f32⟩
  | 98 => ⟨S1x4096, .f32⟩
  | 99 => ⟨S4096, .f32⟩
  | 100 => ⟨S1x4096, .f32⟩
  | 101 => ⟨S2048x4096, .f32⟩
  | 102 => ⟨S2048x4096, .f32⟩
  | 103 => ⟨S2048x4096, .f32⟩
  | 104 => ⟨S2048x4096, .f32⟩
  | 105 => ⟨S2048x4096, .f32⟩
  | 106 => ⟨S_, .f32⟩
  | 107 => ⟨S2048x8192, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S2048x8192, .f32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S2048x8192, .f32⟩
  | 126 => ⟨S_, .f32⟩
  | 127 => ⟨S2048, .f32⟩
  | _ => ⟨S2048x256x32, .f32⟩

abbrev hbmTy0_3 (i : Nat) : BufTy := match i % 128 with
  | 0 => ⟨S2048, .f32⟩
  | 1 => ⟨S1x8192, .f32⟩
  | 2 => ⟨S8192, .f32⟩
  | 3 => ⟨S1x8192, .f32⟩
  | 4 => ⟨S2048x8192, .f32⟩
  | 5 => ⟨S2048x8192, .f32⟩
  | 6 => ⟨S1x8192, .f32⟩
  | 7 => ⟨S8192, .f32⟩
  | 8 => ⟨S8192, .f32⟩
  | 9 => ⟨S1x8192, .f32⟩
  | 10 => ⟨S2048x8192, .f32⟩
  | 11 => ⟨S2048x8192, .f32⟩
  | 12 => ⟨S1x8192, .f32⟩
  | 13 => ⟨S8192, .f32⟩
  | 14 => ⟨S_, .f32⟩
  | 15 => ⟨S_, .f32⟩
  | 16 => ⟨S2048, .f32⟩
  | 17 => ⟨S2048, .f32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S2048x4096, .f32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S2048x4096, .f32⟩
  | 36 => ⟨S2048x5120, .f32⟩
  | 37 => ⟨S1x5120x1024, .f32⟩
  | 38 => ⟨S5120x1024, .f32⟩
  | 39 => ⟨S2048x1024, .f32⟩
  | 40 => ⟨S1x1024, .f32⟩
  | 41 => ⟨S1024, .f32⟩
  | 42 => ⟨S1x1024, .f32⟩
  | 43 => ⟨S2048x1024, .f32⟩
  | 44 => ⟨S2048x1024, .f32⟩
  | 45 => ⟨S_, .f32⟩
  | 46 => ⟨S_, .f32⟩
  | 47 => ⟨S2048x1024, .f32⟩
  | 48 => ⟨S2048x1024, .i1⟩
  | 49 => ⟨S_, .f32⟩
  | 50 => ⟨S2048x1024, .f32⟩
  | 51 => ⟨S2048x1024, .f32⟩
  | 52 => ⟨S2048x1024, .f32⟩
  | 53 => ⟨S1x1024x1024, .f32⟩
  | 54 => ⟨S1024x1024, .f32⟩
  | 55 => ⟨S2048x1024, .f32⟩
  | 56 => ⟨S1x1024, .f32⟩
  | 57 => ⟨S1024, .f32⟩
  | 58 => ⟨S1x1024, .f32⟩
  | 59 => ⟨S2048x1024, .f32⟩
  | 60 => ⟨S2048x1024, .f32⟩
  | 61 => ⟨S_, .f32⟩
  | 62 => ⟨S_, .f32⟩
  | 63 => ⟨S2048x1024, .f32⟩
  | 64 => ⟨S2048x1024, .i1⟩
  | 65 => ⟨S_, .f32⟩
  | 66 => ⟨S2048x1024, .f32⟩
  | 67 => ⟨S2048x1024, .f32⟩
  | 68 => ⟨S2048x1024, .f32⟩
  | 69 => ⟨S1x1024x4096, .f32⟩
  | 70 => ⟨S1024x4096, .f32⟩
  | 71 => ⟨S2048x4096, .f32⟩
  | 72 => ⟨S1x4096, .f32⟩
  | 73 => ⟨S4096, .f32⟩
  | 74 => ⟨S1x4096, .f32⟩
  | 75 => ⟨S2048x4096, .f32⟩
  | 76 => ⟨S2048x4096, .f32⟩
  | 77 => ⟨S2048x4096, .f32⟩
  | 78 => ⟨S1, .f32⟩
  | 79 => ⟨S_, .f32⟩
  | 80 => ⟨S2048x4096, .f32⟩
  | 81 => ⟨S2048x4096, .f32⟩
  | 82 => ⟨S1x1024x4096, .f32⟩
  | 83 => ⟨S1024x4096, .f32⟩
  | 84 => ⟨S2048x4096, .f32⟩
  | 85 => ⟨S1x4096, .f32⟩
  | 86 => ⟨S4096, .f32⟩
  | 87 => ⟨S1x4096, .f32⟩
  | 88 => ⟨S2048x4096, .f32⟩
  | 89 => ⟨S2048x4096, .f32⟩
  | 90 => ⟨S2048x4096, .f32⟩
  | 91 => ⟨S2048x4096, .f32⟩
  | 92 => ⟨S2048x4096, .f32⟩
  | 93 => ⟨S_, .f32⟩
  | 94 => ⟨S2048x8192, .f32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S2048x8192, .f32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S2048x8192, .f32⟩
  | 113 => ⟨S_, .f32⟩
  | 114 => ⟨S2048, .f32⟩
  | 115 => ⟨S2048, .f32⟩
  | 116 => ⟨S1x8192, .f32⟩
  | 117 => ⟨S8192, .f32⟩
  | 118 => ⟨S1x8192, .f32⟩
  | 119 => ⟨S2048x8192, .f32⟩
  | 120 => ⟨S2048x8192, .f32⟩
  | 121 => ⟨S1x8192, .f32⟩
  | 122 => ⟨S8192, .f32⟩
  | 123 => ⟨S8192, .f32⟩
  | 124 => ⟨S1x8192, .f32⟩
  | 125 => ⟨S2048x8192, .f32⟩
  | 126 => ⟨S2048x8192, .f32⟩
  | 127 => ⟨S1x8192, .f32⟩
  | _ => ⟨S2048x256x32, .f32⟩

abbrev hbmTy0_4 (i : Nat) : BufTy := match i % 128 with
  | 0 => ⟨S8192, .f32⟩
  | 1 => ⟨S_, .f32⟩
  | 2 => ⟨S_, .f32⟩
  | 3 => ⟨S2048, .f32⟩
  | 4 => ⟨S2048, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S2048x4096, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S2048x4096, .f32⟩
  | 23 => ⟨S2048x5120, .f32⟩
  | 24 => ⟨S1x5120x1024, .f32⟩
  | 25 => ⟨S5120x1024, .f32⟩
  | 26 => ⟨S2048x1024, .f32⟩
  | 27 => ⟨S1x1024, .f32⟩
  | 28 => ⟨S1024, .f32⟩
  | 29 => ⟨S1x1024, .f32⟩
  | 30 => ⟨S2048x1024, .f32⟩
  | 31 => ⟨S2048x1024, .f32⟩
  | 32 => ⟨S_, .f32⟩
  | 33 => ⟨S_, .f32⟩
  | 34 => ⟨S2048x1024, .f32⟩
  | 35 => ⟨S2048x1024, .i1⟩
  | 36 => ⟨S_, .f32⟩
  | 37 => ⟨S2048x1024, .f32⟩
  | 38 => ⟨S2048x1024, .f32⟩
  | 39 => ⟨S2048x1024, .f32⟩
  | 40 => ⟨S1x1024x1024, .f32⟩
  | 41 => ⟨S1024x1024, .f32⟩
  | 42 => ⟨S2048x1024, .f32⟩
  | 43 => ⟨S1x1024, .f32⟩
  | 44 => ⟨S1024, .f32⟩
  | 45 => ⟨S1x1024, .f32⟩
  | 46 => ⟨S2048x1024, .f32⟩
  | 47 => ⟨S2048x1024, .f32⟩
  | 48 => ⟨S_, .f32⟩
  | 49 => ⟨S_, .f32⟩
  | 50 => ⟨S2048x1024, .f32⟩
  | 51 => ⟨S2048x1024, .i1⟩
  | 52 => ⟨S_, .f32⟩
  | 53 => ⟨S2048x1024, .f32⟩
  | 54 => ⟨S2048x1024, .f32⟩
  | 55 => ⟨S2048x1024, .f32⟩
  | 56 => ⟨S1x1024x4096, .f32⟩
  | 57 => ⟨S1024x4096, .f32⟩
  | 58 => ⟨S2048x4096, .f32⟩
  | 59 => ⟨S1x4096, .f32⟩
  | 60 => ⟨S4096, .f32⟩
  | 61 => ⟨S1x4096, .f32⟩
  | 62 => ⟨S2048x4096, .f32⟩
  | 63 => ⟨S2048x4096, .f32⟩
  | 64 => ⟨S2048x4096, .f32⟩
  | 65 => ⟨S1, .f32⟩
  | 66 => ⟨S_, .f32⟩
  | 67 => ⟨S2048x4096, .f32⟩
  | 68 => ⟨S2048x4096, .f32⟩
  | 69 => ⟨S1x1024x4096, .f32⟩
  | 70 => ⟨S1024x4096, .f32⟩
  | 71 => ⟨S2048x4096, .f32⟩
  | 72 => ⟨S1x4096, .f32⟩
  | 73 => ⟨S4096, .f32⟩
  | 74 => ⟨S1x4096, .f32⟩
  | 75 => ⟨S2048x4096, .f32⟩
  | 76 => ⟨S2048x4096, .f32⟩
  | 77 => ⟨S2048x4096, .f32⟩
  | 78 => ⟨S2048x4096, .f32⟩
  | 79 => ⟨S2048x4096, .f32⟩
  | 80 => ⟨S_, .f32⟩
  | 81 => ⟨S2048x8192, .f32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S2048x8192, .f32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S2048x8192, .f32⟩
  | 100 => ⟨S_, .f32⟩
  | 101 => ⟨S2048, .f32⟩
  | 102 => ⟨S2048, .f32⟩
  | 103 => ⟨S1x8192, .f32⟩
  | 104 => ⟨S8192, .f32⟩
  | 105 => ⟨S1x8192, .f32⟩
  | 106 => ⟨S2048x8192, .f32⟩
  | 107 => ⟨S2048x8192, .f32⟩
  | 108 => ⟨S1x8192, .f32⟩
  | 109 => ⟨S8192, .f32⟩
  | 110 => ⟨S8192, .f32⟩
  | 111 => ⟨S1x8192, .f32⟩
  | 112 => ⟨S2048x8192, .f32⟩
  | 113 => ⟨S2048x8192, .f32⟩
  | 114 => ⟨S1x8192, .f32⟩
  | 115 => ⟨S8192, .f32⟩
  | 116 => ⟨S_, .f32⟩
  | 117 => ⟨S_, .f32⟩
  | 118 => ⟨S2048, .f32⟩
  | 119 => ⟨S2048, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S2048x256x32, .f32⟩

abbrev hbmTy0_5 (i : Nat) : BufTy := match i % 128 with
  | 0 => ⟨S2048x4096, .f32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S2048x4096, .f32⟩
  | 10 => ⟨S2048x5120, .f32⟩
  | 11 => ⟨S1x5120x1024, .f32⟩
  | 12 => ⟨S5120x1024, .f32⟩
  | 13 => ⟨S2048x1024, .f32⟩
  | 14 => ⟨S1x1024, .f32⟩
  | 15 => ⟨S1024, .f32⟩
  | 16 => ⟨S1x1024, .f32⟩
  | 17 => ⟨S2048x1024, .f32⟩
  | 18 => ⟨S2048x1024, .f32⟩
  | 19 => ⟨S_, .f32⟩
  | 20 => ⟨S_, .f32⟩
  | 21 => ⟨S2048x1024, .f32⟩
  | 22 => ⟨S2048x1024, .i1⟩
  | 23 => ⟨S_, .f32⟩
  | 24 => ⟨S2048x1024, .f32⟩
  | 25 => ⟨S2048x1024, .f32⟩
  | 26 => ⟨S2048x1024, .f32⟩
  | 27 => ⟨S1x1024x1024, .f32⟩
  | 28 => ⟨S1024x1024, .f32⟩
  | 29 => ⟨S2048x1024, .f32⟩
  | 30 => ⟨S1x1024, .f32⟩
  | 31 => ⟨S1024, .f32⟩
  | 32 => ⟨S1x1024, .f32⟩
  | 33 => ⟨S2048x1024, .f32⟩
  | 34 => ⟨S2048x1024, .f32⟩
  | 35 => ⟨S_, .f32⟩
  | 36 => ⟨S_, .f32⟩
  | 37 => ⟨S2048x1024, .f32⟩
  | 38 => ⟨S2048x1024, .i1⟩
  | 39 => ⟨S_, .f32⟩
  | 40 => ⟨S2048x1024, .f32⟩
  | 41 => ⟨S2048x1024, .f32⟩
  | 42 => ⟨S2048x1024, .f32⟩
  | 43 => ⟨S1x1024x4096, .f32⟩
  | 44 => ⟨S1024x4096, .f32⟩
  | 45 => ⟨S2048x4096, .f32⟩
  | 46 => ⟨S1x4096, .f32⟩
  | 47 => ⟨S4096, .f32⟩
  | 48 => ⟨S1x4096, .f32⟩
  | 49 => ⟨S2048x4096, .f32⟩
  | 50 => ⟨S2048x4096, .f32⟩
  | 51 => ⟨S2048x4096, .f32⟩
  | 52 => ⟨S1, .f32⟩
  | 53 => ⟨S_, .f32⟩
  | 54 => ⟨S2048x4096, .f32⟩
  | 55 => ⟨S2048x4096, .f32⟩
  | 56 => ⟨S1x1024x4096, .f32⟩
  | 57 => ⟨S1024x4096, .f32⟩
  | 58 => ⟨S2048x4096, .f32⟩
  | 59 => ⟨S1x4096, .f32⟩
  | 60 => ⟨S4096, .f32⟩
  | 61 => ⟨S1x4096, .f32⟩
  | 62 => ⟨S2048x4096, .f32⟩
  | 63 => ⟨S2048x4096, .f32⟩
  | 64 => ⟨S2048x4096, .f32⟩
  | 65 => ⟨S2048x4096, .f32⟩
  | 66 => ⟨S2048x4096, .f32⟩
  | 67 => ⟨S_, .f32⟩
  | 68 => ⟨S2048x8192, .f32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S2048x8192, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S2048x8192, .f32⟩
  | 87 => ⟨S_, .f32⟩
  | 88 => ⟨S2048, .f32⟩
  | 89 => ⟨S2048, .f32⟩
  | 90 => ⟨S1x8192, .f32⟩
  | 91 => ⟨S8192, .f32⟩
  | 92 => ⟨S1x8192, .f32⟩
  | 93 => ⟨S2048x8192, .f32⟩
  | 94 => ⟨S2048x8192, .f32⟩
  | 95 => ⟨S1x8192, .f32⟩
  | 96 => ⟨S8192, .f32⟩
  | 97 => ⟨S8192, .f32⟩
  | 98 => ⟨S1x8192, .f32⟩
  | 99 => ⟨S2048x8192, .f32⟩
  | 100 => ⟨S2048x8192, .f32⟩
  | 101 => ⟨S1x8192, .f32⟩
  | 102 => ⟨S8192, .f32⟩
  | 103 => ⟨S_, .f32⟩
  | 104 => ⟨S_, .f32⟩
  | 105 => ⟨S2048, .f32⟩
  | 106 => ⟨S2048, .f32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S2048x4096, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S2048x4096, .f32⟩
  | 125 => ⟨S2048x5120, .f32⟩
  | 126 => ⟨S1x5120x1024, .f32⟩
  | 127 => ⟨S5120x1024, .f32⟩
  | _ => ⟨S2048x256x32, .f32⟩

abbrev hbmTy0_6 (i : Nat) : BufTy := match i % 128 with
  | 0 => ⟨S2048x1024, .f32⟩
  | 1 => ⟨S1x1024, .f32⟩
  | 2 => ⟨S1024, .f32⟩
  | 3 => ⟨S1x1024, .f32⟩
  | 4 => ⟨S2048x1024, .f32⟩
  | 5 => ⟨S2048x1024, .f32⟩
  | 6 => ⟨S_, .f32⟩
  | 7 => ⟨S_, .f32⟩
  | 8 => ⟨S2048x1024, .f32⟩
  | 9 => ⟨S2048x1024, .i1⟩
  | 10 => ⟨S_, .f32⟩
  | 11 => ⟨S2048x1024, .f32⟩
  | 12 => ⟨S2048x1024, .f32⟩
  | 13 => ⟨S2048x1024, .f32⟩
  | 14 => ⟨S1x1024x1024, .f32⟩
  | 15 => ⟨S1024x1024, .f32⟩
  | 16 => ⟨S2048x1024, .f32⟩
  | 17 => ⟨S1x1024, .f32⟩
  | 18 => ⟨S1024, .f32⟩
  | 19 => ⟨S1x1024, .f32⟩
  | 20 => ⟨S2048x1024, .f32⟩
  | 21 => ⟨S2048x1024, .f32⟩
  | 22 => ⟨S_, .f32⟩
  | 23 => ⟨S_, .f32⟩
  | 24 => ⟨S2048x1024, .f32⟩
  | 25 => ⟨S2048x1024, .i1⟩
  | 26 => ⟨S_, .f32⟩
  | 27 => ⟨S2048x1024, .f32⟩
  | 28 => ⟨S2048x1024, .f32⟩
  | 29 => ⟨S2048x1024, .f32⟩
  | 30 => ⟨S1x1024x4096, .f32⟩
  | 31 => ⟨S1024x4096, .f32⟩
  | 32 => ⟨S2048x4096, .f32⟩
  | 33 => ⟨S1x4096, .f32⟩
  | 34 => ⟨S4096, .f32⟩
  | 35 => ⟨S1x4096, .f32⟩
  | 36 => ⟨S2048x4096, .f32⟩
  | 37 => ⟨S2048x4096, .f32⟩
  | 38 => ⟨S2048x4096, .f32⟩
  | 39 => ⟨S1, .f32⟩
  | 40 => ⟨S_, .f32⟩
  | 41 => ⟨S2048x4096, .f32⟩
  | 42 => ⟨S2048x4096, .f32⟩
  | 43 => ⟨S1x1024x4096, .f32⟩
  | 44 => ⟨S1024x4096, .f32⟩
  | 45 => ⟨S2048x4096, .f32⟩
  | 46 => ⟨S1x4096, .f32⟩
  | 47 => ⟨S4096, .f32⟩
  | 48 => ⟨S1x4096, .f32⟩
  | 49 => ⟨S2048x4096, .f32⟩
  | 50 => ⟨S2048x4096, .f32⟩
  | 51 => ⟨S2048x4096, .f32⟩
  | 52 => ⟨S2048x4096, .f32⟩
  | 53 => ⟨S2048x4096, .f32⟩
  | 54 => ⟨S_, .f32⟩
  | 55 => ⟨S2048x8192, .f32⟩
  | 56 => ⟨S_, .i32⟩
  | 57 => ⟨S4096, .i32⟩
  | 58 => ⟨S4096, .i1⟩
  | 59 => ⟨S_, .i32⟩
  | 60 => ⟨S4096, .i32⟩
  | 61 => ⟨S4096, .i32⟩
  | 62 => ⟨S4096, .i32⟩
  | 63 => ⟨S4096x1, .i32⟩
  | 64 => ⟨S2048x8192, .f32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S2048x8192, .f32⟩
  | 74 => ⟨S_, .f32⟩
  | 75 => ⟨S2048, .f32⟩
  | 76 => ⟨S2048, .f32⟩
  | 77 => ⟨S1x8192, .f32⟩
  | 78 => ⟨S8192, .f32⟩
  | 79 => ⟨S1x8192, .f32⟩
  | 80 => ⟨S2048x8192, .f32⟩
  | 81 => ⟨S2048x8192, .f32⟩
  | 82 => ⟨S1x8192, .f32⟩
  | 83 => ⟨S8192, .f32⟩
  | 84 => ⟨S8192, .f32⟩
  | 85 => ⟨S1x8192, .f32⟩
  | 86 => ⟨S2048x8192, .f32⟩
  | 87 => ⟨S2048x8192, .f32⟩
  | 88 => ⟨S1x8192, .f32⟩
  | 89 => ⟨S8192, .f32⟩
  | 90 => ⟨S_, .f32⟩
  | 91 => ⟨S_, .f32⟩
  | 92 => ⟨S2048, .f32⟩
  | 93 => ⟨S2048, .f32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S2048x4096, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S2048x4096, .f32⟩
  | 112 => ⟨S2048x5120, .f32⟩
  | 113 => ⟨S1x5120x1024, .f32⟩
  | 114 => ⟨S5120x1024, .f32⟩
  | 115 => ⟨S2048x1024, .f32⟩
  | 116 => ⟨S1x1024, .f32⟩
  | 117 => ⟨S1024, .f32⟩
  | 118 => ⟨S1x1024, .f32⟩
  | 119 => ⟨S2048x1024, .f32⟩
  | 120 => ⟨S2048x1024, .f32⟩
  | 121 => ⟨S_, .f32⟩
  | 122 => ⟨S_, .f32⟩
  | 123 => ⟨S2048x1024, .f32⟩
  | 124 => ⟨S2048x1024, .i1⟩
  | 125 => ⟨S_, .f32⟩
  | 126 => ⟨S2048x1024, .f32⟩
  | 127 => ⟨S2048x1024, .f32⟩
  | _ => ⟨S2048x256x32, .f32⟩

abbrev hbmTy0_7 (i : Nat) : BufTy := match i % 128 with
  | 0 => ⟨S2048x1024, .f32⟩
  | 1 => ⟨S1x1024x1024, .f32⟩
  | 2 => ⟨S1024x1024, .f32⟩
  | 3 => ⟨S2048x1024, .f32⟩
  | 4 => ⟨S1x1024, .f32⟩
  | 5 => ⟨S1024, .f32⟩
  | 6 => ⟨S1x1024, .f32⟩
  | 7 => ⟨S2048x1024, .f32⟩
  | 8 => ⟨S2048x1024, .f32⟩
  | 9 => ⟨S_, .f32⟩
  | 10 => ⟨S_, .f32⟩
  | 11 => ⟨S2048x1024, .f32⟩
  | 12 => ⟨S2048x1024, .i1⟩
  | 13 => ⟨S_, .f32⟩
  | 14 => ⟨S2048x1024, .f32⟩
  | 15 => ⟨S2048x1024, .f32⟩
  | 16 => ⟨S2048x1024, .f32⟩
  | 17 => ⟨S1x1024x4096, .f32⟩
  | 18 => ⟨S1024x4096, .f32⟩
  | 19 => ⟨S2048x4096, .f32⟩
  | 20 => ⟨S1x4096, .f32⟩
  | 21 => ⟨S4096, .f32⟩
  | 22 => ⟨S1x4096, .f32⟩
  | 23 => ⟨S2048x4096, .f32⟩
  | 24 => ⟨S2048x4096, .f32⟩
  | 25 => ⟨S2048x4096, .f32⟩
  | 26 => ⟨S1, .f32⟩
  | 27 => ⟨S_, .f32⟩
  | 28 => ⟨S2048x4096, .f32⟩
  | 29 => ⟨S2048x4096, .f32⟩
  | 30 => ⟨S1x1024x4096, .f32⟩
  | 31 => ⟨S1024x4096, .f32⟩
  | 32 => ⟨S2048x4096, .f32⟩
  | 33 => ⟨S1x4096, .f32⟩
  | 34 => ⟨S4096, .f32⟩
  | 35 => ⟨S1x4096, .f32⟩
  | 36 => ⟨S2048x4096, .f32⟩
  | 37 => ⟨S2048x4096, .f32⟩
  | 38 => ⟨S2048x4096, .f32⟩
  | 39 => ⟨S2048x4096, .f32⟩
  | 40 => ⟨S2048x4096, .f32⟩
  | 41 => ⟨S_, .f32⟩
  | 42 => ⟨S2048x8192, .f32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S2048x8192, .f32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S2048x8192, .f32⟩
  | 61 => ⟨S_, .f32⟩
  | 62 => ⟨S2048, .f32⟩
  | 63 => ⟨S2048, .f32⟩
  | _ => ⟨S2048x256x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2048x256x32, .f32⟩

abbrev bufTy : (tb : Table) → Fin (tcTables nBuf tb) → BufTy
  | .hbm, ⟨i, _⟩ => hbmTy i
  | _, _ => ⟨S2048x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_12 : Ref sig .tc := ⟨.hbm, 132, rfl⟩
abbrev main_v92 : Ref sig .tc := ⟨.hbm, 133, rfl⟩
abbrev main_c_13 : Ref sig .tc := ⟨.hbm, 134, rfl⟩
abbrev main_v93 : Ref sig .tc := ⟨.hbm, 135, rfl⟩
abbrev main_v94 : Ref sig .tc := ⟨.hbm, 136, rfl⟩
abbrev main_c_14 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_15 : Ref sig .tc := ⟨.hbm, 143, rfl⟩
abbrev main_v100 : Ref sig .tc := ⟨.hbm, 144, rfl⟩
abbrev main_v101 : Ref sig .tc := ⟨.hbm, 145, rfl⟩
abbrev main_c_16 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_17 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_18 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_19 : Ref sig .tc := ⟨.hbm, 172, rfl⟩
abbrev main_v125 : Ref sig .tc := ⟨.hbm, 173, rfl⟩
abbrev main_v126 : Ref sig .tc := ⟨.hbm, 174, rfl⟩
abbrev main_c_20 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_c_21 : Ref sig .tc := ⟨.hbm, 181, rfl⟩
abbrev main_v132 : Ref sig .tc := ⟨.hbm, 182, rfl⟩
abbrev main_v133 : Ref sig .tc := ⟨.hbm, 183, rfl⟩
abbrev main_c_22 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_23 : Ref sig .tc := ⟨.hbm, 199, rfl⟩
abbrev main_call2_cst : Ref sig .tc := ⟨.hbm, 200, rfl⟩
abbrev main_call2_v0 : Ref sig .tc := ⟨.hbm, 201, rfl⟩
abbrev main_call2_v1 : Ref sig .tc := ⟨.hbm, 202, rfl⟩
abbrev main_call2_v2 : Ref sig .tc := ⟨.hbm, 203, rfl⟩
abbrev main_call2_v3 : Ref sig .tc := ⟨.hbm, 204, rfl⟩
abbrev main_call2_v4 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_24 : Ref sig .tc := ⟨.hbm, 215, rfl⟩
abbrev main_call3_cst : Ref sig .tc := ⟨.hbm, 216, rfl⟩
abbrev main_call3_v0 : Ref sig .tc := ⟨.hbm, 217, rfl⟩
abbrev main_call3_v1 : Ref sig .tc := ⟨.hbm, 218, rfl⟩
abbrev main_call3_v2 : Ref sig .tc := ⟨.hbm, 219, rfl⟩
abbrev main_call3_v3 : Ref sig .tc := ⟨.hbm, 220, rfl⟩
abbrev main_call3_v4 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_25 : Ref sig .tc := ⟨.hbm, 247, rfl⟩
abbrev main_v182 : Ref sig .tc := ⟨.hbm, 248, rfl⟩
abbrev main_c_26 : Ref sig .tc := ⟨.hbm, 249, rfl⟩
abbrev main_v183 : Ref sig .tc := ⟨.hbm, 250, rfl⟩
abbrev main_v184 : Ref sig .tc := ⟨.hbm, 251, rfl⟩
abbrev main_c_27 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_c_28 : Ref sig .tc := ⟨.hbm, 258, rfl⟩
abbrev main_v190 : Ref sig .tc := ⟨.hbm, 259, rfl⟩
abbrev main_v191 : Ref sig .tc := ⟨.hbm, 260, rfl⟩
abbrev main_c_29 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_cst_30 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_cst_31 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_c_32 : Ref sig .tc := ⟨.hbm, 287, rfl⟩
abbrev main_v215 : Ref sig .tc := ⟨.hbm, 288, rfl⟩
abbrev main_v216 : Ref sig .tc := ⟨.hbm, 289, rfl⟩
abbrev main_c_33 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_c_34 : Ref sig .tc := ⟨.hbm, 296, rfl⟩
abbrev main_v222 : Ref sig .tc := ⟨.hbm, 297, rfl⟩
abbrev main_v223 : Ref sig .tc := ⟨.hbm, 298, rfl⟩
abbrev main_c_35 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_cst_36 : Ref sig .tc := ⟨.hbm, 314, rfl⟩
abbrev main_call4_cst : Ref sig .tc := ⟨.hbm, 315, rfl⟩
abbrev main_call4_v0 : Ref sig .tc := ⟨.hbm, 316, rfl⟩
abbrev main_call4_v1 : Ref sig .tc := ⟨.hbm, 317, rfl⟩
abbrev main_call4_v2 : Ref sig .tc := ⟨.hbm, 318, rfl⟩
abbrev main_call4_v3 : Ref sig .tc := ⟨.hbm, 319, rfl⟩
abbrev main_call4_v4 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_cst_37 : Ref sig .tc := ⟨.hbm, 330, rfl⟩
abbrev main_call5_cst : Ref sig .tc := ⟨.hbm, 331, rfl⟩
abbrev main_call5_v0 : Ref sig .tc := ⟨.hbm, 332, rfl⟩
abbrev main_call5_v1 : Ref sig .tc := ⟨.hbm, 333, rfl⟩
abbrev main_call5_v2 : Ref sig .tc := ⟨.hbm, 334, rfl⟩
abbrev main_call5_v3 : Ref sig .tc := ⟨.hbm, 335, rfl⟩
abbrev main_call5_v4 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_cst_38 : Ref sig .tc := ⟨.hbm, 362, rfl⟩
abbrev main_v272 : Ref sig .tc := ⟨.hbm, 363, rfl⟩
abbrev main_c_39 : Ref sig .tc := ⟨.hbm, 364, rfl⟩
abbrev main_v273 : Ref sig .tc := ⟨.hbm, 365, rfl⟩
abbrev main_v274 : Ref sig .tc := ⟨.hbm, 366, rfl⟩
abbrev main_c_40 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_c_41 : Ref sig .tc := ⟨.hbm, 373, rfl⟩
abbrev main_v280 : Ref sig .tc := ⟨.hbm, 374, rfl⟩
abbrev main_v281 : Ref sig .tc := ⟨.hbm, 375, rfl⟩
abbrev main_c_42 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_v285 : Ref sig .tc := ⟨.hbm, 380, rfl⟩
abbrev main_v286 : Ref sig .tc := ⟨.hbm, 381, rfl⟩
abbrev main_cst_43 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_cst_44 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_c_45 : Ref sig .tc := ⟨.hbm, 402, rfl⟩
abbrev main_v305 : Ref sig .tc := ⟨.hbm, 403, rfl⟩
abbrev main_v306 : Ref sig .tc := ⟨.hbm, 404, rfl⟩
abbrev main_c_46 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_v310 : Ref sig .tc := ⟨.hbm, 409, rfl⟩
abbrev main_v311 : Ref sig .tc := ⟨.hbm, 410, rfl⟩
abbrev main_c_47 : Ref sig .tc := ⟨.hbm, 411, rfl⟩
abbrev main_v312 : Ref sig .tc := ⟨.hbm, 412, rfl⟩
abbrev main_v313 : Ref sig .tc := ⟨.hbm, 413, rfl⟩
abbrev main_c_48 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_v326 : Ref sig .tc := ⟨.hbm, 427, rfl⟩
abbrev main_v327 : Ref sig .tc := ⟨.hbm, 428, rfl⟩
abbrev main_cst_49 : Ref sig .tc := ⟨.hbm, 429, rfl⟩
abbrev main_call6_cst : Ref sig .tc := ⟨.hbm, 430, rfl⟩
abbrev main_call6_v0 : Ref sig .tc := ⟨.hbm, 431, rfl⟩
abbrev main_call6_v1 : Ref sig .tc := ⟨.hbm, 432, rfl⟩
abbrev main_call6_v2 : Ref sig .tc := ⟨.hbm, 433, rfl⟩
abbrev main_call6_v3 : Ref sig .tc := ⟨.hbm, 434, rfl⟩
abbrev main_call6_v4 : Ref sig .tc := ⟨.hbm, 435, rfl⟩
abbrev main_v328 : Ref sig .tc := ⟨.hbm, 436, rfl⟩
abbrev main_v329 : Ref sig .tc := ⟨.hbm, 437, rfl⟩
abbrev main_v330 : Ref sig .tc := ⟨.hbm, 438, rfl⟩
abbrev main_v331 : Ref sig .tc := ⟨.hbm, 439, rfl⟩
abbrev main_v332 : Ref sig .tc := ⟨.hbm, 440, rfl⟩
abbrev main_v333 : Ref sig .tc := ⟨.hbm, 441, rfl⟩
abbrev main_v334 : Ref sig .tc := ⟨.hbm, 442, rfl⟩
abbrev main_v335 : Ref sig .tc := ⟨.hbm, 443, rfl⟩
abbrev main_v336 : Ref sig .tc := ⟨.hbm, 444, rfl⟩
abbrev main_cst_50 : Ref sig .tc := ⟨.hbm, 445, rfl⟩
abbrev main_call7_cst : Ref sig .tc := ⟨.hbm, 446, rfl⟩
abbrev main_call7_v0 : Ref sig .tc := ⟨.hbm, 447, rfl⟩
abbrev main_call7_v1 : Ref sig .tc := ⟨.hbm, 448, rfl⟩
abbrev main_call7_v2 : Ref sig .tc := ⟨.hbm, 449, rfl⟩
abbrev main_call7_v3 : Ref sig .tc := ⟨.hbm, 450, rfl⟩
abbrev main_call7_v4 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_v340 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_v345 : Ref sig .tc := ⟨.hbm, 460, rfl⟩
abbrev main_v346 : Ref sig .tc := ⟨.hbm, 461, rfl⟩
abbrev main_v347 : Ref sig .tc := ⟨.hbm, 462, rfl⟩
abbrev main_v348 : Ref sig .tc := ⟨.hbm, 463, rfl⟩
abbrev main_v349 : Ref sig .tc := ⟨.hbm, 464, rfl⟩
abbrev main_v350 : Ref sig .tc := ⟨.hbm, 465, rfl⟩
abbrev main_v351 : Ref sig .tc := ⟨.hbm, 466, rfl⟩
abbrev main_v352 : Ref sig .tc := ⟨.hbm, 467, rfl⟩
abbrev main_v353 : Ref sig .tc := ⟨.hbm, 468, rfl⟩
abbrev main_v354 : Ref sig .tc := ⟨.hbm, 469, rfl⟩
abbrev main_v355 : Ref sig .tc := ⟨.hbm, 470, rfl⟩
abbrev main_v356 : Ref sig .tc := ⟨.hbm, 471, rfl⟩
abbrev main_v357 : Ref sig .tc := ⟨.hbm, 472, rfl⟩
abbrev main_v358 : Ref sig .tc := ⟨.hbm, 473, rfl⟩
abbrev main_v359 : Ref sig .tc := ⟨.hbm, 474, rfl⟩
abbrev main_v360 : Ref sig .tc := ⟨.hbm, 475, rfl⟩
abbrev main_v361 : Ref sig .tc := ⟨.hbm, 476, rfl⟩
abbrev main_cst_51 : Ref sig .tc := ⟨.hbm, 477, rfl⟩
abbrev main_v362 : Ref sig .tc := ⟨.hbm, 478, rfl⟩
abbrev main_c_52 : Ref sig .tc := ⟨.hbm, 479, rfl⟩
abbrev main_v363 : Ref sig .tc := ⟨.hbm, 480, rfl⟩
abbrev main_v364 : Ref sig .tc := ⟨.hbm, 481, rfl⟩
abbrev main_c_53 : Ref sig .tc := ⟨.hbm, 482, rfl⟩
abbrev main_v365 : Ref sig .tc := ⟨.hbm, 483, rfl⟩
abbrev main_v366 : Ref sig .tc := ⟨.hbm, 484, rfl⟩
abbrev main_v367 : Ref sig .tc := ⟨.hbm, 485, rfl⟩
abbrev main_v368 : Ref sig .tc := ⟨.hbm, 486, rfl⟩
abbrev main_v369 : Ref sig .tc := ⟨.hbm, 487, rfl⟩
abbrev main_c_54 : Ref sig .tc := ⟨.hbm, 488, rfl⟩
abbrev main_v370 : Ref sig .tc := ⟨.hbm, 489, rfl⟩
abbrev main_v371 : Ref sig .tc := ⟨.hbm, 490, rfl⟩
abbrev main_c_55 : Ref sig .tc := ⟨.hbm, 491, rfl⟩
abbrev main_v372 : Ref sig .tc := ⟨.hbm, 492, rfl⟩
abbrev main_v373 : Ref sig .tc := ⟨.hbm, 493, rfl⟩
abbrev main_v374 : Ref sig .tc := ⟨.hbm, 494, rfl⟩
abbrev main_v375 : Ref sig .tc := ⟨.hbm, 495, rfl⟩
abbrev main_v376 : Ref sig .tc := ⟨.hbm, 496, rfl⟩
abbrev main_cst_56 : Ref sig .tc := ⟨.hbm, 497, rfl⟩
abbrev main_v377 : Ref sig .tc := ⟨.hbm, 498, rfl⟩
abbrev main_v378 : Ref sig .tc := ⟨.hbm, 499, rfl⟩
abbrev main_v379 : Ref sig .tc := ⟨.hbm, 500, rfl⟩
abbrev main_v380 : Ref sig .tc := ⟨.hbm, 501, rfl⟩
abbrev main_v381 : Ref sig .tc := ⟨.hbm, 502, rfl⟩
abbrev main_v382 : Ref sig .tc := ⟨.hbm, 503, rfl⟩
abbrev main_v383 : Ref sig .tc := ⟨.hbm, 504, rfl⟩
abbrev main_v384 : Ref sig .tc := ⟨.hbm, 505, rfl⟩
abbrev main_v385 : Ref sig .tc := ⟨.hbm, 506, rfl⟩
abbrev main_v386 : Ref sig .tc := ⟨.hbm, 507, rfl⟩
abbrev main_v387 : Ref sig .tc := ⟨.hbm, 508, rfl⟩
abbrev main_v388 : Ref sig .tc := ⟨.hbm, 509, rfl⟩
abbrev main_v389 : Ref sig .tc := ⟨.hbm, 510, rfl⟩
abbrev main_v390 : Ref sig .tc := ⟨.hbm, 511, rfl⟩
abbrev main_v391 : Ref sig .tc := ⟨.hbm, 512, rfl⟩
abbrev main_cst_57 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_c_58 : Ref sig .tc := ⟨.hbm, 517, rfl⟩
abbrev main_v395 : Ref sig .tc := ⟨.hbm, 518, rfl⟩
abbrev main_v396 : Ref sig .tc := ⟨.hbm, 519, rfl⟩
abbrev main_c_59 : Ref sig .tc := ⟨.hbm, 520, rfl⟩
abbrev main_v397 : Ref sig .tc := ⟨.hbm, 521, rfl⟩
abbrev main_v398 : Ref sig .tc := ⟨.hbm, 522, rfl⟩
abbrev main_v399 : Ref sig .tc := ⟨.hbm, 523, rfl⟩
abbrev main_v400 : Ref sig .tc := ⟨.hbm, 524, rfl⟩
abbrev main_v401 : Ref sig .tc := ⟨.hbm, 525, rfl⟩
abbrev main_c_60 : Ref sig .tc := ⟨.hbm, 526, rfl⟩
abbrev main_v402 : Ref sig .tc := ⟨.hbm, 527, rfl⟩
abbrev main_v403 : Ref sig .tc := ⟨.hbm, 528, rfl⟩
abbrev main_c_61 : Ref sig .tc := ⟨.hbm, 529, rfl⟩
abbrev main_v404 : Ref sig .tc := ⟨.hbm, 530, rfl⟩
abbrev main_v405 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_v409 : Ref sig .tc := ⟨.hbm, 535, rfl⟩
abbrev main_v410 : Ref sig .tc := ⟨.hbm, 536, rfl⟩
abbrev main_v411 : Ref sig .tc := ⟨.hbm, 537, rfl⟩
abbrev main_v412 : Ref sig .tc := ⟨.hbm, 538, rfl⟩
abbrev main_v413 : Ref sig .tc := ⟨.hbm, 539, rfl⟩
abbrev main_v414 : Ref sig .tc := ⟨.hbm, 540, rfl⟩
abbrev main_v415 : Ref sig .tc := ⟨.hbm, 541, rfl⟩
abbrev main_v416 : Ref sig .tc := ⟨.hbm, 542, rfl⟩
abbrev main_v417 : Ref sig .tc := ⟨.hbm, 543, rfl⟩
abbrev main_cst_62 : Ref sig .tc := ⟨.hbm, 544, rfl⟩
abbrev main_call8_cst : Ref sig .tc := ⟨.hbm, 545, rfl⟩
abbrev main_call8_v0 : Ref sig .tc := ⟨.hbm, 546, rfl⟩
abbrev main_call8_v1 : Ref sig .tc := ⟨.hbm, 547, rfl⟩
abbrev main_call8_v2 : Ref sig .tc := ⟨.hbm, 548, rfl⟩
abbrev main_call8_v3 : Ref sig .tc := ⟨.hbm, 549, rfl⟩
abbrev main_call8_v4 : Ref sig .tc := ⟨.hbm, 550, rfl⟩
abbrev main_v418 : Ref sig .tc := ⟨.hbm, 551, rfl⟩
abbrev main_v419 : Ref sig .tc := ⟨.hbm, 552, rfl⟩
abbrev main_v420 : Ref sig .tc := ⟨.hbm, 553, rfl⟩
abbrev main_v421 : Ref sig .tc := ⟨.hbm, 554, rfl⟩
abbrev main_v422 : Ref sig .tc := ⟨.hbm, 555, rfl⟩
abbrev main_v423 : Ref sig .tc := ⟨.hbm, 556, rfl⟩
abbrev main_v424 : Ref sig .tc := ⟨.hbm, 557, rfl⟩
abbrev main_v425 : Ref sig .tc := ⟨.hbm, 558, rfl⟩
abbrev main_v426 : Ref sig .tc := ⟨.hbm, 559, rfl⟩
abbrev main_cst_63 : Ref sig .tc := ⟨.hbm, 560, rfl⟩
abbrev main_call9_cst : Ref sig .tc := ⟨.hbm, 561, rfl⟩
abbrev main_call9_v0 : Ref sig .tc := ⟨.hbm, 562, rfl⟩
abbrev main_call9_v1 : Ref sig .tc := ⟨.hbm, 563, rfl⟩
abbrev main_call9_v2 : Ref sig .tc := ⟨.hbm, 564, rfl⟩
abbrev main_call9_v3 : Ref sig .tc := ⟨.hbm, 565, rfl⟩
abbrev main_call9_v4 : Ref sig .tc := ⟨.hbm, 566, rfl⟩
abbrev main_v427 : Ref sig .tc := ⟨.hbm, 567, rfl⟩
abbrev main_v428 : Ref sig .tc := ⟨.hbm, 568, rfl⟩
abbrev main_v429 : Ref sig .tc := ⟨.hbm, 569, rfl⟩
abbrev main_v430 : Ref sig .tc := ⟨.hbm, 570, rfl⟩
abbrev main_v431 : Ref sig .tc := ⟨.hbm, 571, rfl⟩
abbrev main_v432 : Ref sig .tc := ⟨.hbm, 572, rfl⟩
abbrev main_v433 : Ref sig .tc := ⟨.hbm, 573, rfl⟩
abbrev main_v434 : Ref sig .tc := ⟨.hbm, 574, rfl⟩
abbrev main_v435 : Ref sig .tc := ⟨.hbm, 575, rfl⟩
abbrev main_v436 : Ref sig .tc := ⟨.hbm, 576, rfl⟩
abbrev main_v437 : Ref sig .tc := ⟨.hbm, 577, rfl⟩
abbrev main_v438 : Ref sig .tc := ⟨.hbm, 578, rfl⟩
abbrev main_v439 : Ref sig .tc := ⟨.hbm, 579, rfl⟩
abbrev main_v440 : Ref sig .tc := ⟨.hbm, 580, rfl⟩
abbrev main_v441 : Ref sig .tc := ⟨.hbm, 581, rfl⟩
abbrev main_v442 : Ref sig .tc := ⟨.hbm, 582, rfl⟩
abbrev main_v443 : Ref sig .tc := ⟨.hbm, 583, rfl⟩
abbrev main_v444 : Ref sig .tc := ⟨.hbm, 584, rfl⟩
abbrev main_v445 : Ref sig .tc := ⟨.hbm, 585, rfl⟩
abbrev main_v446 : Ref sig .tc := ⟨.hbm, 586, rfl⟩
abbrev main_v447 : Ref sig .tc := ⟨.hbm, 587, rfl⟩
abbrev main_v448 : Ref sig .tc := ⟨.hbm, 588, rfl⟩
abbrev main_v449 : Ref sig .tc := ⟨.hbm, 589, rfl⟩
abbrev main_v450 : Ref sig .tc := ⟨.hbm, 590, rfl⟩
abbrev main_v451 : Ref sig .tc := ⟨.hbm, 591, rfl⟩
abbrev main_cst_64 : Ref sig .tc := ⟨.hbm, 592, rfl⟩
abbrev main_v452 : Ref sig .tc := ⟨.hbm, 593, rfl⟩
abbrev main_c_65 : Ref sig .tc := ⟨.hbm, 594, rfl⟩
abbrev main_v453 : Ref sig .tc := ⟨.hbm, 595, rfl⟩
abbrev main_v454 : Ref sig .tc := ⟨.hbm, 596, rfl⟩
abbrev main_c_66 : Ref sig .tc := ⟨.hbm, 597, rfl⟩
abbrev main_v455 : Ref sig .tc := ⟨.hbm, 598, rfl⟩
abbrev main_v456 : Ref sig .tc := ⟨.hbm, 599, rfl⟩
abbrev main_v457 : Ref sig .tc := ⟨.hbm, 600, rfl⟩
abbrev main_v458 : Ref sig .tc := ⟨.hbm, 601, rfl⟩
abbrev main_v459 : Ref sig .tc := ⟨.hbm, 602, rfl⟩
abbrev main_c_67 : Ref sig .tc := ⟨.hbm, 603, rfl⟩
abbrev main_v460 : Ref sig .tc := ⟨.hbm, 604, rfl⟩
abbrev main_v461 : Ref sig .tc := ⟨.hbm, 605, rfl⟩
abbrev main_c_68 : Ref sig .tc := ⟨.hbm, 606, rfl⟩
abbrev main_v462 : Ref sig .tc := ⟨.hbm, 607, rfl⟩
abbrev main_v463 : Ref sig .tc := ⟨.hbm, 608, rfl⟩
abbrev main_v464 : Ref sig .tc := ⟨.hbm, 609, rfl⟩
abbrev main_v465 : Ref sig .tc := ⟨.hbm, 610, rfl⟩
abbrev main_v466 : Ref sig .tc := ⟨.hbm, 611, rfl⟩
abbrev main_cst_69 : Ref sig .tc := ⟨.hbm, 612, rfl⟩
abbrev main_v467 : Ref sig .tc := ⟨.hbm, 613, rfl⟩
abbrev main_v468 : Ref sig .tc := ⟨.hbm, 614, rfl⟩
abbrev main_v469 : Ref sig .tc := ⟨.hbm, 615, rfl⟩
abbrev main_v470 : Ref sig .tc := ⟨.hbm, 616, rfl⟩
abbrev main_v471 : Ref sig .tc := ⟨.hbm, 617, rfl⟩
abbrev main_v472 : Ref sig .tc := ⟨.hbm, 618, rfl⟩
abbrev main_v473 : Ref sig .tc := ⟨.hbm, 619, rfl⟩
abbrev main_v474 : Ref sig .tc := ⟨.hbm, 620, rfl⟩
abbrev main_v475 : Ref sig .tc := ⟨.hbm, 621, rfl⟩
abbrev main_v476 : Ref sig .tc := ⟨.hbm, 622, rfl⟩
abbrev main_v477 : Ref sig .tc := ⟨.hbm, 623, rfl⟩
abbrev main_v478 : Ref sig .tc := ⟨.hbm, 624, rfl⟩
abbrev main_v479 : Ref sig .tc := ⟨.hbm, 625, rfl⟩
abbrev main_v480 : Ref sig .tc := ⟨.hbm, 626, rfl⟩
abbrev main_v481 : Ref sig .tc := ⟨.hbm, 627, rfl⟩
abbrev main_cst_70 : Ref sig .tc := ⟨.hbm, 628, rfl⟩
abbrev main_v482 : Ref sig .tc := ⟨.hbm, 629, rfl⟩
abbrev main_v483 : Ref sig .tc := ⟨.hbm, 630, rfl⟩
abbrev main_v484 : Ref sig .tc := ⟨.hbm, 631, rfl⟩
abbrev main_c_71 : Ref sig .tc := ⟨.hbm, 632, rfl⟩
abbrev main_v485 : Ref sig .tc := ⟨.hbm, 633, rfl⟩
abbrev main_v486 : Ref sig .tc := ⟨.hbm, 634, rfl⟩
abbrev main_c_72 : Ref sig .tc := ⟨.hbm, 635, rfl⟩
abbrev main_v487 : Ref sig .tc := ⟨.hbm, 636, rfl⟩
abbrev main_v488 : Ref sig .tc := ⟨.hbm, 637, rfl⟩
abbrev main_v489 : Ref sig .tc := ⟨.hbm, 638, rfl⟩
abbrev main_v490 : Ref sig .tc := ⟨.hbm, 639, rfl⟩
abbrev main_v491 : Ref sig .tc := ⟨.hbm, 640, rfl⟩
abbrev main_c_73 : Ref sig .tc := ⟨.hbm, 641, rfl⟩
abbrev main_v492 : Ref sig .tc := ⟨.hbm, 642, rfl⟩
abbrev main_v493 : Ref sig .tc := ⟨.hbm, 643, rfl⟩
abbrev main_c_74 : Ref sig .tc := ⟨.hbm, 644, rfl⟩
abbrev main_v494 : Ref sig .tc := ⟨.hbm, 645, rfl⟩
abbrev main_v495 : Ref sig .tc := ⟨.hbm, 646, rfl⟩
abbrev main_v496 : Ref sig .tc := ⟨.hbm, 647, rfl⟩
abbrev main_v497 : Ref sig .tc := ⟨.hbm, 648, rfl⟩
abbrev main_v498 : Ref sig .tc := ⟨.hbm, 649, rfl⟩
abbrev main_v499 : Ref sig .tc := ⟨.hbm, 650, rfl⟩
abbrev main_v500 : Ref sig .tc := ⟨.hbm, 651, rfl⟩
abbrev main_v501 : Ref sig .tc := ⟨.hbm, 652, rfl⟩
abbrev main_v502 : Ref sig .tc := ⟨.hbm, 653, rfl⟩
abbrev main_v503 : Ref sig .tc := ⟨.hbm, 654, rfl⟩
abbrev main_v504 : Ref sig .tc := ⟨.hbm, 655, rfl⟩
abbrev main_v505 : Ref sig .tc := ⟨.hbm, 656, rfl⟩
abbrev main_v506 : Ref sig .tc := ⟨.hbm, 657, rfl⟩
abbrev main_v507 : Ref sig .tc := ⟨.hbm, 658, rfl⟩
abbrev main_cst_75 : Ref sig .tc := ⟨.hbm, 659, rfl⟩
abbrev main_call10_cst : Ref sig .tc := ⟨.hbm, 660, rfl⟩
abbrev main_call10_v0 : Ref sig .tc := ⟨.hbm, 661, rfl⟩
abbrev main_call10_v1 : Ref sig .tc := ⟨.hbm, 662, rfl⟩
abbrev main_call10_v2 : Ref sig .tc := ⟨.hbm, 663, rfl⟩
abbrev main_call10_v3 : Ref sig .tc := ⟨.hbm, 664, rfl⟩
abbrev main_call10_v4 : Ref sig .tc := ⟨.hbm, 665, rfl⟩
abbrev main_v508 : Ref sig .tc := ⟨.hbm, 666, rfl⟩
abbrev main_v509 : Ref sig .tc := ⟨.hbm, 667, rfl⟩
abbrev main_v510 : Ref sig .tc := ⟨.hbm, 668, rfl⟩
abbrev main_v511 : Ref sig .tc := ⟨.hbm, 669, rfl⟩
abbrev main_v512 : Ref sig .tc := ⟨.hbm, 670, rfl⟩
abbrev main_v513 : Ref sig .tc := ⟨.hbm, 671, rfl⟩
abbrev main_v514 : Ref sig .tc := ⟨.hbm, 672, rfl⟩
abbrev main_v515 : Ref sig .tc := ⟨.hbm, 673, rfl⟩
abbrev main_v516 : Ref sig .tc := ⟨.hbm, 674, rfl⟩
abbrev main_cst_76 : Ref sig .tc := ⟨.hbm, 675, rfl⟩
abbrev main_call11_cst : Ref sig .tc := ⟨.hbm, 676, rfl⟩
abbrev main_call11_v0 : Ref sig .tc := ⟨.hbm, 677, rfl⟩
abbrev main_call11_v1 : Ref sig .tc := ⟨.hbm, 678, rfl⟩
abbrev main_call11_v2 : Ref sig .tc := ⟨.hbm, 679, rfl⟩
abbrev main_call11_v3 : Ref sig .tc := ⟨.hbm, 680, rfl⟩
abbrev main_call11_v4 : Ref sig .tc := ⟨.hbm, 681, rfl⟩
abbrev main_v517 : Ref sig .tc := ⟨.hbm, 682, rfl⟩
abbrev main_v518 : Ref sig .tc := ⟨.hbm, 683, rfl⟩
abbrev main_v519 : Ref sig .tc := ⟨.hbm, 684, rfl⟩
abbrev main_v520 : Ref sig .tc := ⟨.hbm, 685, rfl⟩
abbrev main_v521 : Ref sig .tc := ⟨.hbm, 686, rfl⟩
abbrev main_v522 : Ref sig .tc := ⟨.hbm, 687, rfl⟩
abbrev main_v523 : Ref sig .tc := ⟨.hbm, 688, rfl⟩
abbrev main_v524 : Ref sig .tc := ⟨.hbm, 689, rfl⟩
abbrev main_v525 : Ref sig .tc := ⟨.hbm, 690, rfl⟩
abbrev main_v526 : Ref sig .tc := ⟨.hbm, 691, rfl⟩
abbrev main_v527 : Ref sig .tc := ⟨.hbm, 692, rfl⟩
abbrev main_v528 : Ref sig .tc := ⟨.hbm, 693, rfl⟩
abbrev main_v529 : Ref sig .tc := ⟨.hbm, 694, rfl⟩
abbrev main_v530 : Ref sig .tc := ⟨.hbm, 695, rfl⟩
abbrev main_v531 : Ref sig .tc := ⟨.hbm, 696, rfl⟩
abbrev main_v532 : Ref sig .tc := ⟨.hbm, 697, rfl⟩
abbrev main_v533 : Ref sig .tc := ⟨.hbm, 698, rfl⟩
abbrev main_v534 : Ref sig .tc := ⟨.hbm, 699, rfl⟩
abbrev main_v535 : Ref sig .tc := ⟨.hbm, 700, rfl⟩
abbrev main_v536 : Ref sig .tc := ⟨.hbm, 701, rfl⟩
abbrev main_v537 : Ref sig .tc := ⟨.hbm, 702, rfl⟩
abbrev main_v538 : Ref sig .tc := ⟨.hbm, 703, rfl⟩
abbrev main_v539 : Ref sig .tc := ⟨.hbm, 704, rfl⟩
abbrev main_v540 : Ref sig .tc := ⟨.hbm, 705, rfl⟩
abbrev main_v541 : Ref sig .tc := ⟨.hbm, 706, rfl⟩
abbrev main_cst_77 : Ref sig .tc := ⟨.hbm, 707, rfl⟩
abbrev main_v542 : Ref sig .tc := ⟨.hbm, 708, rfl⟩
abbrev main_c_78 : Ref sig .tc := ⟨.hbm, 709, rfl⟩
abbrev main_v543 : Ref sig .tc := ⟨.hbm, 710, rfl⟩
abbrev main_v544 : Ref sig .tc := ⟨.hbm, 711, rfl⟩
abbrev main_c_79 : Ref sig .tc := ⟨.hbm, 712, rfl⟩
abbrev main_v545 : Ref sig .tc := ⟨.hbm, 713, rfl⟩
abbrev main_v546 : Ref sig .tc := ⟨.hbm, 714, rfl⟩
abbrev main_v547 : Ref sig .tc := ⟨.hbm, 715, rfl⟩
abbrev main_v548 : Ref sig .tc := ⟨.hbm, 716, rfl⟩
abbrev main_v549 : Ref sig .tc := ⟨.hbm, 717, rfl⟩
abbrev main_c_80 : Ref sig .tc := ⟨.hbm, 718, rfl⟩
abbrev main_v550 : Ref sig .tc := ⟨.hbm, 719, rfl⟩
abbrev main_v551 : Ref sig .tc := ⟨.hbm, 720, rfl⟩
abbrev main_c_81 : Ref sig .tc := ⟨.hbm, 721, rfl⟩
abbrev main_v552 : Ref sig .tc := ⟨.hbm, 722, rfl⟩
abbrev main_v553 : Ref sig .tc := ⟨.hbm, 723, rfl⟩
abbrev main_v554 : Ref sig .tc := ⟨.hbm, 724, rfl⟩
abbrev main_v555 : Ref sig .tc := ⟨.hbm, 725, rfl⟩
abbrev main_v556 : Ref sig .tc := ⟨.hbm, 726, rfl⟩
abbrev main_cst_82 : Ref sig .tc := ⟨.hbm, 727, rfl⟩
abbrev main_v557 : Ref sig .tc := ⟨.hbm, 728, rfl⟩
abbrev main_v558 : Ref sig .tc := ⟨.hbm, 729, rfl⟩
abbrev main_v559 : Ref sig .tc := ⟨.hbm, 730, rfl⟩
abbrev main_v560 : Ref sig .tc := ⟨.hbm, 731, rfl⟩
abbrev main_v561 : Ref sig .tc := ⟨.hbm, 732, rfl⟩
abbrev main_v562 : Ref sig .tc := ⟨.hbm, 733, rfl⟩
abbrev main_v563 : Ref sig .tc := ⟨.hbm, 734, rfl⟩
abbrev main_v564 : Ref sig .tc := ⟨.hbm, 735, rfl⟩
abbrev main_v565 : Ref sig .tc := ⟨.hbm, 736, rfl⟩
abbrev main_v566 : Ref sig .tc := ⟨.hbm, 737, rfl⟩
abbrev main_v567 : Ref sig .tc := ⟨.hbm, 738, rfl⟩
abbrev main_v568 : Ref sig .tc := ⟨.hbm, 739, rfl⟩
abbrev main_v569 : Ref sig .tc := ⟨.hbm, 740, rfl⟩
abbrev main_v570 : Ref sig .tc := ⟨.hbm, 741, rfl⟩
abbrev main_v571 : Ref sig .tc := ⟨.hbm, 742, rfl⟩
abbrev main_cst_83 : Ref sig .tc := ⟨.hbm, 743, rfl⟩
abbrev main_v572 : Ref sig .tc := ⟨.hbm, 744, rfl⟩
abbrev main_v573 : Ref sig .tc := ⟨.hbm, 745, rfl⟩
abbrev main_v574 : Ref sig .tc := ⟨.hbm, 746, rfl⟩
abbrev main_c_84 : Ref sig .tc := ⟨.hbm, 747, rfl⟩
abbrev main_v575 : Ref sig .tc := ⟨.hbm, 748, rfl⟩
abbrev main_v576 : Ref sig .tc := ⟨.hbm, 749, rfl⟩
abbrev main_c_85 : Ref sig .tc := ⟨.hbm, 750, rfl⟩
abbrev main_v577 : Ref sig .tc := ⟨.hbm, 751, rfl⟩
abbrev main_v578 : Ref sig .tc := ⟨.hbm, 752, rfl⟩
abbrev main_v579 : Ref sig .tc := ⟨.hbm, 753, rfl⟩
abbrev main_v580 : Ref sig .tc := ⟨.hbm, 754, rfl⟩
abbrev main_v581 : Ref sig .tc := ⟨.hbm, 755, rfl⟩
abbrev main_c_86 : Ref sig .tc := ⟨.hbm, 756, rfl⟩
abbrev main_v582 : Ref sig .tc := ⟨.hbm, 757, rfl⟩
abbrev main_v583 : Ref sig .tc := ⟨.hbm, 758, rfl⟩
abbrev main_c_87 : Ref sig .tc := ⟨.hbm, 759, rfl⟩
abbrev main_v584 : Ref sig .tc := ⟨.hbm, 760, rfl⟩
abbrev main_v585 : Ref sig .tc := ⟨.hbm, 761, rfl⟩
abbrev main_v586 : Ref sig .tc := ⟨.hbm, 762, rfl⟩
abbrev main_v587 : Ref sig .tc := ⟨.hbm, 763, rfl⟩
abbrev main_v588 : Ref sig .tc := ⟨.hbm, 764, rfl⟩
abbrev main_v589 : Ref sig .tc := ⟨.hbm, 765, rfl⟩
abbrev main_v590 : Ref sig .tc := ⟨.hbm, 766, rfl⟩
abbrev main_v591 : Ref sig .tc := ⟨.hbm, 767, rfl⟩
abbrev main_v592 : Ref sig .tc := ⟨.hbm, 768, rfl⟩
abbrev main_v593 : Ref sig .tc := ⟨.hbm, 769, rfl⟩
abbrev main_v594 : Ref sig .tc := ⟨.hbm, 770, rfl⟩
abbrev main_v595 : Ref sig .tc := ⟨.hbm, 771, rfl⟩
abbrev main_v596 : Ref sig .tc := ⟨.hbm, 772, rfl⟩
abbrev main_v597 : Ref sig .tc := ⟨.hbm, 773, rfl⟩
abbrev main_cst_88 : Ref sig .tc := ⟨.hbm, 774, rfl⟩
abbrev main_call12_cst : Ref sig .tc := ⟨.hbm, 775, rfl⟩
abbrev main_call12_v0 : Ref sig .tc := ⟨.hbm, 776, rfl⟩
abbrev main_call12_v1 : Ref sig .tc := ⟨.hbm, 777, rfl⟩
abbrev main_call12_v2 : Ref sig .tc := ⟨.hbm, 778, rfl⟩
abbrev main_call12_v3 : Ref sig .tc := ⟨.hbm, 779, rfl⟩
abbrev main_call12_v4 : Ref sig .tc := ⟨.hbm, 780, rfl⟩
abbrev main_v598 : Ref sig .tc := ⟨.hbm, 781, rfl⟩
abbrev main_v599 : Ref sig .tc := ⟨.hbm, 782, rfl⟩
abbrev main_v600 : Ref sig .tc := ⟨.hbm, 783, rfl⟩
abbrev main_v601 : Ref sig .tc := ⟨.hbm, 784, rfl⟩
abbrev main_v602 : Ref sig .tc := ⟨.hbm, 785, rfl⟩
abbrev main_v603 : Ref sig .tc := ⟨.hbm, 786, rfl⟩
abbrev main_v604 : Ref sig .tc := ⟨.hbm, 787, rfl⟩
abbrev main_v605 : Ref sig .tc := ⟨.hbm, 788, rfl⟩
abbrev main_v606 : Ref sig .tc := ⟨.hbm, 789, rfl⟩
abbrev main_cst_89 : Ref sig .tc := ⟨.hbm, 790, rfl⟩
abbrev main_call13_cst : Ref sig .tc := ⟨.hbm, 791, rfl⟩
abbrev main_call13_v0 : Ref sig .tc := ⟨.hbm, 792, rfl⟩
abbrev main_call13_v1 : Ref sig .tc := ⟨.hbm, 793, rfl⟩
abbrev main_call13_v2 : Ref sig .tc := ⟨.hbm, 794, rfl⟩
abbrev main_call13_v3 : Ref sig .tc := ⟨.hbm, 795, rfl⟩
abbrev main_call13_v4 : Ref sig .tc := ⟨.hbm, 796, rfl⟩
abbrev main_v607 : Ref sig .tc := ⟨.hbm, 797, rfl⟩
abbrev main_v608 : Ref sig .tc := ⟨.hbm, 798, rfl⟩
abbrev main_v609 : Ref sig .tc := ⟨.hbm, 799, rfl⟩
abbrev main_v610 : Ref sig .tc := ⟨.hbm, 800, rfl⟩
abbrev main_v611 : Ref sig .tc := ⟨.hbm, 801, rfl⟩
abbrev main_v612 : Ref sig .tc := ⟨.hbm, 802, rfl⟩
abbrev main_v613 : Ref sig .tc := ⟨.hbm, 803, rfl⟩
abbrev main_v614 : Ref sig .tc := ⟨.hbm, 804, rfl⟩
abbrev main_v615 : Ref sig .tc := ⟨.hbm, 805, rfl⟩
abbrev main_v616 : Ref sig .tc := ⟨.hbm, 806, rfl⟩
abbrev main_v617 : Ref sig .tc := ⟨.hbm, 807, rfl⟩
abbrev main_v618 : Ref sig .tc := ⟨.hbm, 808, rfl⟩
abbrev main_v619 : Ref sig .tc := ⟨.hbm, 809, rfl⟩
abbrev main_v620 : Ref sig .tc := ⟨.hbm, 810, rfl⟩
abbrev main_v621 : Ref sig .tc := ⟨.hbm, 811, rfl⟩
abbrev main_v622 : Ref sig .tc := ⟨.hbm, 812, rfl⟩
abbrev main_v623 : Ref sig .tc := ⟨.hbm, 813, rfl⟩
abbrev main_v624 : Ref sig .tc := ⟨.hbm, 814, rfl⟩
abbrev main_v625 : Ref sig .tc := ⟨.hbm, 815, rfl⟩
abbrev main_v626 : Ref sig .tc := ⟨.hbm, 816, rfl⟩
abbrev main_v627 : Ref sig .tc := ⟨.hbm, 817, rfl⟩
abbrev main_v628 : Ref sig .tc := ⟨.hbm, 818, rfl⟩
abbrev main_v629 : Ref sig .tc := ⟨.hbm, 819, rfl⟩
abbrev main_v630 : Ref sig .tc := ⟨.hbm, 820, rfl⟩
abbrev main_v631 : Ref sig .tc := ⟨.hbm, 821, rfl⟩
abbrev main_cst_90 : Ref sig .tc := ⟨.hbm, 822, rfl⟩
abbrev main_v632 : Ref sig .tc := ⟨.hbm, 823, rfl⟩
abbrev main_c_91 : Ref sig .tc := ⟨.hbm, 824, rfl⟩
abbrev main_v633 : Ref sig .tc := ⟨.hbm, 825, rfl⟩
abbrev main_v634 : Ref sig .tc := ⟨.hbm, 826, rfl⟩
abbrev main_c_92 : Ref sig .tc := ⟨.hbm, 827, rfl⟩
abbrev main_v635 : Ref sig .tc := ⟨.hbm, 828, rfl⟩
abbrev main_v636 : Ref sig .tc := ⟨.hbm, 829, rfl⟩
abbrev main_v637 : Ref sig .tc := ⟨.hbm, 830, rfl⟩
abbrev main_v638 : Ref sig .tc := ⟨.hbm, 831, rfl⟩
abbrev main_v639 : Ref sig .tc := ⟨.hbm, 832, rfl⟩
abbrev main_c_93 : Ref sig .tc := ⟨.hbm, 833, rfl⟩
abbrev main_v640 : Ref sig .tc := ⟨.hbm, 834, rfl⟩
abbrev main_v641 : Ref sig .tc := ⟨.hbm, 835, rfl⟩
abbrev main_c_94 : Ref sig .tc := ⟨.hbm, 836, rfl⟩
abbrev main_v642 : Ref sig .tc := ⟨.hbm, 837, rfl⟩
abbrev main_v643 : Ref sig .tc := ⟨.hbm, 838, rfl⟩
abbrev main_v644 : Ref sig .tc := ⟨.hbm, 839, rfl⟩
abbrev main_v645 : Ref sig .tc := ⟨.hbm, 840, rfl⟩
abbrev main_v646 : Ref sig .tc := ⟨.hbm, 841, rfl⟩
abbrev main_cst_95 : Ref sig .tc := ⟨.hbm, 842, rfl⟩
abbrev main_v647 : Ref sig .tc := ⟨.hbm, 843, rfl⟩
abbrev main_v648 : Ref sig .tc := ⟨.hbm, 844, rfl⟩
abbrev main_v649 : Ref sig .tc := ⟨.hbm, 845, rfl⟩
abbrev main_v650 : Ref sig .tc := ⟨.hbm, 846, rfl⟩
abbrev main_v651 : Ref sig .tc := ⟨.hbm, 847, rfl⟩
abbrev main_v652 : Ref sig .tc := ⟨.hbm, 848, rfl⟩
abbrev main_v653 : Ref sig .tc := ⟨.hbm, 849, rfl⟩
abbrev main_v654 : Ref sig .tc := ⟨.hbm, 850, rfl⟩
abbrev main_v655 : Ref sig .tc := ⟨.hbm, 851, rfl⟩
abbrev main_v656 : Ref sig .tc := ⟨.hbm, 852, rfl⟩
abbrev main_v657 : Ref sig .tc := ⟨.hbm, 853, rfl⟩
abbrev main_v658 : Ref sig .tc := ⟨.hbm, 854, rfl⟩
abbrev main_v659 : Ref sig .tc := ⟨.hbm, 855, rfl⟩
abbrev main_v660 : Ref sig .tc := ⟨.hbm, 856, rfl⟩
abbrev main_v661 : Ref sig .tc := ⟨.hbm, 857, rfl⟩
abbrev main_cst_96 : Ref sig .tc := ⟨.hbm, 858, rfl⟩
abbrev main_v662 : Ref sig .tc := ⟨.hbm, 859, rfl⟩
abbrev main_v663 : Ref sig .tc := ⟨.hbm, 860, rfl⟩
abbrev main_v664 : Ref sig .tc := ⟨.hbm, 861, rfl⟩
abbrev main_c_97 : Ref sig .tc := ⟨.hbm, 862, rfl⟩
abbrev main_v665 : Ref sig .tc := ⟨.hbm, 863, rfl⟩
abbrev main_v666 : Ref sig .tc := ⟨.hbm, 864, rfl⟩
abbrev main_c_98 : Ref sig .tc := ⟨.hbm, 865, rfl⟩
abbrev main_v667 : Ref sig .tc := ⟨.hbm, 866, rfl⟩
abbrev main_v668 : Ref sig .tc := ⟨.hbm, 867, rfl⟩
abbrev main_v669 : Ref sig .tc := ⟨.hbm, 868, rfl⟩
abbrev main_v670 : Ref sig .tc := ⟨.hbm, 869, rfl⟩
abbrev main_v671 : Ref sig .tc := ⟨.hbm, 870, rfl⟩
abbrev main_c_99 : Ref sig .tc := ⟨.hbm, 871, rfl⟩
abbrev main_v672 : Ref sig .tc := ⟨.hbm, 872, rfl⟩
abbrev main_v673 : Ref sig .tc := ⟨.hbm, 873, rfl⟩
abbrev main_c_100 : Ref sig .tc := ⟨.hbm, 874, rfl⟩
abbrev main_v674 : Ref sig .tc := ⟨.hbm, 875, rfl⟩
abbrev main_v675 : Ref sig .tc := ⟨.hbm, 876, rfl⟩
abbrev main_v676 : Ref sig .tc := ⟨.hbm, 877, rfl⟩
abbrev main_v677 : Ref sig .tc := ⟨.hbm, 878, rfl⟩
abbrev main_v678 : Ref sig .tc := ⟨.hbm, 879, rfl⟩
abbrev main_v679 : Ref sig .tc := ⟨.hbm, 880, rfl⟩
abbrev main_v680 : Ref sig .tc := ⟨.hbm, 881, rfl⟩
abbrev main_v681 : Ref sig .tc := ⟨.hbm, 882, rfl⟩
abbrev main_v682 : Ref sig .tc := ⟨.hbm, 883, rfl⟩
abbrev main_v683 : Ref sig .tc := ⟨.hbm, 884, rfl⟩
abbrev main_v684 : Ref sig .tc := ⟨.hbm, 885, rfl⟩
abbrev main_v685 : Ref sig .tc := ⟨.hbm, 886, rfl⟩
abbrev main_v686 : Ref sig .tc := ⟨.hbm, 887, rfl⟩
abbrev main_v687 : Ref sig .tc := ⟨.hbm, 888, rfl⟩
abbrev main_cst_101 : Ref sig .tc := ⟨.hbm, 889, rfl⟩
abbrev main_call14_cst : Ref sig .tc := ⟨.hbm, 890, rfl⟩
abbrev main_call14_v0 : Ref sig .tc := ⟨.hbm, 891, rfl⟩
abbrev main_call14_v1 : Ref sig .tc := ⟨.hbm, 892, rfl⟩
abbrev main_call14_v2 : Ref sig .tc := ⟨.hbm, 893, rfl⟩
abbrev main_call14_v3 : Ref sig .tc := ⟨.hbm, 894, rfl⟩
abbrev main_call14_v4 : Ref sig .tc := ⟨.hbm, 895, rfl⟩
abbrev main_v688 : Ref sig .tc := ⟨.hbm, 896, rfl⟩
abbrev main_v689 : Ref sig .tc := ⟨.hbm, 897, rfl⟩
abbrev main_v690 : Ref sig .tc := ⟨.hbm, 898, rfl⟩
abbrev main_v691 : Ref sig .tc := ⟨.hbm, 899, rfl⟩
abbrev main_v692 : Ref sig .tc := ⟨.hbm, 900, rfl⟩
abbrev main_v693 : Ref sig .tc := ⟨.hbm, 901, rfl⟩
abbrev main_v694 : Ref sig .tc := ⟨.hbm, 902, rfl⟩
abbrev main_v695 : Ref sig .tc := ⟨.hbm, 903, rfl⟩
abbrev main_v696 : Ref sig .tc := ⟨.hbm, 904, rfl⟩
abbrev main_cst_102 : Ref sig .tc := ⟨.hbm, 905, rfl⟩
abbrev main_call15_cst : Ref sig .tc := ⟨.hbm, 906, rfl⟩
abbrev main_call15_v0 : Ref sig .tc := ⟨.hbm, 907, rfl⟩
abbrev main_call15_v1 : Ref sig .tc := ⟨.hbm, 908, rfl⟩
abbrev main_call15_v2 : Ref sig .tc := ⟨.hbm, 909, rfl⟩
abbrev main_call15_v3 : Ref sig .tc := ⟨.hbm, 910, rfl⟩
abbrev main_call15_v4 : Ref sig .tc := ⟨.hbm, 911, rfl⟩
abbrev main_v697 : Ref sig .tc := ⟨.hbm, 912, rfl⟩
abbrev main_v698 : Ref sig .tc := ⟨.hbm, 913, rfl⟩
abbrev main_v699 : Ref sig .tc := ⟨.hbm, 914, rfl⟩
abbrev main_v700 : Ref sig .tc := ⟨.hbm, 915, rfl⟩
abbrev main_v701 : Ref sig .tc := ⟨.hbm, 916, rfl⟩
abbrev main_v702 : Ref sig .tc := ⟨.hbm, 917, rfl⟩
abbrev main_v703 : Ref sig .tc := ⟨.hbm, 918, rfl⟩
abbrev main_v704 : Ref sig .tc := ⟨.hbm, 919, rfl⟩
abbrev main_v705 : Ref sig .tc := ⟨.hbm, 920, rfl⟩
abbrev main_v706 : Ref sig .tc := ⟨.hbm, 921, rfl⟩
abbrev main_v707 : Ref sig .tc := ⟨.hbm, 922, rfl⟩
abbrev main_v708 : Ref sig .tc := ⟨.hbm, 923, rfl⟩
abbrev main_v709 : Ref sig .tc := ⟨.hbm, 924, rfl⟩
abbrev main_v710 : Ref sig .tc := ⟨.hbm, 925, rfl⟩
abbrev main_v711 : Ref sig .tc := ⟨.hbm, 926, rfl⟩
abbrev main_v712 : Ref sig .tc := ⟨.hbm, 927, rfl⟩
abbrev main_v713 : Ref sig .tc := ⟨.hbm, 928, rfl⟩
abbrev main_v714 : Ref sig .tc := ⟨.hbm, 929, rfl⟩
abbrev main_v715 : Ref sig .tc := ⟨.hbm, 930, rfl⟩
abbrev main_v716 : Ref sig .tc := ⟨.hbm, 931, rfl⟩
abbrev main_v717 : Ref sig .tc := ⟨.hbm, 932, rfl⟩
abbrev main_v718 : Ref sig .tc := ⟨.hbm, 933, rfl⟩
abbrev main_v719 : Ref sig .tc := ⟨.hbm, 934, rfl⟩
abbrev main_v720 : Ref sig .tc := ⟨.hbm, 935, rfl⟩
abbrev main_v721 : Ref sig .tc := ⟨.hbm, 936, rfl⟩
abbrev main_cst_103 : Ref sig .tc := ⟨.hbm, 937, rfl⟩
abbrev main_v722 : Ref sig .tc := ⟨.hbm, 938, rfl⟩
abbrev main_c_104 : Ref sig .tc := ⟨.hbm, 939, rfl⟩
abbrev main_v723 : Ref sig .tc := ⟨.hbm, 940, rfl⟩
abbrev main_v724 : Ref sig .tc := ⟨.hbm, 941, rfl⟩
abbrev main_c_105 : Ref sig .tc := ⟨.hbm, 942, rfl⟩
abbrev main_v725 : Ref sig .tc := ⟨.hbm, 943, rfl⟩
abbrev main_v726 : Ref sig .tc := ⟨.hbm, 944, rfl⟩
abbrev main_v727 : Ref sig .tc := ⟨.hbm, 945, rfl⟩
abbrev main_v728 : Ref sig .tc := ⟨.hbm, 946, rfl⟩
abbrev main_v729 : Ref sig .tc := ⟨.hbm, 947, rfl⟩
abbrev main_c_106 : Ref sig .tc := ⟨.hbm, 948, rfl⟩
abbrev main_v730 : Ref sig .tc := ⟨.hbm, 949, rfl⟩
abbrev main_v731 : Ref sig .tc := ⟨.hbm, 950, rfl⟩
abbrev main_c_107 : Ref sig .tc := ⟨.hbm, 951, rfl⟩
abbrev main_v732 : Ref sig .tc := ⟨.hbm, 952, rfl⟩
abbrev main_v733 : Ref sig .tc := ⟨.hbm, 953, rfl⟩
abbrev main_v734 : Ref sig .tc := ⟨.hbm, 954, rfl⟩
abbrev main_v735 : Ref sig .tc := ⟨.hbm, 955, rfl⟩
abbrev main_v736 : Ref sig .tc := ⟨.hbm, 956, rfl⟩
abbrev main_cst_108 : Ref sig .tc := ⟨.hbm, 957, rfl⟩
abbrev main_v737 : Ref sig .tc := ⟨.hbm, 958, rfl⟩
abbrev main_v738 : Ref sig .tc := ⟨.hbm, 959, rfl⟩

abbrev nD : Nat := 1
abbrev τ : Topo := Topo.v7x

variable {F : FTy → Type} [FloatOps F]

class Facts₀ : Prop where
  shapeCasts_S2048x256x32_S2048x8192 : S2048x256x32.ShapeCasts S2048x8192
  bcast_S_S2048 : S_.BroadcastsInDim S2048 (![] : Fin 0 → Fin S2048.rank)
  bcast_S2048_S2048x1_0 : S2048.BroadcastsInDim S2048x1 (![0] : Fin 1 → Fin S2048x1.rank)
  bcast_S_S4096 : S_.BroadcastsInDim S4096 (![] : Fin 0 → Fin S4096.rank)
  slices_S8x8192_S1x8192_0_0 : S8x8192.Slices ![0, 0] S1x8192
  shapeCasts_S1x8192_S8192 : S1x8192.ShapeCasts S8192
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  reducesTo_S8192_S_d0 : S8192.ReducesTo [0] S_
  h_S_ : 0 < S_.numel
  bcast_S4096_S4096x1_0 : S4096.BroadcastsInDim S4096x1 (![0] : Fin 1 → Fin S4096x1.rank)
  concatenates_S2048x4096_S2048x1024_S2048x5120_d1 : Shape.Concatenates [S2048x4096, S2048x1024] S2048x5120 1
  slices_S8x5120x1024_S1x5120x1024_0_0_0 : S8x5120x1024.Slices ![0, 0, 0] S1x5120x1024
  shapeCasts_S1x5120x1024_S5120x1024 : S1x5120x1024.ShapeCasts S5120x1024
  slices_S8x1024_S1x1024_0_0 : S8x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  slices_S8x1024x1024_S1x1024x1024_0_0_0 : S8x1024x1024.Slices ![0, 0, 0] S1x1024x1024
  shapeCasts_S1x1024x1024_S1024x1024 : S1x1024x1024.ShapeCasts S1024x1024
  slices_S8x1024x4096_S1x1024x4096_0_0_0 : S8x1024x4096.Slices ![0, 0, 0] S1x1024x4096
  shapeCasts_S1x1024x4096_S1024x4096 : S1x1024x4096.ShapeCasts S1024x4096
  slices_S8x4096_S1x4096_0_0 : S8x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  slices_S8_S1_0 : S8.Slices ![0] S1
  shapeCasts_S1_S_ : S1.ShapeCasts S_
  bcast_S_S2048x4096 : S_.BroadcastsInDim S2048x4096 (![] : Fin 0 → Fin S2048x4096.rank)
  bcast_S_S2048x8192 : S_.BroadcastsInDim S2048x8192 (![] : Fin 0 → Fin S2048x8192.rank)
  reducesTo_S2048x4096_S2048_d1 : S2048x4096.ReducesTo [1] S2048
  slices_S8x8192_S1x8192_1_0 : S8x8192.Slices ![1, 0] S1x8192
  slices_S8x5120x1024_S1x5120x1024_1_0_0 : S8x5120x1024.Slices ![1, 0, 0] S1x5120x1024
  slices_S8x1024_S1x1024_1_0 : S8x1024.Slices ![1, 0] S1x1024
  slices_S8x1024x1024_S1x1024x1024_1_0_0 : S8x1024x1024.Slices ![1, 0, 0] S1x1024x1024
  slices_S8x1024x4096_S1x1024x4096_1_0_0 : S8x1024x4096.Slices ![1, 0, 0] S1x1024x4096
  slices_S8x4096_S1x4096_1_0 : S8x4096.Slices ![1, 0] S1x4096
  slices_S8_S1_1 : S8.Slices ![1] S1
  slices_S8x8192_S1x8192_2_0 : S8x8192.Slices ![2, 0] S1x8192
  slices_S8x5120x1024_S1x5120x1024_2_0_0 : S8x5120x1024.Slices ![2, 0, 0] S1x5120x1024
  slices_S8x1024_S1x1024_2_0 : S8x1024.Slices ![2, 0] S1x1024
  slices_S8x1024x1024_S1x1024x1024_2_0_0 : S8x1024x1024.Slices ![2, 0, 0] S1x1024x1024
  slices_S8x1024x4096_S1x1024x4096_2_0_0 : S8x1024x4096.Slices ![2, 0, 0] S1x1024x4096
  slices_S8x4096_S1x4096_2_0 : S8x4096.Slices ![2, 0] S1x4096
  slices_S8_S1_2 : S8.Slices ![2] S1
  slices_S8x8192_S1x8192_3_0 : S8x8192.Slices ![3, 0] S1x8192
  slices_S8x5120x1024_S1x5120x1024_3_0_0 : S8x5120x1024.Slices ![3, 0, 0] S1x5120x1024
  slices_S8x1024_S1x1024_3_0 : S8x1024.Slices ![3, 0] S1x1024
  slices_S8x1024x1024_S1x1024x1024_3_0_0 : S8x1024x1024.Slices ![3, 0, 0] S1x1024x1024
  slices_S8x1024x4096_S1x1024x4096_3_0_0 : S8x1024x4096.Slices ![3, 0, 0] S1x1024x4096
  slices_S8x4096_S1x4096_3_0 : S8x4096.Slices ![3, 0] S1x4096
  slices_S8_S1_3 : S8.Slices ![3] S1
  slices_S8x8192_S1x8192_4_0 : S8x8192.Slices ![4, 0] S1x8192
  slices_S8x5120x1024_S1x5120x1024_4_0_0 : S8x5120x1024.Slices ![4, 0, 0] S1x5120x1024
  slices_S8x1024_S1x1024_4_0 : S8x1024.Slices ![4, 0] S1x1024
  slices_S8x1024x1024_S1x1024x1024_4_0_0 : S8x1024x1024.Slices ![4, 0, 0] S1x1024x1024
  slices_S8x1024x4096_S1x1024x4096_4_0_0 : S8x1024x4096.Slices ![4, 0, 0] S1x1024x4096
  slices_S8x4096_S1x4096_4_0 : S8x4096.Slices ![4, 0] S1x4096
  slices_S8_S1_4 : S8.Slices ![4] S1
  slices_S8x8192_S1x8192_5_0 : S8x8192.Slices ![5, 0] S1x8192
  slices_S8x5120x1024_S1x5120x1024_5_0_0 : S8x5120x1024.Slices ![5, 0, 0] S1x5120x1024
  slices_S8x1024_S1x1024_5_0 : S8x1024.Slices ![5, 0] S1x1024
  slices_S8x1024x1024_S1x1024x1024_5_0_0 : S8x1024x1024.Slices ![5, 0, 0] S1x1024x1024
  slices_S8x1024x4096_S1x1024x4096_5_0_0 : S8x1024x4096.Slices ![5, 0, 0] S1x1024x4096
  slices_S8x4096_S1x4096_5_0 : S8x4096.Slices ![5, 0] S1x4096
  slices_S8_S1_5 : S8.Slices ![5] S1
  slices_S8x8192_S1x8192_6_0 : S8x8192.Slices ![6, 0] S1x8192
  slices_S8x5120x1024_S1x5120x1024_6_0_0 : S8x5120x1024.Slices ![6, 0, 0] S1x5120x1024
  slices_S8x1024_S1x1024_6_0 : S8x1024.Slices ![6, 0] S1x1024
  slices_S8x1024x1024_S1x1024x1024_6_0_0 : S8x1024x1024.Slices ![6, 0, 0] S1x1024x1024
  slices_S8x1024x4096_S1x1024x4096_6_0_0 : S8x1024x4096.Slices ![6, 0, 0] S1x1024x4096
  slices_S8x4096_S1x4096_6_0 : S8x4096.Slices ![6, 0] S1x4096
  slices_S8_S1_6 : S8.Slices ![6] S1
  slices_S8x8192_S1x8192_7_0 : S8x8192.Slices ![7, 0] S1x8192
  slices_S8x5120x1024_S1x5120x1024_7_0_0 : S8x5120x1024.Slices ![7, 0, 0] S1x5120x1024
  slices_S8x1024_S1x1024_7_0 : S8x1024.Slices ![7, 0] S1x1024
  slices_S8x1024x1024_S1x1024x1024_7_0_0 : S8x1024x1024.Slices ![7, 0, 0] S1x1024x1024
  slices_S8x1024x4096_S1x1024x4096_7_0_0 : S8x1024x4096.Slices ![7, 0, 0] S1x1024x4096
  slices_S8x4096_S1x4096_7_0 : S8x4096.Slices ![7, 0] S1x4096
  slices_S8_S1_7 : S8.Slices ![7] S1
  gather_S4x1024_S2048x1_S2048x1024_1_0_n_n_0_1_11024_wf : GatherDims.WF S4x1024 S2048x1 S2048x1024 [1] [0] [] [0] [] 1 ![1, 1024]
  gather_S2048x8192_S4096x1_S2048x4096_0_1_n_n_1_1_20481_wf : GatherDims.WF S2048x8192 S4096x1 S2048x4096 [0] [1] [] [1] [] 1 ![2048, 1]
  dot_S2048x5120_S5120x1024_S2048x1024_1_0_0_1_n_n_wf : DotDims.WF S2048x5120 S5120x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x4096_S2048x4096_1_0_0_1_n_n_wf : DotDims.WF S2048x1024 S1024x4096 S2048x4096 [1] [0] [0] [1] [] []
  scatter_S2048x8192_S4096x1_S2048x4096_0_1_1_1_wf : ScatterDims.WF S2048x8192 S4096x1 S2048x4096 [0] [1] [1] 1

variable [Facts₀]

def gather_S4x1024_S2048x1_S2048x1024_1_0_n_n_0_1_11024 : GatherDims S4x1024 S2048x1 S2048x1024 where
  offsetDims := [1]
  collapsedSliceDims := [0]
  operandBatchingDims := []
  startIndicesBatchingDims := []
  startIndexMap := [0]
  indexVectorDim := 1
  sliceSizes := ![1, 1024]
  wf := gather_S4x1024_S2048x1_S2048x1024_1_0_n_n_0_1_11024_wf
def gather_S2048x8192_S4096x1_S2048x4096_0_1_n_n_1_1_20481 : GatherDims S2048x8192 S4096x1 S2048x4096 where
  offsetDims := [0]
  collapsedSliceDims := [1]
  operandBatchingDims := []
  startIndicesBatchingDims := []
  startIndexMap := [1]
  indexVectorDim := 1
  sliceSizes := ![2048, 1]
  wf := gather_S2048x8192_S4096x1_S2048x4096_0_1_n_n_1_1_20481_wf
def dot_S2048x5120_S5120x1024_S2048x1024_1_0_0_1_n_n : DotDims S2048x5120 S5120x1024 S2048x1024 where
  lhsContracting := [1]
  rhsContracting := [0]
  lhsNonContracting := [0]
  rhsNonContracting := [1]
  lhsBatch := []
  rhsBatch := []
  wf := dot_S2048x5120_S5120x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf
def scatter_S2048x8192_S4096x1_S2048x4096_0_1_1_1 : ScatterDims S2048x8192 S4096x1 S2048x4096 where
  updateWindowDims := [0]
  insertedWindowDims := [1]
  scatterDimsToOperandDims := [1]
  indexVectorDim := 1
  wf := scatter_S2048x8192_S4096x1_S2048x4096_0_1_1_1_wf

class Facts : Prop extends Facts₀ where

variable [Facts]
-- ==== Proof.KRun.lean ====
/- The run of the kernel-side program with every unscoped buffer's final contents kept: the final memory holds,
   at each TensorCore buffer, the last boundary's contents of the fold through the program's segments. The two
   result arrays and the fourteen argument arrays are read off as corollaries. -/
import proofs.«175835_j29978871726094_1_alg».proof.Proof.Gen.KernelIdeal.Frame

set_option maxRecDepth 16384

noncomputable section

namespace Cert.KernelIdeal.KRun

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters every weakly fair execution of the program on the TensorCores
    terminates without fault, and the final memory holds at every unscoped TensorCore buffer the contents the fold
    through the segments ends with. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Gen.W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- The two result arrays hold the fold's last contents and the fourteen argument arrays are as launched. -/
theorem run_results : θ_run defs (onTc (τ := τ) (main (F := F))) ⟨m, fun _ => 0, ρ⟩ (fun r => ∀ c : Dev nD,
      r.2.mem ((c.tc : Thread nD τ).loc main_v432) = Gen.W17 m ρ c (Proc.devRef .tc main_v432)
      ∧ r.2.mem ((c.tc : Thread nD τ).loc main_v428) = Gen.W17 m ρ c (Proc.devRef .tc main_v428)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (Gen.mem_uc main_v432 (by decide)),
     h c _ (Gen.mem_uc main_v428 (by decide)),
     (h c _ (Gen.mem_uc main_arg0 (by decide))).trans (Gen.W17_main_arg0 m ρ c),
     (h c _ (Gen.mem_uc main_arg1 (by decide))).trans (Gen.W17_main_arg1 m ρ c),
     (h c _ (Gen.mem_uc main_arg2 (by decide))).trans (Gen.W17_main_arg2 m ρ c),
     (h c _ (Gen.mem_uc main_arg3 (by decide))).trans (Gen.W17_main_arg3 m ρ c),
     (h c _ (Gen.mem_uc main_arg4 (by decide))).trans (Gen.W17_main_arg4 m ρ c),
     (h c _ (Gen.mem_uc main_arg5 (by decide))).trans (Gen.W17_main_arg5 m ρ c),
     (h c _ (Gen.mem_uc main_arg6 (by decide))).trans (Gen.W17_main_arg6 m ρ c),
     (h c _ (Gen.mem_uc main_arg7 (by decide))).trans (Gen.W17_main_arg7 m ρ c),
     (h c _ (Gen.mem_uc main_arg8 (by decide))).trans (Gen.W17_main_arg8 m ρ c),
     (h c _ (Gen.mem_uc main_arg9 (by decide))).trans (Gen.W17_main_arg9 m ρ c),
     (h c _ (Gen.mem_uc main_arg10 (by decide))).trans (Gen.W17_main_arg10 m ρ c),
     (h c _ (Gen.mem_uc main_arg11 (by decide))).trans (Gen.W17_main_arg11 m ρ c),
     (h c _ (Gen.mem_uc main_arg12 (by decide))).trans (Gen.W17_main_arg12 m ρ c),
     (h c _ (Gen.mem_uc main_arg13 (by decide))).trans (Gen.W17_main_arg13 m ρ c)⟩) (run_main m ρ)

end Cert.KernelIdeal.KRun

end
-- ==== Proof.FlowSpec.lean ====
/-
  An eight-layer coupling flow on the extended reals, as functions of whole arrays.

  The state is an array z of 2048 rows and 8192 columns and a vector ld of 2048 entries. Layer i first rescales every
  column d of z: z(p, d) ↦ (z(p, d) + ab(i, d)) · exp(als(i, d)), and adds the sum over d of als(i, d) to every entry of
  ld. It then splits the columns by parity: the 4096 columns 2k + par i (par i the parity of i) form the conditioning
  half xc, the others the half xu that is transformed. A two-hidden-layer network reads xc beside a 2048 × 1024 array
  cnd: its first layer contracts the 4096 columns of xc with the first 4096 rows of W1(i) and the 1024 columns of cnd
  with the last 1024 rows, adds b1(i) and applies x ↦ x for x ≥ 0, x ↦ c·x otherwise (c the single-precision word
  nearest one fifth); the second layer is a 1024 × 1024 product with W2(i), plus b2(i), and the same activation. From
  that hidden array h come s = tanh(h·Ws(i) + bs(i)) · sf(i) and t = h·Wt(i) + bt(i); the transformed half becomes
  xu · exp(s) + t, the columns are put back at their places, and ld gains the sum over k of s(p, k).

  Everything is stated entry by entry over index types with literal extents. A sum over 5120 consecutive indices is
  the sum over the first 4096 plus the sum over the last 1024 (`sum_two_bands`): addition on the extended reals is
  commutative and associative, so nothing here asks for finiteness. Nothing here mentions a program.
-/
import Idealize.ShloMosaic.PureOps.Ideal
import Idealize.ShloMosaic.PureOps.Ideal.Laws
import Idealize.ShloMosaic.Lib.ValueIdx
import Idealize.ShloMosaic.Lib.Pipeline.Value

open scoped BigOperators

noncomputable section

namespace Cert.Flow

open Idealize.ShloMosaic Idealize.ShloMosaic.ValueIdx

/-- Arrays of extended reals of rank one, two and three over literal extents. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The array whose entry at (p, q) is f p q. -/
def ofFn2 {a b : Nat} (f : Fin a → Fin b → EReal) : A2 a b :=
  fun j => f ⟨(j 0).val, idx2_lt0 j⟩ ⟨(j 1).val, idx2_lt1 j⟩

theorem ofFn2_apply {a b : Nat} (f : Fin a → Fin b → EReal) (p : Fin a) (q : Fin b) : ofFn2 f (ix2 p q) = f p q := rfl

/-- The vector whose entry at p is f p. -/
def ofFn1 {a : Nat} (f : Fin a → EReal) : A1 a := fun j => f ⟨(j 0).val, (j 0).isLt⟩

theorem ofFn1_apply {a : Nat} (f : Fin a → EReal) (p : Fin a) : ofFn1 f (ix1 p) = f p := rfl

/-- Two arrays that agree at every (p, q) are equal. -/
theorem ext2 {a b : Nat} {x y : A2 a b} (h : ∀ (p : Fin a) (q : Fin b), x (ix2 p q) = y (ix2 p q)) : x = y := by
  funext j
  rw [eq_ix2 j]
  exact h _ _

/-- Two vectors that agree at every p are equal. -/
theorem ext1 {a : Nat} {x y : A1 a} (h : ∀ p : Fin a, x (ix1 p) = y (ix1 p)) : x = y := by
  funext j
  rw [eq_ix1 j]
  exact h _

/-! ## The activation -/

/-- x for x ≥ 0 and c · x otherwise, c the value of the single-precision word 3E4CCCCD; the comparison and the
    choice are the ones both spellings of the activation make, element by element. -/
def lrelu (x : EReal) : EReal :=
  Scalar.select (FloatOps.cmpf (F := Ideal) (φ := .f32) .oge x (FloatOps.ofBits (F := Ideal) .f32 0x00000000#32)) x
    (FloatOps.ofBits (F := Ideal) .f32 0x3E4CCCCD#32 * x)

/-! ## A sum over two bands of indices -/

/-- A sum over 5120 consecutive indices is the sum over the first 4096 plus the sum over the last 1024. -/
theorem sum_two_bands (f : Fin 5120 → EReal) :
    ∑ k : Fin 5120, f k
      = (∑ c : Fin 4096, f ⟨c.val, by have := c.isLt; omega⟩) + ∑ c : Fin 1024, f ⟨4096 + c.val, by have := c.isLt; omega⟩ := by
  have h := Fin.sum_univ_add (M := EReal) (a := 4096) (b := 1024) (fun k => f ⟨k.val, by have := k.isLt; omega⟩)
  exact h

/-! ## The network of one layer, over the arrays it reads -/

/-- The hidden array: two dense layers with the activation; the first reads xc against w1a and cnd against w1b. -/
def coupleH (xc : A2 2048 4096) (cnd : A2 2048 1024) (w1a : A2 4096 1024) (w1b : A2 1024 1024) (b1 : A2 1 1024)
    (w2 : A2 1024 1024) (b2 : A2 1 1024) : A2 2048 1024 :=
  ofFn2 fun p q =>
    lrelu ((∑ k : Fin 1024,
        lrelu (((∑ c : Fin 4096, xc (ix2 p c) * w1a (ix2 c k)) + ∑ c : Fin 1024, cnd (ix2 p c) * w1b (ix2 c k)) + b1 (ix2 0 k))
          * w2 (ix2 k q)) + b2 (ix2 0 q))

/-- The scale: tanh of a dense layer, times the layer's scalar. -/
def coupleS (h : A2 2048 1024) (ws : A2 1024 4096) (bs : A2 1 4096) (sf : A2 1 1) : A2 2048 4096 :=
  ofFn2 fun p q => Ideal.tanh ((∑ k : Fin 1024, h (ix2 p k) * ws (ix2 k q)) + bs (ix2 0 q)) * sf (ix2 0 0)

/-- The shift: a dense layer. -/
def coupleT (h : A2 2048 1024) (wt : A2 1024 4096) (bt : A2 1 4096) : A2 2048 4096 :=
  ofFn2 fun p q => (∑ k : Fin 1024, h (ix2 p k) * wt (ix2 k q)) + bt (ix2 0 q)

/-- The transformed half: xu · exp(s) + t. -/
def coupleY (xu s t : A2 2048 4096) : A2 2048 4096 :=
  ofFn2 fun p q => xu (ix2 p q) * Ideal.exp (s (ix2 p q)) + t (ix2 p q)

/-- The row sums of s, as a column. -/
def coupleSum (s : A2 2048 4096) : A2 2048 1 := ofFn2 fun p _ => ∑ k : Fin 4096, s (ix2 p k)

/-! ## The parameters of layer i -/

/-- The parameter arrays of the eight layers. -/
structure Params where
  /-- the logarithms of the column scales, one row per layer -/
  als : A2 8 8192
  /-- the column biases -/
  ab : A2 8 8192
  W1 : A3 8 5120 1024
  b1 : A2 8 1024
  W2 : A3 8 1024 1024
  b2 : A2 8 1024
  Ws : A3 8 1024 4096
  bs : A2 8 4096
  Wt : A3 8 1024 4096
  bt : A2 8 4096
  sf : A1 8

/-- Rows off … off + r − 1 of layer i's matrix in a stack of eight. -/
def band (i : Fin 8) {n b : Nat} (W : A3 8 n b) (off r : Nat) (h : off + r ≤ n) : A2 r b :=
  ofFn2 fun c k => W (ix3 i ⟨off + c.val, by have := c.isLt; omega⟩ k)

/-- Layer i's row of a table of eight rows, as a 1 × b array. -/
def rowOf (i : Fin 8) {b : Nat} (B : A2 8 b) : A2 1 b := ofFn2 fun _ q => B (ix2 i q)

/-- Layer i's scalar, as a 1 × 1 array. -/
def scalarOf (i : Fin 8) (v : A1 8) : A2 1 1 := ofFn2 fun _ _ => v (ix1 i)

/-- The parity of the conditioning columns of layer i. -/
def par (i : Fin 8) : Fin 2 := ⟨i.val % 2, Nat.mod_lt _ (by decide)⟩

/-- The other parity. -/
def opp (p : Fin 2) : Fin 2 := ⟨1 - p.val, by have := p.isLt; omega⟩

/-! ## One layer -/

/-- The rescaling of the columns by layer i's scales and biases. -/
def actnorm (i : Fin 8) (ab als : A2 8 8192) (z : A2 2048 8192) : A2 2048 8192 :=
  ofFn2 fun p d => (z (ix2 p d) + ab (ix2 i d)) * Ideal.exp (als (ix2 i d))

/-- The 4096 columns of one parity. -/
def cols (q : Fin 2) (z : A2 2048 8192) : A2 2048 4096 :=
  ofFn2 fun p k => z (ix2 p ⟨2 * k.val + q.val, by have := k.isLt; have := q.isLt; omega⟩)

/-- The columns put back: parity q from xc, the other parity from yu. -/
def merge (q : Fin 2) (xc yu : A2 2048 4096) : A2 2048 8192 :=
  ofFn2 fun p d =>
    if d.val % 2 = q.val then xc (ix2 p ⟨d.val / 2, by have := d.isLt; omega⟩)
    else yu (ix2 p ⟨d.val / 2, by have := d.isLt; omega⟩)

/-- The hidden array of layer i on the state z. -/
def hid (P : Params) (cnd : A2 2048 1024) (i : Fin 8) (z : A2 2048 8192) : A2 2048 1024 :=
  coupleH (cols (par i) (actnorm i P.ab P.als z)) cnd (band i P.W1 0 4096 (by decide)) (band i P.W1 4096 1024 (by decide))
    (rowOf i P.b1) (band i P.W2 0 1024 (by decide)) (rowOf i P.b2)

/-- The scale array of layer i on the state z. -/
def sOf (P : Params) (cnd : A2 2048 1024) (i : Fin 8) (z : A2 2048 8192) : A2 2048 4096 :=
  coupleS (hid P cnd i z) (band i P.Ws 0 1024 (by decide)) (rowOf i P.bs) (scalarOf i P.sf)

/-- Layer i on the array. -/
def stepZ (P : Params) (cnd : A2 2048 1024) (i : Fin 8) (z : A2 2048 8192) : A2 2048 8192 :=
  merge (par i) (cols (par i) (actnorm i P.ab P.als z))
    (coupleY (cols (opp (par i)) (actnorm i P.ab P.als z)) (sOf P cnd i z)
      (coupleT (hid P cnd i z) (band i P.Wt 0 1024 (by decide)) (rowOf i P.bt)))

/-- Layer i on the vector: the sum of the layer's logarithmic scales, then the row sums of s. -/
def stepLd (P : Params) (cnd : A2 2048 1024) (i : Fin 8) (z : A2 2048 8192) (ld : A1 2048) : A1 2048 :=
  ofFn1 fun p => (ld (ix1 p) + ∑ d : Fin 8192, P.als (ix2 i d)) + ∑ k : Fin 4096, sOf P cnd i z (ix2 p k)

/-! ## The eight layers -/

/-- The array after the first n layers. -/
def zAt (P : Params) (cnd : A2 2048 1024) (z0 : A2 2048 8192) : Nat → A2 2048 8192
  | 0 => z0
  | n + 1 => stepZ P cnd ⟨n % 8, Nat.mod_lt _ (by decide)⟩ (zAt P cnd z0 n)

/-- The vector after the first n layers, from zero. -/
def lAt (P : Params) (cnd : A2 2048 1024) (z0 : A2 2048 8192) : Nat → A1 2048
  | 0 => fun _ => 0
  | n + 1 => stepLd P cnd ⟨n % 8, Nat.mod_lt _ (by decide)⟩ (zAt P cnd z0 n) (lAt P cnd z0 n)

theorem zAt_succ (P : Params) (cnd : A2 2048 1024) (z0 : A2 2048 8192) (n : Nat) :
    zAt P cnd z0 (n + 1) = stepZ P cnd ⟨n % 8, Nat.mod_lt _ (by decide)⟩ (zAt P cnd z0 n) := rfl

theorem lAt_succ (P : Params) (cnd : A2 2048 1024) (z0 : A2 2048 8192) (n : Nat) :
    lAt P cnd z0 (n + 1) = stepLd P cnd ⟨n % 8, Nat.mod_lt _ (by decide)⟩ (zAt P cnd z0 n) (lAt P cnd z0 n) := rfl

/-! ## The starting array and the conditioning array -/

/-- The input of 2048 × 256 × 32 entries laid out as 2048 rows of 8192. -/
def z0 (x : A3 2048 256 32) : A2 2048 8192 := shapeCast ⟨2, ![2048, 8192]⟩ x (by decide)

/-- Row selection from a table of four rows of 1024 entries by an index per row of the result. -/
def condDims : GatherDims ⟨2, ![4, 1024]⟩ ⟨2, ![2048, 1]⟩ ⟨2, ![2048, 1024]⟩ where
  offsetDims := [1]
  collapsedSliceDims := [0]
  operandBatchingDims := []
  startIndicesBatchingDims := []
  startIndexMap := [0]
  indexVectorDim := 1
  sliceSizes := ![1, 1024]
  wf := by decide

/-- The conditioning array: row scen(p) of the table emb for each p, a negative index counted from the end. -/
def cond (scen : IVec ⟨1, ![2048]⟩ 32) (emb : A2 4 1024) : A2 2048 1024 :=
  Host.gather condDims emb
    (broadcastInDim ⟨2, ![2048, 1]⟩ ![0] (by decide)
      (select (cmpi .slt scen (broadcastInDim ⟨1, ![2048]⟩ ![] (by decide) (constantI ⟨0, ![]⟩ 32 0#32)))
        (addi scen (broadcastInDim ⟨1, ![2048]⟩ ![] (by decide) (constantI ⟨0, ![]⟩ 32 4#32))) scen))

end Cert.Flow

end
-- ==== Proof.FlowParams.lean ====
/-
  Spellings of one layer's parameter arrays, read entry by entry on the extended reals.

  The eight layers' matrices are stacked in arrays of shape 8 × n × b, their bias vectors in tables of shape 8 × b and
  their scalars in a vector of 8 entries. Layer i's matrix is cut out by a unit-stride slice at offset (i, 0, 0) and
  the unit axis dropped; a band of its rows may have been cut out of the whole stack first (a slice at offset
  (0, off, 0)), and the entries may have been narrowed to a shorter float format, which is the identity on the
  extended reals. A bias row is a slice at (i, 0), flattened to a vector and laid out again as one row; the scalar is a
  slice at (i), flattened to rank zero and laid out as a 1 × 1 array. Each spelling is the function `band`, `rowOf` or
  `scalarOf` of the specification. Nothing here mentions a program.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«175835_j29978871726094_1_alg».proof.Proof.FlowSpec

open scoped BigOperators

noncomputable section

namespace Cert.Flow.Terms

open Idealize.ShloMosaic Idealize.ShloMosaic.ValueIdx Cert.Flow

variable {N r b : Nat}

/-- A slice at offset (o, 0, 0) of a stack of eight n × b matrices, the unit axis dropped, read at (c, k): the stack
    at (o, c, k). -/
theorem stack_slice_apply {n : Nat} (i : Fin 8) (W : (⟨3, ![8, n, b]⟩ : Shape).Idx → EReal)
    (hs : (⟨3, ![8, n, b]⟩ : Shape).Slices ![i.val, 0, 0] ⟨3, ![1, n, b]⟩)
    (hc : (⟨3, ![1, n, b]⟩ : Shape).ShapeCasts ⟨2, ![n, b]⟩) (c : Fin n) (k : Fin b) :
    shapeCast ⟨2, ![n, b]⟩ (extractStridedSlice ⟨3, ![1, n, b]⟩ ![i.val, 0, 0] W hs) hc (ix2 c k) = W (ix3 i c k) := by
  rw [shapeCast_1ab_ab_apply]
  refine extractStridedSlice_apply _ W hs _ _ fun a => ?_
  match a with
  | ⟨0, _⟩ => show i.val = i.val + 0; omega
  | ⟨1, _⟩ => show c.val = 0 + c.val; omega
  | ⟨2, _⟩ => show k.val = 0 + k.val; omega

/-- A slice at offset (0, off, 0) keeping r of the N rows of every matrix of the stack, read at (e, c, k): the stack at
    (e, off + c, k). -/
theorem rows_slice_apply (off : Nat) (W : (⟨3, ![8, N, b]⟩ : Shape).Idx → EReal)
    (hs : (⟨3, ![8, N, b]⟩ : Shape).Slices ![0, off, 0] ⟨3, ![8, r, b]⟩) (h : off + r ≤ N)
    (e : Fin 8) (c : Fin r) (k : Fin b) :
    extractStridedSlice ⟨3, ![8, r, b]⟩ ![0, off, 0] W hs (ix3 e c k)
      = W (ix3 e ⟨off + c.val, by have := c.isLt; omega⟩ k) := by
  refine extractStridedSlice_apply _ W hs _ _ fun a => ?_
  match a with
  | ⟨0, _⟩ => show e.val = 0 + e.val; omega
  | ⟨1, _⟩ => rfl
  | ⟨2, _⟩ => show k.val = 0 + k.val; omega

/-- Layer i's matrix out of the stack: the slice with the unit axis dropped is `band i W 0 n`. -/
theorem stack_slice {n : Nat} (i : Fin 8) (o : Nat) (ho : o = i.val) (W : (⟨3, ![8, n, b]⟩ : Shape).Idx → EReal)
    (hs : (⟨3, ![8, n, b]⟩ : Shape).Slices ![o, 0, 0] ⟨3, ![1, n, b]⟩)
    (hc : (⟨3, ![1, n, b]⟩ : Shape).ShapeCasts ⟨2, ![n, b]⟩) (h : 0 + n ≤ n) :
    shapeCast ⟨2, ![n, b]⟩ (extractStridedSlice ⟨3, ![1, n, b]⟩ ![o, 0, 0] W hs) hc = band i W 0 n h := by
  subst ho
  refine ext2 fun c k => ?_
  rw [stack_slice_apply]
  show W (ix3 i c k) = W (ix3 i ⟨0 + c.val, _⟩ k)
  congr 2
  exact Fin.ext (Nat.zero_add _).symm

/-- The same with the entries narrowed to a shorter format first. -/
theorem stack_slice_narrow {n : Nat} {ψ : FTy} (i : Fin 8) (o : Nat) (ho : o = i.val) (W : FVec Ideal ⟨3, ![8, n, b]⟩ .f32)
    (hlt : ψ.bits < FTy.f32.bits)
    (hs : (⟨3, ![8, n, b]⟩ : Shape).Slices ![o, 0, 0] ⟨3, ![1, n, b]⟩)
    (hc : (⟨3, ![1, n, b]⟩ : Shape).ShapeCasts ⟨2, ![n, b]⟩) (h : 0 + n ≤ n) :
    shapeCast ⟨2, ![n, b]⟩ (extractStridedSlice ⟨3, ![1, n, b]⟩ ![o, 0, 0] (truncf (F := Ideal) ψ W hlt) hs) hc
      = band i W 0 n h :=
  stack_slice i o ho W hs hc h

/-- A band of rows cut out of the whole stack, narrowed, then layer i's slice of it: `band i W off r`. -/
theorem band_slice_narrow {ψ : FTy} (i : Fin 8) (o : Nat) (ho : o = i.val) (off : Nat) (W : FVec Ideal ⟨3, ![8, N, b]⟩ .f32)
    (hlt : ψ.bits < FTy.f32.bits)
    (hs₁ : (⟨3, ![8, N, b]⟩ : Shape).Slices ![0, off, 0] ⟨3, ![8, r, b]⟩)
    (hs₂ : (⟨3, ![8, r, b]⟩ : Shape).Slices ![o, 0, 0] ⟨3, ![1, r, b]⟩)
    (hc : (⟨3, ![1, r, b]⟩ : Shape).ShapeCasts ⟨2, ![r, b]⟩) (h : off + r ≤ N) :
    shapeCast ⟨2, ![r, b]⟩ (extractStridedSlice ⟨3, ![1, r, b]⟩ ![o, 0, 0]
        (truncf (F := Ideal) ψ (extractStridedSlice ⟨3, ![8, r, b]⟩ ![0, off, 0] W hs₁) hlt) hs₂) hc
      = band i W off r h := by
  subst ho
  refine ext2 fun c k => ?_
  refine (stack_slice_apply i (extractStridedSlice ⟨3, ![8, r, b]⟩ ![0, off, 0] W hs₁) hs₂ hc c k).trans ?_
  exact rows_slice_apply off W hs₁ h i c k

/-- Layer i's bias row: a slice at (o, 0) of the table, flattened and laid out as one row, is `rowOf i B`. -/
theorem row_slice (i : Fin 8) (o : Nat) (ho : o = i.val) (B : (⟨2, ![8, b]⟩ : Shape).Idx → EReal)
    (hs : (⟨2, ![8, b]⟩ : Shape).Slices ![o, 0] ⟨2, ![1, b]⟩)
    (h₁ : (⟨2, ![1, b]⟩ : Shape).ShapeCasts ⟨1, ![b]⟩) (h₂ : (⟨1, ![b]⟩ : Shape).ShapeCasts ⟨2, ![1, b]⟩) :
    shapeCast ⟨2, ![1, b]⟩ (shapeCast ⟨1, ![b]⟩ (extractStridedSlice ⟨2, ![1, b]⟩ ![o, 0] B hs) h₁) h₂ = rowOf i B := by
  subst ho
  refine ext2 fun u q => ?_
  rw [shapeCast_a_1a_apply, shapeCast_1a_a_apply]
  refine extractStridedSlice_apply _ B hs _ _ fun a => ?_
  match a with
  | ⟨0, _⟩ => show i.val = i.val + 0; omega
  | ⟨1, _⟩ => show q.val = 0 + q.val; omega

/-- Layer i's bias as a vector: the slice at (o, 0) flattened, read at q, is the table at (i, q). -/
theorem row_vector_apply (i : Fin 8) (o : Nat) (ho : o = i.val) (B : (⟨2, ![8, b]⟩ : Shape).Idx → EReal)
    (hs : (⟨2, ![8, b]⟩ : Shape).Slices ![o, 0] ⟨2, ![1, b]⟩)
    (h₁ : (⟨2, ![1, b]⟩ : Shape).ShapeCasts ⟨1, ![b]⟩) (q : Fin b) :
    shapeCast ⟨1, ![b]⟩ (extractStridedSlice ⟨2, ![1, b]⟩ ![o, 0] B hs) h₁ (ix1 q) = B (ix2 i q) := by
  subst ho
  rw [shapeCast_1a_a_apply]
  refine extractStridedSlice_apply _ B hs _ _ fun a => ?_
  match a with
  | ⟨0, _⟩ => show i.val = i.val + 0; omega
  | ⟨1, _⟩ => show q.val = 0 + q.val; omega

/-- Layer i's scalar: the slice at (o) flattened to rank zero, read at the one index, is the vector at i. -/
theorem scalar_slice_apply (i : Fin 8) (o : Nat) (ho : o = i.val) (v : (⟨1, ![8]⟩ : Shape).Idx → EReal)
    (hs : (⟨1, ![8]⟩ : Shape).Slices ![o] ⟨1, ![1]⟩) (h₁ : (⟨1, ![1]⟩ : Shape).ShapeCasts ⟨0, ![]⟩) (j : (⟨0, ![]⟩ : Shape).Idx) :
    shapeCast ⟨0, ![]⟩ (extractStridedSlice ⟨1, ![1]⟩ ![o] v hs) h₁ j = v (ix1 i) := by
  subst ho
  refine (shapeCast_apply _ h₁ j (ix1 (0 : Fin 1)) ?_).trans ?_
  · have hn : (⟨0, ![]⟩ : Shape).numel = 1 := by decide
    have h0 : ((⟨0, ![]⟩ : Shape).rowMajor j).val < 1 := hn ▸ ((⟨0, ![]⟩ : Shape).rowMajor j).isLt
    rw [Shape.rowMajor_val_one]
    show (0 : Nat) = _
    omega
  · refine extractStridedSlice_apply _ v hs _ _ fun a => ?_
    match a with
    | ⟨0, _⟩ => show i.val = i.val + 0; omega

/-- Layer i's scalar laid out as a 1 × 1 array is `scalarOf i v`. -/
theorem scalar_slice (i : Fin 8) (o : Nat) (ho : o = i.val) (v : (⟨1, ![8]⟩ : Shape).Idx → EReal)
    (hs : (⟨1, ![8]⟩ : Shape).Slices ![o] ⟨1, ![1]⟩) (h₁ : (⟨1, ![1]⟩ : Shape).ShapeCasts ⟨0, ![]⟩)
    (h₂ : (⟨0, ![]⟩ : Shape).ShapeCasts ⟨2, ![1, 1]⟩) :
    shapeCast ⟨2, ![1, 1]⟩ (shapeCast ⟨0, ![]⟩ (extractStridedSlice ⟨1, ![1]⟩ ![o] v hs) h₁) h₂ = scalarOf i v := by
  refine ext2 fun u w => ?_
  refine (shapeCast_apply _ h₂ (ix2 u w) ix0 ?_).trans (scalar_slice_apply i o ho v hs h₁ ix0)
  have hn : (⟨0, ![]⟩ : Shape).numel = 1 := by decide
  have h0 : ((⟨0, ![]⟩ : Shape).rowMajor ix0).val < 1 := hn ▸ ((⟨0, ![]⟩ : Shape).rowMajor ix0).isLt
  have hu := u.isLt
  have hw := w.isLt
  rw [Shape.rowMajor_val_two]
  show _ = u.val * 1 + w.val
  omega

end Cert.Flow.Terms

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«175835_j29978871726094_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.FlowLayout.lean ====
/-
  Spellings of one layer's re-layouts, read entry by entry on the extended reals.

  The column rescaling (z + bias row) · exp(scale row), the rows taken as slices of the two tables and broadcast down
  the 2048 rows, is `actnorm`. The columns of one parity are what is left when the 2048 × 8192 array is viewed as
  2048 × 4096 × 2, sliced at position q of the last axis and flattened: column k of the result is column 2k + q. Two
  2048 × 4096 arrays, each given a trailing unit axis, joined along it and flattened, interleave their columns: the
  first lands on the even columns, the second on the odd ones, which is `merge` at parity 0 — and `merge` at parity 1
  is `merge` at parity 0 with the arrays exchanged. The host's sum along each row, from a zero initial value, is the
  plain sum of the row's entries. Nothing here mentions a program.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«175835_j29978871726094_1_alg».proof.Proof.FlowSpec
import proofs.«175835_j29978871726094_1_alg».proof.Proof.FlowParams
import proofs.«175835_j29978871726094_1_alg».proof.Proof.LibRowVector
import proofs.«175835_j29978871726094_1_alg».proof.Proof.LibRowReductions

open scoped BigOperators

noncomputable section

namespace Cert.Flow.Terms

open Idealize.ShloMosaic Idealize.ShloMosaic.ValueIdx Cert.Flow Cert.Lib.RowVector Cert.Lib.RowReductions

/-! ## Sums along rows on the host -/

/-- The host's sum along each row of an a × b array, from the zero word, is at p the sum over k of the entries (p, k). -/
theorem host_rowsum_apply {a b : Nat} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) := by
  have h : (⟨2, ![a, b]⟩ : Shape).Reduces [1] ⟨1, ![a]⟩ := ⟨h'.1, Nat.one_pos, h'.2⟩
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

/-! ## The column rescaling -/

/-- A bias or scale row of layer i, flattened, laid out as a row and broadcast down the rows, read at (p, d). -/
theorem table_row_bcast_apply {r b : Nat} (i : Fin 8) (o : Nat) (ho : o = i.val) (B : (⟨2, ![8, b]⟩ : Shape).Idx → EReal)
    (hs : (⟨2, ![8, b]⟩ : Shape).Slices ![o, 0] ⟨2, ![1, b]⟩) (hc : (⟨2, ![1, b]⟩ : Shape).ShapeCasts ⟨1, ![b]⟩)
    (hb₁ : (⟨1, ![b]⟩ : Shape).BroadcastsInDim ⟨2, ![1, b]⟩ ![1])
    (hb₂ : (⟨2, ![1, b]⟩ : Shape).BroadcastsInDim ⟨2, ![r, b]⟩ ![0, 1]) (p : Fin r) (d : Fin b) :
    broadcastInDim ⟨2, ![r, b]⟩ ![0, 1] hb₂ (broadcastInDim ⟨2, ![1, b]⟩ ![1] hb₁
      (shapeCast ⟨1, ![b]⟩ (extractStridedSlice ⟨2, ![1, b]⟩ ![o, 0] B hs) hc)) (ix2 p d) = B (ix2 i d) := by
  rw [bcastInDim_rows_apply, bcastInDim_eq_asRow, asRow_apply]
  exact row_vector_apply i o ho B hs hc d

/-- (z + bias row of layer i) · exp(scale row of layer i), the rows broadcast down the 2048 rows, is `actnorm`. -/
theorem actnorm_term (i : Fin 8) (o : Nat) (ho : o = i.val) (ab als : FVec Ideal ⟨2, ![8, 8192]⟩ .f32)
    (z : FVec Ideal ⟨2, ![2048, 8192]⟩ .f32)
    (hs : (⟨2, ![8, 8192]⟩ : Shape).Slices ![o, 0] ⟨2, ![1, 8192]⟩)
    (hc : (⟨2, ![1, 8192]⟩ : Shape).ShapeCasts ⟨1, ![8192]⟩)
    (hb₁ : (⟨1, ![8192]⟩ : Shape).BroadcastsInDim ⟨2, ![1, 8192]⟩ ![1])
    (hb₂ : (⟨2, ![1, 8192]⟩ : Shape).BroadcastsInDim ⟨2, ![2048, 8192]⟩ ![0, 1]) :
    mulf (addf z (broadcastInDim ⟨2, ![2048, 8192]⟩ ![0, 1] hb₂ (broadcastInDim ⟨2, ![1, 8192]⟩ ![1] hb₁
        (shapeCast ⟨1, ![8192]⟩ (extractStridedSlice ⟨2, ![1, 8192]⟩ ![o, 0] ab hs) hc))))
      (broadcastInDim ⟨2, ![2048, 8192]⟩ ![0, 1] hb₂ (broadcastInDim ⟨2, ![1, 8192]⟩ ![1] hb₁
        (Host.exp (shapeCast ⟨1, ![8192]⟩ (extractStridedSlice ⟨2, ![1, 8192]⟩ ![o, 0] als hs) hc))))
      = actnorm i ab als z := by
  refine ext2 fun p d => ?_
  rw [mulf_apply, addf_apply, table_row_bcast_apply i o ho ab hs hc hb₁ hb₂ p d,
    bcastInDim_rows_apply, bcastInDim_eq_asRow, asRow_apply]
  show (z (ix2 p d) + ab (ix2 i d))
      * Ideal.exp (shapeCast ⟨1, ![8192]⟩ (extractStridedSlice ⟨2, ![1, 8192]⟩ ![o, 0] als hs) hc (ix1 d)) = _
  rw [row_vector_apply i o ho als hs hc d]
  rfl

/-! ## The split by parity -/

/-- The array viewed as 2048 × 4096 × 2, sliced at position q of the last axis and flattened, is the columns of parity q. -/
theorem split_term (q : Fin 2) (o : Nat) (ho : o = q.val) (z : (⟨2, ![2048, 8192]⟩ : Shape).Idx → EReal)
    (h₁ : (⟨2, ![2048, 8192]⟩ : Shape).ShapeCasts ⟨3, ![2048, 4096, 2]⟩)
    (hs : (⟨3, ![2048, 4096, 2]⟩ : Shape).Slices ![0, 0, o] ⟨3, ![2048, 4096, 1]⟩)
    (h₂ : (⟨3, ![2048, 4096, 1]⟩ : Shape).ShapeCasts ⟨2, ![2048, 4096]⟩) :
    shapeCast ⟨2, ![2048, 4096]⟩ (extractStridedSlice ⟨3, ![2048, 4096, 1]⟩ ![0, 0, o]
      (shapeCast ⟨3, ![2048, 4096, 2]⟩ z h₁) hs) h₂ = cols q z := by
  subst ho
  refine ext2 fun p k => ?_
  refine (shapeCast_apply _ h₂ (ix2 p k) (ix3 p k (0 : Fin 1)) ?_).trans ?_
  · rw [Shape.rowMajor_val_three, Shape.rowMajor_val_two]
    show (p.val * 4096 + k.val) * 1 + 0 = p.val * 4096 + k.val
    omega
  refine (extractStridedSlice_apply _ _ hs (ix3 p k (0 : Fin 1)) (ix3 p k q) fun a => ?_).trans ?_
  · match a with
    | ⟨0, _⟩ => show p.val = 0 + p.val; omega
    | ⟨1, _⟩ => show k.val = 0 + k.val; omega
    | ⟨2, _⟩ => show q.val = q.val + 0; omega
  refine shapeCast_apply z h₁ (ix3 p k q) _ ?_
  rw [Shape.rowMajor_val_three, Shape.rowMajor_val_two]
  show p.val * 8192 + (2 * k.val + q.val) = (p.val * 4096 + k.val) * 2 + q.val
  omega

/-! ## The merge -/

/-- A 2048 × 4096 array given a trailing unit axis reads its entry (p, k) at (p, k, 0). -/
theorem trailing_unit_apply (A : (⟨2, ![2048, 4096]⟩ : Shape).Idx → EReal)
    (hb : (⟨2, ![2048, 4096]⟩ : Shape).BroadcastsInDim ⟨3, ![2048, 4096, 1]⟩ ![0, 1]) (p : Fin 2048) (k : Fin 4096) (u : Fin 1) :
    broadcastInDim ⟨3, ![2048, 4096, 1]⟩ ![0, 1] hb A (ix3 p k u) = A (ix2 p k) :=
  broadcastInDim_apply _ hb A _ _ fun a => by
    match a with
    | ⟨0, _⟩ => rfl
    | ⟨1, _⟩ => rfl

/-- Two arrays joined along a new trailing axis and flattened: the first on the even columns, the second on the odd. -/
theorem merge_term (A B : (⟨2, ![2048, 4096]⟩ : Shape).Idx → EReal)
    (hb : (⟨2, ![2048, 4096]⟩ : Shape).BroadcastsInDim ⟨3, ![2048, 4096, 1]⟩ ![0, 1])
    (hc : Shape.Concatenates [(⟨3, ![2048, 4096, 1]⟩ : Shape), ⟨3, ![2048, 4096, 1]⟩] ⟨3, ![2048, 4096, 2]⟩ 2)
    (h : (⟨3, ![2048, 4096, 2]⟩ : Shape).ShapeCasts ⟨2, ![2048, 8192]⟩) :
    shapeCast ⟨2, ![2048, 8192]⟩ (concatenate ⟨3, ![2048, 4096, 2]⟩ 2
      [⟨⟨3, ![2048, 4096, 1]⟩, broadcastInDim ⟨3, ![2048, 4096, 1]⟩ ![0, 1] hb A⟩,
       ⟨⟨3, ![2048, 4096, 1]⟩, broadcastInDim ⟨3, ![2048, 4096, 1]⟩ ![0, 1] hb B⟩] hc) h = merge 0 A B := by
  refine ext2 fun p d => ?_
  have hd := d.isLt
  have hlt : d.val / 2 < 4096 := by omega
  have hm : d.val % 2 < 2 := Nat.mod_lt _ (by decide)
  refine (shapeCast_apply _ h (ix2 p d) (ix3 p (⟨d.val / 2, hlt⟩ : Fin 4096) (⟨d.val % 2, hm⟩ : Fin 2)) ?_).trans ?_
  · rw [Shape.rowMajor_val_three, Shape.rowMajor_val_two]
    show (p.val * 4096 + d.val / 2) * 2 + d.val % 2 = p.val * 8192 + d.val
    omega
  show _ = if d.val % 2 = (0 : Fin 2).val then A (ix2 p ⟨d.val / 2, _⟩) else B (ix2 p ⟨d.val / 2, _⟩)
  by_cases h0 : d.val % 2 = 0
  · rw [if_pos (show d.val % 2 = (0 : Fin 2).val from h0)]
    refine (concatenate_pair_apply_left (t := ⟨3, ![2048, 4096, 2]⟩) (2 : Fin 3) _ _ hc _ rfl (ix3 p (⟨d.val / 2, hlt⟩ : Fin 4096) (0 : Fin 1)) fun a => ?_).trans
      (trailing_unit_apply A hb p _ 0)
    match a with
    | ⟨0, _⟩ => rfl
    | ⟨1, _⟩ => rfl
    | ⟨2, _⟩ => show (0 : Nat) = d.val % 2; omega
  · rw [if_neg (show ¬ d.val % 2 = (0 : Fin 2).val from h0)]
    refine (concatenate_pair_apply_right (t := ⟨3, ![2048, 4096, 2]⟩) (2 : Fin 3) _ _ hc _ rfl rfl (ix3 p (⟨d.val / 2, hlt⟩ : Fin 4096) (0 : Fin 1)) (fun a ha => ?_) ?_).trans
      (trailing_unit_apply B hb p _ 0)
    · match a with
      | ⟨0, _⟩ => rfl
      | ⟨1, _⟩ => rfl
      | ⟨2, _⟩ => exact absurd rfl ha
    · show (0 : Nat) + 1 = d.val % 2
      omega

/-- Parity 1 from xc and parity 0 from yu is parity 0 from yu and parity 1 from xc. -/
theorem merge_swap (xc yu : A2 2048 4096) : merge 1 xc yu = merge 0 yu xc := by
  refine ext2 fun p d => ?_
  show (if d.val % 2 = (1 : Fin 2).val then _ else _) = if d.val % 2 = (0 : Fin 2).val then _ else _
  have hm : d.val % 2 < 2 := Nat.mod_lt _ (by decide)
  by_cases h0 : d.val % 2 = 0
  · rw [if_neg (show ¬ d.val % 2 = (1 : Fin 2).val from by show ¬ d.val % 2 = 1; omega),
      if_pos (show d.val % 2 = (0 : Fin 2).val from h0)]
  · rw [if_pos (show d.val % 2 = (1 : Fin 2).val from by show d.val % 2 = 1; omega),
      if_neg (show ¬ d.val % 2 = (0 : Fin 2).val from h0)]

end Cert.Flow.Terms

end
-- ==== Proof.FlowVector.lean ====
/-
  Spellings of the updates of the running vector, read entry by entry on the extended reals.

  The vector of 2048 entries starts at zero. Each layer adds to every entry the sum of the layer's 8192 logarithmic
  scales — taken as row i of the host's row sums of the 8 × 8192 table, from a zero initial value — and then adds,
  entry by entry, a column of 2048 row sums flattened to a vector. Nothing here mentions a program.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.LibRowVector

open scoped BigOperators

noncomputable section

namespace Cert.Flow.Terms

open Idealize.ShloMosaic Idealize.ShloMosaic.ValueIdx Cert.Flow Cert.Lib.RowVector

/-- The zero word broadcast into a vector is the zero vector. -/
theorem zero_vector (hb : (⟨0, ![]⟩ : Shape).BroadcastsInDim ⟨1, ![2048]⟩ ![]) :
    broadcastInDim ⟨1, ![2048]⟩ ![] hb (constant (F := Ideal) ⟨0, ![]⟩ .f32 0x00000000#32) = fun _ => (0 : EReal) := by
  funext j
  rw [bcastInDim_scalar_apply]
  exact Ideal.ofBits_zero_f32

/-- Adding to every entry row i of the table's row sums: ld(q) + the sum over d of als(i, d). -/
theorem add_scale_sum (i : Fin 8) (o : Nat) (ho : o = i.val) (als : FVec Ideal ⟨2, ![8, 8192]⟩ .f32)
    (ld : FVec Ideal ⟨1, ![2048]⟩ .f32)
    (h' : (⟨2, ![8, 8192]⟩ : Shape).ReducesTo [1] ⟨1, ![8]⟩) (hu : 0 < (⟨0, ![]⟩ : Shape).numel)
    (hs : (⟨1, ![8]⟩ : Shape).Slices ![o] ⟨1, ![1]⟩) (hc : (⟨1, ![1]⟩ : Shape).ShapeCasts ⟨0, ![]⟩)
    (hb : (⟨0, ![]⟩ : Shape).BroadcastsInDim ⟨1, ![2048]⟩ ![]) :
    addf ld (broadcastInDim ⟨1, ![2048]⟩ ![] hb (shapeCast ⟨0, ![]⟩ (extractStridedSlice ⟨1, ![1]⟩ ![o]
        (Host.reduceAdd als (constant (F := Ideal) ⟨0, ![]⟩ .f32 0x00000000#32) h' hu) hs) hc))
      = ofFn1 fun q => ld (ix1 q) + ∑ d : Fin 8192, als (ix2 i d) := by
  refine ext1 fun q => ?_
  rw [addf_apply, bcastInDim_scalar_apply, scalar_slice_apply i o ho _ hs hc ix0, host_rowsum_apply]
  rfl

/-- Adding, entry by entry, a column of 2048 values flattened to a vector: ld(q) + col(q, 0). -/
theorem add_column (ld : FVec Ideal ⟨1, ![2048]⟩ .f32) (col : FVec Ideal ⟨2, ![2048, 1]⟩ .f32)
    (h : (⟨2, ![2048, 1]⟩ : Shape).ShapeCasts ⟨1, ![2048]⟩) :
    addf ld (shapeCast ⟨1, ![2048]⟩ col h) = ofFn1 fun q => ld (ix1 q) + col (ix2 q 0) := by
  refine ext1 fun q => ?_
  rw [addf_apply]
  refine congrArg (ld (ix1 q) + ·) ?_
  refine shapeCast_apply col h (ix1 q) (ix2 q (0 : Fin 1)) ?_
  rw [Shape.rowMajor_val_two, Shape.rowMajor_val_one]
  show q.val * 1 + 0 = q.val
  omega

/-- The two updates of layer i in a row are `stepLd`'s entry: (ld + Σ als(i, ·)) + Σ s(q, ·). -/
theorem stepLd_eq (P : Params) (cnd : A2 2048 1024) (i : Fin 8) (z : A2 2048 8192) (ld : A1 2048) :
    (ofFn1 fun q => (ofFn1 fun q' => ld (ix1 q') + ∑ d : Fin 8192, P.als (ix2 i d)) (ix1 q)
        + coupleSum (sOf P cnd i z) (ix2 q 0)) = stepLd P cnd i z ld := rfl

end Cert.Flow.Terms

end
-- ==== Proof.KPre0.lean ====
/-
  The idealized kernel program before its first coupling call: the arrays the call reads.

  From the launch contents, the operations before the first call lay the input out as 2048 × 8192, rescale its columns
  with layer 0's biases and scales, split the columns by parity, cut layer 0's matrices, bias rows and scalar out of
  the stacked parameters, and start the running vector at the sum of layer 0's logarithmic scales. Each array the
  call reads is the specification's function of the launch contents.
-/
import proofs.«175835_j29978871726094_1_alg».proof.Proof.Gen.KernelIdeal.Frame
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowVector
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen Cert.Flow Cert.Flow.Terms Idealize.ShloMosaic.ValueIdx
open scoped BigOperators

variable (m : (ℓ : Loc nD τ sig) → Buf (Elt Ideal) ℓ) (ρ : Dev nD → PrngReg) (c : Dev nD)

/-- The eleven parameter arrays at their launch contents. -/
abbrev Pm : Params where
  als := m ((c : Thread nD τ).loc main_arg3)
  ab := m ((c : Thread nD τ).loc main_arg4)
  W1 := m ((c : Thread nD τ).loc main_arg5)
  b1 := m ((c : Thread nD τ).loc main_arg6)
  W2 := m ((c : Thread nD τ).loc main_arg7)
  b2 := m ((c : Thread nD τ).loc main_arg8)
  Ws := m ((c : Thread nD τ).loc main_arg9)
  bs := m ((c : Thread nD τ).loc main_arg10)
  Wt := m ((c : Thread nD τ).loc main_arg11)
  bt := m ((c : Thread nD τ).loc main_arg12)
  sf := m ((c : Thread nD τ).loc main_arg13)

/-- The conditioning array at the launch contents. -/
abbrev cndm : A2 2048 1024 := cond (m ((c : Thread nD τ).loc main_arg1)) (m ((c : Thread nD τ).loc main_arg2))

/-- The starting array at the launch contents. -/
abbrev z0m : A2 2048 8192 := z0 (m ((c : Thread nD τ).loc main_arg0))

/-- The array after the first n layers. -/
abbrev Zn (n : Nat) : A2 2048 8192 := zAt (Pm m c) (cndm m c) (z0m m c) n

/-- The vector after the first n layers. -/
abbrev Ln (n : Nat) : A1 2048 := lAt (Pm m c) (cndm m c) (z0m m c) n

set_option maxHeartbeats 1000000

/-! ## What the first call reads -/

theorem pre0_xc : (V1 m ρ c main_v34 : S2048x4096.Idx → EReal)
    = cols (par 0) (actnorm 0 (Pm m c).ab (Pm m c).als (Zn m c 0)) := by
  show StableHlo.after hostOps0 (W0 m ρ c) (Proc.devRef .tc main_v34) = _
  after_results_simp
  exact (split_term (par 0) 0 rfl _ _ _ _).trans (congrArg (cols (par 0)) (actnorm_term 0 0 rfl _ _ _ _ _ _ _))

theorem pre0_xu : (V1 m ρ c main_v36 : S2048x4096.Idx → EReal)
    = cols (opp (par 0)) (actnorm 0 (Pm m c).ab (Pm m c).als (Zn m c 0)) := by
  show StableHlo.after hostOps0 (W0 m ρ c) (Proc.devRef .tc main_v36) = _
  after_results_simp
  exact (split_term (opp (par 0)) 1 rfl _ _ _ _).trans (congrArg (cols (opp (par 0))) (actnorm_term 0 0 rfl _ _ _ _ _ _ _))

theorem pre0_cnd : (V1 m ρ c main_v7 : S2048x1024.Idx → EReal) = cndm m c := by
  show StableHlo.after hostOps0 (W0 m ρ c) (Proc.devRef .tc main_v7) = _
  after_results_simp
  try rfl

theorem pre0_w1a : (V1 m ρ c main_v38 : S4096x1024.Idx → EReal) = band 0 (Pm m c).W1 0 4096 (by decide) := by
  show StableHlo.after hostOps0 (W0 m ρ c) (Proc.devRef .tc main_v38) = _
  after_results_simp
  exact band_slice_narrow 0 0 rfl 0 _ _ _ _ _ _

theorem pre0_w1b : (V1 m ρ c main_v40 : S1024x1024.Idx → EReal) = band 0 (Pm m c).W1 4096 1024 (by decide) := by
  show StableHlo.after hostOps0 (W0 m ρ c) (Proc.devRef .tc main_v40) = _
  after_results_simp
  exact band_slice_narrow 0 0 rfl 4096 _ _ _ _ _ _

theorem pre0_b1 : (V1 m ρ c main_v43 : S1x1024.Idx → EReal) = rowOf 0 (Pm m c).b1 := by
  show StableHlo.after hostOps0 (W0 m ρ c) (Proc.devRef .tc main_v43) = _
  after_results_simp
  exact row_slice 0 0 rfl _ _ _ _

theorem pre0_w2 : (V1 m ρ c main_v45 : S1024x1024.Idx → EReal) = band 0 (Pm m c).W2 0 1024 (by decide) := by
  show StableHlo.after hostOps0 (W0 m ρ c) (Proc.devRef .tc main_v45) = _
  after_results_simp
  exact stack_slice_narrow 0 0 rfl _ _ _ _ _

theorem pre0_b2 : (V1 m ρ c main_v48 : S1x1024.Idx → EReal) = rowOf 0 (Pm m c).b2 := by
  show StableHlo.after hostOps0 (W0 m ρ c) (Proc.devRef .tc main_v48) = _
  after_results_simp
  exact row_slice 0 0 rfl _ _ _ _

theorem pre0_ws : (V1 m ρ c main_v50 : S1024x4096.Idx → EReal) = band 0 (Pm m c).Ws 0 1024 (by decide) := by
  show StableHlo.after hostOps0 (W0 m ρ c) (Proc.devRef .tc main_v50) = _
  after_results_simp
  exact stack_slice_narrow 0 0 rfl _ _ _ _ _

theorem pre0_bs : (V1 m ρ c main_v53 : S1x4096.Idx → EReal) = rowOf 0 (Pm m c).bs := by
  show StableHlo.after hostOps0 (W0 m ρ c) (Proc.devRef .tc main_v53) = _
  after_results_simp
  exact row_slice 0 0 rfl _ _ _ _

theorem pre0_wt : (V1 m ρ c main_v55 : S1024x4096.Idx → EReal) = band 0 (Pm m c).Wt 0 1024 (by decide) := by
  show StableHlo.after hostOps0 (W0 m ρ c) (Proc.devRef .tc main_v55) = _
  after_results_simp
  exact stack_slice_narrow 0 0 rfl _ _ _ _ _

theorem pre0_bt : (V1 m ρ c main_v58 : S1x4096.Idx → EReal) = rowOf 0 (Pm m c).bt := by
  show StableHlo.after hostOps0 (W0 m ρ c) (Proc.devRef .tc main_v58) = _
  after_results_simp
  exact row_slice 0 0 rfl _ _ _ _

theorem pre0_sf : (V1 m ρ c main_v61 : S1x1.Idx → EReal) = scalarOf 0 (Pm m c).sf := by
  show StableHlo.after hostOps0 (W0 m ρ c) (Proc.devRef .tc main_v61) = _
  after_results_simp
  exact scalar_slice 0 0 rfl _ _ _ _

theorem pre0_ld : (V1 m ρ c main_v31 : S2048.Idx → EReal)
    = ofFn1 fun q => Ln m c 0 (ix1 q) + ∑ d : Fin 8192, (Pm m c).als (ix2 0 d) := by
  show StableHlo.after hostOps0 (W0 m ρ c) (Proc.devRef .tc main_v31) = _
  after_results_simp
  refine (add_scale_sum 0 0 rfl _ _ _ _ _ _ _).trans ?_
  refine congrArg ofFn1 (funext fun q => congrArg (· + _) ?_)
  exact congrFun (zero_vector _) _

/-! ## What the later stretches read again -/

theorem pre0_v9 : (W1 m ρ c (Proc.devRef .tc main_v9) : S8.Idx → EReal)
    = Host.reduceAdd (F := Ideal) (m ((c : Thread nD τ).loc main_arg3)) (constant (F := Ideal) S_ .f32 0x00000000#32) reducesTo_S8x8192_S8_d1 h_S_ := by
  show StableHlo.after hostOps0 (W0 m ρ c) (Proc.devRef .tc main_v9) = _
  after_results_simp
  try rfl

theorem pre0_v11 : (W1 m ρ c (Proc.devRef .tc main_v11) : S8x4096x1024.Idx → EReal)
    = truncf (F := Ideal) .bf16 (extractStridedSlice S8x4096x1024 ![0, 0, 0] (m ((c : Thread nD τ).loc main_arg5)) slices_S8x5120x1024_S8x4096x1024_0_0_0) bitsLt_bf16_f32 := by
  show StableHlo.after hostOps0 (W0 m ρ c) (Proc.devRef .tc main_v11) = _
  after_results_simp
  try rfl

theorem pre0_v13 : (W1 m ρ c (Proc.devRef .tc main_v13) : S8x1024x1024.Idx → EReal)
    = truncf (F := Ideal) .bf16 (extractStridedSlice S8x1024x1024 ![0, 4096, 0] (m ((c : Thread nD τ).loc main_arg5)) slices_S8x5120x1024_S8x1024x1024_0_4096_0) bitsLt_bf16_f32 := by
  show StableHlo.after hostOps0 (W0 m ρ c) (Proc.devRef .tc main_v13) = _
  after_results_simp
  try rfl

theorem pre0_v14 : (W1 m ρ c (Proc.devRef .tc main_v14) : S8x1024x1024.Idx → EReal)
    = truncf (F := Ideal) .bf16 (m ((c : Thread nD τ).loc main_arg7)) bitsLt_bf16_f32 := by
  show StableHlo.after hostOps0 (W0 m ρ c) (Proc.devRef .tc main_v14) = _
  after_results_simp
  try rfl

theorem pre0_v15 : (W1 m ρ c (Proc.devRef .tc main_v15) : S8x1024x4096.Idx → EReal)
    = truncf (F := Ideal) .bf16 (m ((c : Thread nD τ).loc main_arg9)) bitsLt_bf16_f32 := by
  show StableHlo.after hostOps0 (W0 m ρ c) (Proc.devRef .tc main_v15) = _
  after_results_simp
  try rfl

theorem pre0_v16 : (W1 m ρ c (Proc.devRef .tc main_v16) : S8x1024x4096.Idx → EReal)
    = truncf (F := Ideal) .bf16 (m ((c : Thread nD τ).loc main_arg11)) bitsLt_bf16_f32 := by
  show StableHlo.after hostOps0 (W0 m ρ c) (Proc.devRef .tc main_v16) = _
  after_results_simp
  try rfl

theorem pre0_arg3 : W1 m ρ c (Proc.devRef .tc main_arg3) = m ((c : Thread nD τ).loc main_arg3) := by
  show StableHlo.after hostOps0 (W0 m ρ c) (Proc.devRef .tc main_arg3) = _
  after_results_simp
  try rfl

theorem pre0_arg4 : W1 m ρ c (Proc.devRef .tc main_arg4) = m ((c : Thread nD τ).loc main_arg4) := by
  show StableHlo.after hostOps0 (W0 m ρ c) (Proc.devRef .tc main_arg4) = _
  after_results_simp
  try rfl

theorem pre0_arg6 : W1 m ρ c (Proc.devRef .tc main_arg6) = m ((c : Thread nD τ).loc main_arg6) := by
  show StableHlo.after hostOps0 (W0 m ρ c) (Proc.devRef .tc main_arg6) = _
  after_results_simp
  try rfl

theorem pre0_arg8 : W1 m ρ c (Proc.devRef .tc main_arg8) = m ((c : Thread nD τ).loc main_arg8) := by
  show StableHlo.after hostOps0 (W0 m ρ c) (Proc.devRef .tc main_arg8) = _
  after_results_simp
  try rfl

theorem pre0_arg10 : W1 m ρ c (Proc.devRef .tc main_arg10) = m ((c : Thread nD τ).loc main_arg10) := by
  show StableHlo.after hostOps0 (W0 m ρ c) (Proc.devRef .tc main_arg10) = _
  after_results_simp
  try rfl

theorem pre0_arg12 : W1 m ρ c (Proc.devRef .tc main_arg12) = m ((c : Thread nD τ).loc main_arg12) := by
  show StableHlo.after hostOps0 (W0 m ρ c) (Proc.devRef .tc main_arg12) = _
  after_results_simp
  try rfl

theorem pre0_arg13 : W1 m ρ c (Proc.devRef .tc main_arg13) = m ((c : Thread nD τ).loc main_arg13) := by
  show StableHlo.after hostOps0 (W0 m ρ c) (Proc.devRef .tc main_arg13) = _
  after_results_simp
  try rfl

end Cert.KernelIdeal.KSide

end
-- ==== Proof.KKeep.lean ====
/- The idealized kernel program's parameter arrays, the conditioning array and the pre-cut weight stacks are written once,
  before the first coupling call, and by nothing after: neither a later host operation nor a call's write-back touches
  them. So at every later boundary they hold what they held before the first call. One line per buffer and boundary. -/
import proofs.«175835_j29978871726094_1_alg».proof.Proof.Gen.KernelIdeal.Frame
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-- No operation of the stretch writes the buffer: each operation's one result is another reference. -/
macro "not_written " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

set_option maxHeartbeats 1000000

theorem carry1_main_arg3 : W1 m ρ c (Proc.devRef .tc main_arg3) = W1 m ρ c (Proc.devRef .tc main_arg3) := rfl
theorem carry2_main_arg3 : W2 m ρ c (Proc.devRef .tc main_arg3) = W1 m ρ c (Proc.devRef .tc main_arg3) :=
  (W2_of_ne m ρ c main_arg3 (by decide)).trans (carry1_main_arg3 m ρ c)
theorem carry3_main_arg3 : W3 m ρ c (Proc.devRef .tc main_arg3) = W1 m ρ c (Proc.devRef .tc main_arg3) :=
  (show StableHlo.after hostOps1 (W2 m ρ c) (Proc.devRef .tc main_arg3) = W2 m ρ c (Proc.devRef .tc main_arg3) by not_written hostOps1).trans (carry2_main_arg3 m ρ c)
theorem carry4_main_arg3 : W4 m ρ c (Proc.devRef .tc main_arg3) = W1 m ρ c (Proc.devRef .tc main_arg3) :=
  (W4_of_ne m ρ c main_arg3 (by decide)).trans (carry3_main_arg3 m ρ c)
theorem carry5_main_arg3 : W5 m ρ c (Proc.devRef .tc main_arg3) = W1 m ρ c (Proc.devRef .tc main_arg3) :=
  (show StableHlo.after hostOps2 (W4 m ρ c) (Proc.devRef .tc main_arg3) = W4 m ρ c (Proc.devRef .tc main_arg3) by not_written hostOps2).trans (carry4_main_arg3 m ρ c)
theorem carry6_main_arg3 : W6 m ρ c (Proc.devRef .tc main_arg3) = W1 m ρ c (Proc.devRef .tc main_arg3) :=
  (W6_of_ne m ρ c main_arg3 (by decide)).trans (carry5_main_arg3 m ρ c)
theorem carry7_main_arg3 : W7 m ρ c (Proc.devRef .tc main_arg3) = W1 m ρ c (Proc.devRef .tc main_arg3) :=
  (show StableHlo.after hostOps3 (W6 m ρ c) (Proc.devRef .tc main_arg3) = W6 m ρ c (Proc.devRef .tc main_arg3) by not_written hostOps3).trans (carry6_main_arg3 m ρ c)
theorem carry8_main_arg3 : W8 m ρ c (Proc.devRef .tc main_arg3) = W1 m ρ c (Proc.devRef .tc main_arg3) :=
  (W8_of_ne m ρ c main_arg3 (by decide)).trans (carry7_main_arg3 m ρ c)
theorem carry9_main_arg3 : W9 m ρ c (Proc.devRef .tc main_arg3) = W1 m ρ c (Proc.devRef .tc main_arg3) :=
  (show StableHlo.after hostOps4 (W8 m ρ c) (Proc.devRef .tc main_arg3) = W8 m ρ c (Proc.devRef .tc main_arg3) by not_written hostOps4).trans (carry8_main_arg3 m ρ c)
theorem carry10_main_arg3 : W10 m ρ c (Proc.devRef .tc main_arg3) = W1 m ρ c (Proc.devRef .tc main_arg3) :=
  (W10_of_ne m ρ c main_arg3 (by decide)).trans (carry9_main_arg3 m ρ c)
theorem carry11_main_arg3 : W11 m ρ c (Proc.devRef .tc main_arg3) = W1 m ρ c (Proc.devRef .tc main_arg3) :=
  (show StableHlo.after hostOps5 (W10 m ρ c) (Proc.devRef .tc main_arg3) = W10 m ρ c (Proc.devRef .tc main_arg3) by not_written hostOps5).trans (carry10_main_arg3 m ρ c)
theorem carry12_main_arg3 : W12 m ρ c (Proc.devRef .tc main_arg3) = W1 m ρ c (Proc.devRef .tc main_arg3) :=
  (W12_of_ne m ρ c main_arg3 (by decide)).trans (carry11_main_arg3 m ρ c)
theorem carry13_main_arg3 : W13 m ρ c (Proc.devRef .tc main_arg3) = W1 m ρ c (Proc.devRef .tc main_arg3) :=
  (show StableHlo.after hostOps6 (W12 m ρ c) (Proc.devRef .tc main_arg3) = W12 m ρ c (Proc.devRef .tc main_arg3) by not_written hostOps6).trans (carry12_main_arg3 m ρ c)
theorem carry14_main_arg3 : W14 m ρ c (Proc.devRef .tc main_arg3) = W1 m ρ c (Proc.devRef .tc main_arg3) :=
  (W14_of_ne m ρ c main_arg3 (by decide)).trans (carry13_main_arg3 m ρ c)
theorem carry15_main_arg3 : W15 m ρ c (Proc.devRef .tc main_arg3) = W1 m ρ c (Proc.devRef .tc main_arg3) :=
  (show StableHlo.after hostOps7 (W14 m ρ c) (Proc.devRef .tc main_arg3) = W14 m ρ c (Proc.devRef .tc main_arg3) by not_written hostOps7).trans (carry14_main_arg3 m ρ c)
theorem carry16_main_arg3 : W16 m ρ c (Proc.devRef .tc main_arg3) = W1 m ρ c (Proc.devRef .tc main_arg3) :=
  (W16_of_ne m ρ c main_arg3 (by decide)).trans (carry15_main_arg3 m ρ c)

theorem carry1_main_arg4 : W1 m ρ c (Proc.devRef .tc main_arg4) = W1 m ρ c (Proc.devRef .tc main_arg4) := rfl
theorem carry2_main_arg4 : W2 m ρ c (Proc.devRef .tc main_arg4) = W1 m ρ c (Proc.devRef .tc main_arg4) :=
  (W2_of_ne m ρ c main_arg4 (by decide)).trans (carry1_main_arg4 m ρ c)
theorem carry3_main_arg4 : W3 m ρ c (Proc.devRef .tc main_arg4) = W1 m ρ c (Proc.devRef .tc main_arg4) :=
  (show StableHlo.after hostOps1 (W2 m ρ c) (Proc.devRef .tc main_arg4) = W2 m ρ c (Proc.devRef .tc main_arg4) by not_written hostOps1).trans (carry2_main_arg4 m ρ c)
theorem carry4_main_arg4 : W4 m ρ c (Proc.devRef .tc main_arg4) = W1 m ρ c (Proc.devRef .tc main_arg4) :=
  (W4_of_ne m ρ c main_arg4 (by decide)).trans (carry3_main_arg4 m ρ c)
theorem carry5_main_arg4 : W5 m ρ c (Proc.devRef .tc main_arg4) = W1 m ρ c (Proc.devRef .tc main_arg4) :=
  (show StableHlo.after hostOps2 (W4 m ρ c) (Proc.devRef .tc main_arg4) = W4 m ρ c (Proc.devRef .tc main_arg4) by not_written hostOps2).trans (carry4_main_arg4 m ρ c)
theorem carry6_main_arg4 : W6 m ρ c (Proc.devRef .tc main_arg4) = W1 m ρ c (Proc.devRef .tc main_arg4) :=
  (W6_of_ne m ρ c main_arg4 (by decide)).trans (carry5_main_arg4 m ρ c)
theorem carry7_main_arg4 : W7 m ρ c (Proc.devRef .tc main_arg4) = W1 m ρ c (Proc.devRef .tc main_arg4) :=
  (show StableHlo.after hostOps3 (W6 m ρ c) (Proc.devRef .tc main_arg4) = W6 m ρ c (Proc.devRef .tc main_arg4) by not_written hostOps3).trans (carry6_main_arg4 m ρ c)
theorem carry8_main_arg4 : W8 m ρ c (Proc.devRef .tc main_arg4) = W1 m ρ c (Proc.devRef .tc main_arg4) :=
  (W8_of_ne m ρ c main_arg4 (by decide)).trans (carry7_main_arg4 m ρ c)
theorem carry9_main_arg4 : W9 m ρ c (Proc.devRef .tc main_arg4) = W1 m ρ c (Proc.devRef .tc main_arg4) :=
  (show StableHlo.after hostOps4 (W8 m ρ c) (Proc.devRef .tc main_arg4) = W8 m ρ c (Proc.devRef .tc main_arg4) by not_written hostOps4).trans (carry8_main_arg4 m ρ c)
theorem carry10_main_arg4 : W10 m ρ c (Proc.devRef .tc main_arg4) = W1 m ρ c (Proc.devRef .tc main_arg4) :=
  (W10_of_ne m ρ c main_arg4 (by decide)).trans (carry9_main_arg4 m ρ c)
theorem carry11_main_arg4 : W11 m ρ c (Proc.devRef .tc main_arg4) = W1 m ρ c (Proc.devRef .tc main_arg4) :=
  (show StableHlo.after hostOps5 (W10 m ρ c) (Proc.devRef .tc main_arg4) = W10 m ρ c (Proc.devRef .tc main_arg4) by not_written hostOps5).trans (carry10_main_arg4 m ρ c)
theorem carry12_main_arg4 : W12 m ρ c (Proc.devRef .tc main_arg4) = W1 m ρ c (Proc.devRef .tc main_arg4) :=
  (W12_of_ne m ρ c main_arg4 (by decide)).trans (carry11_main_arg4 m ρ c)
theorem carry13_main_arg4 : W13 m ρ c (Proc.devRef .tc main_arg4) = W1 m ρ c (Proc.devRef .tc main_arg4) :=
  (show StableHlo.after hostOps6 (W12 m ρ c) (Proc.devRef .tc main_arg4) = W12 m ρ c (Proc.devRef .tc main_arg4) by not_written hostOps6).trans (carry12_main_arg4 m ρ c)
theorem carry14_main_arg4 : W14 m ρ c (Proc.devRef .tc main_arg4) = W1 m ρ c (Proc.devRef .tc main_arg4) :=
  (W14_of_ne m ρ c main_arg4 (by decide)).trans (carry13_main_arg4 m ρ c)
theorem carry15_main_arg4 : W15 m ρ c (Proc.devRef .tc main_arg4) = W1 m ρ c (Proc.devRef .tc main_arg4) :=
  (show StableHlo.after hostOps7 (W14 m ρ c) (Proc.devRef .tc main_arg4) = W14 m ρ c (Proc.devRef .tc main_arg4) by not_written hostOps7).trans (carry14_main_arg4 m ρ c)
theorem carry16_main_arg4 : W16 m ρ c (Proc.devRef .tc main_arg4) = W1 m ρ c (Proc.devRef .tc main_arg4) :=
  (W16_of_ne m ρ c main_arg4 (by decide)).trans (carry15_main_arg4 m ρ c)

theorem carry1_main_arg6 : W1 m ρ c (Proc.devRef .tc main_arg6) = W1 m ρ c (Proc.devRef .tc main_arg6) := rfl
theorem carry2_main_arg6 : W2 m ρ c (Proc.devRef .tc main_arg6) = W1 m ρ c (Proc.devRef .tc main_arg6) :=
  (W2_of_ne m ρ c main_arg6 (by decide)).trans (carry1_main_arg6 m ρ c)
theorem carry3_main_arg6 : W3 m ρ c (Proc.devRef .tc main_arg6) = W1 m ρ c (Proc.devRef .tc main_arg6) :=
  (show StableHlo.after hostOps1 (W2 m ρ c) (Proc.devRef .tc main_arg6) = W2 m ρ c (Proc.devRef .tc main_arg6) by not_written hostOps1).trans (carry2_main_arg6 m ρ c)
theorem carry4_main_arg6 : W4 m ρ c (Proc.devRef .tc main_arg6) = W1 m ρ c (Proc.devRef .tc main_arg6) :=
  (W4_of_ne m ρ c main_arg6 (by decide)).trans (carry3_main_arg6 m ρ c)
theorem carry5_main_arg6 : W5 m ρ c (Proc.devRef .tc main_arg6) = W1 m ρ c (Proc.devRef .tc main_arg6) :=
  (show StableHlo.after hostOps2 (W4 m ρ c) (Proc.devRef .tc main_arg6) = W4 m ρ c (Proc.devRef .tc main_arg6) by not_written hostOps2).trans (carry4_main_arg6 m ρ c)
theorem carry6_main_arg6 : W6 m ρ c (Proc.devRef .tc main_arg6) = W1 m ρ c (Proc.devRef .tc main_arg6) :=
  (W6_of_ne m ρ c main_arg6 (by decide)).trans (carry5_main_arg6 m ρ c)
theorem carry7_main_arg6 : W7 m ρ c (Proc.devRef .tc main_arg6) = W1 m ρ c (Proc.devRef .tc main_arg6) :=
  (show StableHlo.after hostOps3 (W6 m ρ c) (Proc.devRef .tc main_arg6) = W6 m ρ c (Proc.devRef .tc main_arg6) by not_written hostOps3).trans (carry6_main_arg6 m ρ c)
theorem carry8_main_arg6 : W8 m ρ c (Proc.devRef .tc main_arg6) = W1 m ρ c (Proc.devRef .tc main_arg6) :=
  (W8_of_ne m ρ c main_arg6 (by decide)).trans (carry7_main_arg6 m ρ c)
theorem carry9_main_arg6 : W9 m ρ c (Proc.devRef .tc main_arg6) = W1 m ρ c (Proc.devRef .tc main_arg6) :=
  (show StableHlo.after hostOps4 (W8 m ρ c) (Proc.devRef .tc main_arg6) = W8 m ρ c (Proc.devRef .tc main_arg6) by not_written hostOps4).trans (carry8_main_arg6 m ρ c)
theorem carry10_main_arg6 : W10 m ρ c (Proc.devRef .tc main_arg6) = W1 m ρ c (Proc.devRef .tc main_arg6) :=
  (W10_of_ne m ρ c main_arg6 (by decide)).trans (carry9_main_arg6 m ρ c)
theorem carry11_main_arg6 : W11 m ρ c (Proc.devRef .tc main_arg6) = W1 m ρ c (Proc.devRef .tc main_arg6) :=
  (show StableHlo.after hostOps5 (W10 m ρ c) (Proc.devRef .tc main_arg6) = W10 m ρ c (Proc.devRef .tc main_arg6) by not_written hostOps5).trans (carry10_main_arg6 m ρ c)
theorem carry12_main_arg6 : W12 m ρ c (Proc.devRef .tc main_arg6) = W1 m ρ c (Proc.devRef .tc main_arg6) :=
  (W12_of_ne m ρ c main_arg6 (by decide)).trans (carry11_main_arg6 m ρ c)
theorem carry13_main_arg6 : W13 m ρ c (Proc.devRef .tc main_arg6) = W1 m ρ c (Proc.devRef .tc main_arg6) :=
  (show StableHlo.after hostOps6 (W12 m ρ c) (Proc.devRef .tc main_arg6) = W12 m ρ c (Proc.devRef .tc main_arg6) by not_written hostOps6).trans (carry12_main_arg6 m ρ c)
theorem carry14_main_arg6 : W14 m ρ c (Proc.devRef .tc main_arg6) = W1 m ρ c (Proc.devRef .tc main_arg6) :=
  (W14_of_ne m ρ c main_arg6 (by decide)).trans (carry13_main_arg6 m ρ c)
theorem carry15_main_arg6 : W15 m ρ c (Proc.devRef .tc main_arg6) = W1 m ρ c (Proc.devRef .tc main_arg6) :=
  (show StableHlo.after hostOps7 (W14 m ρ c) (Proc.devRef .tc main_arg6) = W14 m ρ c (Proc.devRef .tc main_arg6) by not_written hostOps7).trans (carry14_main_arg6 m ρ c)
theorem carry16_main_arg6 : W16 m ρ c (Proc.devRef .tc main_arg6) = W1 m ρ c (Proc.devRef .tc main_arg6) :=
  (W16_of_ne m ρ c main_arg6 (by decide)).trans (carry15_main_arg6 m ρ c)

theorem carry1_main_arg8 : W1 m ρ c (Proc.devRef .tc main_arg8) = W1 m ρ c (Proc.devRef .tc main_arg8) := rfl
theorem carry2_main_arg8 : W2 m ρ c (Proc.devRef .tc main_arg8) = W1 m ρ c (Proc.devRef .tc main_arg8) :=
  (W2_of_ne m ρ c main_arg8 (by decide)).trans (carry1_main_arg8 m ρ c)
theorem carry3_main_arg8 : W3 m ρ c (Proc.devRef .tc main_arg8) = W1 m ρ c (Proc.devRef .tc main_arg8) :=
  (show StableHlo.after hostOps1 (W2 m ρ c) (Proc.devRef .tc main_arg8) = W2 m ρ c (Proc.devRef .tc main_arg8) by not_written hostOps1).trans (carry2_main_arg8 m ρ c)
theorem carry4_main_arg8 : W4 m ρ c (Proc.devRef .tc main_arg8) = W1 m ρ c (Proc.devRef .tc main_arg8) :=
  (W4_of_ne m ρ c main_arg8 (by decide)).trans (carry3_main_arg8 m ρ c)
theorem carry5_main_arg8 : W5 m ρ c (Proc.devRef .tc main_arg8) = W1 m ρ c (Proc.devRef .tc main_arg8) :=
  (show StableHlo.after hostOps2 (W4 m ρ c) (Proc.devRef .tc main_arg8) = W4 m ρ c (Proc.devRef .tc main_arg8) by not_written hostOps2).trans (carry4_main_arg8 m ρ c)
theorem carry6_main_arg8 : W6 m ρ c (Proc.devRef .tc main_arg8) = W1 m ρ c (Proc.devRef .tc main_arg8) :=
  (W6_of_ne m ρ c main_arg8 (by decide)).trans (carry5_main_arg8 m ρ c)
theorem carry7_main_arg8 : W7 m ρ c (Proc.devRef .tc main_arg8) = W1 m ρ c (Proc.devRef .tc main_arg8) :=
  (show StableHlo.after hostOps3 (W6 m ρ c) (Proc.devRef .tc main_arg8) = W6 m ρ c (Proc.devRef .tc main_arg8) by not_written hostOps3).trans (carry6_main_arg8 m ρ c)
theorem carry8_main_arg8 : W8 m ρ c (Proc.devRef .tc main_arg8) = W1 m ρ c (Proc.devRef .tc main_arg8) :=
  (W8_of_ne m ρ c main_arg8 (by decide)).trans (carry7_main_arg8 m ρ c)
theorem carry9_main_arg8 : W9 m ρ c (Proc.devRef .tc main_arg8) = W1 m ρ c (Proc.devRef .tc main_arg8) :=
  (show StableHlo.after hostOps4 (W8 m ρ c) (Proc.devRef .tc main_arg8) = W8 m ρ c (Proc.devRef .tc main_arg8) by not_written hostOps4).trans (carry8_main_arg8 m ρ c)
theorem carry10_main_arg8 : W10 m ρ c (Proc.devRef .tc main_arg8) = W1 m ρ c (Proc.devRef .tc main_arg8) :=
  (W10_of_ne m ρ c main_arg8 (by decide)).trans (carry9_main_arg8 m ρ c)
theorem carry11_main_arg8 : W11 m ρ c (Proc.devRef .tc main_arg8) = W1 m ρ c (Proc.devRef .tc main_arg8) :=
  (show StableHlo.after hostOps5 (W10 m ρ c) (Proc.devRef .tc main_arg8) = W10 m ρ c (Proc.devRef .tc main_arg8) by not_written hostOps5).trans (carry10_main_arg8 m ρ c)
theorem carry12_main_arg8 : W12 m ρ c (Proc.devRef .tc main_arg8) = W1 m ρ c (Proc.devRef .tc main_arg8) :=
  (W12_of_ne m ρ c main_arg8 (by decide)).trans (carry11_main_arg8 m ρ c)
theorem carry13_main_arg8 : W13 m ρ c (Proc.devRef .tc main_arg8) = W1 m ρ c (Proc.devRef .tc main_arg8) :=
  (show StableHlo.after hostOps6 (W12 m ρ c) (Proc.devRef .tc main_arg8) = W12 m ρ c (Proc.devRef .tc main_arg8) by not_written hostOps6).trans (carry12_main_arg8 m ρ c)
theorem carry14_main_arg8 : W14 m ρ c (Proc.devRef .tc main_arg8) = W1 m ρ c (Proc.devRef .tc main_arg8) :=
  (W14_of_ne m ρ c main_arg8 (by decide)).trans (carry13_main_arg8 m ρ c)
theorem carry15_main_arg8 : W15 m ρ c (Proc.devRef .tc main_arg8) = W1 m ρ c (Proc.devRef .tc main_arg8) :=
  (show StableHlo.after hostOps7 (W14 m ρ c) (Proc.devRef .tc main_arg8) = W14 m ρ c (Proc.devRef .tc main_arg8) by not_written hostOps7).trans (carry14_main_arg8 m ρ c)
theorem carry16_main_arg8 : W16 m ρ c (Proc.devRef .tc main_arg8) = W1 m ρ c (Proc.devRef .tc main_arg8) :=
  (W16_of_ne m ρ c main_arg8 (by decide)).trans (carry15_main_arg8 m ρ c)

theorem carry1_main_arg10 : W1 m ρ c (Proc.devRef .tc main_arg10) = W1 m ρ c (Proc.devRef .tc main_arg10) := rfl
theorem carry2_main_arg10 : W2 m ρ c (Proc.devRef .tc main_arg10) = W1 m ρ c (Proc.devRef .tc main_arg10) :=
  (W2_of_ne m ρ c main_arg10 (by decide)).trans (carry1_main_arg10 m ρ c)
theorem carry3_main_arg10 : W3 m ρ c (Proc.devRef .tc main_arg10) = W1 m ρ c (Proc.devRef .tc main_arg10) :=
  (show StableHlo.after hostOps1 (W2 m ρ c) (Proc.devRef .tc main_arg10) = W2 m ρ c (Proc.devRef .tc main_arg10) by not_written hostOps1).trans (carry2_main_arg10 m ρ c)
theorem carry4_main_arg10 : W4 m ρ c (Proc.devRef .tc main_arg10) = W1 m ρ c (Proc.devRef .tc main_arg10) :=
  (W4_of_ne m ρ c main_arg10 (by decide)).trans (carry3_main_arg10 m ρ c)
theorem carry5_main_arg10 : W5 m ρ c (Proc.devRef .tc main_arg10) = W1 m ρ c (Proc.devRef .tc main_arg10) :=
  (show StableHlo.after hostOps2 (W4 m ρ c) (Proc.devRef .tc main_arg10) = W4 m ρ c (Proc.devRef .tc main_arg10) by not_written hostOps2).trans (carry4_main_arg10 m ρ c)
theorem carry6_main_arg10 : W6 m ρ c (Proc.devRef .tc main_arg10) = W1 m ρ c (Proc.devRef .tc main_arg10) :=
  (W6_of_ne m ρ c main_arg10 (by decide)).trans (carry5_main_arg10 m ρ c)
theorem carry7_main_arg10 : W7 m ρ c (Proc.devRef .tc main_arg10) = W1 m ρ c (Proc.devRef .tc main_arg10) :=
  (show StableHlo.after hostOps3 (W6 m ρ c) (Proc.devRef .tc main_arg10) = W6 m ρ c (Proc.devRef .tc main_arg10) by not_written hostOps3).trans (carry6_main_arg10 m ρ c)
theorem carry8_main_arg10 : W8 m ρ c (Proc.devRef .tc main_arg10) = W1 m ρ c (Proc.devRef .tc main_arg10) :=
  (W8_of_ne m ρ c main_arg10 (by decide)).trans (carry7_main_arg10 m ρ c)
theorem carry9_main_arg10 : W9 m ρ c (Proc.devRef .tc main_arg10) = W1 m ρ c (Proc.devRef .tc main_arg10) :=
  (show StableHlo.after hostOps4 (W8 m ρ c) (Proc.devRef .tc main_arg10) = W8 m ρ c (Proc.devRef .tc main_arg10) by not_written hostOps4).trans (carry8_main_arg10 m ρ c)
theorem carry10_main_arg10 : W10 m ρ c (Proc.devRef .tc main_arg10) = W1 m ρ c (Proc.devRef .tc main_arg10) :=
  (W10_of_ne m ρ c main_arg10 (by decide)).trans (carry9_main_arg10 m ρ c)
theorem carry11_main_arg10 : W11 m ρ c (Proc.devRef .tc main_arg10) = W1 m ρ c (Proc.devRef .tc main_arg10) :=
  (show StableHlo.after hostOps5 (W10 m ρ c) (Proc.devRef .tc main_arg10) = W10 m ρ c (Proc.devRef .tc main_arg10) by not_written hostOps5).trans (carry10_main_arg10 m ρ c)
theorem carry12_main_arg10 : W12 m ρ c (Proc.devRef .tc main_arg10) = W1 m ρ c (Proc.devRef .tc main_arg10) :=
  (W12_of_ne m ρ c main_arg10 (by decide)).trans (carry11_main_arg10 m ρ c)
theorem carry13_main_arg10 : W13 m ρ c (Proc.devRef .tc main_arg10) = W1 m ρ c (Proc.devRef .tc main_arg10) :=
  (show StableHlo.after hostOps6 (W12 m ρ c) (Proc.devRef .tc main_arg10) = W12 m ρ c (Proc.devRef .tc main_arg10) by not_written hostOps6).trans (carry12_main_arg10 m ρ c)
theorem carry14_main_arg10 : W14 m ρ c (Proc.devRef .tc main_arg10) = W1 m ρ c (Proc.devRef .tc main_arg10) :=
  (W14_of_ne m ρ c main_arg10 (by decide)).trans (carry13_main_arg10 m ρ c)
theorem carry15_main_arg10 : W15 m ρ c (Proc.devRef .tc main_arg10) = W1 m ρ c (Proc.devRef .tc main_arg10) :=
  (show StableHlo.after hostOps7 (W14 m ρ c) (Proc.devRef .tc main_arg10) = W14 m ρ c (Proc.devRef .tc main_arg10) by not_written hostOps7).trans (carry14_main_arg10 m ρ c)
theorem carry16_main_arg10 : W16 m ρ c (Proc.devRef .tc main_arg10) = W1 m ρ c (Proc.devRef .tc main_arg10) :=
  (W16_of_ne m ρ c main_arg10 (by decide)).trans (carry15_main_arg10 m ρ c)

theorem carry1_main_arg12 : W1 m ρ c (Proc.devRef .tc main_arg12) = W1 m ρ c (Proc.devRef .tc main_arg12) := rfl
theorem carry2_main_arg12 : W2 m ρ c (Proc.devRef .tc main_arg12) = W1 m ρ c (Proc.devRef .tc main_arg12) :=
  (W2_of_ne m ρ c main_arg12 (by decide)).trans (carry1_main_arg12 m ρ c)
theorem carry3_main_arg12 : W3 m ρ c (Proc.devRef .tc main_arg12) = W1 m ρ c (Proc.devRef .tc main_arg12) :=
  (show StableHlo.after hostOps1 (W2 m ρ c) (Proc.devRef .tc main_arg12) = W2 m ρ c (Proc.devRef .tc main_arg12) by not_written hostOps1).trans (carry2_main_arg12 m ρ c)
theorem carry4_main_arg12 : W4 m ρ c (Proc.devRef .tc main_arg12) = W1 m ρ c (Proc.devRef .tc main_arg12) :=
  (W4_of_ne m ρ c main_arg12 (by decide)).trans (carry3_main_arg12 m ρ c)
theorem carry5_main_arg12 : W5 m ρ c (Proc.devRef .tc main_arg12) = W1 m ρ c (Proc.devRef .tc main_arg12) :=
  (show StableHlo.after hostOps2 (W4 m ρ c) (Proc.devRef .tc main_arg12) = W4 m ρ c (Proc.devRef .tc main_arg12) by not_written hostOps2).trans (carry4_main_arg12 m ρ c)
theorem carry6_main_arg12 : W6 m ρ c (Proc.devRef .tc main_arg12) = W1 m ρ c (Proc.devRef .tc main_arg12) :=
  (W6_of_ne m ρ c main_arg12 (by decide)).trans (carry5_main_arg12 m ρ c)
theorem carry7_main_arg12 : W7 m ρ c (Proc.devRef .tc main_arg12) = W1 m ρ c (Proc.devRef .tc main_arg12) :=
  (show StableHlo.after hostOps3 (W6 m ρ c) (Proc.devRef .tc main_arg12) = W6 m ρ c (Proc.devRef .tc main_arg12) by not_written hostOps3).trans (carry6_main_arg12 m ρ c)
theorem carry8_main_arg12 : W8 m ρ c (Proc.devRef .tc main_arg12) = W1 m ρ c (Proc.devRef .tc main_arg12) :=
  (W8_of_ne m ρ c main_arg12 (by decide)).trans (carry7_main_arg12 m ρ c)
theorem carry9_main_arg12 : W9 m ρ c (Proc.devRef .tc main_arg12) = W1 m ρ c (Proc.devRef .tc main_arg12) :=
  (show StableHlo.after hostOps4 (W8 m ρ c) (Proc.devRef .tc main_arg12) = W8 m ρ c (Proc.devRef .tc main_arg12) by not_written hostOps4).trans (carry8_main_arg12 m ρ c)
theorem carry10_main_arg12 : W10 m ρ c (Proc.devRef .tc main_arg12) = W1 m ρ c (Proc.devRef .tc main_arg12) :=
  (W10_of_ne m ρ c main_arg12 (by decide)).trans (carry9_main_arg12 m ρ c)
theorem carry11_main_arg12 : W11 m ρ c (Proc.devRef .tc main_arg12) = W1 m ρ c (Proc.devRef .tc main_arg12) :=
  (show StableHlo.after hostOps5 (W10 m ρ c) (Proc.devRef .tc main_arg12) = W10 m ρ c (Proc.devRef .tc main_arg12) by not_written hostOps5).trans (carry10_main_arg12 m ρ c)
theorem carry12_main_arg12 : W12 m ρ c (Proc.devRef .tc main_arg12) = W1 m ρ c (Proc.devRef .tc main_arg12) :=
  (W12_of_ne m ρ c main_arg12 (by decide)).trans (carry11_main_arg12 m ρ c)
theorem carry13_main_arg12 : W13 m ρ c (Proc.devRef .tc main_arg12) = W1 m ρ c (Proc.devRef .tc main_arg12) :=
  (show StableHlo.after hostOps6 (W12 m ρ c) (Proc.devRef .tc main_arg12) = W12 m ρ c (Proc.devRef .tc main_arg12) by not_written hostOps6).trans (carry12_main_arg12 m ρ c)
theorem carry14_main_arg12 : W14 m ρ c (Proc.devRef .tc main_arg12) = W1 m ρ c (Proc.devRef .tc main_arg12) :=
  (W14_of_ne m ρ c main_arg12 (by decide)).trans (carry13_main_arg12 m ρ c)
theorem carry15_main_arg12 : W15 m ρ c (Proc.devRef .tc main_arg12) = W1 m ρ c (Proc.devRef .tc main_arg12) :=
  (show StableHlo.after hostOps7 (W14 m ρ c) (Proc.devRef .tc main_arg12) = W14 m ρ c (Proc.devRef .tc main_arg12) by not_written hostOps7).trans (carry14_main_arg12 m ρ c)
theorem carry16_main_arg12 : W16 m ρ c (Proc.devRef .tc main_arg12) = W1 m ρ c (Proc.devRef .tc main_arg12) :=
  (W16_of_ne m ρ c main_arg12 (by decide)).trans (carry15_main_arg12 m ρ c)

theorem carry1_main_arg13 : W1 m ρ c (Proc.devRef .tc main_arg13) = W1 m ρ c (Proc.devRef .tc main_arg13) := rfl
theorem carry2_main_arg13 : W2 m ρ c (Proc.devRef .tc main_arg13) = W1 m ρ c (Proc.devRef .tc main_arg13) :=
  (W2_of_ne m ρ c main_arg13 (by decide)).trans (carry1_main_arg13 m ρ c)
theorem carry3_main_arg13 : W3 m ρ c (Proc.devRef .tc main_arg13) = W1 m ρ c (Proc.devRef .tc main_arg13) :=
  (show StableHlo.after hostOps1 (W2 m ρ c) (Proc.devRef .tc main_arg13) = W2 m ρ c (Proc.devRef .tc main_arg13) by not_written hostOps1).trans (carry2_main_arg13 m ρ c)
theorem carry4_main_arg13 : W4 m ρ c (Proc.devRef .tc main_arg13) = W1 m ρ c (Proc.devRef .tc main_arg13) :=
  (W4_of_ne m ρ c main_arg13 (by decide)).trans (carry3_main_arg13 m ρ c)
theorem carry5_main_arg13 : W5 m ρ c (Proc.devRef .tc main_arg13) = W1 m ρ c (Proc.devRef .tc main_arg13) :=
  (show StableHlo.after hostOps2 (W4 m ρ c) (Proc.devRef .tc main_arg13) = W4 m ρ c (Proc.devRef .tc main_arg13) by not_written hostOps2).trans (carry4_main_arg13 m ρ c)
theorem carry6_main_arg13 : W6 m ρ c (Proc.devRef .tc main_arg13) = W1 m ρ c (Proc.devRef .tc main_arg13) :=
  (W6_of_ne m ρ c main_arg13 (by decide)).trans (carry5_main_arg13 m ρ c)
theorem carry7_main_arg13 : W7 m ρ c (Proc.devRef .tc main_arg13) = W1 m ρ c (Proc.devRef .tc main_arg13) :=
  (show StableHlo.after hostOps3 (W6 m ρ c) (Proc.devRef .tc main_arg13) = W6 m ρ c (Proc.devRef .tc main_arg13) by not_written hostOps3).trans (carry6_main_arg13 m ρ c)
theorem carry8_main_arg13 : W8 m ρ c (Proc.devRef .tc main_arg13) = W1 m ρ c (Proc.devRef .tc main_arg13) :=
  (W8_of_ne m ρ c main_arg13 (by decide)).trans (carry7_main_arg13 m ρ c)
theorem carry9_main_arg13 : W9 m ρ c (Proc.devRef .tc main_arg13) = W1 m ρ c (Proc.devRef .tc main_arg13) :=
  (show StableHlo.after hostOps4 (W8 m ρ c) (Proc.devRef .tc main_arg13) = W8 m ρ c (Proc.devRef .tc main_arg13) by not_written hostOps4).trans (carry8_main_arg13 m ρ c)
theorem carry10_main_arg13 : W10 m ρ c (Proc.devRef .tc main_arg13) = W1 m ρ c (Proc.devRef .tc main_arg13) :=
  (W10_of_ne m ρ c main_arg13 (by decide)).trans (carry9_main_arg13 m ρ c)
theorem carry11_main_arg13 : W11 m ρ c (Proc.devRef .tc main_arg13) = W1 m ρ c (Proc.devRef .tc main_arg13) :=
  (show StableHlo.after hostOps5 (W10 m ρ c) (Proc.devRef .tc main_arg13) = W10 m ρ c (Proc.devRef .tc main_arg13) by not_written hostOps5).trans (carry10_main_arg13 m ρ c)
theorem carry12_main_arg13 : W12 m ρ c (Proc.devRef .tc main_arg13) = W1 m ρ c (Proc.devRef .tc main_arg13) :=
  (W12_of_ne m ρ c main_arg13 (by decide)).trans (carry11_main_arg13 m ρ c)
theorem carry13_main_arg13 : W13 m ρ c (Proc.devRef .tc main_arg13) = W1 m ρ c (Proc.devRef .tc main_arg13) :=
  (show StableHlo.after hostOps6 (W12 m ρ c) (Proc.devRef .tc main_arg13) = W12 m ρ c (Proc.devRef .tc main_arg13) by not_written hostOps6).trans (carry12_main_arg13 m ρ c)
theorem carry14_main_arg13 : W14 m ρ c (Proc.devRef .tc main_arg13) = W1 m ρ c (Proc.devRef .tc main_arg13) :=
  (W14_of_ne m ρ c main_arg13 (by decide)).trans (carry13_main_arg13 m ρ c)
theorem carry15_main_arg13 : W15 m ρ c (Proc.devRef .tc main_arg13) = W1 m ρ c (Proc.devRef .tc main_arg13) :=
  (show StableHlo.after hostOps7 (W14 m ρ c) (Proc.devRef .tc main_arg13) = W14 m ρ c (Proc.devRef .tc main_arg13) by not_written hostOps7).trans (carry14_main_arg13 m ρ c)
theorem carry16_main_arg13 : W16 m ρ c (Proc.devRef .tc main_arg13) = W1 m ρ c (Proc.devRef .tc main_arg13) :=
  (W16_of_ne m ρ c main_arg13 (by decide)).trans (carry15_main_arg13 m ρ c)

theorem carry1_main_v7 : W1 m ρ c (Proc.devRef .tc main_v7) = W1 m ρ c (Proc.devRef .tc main_v7) := rfl
theorem carry2_main_v7 : W2 m ρ c (Proc.devRef .tc main_v7) = W1 m ρ c (Proc.devRef .tc main_v7) :=
  ((W2_arr m ρ c 2).trans (((dat0 (V1 m ρ) c).arrAt_in 2 rfl _).trans (A_eq0 (V1 m ρ) c 2))).trans (carry1_main_v7 m ρ c)
theorem carry3_main_v7 : W3 m ρ c (Proc.devRef .tc main_v7) = W1 m ρ c (Proc.devRef .tc main_v7) :=
  (show StableHlo.after hostOps1 (W2 m ρ c) (Proc.devRef .tc main_v7) = W2 m ρ c (Proc.devRef .tc main_v7) by not_written hostOps1).trans (carry2_main_v7 m ρ c)
theorem carry4_main_v7 : W4 m ρ c (Proc.devRef .tc main_v7) = W1 m ρ c (Proc.devRef .tc main_v7) :=
  ((W4_arr m ρ c 2).trans (((dat1 (V3 m ρ) c).arrAt_in 2 rfl _).trans (A_eq1 (V3 m ρ) c 2))).trans (carry3_main_v7 m ρ c)
theorem carry5_main_v7 : W5 m ρ c (Proc.devRef .tc main_v7) = W1 m ρ c (Proc.devRef .tc main_v7) :=
  (show StableHlo.after hostOps2 (W4 m ρ c) (Proc.devRef .tc main_v7) = W4 m ρ c (Proc.devRef .tc main_v7) by not_written hostOps2).trans (carry4_main_v7 m ρ c)
theorem carry6_main_v7 : W6 m ρ c (Proc.devRef .tc main_v7) = W1 m ρ c (Proc.devRef .tc main_v7) :=
  ((W6_arr m ρ c 2).trans (((dat2 (V5 m ρ) c).arrAt_in 2 rfl _).trans (A_eq2 (V5 m ρ) c 2))).trans (carry5_main_v7 m ρ c)
theorem carry7_main_v7 : W7 m ρ c (Proc.devRef .tc main_v7) = W1 m ρ c (Proc.devRef .tc main_v7) :=
  (show StableHlo.after hostOps3 (W6 m ρ c) (Proc.devRef .tc main_v7) = W6 m ρ c (Proc.devRef .tc main_v7) by not_written hostOps3).trans (carry6_main_v7 m ρ c)
theorem carry8_main_v7 : W8 m ρ c (Proc.devRef .tc main_v7) = W1 m ρ c (Proc.devRef .tc main_v7) :=
  ((W8_arr m ρ c 2).trans (((dat3 (V7 m ρ) c).arrAt_in 2 rfl _).trans (A_eq3 (V7 m ρ) c 2))).trans (carry7_main_v7 m ρ c)
theorem carry9_main_v7 : W9 m ρ c (Proc.devRef .tc main_v7) = W1 m ρ c (Proc.devRef .tc main_v7) :=
  (show StableHlo.after hostOps4 (W8 m ρ c) (Proc.devRef .tc main_v7) = W8 m ρ c (Proc.devRef .tc main_v7) by not_written hostOps4).trans (carry8_main_v7 m ρ c)
theorem carry10_main_v7 : W10 m ρ c (Proc.devRef .tc main_v7) = W1 m ρ c (Proc.devRef .tc main_v7) :=
  ((W10_arr m ρ c 2).trans (((dat4 (V9 m ρ) c).arrAt_in 2 rfl _).trans (A_eq4 (V9 m ρ) c 2))).trans (carry9_main_v7 m ρ c)
theorem carry11_main_v7 : W11 m ρ c (Proc.devRef .tc main_v7) = W1 m ρ c (Proc.devRef .tc main_v7) :=
  (show StableHlo.after hostOps5 (W10 m ρ c) (Proc.devRef .tc main_v7) = W10 m ρ c (Proc.devRef .tc main_v7) by not_written hostOps5).trans (carry10_main_v7 m ρ c)
theorem carry12_main_v7 : W12 m ρ c (Proc.devRef .tc main_v7) = W1 m ρ c (Proc.devRef .tc main_v7) :=
  ((W12_arr m ρ c 2).trans (((dat5 (V11 m ρ) c).arrAt_in 2 rfl _).trans (A_eq5 (V11 m ρ) c 2))).trans (carry11_main_v7 m ρ c)
theorem carry13_main_v7 : W13 m ρ c (Proc.devRef .tc main_v7) = W1 m ρ c (Proc.devRef .tc main_v7) :=
  (show StableHlo.after hostOps6 (W12 m ρ c) (Proc.devRef .tc main_v7) = W12 m ρ c (Proc.devRef .tc main_v7) by not_written hostOps6).trans (carry12_main_v7 m ρ c)
theorem carry14_main_v7 : W14 m ρ c (Proc.devRef .tc main_v7) = W1 m ρ c (Proc.devRef .tc main_v7) :=
  ((W14_arr m ρ c 2).trans (((dat6 (V13 m ρ) c).arrAt_in 2 rfl _).trans (A_eq6 (V13 m ρ) c 2))).trans (carry13_main_v7 m ρ c)
theorem carry15_main_v7 : W15 m ρ c (Proc.devRef .tc main_v7) = W1 m ρ c (Proc.devRef .tc main_v7) :=
  (show StableHlo.after hostOps7 (W14 m ρ c) (Proc.devRef .tc main_v7) = W14 m ρ c (Proc.devRef .tc main_v7) by not_written hostOps7).trans (carry14_main_v7 m ρ c)
theorem carry16_main_v7 : W16 m ρ c (Proc.devRef .tc main_v7) = W1 m ρ c (Proc.devRef .tc main_v7) :=
  ((W16_arr m ρ c 2).trans (((dat7 (V15 m ρ) c).arrAt_in 2 rfl _).trans (A_eq7 (V15 m ρ) c 2))).trans (carry15_main_v7 m ρ c)

theorem carry1_main_v9 : W1 m ρ c (Proc.devRef .tc main_v9) = W1 m ρ c (Proc.devRef .tc main_v9) := rfl
theorem carry2_main_v9 : W2 m ρ c (Proc.devRef .tc main_v9) = W1 m ρ c (Proc.devRef .tc main_v9) :=
  (W2_of_ne m ρ c main_v9 (by decide)).trans (carry1_main_v9 m ρ c)
theorem carry3_main_v9 : W3 m ρ c (Proc.devRef .tc main_v9) = W1 m ρ c (Proc.devRef .tc main_v9) :=
  (show StableHlo.after hostOps1 (W2 m ρ c) (Proc.devRef .tc main_v9) = W2 m ρ c (Proc.devRef .tc main_v9) by not_written hostOps1).trans (carry2_main_v9 m ρ c)
theorem carry4_main_v9 : W4 m ρ c (Proc.devRef .tc main_v9) = W1 m ρ c (Proc.devRef .tc main_v9) :=
  (W4_of_ne m ρ c main_v9 (by decide)).trans (carry3_main_v9 m ρ c)
theorem carry5_main_v9 : W5 m ρ c (Proc.devRef .tc main_v9) = W1 m ρ c (Proc.devRef .tc main_v9) :=
  (show StableHlo.after hostOps2 (W4 m ρ c) (Proc.devRef .tc main_v9) = W4 m ρ c (Proc.devRef .tc main_v9) by not_written hostOps2).trans (carry4_main_v9 m ρ c)
theorem carry6_main_v9 : W6 m ρ c (Proc.devRef .tc main_v9) = W1 m ρ c (Proc.devRef .tc main_v9) :=
  (W6_of_ne m ρ c main_v9 (by decide)).trans (carry5_main_v9 m ρ c)
theorem carry7_main_v9 : W7 m ρ c (Proc.devRef .tc main_v9) = W1 m ρ c (Proc.devRef .tc main_v9) :=
  (show StableHlo.after hostOps3 (W6 m ρ c) (Proc.devRef .tc main_v9) = W6 m ρ c (Proc.devRef .tc main_v9) by not_written hostOps3).trans (carry6_main_v9 m ρ c)
theorem carry8_main_v9 : W8 m ρ c (Proc.devRef .tc main_v9) = W1 m ρ c (Proc.devRef .tc main_v9) :=
  (W8_of_ne m ρ c main_v9 (by decide)).trans (carry7_main_v9 m ρ c)
theorem carry9_main_v9 : W9 m ρ c (Proc.devRef .tc main_v9) = W1 m ρ c (Proc.devRef .tc main_v9) :=
  (show StableHlo.after hostOps4 (W8 m ρ c) (Proc.devRef .tc main_v9) = W8 m ρ c (Proc.devRef .tc main_v9) by not_written hostOps4).trans (carry8_main_v9 m ρ c)
theorem carry10_main_v9 : W10 m ρ c (Proc.devRef .tc main_v9) = W1 m ρ c (Proc.devRef .tc main_v9) :=
  (W10_of_ne m ρ c main_v9 (by decide)).trans (carry9_main_v9 m ρ c)
theorem carry11_main_v9 : W11 m ρ c (Proc.devRef .tc main_v9) = W1 m ρ c (Proc.devRef .tc main_v9) :=
  (show StableHlo.after hostOps5 (W10 m ρ c) (Proc.devRef .tc main_v9) = W10 m ρ c (Proc.devRef .tc main_v9) by not_written hostOps5).trans (carry10_main_v9 m ρ c)
theorem carry12_main_v9 : W12 m ρ c (Proc.devRef .tc main_v9) = W1 m ρ c (Proc.devRef .tc main_v9) :=
  (W12_of_ne m ρ c main_v9 (by decide)).trans (carry11_main_v9 m ρ c)
theorem carry13_main_v9 : W13 m ρ c (Proc.devRef .tc main_v9) = W1 m ρ c (Proc.devRef .tc main_v9) :=
  (show StableHlo.after hostOps6 (W12 m ρ c) (Proc.devRef .tc main_v9) = W12 m ρ c (Proc.devRef .tc main_v9) by not_written hostOps6).trans (carry12_main_v9 m ρ c)
theorem carry14_main_v9 : W14 m ρ c (Proc.devRef .tc main_v9) = W1 m ρ c (Proc.devRef .tc main_v9) :=
  (W14_of_ne m ρ c main_v9 (by decide)).trans (carry13_main_v9 m ρ c)
theorem carry15_main_v9 : W15 m ρ c (Proc.devRef .tc main_v9) = W1 m ρ c (Proc.devRef .tc main_v9) :=
  (show StableHlo.after hostOps7 (W14 m ρ c) (Proc.devRef .tc main_v9) = W14 m ρ c (Proc.devRef .tc main_v9) by not_written hostOps7).trans (carry14_main_v9 m ρ c)
theorem carry16_main_v9 : W16 m ρ c (Proc.devRef .tc main_v9) = W1 m ρ c (Proc.devRef .tc main_v9) :=
  (W16_of_ne m ρ c main_v9 (by decide)).trans (carry15_main_v9 m ρ c)

theorem carry1_main_v11 : W1 m ρ c (Proc.devRef .tc main_v11) = W1 m ρ c (Proc.devRef .tc main_v11) := rfl
theorem carry2_main_v11 : W2 m ρ c (Proc.devRef .tc main_v11) = W1 m ρ c (Proc.devRef .tc main_v11) :=
  (W2_of_ne m ρ c main_v11 (by decide)).trans (carry1_main_v11 m ρ c)
theorem carry3_main_v11 : W3 m ρ c (Proc.devRef .tc main_v11) = W1 m ρ c (Proc.devRef .tc main_v11) :=
  (show StableHlo.after hostOps1 (W2 m ρ c) (Proc.devRef .tc main_v11) = W2 m ρ c (Proc.devRef .tc main_v11) by not_written hostOps1).trans (carry2_main_v11 m ρ c)
theorem carry4_main_v11 : W4 m ρ c (Proc.devRef .tc main_v11) = W1 m ρ c (Proc.devRef .tc main_v11) :=
  (W4_of_ne m ρ c main_v11 (by decide)).trans (carry3_main_v11 m ρ c)
theorem carry5_main_v11 : W5 m ρ c (Proc.devRef .tc main_v11) = W1 m ρ c (Proc.devRef .tc main_v11) :=
  (show StableHlo.after hostOps2 (W4 m ρ c) (Proc.devRef .tc main_v11) = W4 m ρ c (Proc.devRef .tc main_v11) by not_written hostOps2).trans (carry4_main_v11 m ρ c)
theorem carry6_main_v11 : W6 m ρ c (Proc.devRef .tc main_v11) = W1 m ρ c (Proc.devRef .tc main_v11) :=
  (W6_of_ne m ρ c main_v11 (by decide)).trans (carry5_main_v11 m ρ c)
theorem carry7_main_v11 : W7 m ρ c (Proc.devRef .tc main_v11) = W1 m ρ c (Proc.devRef .tc main_v11) :=
  (show StableHlo.after hostOps3 (W6 m ρ c) (Proc.devRef .tc main_v11) = W6 m ρ c (Proc.devRef .tc main_v11) by not_written hostOps3).trans (carry6_main_v11 m ρ c)
theorem carry8_main_v11 : W8 m ρ c (Proc.devRef .tc main_v11) = W1 m ρ c (Proc.devRef .tc main_v11) :=
  (W8_of_ne m ρ c main_v11 (by decide)).trans (carry7_main_v11 m ρ c)
theorem carry9_main_v11 : W9 m ρ c (Proc.devRef .tc main_v11) = W1 m ρ c (Proc.devRef .tc main_v11) :=
  (show StableHlo.after hostOps4 (W8 m ρ c) (Proc.devRef .tc main_v11) = W8 m ρ c (Proc.devRef .tc main_v11) by not_written hostOps4).trans (carry8_main_v11 m ρ c)
theorem carry10_main_v11 : W10 m ρ c (Proc.devRef .tc main_v11) = W1 m ρ c (Proc.devRef .tc main_v11) :=
  (W10_of_ne m ρ c main_v11 (by decide)).trans (carry9_main_v11 m ρ c)
theorem carry11_main_v11 : W11 m ρ c (Proc.devRef .tc main_v11) = W1 m ρ c (Proc.devRef .tc main_v11) :=
  (show StableHlo.after hostOps5 (W10 m ρ c) (Proc.devRef .tc main_v11) = W10 m ρ c (Proc.devRef .tc main_v11) by not_written hostOps5).trans (carry10_main_v11 m ρ c)
theorem carry12_main_v11 : W12 m ρ c (Proc.devRef .tc main_v11) = W1 m ρ c (Proc.devRef .tc main_v11) :=
  (W12_of_ne m ρ c main_v11 (by decide)).trans (carry11_main_v11 m ρ c)
theorem carry13_main_v11 : W13 m ρ c (Proc.devRef .tc main_v11) = W1 m ρ c (Proc.devRef .tc main_v11) :=
  (show StableHlo.after hostOps6 (W12 m ρ c) (Proc.devRef .tc main_v11) = W12 m ρ c (Proc.devRef .tc main_v11) by not_written hostOps6).trans (carry12_main_v11 m ρ c)
theorem carry14_main_v11 : W14 m ρ c (Proc.devRef .tc main_v11) = W1 m ρ c (Proc.devRef .tc main_v11) :=
  (W14_of_ne m ρ c main_v11 (by decide)).trans (carry13_main_v11 m ρ c)
theorem carry15_main_v11 : W15 m ρ c (Proc.devRef .tc main_v11) = W1 m ρ c (Proc.devRef .tc main_v11) :=
  (show StableHlo.after hostOps7 (W14 m ρ c) (Proc.devRef .tc main_v11) = W14 m ρ c (Proc.devRef .tc main_v11) by not_written hostOps7).trans (carry14_main_v11 m ρ c)
theorem carry16_main_v11 : W16 m ρ c (Proc.devRef .tc main_v11) = W1 m ρ c (Proc.devRef .tc main_v11) :=
  (W16_of_ne m ρ c main_v11 (by decide)).trans (carry15_main_v11 m ρ c)

theorem carry1_main_v13 : W1 m ρ c (Proc.devRef .tc main_v13) = W1 m ρ c (Proc.devRef .tc main_v13) := rfl
theorem carry2_main_v13 : W2 m ρ c (Proc.devRef .tc main_v13) = W1 m ρ c (Proc.devRef .tc main_v13) :=
  (W2_of_ne m ρ c main_v13 (by decide)).trans (carry1_main_v13 m ρ c)
theorem carry3_main_v13 : W3 m ρ c (Proc.devRef .tc main_v13) = W1 m ρ c (Proc.devRef .tc main_v13) :=
  (show StableHlo.after hostOps1 (W2 m ρ c) (Proc.devRef .tc main_v13) = W2 m ρ c (Proc.devRef .tc main_v13) by not_written hostOps1).trans (carry2_main_v13 m ρ c)
theorem carry4_main_v13 : W4 m ρ c (Proc.devRef .tc main_v13) = W1 m ρ c (Proc.devRef .tc main_v13) :=
  (W4_of_ne m ρ c main_v13 (by decide)).trans (carry3_main_v13 m ρ c)
theorem carry5_main_v13 : W5 m ρ c (Proc.devRef .tc main_v13) = W1 m ρ c (Proc.devRef .tc main_v13) :=
  (show StableHlo.after hostOps2 (W4 m ρ c) (Proc.devRef .tc main_v13) = W4 m ρ c (Proc.devRef .tc main_v13) by not_written hostOps2).trans (carry4_main_v13 m ρ c)
theorem carry6_main_v13 : W6 m ρ c (Proc.devRef .tc main_v13) = W1 m ρ c (Proc.devRef .tc main_v13) :=
  (W6_of_ne m ρ c main_v13 (by decide)).trans (carry5_main_v13 m ρ c)
theorem carry7_main_v13 : W7 m ρ c (Proc.devRef .tc main_v13) = W1 m ρ c (Proc.devRef .tc main_v13) :=
  (show StableHlo.after hostOps3 (W6 m ρ c) (Proc.devRef .tc main_v13) = W6 m ρ c (Proc.devRef .tc main_v13) by not_written hostOps3).trans (carry6_main_v13 m ρ c)
theorem carry8_main_v13 : W8 m ρ c (Proc.devRef .tc main_v13) = W1 m ρ c (Proc.devRef .tc main_v13) :=
  (W8_of_ne m ρ c main_v13 (by decide)).trans (carry7_main_v13 m ρ c)
theorem carry9_main_v13 : W9 m ρ c (Proc.devRef .tc main_v13) = W1 m ρ c (Proc.devRef .tc main_v13) :=
  (show StableHlo.after hostOps4 (W8 m ρ c) (Proc.devRef .tc main_v13) = W8 m ρ c (Proc.devRef .tc main_v13) by not_written hostOps4).trans (carry8_main_v13 m ρ c)
theorem carry10_main_v13 : W10 m ρ c (Proc.devRef .tc main_v13) = W1 m ρ c (Proc.devRef .tc main_v13) :=
  (W10_of_ne m ρ c main_v13 (by decide)).trans (carry9_main_v13 m ρ c)
theorem carry11_main_v13 : W11 m ρ c (Proc.devRef .tc main_v13) = W1 m ρ c (Proc.devRef .tc main_v13) :=
  (show StableHlo.after hostOps5 (W10 m ρ c) (Proc.devRef .tc main_v13) = W10 m ρ c (Proc.devRef .tc main_v13) by not_written hostOps5).trans (carry10_main_v13 m ρ c)
theorem carry12_main_v13 : W12 m ρ c (Proc.devRef .tc main_v13) = W1 m ρ c (Proc.devRef .tc main_v13) :=
  (W12_of_ne m ρ c main_v13 (by decide)).trans (carry11_main_v13 m ρ c)
theorem carry13_main_v13 : W13 m ρ c (Proc.devRef .tc main_v13) = W1 m ρ c (Proc.devRef .tc main_v13) :=
  (show StableHlo.after hostOps6 (W12 m ρ c) (Proc.devRef .tc main_v13) = W12 m ρ c (Proc.devRef .tc main_v13) by not_written hostOps6).trans (carry12_main_v13 m ρ c)
theorem carry14_main_v13 : W14 m ρ c (Proc.devRef .tc main_v13) = W1 m ρ c (Proc.devRef .tc main_v13) :=
  (W14_of_ne m ρ c main_v13 (by decide)).trans (carry13_main_v13 m ρ c)
theorem carry15_main_v13 : W15 m ρ c (Proc.devRef .tc main_v13) = W1 m ρ c (Proc.devRef .tc main_v13) :=
  (show StableHlo.after hostOps7 (W14 m ρ c) (Proc.devRef .tc main_v13) = W14 m ρ c (Proc.devRef .tc main_v13) by not_written hostOps7).trans (carry14_main_v13 m ρ c)
theorem carry16_main_v13 : W16 m ρ c (Proc.devRef .tc main_v13) = W1 m ρ c (Proc.devRef .tc main_v13) :=
  (W16_of_ne m ρ c main_v13 (by decide)).trans (carry15_main_v13 m ρ c)

theorem carry1_main_v14 : W1 m ρ c (Proc.devRef .tc main_v14) = W1 m ρ c (Proc.devRef .tc main_v14) := rfl
theorem carry2_main_v14 : W2 m ρ c (Proc.devRef .tc main_v14) = W1 m ρ c (Proc.devRef .tc main_v14) :=
  (W2_of_ne m ρ c main_v14 (by decide)).trans (carry1_main_v14 m ρ c)
theorem carry3_main_v14 : W3 m ρ c (Proc.devRef .tc main_v14) = W1 m ρ c (Proc.devRef .tc main_v14) :=
  (show StableHlo.after hostOps1 (W2 m ρ c) (Proc.devRef .tc main_v14) = W2 m ρ c (Proc.devRef .tc main_v14) by not_written hostOps1).trans (carry2_main_v14 m ρ c)
theorem carry4_main_v14 : W4 m ρ c (Proc.devRef .tc main_v14) = W1 m ρ c (Proc.devRef .tc main_v14) :=
  (W4_of_ne m ρ c main_v14 (by decide)).trans (carry3_main_v14 m ρ c)
theorem carry5_main_v14 : W5 m ρ c (Proc.devRef .tc main_v14) = W1 m ρ c (Proc.devRef .tc main_v14) :=
  (show StableHlo.after hostOps2 (W4 m ρ c) (Proc.devRef .tc main_v14) = W4 m ρ c (Proc.devRef .tc main_v14) by not_written hostOps2).trans (carry4_main_v14 m ρ c)
theorem carry6_main_v14 : W6 m ρ c (Proc.devRef .tc main_v14) = W1 m ρ c (Proc.devRef .tc main_v14) :=
  (W6_of_ne m ρ c main_v14 (by decide)).trans (carry5_main_v14 m ρ c)
theorem carry7_main_v14 : W7 m ρ c (Proc.devRef .tc main_v14) = W1 m ρ c (Proc.devRef .tc main_v14) :=
  (show StableHlo.after hostOps3 (W6 m ρ c) (Proc.devRef .tc main_v14) = W6 m ρ c (Proc.devRef .tc main_v14) by not_written hostOps3).trans (carry6_main_v14 m ρ c)
theorem carry8_main_v14 : W8 m ρ c (Proc.devRef .tc main_v14) = W1 m ρ c (Proc.devRef .tc main_v14) :=
  (W8_of_ne m ρ c main_v14 (by decide)).trans (carry7_main_v14 m ρ c)
theorem carry9_main_v14 : W9 m ρ c (Proc.devRef .tc main_v14) = W1 m ρ c (Proc.devRef .tc main_v14) :=
  (show StableHlo.after hostOps4 (W8 m ρ c) (Proc.devRef .tc main_v14) = W8 m ρ c (Proc.devRef .tc main_v14) by not_written hostOps4).trans (carry8_main_v14 m ρ c)
theorem carry10_main_v14 : W10 m ρ c (Proc.devRef .tc main_v14) = W1 m ρ c (Proc.devRef .tc main_v14) :=
  (W10_of_ne m ρ c main_v14 (by decide)).trans (carry9_main_v14 m ρ c)
theorem carry11_main_v14 : W11 m ρ c (Proc.devRef .tc main_v14) = W1 m ρ c (Proc.devRef .tc main_v14) :=
  (show StableHlo.after hostOps5 (W10 m ρ c) (Proc.devRef .tc main_v14) = W10 m ρ c (Proc.devRef .tc main_v14) by not_written hostOps5).trans (carry10_main_v14 m ρ c)
theorem carry12_main_v14 : W12 m ρ c (Proc.devRef .tc main_v14) = W1 m ρ c (Proc.devRef .tc main_v14) :=
  (W12_of_ne m ρ c main_v14 (by decide)).trans (carry11_main_v14 m ρ c)
theorem carry13_main_v14 : W13 m ρ c (Proc.devRef .tc main_v14) = W1 m ρ c (Proc.devRef .tc main_v14) :=
  (show StableHlo.after hostOps6 (W12 m ρ c) (Proc.devRef .tc main_v14) = W12 m ρ c (Proc.devRef .tc main_v14) by not_written hostOps6).trans (carry12_main_v14 m ρ c)
theorem carry14_main_v14 : W14 m ρ c (Proc.devRef .tc main_v14) = W1 m ρ c (Proc.devRef .tc main_v14) :=
  (W14_of_ne m ρ c main_v14 (by decide)).trans (carry13_main_v14 m ρ c)
theorem carry15_main_v14 : W15 m ρ c (Proc.devRef .tc main_v14) = W1 m ρ c (Proc.devRef .tc main_v14) :=
  (show StableHlo.after hostOps7 (W14 m ρ c) (Proc.devRef .tc main_v14) = W14 m ρ c (Proc.devRef .tc main_v14) by not_written hostOps7).trans (carry14_main_v14 m ρ c)
theorem carry16_main_v14 : W16 m ρ c (Proc.devRef .tc main_v14) = W1 m ρ c (Proc.devRef .tc main_v14) :=
  (W16_of_ne m ρ c main_v14 (by decide)).trans (carry15_main_v14 m ρ c)

theorem carry1_main_v15 : W1 m ρ c (Proc.devRef .tc main_v15) = W1 m ρ c (Proc.devRef .tc main_v15) := rfl
theorem carry2_main_v15 : W2 m ρ c (Proc.devRef .tc main_v15) = W1 m ρ c (Proc.devRef .tc main_v15) :=
  (W2_of_ne m ρ c main_v15 (by decide)).trans (carry1_main_v15 m ρ c)
theorem carry3_main_v15 : W3 m ρ c (Proc.devRef .tc main_v15) = W1 m ρ c (Proc.devRef .tc main_v15) :=
  (show StableHlo.after hostOps1 (W2 m ρ c) (Proc.devRef .tc main_v15) = W2 m ρ c (Proc.devRef .tc main_v15) by not_written hostOps1).trans (carry2_main_v15 m ρ c)
theorem carry4_main_v15 : W4 m ρ c (Proc.devRef .tc main_v15) = W1 m ρ c (Proc.devRef .tc main_v15) :=
  (W4_of_ne m ρ c main_v15 (by decide)).trans (carry3_main_v15 m ρ c)
theorem carry5_main_v15 : W5 m ρ c (Proc.devRef .tc main_v15) = W1 m ρ c (Proc.devRef .tc main_v15) :=
  (show StableHlo.after hostOps2 (W4 m ρ c) (Proc.devRef .tc main_v15) = W4 m ρ c (Proc.devRef .tc main_v15) by not_written hostOps2).trans (carry4_main_v15 m ρ c)
theorem carry6_main_v15 : W6 m ρ c (Proc.devRef .tc main_v15) = W1 m ρ c (Proc.devRef .tc main_v15) :=
  (W6_of_ne m ρ c main_v15 (by decide)).trans (carry5_main_v15 m ρ c)
theorem carry7_main_v15 : W7 m ρ c (Proc.devRef .tc main_v15) = W1 m ρ c (Proc.devRef .tc main_v15) :=
  (show StableHlo.after hostOps3 (W6 m ρ c) (Proc.devRef .tc main_v15) = W6 m ρ c (Proc.devRef .tc main_v15) by not_written hostOps3).trans (carry6_main_v15 m ρ c)
theorem carry8_main_v15 : W8 m ρ c (Proc.devRef .tc main_v15) = W1 m ρ c (Proc.devRef .tc main_v15) :=
  (W8_of_ne m ρ c main_v15 (by decide)).trans (carry7_main_v15 m ρ c)
theorem carry9_main_v15 : W9 m ρ c (Proc.devRef .tc main_v15) = W1 m ρ c (Proc.devRef .tc main_v15) :=
  (show StableHlo.after hostOps4 (W8 m ρ c) (Proc.devRef .tc main_v15) = W8 m ρ c (Proc.devRef .tc main_v15) by not_written hostOps4).trans (carry8_main_v15 m ρ c)
theorem carry10_main_v15 : W10 m ρ c (Proc.devRef .tc main_v15) = W1 m ρ c (Proc.devRef .tc main_v15) :=
  (W10_of_ne m ρ c main_v15 (by decide)).trans (carry9_main_v15 m ρ c)
theorem carry11_main_v15 : W11 m ρ c (Proc.devRef .tc main_v15) = W1 m ρ c (Proc.devRef .tc main_v15) :=
  (show StableHlo.after hostOps5 (W10 m ρ c) (Proc.devRef .tc main_v15) = W10 m ρ c (Proc.devRef .tc main_v15) by not_written hostOps5).trans (carry10_main_v15 m ρ c)
theorem carry12_main_v15 : W12 m ρ c (Proc.devRef .tc main_v15) = W1 m ρ c (Proc.devRef .tc main_v15) :=
  (W12_of_ne m ρ c main_v15 (by decide)).trans (carry11_main_v15 m ρ c)
theorem carry13_main_v15 : W13 m ρ c (Proc.devRef .tc main_v15) = W1 m ρ c (Proc.devRef .tc main_v15) :=
  (show StableHlo.after hostOps6 (W12 m ρ c) (Proc.devRef .tc main_v15) = W12 m ρ c (Proc.devRef .tc main_v15) by not_written hostOps6).trans (carry12_main_v15 m ρ c)
theorem carry14_main_v15 : W14 m ρ c (Proc.devRef .tc main_v15) = W1 m ρ c (Proc.devRef .tc main_v15) :=
  (W14_of_ne m ρ c main_v15 (by decide)).trans (carry13_main_v15 m ρ c)
theorem carry15_main_v15 : W15 m ρ c (Proc.devRef .tc main_v15) = W1 m ρ c (Proc.devRef .tc main_v15) :=
  (show StableHlo.after hostOps7 (W14 m ρ c) (Proc.devRef .tc main_v15) = W14 m ρ c (Proc.devRef .tc main_v15) by not_written hostOps7).trans (carry14_main_v15 m ρ c)
theorem carry16_main_v15 : W16 m ρ c (Proc.devRef .tc main_v15) = W1 m ρ c (Proc.devRef .tc main_v15) :=
  (W16_of_ne m ρ c main_v15 (by decide)).trans (carry15_main_v15 m ρ c)

theorem carry1_main_v16 : W1 m ρ c (Proc.devRef .tc main_v16) = W1 m ρ c (Proc.devRef .tc main_v16) := rfl
theorem carry2_main_v16 : W2 m ρ c (Proc.devRef .tc main_v16) = W1 m ρ c (Proc.devRef .tc main_v16) :=
  (W2_of_ne m ρ c main_v16 (by decide)).trans (carry1_main_v16 m ρ c)
theorem carry3_main_v16 : W3 m ρ c (Proc.devRef .tc main_v16) = W1 m ρ c (Proc.devRef .tc main_v16) :=
  (show StableHlo.after hostOps1 (W2 m ρ c) (Proc.devRef .tc main_v16) = W2 m ρ c (Proc.devRef .tc main_v16) by not_written hostOps1).trans (carry2_main_v16 m ρ c)
theorem carry4_main_v16 : W4 m ρ c (Proc.devRef .tc main_v16) = W1 m ρ c (Proc.devRef .tc main_v16) :=
  (W4_of_ne m ρ c main_v16 (by decide)).trans (carry3_main_v16 m ρ c)
theorem carry5_main_v16 : W5 m ρ c (Proc.devRef .tc main_v16) = W1 m ρ c (Proc.devRef .tc main_v16) :=
  (show StableHlo.after hostOps2 (W4 m ρ c) (Proc.devRef .tc main_v16) = W4 m ρ c (Proc.devRef .tc main_v16) by not_written hostOps2).trans (carry4_main_v16 m ρ c)
theorem carry6_main_v16 : W6 m ρ c (Proc.devRef .tc main_v16) = W1 m ρ c (Proc.devRef .tc main_v16) :=
  (W6_of_ne m ρ c main_v16 (by decide)).trans (carry5_main_v16 m ρ c)
theorem carry7_main_v16 : W7 m ρ c (Proc.devRef .tc main_v16) = W1 m ρ c (Proc.devRef .tc main_v16) :=
  (show StableHlo.after hostOps3 (W6 m ρ c) (Proc.devRef .tc main_v16) = W6 m ρ c (Proc.devRef .tc main_v16) by not_written hostOps3).trans (carry6_main_v16 m ρ c)
theorem carry8_main_v16 : W8 m ρ c (Proc.devRef .tc main_v16) = W1 m ρ c (Proc.devRef .tc main_v16) :=
  (W8_of_ne m ρ c main_v16 (by decide)).trans (carry7_main_v16 m ρ c)
theorem carry9_main_v16 : W9 m ρ c (Proc.devRef .tc main_v16) = W1 m ρ c (Proc.devRef .tc main_v16) :=
  (show StableHlo.after hostOps4 (W8 m ρ c) (Proc.devRef .tc main_v16) = W8 m ρ c (Proc.devRef .tc main_v16) by not_written hostOps4).trans (carry8_main_v16 m ρ c)
theorem carry10_main_v16 : W10 m ρ c (Proc.devRef .tc main_v16) = W1 m ρ c (Proc.devRef .tc main_v16) :=
  (W10_of_ne m ρ c main_v16 (by decide)).trans (carry9_main_v16 m ρ c)
theorem carry11_main_v16 : W11 m ρ c (Proc.devRef .tc main_v16) = W1 m ρ c (Proc.devRef .tc main_v16) :=
  (show StableHlo.after hostOps5 (W10 m ρ c) (Proc.devRef .tc main_v16) = W10 m ρ c (Proc.devRef .tc main_v16) by not_written hostOps5).trans (carry10_main_v16 m ρ c)
theorem carry12_main_v16 : W12 m ρ c (Proc.devRef .tc main_v16) = W1 m ρ c (Proc.devRef .tc main_v16) :=
  (W12_of_ne m ρ c main_v16 (by decide)).trans (carry11_main_v16 m ρ c)
theorem carry13_main_v16 : W13 m ρ c (Proc.devRef .tc main_v16) = W1 m ρ c (Proc.devRef .tc main_v16) :=
  (show StableHlo.after hostOps6 (W12 m ρ c) (Proc.devRef .tc main_v16) = W12 m ρ c (Proc.devRef .tc main_v16) by not_written hostOps6).trans (carry12_main_v16 m ρ c)
theorem carry14_main_v16 : W14 m ρ c (Proc.devRef .tc main_v16) = W1 m ρ c (Proc.devRef .tc main_v16) :=
  (W14_of_ne m ρ c main_v16 (by decide)).trans (carry13_main_v16 m ρ c)
theorem carry15_main_v16 : W15 m ρ c (Proc.devRef .tc main_v16) = W1 m ρ c (Proc.devRef .tc main_v16) :=
  (show StableHlo.after hostOps7 (W14 m ρ c) (Proc.devRef .tc main_v16) = W14 m ρ c (Proc.devRef .tc main_v16) by not_written hostOps7).trans (carry14_main_v16 m ρ c)
theorem carry16_main_v16 : W16 m ρ c (Proc.devRef .tc main_v16) = W1 m ρ c (Proc.devRef .tc main_v16) :=
  (W16_of_ne m ρ c main_v16 (by decide)).trans (carry15_main_v16 m ρ c)

end Cert.KernelIdeal.KSide

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.KPayload.lean ====
/- The arithmetic one grid point of the coupling kernel performs on its blocks, read entry by entry on the extended
   reals: the hidden block (two dense layers under the activation), the scale (tanh of a dense layer, times a
   scalar), the transformed half x · exp(s) + t and the row sums of s. Stated over variable vectors and explicit
   coordinates. -/
import proofs.«175835_j29978871726094_1_alg».proof.Proof.Gen.KernelIdeal.Skeleton
import proofs.«175835_j29978871726094_1_alg».proof.Proof.FlowSpec
import proofs.«175835_j29978871726094_1_alg».proof.Proof.LibBlockReads
import proofs.«175835_j29978871726094_1_alg».proof.Proof.LibRowReductions

open scoped BigOperators

noncomputable section

namespace Cert.KernelIdeal.KPay

open Idealize.ShloMosaic Idealize.ShloMosaic.ValueIdx Cert.KernelIdeal Cert.KernelIdeal.Gen Cert.Flow
open Cert.Lib.BlockReads Cert.Lib.RowReductions

/-! The arithmetic of one block of rows, read entry by entry: two dense layers with the activation, then the scale
    (a dense layer under tanh, times a scalar), the shift (a dense layer), the transformed half and the row sums of the
    scale. Every format change is the identity on extended reals; a product into zeros is the sum of products. -/

/-- The activation applied to every entry of a vector. -/
def lreluV {s : Shape} (x : FVec Ideal s .f32) : FVec Ideal s .f32 :=
  select (cmpf .oge x (broadcast s (Scalar.ofBits (F := Ideal) .f32 0x00000000#32))) x
    (mulf (broadcast s (Scalar.ofBits (F := Ideal) .f32 0x3E4CCCCD#32)) x)

theorem lreluV_apply {s : Shape} (x : FVec Ideal s .f32) (i : s.Idx) : lreluV x i = lrelu (x i) := rfl

/-- The first hidden layer of a block: x·A + y·B + b under the activation. -/
def layer1 (v0 : FVec Ideal S64x4096 .f32) (v3 : FVec Ideal S64x1024 .f32) (v6 : FVec Ideal S4096x1024 .bf16)
    (v9 : FVec Ideal S1024x1024 .bf16) (v13 : FVec Ideal S1x1024 .f32) : FVec Ideal S64x1024 .f32 :=
  lreluV (addf (addf
      (matmul dot_S64x4096_S4096x1024_S64x1024_1_0_0_1_n_n none (truncf .bf16 v0 bitsLt_bf16_f32) v6 (constant S64x1024 .f32 0x00000000#32))
      (matmul dot_S64x1024_S1024x1024_S64x1024_1_0_0_1_n_n none (truncf .bf16 v3 bitsLt_bf16_f32) v9 (constant S64x1024 .f32 0x00000000#32)))
    (broadcastTo S64x1024 v13 broadcasts_S1x1024_S64x1024))

/-- The second hidden layer of a block: h·W + b under the activation. -/
def layer2 (h : FVec Ideal S64x1024 .f32) (v23 : FVec Ideal S1024x1024 .bf16) (v26 : FVec Ideal S1x1024 .f32) :
    FVec Ideal S64x1024 .f32 :=
  lreluV (addf
    (matmul dot_S64x1024_S1024x1024_S64x1024_1_0_0_1_n_n none (truncf .bf16 h bitsLt_bf16_f32) v23 (constant S64x1024 .f32 0x00000000#32))
    (broadcastTo S64x1024 v26 broadcasts_S1x1024_S64x1024))

theorem layer1_apply (v0 : FVec Ideal S64x4096 .f32) (v3 : FVec Ideal S64x1024 .f32) (v6 : FVec Ideal S4096x1024 .bf16)
    (v9 : FVec Ideal S1024x1024 .bf16) (v13 : FVec Ideal S1x1024 .f32) (a : Fin 64) (k : Fin 1024) :
    layer1 v0 v3 v6 v9 v13 (ix2 a k)
      = lrelu (((∑ c : Fin 4096, v0 (ix2 a c) * v6 (ix2 c k)) + ∑ c : Fin 1024, v3 (ix2 a c) * v9 (ix2 c k)) + v13 (ix2 0 k)) :=
  congrArg lrelu (congrArg₂ (· + ·)
    (congrArg₂ (· + ·)
      (matmul_zero_rows_apply dot_S64x4096_S4096x1024_S64x1024_1_0_0_1_n_n rfl rfl rfl rfl rfl rfl none (truncf .bf16 v0 bitsLt_bf16_f32) v6 a k)
      (matmul_zero_rows_apply dot_S64x1024_S1024x1024_S64x1024_1_0_0_1_n_n rfl rfl rfl rfl rfl rfl none (truncf .bf16 v3 bitsLt_bf16_f32) v9 a k))
    (broadcast_row_apply v13 broadcasts_S1x1024_S64x1024 a k))

theorem layer2_apply (h : FVec Ideal S64x1024 .f32) (v23 : FVec Ideal S1024x1024 .bf16) (v26 : FVec Ideal S1x1024 .f32)
    (a : Fin 64) (q : Fin 1024) :
    layer2 h v23 v26 (ix2 a q) = lrelu ((∑ k : Fin 1024, h (ix2 a k) * v23 (ix2 k q)) + v26 (ix2 0 q)) :=
  congrArg lrelu (congrArg₂ (· + ·)
    (matmul_zero_rows_apply dot_S64x1024_S1024x1024_S64x1024_1_0_0_1_n_n rfl rfl rfl rfl rfl rfl none (truncf .bf16 h bitsLt_bf16_f32) v23 a q)
    (broadcast_row_apply v26 broadcasts_S1x1024_S64x1024 a q))

/-- The hidden block is the two layers composed. -/
theorem pay4_eq (v0 : Vec Ideal S64x4096 .f32) (v3 : Vec Ideal S64x1024 .f32) (v6 : Vec Ideal S4096x1024 .bf16)
    (v9 : Vec Ideal S1024x1024 .bf16) (v13 : Vec Ideal S1x1024 .f32) (v23 : Vec Ideal S1024x1024 .bf16)
    (v26 : Vec Ideal S1x1024 .f32) :
    k0_pay4 (F := Ideal) v0 v3 v6 v9 v13 v23 v26
      = truncf .bf16 (layer2 (layer1 v0 v3 v6 v9 v13) v23 v26) bitsLt_bf16_f32 := by
  have e : k0_pay4 (F := Ideal) v0 v3 v6 v9 v13 v23 v26
      = truncf .bf16 (layer2 (layer1 (shapeCast S64x4096 v0 shapeCasts_S64x4096_S64x4096) (shapeCast S64x1024 v3 shapeCasts_S64x1024_S64x1024)
          (shapeCast S4096x1024 v6 shapeCasts_S4096x1024_S4096x1024) (shapeCast S1024x1024 v9 shapeCasts_S1024x1024_S1024x1024)
          (shapeCast S1x1024 v13 shapeCasts_S1x1024_S1x1024)) (shapeCast S1024x1024 v23 shapeCasts_S1024x1024_S1024x1024)
          (shapeCast S1x1024 v26 shapeCasts_S1x1024_S1x1024)) bitsLt_bf16_f32 := rfl
  rw [e]
  simp only [shapeCast_self]

/-- The hidden block at row a, column q. -/
theorem pay4_apply (v0 : Vec Ideal S64x4096 .f32) (v3 : Vec Ideal S64x1024 .f32) (v6 : Vec Ideal S4096x1024 .bf16)
    (v9 : Vec Ideal S1024x1024 .bf16) (v13 : Vec Ideal S1x1024 .f32) (v23 : Vec Ideal S1024x1024 .bf16)
    (v26 : Vec Ideal S1x1024 .f32) (a : Fin 64) (q : Fin 1024) :
    k0_pay4 (F := Ideal) v0 v3 v6 v9 v13 v23 v26 (ix2 a q)
      = lrelu ((∑ k : Fin 1024,
          lrelu (((∑ c : Fin 4096, v0 (ix2 a c) * v6 (ix2 c k)) + ∑ c : Fin 1024, v3 (ix2 a c) * v9 (ix2 c k)) + v13 (ix2 0 k))
            * v23 (ix2 k q)) + v26 (ix2 0 q)) := by
  rw [pay4_eq]
  refine (layer2_apply (layer1 v0 v3 v6 v9 v13) v23 v26 a q).trans ?_
  exact congrArg lrelu (congrArg (· + v26 (ix2 0 q))
    (Finset.sum_congr rfl fun k _ => congrArg (· * v23 (ix2 k q)) (layer1_apply v0 v3 v6 v9 v13 a k)))

/-- The scale of a block: tanh of h·W + b, times the scalar. -/
def scaleV (h : FVec Ideal S64x1024 .bf16) (v36 : FVec Ideal S1x1 .f32) (v38 : FVec Ideal S1024x4096 .bf16)
    (v41 : FVec Ideal S1x4096 .f32) : FVec Ideal S64x4096 .f32 :=
  mulf (tanh (addf
      (matmul dot_S64x1024_S1024x4096_S64x4096_1_0_0_1_n_n none h v38 (constant S64x4096 .f32 0x00000000#32))
      (broadcastTo S64x4096 v41 broadcasts_S1x4096_S64x4096)))
    (broadcast S64x4096 (extractAt ![0, 0] v36 inpos_S1x1_p0_0))

theorem scaleV_apply (h : FVec Ideal S64x1024 .bf16) (v36 : FVec Ideal S1x1 .f32) (v38 : FVec Ideal S1024x4096 .bf16)
    (v41 : FVec Ideal S1x4096 .f32) (a : Fin 64) (q : Fin 4096) :
    scaleV h v36 v38 v41 (ix2 a q)
      = Ideal.tanh ((∑ k : Fin 1024, h (ix2 a k) * v38 (ix2 k q)) + v41 (ix2 0 q)) * v36 (ix2 0 0) :=
  congrArg₂ (· * ·)
    (congrArg Ideal.tanh (congrArg₂ (· + ·)
      (matmul_zero_rows_apply dot_S64x1024_S1024x4096_S64x4096_1_0_0_1_n_n rfl rfl rfl rfl rfl rfl none h v38 a q)
      (broadcast_row_apply v41 broadcasts_S1x4096_S64x4096 a q)))
    (congrArg v36 (funext fun d => by fin_cases d <;> rfl))

/-- The scale payload is the scale of its hidden block. -/
theorem pay1_eq (v35 : FVec Ideal S64x1024 .bf16) (v36 : Vec Ideal S1x1 .f32) (v38 : Vec Ideal S1024x4096 .bf16)
    (v41 : Vec Ideal S1x4096 .f32) : k0_pay1 (F := Ideal) v35 v36 v38 v41 = scaleV v35 v36 v38 v41 := by
  have e : k0_pay1 (F := Ideal) v35 v36 v38 v41
      = scaleV v35 v36 (shapeCast S1024x4096 v38 shapeCasts_S1024x4096_S1024x4096) (shapeCast S1x4096 v41 shapeCasts_S1x4096_S1x4096) := rfl
  rw [e]
  simp only [shapeCast_self]

theorem pay1_apply (v35 : FVec Ideal S64x1024 .bf16) (v36 : Vec Ideal S1x1 .f32) (v38 : Vec Ideal S1024x4096 .bf16)
    (v41 : Vec Ideal S1x4096 .f32) (a : Fin 64) (q : Fin 4096) :
    k0_pay1 (F := Ideal) v35 v36 v38 v41 (ix2 a q)
      = Ideal.tanh ((∑ k : Fin 1024, v35 (ix2 a k) * v38 (ix2 k q)) + v41 (ix2 0 q)) * v36 (ix2 0 0) := by
  rw [pay1_eq]
  exact scaleV_apply v35 v36 v38 v41 a q

/-- The transformed half of a block: x · exp(s) + (h·W + b). -/
def outV (h : FVec Ideal S64x1024 .bf16) (s : FVec Ideal S64x4096 .f32) (v48 : FVec Ideal S1024x4096 .bf16)
    (v51 : FVec Ideal S1x4096 .f32) (v55 : FVec Ideal S64x4096 .f32) : FVec Ideal S64x4096 .f32 :=
  addf (mulf v55 (exp s))
    (addf (matmul dot_S64x1024_S1024x4096_S64x4096_1_0_0_1_n_n none h v48 (constant S64x4096 .f32 0x00000000#32))
      (broadcastTo S64x4096 v51 broadcasts_S1x4096_S64x4096))

theorem outV_apply (h : FVec Ideal S64x1024 .bf16) (s : FVec Ideal S64x4096 .f32) (v48 : FVec Ideal S1024x4096 .bf16)
    (v51 : FVec Ideal S1x4096 .f32) (v55 : FVec Ideal S64x4096 .f32) (a : Fin 64) (q : Fin 4096) :
    outV h s v48 v51 v55 (ix2 a q)
      = v55 (ix2 a q) * Ideal.exp (s (ix2 a q)) + ((∑ k : Fin 1024, h (ix2 a k) * v48 (ix2 k q)) + v51 (ix2 0 q)) :=
  congrArg (v55 (ix2 a q) * Ideal.exp (s (ix2 a q)) + ·) (congrArg₂ (· + ·)
    (matmul_zero_rows_apply dot_S64x1024_S1024x4096_S64x4096_1_0_0_1_n_n rfl rfl rfl rfl rfl rfl none h v48 a q)
    (broadcast_row_apply v51 broadcasts_S1x4096_S64x4096 a q))

theorem pay2_eq (v35 : FVec Ideal S64x1024 .bf16) (v36 : Vec Ideal S1x1 .f32) (v38 : Vec Ideal S1024x4096 .bf16)
    (v41 : Vec Ideal S1x4096 .f32) (v48 : Vec Ideal S1024x4096 .bf16) (v51 : Vec Ideal S1x4096 .f32)
    (v55 : Vec Ideal S64x4096 .f32) :
    k0_pay2 (F := Ideal) v35 v36 v38 v41 v48 v51 v55 = outV v35 (k0_pay1 (F := Ideal) v35 v36 v38 v41) v48 v51 v55 := by
  have e : k0_pay2 (F := Ideal) v35 v36 v38 v41 v48 v51 v55
      = outV v35 (k0_pay1 (F := Ideal) v35 v36 v38 v41) (shapeCast S1024x4096 v48 shapeCasts_S1024x4096_S1024x4096)
          (shapeCast S1x4096 v51 shapeCasts_S1x4096_S1x4096) (shapeCast S64x4096 v55 shapeCasts_S64x4096_S64x4096) := rfl
  rw [e]
  simp only [shapeCast_self]

/-- The transformed half at row a, column q. -/
theorem pay2_apply (v35 : FVec Ideal S64x1024 .bf16) (v36 : Vec Ideal S1x1 .f32) (v38 : Vec Ideal S1024x4096 .bf16)
    (v41 : Vec Ideal S1x4096 .f32) (v48 : Vec Ideal S1024x4096 .bf16) (v51 : Vec Ideal S1x4096 .f32)
    (v55 : Vec Ideal S64x4096 .f32) (a : Fin 64) (q : Fin 4096) :
    k0_pay2 (F := Ideal) v35 v36 v38 v41 v48 v51 v55 (ix2 a q)
      = v55 (ix2 a q) * Ideal.exp (k0_pay1 (F := Ideal) v35 v36 v38 v41 (ix2 a q))
        + ((∑ k : Fin 1024, v35 (ix2 a k) * v48 (ix2 k q)) + v51 (ix2 0 q)) := by
  rw [pay2_eq]
  exact outV_apply v35 _ v48 v51 v55 a q

/-- The row sums of the scale of a block, as a column. -/
theorem pay3_apply (v35 : FVec Ideal S64x1024 .bf16) (v36 : Vec Ideal S1x1 .f32) (v38 : Vec Ideal S1024x4096 .bf16)
    (v41 : Vec Ideal S1x4096 .f32) (a : Fin 64) :
    k0_pay3 (F := Ideal) v35 v36 v38 v41 (ix2 a 0) = ∑ k : Fin 4096, k0_pay1 (F := Ideal) v35 v36 v38 v41 (ix2 a k) := by
  unfold k0_pay3
  exact (shapeCast_col_apply _ shapeCasts_S64_S64x1 a).trans (rowsum_apply _ _ reduces_S64x4096_S64 _ _ a)

end Cert.KernelIdeal.KPay

end
-- ==== Proof.KPoint.lean ====
/- One grid point of the coupling kernel against the whole arrays it reads: when the point's row blocks are rows
   r(0), …, r(63) of the row-indexed arrays and its other blocks are the weight arrays, the hidden block, the scale,
   the transformed half and the row sums it computes are those rows of the network over the whole arrays. -/
import proofs.«175835_j29978871726094_1_alg».proof.Proof.KPayload

open scoped BigOperators

noncomputable section

namespace Cert.KernelIdeal.KPoint

open Idealize.ShloMosaic Idealize.ShloMosaic.ValueIdx Cert.KernelIdeal Cert.KernelIdeal.Gen Cert.Flow Cert.KernelIdeal.KPay

/-! One grid point against the whole arrays: when a point's row blocks are rows r(0), …, r(63) of the row-indexed
    arrays and its other blocks are the whole weight arrays, what the point computes is the same rows of the network
    over the whole arrays. -/

/-- Two arrays over a rank-two index type that agree at every (p, q) are equal. -/
theorem ext2 {α : Type} {n0 n1 : Nat} {x y : (⟨2, ![n0, n1]⟩ : Shape).Idx → α}
    (h : ∀ (p : Fin n0) (q : Fin n1), x (ix2 p q) = y (ix2 p q)) : x = y := by
  funext j
  rw [eq_ix2 j]
  exact h _ _

/-- The hidden block is rows r of the hidden array. -/
theorem hidden_rows (x0 : Vec Ideal S64x4096 .f32) (x2 : Vec Ideal S64x1024 .f32) (x3 : Vec Ideal S4096x1024 .bf16)
    (x4 : Vec Ideal S1024x1024 .bf16) (x5 : Vec Ideal S1x1024 .f32) (x6 : Vec Ideal S1024x1024 .bf16)
    (x7 : Vec Ideal S1x1024 .f32)
    (XC : A2 2048 4096) (CND : A2 2048 1024) (W1A : A2 4096 1024) (W1B : A2 1024 1024) (B1 : A2 1 1024)
    (W2 : A2 1024 1024) (B2 : A2 1 1024) (r : Fin 64 → Fin 2048)
    (h0 : ∀ a c, x0 (ix2 a c) = XC (ix2 (r a) c)) (h2 : ∀ a c, x2 (ix2 a c) = CND (ix2 (r a) c))
    (h3 : ∀ c k, x3 (ix2 c k) = W1A (ix2 c k)) (h4 : ∀ c k, x4 (ix2 c k) = W1B (ix2 c k))
    (h5 : ∀ k, x5 (ix2 0 k) = B1 (ix2 0 k)) (h6 : ∀ c k, x6 (ix2 c k) = W2 (ix2 c k))
    (h7 : ∀ k, x7 (ix2 0 k) = B2 (ix2 0 k)) (a : Fin 64) (q : Fin 1024) :
    k0_pay4 (F := Ideal) x0 x2 x3 x4 x5 x6 x7 (ix2 a q) = coupleH XC CND W1A W1B B1 W2 B2 (ix2 (r a) q) := by
  rw [pay4_apply]
  simp only [h0, h2, h3, h4, h5, h6, h7]
  rfl

/-- The scale block is rows r of the scale array. -/
theorem scale_rows (H : FVec Ideal S64x1024 .bf16) (x12 : Vec Ideal S1x1 .f32) (x8 : Vec Ideal S1024x4096 .bf16)
    (x9 : Vec Ideal S1x4096 .f32) (HH : A2 2048 1024) (WS : A2 1024 4096) (BS : A2 1 4096) (SF : A2 1 1)
    (r : Fin 64 → Fin 2048) (hH : ∀ a k, H (ix2 a k) = HH (ix2 (r a) k))
    (h8 : ∀ k q, x8 (ix2 k q) = WS (ix2 k q)) (h9 : ∀ q, x9 (ix2 0 q) = BS (ix2 0 q))
    (h12 : x12 (ix2 0 0) = SF (ix2 0 0)) (a : Fin 64) (q : Fin 4096) :
    k0_pay1 (F := Ideal) H x12 x8 x9 (ix2 a q) = coupleS HH WS BS SF (ix2 (r a) q) := by
  rw [pay1_apply]
  simp only [hH, h8, h9, h12]
  rfl

/-- The transformed half of the block is rows r of the transformed half of the array. -/
theorem y_rows (H : FVec Ideal S64x1024 .bf16) (x12 : Vec Ideal S1x1 .f32) (x8 : Vec Ideal S1024x4096 .bf16)
    (x9 : Vec Ideal S1x4096 .f32) (x10 : Vec Ideal S1024x4096 .bf16) (x11 : Vec Ideal S1x4096 .f32)
    (x1 : Vec Ideal S64x4096 .f32)
    (HH : A2 2048 1024) (WS : A2 1024 4096) (BS : A2 1 4096) (SF : A2 1 1) (WT : A2 1024 4096) (BT : A2 1 4096)
    (XU : A2 2048 4096) (r : Fin 64 → Fin 2048) (hH : ∀ a k, H (ix2 a k) = HH (ix2 (r a) k))
    (h8 : ∀ k q, x8 (ix2 k q) = WS (ix2 k q)) (h9 : ∀ q, x9 (ix2 0 q) = BS (ix2 0 q))
    (h12 : x12 (ix2 0 0) = SF (ix2 0 0)) (h10 : ∀ k q, x10 (ix2 k q) = WT (ix2 k q))
    (h11 : ∀ q, x11 (ix2 0 q) = BT (ix2 0 q)) (h1 : ∀ a q, x1 (ix2 a q) = XU (ix2 (r a) q))
    (a : Fin 64) (q : Fin 4096) :
    k0_pay2 (F := Ideal) H x12 x8 x9 x10 x11 x1 (ix2 a q)
      = coupleY XU (coupleS HH WS BS SF) (coupleT HH WT BT) (ix2 (r a) q) := by
  rw [pay2_apply, scale_rows H x12 x8 x9 HH WS BS SF r hH h8 h9 h12 a q]
  simp only [hH, h10, h11, h1]
  rfl

/-- The row sums of the block's scale are rows r of the row sums of the scale array. -/
theorem sum_rows (H : FVec Ideal S64x1024 .bf16) (x12 : Vec Ideal S1x1 .f32) (x8 : Vec Ideal S1024x4096 .bf16)
    (x9 : Vec Ideal S1x4096 .f32) (HH : A2 2048 1024) (WS : A2 1024 4096) (BS : A2 1 4096) (SF : A2 1 1)
    (r : Fin 64 → Fin 2048) (hH : ∀ a k, H (ix2 a k) = HH (ix2 (r a) k))
    (h8 : ∀ k q, x8 (ix2 k q) = WS (ix2 k q)) (h9 : ∀ q, x9 (ix2 0 q) = BS (ix2 0 q))
    (h12 : x12 (ix2 0 0) = SF (ix2 0 0)) (a : Fin 64) :
    k0_pay3 (F := Ideal) H x12 x8 x9 (ix2 a 0) = coupleSum (coupleS HH WS BS SF) (ix2 (r a) 0) := by
  rw [pay3_apply]
  simp only [scale_rows H x12 x8 x9 HH WS BS SF r hH h8 h9 h12 a]
  rfl

end Cert.KernelIdeal.KPoint

end
-- ==== Proof.KRegion7.lean ====
/- Region 7 of the kernel-side program, at any contents V of the TensorCore's buffers when the region is entered:
   its two output arrays after the region, in closed form over the thirteen arrays it reads. A grid point t reads
   rows 64t … 64t + 63 of the three row-indexed arrays and the whole of the ten weight arrays; what it writes back
   is rows 64t … 64t + 63 of one whole-array function (the transformed half, resp. the row sums of the scale); the
   32 points' row blocks cover the 2048 rows. -/
import proofs.«175835_j29978871726094_1_alg».proof.Proof.Gen.KernelIdeal.Frame
import proofs.«175835_j29978871726094_1_alg».proof.Proof.KPoint

set_option maxRecDepth 16384

open scoped BigOperators

noncomputable section

namespace Cert.KernelIdeal.KRegion7

open Idealize.ShloMosaic Idealize.ShloMosaic.TcCoe Idealize.SL.Sem
open Idealize.ShloMosaic.Pipeline (Dat)
open Idealize.ShloMosaic.ValueIdx
open Cert.KernelIdeal Cert.KernelIdeal.Gen Cert.Flow Cert.KernelIdeal.KPoint

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the grid: a row-blocked window is at block t, the others at block 0 -/
theorem idx_0 : ∀ t : Fin cfg7.N, win7_0.index t (0 : Fin 2) = t.val ∧ win7_0.index t (1 : Fin 2) = 0 :=
  (by decide +kernel : ∀ t : Fin grid7.N, _)
theorem idx_1 : ∀ t : Fin cfg7.N, win7_1.index t (0 : Fin 2) = t.val ∧ win7_1.index t (1 : Fin 2) = 0 :=
  (by decide +kernel : ∀ t : Fin grid7.N, _)
theorem idx_2 : ∀ t : Fin cfg7.N, win7_2.index t (0 : Fin 2) = t.val ∧ win7_2.index t (1 : Fin 2) = 0 :=
  (by decide +kernel : ∀ t : Fin grid7.N, _)
theorem idx_3 : ∀ t : Fin cfg7.N, win7_3.index t (0 : Fin 2) = 0 ∧ win7_3.index t (1 : Fin 2) = 0 :=
  (by decide +kernel : ∀ t : Fin grid7.N, _)
theorem idx_4 : ∀ t : Fin cfg7.N, win7_4.index t (0 : Fin 2) = 0 ∧ win7_4.index t (1 : Fin 2) = 0 :=
  (by decide +kernel : ∀ t : Fin grid7.N, _)
theorem idx_5 : ∀ t : Fin cfg7.N, win7_5.index t (0 : Fin 2) = 0 ∧ win7_5.index t (1 : Fin 2) = 0 :=
  (by decide +kernel : ∀ t : Fin grid7.N, _)
theorem idx_6 : ∀ t : Fin cfg7.N, win7_6.index t (0 : Fin 2) = 0 ∧ win7_6.index t (1 : Fin 2) = 0 :=
  (by decide +kernel : ∀ t : Fin grid7.N, _)
theorem idx_7 : ∀ t : Fin cfg7.N, win7_7.index t (0 : Fin 2) = 0 ∧ win7_7.index t (1 : Fin 2) = 0 :=
  (by decide +kernel : ∀ t : Fin grid7.N, _)
theorem idx_8 : ∀ t : Fin cfg7.N, win7_8.index t (0 : Fin 2) = 0 ∧ win7_8.index t (1 : Fin 2) = 0 :=
  (by decide +kernel : ∀ t : Fin grid7.N, _)
theorem idx_9 : ∀ t : Fin cfg7.N, win7_9.index t (0 : Fin 2) = 0 ∧ win7_9.index t (1 : Fin 2) = 0 :=
  (by decide +kernel : ∀ t : Fin grid7.N, _)
theorem idx_10 : ∀ t : Fin cfg7.N, win7_10.index t (0 : Fin 2) = 0 ∧ win7_10.index t (1 : Fin 2) = 0 :=
  (by decide +kernel : ∀ t : Fin grid7.N, _)
theorem idx_11 : ∀ t : Fin cfg7.N, win7_11.index t (0 : Fin 2) = 0 ∧ win7_11.index t (1 : Fin 2) = 0 :=
  (by decide +kernel : ∀ t : Fin grid7.N, _)
theorem idx_12 : ∀ t : Fin cfg7.N, win7_12.index t (0 : Fin 2) = 0 ∧ win7_12.index t (1 : Fin 2) = 0 :=
  (by decide +kernel : ∀ t : Fin grid7.N, _)
theorem idx_13 : ∀ t : Fin cfg7.N, win7_13.index t (0 : Fin 2) = t.val ∧ win7_13.index t (1 : Fin 2) = 0 :=
  (by decide +kernel : ∀ t : Fin grid7.N, _)
theorem idx_14 : ∀ t : Fin cfg7.N, win7_14.index t (0 : Fin 2) = t.val ∧ win7_14.index t (1 : Fin 2) = 0 :=
  (by decide +kernel : ∀ t : Fin grid7.N, _)

/-! ## The arrays the region reads, as it finds them -/
/-- the conditioning half -/
abbrev aXC (c : Dev nD) : A2 2048 4096 := V c (Pipeline.arrRef spec7 0)
/-- the half that is transformed -/
abbrev aXU (c : Dev nD) : A2 2048 4096 := V c (Pipeline.arrRef spec7 1)
/-- the conditioning array -/
abbrev aCND (c : Dev nD) : A2 2048 1024 := V c (Pipeline.arrRef spec7 2)
/-- the first layer's rows against the conditioning half -/
abbrev aW1A (c : Dev nD) : A2 4096 1024 := V c (Pipeline.arrRef spec7 3)
/-- the first layer's rows against the conditioning array -/
abbrev aW1B (c : Dev nD) : A2 1024 1024 := V c (Pipeline.arrRef spec7 4)
/-- the first layer's bias -/
abbrev aB1 (c : Dev nD) : A2 1 1024 := V c (Pipeline.arrRef spec7 5)
/-- the second layer's matrix -/
abbrev aW2 (c : Dev nD) : A2 1024 1024 := V c (Pipeline.arrRef spec7 6)
/-- the second layer's bias -/
abbrev aB2 (c : Dev nD) : A2 1 1024 := V c (Pipeline.arrRef spec7 7)
/-- the scale layer's matrix -/
abbrev aWS (c : Dev nD) : A2 1024 4096 := V c (Pipeline.arrRef spec7 8)
/-- the scale layer's bias -/
abbrev aBS (c : Dev nD) : A2 1 4096 := V c (Pipeline.arrRef spec7 9)
/-- the shift layer's matrix -/
abbrev aWT (c : Dev nD) : A2 1024 4096 := V c (Pipeline.arrRef spec7 10)
/-- the shift layer's bias -/
abbrev aBT (c : Dev nD) : A2 1 4096 := V c (Pipeline.arrRef spec7 11)
/-- the scale's scalar -/
abbrev aSF (c : Dev nD) : A2 1 1 := V c (Pipeline.arrRef spec7 12)

/-- The hidden array over the arrays the region reads. -/
abbrev aH (c : Dev nD) : A2 2048 1024 := coupleH (aXC V c) (aCND V c) (aW1A V c) (aW1B V c) (aB1 V c) (aW2 V c) (aB2 V c)
/-- The scale array. -/
abbrev aS (c : Dev nD) : A2 2048 4096 := coupleS (aH V c) (aWS V c) (aBS V c) (aSF V c)
/-- The transformed half. -/
abbrev GY (c : Dev nD) : A2 2048 4096 := coupleY (aXU V c) (aS V c) (coupleT (aH V c) (aWT V c) (aBT V c))
/-- The row sums of the scale. -/
abbrev GS (c : Dev nD) : A2 2048 1 := coupleSum (aS V c)

/-- The row of the arrays that row a of point t's row blocks is. -/
def rowAt (t : Fin cfg7.N) (a : Fin 64) : Fin 2048 :=
  ⟨t.val * 64 + a.val, by have ht : t.val < 32 := t.isLt; have := a.isLt; omega⟩

/-! ## Each input block as entries of its array -/
theorem blk_0 (c : Dev nD) (t : Fin cfg7.N) (a : Fin 64) (q : Fin 4096) :
    (iblk7 V c 0 t : Vec Ideal S64x4096 .f32) (ix2 a q) = aXC V c (ix2 (rowAt t a) q) := by
  obtain ⟨e0, e1⟩ := idx_0 t
  unfold iblk7
  rw [View.read_apply]
  show V c main_v398 _ = V c main_v398 _
  refine congrArg (V c main_v398) ?_
  funext d
  apply Fin.ext
  match d with
  | ⟨0, _⟩ => show win7_0.index t (0 : Fin 2) * 64 + 1 * a.val = t.val * 64 + a.val; rw [e0]; omega
  | ⟨1, _⟩ => show win7_0.index t (1 : Fin 2) * 4096 + 1 * q.val = q.val; rw [e1]; omega
theorem blk_1 (c : Dev nD) (t : Fin cfg7.N) (a : Fin 64) (q : Fin 4096) :
    (iblk7 V c 1 t : Vec Ideal S64x4096 .f32) (ix2 a q) = aXU V c (ix2 (rowAt t a) q) := by
  obtain ⟨e0, e1⟩ := idx_1 t
  unfold iblk7
  rw [View.read_apply]
  show V c main_v400 _ = V c main_v400 _
  refine congrArg (V c main_v400) ?_
  funext d
  apply Fin.ext
  match d with
  | ⟨0, _⟩ => show win7_1.index t (0 : Fin 2) * 64 + 1 * a.val = t.val * 64 + a.val; rw [e0]; omega
  | ⟨1, _⟩ => show win7_1.index t (1 : Fin 2) * 4096 + 1 * q.val = q.val; rw [e1]; omega
theorem blk_2 (c : Dev nD) (t : Fin cfg7.N) (a : Fin 64) (q : Fin 1024) :
    (iblk7 V c 2 t : Vec Ideal S64x1024 .f32) (ix2 a q) = aCND V c (ix2 (rowAt t a) q) := by
  obtain ⟨e0, e1⟩ := idx_2 t
  unfold iblk7
  rw [View.read_apply]
  show V c main_v7 _ = V c main_v7 _
  refine congrArg (V c main_v7) ?_
  funext d
  apply Fin.ext
  match d with
  | ⟨0, _⟩ => show win7_2.index t (0 : Fin 2) * 64 + 1 * a.val = t.val * 64 + a.val; rw [e0]; omega
  | ⟨1, _⟩ => show win7_2.index t (1 : Fin 2) * 1024 + 1 * q.val = q.val; rw [e1]; omega
theorem blk_3 (c : Dev nD) (t : Fin cfg7.N) (a : Fin 4096) (q : Fin 1024) :
    (iblk7 V c 3 t : Vec Ideal S4096x1024 .bf16) (ix2 a q) = aW1A V c (ix2 a q) := by
  obtain ⟨e0, e1⟩ := idx_3 t
  unfold iblk7
  rw [View.read_apply]
  show V c main_v402 _ = V c main_v402 _
  refine congrArg (V c main_v402) ?_
  funext d
  apply Fin.ext
  match d with
  | ⟨0, _⟩ => show win7_3.index t (0 : Fin 2) * 4096 + 1 * a.val = a.val; rw [e0]; omega
  | ⟨1, _⟩ => show win7_3.index t (1 : Fin 2) * 1024 + 1 * q.val = q.val; rw [e1]; omega
theorem blk_4 (c : Dev nD) (t : Fin cfg7.N) (a : Fin 1024) (q : Fin 1024) :
    (iblk7 V c 4 t : Vec Ideal S1024x1024 .bf16) (ix2 a q) = aW1B V c (ix2 a q) := by
  obtain ⟨e0, e1⟩ := idx_4 t
  unfold iblk7
  rw [View.read_apply]
  show V c main_v404 _ = V c main_v404 _
  refine congrArg (V c main_v404) ?_
  funext d
  apply Fin.ext
  match d with
  | ⟨0, _⟩ => show win7_4.index t (0 : Fin 2) * 1024 + 1 * a.val = a.val; rw [e0]; omega
  | ⟨1, _⟩ => show win7_4.index t (1 : Fin 2) * 1024 + 1 * q.val = q.val; rw [e1]; omega
theorem blk_5 (c : Dev nD) (t : Fin cfg7.N) (a : Fin 1) (q : Fin 1024) :
    (iblk7 V c 5 t : Vec Ideal S1x1024 .f32) (ix2 a q) = aB1 V c (ix2 a q) := by
  obtain ⟨e0, e1⟩ := idx_5 t
  unfold iblk7
  rw [View.read_apply]
  show V c main_v407 _ = V c main_v407 _
  refine congrArg (V c main_v407) ?_
  funext d
  apply Fin.ext
  match d with
  | ⟨0, _⟩ => show win7_5.index t (0 : Fin 2) * 1 + 1 * a.val = a.val; rw [e0]; omega
  | ⟨1, _⟩ => show win7_5.index t (1 : Fin 2) * 1024 + 1 * q.val = q.val; rw [e1]; omega
theorem blk_6 (c : Dev nD) (t : Fin cfg7.N) (a : Fin 1024) (q : Fin 1024) :
    (iblk7 V c 6 t : Vec Ideal S1024x1024 .bf16) (ix2 a q) = aW2 V c (ix2 a q) := by
  obtain ⟨e0, e1⟩ := idx_6 t
  unfold iblk7
  rw [View.read_apply]
  show V c main_v409 _ = V c main_v409 _
  refine congrArg (V c main_v409) ?_
  funext d
  apply Fin.ext
  match d with
  | ⟨0, _⟩ => show win7_6.index t (0 : Fin 2) * 1024 + 1 * a.val = a.val; rw [e0]; omega
  | ⟨1, _⟩ => show win7_6.index t (1 : Fin 2) * 1024 + 1 * q.val = q.val; rw [e1]; omega
theorem blk_7 (c : Dev nD) (t : Fin cfg7.N) (a : Fin 1) (q : Fin 1024) :
    (iblk7 V c 7 t : Vec Ideal S1x1024 .f32) (ix2 a q) = aB2 V c (ix2 a q) := by
  obtain ⟨e0, e1⟩ := idx_7 t
  unfold iblk7
  rw [View.read_apply]
  show V c main_v412 _ = V c main_v412 _
  refine congrArg (V c main_v412) ?_
  funext d
  apply Fin.ext
  match d with
  | ⟨0, _⟩ => show win7_7.index t (0 : Fin 2) * 1 + 1 * a.val = a.val; rw [e0]; omega
  | ⟨1, _⟩ => show win7_7.index t (1 : Fin 2) * 1024 + 1 * q.val = q.val; rw [e1]; omega
theorem blk_8 (c : Dev nD) (t : Fin cfg7.N) (a : Fin 1024) (q : Fin 4096) :
    (iblk7 V c 8 t : Vec Ideal S1024x4096 .bf16) (ix2 a q) = aWS V c (ix2 a q) := by
  obtain ⟨e0, e1⟩ := idx_8 t
  unfold iblk7
  rw [View.read_apply]
  show V c main_v414 _ = V c main_v414 _
  refine congrArg (V c main_v414) ?_
  funext d
  apply Fin.ext
  match d with
  | ⟨0, _⟩ => show win7_8.index t (0 : Fin 2) * 1024 + 1 * a.val = a.val; rw [e0]; omega
  | ⟨1, _⟩ => show win7_8.index t (1 : Fin 2) * 4096 + 1 * q.val = q.val; rw [e1]; omega
theorem blk_9 (c : Dev nD) (t : Fin cfg7.N) (a : Fin 1) (q : Fin 4096) :
    (iblk7 V c 9 t : Vec Ideal S1x4096 .f32) (ix2 a q) = aBS V c (ix2 a q) := by
  obtain ⟨e0, e1⟩ := idx_9 t
  unfold iblk7
  rw [View.read_apply]
  show V c main_v417 _ = V c main_v417 _
  refine congrArg (V c main_v417) ?_
  funext d
  apply Fin.ext
  match d with
  | ⟨0, _⟩ => show win7_9.index t (0 : Fin 2) * 1 + 1 * a.val = a.val; rw [e0]; omega
  | ⟨1, _⟩ => show win7_9.index t (1 : Fin 2) * 4096 + 1 * q.val = q.val; rw [e1]; omega
theorem blk_10 (c : Dev nD) (t : Fin cfg7.N) (a : Fin 1024) (q : Fin 4096) :
    (iblk7 V c 10 t : Vec Ideal S1024x4096 .bf16) (ix2 a q) = aWT V c (ix2 a q) := by
  obtain ⟨e0, e1⟩ := idx_10 t
  unfold iblk7
  rw [View.read_apply]
  show V c main_v419 _ = V c main_v419 _
  refine congrArg (V c main_v419) ?_
  funext d
  apply Fin.ext
  match d with
  | ⟨0, _⟩ => show win7_10.index t (0 : Fin 2) * 1024 + 1 * a.val = a.val; rw [e0]; omega
  | ⟨1, _⟩ => show win7_10.index t (1 : Fin 2) * 4096 + 1 * q.val = q.val; rw [e1]; omega
theorem blk_11 (c : Dev nD) (t : Fin cfg7.N) (a : Fin 1) (q : Fin 4096) :
    (iblk7 V c 11 t : Vec Ideal S1x4096 .f32) (ix2 a q) = aBT V c (ix2 a q) := by
  obtain ⟨e0, e1⟩ := idx_11 t
  unfold iblk7
  rw [View.read_apply]
  show V c main_v422 _ = V c main_v422 _
  refine congrArg (V c main_v422) ?_
  funext d
  apply Fin.ext
  match d with
  | ⟨0, _⟩ => show win7_11.index t (0 : Fin 2) * 1 + 1 * a.val = a.val; rw [e0]; omega
  | ⟨1, _⟩ => show win7_11.index t (1 : Fin 2) * 4096 + 1 * q.val = q.val; rw [e1]; omega
theorem blk_12 (c : Dev nD) (t : Fin cfg7.N) (a : Fin 1) (q : Fin 1) :
    (iblk7 V c 12 t : Vec Ideal S1x1 .f32) (ix2 a q) = aSF V c (ix2 a q) := by
  obtain ⟨e0, e1⟩ := idx_12 t
  unfold iblk7
  rw [View.read_apply]
  show V c main_v425 _ = V c main_v425 _
  refine congrArg (V c main_v425) ?_
  funext d
  apply Fin.ext
  match d with
  | ⟨0, _⟩ => show win7_12.index t (0 : Fin 2) * 1 + 1 * a.val = a.val; rw [e0]; omega
  | ⟨1, _⟩ => show win7_12.index t (1 : Fin 2) * 1 + 1 * q.val = q.val; rw [e1]; omega

/-! ## What a point computes, as rows of the arrays -/

/-- The hidden block of point t is rows 64t … 64t + 63 of the hidden array. -/
theorem hid_pt (c : Dev nD) (t : Fin cfg7.N) (a : Fin 64) (k : Fin 1024) :
    (k0_pay4 (F := Ideal) (iblk7 V c 0 t) (iblk7 V c 2 t) (iblk7 V c 3 t) (iblk7 V c 4 t) (iblk7 V c 5 t) (iblk7 V c 6 t) (iblk7 V c 7 t)) (ix2 a k) = aH V c (ix2 (rowAt t a) k) :=
  hidden_rows (iblk7 V c 0 t) (iblk7 V c 2 t) (iblk7 V c 3 t) (iblk7 V c 4 t) (iblk7 V c 5 t) (iblk7 V c 6 t) (iblk7 V c 7 t)
    (aXC V c) (aCND V c) (aW1A V c) (aW1B V c) (aB1 V c) (aW2 V c) (aB2 V c) (rowAt t)
    (blk_0 V c t) (blk_2 V c t) (blk_3 V c t) (blk_4 V c t) (fun k => blk_5 V c t 0 k) (blk_6 V c t) (fun k => blk_7 V c t 0 k) a k

/-- Row a, column q of point t's block of output 13 is row 64t + a, column q of its array. -/
theorem emb_13 (t : Fin cfg7.N) (a : Fin 64) (q : Fin 4096) :
    ((cfg7.win 13).blk t).view.emb (ix2 a q : S64x4096.Idx) = (ix2 (rowAt t a) q : S2048x4096.Idx) := by
  obtain ⟨e0, e1⟩ := idx_13 t
  funext d
  apply Fin.ext
  match d with
  | ⟨0, _⟩ => show win7_13.index t (0 : Fin 2) * 64 + 1 * a.val = t.val * 64 + a.val; rw [e0]; omega
  | ⟨1, _⟩ => show win7_13.index t (1 : Fin 2) * 4096 + 1 * q.val = q.val; rw [e1]; omega

/-- Row a, column q of point t's block of output 14 is row 64t + a, column q of its array. -/
theorem emb_14 (t : Fin cfg7.N) (a : Fin 64) (q : Fin 1) :
    ((cfg7.win 14).blk t).view.emb (ix2 a q : S64x1.Idx) = (ix2 (rowAt t a) q : S2048x1.Idx) := by
  obtain ⟨e0, e1⟩ := idx_14 t
  funext d
  apply Fin.ext
  match d with
  | ⟨0, _⟩ => show win7_14.index t (0 : Fin 2) * 64 + 1 * a.val = t.val * 64 + a.val; rw [e0]; omega
  | ⟨1, _⟩ => show win7_14.index t (1 : Fin 2) * 1 + 1 * q.val = q.val; rw [e1]; omega

/-! ## What a point writes back is its block of one whole-array function -/

theorem flushed_13 (c : Dev nD) (t : Fin cfg7.N) :
    (dat7 V c).flushed 13 t = ((cfg7.win 13).blk t).view.read (Elt Ideal) (GY V c) := by
  show (cfg7.win 13).cut (grid7.coords t) ((dat7 V c).after 13 t) = _
  rw [after7_13]
  unfold out7_13
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 4096) fun a q => ?_
  show k0_pay2 (F := Ideal) (k0_pay4 (F := Ideal) (iblk7 V c 0 t) (iblk7 V c 2 t) (iblk7 V c 3 t) (iblk7 V c 4 t) (iblk7 V c 5 t) (iblk7 V c 6 t) (iblk7 V c 7 t)) (iblk7 V c 12 t) (iblk7 V c 8 t) (iblk7 V c 9 t) (iblk7 V c 10 t) (iblk7 V c 11 t) (iblk7 V c 1 t) (ix2 a q)
    = GY V c (((cfg7.win 13).blk t).view.emb (ix2 a q : S64x4096.Idx))
  rw [emb_13]
  exact y_rows (k0_pay4 (F := Ideal) (iblk7 V c 0 t) (iblk7 V c 2 t) (iblk7 V c 3 t) (iblk7 V c 4 t) (iblk7 V c 5 t) (iblk7 V c 6 t) (iblk7 V c 7 t)) (iblk7 V c 12 t) (iblk7 V c 8 t) (iblk7 V c 9 t) (iblk7 V c 10 t) (iblk7 V c 11 t) (iblk7 V c 1 t)
    (aH V c) (aWS V c) (aBS V c) (aSF V c) (aWT V c) (aBT V c) (aXU V c) (rowAt t)
    (hid_pt V c t) (blk_8 V c t) (fun q => blk_9 V c t 0 q) (blk_12 V c t 0 0) (blk_10 V c t) (fun q => blk_11 V c t 0 q)
    (blk_1 V c t) a q

theorem flushed_14 (c : Dev nD) (t : Fin cfg7.N) :
    (dat7 V c).flushed 14 t = ((cfg7.win 14).blk t).view.read (Elt Ideal) (GS V c) := by
  show (cfg7.win 14).cut (grid7.coords t) ((dat7 V c).after 14 t) = _
  rw [after7_14]
  unfold out7_14
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 1) fun a q => ?_
  obtain rfl : q = 0 := Subsingleton.elim _ _
  show k0_pay3 (F := Ideal) (k0_pay4 (F := Ideal) (iblk7 V c 0 t) (iblk7 V c 2 t) (iblk7 V c 3 t) (iblk7 V c 4 t) (iblk7 V c 5 t) (iblk7 V c 6 t) (iblk7 V c 7 t)) (iblk7 V c 12 t) (iblk7 V c 8 t) (iblk7 V c 9 t) (ix2 a 0)
    = GS V c (((cfg7.win 14).blk t).view.emb (ix2 a 0 : S64x1.Idx))
  rw [emb_14]
  exact sum_rows (k0_pay4 (F := Ideal) (iblk7 V c 0 t) (iblk7 V c 2 t) (iblk7 V c 3 t) (iblk7 V c 4 t) (iblk7 V c 5 t) (iblk7 V c 6 t) (iblk7 V c 7 t)) (iblk7 V c 12 t) (iblk7 V c 8 t) (iblk7 V c 9 t)
    (aH V c) (aWS V c) (aBS V c) (aSF V c) (rowAt t)
    (hid_pt V c t) (blk_8 V c t) (fun q => blk_9 V c t 0 q) (blk_12 V c t 0 0) a

/-! ## The cover: row r is in point r / 64's block -/

theorem mem_blk_13 (t : Fin cfg7.N) (i : S2048x4096.Idx) :
    i ∈ ((cfg7.win 13).blk t).view.set ↔ ∀ a : Fin 2, win7_13.index t a * S64x4096.size a ≤ (i a).val
      ∧ (i a).val < win7_13.index t a * S64x4096.size a + S64x4096.size a := by
  show i ∈ ((View.whole main_v426_0).slice (win7_13.rect t)).set ↔ _
  rw [View.set_slice_whole, Rect.mem_set_unit]
  exact Iff.rfl

theorem cover_13 (i : S2048x4096.Idx) :
    ∃ t : Fin cfg7.N, (cfg7.win 13).flush t = true ∧ i ∈ ((cfg7.win 13).blk t).view.set := by
  have hi0 : (i 0).val < 2048 := (i 0).isLt
  have hi1 : (i 1).val < 4096 := (i 1).isLt
  obtain ⟨t, ht⟩ : ∃ t : Fin cfg7.N, t.val = (i 0).val / 64 :=
    ⟨⟨(i 0).val / 64, by show (i 0).val / 64 < 32; omega⟩, rfl⟩
  obtain ⟨e0, e1⟩ := idx_13 t
  refine ⟨t, flush7_13 t, ?_⟩
  rw [mem_blk_13]
  intro a
  match a with
  | ⟨0, _⟩ =>
    show win7_13.index t (0 : Fin 2) * 64 ≤ (i 0).val ∧ (i 0).val < win7_13.index t (0 : Fin 2) * 64 + 64
    rw [e0, ht]; omega
  | ⟨1, _⟩ =>
    show win7_13.index t (1 : Fin 2) * 4096 ≤ (i 1).val ∧ (i 1).val < win7_13.index t (1 : Fin 2) * 4096 + 4096
    rw [e1]; omega

theorem mem_blk_14 (t : Fin cfg7.N) (i : S2048x1.Idx) :
    i ∈ ((cfg7.win 14).blk t).view.set ↔ ∀ a : Fin 2, win7_14.index t a * S64x1.size a ≤ (i a).val
      ∧ (i a).val < win7_14.index t a * S64x1.size a + S64x1.size a := by
  show i ∈ ((View.whole main_v426_1).slice (win7_14.rect t)).set ↔ _
  rw [View.set_slice_whole, Rect.mem_set_unit]
  exact Iff.rfl

theorem cover_14 (i : S2048x1.Idx) :
    ∃ t : Fin cfg7.N, (cfg7.win 14).flush t = true ∧ i ∈ ((cfg7.win 14).blk t).view.set := by
  have hi0 : (i 0).val < 2048 := (i 0).isLt
  have hi1 : (i 1).val < 1 := (i 1).isLt
  obtain ⟨t, ht⟩ : ∃ t : Fin cfg7.N, t.val = (i 0).val / 64 :=
    ⟨⟨(i 0).val / 64, by show (i 0).val / 64 < 32; omega⟩, rfl⟩
  obtain ⟨e0, e1⟩ := idx_14 t
  refine ⟨t, flush7_14 t, ?_⟩
  rw [mem_blk_14]
  intro a
  match a with
  | ⟨0, _⟩ =>
    show win7_14.index t (0 : Fin 2) * 64 ≤ (i 0).val ∧ (i 0).val < win7_14.index t (0 : Fin 2) * 64 + 64
    rw [e0, ht]; omega
  | ⟨1, _⟩ =>
    show win7_14.index t (1 : Fin 2) * 1 ≤ (i 1).val ∧ (i 1).val < win7_14.index t (1 : Fin 2) * 1 + 1
    rw [e1]; omega

/-! ## The output arrays after the region -/

/-- The first output array ends holding the transformed half over the arrays the region read. -/
theorem final_13 (c : Dev nD) : (dat7 V c).arrAt 13 cfg7.N = GY V c :=
  (dat7 V c).arrAt_eq_of_cover 13 (GY V c) (fun t _ => flushed_13 V c t) cover_13

/-- The second output array ends holding the row sums of the scale. -/
theorem final_14 (c : Dev nD) : (dat7 V c).arrAt 14 cfg7.N = GS V c :=
  (dat7 V c).arrAt_eq_of_cover 14 (GS V c) (fun t _ => flushed_14 V c t) cover_14

/-! ## The two output arrays over the literal references of the region's windows -/

/-- The first output array after the region: the transformed half over the arrays the region read. -/
theorem arr13 (c : Dev nD) : ((dat7 V c).arrAt 13 cfg7.N : S2048x4096.Idx → EReal)
    = coupleY (V c main_v400) (coupleS (coupleH (V c main_v398) (V c main_v7) (V c main_v402) (V c main_v404) (V c main_v407) (V c main_v409) (V c main_v412)) (V c main_v414) (V c main_v417) (V c main_v425))
        (coupleT (coupleH (V c main_v398) (V c main_v7) (V c main_v402) (V c main_v404) (V c main_v407) (V c main_v409) (V c main_v412)) (V c main_v419) (V c main_v422)) :=
  final_13 V c

/-- The second output array after the region: the row sums of the scale. -/
theorem arr14 (c : Dev nD) : ((dat7 V c).arrAt 14 cfg7.N : S2048x1.Idx → EReal)
    = coupleSum (coupleS (coupleH (V c main_v398) (V c main_v7) (V c main_v402) (V c main_v404) (V c main_v407) (V c main_v409) (V c main_v412)) (V c main_v414) (V c main_v417) (V c main_v425)) :=
  final_14 V c

end Cert.KernelIdeal.KRegion7

end
-- ==== Proof.KRegion6.lean ====
/- Region 6 of the kernel-side program, at any contents V of the TensorCore's buffers when the region is entered:
   its two output arrays after the region, in closed form over the thirteen arrays it reads. A grid point t reads
   rows 64t … 64t + 63 of the three row-indexed arrays and the whole of the ten weight arrays; what it writes back
   is rows 64t … 64t + 63 of one whole-array function (the transformed half, resp. the row sums of the scale); the
   32 points' row blocks cover the 2048 rows. -/
import proofs.«175835_j29978871726094_1_alg».proof.Proof.Gen.KernelIdeal.Frame
import proofs.«175835_j29978871726094_1_alg».proof.Proof.KPoint

set_option maxRecDepth 16384

open scoped BigOperators

noncomputable section

namespace Cert.KernelIdeal.KRegion6

open Idealize.ShloMosaic Idealize.ShloMosaic.TcCoe Idealize.SL.Sem
open Idealize.ShloMosaic.Pipeline (Dat)
open Idealize.ShloMosaic.ValueIdx
open Cert.KernelIdeal Cert.KernelIdeal.Gen Cert.Flow Cert.KernelIdeal.KPoint

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the grid: a row-blocked window is at block t, the others at block 0 -/
theorem idx_0 : ∀ t : Fin cfg6.N, win6_0.index t (0 : Fin 2) = t.val ∧ win6_0.index t (1 : Fin 2) = 0 :=
  (by decide +kernel : ∀ t : Fin grid6.N, _)
theorem idx_1 : ∀ t : Fin cfg6.N, win6_1.index t (0 : Fin 2) = t.val ∧ win6_1.index t (1 : Fin 2) = 0 :=
  (by decide +kernel : ∀ t : Fin grid6.N, _)
theorem idx_2 : ∀ t : Fin cfg6.N, win6_2.index t (0 : Fin 2) = t.val ∧ win6_2.index t (1 : Fin 2) = 0 :=
  (by decide +kernel : ∀ t : Fin grid6.N, _)
theorem idx_3 : ∀ t : Fin cfg6.N, win6_3.index t (0 : Fin 2) = 0 ∧ win6_3.index t (1 : Fin 2) = 0 :=
  (by decide +kernel : ∀ t : Fin grid6.N, _)
theorem idx_4 : ∀ t : Fin cfg6.N, win6_4.index t (0 : Fin 2) = 0 ∧ win6_4.index t (1 : Fin 2) = 0 :=
  (by decide +kernel : ∀ t : Fin grid6.N, _)
theorem idx_5 : ∀ t : Fin cfg6.N, win6_5.index t (0 : Fin 2) = 0 ∧ win6_5.index t (1 : Fin 2) = 0 :=
  (by decide +kernel : ∀ t : Fin grid6.N, _)
theorem idx_6 : ∀ t : Fin cfg6.N, win6_6.index t (0 : Fin 2) = 0 ∧ win6_6.index t (1 : Fin 2) = 0 :=
  (by decide +kernel : ∀ t : Fin grid6.N, _)
theorem idx_7 : ∀ t : Fin cfg6.N, win6_7.index t (0 : Fin 2) = 0 ∧ win6_7.index t (1 : Fin 2) = 0 :=
  (by decide +kernel : ∀ t : Fin grid6.N, _)
theorem idx_8 : ∀ t : Fin cfg6.N, win6_8.index t (0 : Fin 2) = 0 ∧ win6_8.index t (1 : Fin 2) = 0 :=
  (by decide +kernel : ∀ t : Fin grid6.N, _)
theorem idx_9 : ∀ t : Fin cfg6.N, win6_9.index t (0 : Fin 2) = 0 ∧ win6_9.index t (1 : Fin 2) = 0 :=
  (by decide +kernel : ∀ t : Fin grid6.N, _)
theorem idx_10 : ∀ t : Fin cfg6.N, win6_10.index t (0 : Fin 2) = 0 ∧ win6_10.index t (1 : Fin 2) = 0 :=
  (by decide +kernel : ∀ t : Fin grid6.N, _)
theorem idx_11 : ∀ t : Fin cfg6.N, win6_11.index t (0 : Fin 2) = 0 ∧ win6_11.index t (1 : Fin 2) = 0 :=
  (by decide +kernel : ∀ t : Fin grid6.N, _)
theorem idx_12 : ∀ t : Fin cfg6.N, win6_12.index t (0 : Fin 2) = 0 ∧ win6_12.index t (1 : Fin 2) = 0 :=
  (by decide +kernel : ∀ t : Fin grid6.N, _)
theorem idx_13 : ∀ t : Fin cfg6.N, win6_13.index t (0 : Fin 2) = t.val ∧ win6_13.index t (1 : Fin 2) = 0 :=
  (by decide +kernel : ∀ t : Fin grid6.N, _)
theorem idx_14 : ∀ t : Fin cfg6.N, win6_14.index t (0 : Fin 2) = t.val ∧ win6_14.index t (1 : Fin 2) = 0 :=
  (by decide +kernel : ∀ t : Fin grid6.N, _)

/-! ## The arrays the region reads, as it finds them -/
/-- the conditioning half -/
abbrev aXC (c : Dev nD) : A2 2048 4096 := V c (Pipeline.arrRef spec6 0)
/-- the half that is transformed -/
abbrev aXU (c : Dev nD) : A2 2048 4096 := V c (Pipeline.arrRef spec6 1)
/-- the conditioning array -/
abbrev aCND (c : Dev nD) : A2 2048 1024 := V c (Pipeline.arrRef spec6 2)
/-- the first layer's rows against the conditioning half -/
abbrev aW1A (c : Dev nD) : A2 4096 1024 := V c (Pipeline.arrRef spec6 3)
/-- the first layer's rows against the conditioning array -/
abbrev aW1B (c : Dev nD) : A2 1024 1024 := V c (Pipeline.arrRef spec6 4)
/-- the first layer's bias -/
abbrev aB1 (c : Dev nD) : A2 1 1024 := V c (Pipeline.arrRef spec6 5)
/-- the second layer's matrix -/
abbrev aW2 (c : Dev nD) : A2 1024 1024 := V c (Pipeline.arrRef spec6 6)
/-- the second layer's bias -/
abbrev aB2 (c : Dev nD) : A2 1 1024 := V c (Pipeline.arrRef spec6 7)
/-- the scale layer's matrix -/
abbrev aWS (c : Dev nD) : A2 1024 4096 := V c (Pipeline.arrRef spec6 8)
/-- the scale layer's bias -/
abbrev aBS (c : Dev nD) : A2 1 4096 := V c (Pipeline.arrRef spec6 9)
/-- the shift layer's matrix -/
abbrev aWT (c : Dev nD) : A2 1024 4096 := V c (Pipeline.arrRef spec6 10)
/-- the shift layer's bias -/
abbrev aBT (c : Dev nD) : A2 1 4096 := V c (Pipeline.arrRef spec6 11)
/-- the scale's scalar -/
abbrev aSF (c : Dev nD) : A2 1 1 := V c (Pipeline.arrRef spec6 12)

/-- The hidden array over the arrays the region reads. -/
abbrev aH (c : Dev nD) : A2 2048 1024 := coupleH (aXC V c) (aCND V c) (aW1A V c) (aW1B V c) (aB1 V c) (aW2 V c) (aB2 V c)
/-- The scale array. -/
abbrev aS (c : Dev nD) : A2 2048 4096 := coupleS (aH V c) (aWS V c) (aBS V c) (aSF V c)
/-- The transformed half. -/
abbrev GY (c : Dev nD) : A2 2048 4096 := coupleY (aXU V c) (aS V c) (coupleT (aH V c) (aWT V c) (aBT V c))
/-- The row sums of the scale. -/
abbrev GS (c : Dev nD) : A2 2048 1 := coupleSum (aS V c)

/-- The row of the arrays that row a of point t's row blocks is. -/
def rowAt (t : Fin cfg6.N) (a : Fin 64) : Fin 2048 :=
  ⟨t.val * 64 + a.val, by have ht : t.val < 32 := t.isLt; have := a.isLt; omega⟩

/-! ## Each input block as entries of its array -/
theorem blk_0 (c : Dev nD) (t : Fin cfg6.N) (a : Fin 64) (q : Fin 4096) :
    (iblk6 V c 0 t : Vec Ideal S64x4096 .f32) (ix2 a q) = aXC V c (ix2 (rowAt t a) q) := by
  obtain ⟨e0, e1⟩ := idx_0 t
  unfold iblk6
  rw [View.read_apply]
  show V c main_v346 _ = V c main_v346 _
  refine congrArg (V c main_v346) ?_
  funext d
  apply Fin.ext
  match d with
  | ⟨0, _⟩ => show win6_0.index t (0 : Fin 2) * 64 + 1 * a.val = t.val * 64 + a.val; rw [e0]; omega
  | ⟨1, _⟩ => show win6_0.index t (1 : Fin 2) * 4096 + 1 * q.val = q.val; rw [e1]; omega
theorem blk_1 (c : Dev nD) (t : Fin cfg6.N) (a : Fin 64) (q : Fin 4096) :
    (iblk6 V c 1 t : Vec Ideal S64x4096 .f32) (ix2 a q) = aXU V c (ix2 (rowAt t a) q) := by
  obtain ⟨e0, e1⟩ := idx_1 t
  unfold iblk6
  rw [View.read_apply]
  show V c main_v348 _ = V c main_v348 _
  refine congrArg (V c main_v348) ?_
  funext d
  apply Fin.ext
  match d with
  | ⟨0, _⟩ => show win6_1.index t (0 : Fin 2) * 64 + 1 * a.val = t.val * 64 + a.val; rw [e0]; omega
  | ⟨1, _⟩ => show win6_1.index t (1 : Fin 2) * 4096 + 1 * q.val = q.val; rw [e1]; omega
theorem blk_2 (c : Dev nD) (t : Fin cfg6.N) (a : Fin 64) (q : Fin 1024) :
    (iblk6 V c 2 t : Vec Ideal S64x1024 .f32) (ix2 a q) = aCND V c (ix2 (rowAt t a) q) := by
  obtain ⟨e0, e1⟩ := idx_2 t
  unfold iblk6
  rw [View.read_apply]
  show V c main_v7 _ = V c main_v7 _
  refine congrArg (V c main_v7) ?_
  funext d
  apply Fin.ext
  match d with
  | ⟨0, _⟩ => show win6_2.index t (0 : Fin 2) * 64 + 1 * a.val = t.val * 64 + a.val; rw [e0]; omega
  | ⟨1, _⟩ => show win6_2.index t (1 : Fin 2) * 1024 + 1 * q.val = q.val; rw [e1]; omega
theorem blk_3 (c : Dev nD) (t : Fin cfg6.N) (a : Fin 4096) (q : Fin 1024) :
    (iblk6 V c 3 t : Vec Ideal S4096x1024 .bf16) (ix2 a q) = aW1A V c (ix2 a q) := by
  obtain ⟨e0, e1⟩ := idx_3 t
  unfold iblk6
  rw [View.read_apply]
  show V c main_v350 _ = V c main_v350 _
  refine congrArg (V c main_v350) ?_
  funext d
  apply Fin.ext
  match d with
  | ⟨0, _⟩ => show win6_3.index t (0 : Fin 2) * 4096 + 1 * a.val = a.val; rw [e0]; omega
  | ⟨1, _⟩ => show win6_3.index t (1 : Fin 2) * 1024 + 1 * q.val = q.val; rw [e1]; omega
theorem blk_4 (c : Dev nD) (t : Fin cfg6.N) (a : Fin 1024) (q : Fin 1024) :
    (iblk6 V c 4 t : Vec Ideal S1024x1024 .bf16) (ix2 a q) = aW1B V c (ix2 a q) := by
  obtain ⟨e0, e1⟩ := idx_4 t
  unfold iblk6
  rw [View.read_apply]
  show V c main_v352 _ = V c main_v352 _
  refine congrArg (V c main_v352) ?_
  funext d
  apply Fin.ext
  match d with
  | ⟨0, _⟩ => show win6_4.index t (0 : Fin 2) * 1024 + 1 * a.val = a.val; rw [e0]; omega
  | ⟨1, _⟩ => show win6_4.index t (1 : Fin 2) * 1024 + 1 * q.val = q.val; rw [e1]; omega
theorem blk_5 (c : Dev nD) (t : Fin cfg6.N) (a : Fin 1) (q : Fin 1024) :
    (iblk6 V c 5 t : Vec Ideal S1x1024 .f32) (ix2 a q) = aB1 V c (ix2 a q) := by
  obtain ⟨e0, e1⟩ := idx_5 t
  unfold iblk6
  rw [View.read_apply]
  show V c main_v355 _ = V c main_v355 _
  refine congrArg (V c main_v355) ?_
  funext d
  apply Fin.ext
  match d with
  | ⟨0, _⟩ => show win6_5.index t (0 : Fin 2) * 1 + 1 * a.val = a.val; rw [e0]; omega
  | ⟨1, _⟩ => show win6_5.index t (1 : Fin 2) * 1024 + 1 * q.val = q.val; rw [e1]; omega
theorem blk_6 (c : Dev nD) (t : Fin cfg6.N) (a : Fin 1024) (q : Fin 1024) :
    (iblk6 V c 6 t : Vec Ideal S1024x1024 .bf16) (ix2 a q) = aW2 V c (ix2 a q) := by
  obtain ⟨e0, e1⟩ := idx_6 t
  unfold iblk6
  rw [View.read_apply]
  show V c main_v357 _ = V c main_v357 _
  refine congrArg (V c main_v357) ?_
  funext d
  apply Fin.ext
  match d with
  | ⟨0, _⟩ => show win6_6.index t (0 : Fin 2) * 1024 + 1 * a.val = a.val; rw [e0]; omega
  | ⟨1, _⟩ => show win6_6.index t (1 : Fin 2) * 1024 + 1 * q.val = q.val; rw [e1]; omega
theorem blk_7 (c : Dev nD) (t : Fin cfg6.N) (a : Fin 1) (q : Fin 1024) :
    (iblk6 V c 7 t : Vec Ideal S1x1024 .f32) (ix2 a q) = aB2 V c (ix2 a q) := by
  obtain ⟨e0, e1⟩ := idx_7 t
  unfold iblk6
  rw [View.read_apply]
  show V c main_v360 _ = V c main_v360 _
  refine congrArg (V c main_v360) ?_
  funext d
  apply Fin.ext
  match d with
  | ⟨0, _⟩ => show win6_7.index t (0 : Fin 2) * 1 + 1 * a.val = a.val; rw [e0]; omega
  | ⟨1, _⟩ => show win6_7.index t (1 : Fin 2) * 1024 + 1 * q.val = q.val; rw [e1]; omega
theorem blk_8 (c : Dev nD) (t : Fin cfg6.N) (a : Fin 1024) (q : Fin 4096) :
    (iblk6 V c 8 t : Vec Ideal S1024x4096 .bf16) (ix2 a q) = aWS V c (ix2 a q) := by
  obtain ⟨e0, e1⟩ := idx_8 t
  unfold iblk6
  rw [View.read_apply]
  show V c main_v362 _ = V c main_v362 _
  refine congrArg (V c main_v362) ?_
  funext d
  apply Fin.ext
  match d with
  | ⟨0, _⟩ => show win6_8.index t (0 : Fin 2) * 1024 + 1 * a.val = a.val; rw [e0]; omega
  | ⟨1, _⟩ => show win6_8.index t (1 : Fin 2) * 4096 + 1 * q.val = q.val; rw [e1]; omega
theorem blk_9 (c : Dev nD) (t : Fin cfg6.N) (a : Fin 1) (q : Fin 4096) :
    (iblk6 V c 9 t : Vec Ideal S1x4096 .f32) (ix2 a q) = aBS V c (ix2 a q) := by
  obtain ⟨e0, e1⟩ := idx_9 t
  unfold iblk6
  rw [View.read_apply]
  show V c main_v365 _ = V c main_v365 _
  refine congrArg (V c main_v365) ?_
  funext d
  apply Fin.ext
  match d with
  | ⟨0, _⟩ => show win6_9.index t (0 : Fin 2) * 1 + 1 * a.val = a.val; rw [e0]; omega
  | ⟨1, _⟩ => show win6_9.index t (1 : Fin 2) * 4096 + 1 * q.val = q.val; rw [e1]; omega
theorem blk_10 (c : Dev nD) (t : Fin cfg6.N) (a : Fin 1024) (q : Fin 4096) :
    (iblk6 V c 10 t : Vec Ideal S1024x4096 .bf16) (ix2 a q) = aWT V c (ix2 a q) := by
  obtain ⟨e0, e1⟩ := idx_10 t
  unfold iblk6
  rw [View.read_apply]
  show V c main_v367 _ = V c main_v367 _
  refine congrArg (V c main_v367) ?_
  funext d
  apply Fin.ext
  match d with
  | ⟨0, _⟩ => show win6_10.index t (0 : Fin 2) * 1024 + 1 * a.val = a.val; rw [e0]; omega
  | ⟨1, _⟩ => show win6_10.index t (1 : Fin 2) * 4096 + 1 * q.val = q.val; rw [e1]; omega
theorem blk_11 (c : Dev nD) (t : Fin cfg6.N) (a : Fin 1) (q : Fin 4096) :
    (iblk6 V c 11 t : Vec Ideal S1x4096 .f32) (ix2 a q) = aBT V c (ix2 a q) := by
  obtain ⟨e0, e1⟩ := idx_11 t
  unfold iblk6
  rw [View.read_apply]
  show V c main_v370 _ = V c main_v370 _
  refine congrArg (V c main_v370) ?_
  funext d
  apply Fin.ext
  match d with
  | ⟨0, _⟩ => show win6_11.index t (0 : Fin 2) * 1 + 1 * a.val = a.val; rw [e0]; omega
  | ⟨1, _⟩ => show win6_11.index t (1 : Fin 2) * 4096 + 1 * q.val = q.val; rw [e1]; omega
theorem blk_12 (c : Dev nD) (t : Fin cfg6.N) (a : Fin 1) (q : Fin 1) :
    (iblk6 V c 12 t : Vec Ideal S1x1 .f32) (ix2 a q) = aSF V c (ix2 a q) := by
  obtain ⟨e0, e1⟩ := idx_12 t
  unfold iblk6
  rw [View.read_apply]
  show V c main_v373 _ = V c main_v373 _
  refine congrArg (V c main_v373) ?_
  funext d
  apply Fin.ext
  match d with
  | ⟨0, _⟩ => show win6_12.index t (0 : Fin 2) * 1 + 1 * a.val = a.val; rw [e0]; omega
  | ⟨1, _⟩ => show win6_12.index t (1 : Fin 2) * 1 + 1 * q.val = q.val; rw [e1]; omega

/-! ## What a point computes, as rows of the arrays -/

/-- The hidden block of point t is rows 64t … 64t + 63 of the hidden array. -/
theorem hid_pt (c : Dev nD) (t : Fin cfg6.N) (a : Fin 64) (k : Fin 1024) :
    (k0_pay4 (F := Ideal) (iblk6 V c 0 t) (iblk6 V c 2 t) (iblk6 V c 3 t) (iblk6 V c 4 t) (iblk6 V c 5 t) (iblk6 V c 6 t) (iblk6 V c 7 t)) (ix2 a k) = aH V c (ix2 (rowAt t a) k) :=
  hidden_rows (iblk6 V c 0 t) (iblk6 V c 2 t) (iblk6 V c 3 t) (iblk6 V c 4 t) (iblk6 V c 5 t) (iblk6 V c 6 t) (iblk6 V c 7 t)
    (aXC V c) (aCND V c) (aW1A V c) (aW1B V c) (aB1 V c) (aW2 V c) (aB2 V c) (rowAt t)
    (blk_0 V c t) (blk_2 V c t) (blk_3 V c t) (blk_4 V c t) (fun k => blk_5 V c t 0 k) (blk_6 V c t) (fun k => blk_7 V c t 0 k) a k

/-- Row a, column q of point t's block of output 13 is row 64t + a, column q of its array. -/
theorem emb_13 (t : Fin cfg6.N) (a : Fin 64) (q : Fin 4096) :
    ((cfg6.win 13).blk t).view.emb (ix2 a q : S64x4096.Idx) = (ix2 (rowAt t a) q : S2048x4096.Idx) := by
  obtain ⟨e0, e1⟩ := idx_13 t
  funext d
  apply Fin.ext
  match d with
  | ⟨0, _⟩ => show win6_13.index t (0 : Fin 2) * 64 + 1 * a.val = t.val * 64 + a.val; rw [e0]; omega
  | ⟨1, _⟩ => show win6_13.index t (1 : Fin 2) * 4096 + 1 * q.val = q.val; rw [e1]; omega

/-- Row a, column q of point t's block of output 14 is row 64t + a, column q of its array. -/
theorem emb_14 (t : Fin cfg6.N) (a : Fin 64) (q : Fin 1) :
    ((cfg6.win 14).blk t).view.emb (ix2 a q : S64x1.Idx) = (ix2 (rowAt t a) q : S2048x1.Idx) := by
  obtain ⟨e0, e1⟩ := idx_14 t
  funext d
  apply Fin.ext
  match d with
  | ⟨0, _⟩ => show win6_14.index t (0 : Fin 2) * 64 + 1 * a.val = t.val * 64 + a.val; rw [e0]; omega
  | ⟨1, _⟩ => show win6_14.index t (1 : Fin 2) * 1 + 1 * q.val = q.val; rw [e1]; omega

/-! ## What a point writes back is its block of one whole-array function -/

theorem flushed_13 (c : Dev nD) (t : Fin cfg6.N) :
    (dat6 V c).flushed 13 t = ((cfg6.win 13).blk t).view.read (Elt Ideal) (GY V c) := by
  show (cfg6.win 13).cut (grid6.coords t) ((dat6 V c).after 13 t) = _
  rw [after6_13]
  unfold out6_13
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 4096) fun a q => ?_
  show k0_pay2 (F := Ideal) (k0_pay4 (F := Ideal) (iblk6 V c 0 t) (iblk6 V c 2 t) (iblk6 V c 3 t) (iblk6 V c 4 t) (iblk6 V c 5 t) (iblk6 V c 6 t) (iblk6 V c 7 t)) (iblk6 V c 12 t) (iblk6 V c 8 t) (iblk6 V c 9 t) (iblk6 V c 10 t) (iblk6 V c 11 t) (iblk6 V c 1 t) (ix2 a q)
    = GY V c (((cfg6.win 13).blk t).view.emb (ix2 a q : S64x4096.Idx))
  rw [emb_13]
  exact y_rows (k0_pay4 (F := Ideal) (iblk6 V c 0 t) (iblk6 V c 2 t) (iblk6 V c 3 t) (iblk6 V c 4 t) (iblk6 V c 5 t) (iblk6 V c 6 t) (iblk6 V c 7 t)) (iblk6 V c 12 t) (iblk6 V c 8 t) (iblk6 V c 9 t) (iblk6 V c 10 t) (iblk6 V c 11 t) (iblk6 V c 1 t)
    (aH V c) (aWS V c) (aBS V c) (aSF V c) (aWT V c) (aBT V c) (aXU V c) (rowAt t)
    (hid_pt V c t) (blk_8 V c t) (fun q => blk_9 V c t 0 q) (blk_12 V c t 0 0) (blk_10 V c t) (fun q => blk_11 V c t 0 q)
    (blk_1 V c t) a q

theorem flushed_14 (c : Dev nD) (t : Fin cfg6.N) :
    (dat6 V c).flushed 14 t = ((cfg6.win 14).blk t).view.read (Elt Ideal) (GS V c) := by
  show (cfg6.win 14).cut (grid6.coords t) ((dat6 V c).after 14 t) = _
  rw [after6_14]
  unfold out6_14
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 1) fun a q => ?_
  obtain rfl : q = 0 := Subsingleton.elim _ _
  show k0_pay3 (F := Ideal) (k0_pay4 (F := Ideal) (iblk6 V c 0 t) (iblk6 V c 2 t) (iblk6 V c 3 t) (iblk6 V c 4 t) (iblk6 V c 5 t) (iblk6 V c 6 t) (iblk6 V c 7 t)) (iblk6 V c 12 t) (iblk6 V c 8 t) (iblk6 V c 9 t) (ix2 a 0)
    = GS V c (((cfg6.win 14).blk t).view.emb (ix2 a 0 : S64x1.Idx))
  rw [emb_14]
  exact sum_rows (k0_pay4 (F := Ideal) (iblk6 V c 0 t) (iblk6 V c 2 t) (iblk6 V c 3 t) (iblk6 V c 4 t) (iblk6 V c 5 t) (iblk6 V c 6 t) (iblk6 V c 7 t)) (iblk6 V c 12 t) (iblk6 V c 8 t) (iblk6 V c 9 t)
    (aH V c) (aWS V c) (aBS V c) (aSF V c) (rowAt t)
    (hid_pt V c t) (blk_8 V c t) (fun q => blk_9 V c t 0 q) (blk_12 V c t 0 0) a

/-! ## The cover: row r is in point r / 64's block -/

theorem mem_blk_13 (t : Fin cfg6.N) (i : S2048x4096.Idx) :
    i ∈ ((cfg6.win 13).blk t).view.set ↔ ∀ a : Fin 2, win6_13.index t a * S64x4096.size a ≤ (i a).val
      ∧ (i a).val < win6_13.index t a * S64x4096.size a + S64x4096.size a := by
  show i ∈ ((View.whole main_v374_0).slice (win6_13.rect t)).set ↔ _
  rw [View.set_slice_whole, Rect.mem_set_unit]
  exact Iff.rfl

theorem cover_13 (i : S2048x4096.Idx) :
    ∃ t : Fin cfg6.N, (cfg6.win 13).flush t = true ∧ i ∈ ((cfg6.win 13).blk t).view.set := by
  have hi0 : (i 0).val < 2048 := (i 0).isLt
  have hi1 : (i 1).val < 4096 := (i 1).isLt
  obtain ⟨t, ht⟩ : ∃ t : Fin cfg6.N, t.val = (i 0).val / 64 :=
    ⟨⟨(i 0).val / 64, by show (i 0).val / 64 < 32; omega⟩, rfl⟩
  obtain ⟨e0, e1⟩ := idx_13 t
  refine ⟨t, flush6_13 t, ?_⟩
  rw [mem_blk_13]
  intro a
  match a with
  | ⟨0, _⟩ =>
    show win6_13.index t (0 : Fin 2) * 64 ≤ (i 0).val ∧ (i 0).val < win6_13.index t (0 : Fin 2) * 64 + 64
    rw [e0, ht]; omega
  | ⟨1, _⟩ =>
    show win6_13.index t (1 : Fin 2) * 4096 ≤ (i 1).val ∧ (i 1).val < win6_13.index t (1 : Fin 2) * 4096 + 4096
    rw [e1]; omega

theorem mem_blk_14 (t : Fin cfg6.N) (i : S2048x1.Idx) :
    i ∈ ((cfg6.win 14).blk t).view.set ↔ ∀ a : Fin 2, win6_14.index t a * S64x1.size a ≤ (i a).val
      ∧ (i a).val < win6_14.index t a * S64x1.size a + S64x1.size a := by
  show i ∈ ((View.whole main_v374_1).slice (win6_14.rect t)).set ↔ _
  rw [View.set_slice_whole, Rect.mem_set_unit]
  exact Iff.rfl

theorem cover_14 (i : S2048x1.Idx) :
    ∃ t : Fin cfg6.N, (cfg6.win 14).flush t = true ∧ i ∈ ((cfg6.win 14).blk t).view.set := by
  have hi0 : (i 0).val < 2048 := (i 0).isLt
  have hi1 : (i 1).val < 1 := (i 1).isLt
  obtain ⟨t, ht⟩ : ∃ t : Fin cfg6.N, t.val = (i 0).val / 64 :=
    ⟨⟨(i 0).val / 64, by show (i 0).val / 64 < 32; omega⟩, rfl⟩
  obtain ⟨e0, e1⟩ := idx_14 t
  refine ⟨t, flush6_14 t, ?_⟩
  rw [mem_blk_14]
  intro a
  match a with
  | ⟨0, _⟩ =>
    show win6_14.index t (0 : Fin 2) * 64 ≤ (i 0).val ∧ (i 0).val < win6_14.index t (0 : Fin 2) * 64 + 64
    rw [e0, ht]; omega
  | ⟨1, _⟩ =>
    show win6_14.index t (1 : Fin 2) * 1 ≤ (i 1).val ∧ (i 1).val < win6_14.index t (1 : Fin 2) * 1 + 1
    rw [e1]; omega

/-! ## The output arrays after the region -/

/-- The first output array ends holding the transformed half over the arrays the region read. -/
theorem final_13 (c : Dev nD) : (dat6 V c).arrAt 13 cfg6.N = GY V c :=
  (dat6 V c).arrAt_eq_of_cover 13 (GY V c) (fun t _ => flushed_13 V c t) cover_13

/-- The second output array ends holding the row sums of the scale. -/
theorem final_14 (c : Dev nD) : (dat6 V c).arrAt 14 cfg6.N = GS V c :=
  (dat6 V c).arrAt_eq_of_cover 14 (GS V c) (fun t _ => flushed_14 V c t) cover_14

/-! ## The two output arrays over the literal references of the region's windows -/

/-- The first output array after the region: the transformed half over the arrays the region read. -/
theorem arr13 (c : Dev nD) : ((dat6 V c).arrAt 13 cfg6.N : S2048x4096.Idx → EReal)
    = coupleY (V c main_v348) (coupleS (coupleH (V c main_v346) (V c main_v7) (V c main_v350) (V c main_v352) (V c main_v355) (V c main_v357) (V c main_v360)) (V c main_v362) (V c main_v365) (V c main_v373))
        (coupleT (coupleH (V c main_v346) (V c main_v7) (V c main_v350) (V c main_v352) (V c main_v355) (V c main_v357) (V c main_v360)) (V c main_v367) (V c main_v370)) :=
  final_13 V c

/-- The second output array after the region: the row sums of the scale. -/
theorem arr14 (c : Dev nD) : ((dat6 V c).arrAt 14 cfg6.N : S2048x1.Idx → EReal)
    = coupleSum (coupleS (coupleH (V c main_v346) (V c main_v7) (V c main_v350) (V c main_v352) (V c main_v355) (V c main_v357) (V c main_v360)) (V c main_v362) (V c main_v365) (V c main_v373)) :=
  final_14 V c

end Cert.KernelIdeal.KRegion6

end
-- ==== Proof.KRegion5.lean ====
/- Region 5 of the kernel-side program, at any contents V of the TensorCore's buffers when the region is entered:
   its two output arrays after the region, in closed form over the thirteen arrays it reads. A grid point t reads
   rows 64t … 64t + 63 of the three row-indexed arrays and the whole of the ten weight arrays; what it writes back
   is rows 64t … 64t + 63 of one whole-array function (the transformed half, resp. the row sums of the scale); the
   32 points' row blocks cover the 2048 rows. -/
import proofs.«175835_j29978871726094_1_alg».proof.Proof.Gen.KernelIdeal.Frame
import proofs.«175835_j29978871726094_1_alg».proof.Proof.KPoint

set_option maxRecDepth 16384

open scoped BigOperators

noncomputable section

namespace Cert.KernelIdeal.KRegion5

open Idealize.ShloMosaic Idealize.ShloMosaic.TcCoe Idealize.SL.Sem
open Idealize.ShloMosaic.Pipeline (Dat)
open Idealize.ShloMosaic.ValueIdx
open Cert.KernelIdeal Cert.KernelIdeal.Gen Cert.Flow Cert.KernelIdeal.KPoint

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the grid: a row-blocked window is at block t, the others at block 0 -/
theorem idx_0 : ∀ t : Fin cfg5.N, win5_0.index t (0 : Fin 2) = t.val ∧ win5_0.index t (1 : Fin 2) = 0 :=
  (by decide +kernel : ∀ t : Fin grid5.N, _)
theorem idx_1 : ∀ t : Fin cfg5.N, win5_1.index t (0 : Fin 2) = t.val ∧ win5_1.index t (1 : Fin 2) = 0 :=
  (by decide +kernel : ∀ t : Fin grid5.N, _)
theorem idx_2 : ∀ t : Fin cfg5.N, win5_2.index t (0 : Fin 2) = t.val ∧ win5_2.index t (1 : Fin 2) = 0 :=
  (by decide +kernel : ∀ t : Fin grid5.N, _)
theorem idx_3 : ∀ t : Fin cfg5.N, win5_3.index t (0 : Fin 2) = 0 ∧ win5_3.index t (1 : Fin 2) = 0 :=
  (by decide +kernel : ∀ t : Fin grid5.N, _)
theorem idx_4 : ∀ t : Fin cfg5.N, win5_4.index t (0 : Fin 2) = 0 ∧ win5_4.index t (1 : Fin 2) = 0 :=
  (by decide +kernel : ∀ t : Fin grid5.N, _)
theorem idx_5 : ∀ t : Fin cfg5.N, win5_5.index t (0 : Fin 2) = 0 ∧ win5_5.index t (1 : Fin 2) = 0 :=
  (by decide +kernel : ∀ t : Fin grid5.N, _)
theorem idx_6 : ∀ t : Fin cfg5.N, win5_6.index t (0 : Fin 2) = 0 ∧ win5_6.index t (1 : Fin 2) = 0 :=
  (by decide +kernel : ∀ t : Fin grid5.N, _)
theorem idx_7 : ∀ t : Fin cfg5.N, win5_7.index t (0 : Fin 2) = 0 ∧ win5_7.index t (1 : Fin 2) = 0 :=
  (by decide +kernel : ∀ t : Fin grid5.N, _)
theorem idx_8 : ∀ t : Fin cfg5.N, win5_8.index t (0 : Fin 2) = 0 ∧ win5_8.index t (1 : Fin 2) = 0 :=
  (by decide +kernel : ∀ t : Fin grid5.N, _)
theorem idx_9 : ∀ t : Fin cfg5.N, win5_9.index t (0 : Fin 2) = 0 ∧ win5_9.index t (1 : Fin 2) = 0 :=
  (by decide +kernel : ∀ t : Fin grid5.N, _)
theorem idx_10 : ∀ t : Fin cfg5.N, win5_10.index t (0 : Fin 2) = 0 ∧ win5_10.index t (1 : Fin 2) = 0 :=
  (by decide +kernel : ∀ t : Fin grid5.N, _)
theorem idx_11 : ∀ t : Fin cfg5.N, win5_11.index t (0 : Fin 2) = 0 ∧ win5_11.index t (1 : Fin 2) = 0 :=
  (by decide +kernel : ∀ t : Fin grid5.N, _)
theorem idx_12 : ∀ t : Fin cfg5.N, win5_12.index t (0 : Fin 2) = 0 ∧ win5_12.index t (1 : Fin 2) = 0 :=
  (by decide +kernel : ∀ t : Fin grid5.N, _)
theorem idx_13 : ∀ t : Fin cfg5.N, win5_13.index t (0 : Fin 2) = t.val ∧ win5_13.index t (1 : Fin 2) = 0 :=
  (by decide +kernel : ∀ t : Fin grid5.N, _)
theorem idx_14 : ∀ t : Fin cfg5.N, win5_14.index t (0 : Fin 2) = t.val ∧ win5_14.index t (1 : Fin 2) = 0 :=
  (by decide +kernel : ∀ t : Fin grid5.N, _)

/-! ## The arrays the region reads, as it finds them -/
/-- the conditioning half -/
abbrev aXC (c : Dev nD) : A2 2048 4096 := V c (Pipeline.arrRef spec5 0)
/-- the half that is transformed -/
abbrev aXU (c : Dev nD) : A2 2048 4096 := V c (Pipeline.arrRef spec5 1)
/-- the conditioning array -/
abbrev aCND (c : Dev nD) : A2 2048 1024 := V c (Pipeline.arrRef spec5 2)
/-- the first layer's rows against the conditioning half -/
abbrev aW1A (c : Dev nD) : A2 4096 1024 := V c (Pipeline.arrRef spec5 3)
/-- the first layer's rows against the conditioning array -/
abbrev aW1B (c : Dev nD) : A2 1024 1024 := V c (Pipeline.arrRef spec5 4)
/-- the first layer's bias -/
abbrev aB1 (c : Dev nD) : A2 1 1024 := V c (Pipeline.arrRef spec5 5)
/-- the second layer's matrix -/
abbrev aW2 (c : Dev nD) : A2 1024 1024 := V c (Pipeline.arrRef spec5 6)
/-- the second layer's bias -/
abbrev aB2 (c : Dev nD) : A2 1 1024 := V c (Pipeline.arrRef spec5 7)
/-- the scale layer's matrix -/
abbrev aWS (c : Dev nD) : A2 1024 4096 := V c (Pipeline.arrRef spec5 8)
/-- the scale layer's bias -/
abbrev aBS (c : Dev nD) : A2 1 4096 := V c (Pipeline.arrRef spec5 9)
/-- the shift layer's matrix -/
abbrev aWT (c : Dev nD) : A2 1024 4096 := V c (Pipeline.arrRef spec5 10)
/-- the shift layer's bias -/
abbrev aBT (c : Dev nD) : A2 1 4096 := V c (Pipeline.arrRef spec5 11)
/-- the scale's scalar -/
abbrev aSF (c : Dev nD) : A2 1 1 := V c (Pipeline.arrRef spec5 12)

/-- The hidden array over the arrays the region reads. -/
abbrev aH (c : Dev nD) : A2 2048 1024 := coupleH (aXC V c) (aCND V c) (aW1A V c) (aW1B V c) (aB1 V c) (aW2 V c) (aB2 V c)
/-- The scale array. -/
abbrev aS (c : Dev nD) : A2 2048 4096 := coupleS (aH V c) (aWS V c) (aBS V c) (aSF V c)
/-- The transformed half. -/
abbrev GY (c : Dev nD) : A2 2048 4096 := coupleY (aXU V c) (aS V c) (coupleT (aH V c) (aWT V c) (aBT V c))
/-- The row sums of the scale. -/
abbrev GS (c : Dev nD) : A2 2048 1 := coupleSum (aS V c)

/-- The row of the arrays that row a of point t's row blocks is. -/
def rowAt (t : Fin cfg5.N) (a : Fin 64) : Fin 2048 :=
  ⟨t.val * 64 + a.val, by have ht : t.val < 32 := t.isLt; have := a.isLt; omega⟩

/-! ## Each input block as entries of its array -/
theorem blk_0 (c : Dev nD) (t : Fin cfg5.N) (a : Fin 64) (q : Fin 4096) :
    (iblk5 V c 0 t : Vec Ideal S64x4096 .f32) (ix2 a q) = aXC V c (ix2 (rowAt t a) q) := by
  obtain ⟨e0, e1⟩ := idx_0 t
  unfold iblk5
  rw [View.read_apply]
  show V c main_v294 _ = V c main_v294 _
  refine congrArg (V c main_v294) ?_
  funext d
  apply Fin.ext
  match d with
  | ⟨0, _⟩ => show win5_0.index t (0 : Fin 2) * 64 + 1 * a.val = t.val * 64 + a.val; rw [e0]; omega
  | ⟨1, _⟩ => show win5_0.index t (1 : Fin 2) * 4096 + 1 * q.val = q.val; rw [e1]; omega
theorem blk_1 (c : Dev nD) (t : Fin cfg5.N) (a : Fin 64) (q : Fin 4096) :
    (iblk5 V c 1 t : Vec Ideal S64x4096 .f32) (ix2 a q) = aXU V c (ix2 (rowAt t a) q) := by
  obtain ⟨e0, e1⟩ := idx_1 t
  unfold iblk5
  rw [View.read_apply]
  show V c main_v296 _ = V c main_v296 _
  refine congrArg (V c main_v296) ?_
  funext d
  apply Fin.ext
  match d with
  | ⟨0, _⟩ => show win5_1.index t (0 : Fin 2) * 64 + 1 * a.val = t.val * 64 + a.val; rw [e0]; omega
  | ⟨1, _⟩ => show win5_1.index t (1 : Fin 2) * 4096 + 1 * q.val = q.val; rw [e1]; omega
theorem blk_2 (c : Dev nD) (t : Fin cfg5.N) (a : Fin 64) (q : Fin 1024) :
    (iblk5 V c 2 t : Vec Ideal S64x1024 .f32) (ix2 a q) = aCND V c (ix2 (rowAt t a) q) := by
  obtain ⟨e0, e1⟩ := idx_2 t
  unfold iblk5
  rw [View.read_apply]
  show V c main_v7 _ = V c main_v7 _
  refine congrArg (V c main_v7) ?_
  funext d
  apply Fin.ext
  match d with
  | ⟨0, _⟩ => show win5_2.index t (0 : Fin 2) * 64 + 1 * a.val = t.val * 64 + a.val; rw [e0]; omega
  | ⟨1, _⟩ => show win5_2.index t (1 : Fin 2) * 1024 + 1 * q.val = q.val; rw [e1]; omega
theorem blk_3 (c : Dev nD) (t : Fin cfg5.N) (a : Fin 4096) (q : Fin 1024) :
    (iblk5 V c 3 t : Vec Ideal S4096x1024 .bf16) (ix2 a q) = aW1A V c (ix2 a q) := by
  obtain ⟨e0, e1⟩ := idx_3 t
  unfold iblk5
  rw [View.read_apply]
  show V c main_v298 _ = V c main_v298 _
  refine congrArg (V c main_v298) ?_
  funext d
  apply Fin.ext
  match d with
  | ⟨0, _⟩ => show win5_3.index t (0 : Fin 2) * 4096 + 1 * a.val = a.val; rw [e0]; omega
  | ⟨1, _⟩ => show win5_3.index t (1 : Fin 2) * 1024 + 1 * q.val = q.val; rw [e1]; omega
theorem blk_4 (c : Dev nD) (t : Fin cfg5.N) (a : Fin 1024) (q : Fin 1024) :
    (iblk5 V c 4 t : Vec Ideal S1024x1024 .bf16) (ix2 a q) = aW1B V c (ix2 a q) := by
  obtain ⟨e0, e1⟩ := idx_4 t
  unfold iblk5
  rw [View.read_apply]
  show V c main_v300 _ = V c main_v300 _
  refine congrArg (V c main_v300) ?_
  funext d
  apply Fin.ext
  match d with
  | ⟨0, _⟩ => show win5_4.index t (0 : Fin 2) * 1024 + 1 * a.val = a.val; rw [e0]; omega
  | ⟨1, _⟩ => show win5_4.index t (1 : Fin 2) * 1024 + 1 * q.val = q.val; rw [e1]; omega
theorem blk_5 (c : Dev nD) (t : Fin cfg5.N) (a : Fin 1) (q : Fin 1024) :
    (iblk5 V c 5 t : Vec Ideal S1x1024 .f32) (ix2 a q) = aB1 V c (ix2 a q) := by
  obtain ⟨e0, e1⟩ := idx_5 t
  unfold iblk5
  rw [View.read_apply]
  show V c main_v303 _ = V c main_v303 _
  refine congrArg (V c main_v303) ?_
  funext d
  apply Fin.ext
  match d with
  | ⟨0, _⟩ => show win5_5.index t (0 : Fin 2) * 1 + 1 * a.val = a.val; rw [e0]; omega
  | ⟨1, _⟩ => show win5_5.index t (1 : Fin 2) * 1024 + 1 * q.val = q.val; rw [e1]; omega
theorem blk_6 (c : Dev nD) (t : Fin cfg5.N) (a : Fin 1024) (q : Fin 1024) :
    (iblk5 V c 6 t : Vec Ideal S1024x1024 .bf16) (ix2 a q) = aW2 V c (ix2 a q) := by
  obtain ⟨e0, e1⟩ := idx_6 t
  unfold iblk5
  rw [View.read_apply]
  show V c main_v305 _ = V c main_v305 _
  refine congrArg (V c main_v305) ?_
  funext d
  apply Fin.ext
  match d with
  | ⟨0, _⟩ => show win5_6.index t (0 : Fin 2) * 1024 + 1 * a.val = a.val; rw [e0]; omega
  | ⟨1, _⟩ => show win5_6.index t (1 : Fin 2) * 1024 + 1 * q.val = q.val; rw [e1]; omega
theorem blk_7 (c : Dev nD) (t : Fin cfg5.N) (a : Fin 1) (q : Fin 1024) :
    (iblk5 V c 7 t : Vec Ideal S1x1024 .f32) (ix2 a q) = aB2 V c (ix2 a q) := by
  obtain ⟨e0, e1⟩ := idx_7 t
  unfold iblk5
  rw [View.read_apply]
  show V c main_v308 _ = V c main_v308 _
  refine congrArg (V c main_v308) ?_
  funext d
  apply Fin.ext
  match d with
  | ⟨0, _⟩ => show win5_7.index t (0 : Fin 2) * 1 + 1 * a.val = a.val; rw [e0]; omega
  | ⟨1, _⟩ => show win5_7.index t (1 : Fin 2) * 1024 + 1 * q.val = q.val; rw [e1]; omega
theorem blk_8 (c : Dev nD) (t : Fin cfg5.N) (a : Fin 1024) (q : Fin 4096) :
    (iblk5 V c 8 t : Vec Ideal S1024x4096 .bf16) (ix2 a q) = aWS V c (ix2 a q) := by
  obtain ⟨e0, e1⟩ := idx_8 t
  unfold iblk5
  rw [View.read_apply]
  show V c main_v310 _ = V c main_v310 _
  refine congrArg (V c main_v310) ?_
  funext d
  apply Fin.ext
  match d with
  | ⟨0, _⟩ => show win5_8.index t (0 : Fin 2) * 1024 + 1 * a.val = a.val; rw [e0]; omega
  | ⟨1, _⟩ => show win5_8.index t (1 : Fin 2) * 4096 + 1 * q.val = q.val; rw [e1]; omega
theorem blk_9 (c : Dev nD) (t : Fin cfg5.N) (a : Fin 1) (q : Fin 4096) :
    (iblk5 V c 9 t : Vec Ideal S1x4096 .f32) (ix2 a q) = aBS V c (ix2 a q) := by
  obtain ⟨e0, e1⟩ := idx_9 t
  unfold iblk5
  rw [View.read_apply]
  show V c main_v313 _ = V c main_v313 _
  refine congrArg (V c main_v313) ?_
  funext d
  apply Fin.ext
  match d with
  | ⟨0, _⟩ => show win5_9.index t (0 : Fin 2) * 1 + 1 * a.val = a.val; rw [e0]; omega
  | ⟨1, _⟩ => show win5_9.index t (1 : Fin 2) * 4096 + 1 * q.val = q.val; rw [e1]; omega
theorem blk_10 (c : Dev nD) (t : Fin cfg5.N) (a : Fin 1024) (q : Fin 4096) :
    (iblk5 V c 10 t : Vec Ideal S1024x4096 .bf16) (ix2 a q) = aWT V c (ix2 a q) := by
  obtain ⟨e0, e1⟩ := idx_10 t
  unfold iblk5
  rw [View.read_apply]
  show V c main_v315 _ = V c main_v315 _
  refine congrArg (V c main_v315) ?_
  funext d
  apply Fin.ext
  match d with
  | ⟨0, _⟩ => show win5_10.index t (0 : Fin 2) * 1024 + 1 * a.val = a.val; rw [e0]; omega
  | ⟨1, _⟩ => show win5_10.index t (1 : Fin 2) * 4096 + 1 * q.val = q.val; rw [e1]; omega
theorem blk_11 (c : Dev nD) (t : Fin cfg5.N) (a : Fin 1) (q : Fin 4096) :
    (iblk5 V c 11 t : Vec Ideal S1x4096 .f32) (ix2 a q) = aBT V c (ix2 a q) := by
  obtain ⟨e0, e1⟩ := idx_11 t
  unfold iblk5
  rw [View.read_apply]
  show V c main_v318 _ = V c main_v318 _
  refine congrArg (V c main_v318) ?_
  funext d
  apply Fin.ext
  match d with
  | ⟨0, _⟩ => show win5_11.index t (0 : Fin 2) * 1 + 1 * a.val = a.val; rw [e0]; omega
  | ⟨1, _⟩ => show win5_11.index t (1 : Fin 2) * 4096 + 1 * q.val = q.val; rw [e1]; omega
theorem blk_12 (c : Dev nD) (t : Fin cfg5.N) (a : Fin 1) (q : Fin 1) :
    (iblk5 V c 12 t : Vec Ideal S1x1 .f32) (ix2 a q) = aSF V c (ix2 a q) := by
  obtain ⟨e0, e1⟩ := idx_12 t
  unfold iblk5
  rw [View.read_apply]
  show V c main_v321 _ = V c main_v321 _
  refine congrArg (V c main_v321) ?_
  funext d
  apply Fin.ext
  match d with
  | ⟨0, _⟩ => show win5_12.index t (0 : Fin 2) * 1 + 1 * a.val = a.val; rw [e0]; omega
  | ⟨1, _⟩ => show win5_12.index t (1 : Fin 2) * 1 + 1 * q.val = q.val; rw [e1]; omega

/-! ## What a point computes, as rows of the arrays -/

/-- The hidden block of point t is rows 64t … 64t + 63 of the hidden array. -/
theorem hid_pt (c : Dev nD) (t : Fin cfg5.N) (a : Fin 64) (k : Fin 1024) :
    (k0_pay4 (F := Ideal) (iblk5 V c 0 t) (iblk5 V c 2 t) (iblk5 V c 3 t) (iblk5 V c 4 t) (iblk5 V c 5 t) (iblk5 V c 6 t) (iblk5 V c 7 t)) (ix2 a k) = aH V c (ix2 (rowAt t a) k) :=
  hidden_rows (iblk5 V c 0 t) (iblk5 V c 2 t) (iblk5 V c 3 t) (iblk5 V c 4 t) (iblk5 V c 5 t) (iblk5 V c 6 t) (iblk5 V c 7 t)
    (aXC V c) (aCND V c) (aW1A V c) (aW1B V c) (aB1 V c) (aW2 V c) (aB2 V c) (rowAt t)
    (blk_0 V c t) (blk_2 V c t) (blk_3 V c t) (blk_4 V c t) (fun k => blk_5 V c t 0 k) (blk_6 V c t) (fun k => blk_7 V c t 0 k) a k

/-- Row a, column q of point t's block of output 13 is row 64t + a, column q of its array. -/
theorem emb_13 (t : Fin cfg5.N) (a : Fin 64) (q : Fin 4096) :
    ((cfg5.win 13).blk t).view.emb (ix2 a q : S64x4096.Idx) = (ix2 (rowAt t a) q : S2048x4096.Idx) := by
  obtain ⟨e0, e1⟩ := idx_13 t
  funext d
  apply Fin.ext
  match d with
  | ⟨0, _⟩ => show win5_13.index t (0 : Fin 2) * 64 + 1 * a.val = t.val * 64 + a.val; rw [e0]; omega
  | ⟨1, _⟩ => show win5_13.index t (1 : Fin 2) * 4096 + 1 * q.val = q.val; rw [e1]; omega

/-- Row a, column q of point t's block of output 14 is row 64t + a, column q of its array. -/
theorem emb_14 (t : Fin cfg5.N) (a : Fin 64) (q : Fin 1) :
    ((cfg5.win 14).blk t).view.emb (ix2 a q : S64x1.Idx) = (ix2 (rowAt t a) q : S2048x1.Idx) := by
  obtain ⟨e0, e1⟩ := idx_14 t
  funext d
  apply Fin.ext
  match d with
  | ⟨0, _⟩ => show win5_14.index t (0 : Fin 2) * 64 + 1 * a.val = t.val * 64 + a.val; rw [e0]; omega
  | ⟨1, _⟩ => show win5_14.index t (1 : Fin 2) * 1 + 1 * q.val = q.val; rw [e1]; omega

/-! ## What a point writes back is its block of one whole-array function -/

theorem flushed_13 (c : Dev nD) (t : Fin cfg5.N) :
    (dat5 V c).flushed 13 t = ((cfg5.win 13).blk t).view.read (Elt Ideal) (GY V c) := by
  show (cfg5.win 13).cut (grid5.coords t) ((dat5 V c).after 13 t) = _
  rw [after5_13]
  unfold out5_13
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 4096) fun a q => ?_
  show k0_pay2 (F := Ideal) (k0_pay4 (F := Ideal) (iblk5 V c 0 t) (iblk5 V c 2 t) (iblk5 V c 3 t) (iblk5 V c 4 t) (iblk5 V c 5 t) (iblk5 V c 6 t) (iblk5 V c 7 t)) (iblk5 V c 12 t) (iblk5 V c 8 t) (iblk5 V c 9 t) (iblk5 V c 10 t) (iblk5 V c 11 t) (iblk5 V c 1 t) (ix2 a q)
    = GY V c (((cfg5.win 13).blk t).view.emb (ix2 a q : S64x4096.Idx))
  rw [emb_13]
  exact y_rows (k0_pay4 (F := Ideal) (iblk5 V c 0 t) (iblk5 V c 2 t) (iblk5 V c 3 t) (iblk5 V c 4 t) (iblk5 V c 5 t) (iblk5 V c 6 t) (iblk5 V c 7 t)) (iblk5 V c 12 t) (iblk5 V c 8 t) (iblk5 V c 9 t) (iblk5 V c 10 t) (iblk5 V c 11 t) (iblk5 V c 1 t)
    (aH V c) (aWS V c) (aBS V c) (aSF V c) (aWT V c) (aBT V c) (aXU V c) (rowAt t)
    (hid_pt V c t) (blk_8 V c t) (fun q => blk_9 V c t 0 q) (blk_12 V c t 0 0) (blk_10 V c t) (fun q => blk_11 V c t 0 q)
    (blk_1 V c t) a q

theorem flushed_14 (c : Dev nD) (t : Fin cfg5.N) :
    (dat5 V c).flushed 14 t = ((cfg5.win 14).blk t).view.read (Elt Ideal) (GS V c) := by
  show (cfg5.win 14).cut (grid5.coords t) ((dat5 V c).after 14 t) = _
  rw [after5_14]
  unfold out5_14
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 1) fun a q => ?_
  obtain rfl : q = 0 := Subsingleton.elim _ _
  show k0_pay3 (F := Ideal) (k0_pay4 (F := Ideal) (iblk5 V c 0 t) (iblk5 V c 2 t) (iblk5 V c 3 t) (iblk5 V c 4 t) (iblk5 V c 5 t) (iblk5 V c 6 t) (iblk5 V c 7 t)) (iblk5 V c 12 t) (iblk5 V c 8 t) (iblk5 V c 9 t) (ix2 a 0)
    = GS V c (((cfg5.win 14).blk t).view.emb (ix2 a 0 : S64x1.Idx))
  rw [emb_14]
  exact sum_rows (k0_pay4 (F := Ideal) (iblk5 V c 0 t) (iblk5 V c 2 t) (iblk5 V c 3 t) (iblk5 V c 4 t) (iblk5 V c 5 t) (iblk5 V c 6 t) (iblk5 V c 7 t)) (iblk5 V c 12 t) (iblk5 V c 8 t) (iblk5 V c 9 t)
    (aH V c) (aWS V c) (aBS V c) (aSF V c) (rowAt t)
    (hid_pt V c t) (blk_8 V c t) (fun q => blk_9 V c t 0 q) (blk_12 V c t 0 0) a

/-! ## The cover: row r is in point r / 64's block -/

theorem mem_blk_13 (t : Fin cfg5.N) (i : S2048x4096.Idx) :
    i ∈ ((cfg5.win 13).blk t).view.set ↔ ∀ a : Fin 2, win5_13.index t a * S64x4096.size a ≤ (i a).val
      ∧ (i a).val < win5_13.index t a * S64x4096.size a + S64x4096.size a := by
  show i ∈ ((View.whole main_v322_0).slice (win5_13.rect t)).set ↔ _
  rw [View.set_slice_whole, Rect.mem_set_unit]
  exact Iff.rfl

theorem cover_13 (i : S2048x4096.Idx) :
    ∃ t : Fin cfg5.N, (cfg5.win 13).flush t = true ∧ i ∈ ((cfg5.win 13).blk t).view.set := by
  have hi0 : (i 0).val < 2048 := (i 0).isLt
  have hi1 : (i 1).val < 4096 := (i 1).isLt
  obtain ⟨t, ht⟩ : ∃ t : Fin cfg5.N, t.val = (i 0).val / 64 :=
    ⟨⟨(i 0).val / 64, by show (i 0).val / 64 < 32; omega⟩, rfl⟩
  obtain ⟨e0, e1⟩ := idx_13 t
  refine ⟨t, flush5_13 t, ?_⟩
  rw [mem_blk_13]
  intro a
  match a with
  | ⟨0, _⟩ =>
    show win5_13.index t (0 : Fin 2) * 64 ≤ (i 0).val ∧ (i 0).val < win5_13.index t (0 : Fin 2) * 64 + 64
    rw [e0, ht]; omega
  | ⟨1, _⟩ =>
    show win5_13.index t (1 : Fin 2) * 4096 ≤ (i 1).val ∧ (i 1).val < win5_13.index t (1 : Fin 2) * 4096 + 4096
    rw [e1]; omega

theorem mem_blk_14 (t : Fin cfg5.N) (i : S2048x1.Idx) :
    i ∈ ((cfg5.win 14).blk t).view.set ↔ ∀ a : Fin 2, win5_14.index t a * S64x1.size a ≤ (i a).val
      ∧ (i a).val < win5_14.index t a * S64x1.size a + S64x1.size a := by
  show i ∈ ((View.whole main_v322_1).slice (win5_14.rect t)).set ↔ _
  rw [View.set_slice_whole, Rect.mem_set_unit]
  exact Iff.rfl

theorem cover_14 (i : S2048x1.Idx) :
    ∃ t : Fin cfg5.N, (cfg5.win 14).flush t = true ∧ i ∈ ((cfg5.win 14).blk t).view.set := by
  have hi0 : (i 0).val < 2048 := (i 0).isLt
  have hi1 : (i 1).val < 1 := (i 1).isLt
  obtain ⟨t, ht⟩ : ∃ t : Fin cfg5.N, t.val = (i 0).val / 64 :=
    ⟨⟨(i 0).val / 64, by show (i 0).val / 64 < 32; omega⟩, rfl⟩
  obtain ⟨e0, e1⟩ := idx_14 t
  refine ⟨t, flush5_14 t, ?_⟩
  rw [mem_blk_14]
  intro a
  match a with
  | ⟨0, _⟩ =>
    show win5_14.index t (0 : Fin 2) * 64 ≤ (i 0).val ∧ (i 0).val < win5_14.index t (0 : Fin 2) * 64 + 64
    rw [e0, ht]; omega
  | ⟨1, _⟩ =>
    show win5_14.index t (1 : Fin 2) * 1 ≤ (i 1).val ∧ (i 1).val < win5_14.index t (1 : Fin 2) * 1 + 1
    rw [e1]; omega

/-! ## The output arrays after the region -/

/-- The first output array ends holding the transformed half over the arrays the region read. -/
theorem final_13 (c : Dev nD) : (dat5 V c).arrAt 13 cfg5.N = GY V c :=
  (dat5 V c).arrAt_eq_of_cover 13 (GY V c) (fun t _ => flushed_13 V c t) cover_13

/-- The second output array ends holding the row sums of the scale. -/
theorem final_14 (c : Dev nD) : (dat5 V c).arrAt 14 cfg5.N = GS V c :=
  (dat5 V c).arrAt_eq_of_cover 14 (GS V c) (fun t _ => flushed_14 V c t) cover_14

/-! ## The two output arrays over the literal references of the region's windows -/

/-- The first output array after the region: the transformed half over the arrays the region read. -/
theorem arr13 (c : Dev nD) : ((dat5 V c).arrAt 13 cfg5.N : S2048x4096.Idx → EReal)
    = coupleY (V c main_v296) (coupleS (coupleH (V c main_v294) (V c main_v7) (V c main_v298) (V c main_v300) (V c main_v303) (V c main_v305) (V c main_v308)) (V c main_v310) (V c main_v313) (V c main_v321))
        (coupleT (coupleH (V c main_v294) (V c main_v7) (V c main_v298) (V c main_v300) (V c main_v303) (V c main_v305) (V c main_v308)) (V c main_v315) (V c main_v318)) :=
  final_13 V c

/-- The second output array after the region: the row sums of the scale. -/
theorem arr14 (c : Dev nD) : ((dat5 V c).arrAt 14 cfg5.N : S2048x1.Idx → EReal)
    = coupleSum (coupleS (coupleH (V c main_v294) (V c main_v7) (V c main_v298) (V c main_v300) (V c main_v303) (V c main_v305) (V c main_v308)) (V c main_v310) (V c main_v313) (V c main_v321)) :=
  final_14 V c

end Cert.KernelIdeal.KRegion5

end
-- ==== Proof.KRegion4.lean ====
/- Region 4 of the kernel-side program, at any contents V of the TensorCore's buffers when the region is entered:
   its two output arrays after the region, in closed form over the thirteen arrays it reads. A grid point t reads
   rows 64t … 64t + 63 of the three row-indexed arrays and the whole of the ten weight arrays; what it writes back
   is rows 64t … 64t + 63 of one whole-array function (the transformed half, resp. the row sums of the scale); the
   32 points' row blocks cover the 2048 rows. -/
import proofs.«175835_j29978871726094_1_alg».proof.Proof.Gen.KernelIdeal.Frame
import proofs.«175835_j29978871726094_1_alg».proof.Proof.KPoint

set_option maxRecDepth 16384

open scoped BigOperators

noncomputable section

namespace Cert.KernelIdeal.KRegion4

open Idealize.ShloMosaic Idealize.ShloMosaic.TcCoe Idealize.SL.Sem
open Idealize.ShloMosaic.Pipeline (Dat)
open Idealize.ShloMosaic.ValueIdx
open Cert.KernelIdeal Cert.KernelIdeal.Gen Cert.Flow Cert.KernelIdeal.KPoint

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the grid: a row-blocked window is at block t, the others at block 0 -/
theorem idx_0 : ∀ t : Fin cfg4.N, win4_0.index t (0 : Fin 2) = t.val ∧ win4_0.index t (1 : Fin 2) = 0 :=
  (by decide +kernel : ∀ t : Fin grid4.N, _)
theorem idx_1 : ∀ t : Fin cfg4.N, win4_1.index t (0 : Fin 2) = t.val ∧ win4_1.index t (1 : Fin 2) = 0 :=
  (by decide +kernel : ∀ t : Fin grid4.N, _)
theorem idx_2 : ∀ t : Fin cfg4.N, win4_2.index t (0 : Fin 2) = t.val ∧ win4_2.index t (1 : Fin 2) = 0 :=
  (by decide +kernel : ∀ t : Fin grid4.N, _)
theorem idx_3 : ∀ t : Fin cfg4.N, win4_3.index t (0 : Fin 2) = 0 ∧ win4_3.index t (1 : Fin 2) = 0 :=
  (by decide +kernel : ∀ t : Fin grid4.N, _)
theorem idx_4 : ∀ t : Fin cfg4.N, win4_4.index t (0 : Fin 2) = 0 ∧ win4_4.index t (1 : Fin 2) = 0 :=
  (by decide +kernel : ∀ t : Fin grid4.N, _)
theorem idx_5 : ∀ t : Fin cfg4.N, win4_5.index t (0 : Fin 2) = 0 ∧ win4_5.index t (1 : Fin 2) = 0 :=
  (by decide +kernel : ∀ t : Fin grid4.N, _)
theorem idx_6 : ∀ t : Fin cfg4.N, win4_6.index t (0 : Fin 2) = 0 ∧ win4_6.index t (1 : Fin 2) = 0 :=
  (by decide +kernel : ∀ t : Fin grid4.N, _)
theorem idx_7 : ∀ t : Fin cfg4.N, win4_7.index t (0 : Fin 2) = 0 ∧ win4_7.index t (1 : Fin 2) = 0 :=
  (by decide +kernel : ∀ t : Fin grid4.N, _)
theorem idx_8 : ∀ t : Fin cfg4.N, win4_8.index t (0 : Fin 2) = 0 ∧ win4_8.index t (1 : Fin 2) = 0 :=
  (by decide +kernel : ∀ t : Fin grid4.N, _)
theorem idx_9 : ∀ t : Fin cfg4.N, win4_9.index t (0 : Fin 2) = 0 ∧ win4_9.index t (1 : Fin 2) = 0 :=
  (by decide +kernel : ∀ t : Fin grid4.N, _)
theorem idx_10 : ∀ t : Fin cfg4.N, win4_10.index t (0 : Fin 2) = 0 ∧ win4_10.index t (1 : Fin 2) = 0 :=
  (by decide +kernel : ∀ t : Fin grid4.N, _)
theorem idx_11 : ∀ t : Fin cfg4.N, win4_11.index t (0 : Fin 2) = 0 ∧ win4_11.index t (1 : Fin 2) = 0 :=
  (by decide +kernel : ∀ t : Fin grid4.N, _)
theorem idx_12 : ∀ t : Fin cfg4.N, win4_12.index t (0 : Fin 2) = 0 ∧ win4_12.index t (1 : Fin 2) = 0 :=
  (by decide +kernel : ∀ t : Fin grid4.N, _)
theorem idx_13 : ∀ t : Fin cfg4.N, win4_13.index t (0 : Fin 2) = t.val ∧ win4_13.index t (1 : Fin 2) = 0 :=
  (by decide +kernel : ∀ t : Fin grid4.N, _)
theorem idx_14 : ∀ t : Fin cfg4.N, win4_14.index t (0 : Fin 2) = t.val ∧ win4_14.index t (1 : Fin 2) = 0 :=
  (by decide +kernel : ∀ t : Fin grid4.N, _)

/-! ## The arrays the region reads, as it finds them -/
/-- the conditioning half -/
abbrev aXC (c : Dev nD) : A2 2048 4096 := V c (Pipeline.arrRef spec4 0)
/-- the half that is transformed -/
abbrev aXU (c : Dev nD) : A2 2048 4096 := V c (Pipeline.arrRef spec4 1)
/-- the conditioning array -/
abbrev aCND (c : Dev nD) : A2 2048 1024 := V c (Pipeline.arrRef spec4 2)
/-- the first layer's rows against the conditioning half -/
abbrev aW1A (c : Dev nD) : A2 4096 1024 := V c (Pipeline.arrRef spec4 3)
/-- the first layer's rows against the conditioning array -/
abbrev aW1B (c : Dev nD) : A2 1024 1024 := V c (Pipeline.arrRef spec4 4)
/-- the first layer's bias -/
abbrev aB1 (c : Dev nD) : A2 1 1024 := V c (Pipeline.arrRef spec4 5)
/-- the second layer's matrix -/
abbrev aW2 (c : Dev nD) : A2 1024 1024 := V c (Pipeline.arrRef spec4 6)
/-- the second layer's bias -/
abbrev aB2 (c : Dev nD) : A2 1 1024 := V c (Pipeline.arrRef spec4 7)
/-- the scale layer's matrix -/
abbrev aWS (c : Dev nD) : A2 1024 4096 := V c (Pipeline.arrRef spec4 8)
/-- the scale layer's bias -/
abbrev aBS (c : Dev nD) : A2 1 4096 := V c (Pipeline.arrRef spec4 9)
/-- the shift layer's matrix -/
abbrev aWT (c : Dev nD) : A2 1024 4096 := V c (Pipeline.arrRef spec4 10)
/-- the shift layer's bias -/
abbrev aBT (c : Dev nD) : A2 1 4096 := V c (Pipeline.arrRef spec4 11)
/-- the scale's scalar -/
abbrev aSF (c : Dev nD) : A2 1 1 := V c (Pipeline.arrRef spec4 12)

/-- The hidden array over the arrays the region reads. -/
abbrev aH (c : Dev nD) : A2 2048 1024 := coupleH (aXC V c) (aCND V c) (aW1A V c) (aW1B V c) (aB1 V c) (aW2 V c) (aB2 V c)
/-- The scale array. -/
abbrev aS (c : Dev nD) : A2 2048 4096 := coupleS (aH V c) (aWS V c) (aBS V c) (aSF V c)
/-- The transformed half. -/
abbrev GY (c : Dev nD) : A2 2048 4096 := coupleY (aXU V c) (aS V c) (coupleT (aH V c) (aWT V c) (aBT V c))
/-- The row sums of the scale. -/
abbrev GS (c : Dev nD) : A2 2048 1 := coupleSum (aS V c)

/-- The row of the arrays that row a of point t's row blocks is. -/
def rowAt (t : Fin cfg4.N) (a : Fin 64) : Fin 2048 :=
  ⟨t.val * 64 + a.val, by have ht : t.val < 32 := t.isLt; have := a.isLt; omega⟩

/-! ## Each input block as entries of its array -/
theorem blk_0 (c : Dev nD) (t : Fin cfg4.N) (a : Fin 64) (q : Fin 4096) :
    (iblk4 V c 0 t : Vec Ideal S64x4096 .f32) (ix2 a q) = aXC V c (ix2 (rowAt t a) q) := by
  obtain ⟨e0, e1⟩ := idx_0 t
  unfold iblk4
  rw [View.read_apply]
  show V c main_v242 _ = V c main_v242 _
  refine congrArg (V c main_v242) ?_
  funext d
  apply Fin.ext
  match d with
  | ⟨0, _⟩ => show win4_0.index t (0 : Fin 2) * 64 + 1 * a.val = t.val * 64 + a.val; rw [e0]; omega
  | ⟨1, _⟩ => show win4_0.index t (1 : Fin 2) * 4096 + 1 * q.val = q.val; rw [e1]; omega
theorem blk_1 (c : Dev nD) (t : Fin cfg4.N) (a : Fin 64) (q : Fin 4096) :
    (iblk4 V c 1 t : Vec Ideal S64x4096 .f32) (ix2 a q) = aXU V c (ix2 (rowAt t a) q) := by
  obtain ⟨e0, e1⟩ := idx_1 t
  unfold iblk4
  rw [View.read_apply]
  show V c main_v244 _ = V c main_v244 _
  refine congrArg (V c main_v244) ?_
  funext d
  apply Fin.ext
  match d with
  | ⟨0, _⟩ => show win4_1.index t (0 : Fin 2) * 64 + 1 * a.val = t.val * 64 + a.val; rw [e0]; omega
  | ⟨1, _⟩ => show win4_1.index t (1 : Fin 2) * 4096 + 1 * q.val = q.val; rw [e1]; omega
theorem blk_2 (c : Dev nD) (t : Fin cfg4.N) (a : Fin 64) (q : Fin 1024) :
    (iblk4 V c 2 t : Vec Ideal S64x1024 .f32) (ix2 a q) = aCND V c (ix2 (rowAt t a) q) := by
  obtain ⟨e0, e1⟩ := idx_2 t
  unfold iblk4
  rw [View.read_apply]
  show V c main_v7 _ = V c main_v7 _
  refine congrArg (V c main_v7) ?_
  funext d
  apply Fin.ext
  match d with
  | ⟨0, _⟩ => show win4_2.index t (0 : Fin 2) * 64 + 1 * a.val = t.val * 64 + a.val; rw [e0]; omega
  | ⟨1, _⟩ => show win4_2.index t (1 : Fin 2) * 1024 + 1 * q.val = q.val; rw [e1]; omega
theorem blk_3 (c : Dev nD) (t : Fin cfg4.N) (a : Fin 4096) (q : Fin 1024) :
    (iblk4 V c 3 t : Vec Ideal S4096x1024 .bf16) (ix2 a q) = aW1A V c (ix2 a q) := by
  obtain ⟨e0, e1⟩ := idx_3 t
  unfold iblk4
  rw [View.read_apply]
  show V c main_v246 _ = V c main_v246 _
  refine congrArg (V c main_v246) ?_
  funext d
  apply Fin.ext
  match d with
  | ⟨0, _⟩ => show win4_3.index t (0 : Fin 2) * 4096 + 1 * a.val = a.val; rw [e0]; omega
  | ⟨1, _⟩ => show win4_3.index t (1 : Fin 2) * 1024 + 1 * q.val = q.val; rw [e1]; omega
theorem blk_4 (c : Dev nD) (t : Fin cfg4.N) (a : Fin 1024) (q : Fin 1024) :
    (iblk4 V c 4 t : Vec Ideal S1024x1024 .bf16) (ix2 a q) = aW1B V c (ix2 a q) := by
  obtain ⟨e0, e1⟩ := idx_4 t
  unfold iblk4
  rw [View.read_apply]
  show V c main_v248 _ = V c main_v248 _
  refine congrArg (V c main_v248) ?_
  funext d
  apply Fin.ext
  match d with
  | ⟨0, _⟩ => show win4_4.index t (0 : Fin 2) * 1024 + 1 * a.val = a.val; rw [e0]; omega
  | ⟨1, _⟩ => show win4_4.index t (1 : Fin 2) * 1024 + 1 * q.val = q.val; rw [e1]; omega
theorem blk_5 (c : Dev nD) (t : Fin cfg4.N) (a : Fin 1) (q : Fin 1024) :
    (iblk4 V c 5 t : Vec Ideal S1x1024 .f32) (ix2 a q) = aB1 V c (ix2 a q) := by
  obtain ⟨e0, e1⟩ := idx_5 t
  unfold iblk4
  rw [View.read_apply]
  show V c main_v251 _ = V c main_v251 _
  refine congrArg (V c main_v251) ?_
  funext d
  apply Fin.ext
  match d with
  | ⟨0, _⟩ => show win4_5.index t (0 : Fin 2) * 1 + 1 * a.val = a.val; rw [e0]; omega
  | ⟨1, _⟩ => show win4_5.index t (1 : Fin 2) * 1024 + 1 * q.val = q.val; rw [e1]; omega
theorem blk_6 (c : Dev nD) (t : Fin cfg4.N) (a : Fin 1024) (q : Fin 1024) :
    (iblk4 V c 6 t : Vec Ideal S1024x1024 .bf16) (ix2 a q) = aW2 V c (ix2 a q) := by
  obtain ⟨e0, e1⟩ := idx_6 t
  unfold iblk4
  rw [View.read_apply]
  show V c main_v253 _ = V c main_v253 _
  refine congrArg (V c main_v253) ?_
  funext d
  apply Fin.ext
  match d with
  | ⟨0, _⟩ => show win4_6.index t (0 : Fin 2) * 1024 + 1 * a.val = a.val; rw [e0]; omega
  | ⟨1, _⟩ => show win4_6.index t (1 : Fin 2) * 1024 + 1 * q.val = q.val; rw [e1]; omega
theorem blk_7 (c : Dev nD) (t : Fin cfg4.N) (a : Fin 1) (q : Fin 1024) :
    (iblk4 V c 7 t : Vec Ideal S1x1024 .f32) (ix2 a q) = aB2 V c (ix2 a q) := by
  obtain ⟨e0, e1⟩ := idx_7 t
  unfold iblk4
  rw [View.read_apply]
  show V c main_v256 _ = V c main_v256 _
  refine congrArg (V c main_v256) ?_
  funext d
  apply Fin.ext
  match d with
  | ⟨0, _⟩ => show win4_7.index t (0 : Fin 2) * 1 + 1 * a.val = a.val; rw [e0]; omega
  | ⟨1, _⟩ => show win4_7.index t (1 : Fin 2) * 1024 + 1 * q.val = q.val; rw [e1]; omega
theorem blk_8 (c : Dev nD) (t : Fin cfg4.N) (a : Fin 1024) (q : Fin 4096) :
    (iblk4 V c 8 t : Vec Ideal S1024x4096 .bf16) (ix2 a q) = aWS V c (ix2 a q) := by
  obtain ⟨e0, e1⟩ := idx_8 t
  unfold iblk4
  rw [View.read_apply]
  show V c main_v258 _ = V c main_v258 _
  refine congrArg (V c main_v258) ?_
  funext d
  apply Fin.ext
  match d with
  | ⟨0, _⟩ => show win4_8.index t (0 : Fin 2) * 1024 + 1 * a.val = a.val; rw [e0]; omega
  | ⟨1, _⟩ => show win4_8.index t (1 : Fin 2) * 4096 + 1 * q.val = q.val; rw [e1]; omega
theorem blk_9 (c : Dev nD) (t : Fin cfg4.N) (a : Fin 1) (q : Fin 4096) :
    (iblk4 V c 9 t : Vec Ideal S1x4096 .f32) (ix2 a q) = aBS V c (ix2 a q) := by
  obtain ⟨e0, e1⟩ := idx_9 t
  unfold iblk4
  rw [View.read_apply]
  show V c main_v261 _ = V c main_v261 _
  refine congrArg (V c main_v261) ?_
  funext d
  apply Fin.ext
  match d with
  | ⟨0, _⟩ => show win4_9.index t (0 : Fin 2) * 1 + 1 * a.val = a.val; rw [e0]; omega
  | ⟨1, _⟩ => show win4_9.index t (1 : Fin 2) * 4096 + 1 * q.val = q.val; rw [e1]; omega
theorem blk_10 (c : Dev nD) (t : Fin cfg4.N) (a : Fin 1024) (q : Fin 4096) :
    (iblk4 V c 10 t : Vec Ideal S1024x4096 .bf16) (ix2 a q) = aWT V c (ix2 a q) := by
  obtain ⟨e0, e1⟩ := idx_10 t
  unfold iblk4
  rw [View.read_apply]
  show V c main_v263 _ = V c main_v263 _
  refine congrArg (V c main_v263) ?_
  funext d
  apply Fin.ext
  match d with
  | ⟨0, _⟩ => show win4_10.index t (0 : Fin 2) * 1024 + 1 * a.val = a.val; rw [e0]; omega
  | ⟨1, _⟩ => show win4_10.index t (1 : Fin 2) * 4096 + 1 * q.val = q.val; rw [e1]; omega
theorem blk_11 (c : Dev nD) (t : Fin cfg4.N) (a : Fin 1) (q : Fin 4096) :
    (iblk4 V c 11 t : Vec Ideal S1x4096 .f32) (ix2 a q) = aBT V c (ix2 a q) := by
  obtain ⟨e0, e1⟩ := idx_11 t
  unfold iblk4
  rw [View.read_apply]
  show V c main_v266 _ = V c main_v266 _
  refine congrArg (V c main_v266) ?_
  funext d
  apply Fin.ext
  match d with
  | ⟨0, _⟩ => show win4_11.index t (0 : Fin 2) * 1 + 1 * a.val = a.val; rw [e0]; omega
  | ⟨1, _⟩ => show win4_11.index t (1 : Fin 2) * 4096 + 1 * q.val = q.val; rw [e1]; omega
theorem blk_12 (c : Dev nD) (t : Fin cfg4.N) (a : Fin 1) (q : Fin 1) :
    (iblk4 V c 12 t : Vec Ideal S1x1 .f32) (ix2 a q) = aSF V c (ix2 a q) := by
  obtain ⟨e0, e1⟩ := idx_12 t
  unfold iblk4
  rw [View.read_apply]
  show V c main_v269 _ = V c main_v269 _
  refine congrArg (V c main_v269) ?_
  funext d
  apply Fin.ext
  match d with
  | ⟨0, _⟩ => show win4_12.index t (0 : Fin 2) * 1 + 1 * a.val = a.val; rw [e0]; omega
  | ⟨1, _⟩ => show win4_12.index t (1 : Fin 2) * 1 + 1 * q.val = q.val; rw [e1]; omega

/-! ## What a point computes, as rows of the arrays -/

/-- The hidden block of point t is rows 64t … 64t + 63 of the hidden array. -/
theorem hid_pt (c : Dev nD) (t : Fin cfg4.N) (a : Fin 64) (k : Fin 1024) :
    (k0_pay4 (F := Ideal) (iblk4 V c 0 t) (iblk4 V c 2 t) (iblk4 V c 3 t) (iblk4 V c 4 t) (iblk4 V c 5 t) (iblk4 V c 6 t) (iblk4 V c 7 t)) (ix2 a k) = aH V c (ix2 (rowAt t a) k) :=
  hidden_rows (iblk4 V c 0 t) (iblk4 V c 2 t) (iblk4 V c 3 t) (iblk4 V c 4 t) (iblk4 V c 5 t) (iblk4 V c 6 t) (iblk4 V c 7 t)
    (aXC V c) (aCND V c) (aW1A V c) (aW1B V c) (aB1 V c) (aW2 V c) (aB2 V c) (rowAt t)
    (blk_0 V c t) (blk_2 V c t) (blk_3 V c t) (blk_4 V c t) (fun k => blk_5 V c t 0 k) (blk_6 V c t) (fun k => blk_7 V c t 0 k) a k

/-- Row a, column q of point t's block of output 13 is row 64t + a, column q of its array. -/
theorem emb_13 (t : Fin cfg4.N) (a : Fin 64) (q : Fin 4096) :
    ((cfg4.win 13).blk t).view.emb (ix2 a q : S64x4096.Idx) = (ix2 (rowAt t a) q : S2048x4096.Idx) := by
  obtain ⟨e0, e1⟩ := idx_13 t
  funext d
  apply Fin.ext
  match d with
  | ⟨0, _⟩ => show win4_13.index t (0 : Fin 2) * 64 + 1 * a.val = t.val * 64 + a.val; rw [e0]; omega
  | ⟨1, _⟩ => show win4_13.index t (1 : Fin 2) * 4096 + 1 * q.val = q.val; rw [e1]; omega

/-- Row a, column q of point t's block of output 14 is row 64t + a, column q of its array. -/
theorem emb_14 (t : Fin cfg4.N) (a : Fin 64) (q : Fin 1) :
    ((cfg4.win 14).blk t).view.emb (ix2 a q : S64x1.Idx) = (ix2 (rowAt t a) q : S2048x1.Idx) := by
  obtain ⟨e0, e1⟩ := idx_14 t
  funext d
  apply Fin.ext
  match d with
  | ⟨0, _⟩ => show win4_14.index t (0 : Fin 2) * 64 + 1 * a.val = t.val * 64 + a.val; rw [e0]; omega
  | ⟨1, _⟩ => show win4_14.index t (1 : Fin 2) * 1 + 1 * q.val = q.val; rw [e1]; omega

/-! ## What a point writes back is its block of one whole-array function -/

theorem flushed_13 (c : Dev nD) (t : Fin cfg4.N) :
    (dat4 V c).flushed 13 t = ((cfg4.win 13).blk t).view.read (Elt Ideal) (GY V c) := by
  show (cfg4.win 13).cut (grid4.coords t) ((dat4 V c).after 13 t) = _
  rw [after4_13]
  unfold out4_13
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 4096) fun a q => ?_
  show k0_pay2 (F := Ideal) (k0_pay4 (F := Ideal) (iblk4 V c 0 t) (iblk4 V c 2 t) (iblk4 V c 3 t) (iblk4 V c 4 t) (iblk4 V c 5 t) (iblk4 V c 6 t) (iblk4 V c 7 t)) (iblk4 V c 12 t) (iblk4 V c 8 t) (iblk4 V c 9 t) (iblk4 V c 10 t) (iblk4 V c 11 t) (iblk4 V c 1 t) (ix2 a q)
    = GY V c (((cfg4.win 13).blk t).view.emb (ix2 a q : S64x4096.Idx))
  rw [emb_13]
  exact y_rows (k0_pay4 (F := Ideal) (iblk4 V c 0 t) (iblk4 V c 2 t) (iblk4 V c 3 t) (iblk4 V c 4 t) (iblk4 V c 5 t) (iblk4 V c 6 t) (iblk4 V c 7 t)) (iblk4 V c 12 t) (iblk4 V c 8 t) (iblk4 V c 9 t) (iblk4 V c 10 t) (iblk4 V c 11 t) (iblk4 V c 1 t)
    (aH V c) (aWS V c) (aBS V c) (aSF V c) (aWT V c) (aBT V c) (aXU V c) (rowAt t)
    (hid_pt V c t) (blk_8 V c t) (fun q => blk_9 V c t 0 q) (blk_12 V c t 0 0) (blk_10 V c t) (fun q => blk_11 V c t 0 q)
    (blk_1 V c t) a q

theorem flushed_14 (c : Dev nD) (t : Fin cfg4.N) :
    (dat4 V c).flushed 14 t = ((cfg4.win 14).blk t).view.read (Elt Ideal) (GS V c) := by
  show (cfg4.win 14).cut (grid4.coords t) ((dat4 V c).after 14 t) = _
  rw [after4_14]
  unfold out4_14
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 1) fun a q => ?_
  obtain rfl : q = 0 := Subsingleton.elim _ _
  show k0_pay3 (F := Ideal) (k0_pay4 (F := Ideal) (iblk4 V c 0 t) (iblk4 V c 2 t) (iblk4 V c 3 t) (iblk4 V c 4 t) (iblk4 V c 5 t) (iblk4 V c 6 t) (iblk4 V c 7 t)) (iblk4 V c 12 t) (iblk4 V c 8 t) (iblk4 V c 9 t) (ix2 a 0)
    = GS V c (((cfg4.win 14).blk t).view.emb (ix2 a 0 : S64x1.Idx))
  rw [emb_14]
  exact sum_rows (k0_pay4 (F := Ideal) (iblk4 V c 0 t) (iblk4 V c 2 t) (iblk4 V c 3 t) (iblk4 V c 4 t) (iblk4 V c 5 t) (iblk4 V c 6 t) (iblk4 V c 7 t)) (iblk4 V c 12 t) (iblk4 V c 8 t) (iblk4 V c 9 t)
    (aH V c) (aWS V c) (aBS V c) (aSF V c) (rowAt t)
    (hid_pt V c t) (blk_8 V c t) (fun q => blk_9 V c t 0 q) (blk_12 V c t 0 0) a

/-! ## The cover: row r is in point r / 64's block -/

theorem mem_blk_13 (t : Fin cfg4.N) (i : S2048x4096.Idx) :
    i ∈ ((cfg4.win 13).blk t).view.set ↔ ∀ a : Fin 2, win4_13.index t a * S64x4096.size a ≤ (i a).val
      ∧ (i a).val < win4_13.index t a * S64x4096.size a + S64x4096.size a := by
  show i ∈ ((View.whole main_v270_0).slice (win4_13.rect t)).set ↔ _
  rw [View.set_slice_whole, Rect.mem_set_unit]
  exact Iff.rfl

theorem cover_13 (i : S2048x4096.Idx) :
    ∃ t : Fin cfg4.N, (cfg4.win 13).flush t = true ∧ i ∈ ((cfg4.win 13).blk t).view.set := by
  have hi0 : (i 0).val < 2048 := (i 0).isLt
  have hi1 : (i 1).val < 4096 := (i 1).isLt
  obtain ⟨t, ht⟩ : ∃ t : Fin cfg4.N, t.val = (i 0).val / 64 :=
    ⟨⟨(i 0).val / 64, by show (i 0).val / 64 < 32; omega⟩, rfl⟩
  obtain ⟨e0, e1⟩ := idx_13 t
  refine ⟨t, flush4_13 t, ?_⟩
  rw [mem_blk_13]
  intro a
  match a with
  | ⟨0, _⟩ =>
    show win4_13.index t (0 : Fin 2) * 64 ≤ (i 0).val ∧ (i 0).val < win4_13.index t (0 : Fin 2) * 64 + 64
    rw [e0, ht]; omega
  | ⟨1, _⟩ =>
    show win4_13.index t (1 : Fin 2) * 4096 ≤ (i 1).val ∧ (i 1).val < win4_13.index t (1 : Fin 2) * 4096 + 4096
    rw [e1]; omega

theorem mem_blk_14 (t : Fin cfg4.N) (i : S2048x1.Idx) :
    i ∈ ((cfg4.win 14).blk t).view.set ↔ ∀ a : Fin 2, win4_14.index t a * S64x1.size a ≤ (i a).val
      ∧ (i a).val < win4_14.index t a * S64x1.size a + S64x1.size a := by
  show i ∈ ((View.whole main_v270_1).slice (win4_14.rect t)).set ↔ _
  rw [View.set_slice_whole, Rect.mem_set_unit]
  exact Iff.rfl

theorem cover_14 (i : S2048x1.Idx) :
    ∃ t : Fin cfg4.N, (cfg4.win 14).flush t = true ∧ i ∈ ((cfg4.win 14).blk t).view.set := by
  have hi0 : (i 0).val < 2048 := (i 0).isLt
  have hi1 : (i 1).val < 1 := (i 1).isLt
  obtain ⟨t, ht⟩ : ∃ t : Fin cfg4.N, t.val = (i 0).val / 64 :=
    ⟨⟨(i 0).val / 64, by show (i 0).val / 64 < 32; omega⟩, rfl⟩
  obtain ⟨e0, e1⟩ := idx_14 t
  refine ⟨t, flush4_14 t, ?_⟩
  rw [mem_blk_14]
  intro a
  match a with
  | ⟨0, _⟩ =>
    show win4_14.index t (0 : Fin 2) * 64 ≤ (i 0).val ∧ (i 0).val < win4_14.index t (0 : Fin 2) * 64 + 64
    rw [e0, ht]; omega
  | ⟨1, _⟩ =>
    show win4_14.index t (1 : Fin 2) * 1 ≤ (i 1).val ∧ (i 1).val < win4_14.index t (1 : Fin 2) * 1 + 1
    rw [e1]; omega

/-! ## The output arrays after the region -/

/-- The first output array ends holding the transformed half over the arrays the region read. -/
theorem final_13 (c : Dev nD) : (dat4 V c).arrAt 13 cfg4.N = GY V c :=
  (dat4 V c).arrAt_eq_of_cover 13 (GY V c) (fun t _ => flushed_13 V c t) cover_13

/-- The second output array ends holding the row sums of the scale. -/
theorem final_14 (c : Dev nD) : (dat4 V c).arrAt 14 cfg4.N = GS V c :=
  (dat4 V c).arrAt_eq_of_cover 14 (GS V c) (fun t _ => flushed_14 V c t) cover_14

/-! ## The two output arrays over the literal references of the region's windows -/

/-- The first output array after the region: the transformed half over the arrays the region read. -/
theorem arr13 (c : Dev nD) : ((dat4 V c).arrAt 13 cfg4.N : S2048x4096.Idx → EReal)
    = coupleY (V c main_v244) (coupleS (coupleH (V c main_v242) (V c main_v7) (V c main_v246) (V c main_v248) (V c main_v251) (V c main_v253) (V c main_v256)) (V c main_v258) (V c main_v261) (V c main_v269))
        (coupleT (coupleH (V c main_v242) (V c main_v7) (V c main_v246) (V c main_v248) (V c main_v251) (V c main_v253) (V c main_v256)) (V c main_v263) (V c main_v266)) :=
  final_13 V c

/-- The second output array after the region: the row sums of the scale. -/
theorem arr14 (c : Dev nD) : ((dat4 V c).arrAt 14 cfg4.N : S2048x1.Idx → EReal)
    = coupleSum (coupleS (coupleH (V c main_v242) (V c main_v7) (V c main_v246) (V c main_v248) (V c main_v251) (V c main_v253) (V c main_v256)) (V c main_v258) (V c main_v261) (V c main_v269)) :=
  final_14 V c

end Cert.KernelIdeal.KRegion4

end
-- ==== Proof.KRegion3.lean ====
/- Region 3 of the kernel-side program, at any contents V of the TensorCore's buffers when the region is entered:
   its two output arrays after the region, in closed form over the thirteen arrays it reads. A grid point t reads
   rows 64t … 64t + 63 of the three row-indexed arrays and the whole of the ten weight arrays; what it writes back
   is rows 64t … 64t + 63 of one whole-array function (the transformed half, resp. the row sums of the scale); the
   32 points' row blocks cover the 2048 rows. -/
import proofs.«175835_j29978871726094_1_alg».proof.Proof.Gen.KernelIdeal.Frame
import proofs.«175835_j29978871726094_1_alg».proof.Proof.KPoint

set_option maxRecDepth 16384

open scoped BigOperators

noncomputable section

namespace Cert.KernelIdeal.KRegion3

open Idealize.ShloMosaic Idealize.ShloMosaic.TcCoe Idealize.SL.Sem
open Idealize.ShloMosaic.Pipeline (Dat)
open Idealize.ShloMosaic.ValueIdx
open Cert.KernelIdeal Cert.KernelIdeal.Gen Cert.Flow Cert.KernelIdeal.KPoint

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the grid: a row-blocked window is at block t, the others at block 0 -/
theorem idx_0 : ∀ t : Fin cfg3.N, win3_0.index t (0 : Fin 2) = t.val ∧ win3_0.index t (1 : Fin 2) = 0 :=
  (by decide +kernel : ∀ t : Fin grid3.N, _)
theorem idx_1 : ∀ t : Fin cfg3.N, win3_1.index t (0 : Fin 2) = t.val ∧ win3_1.index t (1 : Fin 2) = 0 :=
  (by decide +kernel : ∀ t : Fin grid3.N, _)
theorem idx_2 : ∀ t : Fin cfg3.N, win3_2.index t (0 : Fin 2) = t.val ∧ win3_2.index t (1 : Fin 2) = 0 :=
  (by decide +kernel : ∀ t : Fin grid3.N, _)
theorem idx_3 : ∀ t : Fin cfg3.N, win3_3.index t (0 : Fin 2) = 0 ∧ win3_3.index t (1 : Fin 2) = 0 :=
  (by decide +kernel : ∀ t : Fin grid3.N, _)
theorem idx_4 : ∀ t : Fin cfg3.N, win3_4.index t (0 : Fin 2) = 0 ∧ win3_4.index t (1 : Fin 2) = 0 :=
  (by decide +kernel : ∀ t : Fin grid3.N, _)
theorem idx_5 : ∀ t : Fin cfg3.N, win3_5.index t (0 : Fin 2) = 0 ∧ win3_5.index t (1 : Fin 2) = 0 :=
  (by decide +kernel : ∀ t : Fin grid3.N, _)
theorem idx_6 : ∀ t : Fin cfg3.N, win3_6.index t (0 : Fin 2) = 0 ∧ win3_6.index t (1 : Fin 2) = 0 :=
  (by decide +kernel : ∀ t : Fin grid3.N, _)
theorem idx_7 : ∀ t : Fin cfg3.N, win3_7.index t (0 : Fin 2) = 0 ∧ win3_7.index t (1 : Fin 2) = 0 :=
  (by decide +kernel : ∀ t : Fin grid3.N, _)
theorem idx_8 : ∀ t : Fin cfg3.N, win3_8.index t (0 : Fin 2) = 0 ∧ win3_8.index t (1 : Fin 2) = 0 :=
  (by decide +kernel : ∀ t : Fin grid3.N, _)
theorem idx_9 : ∀ t : Fin cfg3.N, win3_9.index t (0 : Fin 2) = 0 ∧ win3_9.index t (1 : Fin 2) = 0 :=
  (by decide +kernel : ∀ t : Fin grid3.N, _)
theorem idx_10 : ∀ t : Fin cfg3.N, win3_10.index t (0 : Fin 2) = 0 ∧ win3_10.index t (1 : Fin 2) = 0 :=
  (by decide +kernel : ∀ t : Fin grid3.N, _)
theorem idx_11 : ∀ t : Fin cfg3.N, win3_11.index t (0 : Fin 2) = 0 ∧ win3_11.index t (1 : Fin 2) = 0 :=
  (by decide +kernel : ∀ t : Fin grid3.N, _)
theorem idx_12 : ∀ t : Fin cfg3.N, win3_12.index t (0 : Fin 2) = 0 ∧ win3_12.index t (1 : Fin 2) = 0 :=
  (by decide +kernel : ∀ t : Fin grid3.N, _)
theorem idx_13 : ∀ t : Fin cfg3.N, win3_13.index t (0 : Fin 2) = t.val ∧ win3_13.index t (1 : Fin 2) = 0 :=
  (by decide +kernel : ∀ t : Fin grid3.N, _)
theorem idx_14 : ∀ t : Fin cfg3.N, win3_14.index t (0 : Fin 2) = t.val ∧ win3_14.index t (1 : Fin 2) = 0 :=
  (by decide +kernel : ∀ t : Fin grid3.N, _)

/-! ## The arrays the region reads, as it finds them -/
/-- the conditioning half -/
abbrev aXC (c : Dev nD) : A2 2048 4096 := V c (Pipeline.arrRef spec3 0)
/-- the half that is transformed -/
abbrev aXU (c : Dev nD) : A2 2048 4096 := V c (Pipeline.arrRef spec3 1)
/-- the conditioning array -/
abbrev aCND (c : Dev nD) : A2 2048 1024 := V c (Pipeline.arrRef spec3 2)
/-- the first layer's rows against the conditioning half -/
abbrev aW1A (c : Dev nD) : A2 4096 1024 := V c (Pipeline.arrRef spec3 3)
/-- the first layer's rows against the conditioning array -/
abbrev aW1B (c : Dev nD) : A2 1024 1024 := V c (Pipeline.arrRef spec3 4)
/-- the first layer's bias -/
abbrev aB1 (c : Dev nD) : A2 1 1024 := V c (Pipeline.arrRef spec3 5)
/-- the second layer's matrix -/
abbrev aW2 (c : Dev nD) : A2 1024 1024 := V c (Pipeline.arrRef spec3 6)
/-- the second layer's bias -/
abbrev aB2 (c : Dev nD) : A2 1 1024 := V c (Pipeline.arrRef spec3 7)
/-- the scale layer's matrix -/
abbrev aWS (c : Dev nD) : A2 1024 4096 := V c (Pipeline.arrRef spec3 8)
/-- the scale layer's bias -/
abbrev aBS (c : Dev nD) : A2 1 4096 := V c (Pipeline.arrRef spec3 9)
/-- the shift layer's matrix -/
abbrev aWT (c : Dev nD) : A2 1024 4096 := V c (Pipeline.arrRef spec3 10)
/-- the shift layer's bias -/
abbrev aBT (c : Dev nD) : A2 1 4096 := V c (Pipeline.arrRef spec3 11)
/-- the scale's scalar -/
abbrev aSF (c : Dev nD) : A2 1 1 := V c (Pipeline.arrRef spec3 12)

/-- The hidden array over the arrays the region reads. -/
abbrev aH (c : Dev nD) : A2 2048 1024 := coupleH (aXC V c) (aCND V c) (aW1A V c) (aW1B V c) (aB1 V c) (aW2 V c) (aB2 V c)
/-- The scale array. -/
abbrev aS (c : Dev nD) : A2 2048 4096 := coupleS (aH V c) (aWS V c) (aBS V c) (aSF V c)
/-- The transformed half. -/
abbrev GY (c : Dev nD) : A2 2048 4096 := coupleY (aXU V c) (aS V c) (coupleT (aH V c) (aWT V c) (aBT V c))
/-- The row sums of the scale. -/
abbrev GS (c : Dev nD) : A2 2048 1 := coupleSum (aS V c)

/-- The row of the arrays that row a of point t's row blocks is. -/
def rowAt (t : Fin cfg3.N) (a : Fin 64) : Fin 2048 :=
  ⟨t.val * 64 + a.val, by have ht : t.val < 32 := t.isLt; have := a.isLt; omega⟩

/-! ## Each input block as entries of its array -/
theorem blk_0 (c : Dev nD) (t : Fin cfg3.N) (a : Fin 64) (q : Fin 4096) :
    (iblk3 V c 0 t : Vec Ideal S64x4096 .f32) (ix2 a q) = aXC V c (ix2 (rowAt t a) q) := by
  obtain ⟨e0, e1⟩ := idx_0 t
  unfold iblk3
  rw [View.read_apply]
  show V c main_v190 _ = V c main_v190 _
  refine congrArg (V c main_v190) ?_
  funext d
  apply Fin.ext
  match d with
  | ⟨0, _⟩ => show win3_0.index t (0 : Fin 2) * 64 + 1 * a.val = t.val * 64 + a.val; rw [e0]; omega
  | ⟨1, _⟩ => show win3_0.index t (1 : Fin 2) * 4096 + 1 * q.val = q.val; rw [e1]; omega
theorem blk_1 (c : Dev nD) (t : Fin cfg3.N) (a : Fin 64) (q : Fin 4096) :
    (iblk3 V c 1 t : Vec Ideal S64x4096 .f32) (ix2 a q) = aXU V c (ix2 (rowAt t a) q) := by
  obtain ⟨e0, e1⟩ := idx_1 t
  unfold iblk3
  rw [View.read_apply]
  show V c main_v192 _ = V c main_v192 _
  refine congrArg (V c main_v192) ?_
  funext d
  apply Fin.ext
  match d with
  | ⟨0, _⟩ => show win3_1.index t (0 : Fin 2) * 64 + 1 * a.val = t.val * 64 + a.val; rw [e0]; omega
  | ⟨1, _⟩ => show win3_1.index t (1 : Fin 2) * 4096 + 1 * q.val = q.val; rw [e1]; omega
theorem blk_2 (c : Dev nD) (t : Fin cfg3.N) (a : Fin 64) (q : Fin 1024) :
    (iblk3 V c 2 t : Vec Ideal S64x1024 .f32) (ix2 a q) = aCND V c (ix2 (rowAt t a) q) := by
  obtain ⟨e0, e1⟩ := idx_2 t
  unfold iblk3
  rw [View.read_apply]
  show V c main_v7 _ = V c main_v7 _
  refine congrArg (V c main_v7) ?_
  funext d
  apply Fin.ext
  match d with
  | ⟨0, _⟩ => show win3_2.index t (0 : Fin 2) * 64 + 1 * a.val = t.val * 64 + a.val; rw [e0]; omega
  | ⟨1, _⟩ => show win3_2.index t (1 : Fin 2) * 1024 + 1 * q.val = q.val; rw [e1]; omega
theorem blk_3 (c : Dev nD) (t : Fin cfg3.N) (a : Fin 4096) (q : Fin 1024) :
    (iblk3 V c 3 t : Vec Ideal S4096x1024 .bf16) (ix2 a q) = aW1A V c (ix2 a q) := by
  obtain ⟨e0, e1⟩ := idx_3 t
  unfold iblk3
  rw [View.read_apply]
  show V c main_v194 _ = V c main_v194 _
  refine congrArg (V c main_v194) ?_
  funext d
  apply Fin.ext
  match d with
  | ⟨0, _⟩ => show win3_3.index t (0 : Fin 2) * 4096 + 1 * a.val = a.val; rw [e0]; omega
  | ⟨1, _⟩ => show win3_3.index t (1 : Fin 2) * 1024 + 1 * q.val = q.val; rw [e1]; omega
theorem blk_4 (c : Dev nD) (t : Fin cfg3.N) (a : Fin 1024) (q : Fin 1024) :
    (iblk3 V c 4 t : Vec Ideal S1024x1024 .bf16) (ix2 a q) = aW1B V c (ix2 a q) := by
  obtain ⟨e0, e1⟩ := idx_4 t
  unfold iblk3
  rw [View.read_apply]
  show V c main_v196 _ = V c main_v196 _
  refine congrArg (V c main_v196) ?_
  funext d
  apply Fin.ext
  match d with
  | ⟨0, _⟩ => show win3_4.index t (0 : Fin 2) * 1024 + 1 * a.val = a.val; rw [e0]; omega
  | ⟨1, _⟩ => show win3_4.index t (1 : Fin 2) * 1024 + 1 * q.val = q.val; rw [e1]; omega
theorem blk_5 (c : Dev nD) (t : Fin cfg3.N) (a : Fin 1) (q : Fin 1024) :
    (iblk3 V c 5 t : Vec Ideal S1x1024 .f32) (ix2 a q) = aB1 V c (ix2 a q) := by
  obtain ⟨e0, e1⟩ := idx_5 t
  unfold iblk3
  rw [View.read_apply]
  show V c main_v199 _ = V c main_v199 _
  refine congrArg (V c main_v199) ?_
  funext d
  apply Fin.ext
  match d with
  | ⟨0, _⟩ => show win3_5.index t (0 : Fin 2) * 1 + 1 * a.val = a.val; rw [e0]; omega
  | ⟨1, _⟩ => show win3_5.index t (1 : Fin 2) * 1024 + 1 * q.val = q.val; rw [e1]; omega
theorem blk_6 (c : Dev nD) (t : Fin cfg3.N) (a : Fin 1024) (q : Fin 1024) :
    (iblk3 V c 6 t : Vec Ideal S1024x1024 .bf16) (ix2 a q) = aW2 V c (ix2 a q) := by
  obtain ⟨e0, e1⟩ := idx_6 t
  unfold iblk3
  rw [View.read_apply]
  show V c main_v201 _ = V c main_v201 _
  refine congrArg (V c main_v201) ?_
  funext d
  apply Fin.ext
  match d with
  | ⟨0, _⟩ => show win3_6.index t (0 : Fin 2) * 1024 + 1 * a.val = a.val; rw [e0]; omega
  | ⟨1, _⟩ => show win3_6.index t (1 : Fin 2) * 1024 + 1 * q.val = q.val; rw [e1]; omega
theorem blk_7 (c : Dev nD) (t : Fin cfg3.N) (a : Fin 1) (q : Fin 1024) :
    (iblk3 V c 7 t : Vec Ideal S1x1024 .f32) (ix2 a q) = aB2 V c (ix2 a q) := by
  obtain ⟨e0, e1⟩ := idx_7 t
  unfold iblk3
  rw [View.read_apply]
  show V c main_v204 _ = V c main_v204 _
  refine congrArg (V c main_v204) ?_
  funext d
  apply Fin.ext
  match d with
  | ⟨0, _⟩ => show win3_7.index t (0 : Fin 2) * 1 + 1 * a.val = a.val; rw [e0]; omega
  | ⟨1, _⟩ => show win3_7.index t (1 : Fin 2) * 1024 + 1 * q.val = q.val; rw [e1]; omega
theorem blk_8 (c : Dev nD) (t : Fin cfg3.N) (a : Fin 1024) (q : Fin 4096) :
    (iblk3 V c 8 t : Vec Ideal S1024x4096 .bf16) (ix2 a q) = aWS V c (ix2 a q) := by
  obtain ⟨e0, e1⟩ := idx_8 t
  unfold iblk3
  rw [View.read_apply]
  show V c main_v206 _ = V c main_v206 _
  refine congrArg (V c main_v206) ?_
  funext d
  apply Fin.ext
  match d with
  | ⟨0, _⟩ => show win3_8.index t (0 : Fin 2) * 1024 + 1 * a.val = a.val; rw [e0]; omega
  | ⟨1, _⟩ => show win3_8.index t (1 : Fin 2) * 4096 + 1 * q.val = q.val; rw [e1]; omega
theorem blk_9 (c : Dev nD) (t : Fin cfg3.N) (a : Fin 1) (q : Fin 4096) :
    (iblk3 V c 9 t : Vec Ideal S1x4096 .f32) (ix2 a q) = aBS V c (ix2 a q) := by
  obtain ⟨e0, e1⟩ := idx_9 t
  unfold iblk3
  rw [View.read_apply]
  show V c main_v209 _ = V c main_v209 _
  refine congrArg (V c main_v209) ?_
  funext d
  apply Fin.ext
  match d with
  | ⟨0, _⟩ => show win3_9.index t (0 : Fin 2) * 1 + 1 * a.val = a.val; rw [e0]; omega
  | ⟨1, _⟩ => show win3_9.index t (1 : Fin 2) * 4096 + 1 * q.val = q.val; rw [e1]; omega
theorem blk_10 (c : Dev nD) (t : Fin cfg3.N) (a : Fin 1024) (q : Fin 4096) :
    (iblk3 V c 10 t : Vec Ideal S1024x4096 .bf16) (ix2 a q) = aWT V c (ix2 a q) := by
  obtain ⟨e0, e1⟩ := idx_10 t
  unfold iblk3
  rw [View.read_apply]
  show V c main_v211 _ = V c main_v211 _
  refine congrArg (V c main_v211) ?_
  funext d
  apply Fin.ext
  match d with
  | ⟨0, _⟩ => show win3_10.index t (0 : Fin 2) * 1024 + 1 * a.val = a.val; rw [e0]; omega
  | ⟨1, _⟩ => show win3_10.index t (1 : Fin 2) * 4096 + 1 * q.val = q.val; rw [e1]; omega
theorem blk_11 (c : Dev nD) (t : Fin cfg3.N) (a : Fin 1) (q : Fin 4096) :
    (iblk3 V c 11 t : Vec Ideal S1x4096 .f32) (ix2 a q) = aBT V c (ix2 a q) := by
  obtain ⟨e0, e1⟩ := idx_11 t
  unfold iblk3
  rw [View.read_apply]
  show V c main_v214 _ = V c main_v214 _
  refine congrArg (V c main_v214) ?_
  funext d
  apply Fin.ext
  match d with
  | ⟨0, _⟩ => show win3_11.index t (0 : Fin 2) * 1 + 1 * a.val = a.val; rw [e0]; omega
  | ⟨1, _⟩ => show win3_11.index t (1 : Fin 2) * 4096 + 1 * q.val = q.val; rw [e1]; omega
theorem blk_12 (c : Dev nD) (t : Fin cfg3.N) (a : Fin 1) (q : Fin 1) :
    (iblk3 V c 12 t : Vec Ideal S1x1 .f32) (ix2 a q) = aSF V c (ix2 a q) := by
  obtain ⟨e0, e1⟩ := idx_12 t
  unfold iblk3
  rw [View.read_apply]
  show V c main_v217 _ = V c main_v217 _
  refine congrArg (V c main_v217) ?_
  funext d
  apply Fin.ext
  match d with
  | ⟨0, _⟩ => show win3_12.index t (0 : Fin 2) * 1 + 1 * a.val = a.val; rw [e0]; omega
  | ⟨1, _⟩ => show win3_12.index t (1 : Fin 2) * 1 + 1 * q.val = q.val; rw [e1]; omega

/-! ## What a point computes, as rows of the arrays -/

/-- The hidden block of point t is rows 64t … 64t + 63 of the hidden array. -/
theorem hid_pt (c : Dev nD) (t : Fin cfg3.N) (a : Fin 64) (k : Fin 1024) :
    (k0_pay4 (F := Ideal) (iblk3 V c 0 t) (iblk3 V c 2 t) (iblk3 V c 3 t) (iblk3 V c 4 t) (iblk3 V c 5 t) (iblk3 V c 6 t) (iblk3 V c 7 t)) (ix2 a k) = aH V c (ix2 (rowAt t a) k) :=
  hidden_rows (iblk3 V c 0 t) (iblk3 V c 2 t) (iblk3 V c 3 t) (iblk3 V c 4 t) (iblk3 V c 5 t) (iblk3 V c 6 t) (iblk3 V c 7 t)
    (aXC V c) (aCND V c) (aW1A V c) (aW1B V c) (aB1 V c) (aW2 V c) (aB2 V c) (rowAt t)
    (blk_0 V c t) (blk_2 V c t) (blk_3 V c t) (blk_4 V c t) (fun k => blk_5 V c t 0 k) (blk_6 V c t) (fun k => blk_7 V c t 0 k) a k

/-- Row a, column q of point t's block of output 13 is row 64t + a, column q of its array. -/
theorem emb_13 (t : Fin cfg3.N) (a : Fin 64) (q : Fin 4096) :
    ((cfg3.win 13).blk t).view.emb (ix2 a q : S64x4096.Idx) = (ix2 (rowAt t a) q : S2048x4096.Idx) := by
  obtain ⟨e0, e1⟩ := idx_13 t
  funext d
  apply Fin.ext
  match d with
  | ⟨0, _⟩ => show win3_13.index t (0 : Fin 2) * 64 + 1 * a.val = t.val * 64 + a.val; rw [e0]; omega
  | ⟨1, _⟩ => show win3_13.index t (1 : Fin 2) * 4096 + 1 * q.val = q.val; rw [e1]; omega

/-- Row a, column q of point t's block of output 14 is row 64t + a, column q of its array. -/
theorem emb_14 (t : Fin cfg3.N) (a : Fin 64) (q : Fin 1) :
    ((cfg3.win 14).blk t).view.emb (ix2 a q : S64x1.Idx) = (ix2 (rowAt t a) q : S2048x1.Idx) := by
  obtain ⟨e0, e1⟩ := idx_14 t
  funext d
  apply Fin.ext
  match d with
  | ⟨0, _⟩ => show win3_14.index t (0 : Fin 2) * 64 + 1 * a.val = t.val * 64 + a.val; rw [e0]; omega
  | ⟨1, _⟩ => show win3_14.index t (1 : Fin 2) * 1 + 1 * q.val = q.val; rw [e1]; omega

/-! ## What a point writes back is its block of one whole-array function -/

theorem flushed_13 (c : Dev nD) (t : Fin cfg3.N) :
    (dat3 V c).flushed 13 t = ((cfg3.win 13).blk t).view.read (Elt Ideal) (GY V c) := by
  show (cfg3.win 13).cut (grid3.coords t) ((dat3 V c).after 13 t) = _
  rw [after3_13]
  unfold out3_13
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 4096) fun a q => ?_
  show k0_pay2 (F := Ideal) (k0_pay4 (F := Ideal) (iblk3 V c 0 t) (iblk3 V c 2 t) (iblk3 V c 3 t) (iblk3 V c 4 t) (iblk3 V c 5 t) (iblk3 V c 6 t) (iblk3 V c 7 t)) (iblk3 V c 12 t) (iblk3 V c 8 t) (iblk3 V c 9 t) (iblk3 V c 10 t) (iblk3 V c 11 t) (iblk3 V c 1 t) (ix2 a q)
    = GY V c (((cfg3.win 13).blk t).view.emb (ix2 a q : S64x4096.Idx))
  rw [emb_13]
  exact y_rows (k0_pay4 (F := Ideal) (iblk3 V c 0 t) (iblk3 V c 2 t) (iblk3 V c 3 t) (iblk3 V c 4 t) (iblk3 V c 5 t) (iblk3 V c 6 t) (iblk3 V c 7 t)) (iblk3 V c 12 t) (iblk3 V c 8 t) (iblk3 V c 9 t) (iblk3 V c 10 t) (iblk3 V c 11 t) (iblk3 V c 1 t)
    (aH V c) (aWS V c) (aBS V c) (aSF V c) (aWT V c) (aBT V c) (aXU V c) (rowAt t)
    (hid_pt V c t) (blk_8 V c t) (fun q => blk_9 V c t 0 q) (blk_12 V c t 0 0) (blk_10 V c t) (fun q => blk_11 V c t 0 q)
    (blk_1 V c t) a q

theorem flushed_14 (c : Dev nD) (t : Fin cfg3.N) :
    (dat3 V c).flushed 14 t = ((cfg3.win 14).blk t).view.read (Elt Ideal) (GS V c) := by
  show (cfg3.win 14).cut (grid3.coords t) ((dat3 V c).after 14 t) = _
  rw [after3_14]
  unfold out3_14
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 1) fun a q => ?_
  obtain rfl : q = 0 := Subsingleton.elim _ _
  show k0_pay3 (F := Ideal) (k0_pay4 (F := Ideal) (iblk3 V c 0 t) (iblk3 V c 2 t) (iblk3 V c 3 t) (iblk3 V c 4 t) (iblk3 V c 5 t) (iblk3 V c 6 t) (iblk3 V c 7 t)) (iblk3 V c 12 t) (iblk3 V c 8 t) (iblk3 V c 9 t) (ix2 a 0)
    = GS V c (((cfg3.win 14).blk t).view.emb (ix2 a 0 : S64x1.Idx))
  rw [emb_14]
  exact sum_rows (k0_pay4 (F := Ideal) (iblk3 V c 0 t) (iblk3 V c 2 t) (iblk3 V c 3 t) (iblk3 V c 4 t) (iblk3 V c 5 t) (iblk3 V c 6 t) (iblk3 V c 7 t)) (iblk3 V c 12 t) (iblk3 V c 8 t) (iblk3 V c 9 t)
    (aH V c) (aWS V c) (aBS V c) (aSF V c) (rowAt t)
    (hid_pt V c t) (blk_8 V c t) (fun q => blk_9 V c t 0 q) (blk_12 V c t 0 0) a

/-! ## The cover: row r is in point r / 64's block -/

theorem mem_blk_13 (t : Fin cfg3.N) (i : S2048x4096.Idx) :
    i ∈ ((cfg3.win 13).blk t).view.set ↔ ∀ a : Fin 2, win3_13.index t a * S64x4096.size a ≤ (i a).val
      ∧ (i a).val < win3_13.index t a * S64x4096.size a + S64x4096.size a := by
  show i ∈ ((View.whole main_v218_0).slice (win3_13.rect t)).set ↔ _
  rw [View.set_slice_whole, Rect.mem_set_unit]
  exact Iff.rfl

theorem cover_13 (i : S2048x4096.Idx) :
    ∃ t : Fin cfg3.N, (cfg3.win 13).flush t = true ∧ i ∈ ((cfg3.win 13).blk t).view.set := by
  have hi0 : (i 0).val < 2048 := (i 0).isLt
  have hi1 : (i 1).val < 4096 := (i 1).isLt
  obtain ⟨t, ht⟩ : ∃ t : Fin cfg3.N, t.val = (i 0).val / 64 :=
    ⟨⟨(i 0).val / 64, by show (i 0).val / 64 < 32; omega⟩, rfl⟩
  obtain ⟨e0, e1⟩ := idx_13 t
  refine ⟨t, flush3_13 t, ?_⟩
  rw [mem_blk_13]
  intro a
  match a with
  | ⟨0, _⟩ =>
    show win3_13.index t (0 : Fin 2) * 64 ≤ (i 0).val ∧ (i 0).val < win3_13.index t (0 : Fin 2) * 64 + 64
    rw [e0, ht]; omega
  | ⟨1, _⟩ =>
    show win3_13.index t (1 : Fin 2) * 4096 ≤ (i 1).val ∧ (i 1).val < win3_13.index t (1 : Fin 2) * 4096 + 4096
    rw [e1]; omega

theorem mem_blk_14 (t : Fin cfg3.N) (i : S2048x1.Idx) :
    i ∈ ((cfg3.win 14).blk t).view.set ↔ ∀ a : Fin 2, win3_14.index t a * S64x1.size a ≤ (i a).val
      ∧ (i a).val < win3_14.index t a * S64x1.size a + S64x1.size a := by
  show i ∈ ((View.whole main_v218_1).slice (win3_14.rect t)).set ↔ _
  rw [View.set_slice_whole, Rect.mem_set_unit]
  exact Iff.rfl

theorem cover_14 (i : S2048x1.Idx) :
    ∃ t : Fin cfg3.N, (cfg3.win 14).flush t = true ∧ i ∈ ((cfg3.win 14).blk t).view.set := by
  have hi0 : (i 0).val < 2048 := (i 0).isLt
  have hi1 : (i 1).val < 1 := (i 1).isLt
  obtain ⟨t, ht⟩ : ∃ t : Fin cfg3.N, t.val = (i 0).val / 64 :=
    ⟨⟨(i 0).val / 64, by show (i 0).val / 64 < 32; omega⟩, rfl⟩
  obtain ⟨e0, e1⟩ := idx_14 t
  refine ⟨t, flush3_14 t, ?_⟩
  rw [mem_blk_14]
  intro a
  match a with
  | ⟨0, _⟩ =>
    show win3_14.index t (0 : Fin 2) * 64 ≤ (i 0).val ∧ (i 0).val < win3_14.index t (0 : Fin 2) * 64 + 64
    rw [e0, ht]; omega
  | ⟨1, _⟩ =>
    show win3_14.index t (1 : Fin 2) * 1 ≤ (i 1).val ∧ (i 1).val < win3_14.index t (1 : Fin 2) * 1 + 1
    rw [e1]; omega

/-! ## The output arrays after the region -/

/-- The first output array ends holding the transformed half over the arrays the region read. -/
theorem final_13 (c : Dev nD) : (dat3 V c).arrAt 13 cfg3.N = GY V c :=
  (dat3 V c).arrAt_eq_of_cover 13 (GY V c) (fun t _ => flushed_13 V c t) cover_13

/-- The second output array ends holding the row sums of the scale. -/
theorem final_14 (c : Dev nD) : (dat3 V c).arrAt 14 cfg3.N = GS V c :=
  (dat3 V c).arrAt_eq_of_cover 14 (GS V c) (fun t _ => flushed_14 V c t) cover_14

/-! ## The two output arrays over the literal references of the region's windows -/

/-- The first output array after the region: the transformed half over the arrays the region read. -/
theorem arr13 (c : Dev nD) : ((dat3 V c).arrAt 13 cfg3.N : S2048x4096.Idx → EReal)
    = coupleY (V c main_v192) (coupleS (coupleH (V c main_v190) (V c main_v7) (V c main_v194) (V c main_v196) (V c main_v199) (V c main_v201) (V c main_v204)) (V c main_v206) (V c main_v209) (V c main_v217))
        (coupleT (coupleH (V c main_v190) (V c main_v7) (V c main_v194) (V c main_v196) (V c main_v199) (V c main_v201) (V c main_v204)) (V c main_v211) (V c main_v214)) :=
  final_13 V c

/-- The second output array after the region: the row sums of the scale. -/
theorem arr14 (c : Dev nD) : ((dat3 V c).arrAt 14 cfg3.N : S2048x1.Idx → EReal)
    = coupleSum (coupleS (coupleH (V c main_v190) (V c main_v7) (V c main_v194) (V c main_v196) (V c main_v199) (V c main_v201) (V c main_v204)) (V c main_v206) (V c main_v209) (V c main_v217)) :=
  final_14 V c

end Cert.KernelIdeal.KRegion3

end
-- ==== Proof.KRegion2.lean ====
/- Region 2 of the kernel-side program, at any contents V of the TensorCore's buffers when the region is entered:
   its two output arrays after the region, in closed form over the thirteen arrays it reads. A grid point t reads
   rows 64t … 64t + 63 of the three row-indexed arrays and the whole of the ten weight arrays; what it writes back
   is rows 64t … 64t + 63 of one whole-array function (the transformed half, resp. the row sums of the scale); the
   32 points' row blocks cover the 2048 rows. -/
import proofs.«175835_j29978871726094_1_alg».proof.Proof.Gen.KernelIdeal.Frame
import proofs.«175835_j29978871726094_1_alg».proof.Proof.KPoint

set_option maxRecDepth 16384

open scoped BigOperators

noncomputable section

namespace Cert.KernelIdeal.KRegion2

open Idealize.ShloMosaic Idealize.ShloMosaic.TcCoe Idealize.SL.Sem
open Idealize.ShloMosaic.Pipeline (Dat)
open Idealize.ShloMosaic.ValueIdx
open Cert.KernelIdeal Cert.KernelIdeal.Gen Cert.Flow Cert.KernelIdeal.KPoint

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the grid: a row-blocked window is at block t, the others at block 0 -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 2) = 0 ∧ win2_8.index t (1 : Fin 2) = 0 :=
  (by decide +kernel : ∀ t : Fin grid2.N, _)
theorem idx_9 : ∀ t : Fin cfg2.N, win2_9.index t (0 : Fin 2) = 0 ∧ win2_9.index t (1 : Fin 2) = 0 :=
  (by decide +kernel : ∀ t : Fin grid2.N, _)
theorem idx_10 : ∀ t : Fin cfg2.N, win2_10.index t (0 : Fin 2) = 0 ∧ win2_10.index t (1 : Fin 2) = 0 :=
  (by decide +kernel : ∀ t : Fin grid2.N, _)
theorem idx_11 : ∀ t : Fin cfg2.N, win2_11.index t (0 : Fin 2) = 0 ∧ win2_11.index t (1 : Fin 2) = 0 :=
  (by decide +kernel : ∀ t : Fin grid2.N, _)
theorem idx_12 : ∀ t : Fin cfg2.N, win2_12.index t (0 : Fin 2) = 0 ∧ win2_12.index t (1 : Fin 2) = 0 :=
  (by decide +kernel : ∀ t : Fin grid2.N, _)
theorem idx_13 : ∀ t : Fin cfg2.N, win2_13.index t (0 : Fin 2) = t.val ∧ win2_13.index t (1 : Fin 2) = 0 :=
  (by decide +kernel : ∀ t : Fin grid2.N, _)
theorem idx_14 : ∀ t : Fin cfg2.N, win2_14.index t (0 : Fin 2) = t.val ∧ win2_14.index t (1 : Fin 2) = 0 :=
  (by decide +kernel : ∀ t : Fin grid2.N, _)

/-! ## The arrays the region reads, as it finds them -/
/-- the conditioning half -/
abbrev aXC (c : Dev nD) : A2 2048 4096 := V c (Pipeline.arrRef spec2 0)
/-- the half that is transformed -/
abbrev aXU (c : Dev nD) : A2 2048 4096 := V c (Pipeline.arrRef spec2 1)
/-- the conditioning array -/
abbrev aCND (c : Dev nD) : A2 2048 1024 := V c (Pipeline.arrRef spec2 2)
/-- the first layer's rows against the conditioning half -/
abbrev aW1A (c : Dev nD) : A2 4096 1024 := V c (Pipeline.arrRef spec2 3)
/-- the first layer's rows against the conditioning array -/
abbrev aW1B (c : Dev nD) : A2 1024 1024 := V c (Pipeline.arrRef spec2 4)
/-- the first layer's bias -/
abbrev aB1 (c : Dev nD) : A2 1 1024 := V c (Pipeline.arrRef spec2 5)
/-- the second layer's matrix -/
abbrev aW2 (c : Dev nD) : A2 1024 1024 := V c (Pipeline.arrRef spec2 6)
/-- the second layer's bias -/
abbrev aB2 (c : Dev nD) : A2 1 1024 := V c (Pipeline.arrRef spec2 7)
/-- the scale layer's matrix -/
abbrev aWS (c : Dev nD) : A2 1024 4096 := V c (Pipeline.arrRef spec2 8)
/-- the scale layer's bias -/
abbrev aBS (c : Dev nD) : A2 1 4096 := V c (Pipeline.arrRef spec2 9)
/-- the shift layer's matrix -/
abbrev aWT (c : Dev nD) : A2 1024 4096 := V c (Pipeline.arrRef spec2 10)
/-- the shift layer's bias -/
abbrev aBT (c : Dev nD) : A2 1 4096 := V c (Pipeline.arrRef spec2 11)
/-- the scale's scalar -/
abbrev aSF (c : Dev nD) : A2 1 1 := V c (Pipeline.arrRef spec2 12)

/-- The hidden array over the arrays the region reads. -/
abbrev aH (c : Dev nD) : A2 2048 1024 := coupleH (aXC V c) (aCND V c) (aW1A V c) (aW1B V c) (aB1 V c) (aW2 V c) (aB2 V c)
/-- The scale array. -/
abbrev aS (c : Dev nD) : A2 2048 4096 := coupleS (aH V c) (aWS V c) (aBS V c) (aSF V c)
/-- The transformed half. -/
abbrev GY (c : Dev nD) : A2 2048 4096 := coupleY (aXU V c) (aS V c) (coupleT (aH V c) (aWT V c) (aBT V c))
/-- The row sums of the scale. -/
abbrev GS (c : Dev nD) : A2 2048 1 := coupleSum (aS V c)

/-- The row of the arrays that row a of point t's row blocks is. -/
def rowAt (t : Fin cfg2.N) (a : Fin 64) : Fin 2048 :=
  ⟨t.val * 64 + a.val, by have ht : t.val < 32 := t.isLt; have := a.isLt; omega⟩

/-! ## Each input block as entries of its array -/
theorem blk_0 (c : Dev nD) (t : Fin cfg2.N) (a : Fin 64) (q : Fin 4096) :
    (iblk2 V c 0 t : Vec Ideal S64x4096 .f32) (ix2 a q) = aXC V c (ix2 (rowAt t a) q) := by
  obtain ⟨e0, e1⟩ := idx_0 t
  unfold iblk2
  rw [View.read_apply]
  show V c main_v138 _ = V c main_v138 _
  refine congrArg (V c main_v138) ?_
  funext d
  apply Fin.ext
  match d with
  | ⟨0, _⟩ => show win2_0.index t (0 : Fin 2) * 64 + 1 * a.val = t.val * 64 + a.val; rw [e0]; omega
  | ⟨1, _⟩ => show win2_0.index t (1 : Fin 2) * 4096 + 1 * q.val = q.val; rw [e1]; omega
theorem blk_1 (c : Dev nD) (t : Fin cfg2.N) (a : Fin 64) (q : Fin 4096) :
    (iblk2 V c 1 t : Vec Ideal S64x4096 .f32) (ix2 a q) = aXU V c (ix2 (rowAt t a) q) := by
  obtain ⟨e0, e1⟩ := idx_1 t
  unfold iblk2
  rw [View.read_apply]
  show V c main_v140 _ = V c main_v140 _
  refine congrArg (V c main_v140) ?_
  funext d
  apply Fin.ext
  match d with
  | ⟨0, _⟩ => show win2_1.index t (0 : Fin 2) * 64 + 1 * a.val = t.val * 64 + a.val; rw [e0]; omega
  | ⟨1, _⟩ => show win2_1.index t (1 : Fin 2) * 4096 + 1 * q.val = q.val; rw [e1]; omega
theorem blk_2 (c : Dev nD) (t : Fin cfg2.N) (a : Fin 64) (q : Fin 1024) :
    (iblk2 V c 2 t : Vec Ideal S64x1024 .f32) (ix2 a q) = aCND V c (ix2 (rowAt t a) q) := by
  obtain ⟨e0, e1⟩ := idx_2 t
  unfold iblk2
  rw [View.read_apply]
  show V c main_v7 _ = V c main_v7 _
  refine congrArg (V c main_v7) ?_
  funext d
  apply Fin.ext
  match d with
  | ⟨0, _⟩ => show win2_2.index t (0 : Fin 2) * 64 + 1 * a.val = t.val * 64 + a.val; rw [e0]; omega
  | ⟨1, _⟩ => show win2_2.index t (1 : Fin 2) * 1024 + 1 * q.val = q.val; rw [e1]; omega
theorem blk_3 (c : Dev nD) (t : Fin cfg2.N) (a : Fin 4096) (q : Fin 1024) :
    (iblk2 V c 3 t : Vec Ideal S4096x1024 .bf16) (ix2 a q) = aW1A V c (ix2 a q) := by
  obtain ⟨e0, e1⟩ := idx_3 t
  unfold iblk2
  rw [View.read_apply]
  show V c main_v142 _ = V c main_v142 _
  refine congrArg (V c main_v142) ?_
  funext d
  apply Fin.ext
  match d with
  | ⟨0, _⟩ => show win2_3.index t (0 : Fin 2) * 4096 + 1 * a.val = a.val; rw [e0]; omega
  | ⟨1, _⟩ => show win2_3.index t (1 : Fin 2) * 1024 + 1 * q.val = q.val; rw [e1]; omega
theorem blk_4 (c : Dev nD) (t : Fin cfg2.N) (a : Fin 1024) (q : Fin 1024) :
    (iblk2 V c 4 t : Vec Ideal S1024x1024 .bf16) (ix2 a q) = aW1B V c (ix2 a q) := by
  obtain ⟨e0, e1⟩ := idx_4 t
  unfold iblk2
  rw [View.read_apply]
  show V c main_v144 _ = V c main_v144 _
  refine congrArg (V c main_v144) ?_
  funext d
  apply Fin.ext
  match d with
  | ⟨0, _⟩ => show win2_4.index t (0 : Fin 2) * 1024 + 1 * a.val = a.val; rw [e0]; omega
  | ⟨1, _⟩ => show win2_4.index t (1 : Fin 2) * 1024 + 1 * q.val = q.val; rw [e1]; omega
theorem blk_5 (c : Dev nD) (t : Fin cfg2.N) (a : Fin 1) (q : Fin 1024) :
    (iblk2 V c 5 t : Vec Ideal S1x1024 .f32) (ix2 a q) = aB1 V c (ix2 a q) := by
  obtain ⟨e0, e1⟩ := idx_5 t
  unfold iblk2
  rw [View.read_apply]
  show V c main_v147 _ = V c main_v147 _
  refine congrArg (V c main_v147) ?_
  funext d
  apply Fin.ext
  match d with
  | ⟨0, _⟩ => show win2_5.index t (0 : Fin 2) * 1 + 1 * a.val = a.val; rw [e0]; omega
  | ⟨1, _⟩ => show win2_5.index t (1 : Fin 2) * 1024 + 1 * q.val = q.val; rw [e1]; omega
theorem blk_6 (c : Dev nD) (t : Fin cfg2.N) (a : Fin 1024) (q : Fin 1024) :
    (iblk2 V c 6 t : Vec Ideal S1024x1024 .bf16) (ix2 a q) = aW2 V c (ix2 a q) := by
  obtain ⟨e0, e1⟩ := idx_6 t
  unfold iblk2
  rw [View.read_apply]
  show V c main_v149 _ = V c main_v149 _
  refine congrArg (V c main_v149) ?_
  funext d
  apply Fin.ext
  match d with
  | ⟨0, _⟩ => show win2_6.index t (0 : Fin 2) * 1024 + 1 * a.val = a.val; rw [e0]; omega
  | ⟨1, _⟩ => show win2_6.index t (1 : Fin 2) * 1024 + 1 * q.val = q.val; rw [e1]; omega
theorem blk_7 (c : Dev nD) (t : Fin cfg2.N) (a : Fin 1) (q : Fin 1024) :
    (iblk2 V c 7 t : Vec Ideal S1x1024 .f32) (ix2 a q) = aB2 V c (ix2 a q) := by
  obtain ⟨e0, e1⟩ := idx_7 t
  unfold iblk2
  rw [View.read_apply]
  show V c main_v152 _ = V c main_v152 _
  refine congrArg (V c main_v152) ?_
  funext d
  apply Fin.ext
  match d with
  | ⟨0, _⟩ => show win2_7.index t (0 : Fin 2) * 1 + 1 * a.val = a.val; rw [e0]; omega
  | ⟨1, _⟩ => show win2_7.index t (1 : Fin 2) * 1024 + 1 * q.val = q.val; rw [e1]; omega
theorem blk_8 (c : Dev nD) (t : Fin cfg2.N) (a : Fin 1024) (q : Fin 4096) :
    (iblk2 V c 8 t : Vec Ideal S1024x4096 .bf16) (ix2 a q) = aWS V c (ix2 a q) := by
  obtain ⟨e0, e1⟩ := idx_8 t
  unfold iblk2
  rw [View.read_apply]
  show V c main_v154 _ = V c main_v154 _
  refine congrArg (V c main_v154) ?_
  funext d
  apply Fin.ext
  match d with
  | ⟨0, _⟩ => show win2_8.index t (0 : Fin 2) * 1024 + 1 * a.val = a.val; rw [e0]; omega
  | ⟨1, _⟩ => show win2_8.index t (1 : Fin 2) * 4096 + 1 * q.val = q.val; rw [e1]; omega
theorem blk_9 (c : Dev nD) (t : Fin cfg2.N) (a : Fin 1) (q : Fin 4096) :
    (iblk2 V c 9 t : Vec Ideal S1x4096 .f32) (ix2 a q) = aBS V c (ix2 a q) := by
  obtain ⟨e0, e1⟩ := idx_9 t
  unfold iblk2
  rw [View.read_apply]
  show V c main_v157 _ = V c main_v157 _
  refine congrArg (V c main_v157) ?_
  funext d
  apply Fin.ext
  match d with
  | ⟨0, _⟩ => show win2_9.index t (0 : Fin 2) * 1 + 1 * a.val = a.val; rw [e0]; omega
  | ⟨1, _⟩ => show win2_9.index t (1 : Fin 2) * 4096 + 1 * q.val = q.val; rw [e1]; omega
theorem blk_10 (c : Dev nD) (t : Fin cfg2.N) (a : Fin 1024) (q : Fin 4096) :
    (iblk2 V c 10 t : Vec Ideal S1024x4096 .bf16) (ix2 a q) = aWT V c (ix2 a q) := by
  obtain ⟨e0, e1⟩ := idx_10 t
  unfold iblk2
  rw [View.read_apply]
  show V c main_v159 _ = V c main_v159 _
  refine congrArg (V c main_v159) ?_
  funext d
  apply Fin.ext
  match d with
  | ⟨0, _⟩ => show win2_10.index t (0 : Fin 2) * 1024 + 1 * a.val = a.val; rw [e0]; omega
  | ⟨1, _⟩ => show win2_10.index t (1 : Fin 2) * 4096 + 1 * q.val = q.val; rw [e1]; omega
theorem blk_11 (c : Dev nD) (t : Fin cfg2.N) (a : Fin 1) (q : Fin 4096) :
    (iblk2 V c 11 t : Vec Ideal S1x4096 .f32) (ix2 a q) = aBT V c (ix2 a q) := by
  obtain ⟨e0, e1⟩ := idx_11 t
  unfold iblk2
  rw [View.read_apply]
  show V c main_v162 _ = V c main_v162 _
  refine congrArg (V c main_v162) ?_
  funext d
  apply Fin.ext
  match d with
  | ⟨0, _⟩ => show win2_11.index t (0 : Fin 2) * 1 + 1 * a.val = a.val; rw [e0]; omega
  | ⟨1, _⟩ => show win2_11.index t (1 : Fin 2) * 4096 + 1 * q.val = q.val; rw [e1]; omega
theorem blk_12 (c : Dev nD) (t : Fin cfg2.N) (a : Fin 1) (q : Fin 1) :
    (iblk2 V c 12 t : Vec Ideal S1x1 .f32) (ix2 a q) = aSF V c (ix2 a q) := by
  obtain ⟨e0, e1⟩ := idx_12 t
  unfold iblk2
  rw [View.read_apply]
  show V c main_v165 _ = V c main_v165 _
  refine congrArg (V c main_v165) ?_
  funext d
  apply Fin.ext
  match d with
  | ⟨0, _⟩ => show win2_12.index t (0 : Fin 2) * 1 + 1 * a.val = a.val; rw [e0]; omega
  | ⟨1, _⟩ => show win2_12.index t (1 : Fin 2) * 1 + 1 * q.val = q.val; rw [e1]; omega

/-! ## What a point computes, as rows of the arrays -/

/-- The hidden block of point t is rows 64t … 64t + 63 of the hidden array. -/
theorem hid_pt (c : Dev nD) (t : Fin cfg2.N) (a : Fin 64) (k : Fin 1024) :
    (k0_pay4 (F := Ideal) (iblk2 V c 0 t) (iblk2 V c 2 t) (iblk2 V c 3 t) (iblk2 V c 4 t) (iblk2 V c 5 t) (iblk2 V c 6 t) (iblk2 V c 7 t)) (ix2 a k) = aH V c (ix2 (rowAt t a) k) :=
  hidden_rows (iblk2 V c 0 t) (iblk2 V c 2 t) (iblk2 V c 3 t) (iblk2 V c 4 t) (iblk2 V c 5 t) (iblk2 V c 6 t) (iblk2 V c 7 t)
    (aXC V c) (aCND V c) (aW1A V c) (aW1B V c) (aB1 V c) (aW2 V c) (aB2 V c) (rowAt t)
    (blk_0 V c t) (blk_2 V c t) (blk_3 V c t) (blk_4 V c t) (fun k => blk_5 V c t 0 k) (blk_6 V c t) (fun k => blk_7 V c t 0 k) a k

/-- Row a, column q of point t's block of output 13 is row 64t + a, column q of its array. -/
theorem emb_13 (t : Fin cfg2.N) (a : Fin 64) (q : Fin 4096) :
    ((cfg2.win 13).blk t).view.emb (ix2 a q : S64x4096.Idx) = (ix2 (rowAt t a) q : S2048x4096.Idx) := by
  obtain ⟨e0, e1⟩ := idx_13 t
  funext d
  apply Fin.ext
  match d with
  | ⟨0, _⟩ => show win2_13.index t (0 : Fin 2) * 64 + 1 * a.val = t.val * 64 + a.val; rw [e0]; omega
  | ⟨1, _⟩ => show win2_13.index t (1 : Fin 2) * 4096 + 1 * q.val = q.val; rw [e1]; omega

/-- Row a, column q of point t's block of output 14 is row 64t + a, column q of its array. -/
theorem emb_14 (t : Fin cfg2.N) (a : Fin 64) (q : Fin 1) :
    ((cfg2.win 14).blk t).view.emb (ix2 a q : S64x1.Idx) = (ix2 (rowAt t a) q : S2048x1.Idx) := by
  obtain ⟨e0, e1⟩ := idx_14 t
  funext d
  apply Fin.ext
  match d with
  | ⟨0, _⟩ => show win2_14.index t (0 : Fin 2) * 64 + 1 * a.val = t.val * 64 + a.val; rw [e0]; omega
  | ⟨1, _⟩ => show win2_14.index t (1 : Fin 2) * 1 + 1 * q.val = q.val; rw [e1]; omega

/-! ## What a point writes back is its block of one whole-array function -/

theorem flushed_13 (c : Dev nD) (t : Fin cfg2.N) :
    (dat2 V c).flushed 13 t = ((cfg2.win 13).blk t).view.read (Elt Ideal) (GY V c) := by
  show (cfg2.win 13).cut (grid2.coords t) ((dat2 V c).after 13 t) = _
  rw [after2_13]
  unfold out2_13
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 4096) fun a q => ?_
  show k0_pay2 (F := Ideal) (k0_pay4 (F := Ideal) (iblk2 V c 0 t) (iblk2 V c 2 t) (iblk2 V c 3 t) (iblk2 V c 4 t) (iblk2 V c 5 t) (iblk2 V c 6 t) (iblk2 V c 7 t)) (iblk2 V c 12 t) (iblk2 V c 8 t) (iblk2 V c 9 t) (iblk2 V c 10 t) (iblk2 V c 11 t) (iblk2 V c 1 t) (ix2 a q)
    = GY V c (((cfg2.win 13).blk t).view.emb (ix2 a q : S64x4096.Idx))
  rw [emb_13]
  exact y_rows (k0_pay4 (F := Ideal) (iblk2 V c 0 t) (iblk2 V c 2 t) (iblk2 V c 3 t) (iblk2 V c 4 t) (iblk2 V c 5 t) (iblk2 V c 6 t) (iblk2 V c 7 t)) (iblk2 V c 12 t) (iblk2 V c 8 t) (iblk2 V c 9 t) (iblk2 V c 10 t) (iblk2 V c 11 t) (iblk2 V c 1 t)
    (aH V c) (aWS V c) (aBS V c) (aSF V c) (aWT V c) (aBT V c) (aXU V c) (rowAt t)
    (hid_pt V c t) (blk_8 V c t) (fun q => blk_9 V c t 0 q) (blk_12 V c t 0 0) (blk_10 V c t) (fun q => blk_11 V c t 0 q)
    (blk_1 V c t) a q

theorem flushed_14 (c : Dev nD) (t : Fin cfg2.N) :
    (dat2 V c).flushed 14 t = ((cfg2.win 14).blk t).view.read (Elt Ideal) (GS V c) := by
  show (cfg2.win 14).cut (grid2.coords t) ((dat2 V c).after 14 t) = _
  rw [after2_14]
  unfold out2_14
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 1) fun a q => ?_
  obtain rfl : q = 0 := Subsingleton.elim _ _
  show k0_pay3 (F := Ideal) (k0_pay4 (F := Ideal) (iblk2 V c 0 t) (iblk2 V c 2 t) (iblk2 V c 3 t) (iblk2 V c 4 t) (iblk2 V c 5 t) (iblk2 V c 6 t) (iblk2 V c 7 t)) (iblk2 V c 12 t) (iblk2 V c 8 t) (iblk2 V c 9 t) (ix2 a 0)
    = GS V c (((cfg2.win 14).blk t).view.emb (ix2 a 0 : S64x1.Idx))
  rw [emb_14]
  exact sum_rows (k0_pay4 (F := Ideal) (iblk2 V c 0 t) (iblk2 V c 2 t) (iblk2 V c 3 t) (iblk2 V c 4 t) (iblk2 V c 5 t) (iblk2 V c 6 t) (iblk2 V c 7 t)) (iblk2 V c 12 t) (iblk2 V c 8 t) (iblk2 V c 9 t)
    (aH V c) (aWS V c) (aBS V c) (aSF V c) (rowAt t)
    (hid_pt V c t) (blk_8 V c t) (fun q => blk_9 V c t 0 q) (blk_12 V c t 0 0) a

/-! ## The cover: row r is in point r / 64's block -/

theorem mem_blk_13 (t : Fin cfg2.N) (i : S2048x4096.Idx) :
    i ∈ ((cfg2.win 13).blk t).view.set ↔ ∀ a : Fin 2, win2_13.index t a * S64x4096.size a ≤ (i a).val
      ∧ (i a).val < win2_13.index t a * S64x4096.size a + S64x4096.size a := by
  show i ∈ ((View.whole main_v166_0).slice (win2_13.rect t)).set ↔ _
  rw [View.set_slice_whole, Rect.mem_set_unit]
  exact Iff.rfl

theorem cover_13 (i : S2048x4096.Idx) :
    ∃ t : Fin cfg2.N, (cfg2.win 13).flush t = true ∧ i ∈ ((cfg2.win 13).blk t).view.set := by
  have hi0 : (i 0).val < 2048 := (i 0).isLt
  have hi1 : (i 1).val < 4096 := (i 1).isLt
  obtain ⟨t, ht⟩ : ∃ t : Fin cfg2.N, t.val = (i 0).val / 64 :=
    ⟨⟨(i 0).val / 64, by show (i 0).val / 64 < 32; omega⟩, rfl⟩
  obtain ⟨e0, e1⟩ := idx_13 t
  refine ⟨t, flush2_13 t, ?_⟩
  rw [mem_blk_13]
  intro a
  match a with
  | ⟨0, _⟩ =>
    show win2_13.index t (0 : Fin 2) * 64 ≤ (i 0).val ∧ (i 0).val < win2_13.index t (0 : Fin 2) * 64 + 64
    rw [e0, ht]; omega
  | ⟨1, _⟩ =>
    show win2_13.index t (1 : Fin 2) * 4096 ≤ (i 1).val ∧ (i 1).val < win2_13.index t (1 : Fin 2) * 4096 + 4096
    rw [e1]; omega

theorem mem_blk_14 (t : Fin cfg2.N) (i : S2048x1.Idx) :
    i ∈ ((cfg2.win 14).blk t).view.set ↔ ∀ a : Fin 2, win2_14.index t a * S64x1.size a ≤ (i a).val
      ∧ (i a).val < win2_14.index t a * S64x1.size a + S64x1.size a := by
  show i ∈ ((View.whole main_v166_1).slice (win2_14.rect t)).set ↔ _
  rw [View.set_slice_whole, Rect.mem_set_unit]
  exact Iff.rfl

theorem cover_14 (i : S2048x1.Idx) :
    ∃ t : Fin cfg2.N, (cfg2.win 14).flush t = true ∧ i ∈ ((cfg2.win 14).blk t).view.set := by
  have hi0 : (i 0).val < 2048 := (i 0).isLt
  have hi1 : (i 1).val < 1 := (i 1).isLt
  obtain ⟨t, ht⟩ : ∃ t : Fin cfg2.N, t.val = (i 0).val / 64 :=
    ⟨⟨(i 0).val / 64, by show (i 0).val / 64 < 32; omega⟩, rfl⟩
  obtain ⟨e0, e1⟩ := idx_14 t
  refine ⟨t, flush2_14 t, ?_⟩
  rw [mem_blk_14]
  intro a
  match a with
  | ⟨0, _⟩ =>
    show win2_14.index t (0 : Fin 2) * 64 ≤ (i 0).val ∧ (i 0).val < win2_14.index t (0 : Fin 2) * 64 + 64
    rw [e0, ht]; omega
  | ⟨1, _⟩ =>
    show win2_14.index t (1 : Fin 2) * 1 ≤ (i 1).val ∧ (i 1).val < win2_14.index t (1 : Fin 2) * 1 + 1
    rw [e1]; omega

/-! ## The output arrays after the region -/

/-- The first output array ends holding the transformed half over the arrays the region read. -/
theorem final_13 (c : Dev nD) : (dat2 V c).arrAt 13 cfg2.N = GY V c :=
  (dat2 V c).arrAt_eq_of_cover 13 (GY V c) (fun t _ => flushed_13 V c t) cover_13

/-- The second output array ends holding the row sums of the scale. -/
theorem final_14 (c : Dev nD) : (dat2 V c).arrAt 14 cfg2.N = GS V c :=
  (dat2 V c).arrAt_eq_of_cover 14 (GS V c) (fun t _ => flushed_14 V c t) cover_14

/-! ## The two output arrays over the literal references of the region's windows -/

/-- The first output array after the region: the transformed half over the arrays the region read. -/
theorem arr13 (c : Dev nD) : ((dat2 V c).arrAt 13 cfg2.N : S2048x4096.Idx → EReal)
    = coupleY (V c main_v140) (coupleS (coupleH (V c main_v138) (V c main_v7) (V c main_v142) (V c main_v144) (V c main_v147) (V c main_v149) (V c main_v152)) (V c main_v154) (V c main_v157) (V c main_v165))
        (coupleT (coupleH (V c main_v138) (V c main_v7) (V c main_v142) (V c main_v144) (V c main_v147) (V c main_v149) (V c main_v152)) (V c main_v159) (V c main_v162)) :=
  final_13 V c

/-- The second output array after the region: the row sums of the scale. -/
theorem arr14 (c : Dev nD) : ((dat2 V c).arrAt 14 cfg2.N : S2048x1.Idx → EReal)
    = coupleSum (coupleS (coupleH (V c main_v138) (V c main_v7) (V c main_v142) (V c main_v144) (V c main_v147) (V c main_v149) (V c main_v152)) (V c main_v154) (V c main_v157) (V c main_v165)) :=
  final_14 V c

end Cert.KernelIdeal.KRegion2

end
-- ==== Proof.KRegion1.lean ====
/- Region 1 of the kernel-side program, at any contents V of the TensorCore's buffers when the region is entered:
   its two output arrays after the region, in closed form over the thirteen arrays it reads. A grid point t reads
   rows 64t … 64t + 63 of the three row-indexed arrays and the whole of the ten weight arrays; what it writes back
   is rows 64t … 64t + 63 of one whole-array function (the transformed half, resp. the row sums of the scale); the
   32 points' row blocks cover the 2048 rows. -/
import proofs.«175835_j29978871726094_1_alg».proof.Proof.Gen.KernelIdeal.Frame
import proofs.«175835_j29978871726094_1_alg».proof.Proof.KPoint

set_option maxRecDepth 16384

open scoped BigOperators

noncomputable section

namespace Cert.KernelIdeal.KRegion1

open Idealize.ShloMosaic Idealize.ShloMosaic.TcCoe Idealize.SL.Sem
open Idealize.ShloMosaic.Pipeline (Dat)
open Idealize.ShloMosaic.ValueIdx
open Cert.KernelIdeal Cert.KernelIdeal.Gen Cert.Flow Cert.KernelIdeal.KPoint

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the grid: a row-blocked window is at block t, the others at block 0 -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = t.val ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = 0 ∧ win1_7.index t (1 : Fin 2) = 0 :=
  (by decide +kernel : ∀ t : Fin grid1.N, _)
theorem idx_8 : ∀ t : Fin cfg1.N, win1_8.index t (0 : Fin 2) = 0 ∧ win1_8.index t (1 : Fin 2) = 0 :=
  (by decide +kernel : ∀ t : Fin grid1.N, _)
theorem idx_9 : ∀ t : Fin cfg1.N, win1_9.index t (0 : Fin 2) = 0 ∧ win1_9.index t (1 : Fin 2) = 0 :=
  (by decide +kernel : ∀ t : Fin grid1.N, _)
theorem idx_10 : ∀ t : Fin cfg1.N, win1_10.index t (0 : Fin 2) = 0 ∧ win1_10.index t (1 : Fin 2) = 0 :=
  (by decide +kernel : ∀ t : Fin grid1.N, _)
theorem idx_11 : ∀ t : Fin cfg1.N, win1_11.index t (0 : Fin 2) = 0 ∧ win1_11.index t (1 : Fin 2) = 0 :=
  (by decide +kernel : ∀ t : Fin grid1.N, _)
theorem idx_12 : ∀ t : Fin cfg1.N, win1_12.index t (0 : Fin 2) = 0 ∧ win1_12.index t (1 : Fin 2) = 0 :=
  (by decide +kernel : ∀ t : Fin grid1.N, _)
theorem idx_13 : ∀ t : Fin cfg1.N, win1_13.index t (0 : Fin 2) = t.val ∧ win1_13.index t (1 : Fin 2) = 0 :=
  (by decide +kernel : ∀ t : Fin grid1.N, _)
theorem idx_14 : ∀ t : Fin cfg1.N, win1_14.index t (0 : Fin 2) = t.val ∧ win1_14.index t (1 : Fin 2) = 0 :=
  (by decide +kernel : ∀ t : Fin grid1.N, _)

/-! ## The arrays the region reads, as it finds them -/
/-- the conditioning half -/
abbrev aXC (c : Dev nD) : A2 2048 4096 := V c (Pipeline.arrRef spec1 0)
/-- the half that is transformed -/
abbrev aXU (c : Dev nD) : A2 2048 4096 := V c (Pipeline.arrRef spec1 1)
/-- the conditioning array -/
abbrev aCND (c : Dev nD) : A2 2048 1024 := V c (Pipeline.arrRef spec1 2)
/-- the first layer's rows against the conditioning half -/
abbrev aW1A (c : Dev nD) : A2 4096 1024 := V c (Pipeline.arrRef spec1 3)
/-- the first layer's rows against the conditioning array -/
abbrev aW1B (c : Dev nD) : A2 1024 1024 := V c (Pipeline.arrRef spec1 4)
/-- the first layer's bias -/
abbrev aB1 (c : Dev nD) : A2 1 1024 := V c (Pipeline.arrRef spec1 5)
/-- the second layer's matrix -/
abbrev aW2 (c : Dev nD) : A2 1024 1024 := V c (Pipeline.arrRef spec1 6)
/-- the second layer's bias -/
abbrev aB2 (c : Dev nD) : A2 1 1024 := V c (Pipeline.arrRef spec1 7)
/-- the scale layer's matrix -/
abbrev aWS (c : Dev nD) : A2 1024 4096 := V c (Pipeline.arrRef spec1 8)
/-- the scale layer's bias -/
abbrev aBS (c : Dev nD) : A2 1 4096 := V c (Pipeline.arrRef spec1 9)
/-- the shift layer's matrix -/
abbrev aWT (c : Dev nD) : A2 1024 4096 := V c (Pipeline.arrRef spec1 10)
/-- the shift layer's bias -/
abbrev aBT (c : Dev nD) : A2 1 4096 := V c (Pipeline.arrRef spec1 11)
/-- the scale's scalar -/
abbrev aSF (c : Dev nD) : A2 1 1 := V c (Pipeline.arrRef spec1 12)

/-- The hidden array over the arrays the region reads. -/
abbrev aH (c : Dev nD) : A2 2048 1024 := coupleH (aXC V c) (aCND V c) (aW1A V c) (aW1B V c) (aB1 V c) (aW2 V c) (aB2 V c)
/-- The scale array. -/
abbrev aS (c : Dev nD) : A2 2048 4096 := coupleS (aH V c) (aWS V c) (aBS V c) (aSF V c)
/-- The transformed half. -/
abbrev GY (c : Dev nD) : A2 2048 4096 := coupleY (aXU V c) (aS V c) (coupleT (aH V c) (aWT V c) (aBT V c))
/-- The row sums of the scale. -/
abbrev GS (c : Dev nD) : A2 2048 1 := coupleSum (aS V c)

/-- The row of the arrays that row a of point t's row blocks is. -/
def rowAt (t : Fin cfg1.N) (a : Fin 64) : Fin 2048 :=
  ⟨t.val * 64 + a.val, by have ht : t.val < 32 := t.isLt; have := a.isLt; omega⟩

/-! ## Each input block as entries of its array -/
theorem blk_0 (c : Dev nD) (t : Fin cfg1.N) (a : Fin 64) (q : Fin 4096) :
    (iblk1 V c 0 t : Vec Ideal S64x4096 .f32) (ix2 a q) = aXC V c (ix2 (rowAt t a) q) := by
  obtain ⟨e0, e1⟩ := idx_0 t
  unfold iblk1
  rw [View.read_apply]
  show V c main_v86 _ = V c main_v86 _
  refine congrArg (V c main_v86) ?_
  funext d
  apply Fin.ext
  match d with
  | ⟨0, _⟩ => show win1_0.index t (0 : Fin 2) * 64 + 1 * a.val = t.val * 64 + a.val; rw [e0]; omega
  | ⟨1, _⟩ => show win1_0.index t (1 : Fin 2) * 4096 + 1 * q.val = q.val; rw [e1]; omega
theorem blk_1 (c : Dev nD) (t : Fin cfg1.N) (a : Fin 64) (q : Fin 4096) :
    (iblk1 V c 1 t : Vec Ideal S64x4096 .f32) (ix2 a q) = aXU V c (ix2 (rowAt t a) q) := by
  obtain ⟨e0, e1⟩ := idx_1 t
  unfold iblk1
  rw [View.read_apply]
  show V c main_v88 _ = V c main_v88 _
  refine congrArg (V c main_v88) ?_
  funext d
  apply Fin.ext
  match d with
  | ⟨0, _⟩ => show win1_1.index t (0 : Fin 2) * 64 + 1 * a.val = t.val * 64 + a.val; rw [e0]; omega
  | ⟨1, _⟩ => show win1_1.index t (1 : Fin 2) * 4096 + 1 * q.val = q.val; rw [e1]; omega
theorem blk_2 (c : Dev nD) (t : Fin cfg1.N) (a : Fin 64) (q : Fin 1024) :
    (iblk1 V c 2 t : Vec Ideal S64x1024 .f32) (ix2 a q) = aCND V c (ix2 (rowAt t a) q) := by
  obtain ⟨e0, e1⟩ := idx_2 t
  unfold iblk1
  rw [View.read_apply]
  show V c main_v7 _ = V c main_v7 _
  refine congrArg (V c main_v7) ?_
  funext d
  apply Fin.ext
  match d with
  | ⟨0, _⟩ => show win1_2.index t (0 : Fin 2) * 64 + 1 * a.val = t.val * 64 + a.val; rw [e0]; omega
  | ⟨1, _⟩ => show win1_2.index t (1 : Fin 2) * 1024 + 1 * q.val = q.val; rw [e1]; omega
theorem blk_3 (c : Dev nD) (t : Fin cfg1.N) (a : Fin 4096) (q : Fin 1024) :
    (iblk1 V c 3 t : Vec Ideal S4096x1024 .bf16) (ix2 a q) = aW1A V c (ix2 a q) := by
  obtain ⟨e0, e1⟩ := idx_3 t
  unfold iblk1
  rw [View.read_apply]
  show V c main_v90 _ = V c main_v90 _
  refine congrArg (V c main_v90) ?_
  funext d
  apply Fin.ext
  match d with
  | ⟨0, _⟩ => show win1_3.index t (0 : Fin 2) * 4096 + 1 * a.val = a.val; rw [e0]; omega
  | ⟨1, _⟩ => show win1_3.index t (1 : Fin 2) * 1024 + 1 * q.val = q.val; rw [e1]; omega
theorem blk_4 (c : Dev nD) (t : Fin cfg1.N) (a : Fin 1024) (q : Fin 1024) :
    (iblk1 V c 4 t : Vec Ideal S1024x1024 .bf16) (ix2 a q) = aW1B V c (ix2 a q) := by
  obtain ⟨e0, e1⟩ := idx_4 t
  unfold iblk1
  rw [View.read_apply]
  show V c main_v92 _ = V c main_v92 _
  refine congrArg (V c main_v92) ?_
  funext d
  apply Fin.ext
  match d with
  | ⟨0, _⟩ => show win1_4.index t (0 : Fin 2) * 1024 + 1 * a.val = a.val; rw [e0]; omega
  | ⟨1, _⟩ => show win1_4.index t (1 : Fin 2) * 1024 + 1 * q.val = q.val; rw [e1]; omega
theorem blk_5 (c : Dev nD) (t : Fin cfg1.N) (a : Fin 1) (q : Fin 1024) :
    (iblk1 V c 5 t : Vec Ideal S1x1024 .f32) (ix2 a q) = aB1 V c (ix2 a q) := by
  obtain ⟨e0, e1⟩ := idx_5 t
  unfold iblk1
  rw [View.read_apply]
  show V c main_v95 _ = V c main_v95 _
  refine congrArg (V c main_v95) ?_
  funext d
  apply Fin.ext
  match d with
  | ⟨0, _⟩ => show win1_5.index t (0 : Fin 2) * 1 + 1 * a.val = a.val; rw [e0]; omega
  | ⟨1, _⟩ => show win1_5.index t (1 : Fin 2) * 1024 + 1 * q.val = q.val; rw [e1]; omega
theorem blk_6 (c : Dev nD) (t : Fin cfg1.N) (a : Fin 1024) (q : Fin 1024) :
    (iblk1 V c 6 t : Vec Ideal S1024x1024 .bf16) (ix2 a q) = aW2 V c (ix2 a q) := by
  obtain ⟨e0, e1⟩ := idx_6 t
  unfold iblk1
  rw [View.read_apply]
  show V c main_v97 _ = V c main_v97 _
  refine congrArg (V c main_v97) ?_
  funext d
  apply Fin.ext
  match d with
  | ⟨0, _⟩ => show win1_6.index t (0 : Fin 2) * 1024 + 1 * a.val = a.val; rw [e0]; omega
  | ⟨1, _⟩ => show win1_6.index t (1 : Fin 2) * 1024 + 1 * q.val = q.val; rw [e1]; omega
theorem blk_7 (c : Dev nD) (t : Fin cfg1.N) (a : Fin 1) (q : Fin 1024) :
    (iblk1 V c 7 t : Vec Ideal S1x1024 .f32) (ix2 a q) = aB2 V c (ix2 a q) := by
  obtain ⟨e0, e1⟩ := idx_7 t
  unfold iblk1
  rw [View.read_apply]
  show V c main_v100 _ = V c main_v100 _
  refine congrArg (V c main_v100) ?_
  funext d
  apply Fin.ext
  match d with
  | ⟨0, _⟩ => show win1_7.index t (0 : Fin 2) * 1 + 1 * a.val = a.val; rw [e0]; omega
  | ⟨1, _⟩ => show win1_7.index t (1 : Fin 2) * 1024 + 1 * q.val = q.val; rw [e1]; omega
theorem blk_8 (c : Dev nD) (t : Fin cfg1.N) (a : Fin 1024) (q : Fin 4096) :
    (iblk1 V c 8 t : Vec Ideal S1024x4096 .bf16) (ix2 a q) = aWS V c (ix2 a q) := by
  obtain ⟨e0, e1⟩ := idx_8 t
  unfold iblk1
  rw [View.read_apply]
  show V c main_v102 _ = V c main_v102 _
  refine congrArg (V c main_v102) ?_
  funext d
  apply Fin.ext
  match d with
  | ⟨0, _⟩ => show win1_8.index t (0 : Fin 2) * 1024 + 1 * a.val = a.val; rw [e0]; omega
  | ⟨1, _⟩ => show win1_8.index t (1 : Fin 2) * 4096 + 1 * q.val = q.val; rw [e1]; omega
theorem blk_9 (c : Dev nD) (t : Fin cfg1.N) (a : Fin 1) (q : Fin 4096) :
    (iblk1 V c 9 t : Vec Ideal S1x4096 .f32) (ix2 a q) = aBS V c (ix2 a q) := by
  obtain ⟨e0, e1⟩ := idx_9 t
  unfold iblk1
  rw [View.read_apply]
  show V c main_v105 _ = V c main_v105 _
  refine congrArg (V c main_v105) ?_
  funext d
  apply Fin.ext
  match d with
  | ⟨0, _⟩ => show win1_9.index t (0 : Fin 2) * 1 + 1 * a.val = a.val; rw [e0]; omega
  | ⟨1, _⟩ => show win1_9.index t (1 : Fin 2) * 4096 + 1 * q.val = q.val; rw [e1]; omega
theorem blk_10 (c : Dev nD) (t : Fin cfg1.N) (a : Fin 1024) (q : Fin 4096) :
    (iblk1 V c 10 t : Vec Ideal S1024x4096 .bf16) (ix2 a q) = aWT V c (ix2 a q) := by
  obtain ⟨e0, e1⟩ := idx_10 t
  unfold iblk1
  rw [View.read_apply]
  show V c main_v107 _ = V c main_v107 _
  refine congrArg (V c main_v107) ?_
  funext d
  apply Fin.ext
  match d with
  | ⟨0, _⟩ => show win1_10.index t (0 : Fin 2) * 1024 + 1 * a.val = a.val; rw [e0]; omega
  | ⟨1, _⟩ => show win1_10.index t (1 : Fin 2) * 4096 + 1 * q.val = q.val; rw [e1]; omega
theorem blk_11 (c : Dev nD) (t : Fin cfg1.N) (a : Fin 1) (q : Fin 4096) :
    (iblk1 V c 11 t : Vec Ideal S1x4096 .f32) (ix2 a q) = aBT V c (ix2 a q) := by
  obtain ⟨e0, e1⟩ := idx_11 t
  unfold iblk1
  rw [View.read_apply]
  show V c main_v110 _ = V c main_v110 _
  refine congrArg (V c main_v110) ?_
  funext d
  apply Fin.ext
  match d with
  | ⟨0, _⟩ => show win1_11.index t (0 : Fin 2) * 1 + 1 * a.val = a.val; rw [e0]; omega
  | ⟨1, _⟩ => show win1_11.index t (1 : Fin 2) * 4096 + 1 * q.val = q.val; rw [e1]; omega
theorem blk_12 (c : Dev nD) (t : Fin cfg1.N) (a : Fin 1) (q : Fin 1) :
    (iblk1 V c 12 t : Vec Ideal S1x1 .f32) (ix2 a q) = aSF V c (ix2 a q) := by
  obtain ⟨e0, e1⟩ := idx_12 t
  unfold iblk1
  rw [View.read_apply]
  show V c main_v113 _ = V c main_v113 _
  refine congrArg (V c main_v113) ?_
  funext d
  apply Fin.ext
  match d with
  | ⟨0, _⟩ => show win1_12.index t (0 : Fin 2) * 1 + 1 * a.val = a.val; rw [e0]; omega
  | ⟨1, _⟩ => show win1_12.index t (1 : Fin 2) * 1 + 1 * q.val = q.val; rw [e1]; omega

/-! ## What a point computes, as rows of the arrays -/

/-- The hidden block of point t is rows 64t … 64t + 63 of the hidden array. -/
theorem hid_pt (c : Dev nD) (t : Fin cfg1.N) (a : Fin 64) (k : Fin 1024) :
    (k0_pay4 (F := Ideal) (iblk1 V c 0 t) (iblk1 V c 2 t) (iblk1 V c 3 t) (iblk1 V c 4 t) (iblk1 V c 5 t) (iblk1 V c 6 t) (iblk1 V c 7 t)) (ix2 a k) = aH V c (ix2 (rowAt t a) k) :=
  hidden_rows (iblk1 V c 0 t) (iblk1 V c 2 t) (iblk1 V c 3 t) (iblk1 V c 4 t) (iblk1 V c 5 t) (iblk1 V c 6 t) (iblk1 V c 7 t)
    (aXC V c) (aCND V c) (aW1A V c) (aW1B V c) (aB1 V c) (aW2 V c) (aB2 V c) (rowAt t)
    (blk_0 V c t) (blk_2 V c t) (blk_3 V c t) (blk_4 V c t) (fun k => blk_5 V c t 0 k) (blk_6 V c t) (fun k => blk_7 V c t 0 k) a k

/-- Row a, column q of point t's block of output 13 is row 64t + a, column q of its array. -/
theorem emb_13 (t : Fin cfg1.N) (a : Fin 64) (q : Fin 4096) :
    ((cfg1.win 13).blk t).view.emb (ix2 a q : S64x4096.Idx) = (ix2 (rowAt t a) q : S2048x4096.Idx) := by
  obtain ⟨e0, e1⟩ := idx_13 t
  funext d
  apply Fin.ext
  match d with
  | ⟨0, _⟩ => show win1_13.index t (0 : Fin 2) * 64 + 1 * a.val = t.val * 64 + a.val; rw [e0]; omega
  | ⟨1, _⟩ => show win1_13.index t (1 : Fin 2) * 4096 + 1 * q.val = q.val; rw [e1]; omega

/-- Row a, column q of point t's block of output 14 is row 64t + a, column q of its array. -/
theorem emb_14 (t : Fin cfg1.N) (a : Fin 64) (q : Fin 1) :
    ((cfg1.win 14).blk t).view.emb (ix2 a q : S64x1.Idx) = (ix2 (rowAt t a) q : S2048x1.Idx) := by
  obtain ⟨e0, e1⟩ := idx_14 t
  funext d
  apply Fin.ext
  match d with
  | ⟨0, _⟩ => show win1_14.index t (0 : Fin 2) * 64 + 1 * a.val = t.val * 64 + a.val; rw [e0]; omega
  | ⟨1, _⟩ => show win1_14.index t (1 : Fin 2) * 1 + 1 * q.val = q.val; rw [e1]; omega

/-! ## What a point writes back is its block of one whole-array function -/

theorem flushed_13 (c : Dev nD) (t : Fin cfg1.N) :
    (dat1 V c).flushed 13 t = ((cfg1.win 13).blk t).view.read (Elt Ideal) (GY V c) := by
  show (cfg1.win 13).cut (grid1.coords t) ((dat1 V c).after 13 t) = _
  rw [after1_13]
  unfold out1_13
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 4096) fun a q => ?_
  show k0_pay2 (F := Ideal) (k0_pay4 (F := Ideal) (iblk1 V c 0 t) (iblk1 V c 2 t) (iblk1 V c 3 t) (iblk1 V c 4 t) (iblk1 V c 5 t) (iblk1 V c 6 t) (iblk1 V c 7 t)) (iblk1 V c 12 t) (iblk1 V c 8 t) (iblk1 V c 9 t) (iblk1 V c 10 t) (iblk1 V c 11 t) (iblk1 V c 1 t) (ix2 a q)
    = GY V c (((cfg1.win 13).blk t).view.emb (ix2 a q : S64x4096.Idx))
  rw [emb_13]
  exact y_rows (k0_pay4 (F := Ideal) (iblk1 V c 0 t) (iblk1 V c 2 t) (iblk1 V c 3 t) (iblk1 V c 4 t) (iblk1 V c 5 t) (iblk1 V c 6 t) (iblk1 V c 7 t)) (iblk1 V c 12 t) (iblk1 V c 8 t) (iblk1 V c 9 t) (iblk1 V c 10 t) (iblk1 V c 11 t) (iblk1 V c 1 t)
    (aH V c) (aWS V c) (aBS V c) (aSF V c) (aWT V c) (aBT V c) (aXU V c) (rowAt t)
    (hid_pt V c t) (blk_8 V c t) (fun q => blk_9 V c t 0 q) (blk_12 V c t 0 0) (blk_10 V c t) (fun q => blk_11 V c t 0 q)
    (blk_1 V c t) a q

theorem flushed_14 (c : Dev nD) (t : Fin cfg1.N) :
    (dat1 V c).flushed 14 t = ((cfg1.win 14).blk t).view.read (Elt Ideal) (GS V c) := by
  show (cfg1.win 14).cut (grid1.coords t) ((dat1 V c).after 14 t) = _
  rw [after1_14]
  unfold out1_14
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 1) fun a q => ?_
  obtain rfl : q = 0 := Subsingleton.elim _ _
  show k0_pay3 (F := Ideal) (k0_pay4 (F := Ideal) (iblk1 V c 0 t) (iblk1 V c 2 t) (iblk1 V c 3 t) (iblk1 V c 4 t) (iblk1 V c 5 t) (iblk1 V c 6 t) (iblk1 V c 7 t)) (iblk1 V c 12 t) (iblk1 V c 8 t) (iblk1 V c 9 t) (ix2 a 0)
    = GS V c (((cfg1.win 14).blk t).view.emb (ix2 a 0 : S64x1.Idx))
  rw [emb_14]
  exact sum_rows (k0_pay4 (F := Ideal) (iblk1 V c 0 t) (iblk1 V c 2 t) (iblk1 V c 3 t) (iblk1 V c 4 t) (iblk1 V c 5 t) (iblk1 V c 6 t) (iblk1 V c 7 t)) (iblk1 V c 12 t) (iblk1 V c 8 t) (iblk1 V c 9 t)
    (aH V c) (aWS V c) (aBS V c) (aSF V c) (rowAt t)
    (hid_pt V c t) (blk_8 V c t) (fun q => blk_9 V c t 0 q) (blk_12 V c t 0 0) a

/-! ## The cover: row r is in point r / 64's block -/

theorem mem_blk_13 (t : Fin cfg1.N) (i : S2048x4096.Idx) :
    i ∈ ((cfg1.win 13).blk t).view.set ↔ ∀ a : Fin 2, win1_13.index t a * S64x4096.size a ≤ (i a).val
      ∧ (i a).val < win1_13.index t a * S64x4096.size a + S64x4096.size a := by
  show i ∈ ((View.whole main_v114_0).slice (win1_13.rect t)).set ↔ _
  rw [View.set_slice_whole, Rect.mem_set_unit]
  exact Iff.rfl

theorem cover_13 (i : S2048x4096.Idx) :
    ∃ t : Fin cfg1.N, (cfg1.win 13).flush t = true ∧ i ∈ ((cfg1.win 13).blk t).view.set := by
  have hi0 : (i 0).val < 2048 := (i 0).isLt
  have hi1 : (i 1).val < 4096 := (i 1).isLt
  obtain ⟨t, ht⟩ : ∃ t : Fin cfg1.N, t.val = (i 0).val / 64 :=
    ⟨⟨(i 0).val / 64, by show (i 0).val / 64 < 32; omega⟩, rfl⟩
  obtain ⟨e0, e1⟩ := idx_13 t
  refine ⟨t, flush1_13 t, ?_⟩
  rw [mem_blk_13]
  intro a
  match a with
  | ⟨0, _⟩ =>
    show win1_13.index t (0 : Fin 2) * 64 ≤ (i 0).val ∧ (i 0).val < win1_13.index t (0 : Fin 2) * 64 + 64
    rw [e0, ht]; omega
  | ⟨1, _⟩ =>
    show win1_13.index t (1 : Fin 2) * 4096 ≤ (i 1).val ∧ (i 1).val < win1_13.index t (1 : Fin 2) * 4096 + 4096
    rw [e1]; omega

theorem mem_blk_14 (t : Fin cfg1.N) (i : S2048x1.Idx) :
    i ∈ ((cfg1.win 14).blk t).view.set ↔ ∀ a : Fin 2, win1_14.index t a * S64x1.size a ≤ (i a).val
      ∧ (i a).val < win1_14.index t a * S64x1.size a + S64x1.size a := by
  show i ∈ ((View.whole main_v114_1).slice (win1_14.rect t)).set ↔ _
  rw [View.set_slice_whole, Rect.mem_set_unit]
  exact Iff.rfl

theorem cover_14 (i : S2048x1.Idx) :
    ∃ t : Fin cfg1.N, (cfg1.win 14).flush t = true ∧ i ∈ ((cfg1.win 14).blk t).view.set := by
  have hi0 : (i 0).val < 2048 := (i 0).isLt
  have hi1 : (i 1).val < 1 := (i 1).isLt
  obtain ⟨t, ht⟩ : ∃ t : Fin cfg1.N, t.val = (i 0).val / 64 :=
    ⟨⟨(i 0).val / 64, by show (i 0).val / 64 < 32; omega⟩, rfl⟩
  obtain ⟨e0, e1⟩ := idx_14 t
  refine ⟨t, flush1_14 t, ?_⟩
  rw [mem_blk_14]
  intro a
  match a with
  | ⟨0, _⟩ =>
    show win1_14.index t (0 : Fin 2) * 64 ≤ (i 0).val ∧ (i 0).val < win1_14.index t (0 : Fin 2) * 64 + 64
    rw [e0, ht]; omega
  | ⟨1, _⟩ =>
    show win1_14.index t (1 : Fin 2) * 1 ≤ (i 1).val ∧ (i 1).val < win1_14.index t (1 : Fin 2) * 1 + 1
    rw [e1]; omega

/-! ## The output arrays after the region -/

/-- The first output array ends holding the transformed half over the arrays the region read. -/
theorem final_13 (c : Dev nD) : (dat1 V c).arrAt 13 cfg1.N = GY V c :=
  (dat1 V c).arrAt_eq_of_cover 13 (GY V c) (fun t _ => flushed_13 V c t) cover_13

/-- The second output array ends holding the row sums of the scale. -/
theorem final_14 (c : Dev nD) : (dat1 V c).arrAt 14 cfg1.N = GS V c :=
  (dat1 V c).arrAt_eq_of_cover 14 (GS V c) (fun t _ => flushed_14 V c t) cover_14

/-! ## The two output arrays over the literal references of the region's windows -/

/-- The first output array after the region: the transformed half over the arrays the region read. -/
theorem arr13 (c : Dev nD) : ((dat1 V c).arrAt 13 cfg1.N : S2048x4096.Idx → EReal)
    = coupleY (V c main_v88) (coupleS (coupleH (V c main_v86) (V c main_v7) (V c main_v90) (V c main_v92) (V c main_v95) (V c main_v97) (V c main_v100)) (V c main_v102) (V c main_v105) (V c main_v113))
        (coupleT (coupleH (V c main_v86) (V c main_v7) (V c main_v90) (V c main_v92) (V c main_v95) (V c main_v97) (V c main_v100)) (V c main_v107) (V c main_v110)) :=
  final_13 V c

/-- The second output array after the region: the row sums of the scale. -/
theorem arr14 (c : Dev nD) : ((dat1 V c).arrAt 14 cfg1.N : S2048x1.Idx → EReal)
    = coupleSum (coupleS (coupleH (V c main_v86) (V c main_v7) (V c main_v90) (V c main_v92) (V c main_v95) (V c main_v97) (V c main_v100)) (V c main_v102) (V c main_v105) (V c main_v113)) :=
  final_14 V c

end Cert.KernelIdeal.KRegion1

end
-- ==== Proof.KRegion0.lean ====
/- Region 0 of the kernel-side program, at any contents V of the TensorCore's buffers when the region is entered:
   its two output arrays after the region, in closed form over the thirteen arrays it reads. A grid point t reads
   rows 64t … 64t + 63 of the three row-indexed arrays and the whole of the ten weight arrays; what it writes back
   is rows 64t … 64t + 63 of one whole-array function (the transformed half, resp. the row sums of the scale); the
   32 points' row blocks cover the 2048 rows. -/
import proofs.«175835_j29978871726094_1_alg».proof.Proof.Gen.KernelIdeal.Frame
import proofs.«175835_j29978871726094_1_alg».proof.Proof.KPoint

set_option maxRecDepth 16384

open scoped BigOperators

noncomputable section

namespace Cert.KernelIdeal.KRegion0

open Idealize.ShloMosaic Idealize.ShloMosaic.TcCoe Idealize.SL.Sem
open Idealize.ShloMosaic.Pipeline (Dat)
open Idealize.ShloMosaic.ValueIdx
open Cert.KernelIdeal Cert.KernelIdeal.Gen Cert.Flow Cert.KernelIdeal.KPoint

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the grid: a row-blocked window is at block t, the others at block 0 -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = t.val ∧ win0_13.index t (1 : Fin 2) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)

/-! ## The arrays the region reads, as it finds them -/
/-- the conditioning half -/
abbrev aXC (c : Dev nD) : A2 2048 4096 := V c (Pipeline.arrRef spec0 0)
/-- the half that is transformed -/
abbrev aXU (c : Dev nD) : A2 2048 4096 := V c (Pipeline.arrRef spec0 1)
/-- the conditioning array -/
abbrev aCND (c : Dev nD) : A2 2048 1024 := V c (Pipeline.arrRef spec0 2)
/-- the first layer's rows against the conditioning half -/
abbrev aW1A (c : Dev nD) : A2 4096 1024 := V c (Pipeline.arrRef spec0 3)
/-- the first layer's rows against the conditioning array -/
abbrev aW1B (c : Dev nD) : A2 1024 1024 := V c (Pipeline.arrRef spec0 4)
/-- the first layer's bias -/
abbrev aB1 (c : Dev nD) : A2 1 1024 := V c (Pipeline.arrRef spec0 5)
/-- the second layer's matrix -/
abbrev aW2 (c : Dev nD) : A2 1024 1024 := V c (Pipeline.arrRef spec0 6)
/-- the second layer's bias -/
abbrev aB2 (c : Dev nD) : A2 1 1024 := V c (Pipeline.arrRef spec0 7)
/-- the scale layer's matrix -/
abbrev aWS (c : Dev nD) : A2 1024 4096 := V c (Pipeline.arrRef spec0 8)
/-- the scale layer's bias -/
abbrev aBS (c : Dev nD) : A2 1 4096 := V c (Pipeline.arrRef spec0 9)
/-- the shift layer's matrix -/
abbrev aWT (c : Dev nD) : A2 1024 4096 := V c (Pipeline.arrRef spec0 10)
/-- the shift layer's bias -/
abbrev aBT (c : Dev nD) : A2 1 4096 := V c (Pipeline.arrRef spec0 11)
/-- the scale's scalar -/
abbrev aSF (c : Dev nD) : A2 1 1 := V c (Pipeline.arrRef spec0 12)

/-- The hidden array over the arrays the region reads. -/
abbrev aH (c : Dev nD) : A2 2048 1024 := coupleH (aXC V c) (aCND V c) (aW1A V c) (aW1B V c) (aB1 V c) (aW2 V c) (aB2 V c)
/-- The scale array. -/
abbrev aS (c : Dev nD) : A2 2048 4096 := coupleS (aH V c) (aWS V c) (aBS V c) (aSF V c)
/-- The transformed half. -/
abbrev GY (c : Dev nD) : A2 2048 4096 := coupleY (aXU V c) (aS V c) (coupleT (aH V c) (aWT V c) (aBT V c))
/-- The row sums of the scale. -/
abbrev GS (c : Dev nD) : A2 2048 1 := coupleSum (aS V c)

/-- The row of the arrays that row a of point t's row blocks is. -/
def rowAt (t : Fin cfg0.N) (a : Fin 64) : Fin 2048 :=
  ⟨t.val * 64 + a.val, by have ht : t.val < 32 := t.isLt; have := a.isLt; omega⟩

/-! ## Each input block as entries of its array -/
theorem blk_0 (c : Dev nD) (t : Fin cfg0.N) (a : Fin 64) (q : Fin 4096) :
    (iblk0 V c 0 t : Vec Ideal S64x4096 .f32) (ix2 a q) = aXC V c (ix2 (rowAt t a) q) := by
  obtain ⟨e0, e1⟩ := idx_0 t
  unfold iblk0
  rw [View.read_apply]
  show V c main_v34 _ = V c main_v34 _
  refine congrArg (V c main_v34) ?_
  funext d
  apply Fin.ext
  match d with
  | ⟨0, _⟩ => show win0_0.index t (0 : Fin 2) * 64 + 1 * a.val = t.val * 64 + a.val; rw [e0]; omega
  | ⟨1, _⟩ => show win0_0.index t (1 : Fin 2) * 4096 + 1 * q.val = q.val; rw [e1]; omega
theorem blk_1 (c : Dev nD) (t : Fin cfg0.N) (a : Fin 64) (q : Fin 4096) :
    (iblk0 V c 1 t : Vec Ideal S64x4096 .f32) (ix2 a q) = aXU V c (ix2 (rowAt t a) q) := by
  obtain ⟨e0, e1⟩ := idx_1 t
  unfold iblk0
  rw [View.read_apply]
  show V c main_v36 _ = V c main_v36 _
  refine congrArg (V c main_v36) ?_
  funext d
  apply Fin.ext
  match d with
  | ⟨0, _⟩ => show win0_1.index t (0 : Fin 2) * 64 + 1 * a.val = t.val * 64 + a.val; rw [e0]; omega
  | ⟨1, _⟩ => show win0_1.index t (1 : Fin 2) * 4096 + 1 * q.val = q.val; rw [e1]; omega
theorem blk_2 (c : Dev nD) (t : Fin cfg0.N) (a : Fin 64) (q : Fin 1024) :
    (iblk0 V c 2 t : Vec Ideal S64x1024 .f32) (ix2 a q) = aCND V c (ix2 (rowAt t a) q) := by
  obtain ⟨e0, e1⟩ := idx_2 t
  unfold iblk0
  rw [View.read_apply]
  show V c main_v7 _ = V c main_v7 _
  refine congrArg (V c main_v7) ?_
  funext d
  apply Fin.ext
  match d with
  | ⟨0, _⟩ => show win0_2.index t (0 : Fin 2) * 64 + 1 * a.val = t.val * 64 + a.val; rw [e0]; omega
  | ⟨1, _⟩ => show win0_2.index t (1 : Fin 2) * 1024 + 1 * q.val = q.val; rw [e1]; omega
theorem blk_3 (c : Dev nD) (t : Fin cfg0.N) (a : Fin 4096) (q : Fin 1024) :
    (iblk0 V c 3 t : Vec Ideal S4096x1024 .bf16) (ix2 a q) = aW1A V c (ix2 a q) := by
  obtain ⟨e0, e1⟩ := idx_3 t
  unfold iblk0
  rw [View.read_apply]
  show V c main_v38 _ = V c main_v38 _
  refine congrArg (V c main_v38) ?_
  funext d
  apply Fin.ext
  match d with
  | ⟨0, _⟩ => show win0_3.index t (0 : Fin 2) * 4096 + 1 * a.val = a.val; rw [e0]; omega
  | ⟨1, _⟩ => show win0_3.index t (1 : Fin 2) * 1024 + 1 * q.val = q.val; rw [e1]; omega
theorem blk_4 (c : Dev nD) (t : Fin cfg0.N) (a : Fin 1024) (q : Fin 1024) :
    (iblk0 V c 4 t : Vec Ideal S1024x1024 .bf16) (ix2 a q) = aW1B V c (ix2 a q) := by
  obtain ⟨e0, e1⟩ := idx_4 t
  unfold iblk0
  rw [View.read_apply]
  show V c main_v40 _ = V c main_v40 _
  refine congrArg (V c main_v40) ?_
  funext d
  apply Fin.ext
  match d with
  | ⟨0, _⟩ => show win0_4.index t (0 : Fin 2) * 1024 + 1 * a.val = a.val; rw [e0]; omega
  | ⟨1, _⟩ => show win0_4.index t (1 : Fin 2) * 1024 + 1 * q.val = q.val; rw [e1]; omega
theorem blk_5 (c : Dev nD) (t : Fin cfg0.N) (a : Fin 1) (q : Fin 1024) :
    (iblk0 V c 5 t : Vec Ideal S1x1024 .f32) (ix2 a q) = aB1 V c (ix2 a q) := by
  obtain ⟨e0, e1⟩ := idx_5 t
  unfold iblk0
  rw [View.read_apply]
  show V c main_v43 _ = V c main_v43 _
  refine congrArg (V c main_v43) ?_
  funext d
  apply Fin.ext
  match d with
  | ⟨0, _⟩ => show win0_5.index t (0 : Fin 2) * 1 + 1 * a.val = a.val; rw [e0]; omega
  | ⟨1, _⟩ => show win0_5.index t (1 : Fin 2) * 1024 + 1 * q.val = q.val; rw [e1]; omega
theorem blk_6 (c : Dev nD) (t : Fin cfg0.N) (a : Fin 1024) (q : Fin 1024) :
    (iblk0 V c 6 t : Vec Ideal S1024x1024 .bf16) (ix2 a q) = aW2 V c (ix2 a q) := by
  obtain ⟨e0, e1⟩ := idx_6 t
  unfold iblk0
  rw [View.read_apply]
  show V c main_v45 _ = V c main_v45 _
  refine congrArg (V c main_v45) ?_
  funext d
  apply Fin.ext
  match d with
  | ⟨0, _⟩ => show win0_6.index t (0 : Fin 2) * 1024 + 1 * a.val = a.val; rw [e0]; omega
  | ⟨1, _⟩ => show win0_6.index t (1 : Fin 2) * 1024 + 1 * q.val = q.val; rw [e1]; omega
theorem blk_7 (c : Dev nD) (t : Fin cfg0.N) (a : Fin 1) (q : Fin 1024) :
    (iblk0 V c 7 t : Vec Ideal S1x1024 .f32) (ix2 a q) = aB2 V c (ix2 a q) := by
  obtain ⟨e0, e1⟩ := idx_7 t
  unfold iblk0
  rw [View.read_apply]
  show V c main_v48 _ = V c main_v48 _
  refine congrArg (V c main_v48) ?_
  funext d
  apply Fin.ext
  match d with
  | ⟨0, _⟩ => show win0_7.index t (0 : Fin 2) * 1 + 1 * a.val = a.val; rw [e0]; omega
  | ⟨1, _⟩ => show win0_7.index t (1 : Fin 2) * 1024 + 1 * q.val = q.val; rw [e1]; omega
theorem blk_8 (c : Dev nD) (t : Fin cfg0.N) (a : Fin 1024) (q : Fin 4096) :
    (iblk0 V c 8 t : Vec Ideal S1024x4096 .bf16) (ix2 a q) = aWS V c (ix2 a q) := by
  obtain ⟨e0, e1⟩ := idx_8 t
  unfold iblk0
  rw [View.read_apply]
  show V c main_v50 _ = V c main_v50 _
  refine congrArg (V c main_v50) ?_
  funext d
  apply Fin.ext
  match d with
  | ⟨0, _⟩ => show win0_8.index t (0 : Fin 2) * 1024 + 1 * a.val = a.val; rw [e0]; omega
  | ⟨1, _⟩ => show win0_8.index t (1 : Fin 2) * 4096 + 1 * q.val = q.val; rw [e1]; omega
theorem blk_9 (c : Dev nD) (t : Fin cfg0.N) (a : Fin 1) (q : Fin 4096) :
    (iblk0 V c 9 t : Vec Ideal S1x4096 .f32) (ix2 a q) = aBS V c (ix2 a q) := by
  obtain ⟨e0, e1⟩ := idx_9 t
  unfold iblk0
  rw [View.read_apply]
  show V c main_v53 _ = V c main_v53 _
  refine congrArg (V c main_v53) ?_
  funext d
  apply Fin.ext
  match d with
  | ⟨0, _⟩ => show win0_9.index t (0 : Fin 2) * 1 + 1 * a.val = a.val; rw [e0]; omega
  | ⟨1, _⟩ => show win0_9.index t (1 : Fin 2) * 4096 + 1 * q.val = q.val; rw [e1]; omega
theorem blk_10 (c : Dev nD) (t : Fin cfg0.N) (a : Fin 1024) (q : Fin 4096) :
    (iblk0 V c 10 t : Vec Ideal S1024x4096 .bf16) (ix2 a q) = aWT V c (ix2 a q) := by
  obtain ⟨e0, e1⟩ := idx_10 t
  unfold iblk0
  rw [View.read_apply]
  show V c main_v55 _ = V c main_v55 _
  refine congrArg (V c main_v55) ?_
  funext d
  apply Fin.ext
  match d with
  | ⟨0, _⟩ => show win0_10.index t (0 : Fin 2) * 1024 + 1 * a.val = a.val; rw [e0]; omega
  | ⟨1, _⟩ => show win0_10.index t (1 : Fin 2) * 4096 + 1 * q.val = q.val; rw [e1]; omega
theorem blk_11 (c : Dev nD) (t : Fin cfg0.N) (a : Fin 1) (q : Fin 4096) :
    (iblk0 V c 11 t : Vec Ideal S1x4096 .f32) (ix2 a q) = aBT V c (ix2 a q) := by
  obtain ⟨e0, e1⟩ := idx_11 t
  unfold iblk0
  rw [View.read_apply]
  show V c main_v58 _ = V c main_v58 _
  refine congrArg (V c main_v58) ?_
  funext d
  apply Fin.ext
  match d with
  | ⟨0, _⟩ => show win0_11.index t (0 : Fin 2) * 1 + 1 * a.val = a.val; rw [e0]; omega
  | ⟨1, _⟩ => show win0_11.index t (1 : Fin 2) * 4096 + 1 * q.val = q.val; rw [e1]; omega
theorem blk_12 (c : Dev nD) (t : Fin cfg0.N) (a : Fin 1) (q : Fin 1) :
    (iblk0 V c 12 t : Vec Ideal S1x1 .f32) (ix2 a q) = aSF V c (ix2 a q) := by
  obtain ⟨e0, e1⟩ := idx_12 t
  unfold iblk0
  rw [View.read_apply]
  show V c main_v61 _ = V c main_v61 _
  refine congrArg (V c main_v61) ?_
  funext d
  apply Fin.ext
  match d with
  | ⟨0, _⟩ => show win0_12.index t (0 : Fin 2) * 1 + 1 * a.val = a.val; rw [e0]; omega
  | ⟨1, _⟩ => show win0_12.index t (1 : Fin 2) * 1 + 1 * q.val = q.val; rw [e1]; omega

/-! ## What a point computes, as rows of the arrays -/

/-- The hidden block of point t is rows 64t … 64t + 63 of the hidden array. -/
theorem hid_pt (c : Dev nD) (t : Fin cfg0.N) (a : Fin 64) (k : Fin 1024) :
    (k0_pay4 (F := Ideal) (iblk0 V c 0 t) (iblk0 V c 2 t) (iblk0 V c 3 t) (iblk0 V c 4 t) (iblk0 V c 5 t) (iblk0 V c 6 t) (iblk0 V c 7 t)) (ix2 a k) = aH V c (ix2 (rowAt t a) k) :=
  hidden_rows (iblk0 V c 0 t) (iblk0 V c 2 t) (iblk0 V c 3 t) (iblk0 V c 4 t) (iblk0 V c 5 t) (iblk0 V c 6 t) (iblk0 V c 7 t)
    (aXC V c) (aCND V c) (aW1A V c) (aW1B V c) (aB1 V c) (aW2 V c) (aB2 V c) (rowAt t)
    (blk_0 V c t) (blk_2 V c t) (blk_3 V c t) (blk_4 V c t) (fun k => blk_5 V c t 0 k) (blk_6 V c t) (fun k => blk_7 V c t 0 k) a k

/-- Row a, column q of point t's block of output 13 is row 64t + a, column q of its array. -/
theorem emb_13 (t : Fin cfg0.N) (a : Fin 64) (q : Fin 4096) :
    ((cfg0.win 13).blk t).view.emb (ix2 a q : S64x4096.Idx) = (ix2 (rowAt t a) q : S2048x4096.Idx) := by
  obtain ⟨e0, e1⟩ := idx_13 t
  funext d
  apply Fin.ext
  match d with
  | ⟨0, _⟩ => show win0_13.index t (0 : Fin 2) * 64 + 1 * a.val = t.val * 64 + a.val; rw [e0]; omega
  | ⟨1, _⟩ => show win0_13.index t (1 : Fin 2) * 4096 + 1 * q.val = q.val; rw [e1]; omega

/-- Row a, column q of point t's block of output 14 is row 64t + a, column q of its array. -/
theorem emb_14 (t : Fin cfg0.N) (a : Fin 64) (q : Fin 1) :
    ((cfg0.win 14).blk t).view.emb (ix2 a q : S64x1.Idx) = (ix2 (rowAt t a) q : S2048x1.Idx) := by
  obtain ⟨e0, e1⟩ := idx_14 t
  funext d
  apply Fin.ext
  match d with
  | ⟨0, _⟩ => show win0_14.index t (0 : Fin 2) * 64 + 1 * a.val = t.val * 64 + a.val; rw [e0]; omega
  | ⟨1, _⟩ => show win0_14.index t (1 : Fin 2) * 1 + 1 * q.val = q.val; rw [e1]; omega

/-! ## What a point writes back is its block of one whole-array function -/

theorem flushed_13 (c : Dev nD) (t : Fin cfg0.N) :
    (dat0 V c).flushed 13 t = ((cfg0.win 13).blk t).view.read (Elt Ideal) (GY V c) := by
  show (cfg0.win 13).cut (grid0.coords t) ((dat0 V c).after 13 t) = _
  rw [after0_13]
  unfold out0_13
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 4096) fun a q => ?_
  show k0_pay2 (F := Ideal) (k0_pay4 (F := Ideal) (iblk0 V c 0 t) (iblk0 V c 2 t) (iblk0 V c 3 t) (iblk0 V c 4 t) (iblk0 V c 5 t) (iblk0 V c 6 t) (iblk0 V c 7 t)) (iblk0 V c 12 t) (iblk0 V c 8 t) (iblk0 V c 9 t) (iblk0 V c 10 t) (iblk0 V c 11 t) (iblk0 V c 1 t) (ix2 a q)
    = GY V c (((cfg0.win 13).blk t).view.emb (ix2 a q : S64x4096.Idx))
  rw [emb_13]
  exact y_rows (k0_pay4 (F := Ideal) (iblk0 V c 0 t) (iblk0 V c 2 t) (iblk0 V c 3 t) (iblk0 V c 4 t) (iblk0 V c 5 t) (iblk0 V c 6 t) (iblk0 V c 7 t)) (iblk0 V c 12 t) (iblk0 V c 8 t) (iblk0 V c 9 t) (iblk0 V c 10 t) (iblk0 V c 11 t) (iblk0 V c 1 t)
    (aH V c) (aWS V c) (aBS V c) (aSF V c) (aWT V c) (aBT V c) (aXU V c) (rowAt t)
    (hid_pt V c t) (blk_8 V c t) (fun q => blk_9 V c t 0 q) (blk_12 V c t 0 0) (blk_10 V c t) (fun q => blk_11 V c t 0 q)
    (blk_1 V c t) a q

theorem flushed_14 (c : Dev nD) (t : Fin cfg0.N) :
    (dat0 V c).flushed 14 t = ((cfg0.win 14).blk t).view.read (Elt Ideal) (GS V c) := by
  show (cfg0.win 14).cut (grid0.coords t) ((dat0 V c).after 14 t) = _
  rw [after0_14]
  unfold out0_14
  rw [View.canon_unit_zero hz]
  simp only [View.ld_unit_zero (S := S64x4096) hz, View.ld_unit_zero (S := S64x1024) hz, View.ld_unit_zero (S := S4096x1024) hz, View.ld_unit_zero (S := S1024x1024) hz, View.ld_unit_zero (S := S1x1024) hz, View.ld_unit_zero (S := S1x1) hz, View.ld_unit_zero (S := S1024x4096) hz, View.ld_unit_zero (S := S1x4096) hz]
  refine ext2 (α := EReal) (n0 := 64) (n1 := 1) fun a q => ?_
  obtain rfl : q = 0 := Subsingleton.elim _ _
  show k0_pay3 (F := Ideal) (k0_pay4 (F := Ideal) (iblk0 V c 0 t) (iblk0 V c 2 t) (iblk0 V c 3 t) (iblk0 V c 4 t) (iblk0 V c 5 t) (iblk0 V c 6 t) (iblk0 V c 7 t)) (iblk0 V c 12 t) (iblk0 V c 8 t) (iblk0 V c 9 t) (ix2 a 0)
    = GS V c (((cfg0.win 14).blk t).view.emb (ix2 a 0 : S64x1.Idx))
  rw [emb_14]
  exact sum_rows (k0_pay4 (F := Ideal) (iblk0 V c 0 t) (iblk0 V c 2 t) (iblk0 V c 3 t) (iblk0 V c 4 t) (iblk0 V c 5 t) (iblk0 V c 6 t) (iblk0 V c 7 t)) (iblk0 V c 12 t) (iblk0 V c 8 t) (iblk0 V c 9 t)
    (aH V c) (aWS V c) (aBS V c) (aSF V c) (rowAt t)
    (hid_pt V c t) (blk_8 V c t) (fun q => blk_9 V c t 0 q) (blk_12 V c t 0 0) a

/-! ## The cover: row r is in point r / 64's block -/

theorem mem_blk_13 (t : Fin cfg0.N) (i : S2048x4096.Idx) :
    i ∈ ((cfg0.win 13).blk t).view.set ↔ ∀ a : Fin 2, win0_13.index t a * S64x4096.size a ≤ (i a).val
      ∧ (i a).val < win0_13.index t a * S64x4096.size a + S64x4096.size a := by
  show i ∈ ((View.whole main_v62_0).slice (win0_13.rect t)).set ↔ _
  rw [View.set_slice_whole, Rect.mem_set_unit]
  exact Iff.rfl

theorem cover_13 (i : S2048x4096.Idx) :
    ∃ t : Fin cfg0.N, (cfg0.win 13).flush t = true ∧ i ∈ ((cfg0.win 13).blk t).view.set := by
  have hi0 : (i 0).val < 2048 := (i 0).isLt
  have hi1 : (i 1).val < 4096 := (i 1).isLt
  obtain ⟨t, ht⟩ : ∃ t : Fin cfg0.N, t.val = (i 0).val / 64 :=
    ⟨⟨(i 0).val / 64, by show (i 0).val / 64 < 32; omega⟩, rfl⟩
  obtain ⟨e0, e1⟩ := idx_13 t
  refine ⟨t, flush0_13 t, ?_⟩
  rw [mem_blk_13]
  intro a
  match a with
  | ⟨0, _⟩ =>
    show win0_13.index t (0 : Fin 2) * 64 ≤ (i 0).val ∧ (i 0).val < win0_13.index t (0 : Fin 2) * 64 + 64
    rw [e0, ht]; omega
  | ⟨1, _⟩ =>
    show win0_13.index t (1 : Fin 2) * 4096 ≤ (i 1).val ∧ (i 1).val < win0_13.index t (1 : Fin 2) * 4096 + 4096
    rw [e1]; omega

theorem mem_blk_14 (t : Fin cfg0.N) (i : S2048x1.Idx) :
    i ∈ ((cfg0.win 14).blk t).view.set ↔ ∀ a : Fin 2, win0_14.index t a * S64x1.size a ≤ (i a).val
      ∧ (i a).val < win0_14.index t a * S64x1.size a + S64x1.size a := by
  show i ∈ ((View.whole main_v62_1).slice (win0_14.rect t)).set ↔ _
  rw [View.set_slice_whole, Rect.mem_set_unit]
  exact Iff.rfl

theorem cover_14 (i : S2048x1.Idx) :
    ∃ t : Fin cfg0.N, (cfg0.win 14).flush t = true ∧ i ∈ ((cfg0.win 14).blk t).view.set := by
  have hi0 : (i 0).val < 2048 := (i 0).isLt
  have hi1 : (i 1).val < 1 := (i 1).isLt
  obtain ⟨t, ht⟩ : ∃ t : Fin cfg0.N, t.val = (i 0).val / 64 :=
    ⟨⟨(i 0).val / 64, by show (i 0).val / 64 < 32; omega⟩, rfl⟩
  obtain ⟨e0, e1⟩ := idx_14 t
  refine ⟨t, flush0_14 t, ?_⟩
  rw [mem_blk_14]
  intro a
  match a with
  | ⟨0, _⟩ =>
    show win0_14.index t (0 : Fin 2) * 64 ≤ (i 0).val ∧ (i 0).val < win0_14.index t (0 : Fin 2) * 64 + 64
    rw [e0, ht]; omega
  | ⟨1, _⟩ =>
    show win0_14.index t (1 : Fin 2) * 1 ≤ (i 1).val ∧ (i 1).val < win0_14.index t (1 : Fin 2) * 1 + 1
    rw [e1]; omega

/-! ## The output arrays after the region -/

/-- The first output array ends holding the transformed half over the arrays the region read. -/
theorem final_13 (c : Dev nD) : (dat0 V c).arrAt 13 cfg0.N = GY V c :=
  (dat0 V c).arrAt_eq_of_cover 13 (GY V c) (fun t _ => flushed_13 V c t) cover_13

/-- The second output array ends holding the row sums of the scale. -/
theorem final_14 (c : Dev nD) : (dat0 V c).arrAt 14 cfg0.N = GS V c :=
  (dat0 V c).arrAt_eq_of_cover 14 (GS V c) (fun t _ => flushed_14 V c t) cover_14

/-! ## The two output arrays over the literal references of the region's windows -/

/-- The first output array after the region: the transformed half over the arrays the region read. -/
theorem arr13 (c : Dev nD) : ((dat0 V c).arrAt 13 cfg0.N : S2048x4096.Idx → EReal)
    = coupleY (V c main_v36) (coupleS (coupleH (V c main_v34) (V c main_v7) (V c main_v38) (V c main_v40) (V c main_v43) (V c main_v45) (V c main_v48)) (V c main_v50) (V c main_v53) (V c main_v61))
        (coupleT (coupleH (V c main_v34) (V c main_v7) (V c main_v38) (V c main_v40) (V c main_v43) (V c main_v45) (V c main_v48)) (V c main_v55) (V c main_v58)) :=
  final_13 V c

/-- The second output array after the region: the row sums of the scale. -/
theorem arr14 (c : Dev nD) : ((dat0 V c).arrAt 14 cfg0.N : S2048x1.Idx → EReal)
    = coupleSum (coupleS (coupleH (V c main_v34) (V c main_v7) (V c main_v38) (V c main_v40) (V c main_v43) (V c main_v45) (V c main_v48)) (V c main_v50) (V c main_v53) (V c main_v61)) :=
  final_14 V c

end Cert.KernelIdeal.KRegion0

end
-- ==== Proof.KStep1.lean ====
/- The idealized kernel program around its coupling call number 0 (counted from zero): what the call leaves, and what
  the operations after it hand to call 1.

  The call reads the conditioning columns, the other columns, the conditioning array and layer 0's parameters, and leaves
  the transformed columns and the row sums of the scale array. The operations after it add the row sums to the running
  vector and interleave the conditioning columns with the transformed ones, which is layer 0 of the specification on
  the array; then they rescale the columns for layer 1, split them by parity, cut layer 1's parameters out of the
  stacks, and add layer 1's sum of logarithmic scales to the vector.
-/
import proofs.«175835_j29978871726094_1_alg».proof.Proof.Gen.KernelIdeal.Frame
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowVector
import proofs.«175835_j29978871726094_1_alg».proof.Proof.KPre0
import proofs.«175835_j29978871726094_1_alg».proof.Proof.KKeep
import proofs.«175835_j29978871726094_1_alg».proof.Proof.KRegion0
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen Cert.Flow Cert.Flow.Terms Idealize.ShloMosaic.ValueIdx
open scoped BigOperators

variable (m : (ℓ : Loc nD τ sig) → Buf (Elt Ideal) ℓ) (ρ : Dev nD → PrngReg) (c : Dev nD)

set_option maxHeartbeats 1000000

/-! ## What call 0 leaves -/

theorem post0_yu : (W2 m ρ c (Proc.devRef .tc main_v62_0) : S2048x4096.Idx → EReal)
    = coupleY (cols (opp (par 0)) (actnorm 0 (Pm m c).ab (Pm m c).als (Zn m c 0))) (sOf (Pm m c) (cndm m c) 0 (Zn m c 0))
        (coupleT (hid (Pm m c) (cndm m c) 0 (Zn m c 0)) (band 0 (Pm m c).Wt 0 1024 (by decide)) (rowOf 0 (Pm m c).bt)) := by
  refine (W2_arr m ρ c 13).trans ?_
  refine (Cert.KernelIdeal.KRegion0.arr13 (V1 m ρ) c).trans ?_
  rw [pre0_xc m ρ c, pre0_xu m ρ c, pre0_cnd m ρ c, pre0_w1a m ρ c, pre0_w1b m ρ c, pre0_b1 m ρ c, pre0_w2 m ρ c, pre0_b2 m ρ c, pre0_ws m ρ c, pre0_bs m ρ c, pre0_wt m ρ c, pre0_bt m ρ c, pre0_sf m ρ c]
  rfl

theorem post0_ss : (W2 m ρ c (Proc.devRef .tc main_v62_1) : S2048x1.Idx → EReal)
    = coupleSum (sOf (Pm m c) (cndm m c) 0 (Zn m c 0)) := by
  refine (W2_arr m ρ c 14).trans ?_
  refine (Cert.KernelIdeal.KRegion0.arr14 (V1 m ρ) c).trans ?_
  rw [pre0_xc m ρ c, pre0_cnd m ρ c, pre0_w1a m ρ c, pre0_w1b m ρ c, pre0_b1 m ρ c, pre0_w2 m ρ c, pre0_b2 m ρ c, pre0_ws m ρ c, pre0_bs m ρ c, pre0_sf m ρ c]
  rfl

theorem keep0_xc : (W2 m ρ c (Proc.devRef .tc main_v34) : S2048x4096.Idx → EReal)
    = cols (par 0) (actnorm 0 (Pm m c).ab (Pm m c).als (Zn m c 0)) :=
  (W2_arr m ρ c 0).trans (((dat0 (V1 m ρ) c).arrAt_in 0 rfl _).trans ((A_eq0 (V1 m ρ) c 0).trans (pre0_xc m ρ c)))

theorem keep0_ld : (W2 m ρ c (Proc.devRef .tc main_v31) : S2048.Idx → EReal)
    = ofFn1 fun t => Ln m c 0 (ix1 t) + ∑ d : Fin 8192, (Pm m c).als (ix2 0 d) :=
  (W2_of_ne m ρ c main_v31 (by decide)).trans (pre0_ld m ρ c)

/-! ## The array after layer 0, and what call 1 reads -/

theorem zterm1 : (shapeCast S2048x8192 (concatenate S2048x4096x2 2
      [⟨S2048x4096x1, broadcastInDim S2048x4096x1 ![0, 1] bcast_S2048x4096_S2048x4096x1_0_1 (W2 m ρ c (Proc.devRef .tc main_v34))⟩,
       ⟨S2048x4096x1, broadcastInDim S2048x4096x1 ![0, 1] bcast_S2048x4096_S2048x4096x1_0_1 (W2 m ρ c (Proc.devRef .tc main_v62_0))⟩]
      concatenates_S2048x4096x1_S2048x4096x1_S2048x4096x2_d2) shapeCasts_S2048x4096x2_S2048x8192 : S2048x8192.Idx → EReal)
    = Zn m c 1 := by
  rw [keep0_xc m ρ c, post0_yu m ρ c]
  exact (merge_term _ _ _ _ _).trans rfl

theorem act1 (zt : S2048x8192.Idx → EReal) (hz : zt = Zn m c 1) :
    actnorm 1 (W2 m ρ c (Proc.devRef .tc main_arg4)) (W2 m ρ c (Proc.devRef .tc main_arg3)) zt
      = actnorm 1 (Pm m c).ab (Pm m c).als (Zn m c 1) := by
  rw [hz, carry2_main_arg4 m ρ c, pre0_arg4 m ρ c, carry2_main_arg3 m ρ c, pre0_arg3 m ρ c]

theorem pre1_xc : (V3 m ρ c main_v86 : S2048x4096.Idx → EReal) = cols (par 1) (actnorm 1 (Pm m c).ab (Pm m c).als (Zn m c 1)) := by
  show StableHlo.after hostOps1 (W2 m ρ c) (Proc.devRef .tc main_v86) = _
  after_results_simp
  exact (split_term (par 1) 1 rfl _ _ _ _).trans (congrArg (cols (par 1))
    ((actnorm_term 1 1 rfl _ _ _ _ _ _ _).trans (act1 m ρ c _ (zterm1 m ρ c))))

theorem pre1_xu : (V3 m ρ c main_v88 : S2048x4096.Idx → EReal) = cols (opp (par 1)) (actnorm 1 (Pm m c).ab (Pm m c).als (Zn m c 1)) := by
  show StableHlo.after hostOps1 (W2 m ρ c) (Proc.devRef .tc main_v88) = _
  after_results_simp
  exact (split_term (opp (par 1)) 0 rfl _ _ _ _).trans (congrArg (cols (opp (par 1)))
    ((actnorm_term 1 1 rfl _ _ _ _ _ _ _).trans (act1 m ρ c _ (zterm1 m ρ c))))

theorem pre1_cnd : (V3 m ρ c main_v7 : S2048x1024.Idx → EReal) = cndm m c :=
  (carry3_main_v7 m ρ c).trans (pre0_cnd m ρ c)

theorem pre1_w1a : (V3 m ρ c main_v90 : S4096x1024.Idx → EReal) = band 1 (Pm m c).W1 0 4096 (by decide) := by
  show StableHlo.after hostOps1 (W2 m ρ c) (Proc.devRef .tc main_v90) = _
  after_results_simp
  rw [carry2_main_v11 m ρ c, pre0_v11 m ρ c]
  exact band_slice_narrow 1 1 rfl 0 _ _ _ _ _ _

theorem pre1_w1b : (V3 m ρ c main_v92 : S1024x1024.Idx → EReal) = band 1 (Pm m c).W1 4096 1024 (by decide) := by
  show StableHlo.after hostOps1 (W2 m ρ c) (Proc.devRef .tc main_v92) = _
  after_results_simp
  rw [carry2_main_v13 m ρ c, pre0_v13 m ρ c]
  exact band_slice_narrow 1 1 rfl 4096 _ _ _ _ _ _

theorem pre1_b1 : (V3 m ρ c main_v95 : S1x1024.Idx → EReal) = rowOf 1 (Pm m c).b1 := by
  show StableHlo.after hostOps1 (W2 m ρ c) (Proc.devRef .tc main_v95) = _
  after_results_simp
  rw [carry2_main_arg6 m ρ c, pre0_arg6 m ρ c]
  exact row_slice 1 1 rfl _ _ _ _

theorem pre1_w2 : (V3 m ρ c main_v97 : S1024x1024.Idx → EReal) = band 1 (Pm m c).W2 0 1024 (by decide) := by
  show StableHlo.after hostOps1 (W2 m ρ c) (Proc.devRef .tc main_v97) = _
  after_results_simp
  rw [carry2_main_v14 m ρ c, pre0_v14 m ρ c]
  exact stack_slice_narrow 1 1 rfl _ _ _ _ _

theorem pre1_b2 : (V3 m ρ c main_v100 : S1x1024.Idx → EReal) = rowOf 1 (Pm m c).b2 := by
  show StableHlo.after hostOps1 (W2 m ρ c) (Proc.devRef .tc main_v100) = _
  after_results_simp
  rw [carry2_main_arg8 m ρ c, pre0_arg8 m ρ c]
  exact row_slice 1 1 rfl _ _ _ _

theorem pre1_ws : (V3 m ρ c main_v102 : S1024x4096.Idx → EReal) = band 1 (Pm m c).Ws 0 1024 (by decide) := by
  show StableHlo.after hostOps1 (W2 m ρ c) (Proc.devRef .tc main_v102) = _
  after_results_simp
  rw [carry2_main_v15 m ρ c, pre0_v15 m ρ c]
  exact stack_slice_narrow 1 1 rfl _ _ _ _ _

theorem pre1_bs : (V3 m ρ c main_v105 : S1x4096.Idx → EReal) = rowOf 1 (Pm m c).bs := by
  show StableHlo.after hostOps1 (W2 m ρ c) (Proc.devRef .tc main_v105) = _
  after_results_simp
  rw [carry2_main_arg10 m ρ c, pre0_arg10 m ρ c]
  exact row_slice 1 1 rfl _ _ _ _

theorem pre1_wt : (V3 m ρ c main_v107 : S1024x4096.Idx → EReal) = band 1 (Pm m c).Wt 0 1024 (by decide) := by
  show StableHlo.after hostOps1 (W2 m ρ c) (Proc.devRef .tc main_v107) = _
  after_results_simp
  rw [carry2_main_v16 m ρ c, pre0_v16 m ρ c]
  exact stack_slice_narrow 1 1 rfl _ _ _ _ _

theorem pre1_bt : (V3 m ρ c main_v110 : S1x4096.Idx → EReal) = rowOf 1 (Pm m c).bt := by
  show StableHlo.after hostOps1 (W2 m ρ c) (Proc.devRef .tc main_v110) = _
  after_results_simp
  rw [carry2_main_arg12 m ρ c, pre0_arg12 m ρ c]
  exact row_slice 1 1 rfl _ _ _ _

theorem pre1_sf : (V3 m ρ c main_v113 : S1x1.Idx → EReal) = scalarOf 1 (Pm m c).sf := by
  show StableHlo.after hostOps1 (W2 m ρ c) (Proc.devRef .tc main_v113) = _
  after_results_simp
  rw [carry2_main_arg13 m ρ c, pre0_arg13 m ρ c]
  exact scalar_slice 1 1 rfl _ _ _ _

theorem pre1_ld : (V3 m ρ c main_v83 : S2048.Idx → EReal)
    = ofFn1 fun t => Ln m c 1 (ix1 t) + ∑ d : Fin 8192, (Pm m c).als (ix2 1 d) := by
  show StableHlo.after hostOps1 (W2 m ρ c) (Proc.devRef .tc main_v83) = _
  after_results_simp
  rw [keep0_ld m ρ c, post0_ss m ρ c, carry2_main_v9 m ρ c, pre0_v9 m ρ c]
  refine (add_scale_sum 1 1 rfl _ _ _ _ _ _ _).trans ?_
  refine congrArg ofFn1 (funext fun t => congrArg (· + _) ?_)
  exact congrFun ((add_column _ _ _).trans rfl) _

end Cert.KernelIdeal.KSide

end
-- ==== Proof.KStep2.lean ====
/- The idealized kernel program around its coupling call number 1 (counted from zero): what the call leaves, and what
  the operations after it hand to call 2.

  The call reads the conditioning columns, the other columns, the conditioning array and layer 1's parameters, and leaves
  the transformed columns and the row sums of the scale array. The operations after it add the row sums to the running
  vector and interleave the conditioning columns with the transformed ones, which is layer 1 of the specification on
  the array; then they rescale the columns for layer 2, split them by parity, cut layer 2's parameters out of the
  stacks, and add layer 2's sum of logarithmic scales to the vector.
-/
import proofs.«175835_j29978871726094_1_alg».proof.Proof.Gen.KernelIdeal.Frame
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowVector
import proofs.«175835_j29978871726094_1_alg».proof.Proof.KPre0
import proofs.«175835_j29978871726094_1_alg».proof.Proof.KKeep
import proofs.«175835_j29978871726094_1_alg».proof.Proof.KRegion1
import proofs.«175835_j29978871726094_1_alg».proof.Proof.KStep1
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen Cert.Flow Cert.Flow.Terms Idealize.ShloMosaic.ValueIdx
open scoped BigOperators

variable (m : (ℓ : Loc nD τ sig) → Buf (Elt Ideal) ℓ) (ρ : Dev nD → PrngReg) (c : Dev nD)

set_option maxHeartbeats 1000000

/-! ## What call 1 leaves -/

theorem post1_yu : (W4 m ρ c (Proc.devRef .tc main_v114_0) : S2048x4096.Idx → EReal)
    = coupleY (cols (opp (par 1)) (actnorm 1 (Pm m c).ab (Pm m c).als (Zn m c 1))) (sOf (Pm m c) (cndm m c) 1 (Zn m c 1))
        (coupleT (hid (Pm m c) (cndm m c) 1 (Zn m c 1)) (band 1 (Pm m c).Wt 0 1024 (by decide)) (rowOf 1 (Pm m c).bt)) := by
  refine (W4_arr m ρ c 13).trans ?_
  refine (Cert.KernelIdeal.KRegion1.arr13 (V3 m ρ) c).trans ?_
  rw [pre1_xc m ρ c, pre1_xu m ρ c, pre1_cnd m ρ c, pre1_w1a m ρ c, pre1_w1b m ρ c, pre1_b1 m ρ c, pre1_w2 m ρ c, pre1_b2 m ρ c, pre1_ws m ρ c, pre1_bs m ρ c, pre1_wt m ρ c, pre1_bt m ρ c, pre1_sf m ρ c]
  rfl

theorem post1_ss : (W4 m ρ c (Proc.devRef .tc main_v114_1) : S2048x1.Idx → EReal)
    = coupleSum (sOf (Pm m c) (cndm m c) 1 (Zn m c 1)) := by
  refine (W4_arr m ρ c 14).trans ?_
  refine (Cert.KernelIdeal.KRegion1.arr14 (V3 m ρ) c).trans ?_
  rw [pre1_xc m ρ c, pre1_cnd m ρ c, pre1_w1a m ρ c, pre1_w1b m ρ c, pre1_b1 m ρ c, pre1_w2 m ρ c, pre1_b2 m ρ c, pre1_ws m ρ c, pre1_bs m ρ c, pre1_sf m ρ c]
  rfl

theorem keep1_xc : (W4 m ρ c (Proc.devRef .tc main_v86) : S2048x4096.Idx → EReal)
    = cols (par 1) (actnorm 1 (Pm m c).ab (Pm m c).als (Zn m c 1)) :=
  (W4_arr m ρ c 0).trans (((dat1 (V3 m ρ) c).arrAt_in 0 rfl _).trans ((A_eq1 (V3 m ρ) c 0).trans (pre1_xc m ρ c)))

theorem keep1_ld : (W4 m ρ c (Proc.devRef .tc main_v83) : S2048.Idx → EReal)
    = ofFn1 fun t => Ln m c 1 (ix1 t) + ∑ d : Fin 8192, (Pm m c).als (ix2 1 d) :=
  (W4_of_ne m ρ c main_v83 (by decide)).trans (pre1_ld m ρ c)

/-! ## The array after layer 1, and what call 2 reads -/

theorem zterm2 : (shapeCast S2048x8192 (concatenate S2048x4096x2 2
      [⟨S2048x4096x1, broadcastInDim S2048x4096x1 ![0, 1] bcast_S2048x4096_S2048x4096x1_0_1 (W4 m ρ c (Proc.devRef .tc main_v114_0))⟩,
       ⟨S2048x4096x1, broadcastInDim S2048x4096x1 ![0, 1] bcast_S2048x4096_S2048x4096x1_0_1 (W4 m ρ c (Proc.devRef .tc main_v86))⟩]
      concatenates_S2048x4096x1_S2048x4096x1_S2048x4096x2_d2) shapeCasts_S2048x4096x2_S2048x8192 : S2048x8192.Idx → EReal)
    = Zn m c 2 := by
  rw [keep1_xc m ρ c, post1_yu m ρ c]
  exact (merge_term _ _ _ _ _).trans ((merge_swap _ _).symm.trans rfl)

theorem act2 (zt : S2048x8192.Idx → EReal) (hz : zt = Zn m c 2) :
    actnorm 2 (W4 m ρ c (Proc.devRef .tc main_arg4)) (W4 m ρ c (Proc.devRef .tc main_arg3)) zt
      = actnorm 2 (Pm m c).ab (Pm m c).als (Zn m c 2) := by
  rw [hz, carry4_main_arg4 m ρ c, pre0_arg4 m ρ c, carry4_main_arg3 m ρ c, pre0_arg3 m ρ c]

theorem pre2_xc : (V5 m ρ c main_v138 : S2048x4096.Idx → EReal) = cols (par 2) (actnorm 2 (Pm m c).ab (Pm m c).als (Zn m c 2)) := by
  show StableHlo.after hostOps2 (W4 m ρ c) (Proc.devRef .tc main_v138) = _
  after_results_simp
  exact (split_term (par 2) 0 rfl _ _ _ _).trans (congrArg (cols (par 2))
    ((actnorm_term 2 2 rfl _ _ _ _ _ _ _).trans (act2 m ρ c _ (zterm2 m ρ c))))

theorem pre2_xu : (V5 m ρ c main_v140 : S2048x4096.Idx → EReal) = cols (opp (par 2)) (actnorm 2 (Pm m c).ab (Pm m c).als (Zn m c 2)) := by
  show StableHlo.after hostOps2 (W4 m ρ c) (Proc.devRef .tc main_v140) = _
  after_results_simp
  exact (split_term (opp (par 2)) 1 rfl _ _ _ _).trans (congrArg (cols (opp (par 2)))
    ((actnorm_term 2 2 rfl _ _ _ _ _ _ _).trans (act2 m ρ c _ (zterm2 m ρ c))))

theorem pre2_cnd : (V5 m ρ c main_v7 : S2048x1024.Idx → EReal) = cndm m c :=
  (carry5_main_v7 m ρ c).trans (pre0_cnd m ρ c)

theorem pre2_w1a : (V5 m ρ c main_v142 : S4096x1024.Idx → EReal) = band 2 (Pm m c).W1 0 4096 (by decide) := by
  show StableHlo.after hostOps2 (W4 m ρ c) (Proc.devRef .tc main_v142) = _
  after_results_simp
  rw [carry4_main_v11 m ρ c, pre0_v11 m ρ c]
  exact band_slice_narrow 2 2 rfl 0 _ _ _ _ _ _

theorem pre2_w1b : (V5 m ρ c main_v144 : S1024x1024.Idx → EReal) = band 2 (Pm m c).W1 4096 1024 (by decide) := by
  show StableHlo.after hostOps2 (W4 m ρ c) (Proc.devRef .tc main_v144) = _
  after_results_simp
  rw [carry4_main_v13 m ρ c, pre0_v13 m ρ c]
  exact band_slice_narrow 2 2 rfl 4096 _ _ _ _ _ _

theorem pre2_b1 : (V5 m ρ c main_v147 : S1x1024.Idx → EReal) = rowOf 2 (Pm m c).b1 := by
  show StableHlo.after hostOps2 (W4 m ρ c) (Proc.devRef .tc main_v147) = _
  after_results_simp
  rw [carry4_main_arg6 m ρ c, pre0_arg6 m ρ c]
  exact row_slice 2 2 rfl _ _ _ _

theorem pre2_w2 : (V5 m ρ c main_v149 : S1024x1024.Idx → EReal) = band 2 (Pm m c).W2 0 1024 (by decide) := by
  show StableHlo.after hostOps2 (W4 m ρ c) (Proc.devRef .tc main_v149) = _
  after_results_simp
  rw [carry4_main_v14 m ρ c, pre0_v14 m ρ c]
  exact stack_slice_narrow 2 2 rfl _ _ _ _ _

theorem pre2_b2 : (V5 m ρ c main_v152 : S1x1024.Idx → EReal) = rowOf 2 (Pm m c).b2 := by
  show StableHlo.after hostOps2 (W4 m ρ c) (Proc.devRef .tc main_v152) = _
  after_results_simp
  rw [carry4_main_arg8 m ρ c, pre0_arg8 m ρ c]
  exact row_slice 2 2 rfl _ _ _ _

theorem pre2_ws : (V5 m ρ c main_v154 : S1024x4096.Idx → EReal) = band 2 (Pm m c).Ws 0 1024 (by decide) := by
  show StableHlo.after hostOps2 (W4 m ρ c) (Proc.devRef .tc main_v154) = _
  after_results_simp
  rw [carry4_main_v15 m ρ c, pre0_v15 m ρ c]
  exact stack_slice_narrow 2 2 rfl _ _ _ _ _

theorem pre2_bs : (V5 m ρ c main_v157 : S1x4096.Idx → EReal) = rowOf 2 (Pm m c).bs := by
  show StableHlo.after hostOps2 (W4 m ρ c) (Proc.devRef .tc main_v157) = _
  after_results_simp
  rw [carry4_main_arg10 m ρ c, pre0_arg10 m ρ c]
  exact row_slice 2 2 rfl _ _ _ _

theorem pre2_wt : (V5 m ρ c main_v159 : S1024x4096.Idx → EReal) = band 2 (Pm m c).Wt 0 1024 (by decide) := by
  show StableHlo.after hostOps2 (W4 m ρ c) (Proc.devRef .tc main_v159) = _
  after_results_simp
  rw [carry4_main_v16 m ρ c, pre0_v16 m ρ c]
  exact stack_slice_narrow 2 2 rfl _ _ _ _ _

theorem pre2_bt : (V5 m ρ c main_v162 : S1x4096.Idx → EReal) = rowOf 2 (Pm m c).bt := by
  show StableHlo.after hostOps2 (W4 m ρ c) (Proc.devRef .tc main_v162) = _
  after_results_simp
  rw [carry4_main_arg12 m ρ c, pre0_arg12 m ρ c]
  exact row_slice 2 2 rfl _ _ _ _

theorem pre2_sf : (V5 m ρ c main_v165 : S1x1.Idx → EReal) = scalarOf 2 (Pm m c).sf := by
  show StableHlo.after hostOps2 (W4 m ρ c) (Proc.devRef .tc main_v165) = _
  after_results_simp
  rw [carry4_main_arg13 m ρ c, pre0_arg13 m ρ c]
  exact scalar_slice 2 2 rfl _ _ _ _

theorem pre2_ld : (V5 m ρ c main_v135 : S2048.Idx → EReal)
    = ofFn1 fun t => Ln m c 2 (ix1 t) + ∑ d : Fin 8192, (Pm m c).als (ix2 2 d) := by
  show StableHlo.after hostOps2 (W4 m ρ c) (Proc.devRef .tc main_v135) = _
  after_results_simp
  rw [keep1_ld m ρ c, post1_ss m ρ c, carry4_main_v9 m ρ c, pre0_v9 m ρ c]
  refine (add_scale_sum 2 2 rfl _ _ _ _ _ _ _).trans ?_
  refine congrArg ofFn1 (funext fun t => congrArg (· + _) ?_)
  exact congrFun ((add_column _ _ _).trans rfl) _

end Cert.KernelIdeal.KSide

end
-- ==== Proof.KStep3.lean ====
/- The idealized kernel program around its coupling call number 2 (counted from zero): what the call leaves, and what
  the operations after it hand to call 3.

  The call reads the conditioning columns, the other columns, the conditioning array and layer 2's parameters, and leaves
  the transformed columns and the row sums of the scale array. The operations after it add the row sums to the running
  vector and interleave the conditioning columns with the transformed ones, which is layer 2 of the specification on
  the array; then they rescale the columns for layer 3, split them by parity, cut layer 3's parameters out of the
  stacks, and add layer 3's sum of logarithmic scales to the vector.
-/
import proofs.«175835_j29978871726094_1_alg».proof.Proof.Gen.KernelIdeal.Frame
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowVector
import proofs.«175835_j29978871726094_1_alg».proof.Proof.KPre0
import proofs.«175835_j29978871726094_1_alg».proof.Proof.KKeep
import proofs.«175835_j29978871726094_1_alg».proof.Proof.KRegion2
import proofs.«175835_j29978871726094_1_alg».proof.Proof.KStep2
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen Cert.Flow Cert.Flow.Terms Idealize.ShloMosaic.ValueIdx
open scoped BigOperators

variable (m : (ℓ : Loc nD τ sig) → Buf (Elt Ideal) ℓ) (ρ : Dev nD → PrngReg) (c : Dev nD)

set_option maxHeartbeats 1000000

/-! ## What call 2 leaves -/

theorem post2_yu : (W6 m ρ c (Proc.devRef .tc main_v166_0) : S2048x4096.Idx → EReal)
    = coupleY (cols (opp (par 2)) (actnorm 2 (Pm m c).ab (Pm m c).als (Zn m c 2))) (sOf (Pm m c) (cndm m c) 2 (Zn m c 2))
        (coupleT (hid (Pm m c) (cndm m c) 2 (Zn m c 2)) (band 2 (Pm m c).Wt 0 1024 (by decide)) (rowOf 2 (Pm m c).bt)) := by
  refine (W6_arr m ρ c 13).trans ?_
  refine (Cert.KernelIdeal.KRegion2.arr13 (V5 m ρ) c).trans ?_
  rw [pre2_xc m ρ c, pre2_xu m ρ c, pre2_cnd m ρ c, pre2_w1a m ρ c, pre2_w1b m ρ c, pre2_b1 m ρ c, pre2_w2 m ρ c, pre2_b2 m ρ c, pre2_ws m ρ c, pre2_bs m ρ c, pre2_wt m ρ c, pre2_bt m ρ c, pre2_sf m ρ c]
  rfl

theorem post2_ss : (W6 m ρ c (Proc.devRef .tc main_v166_1) : S2048x1.Idx → EReal)
    = coupleSum (sOf (Pm m c) (cndm m c) 2 (Zn m c 2)) := by
  refine (W6_arr m ρ c 14).trans ?_
  refine (Cert.KernelIdeal.KRegion2.arr14 (V5 m ρ) c).trans ?_
  rw [pre2_xc m ρ c, pre2_cnd m ρ c, pre2_w1a m ρ c, pre2_w1b m ρ c, pre2_b1 m ρ c, pre2_w2 m ρ c, pre2_b2 m ρ c, pre2_ws m ρ c, pre2_bs m ρ c, pre2_sf m ρ c]
  rfl

theorem keep2_xc : (W6 m ρ c (Proc.devRef .tc main_v138) : S2048x4096.Idx → EReal)
    = cols (par 2) (actnorm 2 (Pm m c).ab (Pm m c).als (Zn m c 2)) :=
  (W6_arr m ρ c 0).trans (((dat2 (V5 m ρ) c).arrAt_in 0 rfl _).trans ((A_eq2 (V5 m ρ) c 0).trans (pre2_xc m ρ c)))

theorem keep2_ld : (W6 m ρ c (Proc.devRef .tc main_v135) : S2048.Idx → EReal)
    = ofFn1 fun t => Ln m c 2 (ix1 t) + ∑ d : Fin 8192, (Pm m c).als (ix2 2 d) :=
  (W6_of_ne m ρ c main_v135 (by decide)).trans (pre2_ld m ρ c)

/-! ## The array after layer 2, and what call 3 reads -/

theorem zterm3 : (shapeCast S2048x8192 (concatenate S2048x4096x2 2
      [⟨S2048x4096x1, broadcastInDim S2048x4096x1 ![0, 1] bcast_S2048x4096_S2048x4096x1_0_1 (W6 m ρ c (Proc.devRef .tc main_v138))⟩,
       ⟨S2048x4096x1, broadcastInDim S2048x4096x1 ![0, 1] bcast_S2048x4096_S2048x4096x1_0_1 (W6 m ρ c (Proc.devRef .tc main_v166_0))⟩]
      concatenates_S2048x4096x1_S2048x4096x1_S2048x4096x2_d2) shapeCasts_S2048x4096x2_S2048x8192 : S2048x8192.Idx → EReal)
    = Zn m c 3 := by
  rw [keep2_xc m ρ c, post2_yu m ρ c]
  exact (merge_term _ _ _ _ _).trans rfl

theorem act3 (zt : S2048x8192.Idx → EReal) (hz : zt = Zn m c 3) :
    actnorm 3 (W6 m ρ c (Proc.devRef .tc main_arg4)) (W6 m ρ c (Proc.devRef .tc main_arg3)) zt
      = actnorm 3 (Pm m c).ab (Pm m c).als (Zn m c 3) := by
  rw [hz, carry6_main_arg4 m ρ c, pre0_arg4 m ρ c, carry6_main_arg3 m ρ c, pre0_arg3 m ρ c]

theorem pre3_xc : (V7 m ρ c main_v190 : S2048x4096.Idx → EReal) = cols (par 3) (actnorm 3 (Pm m c).ab (Pm m c).als (Zn m c 3)) := by
  show StableHlo.after hostOps3 (W6 m ρ c) (Proc.devRef .tc main_v190) = _
  after_results_simp
  exact (split_term (par 3) 1 rfl _ _ _ _).trans (congrArg (cols (par 3))
    ((actnorm_term 3 3 rfl _ _ _ _ _ _ _).trans (act3 m ρ c _ (zterm3 m ρ c))))

theorem pre3_xu : (V7 m ρ c main_v192 : S2048x4096.Idx → EReal) = cols (opp (par 3)) (actnorm 3 (Pm m c).ab (Pm m c).als (Zn m c 3)) := by
  show StableHlo.after hostOps3 (W6 m ρ c) (Proc.devRef .tc main_v192) = _
  after_results_simp
  exact (split_term (opp (par 3)) 0 rfl _ _ _ _).trans (congrArg (cols (opp (par 3)))
    ((actnorm_term 3 3 rfl _ _ _ _ _ _ _).trans (act3 m ρ c _ (zterm3 m ρ c))))

theorem pre3_cnd : (V7 m ρ c main_v7 : S2048x1024.Idx → EReal) = cndm m c :=
  (carry7_main_v7 m ρ c).trans (pre0_cnd m ρ c)

theorem pre3_w1a : (V7 m ρ c main_v194 : S4096x1024.Idx → EReal) = band 3 (Pm m c).W1 0 4096 (by decide) := by
  show StableHlo.after hostOps3 (W6 m ρ c) (Proc.devRef .tc main_v194) = _
  after_results_simp
  rw [carry6_main_v11 m ρ c, pre0_v11 m ρ c]
  exact band_slice_narrow 3 3 rfl 0 _ _ _ _ _ _

theorem pre3_w1b : (V7 m ρ c main_v196 : S1024x1024.Idx → EReal) = band 3 (Pm m c).W1 4096 1024 (by decide) := by
  show StableHlo.after hostOps3 (W6 m ρ c) (Proc.devRef .tc main_v196) = _
  after_results_simp
  rw [carry6_main_v13 m ρ c, pre0_v13 m ρ c]
  exact band_slice_narrow 3 3 rfl 4096 _ _ _ _ _ _

theorem pre3_b1 : (V7 m ρ c main_v199 : S1x1024.Idx → EReal) = rowOf 3 (Pm m c).b1 := by
  show StableHlo.after hostOps3 (W6 m ρ c) (Proc.devRef .tc main_v199) = _
  after_results_simp
  rw [carry6_main_arg6 m ρ c, pre0_arg6 m ρ c]
  exact row_slice 3 3 rfl _ _ _ _

theorem pre3_w2 : (V7 m ρ c main_v201 : S1024x1024.Idx → EReal) = band 3 (Pm m c).W2 0 1024 (by decide) := by
  show StableHlo.after hostOps3 (W6 m ρ c) (Proc.devRef .tc main_v201) = _
  after_results_simp
  rw [carry6_main_v14 m ρ c, pre0_v14 m ρ c]
  exact stack_slice_narrow 3 3 rfl _ _ _ _ _

theorem pre3_b2 : (V7 m ρ c main_v204 : S1x1024.Idx → EReal) = rowOf 3 (Pm m c).b2 := by
  show StableHlo.after hostOps3 (W6 m ρ c) (Proc.devRef .tc main_v204) = _
  after_results_simp
  rw [carry6_main_arg8 m ρ c, pre0_arg8 m ρ c]
  exact row_slice 3 3 rfl _ _ _ _

theorem pre3_ws : (V7 m ρ c main_v206 : S1024x4096.Idx → EReal) = band 3 (Pm m c).Ws 0 1024 (by decide) := by
  show StableHlo.after hostOps3 (W6 m ρ c) (Proc.devRef .tc main_v206) = _
  after_results_simp
  rw [carry6_main_v15 m ρ c, pre0_v15 m ρ c]
  exact stack_slice_narrow 3 3 rfl _ _ _ _ _

theorem pre3_bs : (V7 m ρ c main_v209 : S1x4096.Idx → EReal) = rowOf 3 (Pm m c).bs := by
  show StableHlo.after hostOps3 (W6 m ρ c) (Proc.devRef .tc main_v209) = _
  after_results_simp
  rw [carry6_main_arg10 m ρ c, pre0_arg10 m ρ c]
  exact row_slice 3 3 rfl _ _ _ _

theorem pre3_wt : (V7 m ρ c main_v211 : S1024x4096.Idx → EReal) = band 3 (Pm m c).Wt 0 1024 (by decide) := by
  show StableHlo.after hostOps3 (W6 m ρ c) (Proc.devRef .tc main_v211) = _
  after_results_simp
  rw [carry6_main_v16 m ρ c, pre0_v16 m ρ c]
  exact stack_slice_narrow 3 3 rfl _ _ _ _ _

theorem pre3_bt : (V7 m ρ c main_v214 : S1x4096.Idx → EReal) = rowOf 3 (Pm m c).bt := by
  show StableHlo.after hostOps3 (W6 m ρ c) (Proc.devRef .tc main_v214) = _
  after_results_simp
  rw [carry6_main_arg12 m ρ c, pre0_arg12 m ρ c]
  exact row_slice 3 3 rfl _ _ _ _

theorem pre3_sf : (V7 m ρ c main_v217 : S1x1.Idx → EReal) = scalarOf 3 (Pm m c).sf := by
  show StableHlo.after hostOps3 (W6 m ρ c) (Proc.devRef .tc main_v217) = _
  after_results_simp
  rw [carry6_main_arg13 m ρ c, pre0_arg13 m ρ c]
  exact scalar_slice 3 3 rfl _ _ _ _

theorem pre3_ld : (V7 m ρ c main_v187 : S2048.Idx → EReal)
    = ofFn1 fun t => Ln m c 3 (ix1 t) + ∑ d : Fin 8192, (Pm m c).als (ix2 3 d) := by
  show StableHlo.after hostOps3 (W6 m ρ c) (Proc.devRef .tc main_v187) = _
  after_results_simp
  rw [keep2_ld m ρ c, post2_ss m ρ c, carry6_main_v9 m ρ c, pre0_v9 m ρ c]
  refine (add_scale_sum 3 3 rfl _ _ _ _ _ _ _).trans ?_
  refine congrArg ofFn1 (funext fun t => congrArg (· + _) ?_)
  exact congrFun ((add_column _ _ _).trans rfl) _

end Cert.KernelIdeal.KSide

end
-- ==== Proof.KStep4.lean ====
/- The idealized kernel program around its coupling call number 3 (counted from zero): what the call leaves, and what
  the operations after it hand to call 4.

  The call reads the conditioning columns, the other columns, the conditioning array and layer 3's parameters, and leaves
  the transformed columns and the row sums of the scale array. The operations after it add the row sums to the running
  vector and interleave the conditioning columns with the transformed ones, which is layer 3 of the specification on
  the array; then they rescale the columns for layer 4, split them by parity, cut layer 4's parameters out of the
  stacks, and add layer 4's sum of logarithmic scales to the vector.
-/
import proofs.«175835_j29978871726094_1_alg».proof.Proof.Gen.KernelIdeal.Frame
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowVector
import proofs.«175835_j29978871726094_1_alg».proof.Proof.KPre0
import proofs.«175835_j29978871726094_1_alg».proof.Proof.KKeep
import proofs.«175835_j29978871726094_1_alg».proof.Proof.KRegion3
import proofs.«175835_j29978871726094_1_alg».proof.Proof.KStep3
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen Cert.Flow Cert.Flow.Terms Idealize.ShloMosaic.ValueIdx
open scoped BigOperators

variable (m : (ℓ : Loc nD τ sig) → Buf (Elt Ideal) ℓ) (ρ : Dev nD → PrngReg) (c : Dev nD)

set_option maxHeartbeats 1000000

/-! ## What call 3 leaves -/

theorem post3_yu : (W8 m ρ c (Proc.devRef .tc main_v218_0) : S2048x4096.Idx → EReal)
    = coupleY (cols (opp (par 3)) (actnorm 3 (Pm m c).ab (Pm m c).als (Zn m c 3))) (sOf (Pm m c) (cndm m c) 3 (Zn m c 3))
        (coupleT (hid (Pm m c) (cndm m c) 3 (Zn m c 3)) (band 3 (Pm m c).Wt 0 1024 (by decide)) (rowOf 3 (Pm m c).bt)) := by
  refine (W8_arr m ρ c 13).trans ?_
  refine (Cert.KernelIdeal.KRegion3.arr13 (V7 m ρ) c).trans ?_
  rw [pre3_xc m ρ c, pre3_xu m ρ c, pre3_cnd m ρ c, pre3_w1a m ρ c, pre3_w1b m ρ c, pre3_b1 m ρ c, pre3_w2 m ρ c, pre3_b2 m ρ c, pre3_ws m ρ c, pre3_bs m ρ c, pre3_wt m ρ c, pre3_bt m ρ c, pre3_sf m ρ c]
  rfl

theorem post3_ss : (W8 m ρ c (Proc.devRef .tc main_v218_1) : S2048x1.Idx → EReal)
    = coupleSum (sOf (Pm m c) (cndm m c) 3 (Zn m c 3)) := by
  refine (W8_arr m ρ c 14).trans ?_
  refine (Cert.KernelIdeal.KRegion3.arr14 (V7 m ρ) c).trans ?_
  rw [pre3_xc m ρ c, pre3_cnd m ρ c, pre3_w1a m ρ c, pre3_w1b m ρ c, pre3_b1 m ρ c, pre3_w2 m ρ c, pre3_b2 m ρ c, pre3_ws m ρ c, pre3_bs m ρ c, pre3_sf m ρ c]
  rfl

theorem keep3_xc : (W8 m ρ c (Proc.devRef .tc main_v190) : S2048x4096.Idx → EReal)
    = cols (par 3) (actnorm 3 (Pm m c).ab (Pm m c).als (Zn m c 3)) :=
  (W8_arr m ρ c 0).trans (((dat3 (V7 m ρ) c).arrAt_in 0 rfl _).trans ((A_eq3 (V7 m ρ) c 0).trans (pre3_xc m ρ c)))

theorem keep3_ld : (W8 m ρ c (Proc.devRef .tc main_v187) : S2048.Idx → EReal)
    = ofFn1 fun t => Ln m c 3 (ix1 t) + ∑ d : Fin 8192, (Pm m c).als (ix2 3 d) :=
  (W8_of_ne m ρ c main_v187 (by decide)).trans (pre3_ld m ρ c)

/-! ## The array after layer 3, and what call 4 reads -/

theorem zterm4 : (shapeCast S2048x8192 (concatenate S2048x4096x2 2
      [⟨S2048x4096x1, broadcastInDim S2048x4096x1 ![0, 1] bcast_S2048x4096_S2048x4096x1_0_1 (W8 m ρ c (Proc.devRef .tc main_v218_0))⟩,
       ⟨S2048x4096x1, broadcastInDim S2048x4096x1 ![0, 1] bcast_S2048x4096_S2048x4096x1_0_1 (W8 m ρ c (Proc.devRef .tc main_v190))⟩]
      concatenates_S2048x4096x1_S2048x4096x1_S2048x4096x2_d2) shapeCasts_S2048x4096x2_S2048x8192 : S2048x8192.Idx → EReal)
    = Zn m c 4 := by
  rw [keep3_xc m ρ c, post3_yu m ρ c]
  exact (merge_term _ _ _ _ _).trans ((merge_swap _ _).symm.trans rfl)

theorem act4 (zt : S2048x8192.Idx → EReal) (hz : zt = Zn m c 4) :
    actnorm 4 (W8 m ρ c (Proc.devRef .tc main_arg4)) (W8 m ρ c (Proc.devRef .tc main_arg3)) zt
      = actnorm 4 (Pm m c).ab (Pm m c).als (Zn m c 4) := by
  rw [hz, carry8_main_arg4 m ρ c, pre0_arg4 m ρ c, carry8_main_arg3 m ρ c, pre0_arg3 m ρ c]

theorem pre4_xc : (V9 m ρ c main_v242 : S2048x4096.Idx → EReal) = cols (par 4) (actnorm 4 (Pm m c).ab (Pm m c).als (Zn m c 4)) := by
  show StableHlo.after hostOps4 (W8 m ρ c) (Proc.devRef .tc main_v242) = _
  after_results_simp
  exact (split_term (par 4) 0 rfl _ _ _ _).trans (congrArg (cols (par 4))
    ((actnorm_term 4 4 rfl _ _ _ _ _ _ _).trans (act4 m ρ c _ (zterm4 m ρ c))))

theorem pre4_xu : (V9 m ρ c main_v244 : S2048x4096.Idx → EReal) = cols (opp (par 4)) (actnorm 4 (Pm m c).ab (Pm m c).als (Zn m c 4)) := by
  show StableHlo.after hostOps4 (W8 m ρ c) (Proc.devRef .tc main_v244) = _
  after_results_simp
  exact (split_term (opp (par 4)) 1 rfl _ _ _ _).trans (congrArg (cols (opp (par 4)))
    ((actnorm_term 4 4 rfl _ _ _ _ _ _ _).trans (act4 m ρ c _ (zterm4 m ρ c))))

theorem pre4_cnd : (V9 m ρ c main_v7 : S2048x1024.Idx → EReal) = cndm m c :=
  (carry9_main_v7 m ρ c).trans (pre0_cnd m ρ c)

theorem pre4_w1a : (V9 m ρ c main_v246 : S4096x1024.Idx → EReal) = band 4 (Pm m c).W1 0 4096 (by decide) := by
  show StableHlo.after hostOps4 (W8 m ρ c) (Proc.devRef .tc main_v246) = _
  after_results_simp
  rw [carry8_main_v11 m ρ c, pre0_v11 m ρ c]
  exact band_slice_narrow 4 4 rfl 0 _ _ _ _ _ _

theorem pre4_w1b : (V9 m ρ c main_v248 : S1024x1024.Idx → EReal) = band 4 (Pm m c).W1 4096 1024 (by decide) := by
  show StableHlo.after hostOps4 (W8 m ρ c) (Proc.devRef .tc main_v248) = _
  after_results_simp
  rw [carry8_main_v13 m ρ c, pre0_v13 m ρ c]
  exact band_slice_narrow 4 4 rfl 4096 _ _ _ _ _ _

theorem pre4_b1 : (V9 m ρ c main_v251 : S1x1024.Idx → EReal) = rowOf 4 (Pm m c).b1 := by
  show StableHlo.after hostOps4 (W8 m ρ c) (Proc.devRef .tc main_v251) = _
  after_results_simp
  rw [carry8_main_arg6 m ρ c, pre0_arg6 m ρ c]
  exact row_slice 4 4 rfl _ _ _ _

theorem pre4_w2 : (V9 m ρ c main_v253 : S1024x1024.Idx → EReal) = band 4 (Pm m c).W2 0 1024 (by decide) := by
  show StableHlo.after hostOps4 (W8 m ρ c) (Proc.devRef .tc main_v253) = _
  after_results_simp
  rw [carry8_main_v14 m ρ c, pre0_v14 m ρ c]
  exact stack_slice_narrow 4 4 rfl _ _ _ _ _

theorem pre4_b2 : (V9 m ρ c main_v256 : S1x1024.Idx → EReal) = rowOf 4 (Pm m c).b2 := by
  show StableHlo.after hostOps4 (W8 m ρ c) (Proc.devRef .tc main_v256) = _
  after_results_simp
  rw [carry8_main_arg8 m ρ c, pre0_arg8 m ρ c]
  exact row_slice 4 4 rfl _ _ _ _

theorem pre4_ws : (V9 m ρ c main_v258 : S1024x4096.Idx → EReal) = band 4 (Pm m c).Ws 0 1024 (by decide) := by
  show StableHlo.after hostOps4 (W8 m ρ c) (Proc.devRef .tc main_v258) = _
  after_results_simp
  rw [carry8_main_v15 m ρ c, pre0_v15 m ρ c]
  exact stack_slice_narrow 4 4 rfl _ _ _ _ _

theorem pre4_bs : (V9 m ρ c main_v261 : S1x4096.Idx → EReal) = rowOf 4 (Pm m c).bs := by
  show StableHlo.after hostOps4 (W8 m ρ c) (Proc.devRef .tc main_v261) = _
  after_results_simp
  rw [carry8_main_arg10 m ρ c, pre0_arg10 m ρ c]
  exact row_slice 4 4 rfl _ _ _ _

theorem pre4_wt : (V9 m ρ c main_v263 : S1024x4096.Idx → EReal) = band 4 (Pm m c).Wt 0 1024 (by decide) := by
  show StableHlo.after hostOps4 (W8 m ρ c) (Proc.devRef .tc main_v263) = _
  after_results_simp
  rw [carry8_main_v16 m ρ c, pre0_v16 m ρ c]
  exact stack_slice_narrow 4 4 rfl _ _ _ _ _

theorem pre4_bt : (V9 m ρ c main_v266 : S1x4096.Idx → EReal) = rowOf 4 (Pm m c).bt := by
  show StableHlo.after hostOps4 (W8 m ρ c) (Proc.devRef .tc main_v266) = _
  after_results_simp
  rw [carry8_main_arg12 m ρ c, pre0_arg12 m ρ c]
  exact row_slice 4 4 rfl _ _ _ _

theorem pre4_sf : (V9 m ρ c main_v269 : S1x1.Idx → EReal) = scalarOf 4 (Pm m c).sf := by
  show StableHlo.after hostOps4 (W8 m ρ c) (Proc.devRef .tc main_v269) = _
  after_results_simp
  rw [carry8_main_arg13 m ρ c, pre0_arg13 m ρ c]
  exact scalar_slice 4 4 rfl _ _ _ _

theorem pre4_ld : (V9 m ρ c main_v239 : S2048.Idx → EReal)
    = ofFn1 fun t => Ln m c 4 (ix1 t) + ∑ d : Fin 8192, (Pm m c).als (ix2 4 d) := by
  show StableHlo.after hostOps4 (W8 m ρ c) (Proc.devRef .tc main_v239) = _
  after_results_simp
  rw [keep3_ld m ρ c, post3_ss m ρ c, carry8_main_v9 m ρ c, pre0_v9 m ρ c]
  refine (add_scale_sum 4 4 rfl _ _ _ _ _ _ _).trans ?_
  refine congrArg ofFn1 (funext fun t => congrArg (· + _) ?_)
  exact congrFun ((add_column _ _ _).trans rfl) _

end Cert.KernelIdeal.KSide

end
-- ==== Proof.KStep5.lean ====
/- The idealized kernel program around its coupling call number 4 (counted from zero): what the call leaves, and what
  the operations after it hand to call 5.

  The call reads the conditioning columns, the other columns, the conditioning array and layer 4's parameters, and leaves
  the transformed columns and the row sums of the scale array. The operations after it add the row sums to the running
  vector and interleave the conditioning columns with the transformed ones, which is layer 4 of the specification on
  the array; then they rescale the columns for layer 5, split them by parity, cut layer 5's parameters out of the
  stacks, and add layer 5's sum of logarithmic scales to the vector.
-/
import proofs.«175835_j29978871726094_1_alg».proof.Proof.Gen.KernelIdeal.Frame
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowVector
import proofs.«175835_j29978871726094_1_alg».proof.Proof.KPre0
import proofs.«175835_j29978871726094_1_alg».proof.Proof.KKeep
import proofs.«175835_j29978871726094_1_alg».proof.Proof.KRegion4
import proofs.«175835_j29978871726094_1_alg».proof.Proof.KStep4
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen Cert.Flow Cert.Flow.Terms Idealize.ShloMosaic.ValueIdx
open scoped BigOperators

variable (m : (ℓ : Loc nD τ sig) → Buf (Elt Ideal) ℓ) (ρ : Dev nD → PrngReg) (c : Dev nD)

set_option maxHeartbeats 1000000

/-! ## What call 4 leaves -/

theorem post4_yu : (W10 m ρ c (Proc.devRef .tc main_v270_0) : S2048x4096.Idx → EReal)
    = coupleY (cols (opp (par 4)) (actnorm 4 (Pm m c).ab (Pm m c).als (Zn m c 4))) (sOf (Pm m c) (cndm m c) 4 (Zn m c 4))
        (coupleT (hid (Pm m c) (cndm m c) 4 (Zn m c 4)) (band 4 (Pm m c).Wt 0 1024 (by decide)) (rowOf 4 (Pm m c).bt)) := by
  refine (W10_arr m ρ c 13).trans ?_
  refine (Cert.KernelIdeal.KRegion4.arr13 (V9 m ρ) c).trans ?_
  rw [pre4_xc m ρ c, pre4_xu m ρ c, pre4_cnd m ρ c, pre4_w1a m ρ c, pre4_w1b m ρ c, pre4_b1 m ρ c, pre4_w2 m ρ c, pre4_b2 m ρ c, pre4_ws m ρ c, pre4_bs m ρ c, pre4_wt m ρ c, pre4_bt m ρ c, pre4_sf m ρ c]
  rfl

theorem post4_ss : (W10 m ρ c (Proc.devRef .tc main_v270_1) : S2048x1.Idx → EReal)
    = coupleSum (sOf (Pm m c) (cndm m c) 4 (Zn m c 4)) := by
  refine (W10_arr m ρ c 14).trans ?_
  refine (Cert.KernelIdeal.KRegion4.arr14 (V9 m ρ) c).trans ?_
  rw [pre4_xc m ρ c, pre4_cnd m ρ c, pre4_w1a m ρ c, pre4_w1b m ρ c, pre4_b1 m ρ c, pre4_w2 m ρ c, pre4_b2 m ρ c, pre4_ws m ρ c, pre4_bs m ρ c, pre4_sf m ρ c]
  rfl

theorem keep4_xc : (W10 m ρ c (Proc.devRef .tc main_v242) : S2048x4096.Idx → EReal)
    = cols (par 4) (actnorm 4 (Pm m c).ab (Pm m c).als (Zn m c 4)) :=
  (W10_arr m ρ c 0).trans (((dat4 (V9 m ρ) c).arrAt_in 0 rfl _).trans ((A_eq4 (V9 m ρ) c 0).trans (pre4_xc m ρ c)))

theorem keep4_ld : (W10 m ρ c (Proc.devRef .tc main_v239) : S2048.Idx → EReal)
    = ofFn1 fun t => Ln m c 4 (ix1 t) + ∑ d : Fin 8192, (Pm m c).als (ix2 4 d) :=
  (W10_of_ne m ρ c main_v239 (by decide)).trans (pre4_ld m ρ c)

/-! ## The array after layer 4, and what call 5 reads -/

theorem zterm5 : (shapeCast S2048x8192 (concatenate S2048x4096x2 2
      [⟨S2048x4096x1, broadcastInDim S2048x4096x1 ![0, 1] bcast_S2048x4096_S2048x4096x1_0_1 (W10 m ρ c (Proc.devRef .tc main_v242))⟩,
       ⟨S2048x4096x1, broadcastInDim S2048x4096x1 ![0, 1] bcast_S2048x4096_S2048x4096x1_0_1 (W10 m ρ c (Proc.devRef .tc main_v270_0))⟩]
      concatenates_S2048x4096x1_S2048x4096x1_S2048x4096x2_d2) shapeCasts_S2048x4096x2_S2048x8192 : S2048x8192.Idx → EReal)
    = Zn m c 5 := by
  rw [keep4_xc m ρ c, post4_yu m ρ c]
  exact (merge_term _ _ _ _ _).trans rfl

theorem act5 (zt : S2048x8192.Idx → EReal) (hz : zt = Zn m c 5) :
    actnorm 5 (W10 m ρ c (Proc.devRef .tc main_arg4)) (W10 m ρ c (Proc.devRef .tc main_arg3)) zt
      = actnorm 5 (Pm m c).ab (Pm m c).als (Zn m c 5) := by
  rw [hz, carry10_main_arg4 m ρ c, pre0_arg4 m ρ c, carry10_main_arg3 m ρ c, pre0_arg3 m ρ c]

theorem pre5_xc : (V11 m ρ c main_v294 : S2048x4096.Idx → EReal) = cols (par 5) (actnorm 5 (Pm m c).ab (Pm m c).als (Zn m c 5)) := by
  show StableHlo.after hostOps5 (W10 m ρ c) (Proc.devRef .tc main_v294) = _
  after_results_simp
  exact (split_term (par 5) 1 rfl _ _ _ _).trans (congrArg (cols (par 5))
    ((actnorm_term 5 5 rfl _ _ _ _ _ _ _).trans (act5 m ρ c _ (zterm5 m ρ c))))

theorem pre5_xu : (V11 m ρ c main_v296 : S2048x4096.Idx → EReal) = cols (opp (par 5)) (actnorm 5 (Pm m c).ab (Pm m c).als (Zn m c 5)) := by
  show StableHlo.after hostOps5 (W10 m ρ c) (Proc.devRef .tc main_v296) = _
  after_results_simp
  exact (split_term (opp (par 5)) 0 rfl _ _ _ _).trans (congrArg (cols (opp (par 5)))
    ((actnorm_term 5 5 rfl _ _ _ _ _ _ _).trans (act5 m ρ c _ (zterm5 m ρ c))))

theorem pre5_cnd : (V11 m ρ c main_v7 : S2048x1024.Idx → EReal) = cndm m c :=
  (carry11_main_v7 m ρ c).trans (pre0_cnd m ρ c)

theorem pre5_w1a : (V11 m ρ c main_v298 : S4096x1024.Idx → EReal) = band 5 (Pm m c).W1 0 4096 (by decide) := by
  show StableHlo.after hostOps5 (W10 m ρ c) (Proc.devRef .tc main_v298) = _
  after_results_simp
  rw [carry10_main_v11 m ρ c, pre0_v11 m ρ c]
  exact band_slice_narrow 5 5 rfl 0 _ _ _ _ _ _

theorem pre5_w1b : (V11 m ρ c main_v300 : S1024x1024.Idx → EReal) = band 5 (Pm m c).W1 4096 1024 (by decide) := by
  show StableHlo.after hostOps5 (W10 m ρ c) (Proc.devRef .tc main_v300) = _
  after_results_simp
  rw [carry10_main_v13 m ρ c, pre0_v13 m ρ c]
  exact band_slice_narrow 5 5 rfl 4096 _ _ _ _ _ _

theorem pre5_b1 : (V11 m ρ c main_v303 : S1x1024.Idx → EReal) = rowOf 5 (Pm m c).b1 := by
  show StableHlo.after hostOps5 (W10 m ρ c) (Proc.devRef .tc main_v303) = _
  after_results_simp
  rw [carry10_main_arg6 m ρ c, pre0_arg6 m ρ c]
  exact row_slice 5 5 rfl _ _ _ _

theorem pre5_w2 : (V11 m ρ c main_v305 : S1024x1024.Idx → EReal) = band 5 (Pm m c).W2 0 1024 (by decide) := by
  show StableHlo.after hostOps5 (W10 m ρ c) (Proc.devRef .tc main_v305) = _
  after_results_simp
  rw [carry10_main_v14 m ρ c, pre0_v14 m ρ c]
  exact stack_slice_narrow 5 5 rfl _ _ _ _ _

theorem pre5_b2 : (V11 m ρ c main_v308 : S1x1024.Idx → EReal) = rowOf 5 (Pm m c).b2 := by
  show StableHlo.after hostOps5 (W10 m ρ c) (Proc.devRef .tc main_v308) = _
  after_results_simp
  rw [carry10_main_arg8 m ρ c, pre0_arg8 m ρ c]
  exact row_slice 5 5 rfl _ _ _ _

theorem pre5_ws : (V11 m ρ c main_v310 : S1024x4096.Idx → EReal) = band 5 (Pm m c).Ws 0 1024 (by decide) := by
  show StableHlo.after hostOps5 (W10 m ρ c) (Proc.devRef .tc main_v310) = _
  after_results_simp
  rw [carry10_main_v15 m ρ c, pre0_v15 m ρ c]
  exact stack_slice_narrow 5 5 rfl _ _ _ _ _

theorem pre5_bs : (V11 m ρ c main_v313 : S1x4096.Idx → EReal) = rowOf 5 (Pm m c).bs := by
  show StableHlo.after hostOps5 (W10 m ρ c) (Proc.devRef .tc main_v313) = _
  after_results_simp
  rw [carry10_main_arg10 m ρ c, pre0_arg10 m ρ c]
  exact row_slice 5 5 rfl _ _ _ _

theorem pre5_wt : (V11 m ρ c main_v315 : S1024x4096.Idx → EReal) = band 5 (Pm m c).Wt 0 1024 (by decide) := by
  show StableHlo.after hostOps5 (W10 m ρ c) (Proc.devRef .tc main_v315) = _
  after_results_simp
  rw [carry10_main_v16 m ρ c, pre0_v16 m ρ c]
  exact stack_slice_narrow 5 5 rfl _ _ _ _ _

theorem pre5_bt : (V11 m ρ c main_v318 : S1x4096.Idx → EReal) = rowOf 5 (Pm m c).bt := by
  show StableHlo.after hostOps5 (W10 m ρ c) (Proc.devRef .tc main_v318) = _
  after_results_simp
  rw [carry10_main_arg12 m ρ c, pre0_arg12 m ρ c]
  exact row_slice 5 5 rfl _ _ _ _

theorem pre5_sf : (V11 m ρ c main_v321 : S1x1.Idx → EReal) = scalarOf 5 (Pm m c).sf := by
  show StableHlo.after hostOps5 (W10 m ρ c) (Proc.devRef .tc main_v321) = _
  after_results_simp
  rw [carry10_main_arg13 m ρ c, pre0_arg13 m ρ c]
  exact scalar_slice 5 5 rfl _ _ _ _

theorem pre5_ld : (V11 m ρ c main_v291 : S2048.Idx → EReal)
    = ofFn1 fun t => Ln m c 5 (ix1 t) + ∑ d : Fin 8192, (Pm m c).als (ix2 5 d) := by
  show StableHlo.after hostOps5 (W10 m ρ c) (Proc.devRef .tc main_v291) = _
  after_results_simp
  rw [keep4_ld m ρ c, post4_ss m ρ c, carry10_main_v9 m ρ c, pre0_v9 m ρ c]
  refine (add_scale_sum 5 5 rfl _ _ _ _ _ _ _).trans ?_
  refine congrArg ofFn1 (funext fun t => congrArg (· + _) ?_)
  exact congrFun ((add_column _ _ _).trans rfl) _

end Cert.KernelIdeal.KSide

end
-- ==== Proof.KStep6.lean ====
/- The idealized kernel program around its coupling call number 5 (counted from zero): what the call leaves, and what
  the operations after it hand to call 6.

  The call reads the conditioning columns, the other columns, the conditioning array and layer 5's parameters, and leaves
  the transformed columns and the row sums of the scale array. The operations after it add the row sums to the running
  vector and interleave the conditioning columns with the transformed ones, which is layer 5 of the specification on
  the array; then they rescale the columns for layer 6, split them by parity, cut layer 6's parameters out of the
  stacks, and add layer 6's sum of logarithmic scales to the vector.
-/
import proofs.«175835_j29978871726094_1_alg».proof.Proof.Gen.KernelIdeal.Frame
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowVector
import proofs.«175835_j29978871726094_1_alg».proof.Proof.KPre0
import proofs.«175835_j29978871726094_1_alg».proof.Proof.KKeep
import proofs.«175835_j29978871726094_1_alg».proof.Proof.KRegion5
import proofs.«175835_j29978871726094_1_alg».proof.Proof.KStep5
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen Cert.Flow Cert.Flow.Terms Idealize.ShloMosaic.ValueIdx
open scoped BigOperators

variable (m : (ℓ : Loc nD τ sig) → Buf (Elt Ideal) ℓ) (ρ : Dev nD → PrngReg) (c : Dev nD)

set_option maxHeartbeats 1000000

/-! ## What call 5 leaves -/

theorem post5_yu : (W12 m ρ c (Proc.devRef .tc main_v322_0) : S2048x4096.Idx → EReal)
    = coupleY (cols (opp (par 5)) (actnorm 5 (Pm m c).ab (Pm m c).als (Zn m c 5))) (sOf (Pm m c) (cndm m c) 5 (Zn m c 5))
        (coupleT (hid (Pm m c) (cndm m c) 5 (Zn m c 5)) (band 5 (Pm m c).Wt 0 1024 (by decide)) (rowOf 5 (Pm m c).bt)) := by
  refine (W12_arr m ρ c 13).trans ?_
  refine (Cert.KernelIdeal.KRegion5.arr13 (V11 m ρ) c).trans ?_
  rw [pre5_xc m ρ c, pre5_xu m ρ c, pre5_cnd m ρ c, pre5_w1a m ρ c, pre5_w1b m ρ c, pre5_b1 m ρ c, pre5_w2 m ρ c, pre5_b2 m ρ c, pre5_ws m ρ c, pre5_bs m ρ c, pre5_wt m ρ c, pre5_bt m ρ c, pre5_sf m ρ c]
  rfl

theorem post5_ss : (W12 m ρ c (Proc.devRef .tc main_v322_1) : S2048x1.Idx → EReal)
    = coupleSum (sOf (Pm m c) (cndm m c) 5 (Zn m c 5)) := by
  refine (W12_arr m ρ c 14).trans ?_
  refine (Cert.KernelIdeal.KRegion5.arr14 (V11 m ρ) c).trans ?_
  rw [pre5_xc m ρ c, pre5_cnd m ρ c, pre5_w1a m ρ c, pre5_w1b m ρ c, pre5_b1 m ρ c, pre5_w2 m ρ c, pre5_b2 m ρ c, pre5_ws m ρ c, pre5_bs m ρ c, pre5_sf m ρ c]
  rfl

theorem keep5_xc : (W12 m ρ c (Proc.devRef .tc main_v294) : S2048x4096.Idx → EReal)
    = cols (par 5) (actnorm 5 (Pm m c).ab (Pm m c).als (Zn m c 5)) :=
  (W12_arr m ρ c 0).trans (((dat5 (V11 m ρ) c).arrAt_in 0 rfl _).trans ((A_eq5 (V11 m ρ) c 0).trans (pre5_xc m ρ c)))

theorem keep5_ld : (W12 m ρ c (Proc.devRef .tc main_v291) : S2048.Idx → EReal)
    = ofFn1 fun t => Ln m c 5 (ix1 t) + ∑ d : Fin 8192, (Pm m c).als (ix2 5 d) :=
  (W12_of_ne m ρ c main_v291 (by decide)).trans (pre5_ld m ρ c)

/-! ## The array after layer 5, and what call 6 reads -/

theorem zterm6 : (shapeCast S2048x8192 (concatenate S2048x4096x2 2
      [⟨S2048x4096x1, broadcastInDim S2048x4096x1 ![0, 1] bcast_S2048x4096_S2048x4096x1_0_1 (W12 m ρ c (Proc.devRef .tc main_v322_0))⟩,
       ⟨S2048x4096x1, broadcastInDim S2048x4096x1 ![0, 1] bcast_S2048x4096_S2048x4096x1_0_1 (W12 m ρ c (Proc.devRef .tc main_v294))⟩]
      concatenates_S2048x4096x1_S2048x4096x1_S2048x4096x2_d2) shapeCasts_S2048x4096x2_S2048x8192 : S2048x8192.Idx → EReal)
    = Zn m c 6 := by
  rw [keep5_xc m ρ c, post5_yu m ρ c]
  exact (merge_term _ _ _ _ _).trans ((merge_swap _ _).symm.trans rfl)

theorem act6 (zt : S2048x8192.Idx → EReal) (hz : zt = Zn m c 6) :
    actnorm 6 (W12 m ρ c (Proc.devRef .tc main_arg4)) (W12 m ρ c (Proc.devRef .tc main_arg3)) zt
      = actnorm 6 (Pm m c).ab (Pm m c).als (Zn m c 6) := by
  rw [hz, carry12_main_arg4 m ρ c, pre0_arg4 m ρ c, carry12_main_arg3 m ρ c, pre0_arg3 m ρ c]

theorem pre6_xc : (V13 m ρ c main_v346 : S2048x4096.Idx → EReal) = cols (par 6) (actnorm 6 (Pm m c).ab (Pm m c).als (Zn m c 6)) := by
  show StableHlo.after hostOps6 (W12 m ρ c) (Proc.devRef .tc main_v346) = _
  after_results_simp
  exact (split_term (par 6) 0 rfl _ _ _ _).trans (congrArg (cols (par 6))
    ((actnorm_term 6 6 rfl _ _ _ _ _ _ _).trans (act6 m ρ c _ (zterm6 m ρ c))))

theorem pre6_xu : (V13 m ρ c main_v348 : S2048x4096.Idx → EReal) = cols (opp (par 6)) (actnorm 6 (Pm m c).ab (Pm m c).als (Zn m c 6)) := by
  show StableHlo.after hostOps6 (W12 m ρ c) (Proc.devRef .tc main_v348) = _
  after_results_simp
  exact (split_term (opp (par 6)) 1 rfl _ _ _ _).trans (congrArg (cols (opp (par 6)))
    ((actnorm_term 6 6 rfl _ _ _ _ _ _ _).trans (act6 m ρ c _ (zterm6 m ρ c))))

theorem pre6_cnd : (V13 m ρ c main_v7 : S2048x1024.Idx → EReal) = cndm m c :=
  (carry13_main_v7 m ρ c).trans (pre0_cnd m ρ c)

theorem pre6_w1a : (V13 m ρ c main_v350 : S4096x1024.Idx → EReal) = band 6 (Pm m c).W1 0 4096 (by decide) := by
  show StableHlo.after hostOps6 (W12 m ρ c) (Proc.devRef .tc main_v350) = _
  after_results_simp
  rw [carry12_main_v11 m ρ c, pre0_v11 m ρ c]
  exact band_slice_narrow 6 6 rfl 0 _ _ _ _ _ _

theorem pre6_w1b : (V13 m ρ c main_v352 : S1024x1024.Idx → EReal) = band 6 (Pm m c).W1 4096 1024 (by decide) := by
  show StableHlo.after hostOps6 (W12 m ρ c) (Proc.devRef .tc main_v352) = _
  after_results_simp
  rw [carry12_main_v13 m ρ c, pre0_v13 m ρ c]
  exact band_slice_narrow 6 6 rfl 4096 _ _ _ _ _ _

theorem pre6_b1 : (V13 m ρ c main_v355 : S1x1024.Idx → EReal) = rowOf 6 (Pm m c).b1 := by
  show StableHlo.after hostOps6 (W12 m ρ c) (Proc.devRef .tc main_v355) = _
  after_results_simp
  rw [carry12_main_arg6 m ρ c, pre0_arg6 m ρ c]
  exact row_slice 6 6 rfl _ _ _ _

theorem pre6_w2 : (V13 m ρ c main_v357 : S1024x1024.Idx → EReal) = band 6 (Pm m c).W2 0 1024 (by decide) := by
  show StableHlo.after hostOps6 (W12 m ρ c) (Proc.devRef .tc main_v357) = _
  after_results_simp
  rw [carry12_main_v14 m ρ c, pre0_v14 m ρ c]
  exact stack_slice_narrow 6 6 rfl _ _ _ _ _

theorem pre6_b2 : (V13 m ρ c main_v360 : S1x1024.Idx → EReal) = rowOf 6 (Pm m c).b2 := by
  show StableHlo.after hostOps6 (W12 m ρ c) (Proc.devRef .tc main_v360) = _
  after_results_simp
  rw [carry12_main_arg8 m ρ c, pre0_arg8 m ρ c]
  exact row_slice 6 6 rfl _ _ _ _

theorem pre6_ws : (V13 m ρ c main_v362 : S1024x4096.Idx → EReal) = band 6 (Pm m c).Ws 0 1024 (by decide) := by
  show StableHlo.after hostOps6 (W12 m ρ c) (Proc.devRef .tc main_v362) = _
  after_results_simp
  rw [carry12_main_v15 m ρ c, pre0_v15 m ρ c]
  exact stack_slice_narrow 6 6 rfl _ _ _ _ _

theorem pre6_bs : (V13 m ρ c main_v365 : S1x4096.Idx → EReal) = rowOf 6 (Pm m c).bs := by
  show StableHlo.after hostOps6 (W12 m ρ c) (Proc.devRef .tc main_v365) = _
  after_results_simp
  rw [carry12_main_arg10 m ρ c, pre0_arg10 m ρ c]
  exact row_slice 6 6 rfl _ _ _ _

theorem pre6_wt : (V13 m ρ c main_v367 : S1024x4096.Idx → EReal) = band 6 (Pm m c).Wt 0 1024 (by decide) := by
  show StableHlo.after hostOps6 (W12 m ρ c) (Proc.devRef .tc main_v367) = _
  after_results_simp
  rw [carry12_main_v16 m ρ c, pre0_v16 m ρ c]
  exact stack_slice_narrow 6 6 rfl _ _ _ _ _

theorem pre6_bt : (V13 m ρ c main_v370 : S1x4096.Idx → EReal) = rowOf 6 (Pm m c).bt := by
  show StableHlo.after hostOps6 (W12 m ρ c) (Proc.devRef .tc main_v370) = _
  after_results_simp
  rw [carry12_main_arg12 m ρ c, pre0_arg12 m ρ c]
  exact row_slice 6 6 rfl _ _ _ _

theorem pre6_sf : (V13 m ρ c main_v373 : S1x1.Idx → EReal) = scalarOf 6 (Pm m c).sf := by
  show StableHlo.after hostOps6 (W12 m ρ c) (Proc.devRef .tc main_v373) = _
  after_results_simp
  rw [carry12_main_arg13 m ρ c, pre0_arg13 m ρ c]
  exact scalar_slice 6 6 rfl _ _ _ _

theorem pre6_ld : (V13 m ρ c main_v343 : S2048.Idx → EReal)
    = ofFn1 fun t => Ln m c 6 (ix1 t) + ∑ d : Fin 8192, (Pm m c).als (ix2 6 d) := by
  show StableHlo.after hostOps6 (W12 m ρ c) (Proc.devRef .tc main_v343) = _
  after_results_simp
  rw [keep5_ld m ρ c, post5_ss m ρ c, carry12_main_v9 m ρ c, pre0_v9 m ρ c]
  refine (add_scale_sum 6 6 rfl _ _ _ _ _ _ _).trans ?_
  refine congrArg ofFn1 (funext fun t => congrArg (· + _) ?_)
  exact congrFun ((add_column _ _ _).trans rfl) _

end Cert.KernelIdeal.KSide

end
-- ==== Proof.KStep7.lean ====
/- The idealized kernel program around its coupling call number 6 (counted from zero): what the call leaves, and what
  the operations after it hand to call 7.

  The call reads the conditioning columns, the other columns, the conditioning array and layer 6's parameters, and leaves
  the transformed columns and the row sums of the scale array. The operations after it add the row sums to the running
  vector and interleave the conditioning columns with the transformed ones, which is layer 6 of the specification on
  the array; then they rescale the columns for layer 7, split them by parity, cut layer 7's parameters out of the
  stacks, and add layer 7's sum of logarithmic scales to the vector.
-/
import proofs.«175835_j29978871726094_1_alg».proof.Proof.Gen.KernelIdeal.Frame
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowVector
import proofs.«175835_j29978871726094_1_alg».proof.Proof.KPre0
import proofs.«175835_j29978871726094_1_alg».proof.Proof.KKeep
import proofs.«175835_j29978871726094_1_alg».proof.Proof.KRegion6
import proofs.«175835_j29978871726094_1_alg».proof.Proof.KStep6
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen Cert.Flow Cert.Flow.Terms Idealize.ShloMosaic.ValueIdx
open scoped BigOperators

variable (m : (ℓ : Loc nD τ sig) → Buf (Elt Ideal) ℓ) (ρ : Dev nD → PrngReg) (c : Dev nD)

set_option maxHeartbeats 1000000

/-! ## What call 6 leaves -/

theorem post6_yu : (W14 m ρ c (Proc.devRef .tc main_v374_0) : S2048x4096.Idx → EReal)
    = coupleY (cols (opp (par 6)) (actnorm 6 (Pm m c).ab (Pm m c).als (Zn m c 6))) (sOf (Pm m c) (cndm m c) 6 (Zn m c 6))
        (coupleT (hid (Pm m c) (cndm m c) 6 (Zn m c 6)) (band 6 (Pm m c).Wt 0 1024 (by decide)) (rowOf 6 (Pm m c).bt)) := by
  refine (W14_arr m ρ c 13).trans ?_
  refine (Cert.KernelIdeal.KRegion6.arr13 (V13 m ρ) c).trans ?_
  rw [pre6_xc m ρ c, pre6_xu m ρ c, pre6_cnd m ρ c, pre6_w1a m ρ c, pre6_w1b m ρ c, pre6_b1 m ρ c, pre6_w2 m ρ c, pre6_b2 m ρ c, pre6_ws m ρ c, pre6_bs m ρ c, pre6_wt m ρ c, pre6_bt m ρ c, pre6_sf m ρ c]
  rfl

theorem post6_ss : (W14 m ρ c (Proc.devRef .tc main_v374_1) : S2048x1.Idx → EReal)
    = coupleSum (sOf (Pm m c) (cndm m c) 6 (Zn m c 6)) := by
  refine (W14_arr m ρ c 14).trans ?_
  refine (Cert.KernelIdeal.KRegion6.arr14 (V13 m ρ) c).trans ?_
  rw [pre6_xc m ρ c, pre6_cnd m ρ c, pre6_w1a m ρ c, pre6_w1b m ρ c, pre6_b1 m ρ c, pre6_w2 m ρ c, pre6_b2 m ρ c, pre6_ws m ρ c, pre6_bs m ρ c, pre6_sf m ρ c]
  rfl

theorem keep6_xc : (W14 m ρ c (Proc.devRef .tc main_v346) : S2048x4096.Idx → EReal)
    = cols (par 6) (actnorm 6 (Pm m c).ab (Pm m c).als (Zn m c 6)) :=
  (W14_arr m ρ c 0).trans (((dat6 (V13 m ρ) c).arrAt_in 0 rfl _).trans ((A_eq6 (V13 m ρ) c 0).trans (pre6_xc m ρ c)))

theorem keep6_ld : (W14 m ρ c (Proc.devRef .tc main_v343) : S2048.Idx → EReal)
    = ofFn1 fun t => Ln m c 6 (ix1 t) + ∑ d : Fin 8192, (Pm m c).als (ix2 6 d) :=
  (W14_of_ne m ρ c main_v343 (by decide)).trans (pre6_ld m ρ c)

/-! ## The array after layer 6, and what call 7 reads -/

theorem zterm7 : (shapeCast S2048x8192 (concatenate S2048x4096x2 2
      [⟨S2048x4096x1, broadcastInDim S2048x4096x1 ![0, 1] bcast_S2048x4096_S2048x4096x1_0_1 (W14 m ρ c (Proc.devRef .tc main_v346))⟩,
       ⟨S2048x4096x1, broadcastInDim S2048x4096x1 ![0, 1] bcast_S2048x4096_S2048x4096x1_0_1 (W14 m ρ c (Proc.devRef .tc main_v374_0))⟩]
      concatenates_S2048x4096x1_S2048x4096x1_S2048x4096x2_d2) shapeCasts_S2048x4096x2_S2048x8192 : S2048x8192.Idx → EReal)
    = Zn m c 7 := by
  rw [keep6_xc m ρ c, post6_yu m ρ c]
  exact (merge_term _ _ _ _ _).trans rfl

theorem act7 (zt : S2048x8192.Idx → EReal) (hz : zt = Zn m c 7) :
    actnorm 7 (W14 m ρ c (Proc.devRef .tc main_arg4)) (W14 m ρ c (Proc.devRef .tc main_arg3)) zt
      = actnorm 7 (Pm m c).ab (Pm m c).als (Zn m c 7) := by
  rw [hz, carry14_main_arg4 m ρ c, pre0_arg4 m ρ c, carry14_main_arg3 m ρ c, pre0_arg3 m ρ c]

theorem pre7_xc : (V15 m ρ c main_v398 : S2048x4096.Idx → EReal) = cols (par 7) (actnorm 7 (Pm m c).ab (Pm m c).als (Zn m c 7)) := by
  show StableHlo.after hostOps7 (W14 m ρ c) (Proc.devRef .tc main_v398) = _
  after_results_simp
  exact (split_term (par 7) 1 rfl _ _ _ _).trans (congrArg (cols (par 7))
    ((actnorm_term 7 7 rfl _ _ _ _ _ _ _).trans (act7 m ρ c _ (zterm7 m ρ c))))

theorem pre7_xu : (V15 m ρ c main_v400 : S2048x4096.Idx → EReal) = cols (opp (par 7)) (actnorm 7 (Pm m c).ab (Pm m c).als (Zn m c 7)) := by
  show StableHlo.after hostOps7 (W14 m ρ c) (Proc.devRef .tc main_v400) = _
  after_results_simp
  exact (split_term (opp (par 7)) 0 rfl _ _ _ _).trans (congrArg (cols (opp (par 7)))
    ((actnorm_term 7 7 rfl _ _ _ _ _ _ _).trans (act7 m ρ c _ (zterm7 m ρ c))))

theorem pre7_cnd : (V15 m ρ c main_v7 : S2048x1024.Idx → EReal) = cndm m c :=
  (carry15_main_v7 m ρ c).trans (pre0_cnd m ρ c)

theorem pre7_w1a : (V15 m ρ c main_v402 : S4096x1024.Idx → EReal) = band 7 (Pm m c).W1 0 4096 (by decide) := by
  show StableHlo.after hostOps7 (W14 m ρ c) (Proc.devRef .tc main_v402) = _
  after_results_simp
  rw [carry14_main_v11 m ρ c, pre0_v11 m ρ c]
  exact band_slice_narrow 7 7 rfl 0 _ _ _ _ _ _

theorem pre7_w1b : (V15 m ρ c main_v404 : S1024x1024.Idx → EReal) = band 7 (Pm m c).W1 4096 1024 (by decide) := by
  show StableHlo.after hostOps7 (W14 m ρ c) (Proc.devRef .tc main_v404) = _
  after_results_simp
  rw [carry14_main_v13 m ρ c, pre0_v13 m ρ c]
  exact band_slice_narrow 7 7 rfl 4096 _ _ _ _ _ _

theorem pre7_b1 : (V15 m ρ c main_v407 : S1x1024.Idx → EReal) = rowOf 7 (Pm m c).b1 := by
  show StableHlo.after hostOps7 (W14 m ρ c) (Proc.devRef .tc main_v407) = _
  after_results_simp
  rw [carry14_main_arg6 m ρ c, pre0_arg6 m ρ c]
  exact row_slice 7 7 rfl _ _ _ _

theorem pre7_w2 : (V15 m ρ c main_v409 : S1024x1024.Idx → EReal) = band 7 (Pm m c).W2 0 1024 (by decide) := by
  show StableHlo.after hostOps7 (W14 m ρ c) (Proc.devRef .tc main_v409) = _
  after_results_simp
  rw [carry14_main_v14 m ρ c, pre0_v14 m ρ c]
  exact stack_slice_narrow 7 7 rfl _ _ _ _ _

theorem pre7_b2 : (V15 m ρ c main_v412 : S1x1024.Idx → EReal) = rowOf 7 (Pm m c).b2 := by
  show StableHlo.after hostOps7 (W14 m ρ c) (Proc.devRef .tc main_v412) = _
  after_results_simp
  rw [carry14_main_arg8 m ρ c, pre0_arg8 m ρ c]
  exact row_slice 7 7 rfl _ _ _ _

theorem pre7_ws : (V15 m ρ c main_v414 : S1024x4096.Idx → EReal) = band 7 (Pm m c).Ws 0 1024 (by decide) := by
  show StableHlo.after hostOps7 (W14 m ρ c) (Proc.devRef .tc main_v414) = _
  after_results_simp
  rw [carry14_main_v15 m ρ c, pre0_v15 m ρ c]
  exact stack_slice_narrow 7 7 rfl _ _ _ _ _

theorem pre7_bs : (V15 m ρ c main_v417 : S1x4096.Idx → EReal) = rowOf 7 (Pm m c).bs := by
  show StableHlo.after hostOps7 (W14 m ρ c) (Proc.devRef .tc main_v417) = _
  after_results_simp
  rw [carry14_main_arg10 m ρ c, pre0_arg10 m ρ c]
  exact row_slice 7 7 rfl _ _ _ _

theorem pre7_wt : (V15 m ρ c main_v419 : S1024x4096.Idx → EReal) = band 7 (Pm m c).Wt 0 1024 (by decide) := by
  show StableHlo.after hostOps7 (W14 m ρ c) (Proc.devRef .tc main_v419) = _
  after_results_simp
  rw [carry14_main_v16 m ρ c, pre0_v16 m ρ c]
  exact stack_slice_narrow 7 7 rfl _ _ _ _ _

theorem pre7_bt : (V15 m ρ c main_v422 : S1x4096.Idx → EReal) = rowOf 7 (Pm m c).bt := by
  show StableHlo.after hostOps7 (W14 m ρ c) (Proc.devRef .tc main_v422) = _
  after_results_simp
  rw [carry14_main_arg12 m ρ c, pre0_arg12 m ρ c]
  exact row_slice 7 7 rfl _ _ _ _

theorem pre7_sf : (V15 m ρ c main_v425 : S1x1.Idx → EReal) = scalarOf 7 (Pm m c).sf := by
  show StableHlo.after hostOps7 (W14 m ρ c) (Proc.devRef .tc main_v425) = _
  after_results_simp
  rw [carry14_main_arg13 m ρ c, pre0_arg13 m ρ c]
  exact scalar_slice 7 7 rfl _ _ _ _

theorem pre7_ld : (V15 m ρ c main_v395 : S2048.Idx → EReal)
    = ofFn1 fun t => Ln m c 7 (ix1 t) + ∑ d : Fin 8192, (Pm m c).als (ix2 7 d) := by
  show StableHlo.after hostOps7 (W14 m ρ c) (Proc.devRef .tc main_v395) = _
  after_results_simp
  rw [keep6_ld m ρ c, post6_ss m ρ c, carry14_main_v9 m ρ c, pre0_v9 m ρ c]
  refine (add_scale_sum 7 7 rfl _ _ _ _ _ _ _).trans ?_
  refine congrArg ofFn1 (funext fun t => congrArg (· + _) ?_)
  exact congrFun ((add_column _ _ _).trans rfl) _

end Cert.KernelIdeal.KSide

end
-- ==== Proof.KStep8.lean ====
/- The idealized kernel program around its coupling call number 7 (counted from zero): what the call leaves, and what
  the last operations return.

  The call reads the conditioning columns, the other columns, the conditioning array and layer 7's parameters, and leaves
  the transformed columns and the row sums of the scale array. The operations after it add the row sums to the running
  vector and interleave the conditioning columns with the transformed ones, which is layer 7 of the specification on
  the array; these are the program's two results.
-/
import proofs.«175835_j29978871726094_1_alg».proof.Proof.Gen.KernelIdeal.Frame
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowVector
import proofs.«175835_j29978871726094_1_alg».proof.Proof.KPre0
import proofs.«175835_j29978871726094_1_alg».proof.Proof.KKeep
import proofs.«175835_j29978871726094_1_alg».proof.Proof.KRegion7
import proofs.«175835_j29978871726094_1_alg».proof.Proof.KStep7
import Idealize.ShloMosaic.Lib.StableHlo.Run

set_option maxRecDepth 16384

noncomputable section

namespace Cert.KernelIdeal.KSide

open Idealize.ShloMosaic Idealize.ShloMosaic.TcCoe Idealize.SL.Sem Idealize.ShloMosaic.StableHlo
open Cert.KernelIdeal Cert.KernelIdeal.Gen Cert.Flow Cert.Flow.Terms Idealize.ShloMosaic.ValueIdx
open scoped BigOperators

variable (m : (ℓ : Loc nD τ sig) → Buf (Elt Ideal) ℓ) (ρ : Dev nD → PrngReg) (c : Dev nD)

set_option maxHeartbeats 1000000

/-! ## What call 7 leaves -/

theorem post7_yu : (W16 m ρ c (Proc.devRef .tc main_v426_0) : S2048x4096.Idx → EReal)
    = coupleY (cols (opp (par 7)) (actnorm 7 (Pm m c).ab (Pm m c).als (Zn m c 7))) (sOf (Pm m c) (cndm m c) 7 (Zn m c 7))
        (coupleT (hid (Pm m c) (cndm m c) 7 (Zn m c 7)) (band 7 (Pm m c).Wt 0 1024 (by decide)) (rowOf 7 (Pm m c).bt)) := by
  refine (W16_arr m ρ c 13).trans ?_
  refine (Cert.KernelIdeal.KRegion7.arr13 (V15 m ρ) c).trans ?_
  rw [pre7_xc m ρ c, pre7_xu m ρ c, pre7_cnd m ρ c, pre7_w1a m ρ c, pre7_w1b m ρ c, pre7_b1 m ρ c, pre7_w2 m ρ c, pre7_b2 m ρ c, pre7_ws m ρ c, pre7_bs m ρ c, pre7_wt m ρ c, pre7_bt m ρ c, pre7_sf m ρ c]
  rfl

theorem post7_ss : (W16 m ρ c (Proc.devRef .tc main_v426_1) : S2048x1.Idx → EReal)
    = coupleSum (sOf (Pm m c) (cndm m c) 7 (Zn m c 7)) := by
  refine (W16_arr m ρ c 14).trans ?_
  refine (Cert.KernelIdeal.KRegion7.arr14 (V15 m ρ) c).trans ?_
  rw [pre7_xc m ρ c, pre7_cnd m ρ c, pre7_w1a m ρ c, pre7_w1b m ρ c, pre7_b1 m ρ c, pre7_w2 m ρ c, pre7_b2 m ρ c, pre7_ws m ρ c, pre7_bs m ρ c, pre7_sf m ρ c]
  rfl

theorem keep7_xc : (W16 m ρ c (Proc.devRef .tc main_v398) : S2048x4096.Idx → EReal)
    = cols (par 7) (actnorm 7 (Pm m c).ab (Pm m c).als (Zn m c 7)) :=
  (W16_arr m ρ c 0).trans (((dat7 (V15 m ρ) c).arrAt_in 0 rfl _).trans ((A_eq7 (V15 m ρ) c 0).trans (pre7_xc m ρ c)))

theorem keep7_ld : (W16 m ρ c (Proc.devRef .tc main_v395) : S2048.Idx → EReal)
    = ofFn1 fun t => Ln m c 7 (ix1 t) + ∑ d : Fin 8192, (Pm m c).als (ix2 7 d) :=
  (W16_of_ne m ρ c main_v395 (by decide)).trans (pre7_ld m ρ c)

/-! ## The two results -/

theorem final_z : (W17 m ρ c (Proc.devRef .tc main_v432) : S2048x8192.Idx → EReal) = Zn m c 8 := by
  show StableHlo.after hostOps8 (W16 m ρ c) (Proc.devRef .tc main_v432) = _
  after_results
  rw [keep7_xc m ρ c, post7_yu m ρ c]
  exact (merge_term _ _ _ _ _).trans ((merge_swap _ _).symm.trans rfl)

theorem final_ld : (W17 m ρ c (Proc.devRef .tc main_v428) : S2048.Idx → EReal) = Ln m c 8 := by
  show StableHlo.after hostOps8 (W16 m ρ c) (Proc.devRef .tc main_v428) = _
  after_results
  rw [keep7_ld m ρ c, post7_ss m ρ c]
  exact (add_column _ _ _).trans rfl

end Cert.KernelIdeal.KSide

end
-- ==== Proof.KSide.lean ====
/-
  The idealized kernel program's run, stated against the specification: every weakly fair execution ends with the
  first result at the array after the eight layers, the second at the vector after the eight layers, and the fourteen
  argument arrays as launched.
-/
import proofs.«175835_j29978871726094_1_alg».proof.Proof.KRun
import proofs.«175835_j29978871726094_1_alg».proof.Proof.KStep8

noncomputable section

namespace Cert.KernelIdeal.KSide

open Idealize.ShloMosaic Idealize.ShloMosaic.TcCoe Idealize.SL.Sem
open Cert.KernelIdeal Cert.KernelIdeal.Gen Cert.Flow

theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v432) = Zn m c 8
      ∧ r.2.mem ((c.tc : Thread nD τ).loc main_v428) = Ln m c 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono
    (fun _ h c => ⟨(h c).1.trans (final_z m ρ c), (h c).2.1.trans (final_ld m ρ c), (h c).2.2⟩)
    (Cert.KernelIdeal.KRun.run_results m ρ)

end Cert.KernelIdeal.KSide

end
-- ==== Proof.ROps0.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main's 851, in order, as operations. -/
abbrev ops0 : List (HloOp τ sig (Elt F)) :=
  [ StableHlo.reshape main_arg0 main_v0 rfl shapeCasts_S2048x256x32_S2048x8192,
    StableHlo.nullary main_c (constantI S_ 32 0#32),
    StableHlo.unary main_c main_v1 (broadcastInDim S2048 ![] bcast_S_S2048 : (⟨S_, .i32⟩ : BufTy).Contents (Elt F) → (⟨S2048, .i32⟩ : BufTy).Contents (Elt F)),
    StableHlo.binary main_arg1 main_v1 main_v2 (cmpi .slt : (⟨S2048, .i32⟩ : BufTy).Contents (Elt F) → (⟨S2048, .i32⟩ : BufTy).Contents (Elt F) → (⟨S2048, .i1⟩ : BufTy).Contents (Elt F)),
    StableHlo.nullary main_c_0 (constantI S_ 32 4#32),
    StableHlo.unary main_c_0 main_v3 (broadcastInDim S2048 ![] bcast_S_S2048 : (⟨S_, .i32⟩ : BufTy).Contents (Elt F) → (⟨S2048, .i32⟩ : BufTy).Contents (Elt F)),
    StableHlo.binary main_arg1 main_v3 main_v4 (addi : (⟨S2048, .i32⟩ : BufTy).Contents (Elt F) → (⟨S2048, .i32⟩ : BufTy).Contents (Elt F) → (⟨S2048, .i32⟩ : BufTy).Contents (Elt F)),
    StableHlo.ternary main_v2 main_v4 main_arg1 main_v5 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v5 main_v6 (broadcastInDim S2048x1 ![0] bcast_S2048_S2048x1_0 : (⟨S2048, .i32⟩ : BufTy).Contents (Elt F) → (⟨S2048x1, .i32⟩ : BufTy).Contents (Elt F)),
    StableHlo.binary main_arg2 main_v6 main_v7 ((fun x i => Host.gather gather_S4x1024_S2048x1_S2048x1024_1_0_n_n_0_1_11024 x i) : (⟨S4x1024, .f32⟩ : BufTy).Contents (Elt F) → (⟨S2048x1, .i32⟩ : BufTy).Contents (Elt F) → (⟨S2048x1024, .f32⟩ : BufTy).Contents (Elt F)),
    StableHlo.nullary main_cst (constant S_ .f32 0x00000000#32),
    StableHlo.unary main_cst main_v8 (broadcastInDim S2048 ![] bcast_S_S2048 : (⟨S_, .f32⟩ : BufTy).Contents (Elt F) → (⟨S2048, .f32⟩ : BufTy).Contents (Elt F)),
    StableHlo.nullary main_v9 (iotaInDim S4096 32 0),
    StableHlo.nullary main_c_1 (constantI S_ 32 2#32),
    StableHlo.unary main_c_1 main_v10 (broadcastInDim S4096 ![] bcast_S_S4096 : (⟨S_, .i32⟩ : BufTy).Contents (Elt F) → (⟨S4096, .i32⟩ : BufTy).Contents (Elt F)),
    StableHlo.binary main_v10 main_v9 main_v11 (muli : (⟨S4096, .i32⟩ : BufTy).Contents (Elt F) → (⟨S4096, .i32⟩ : BufTy).Contents (Elt F) → (⟨S4096, .i32⟩ : BufTy).Contents (Elt F)),
    StableHlo.nullary main_c_2 (constantI S_ 32 0#32),
    StableHlo.unary main_c_2 main_v12 (broadcastInDim S4096 ![] bcast_S_S4096 : (⟨S_, .i32⟩ : BufTy).Contents (Elt F) → (⟨S4096, .i32⟩ : BufTy).Contents (Elt F)),
    StableHlo.binary main_v12 main_v11 main_v13 (addi : (⟨S4096, .i32⟩ : BufTy).Contents (Elt F) → (⟨S4096, .i32⟩ : BufTy).Contents (Elt F) → (⟨S4096, .i32⟩ : BufTy).Contents (Elt F)),
    StableHlo.nullary main_v14 (iotaInDim S4096 32 0),
    StableHlo.nullary main_c_3 (constantI S_ 32 2#32),
    StableHlo.unary main_c_3 main_v15 (broadcastInDim S4096 ![] bcast_S_S4096 : (⟨S_, .i32⟩ : BufTy).Contents (Elt F) → (⟨S4096, .i32⟩ : BufTy).Contents (Elt F)),
    StableHlo.binary main_v15 main_v14 main_v16 (muli : (⟨S4096, .i32⟩ : BufTy).Contents (Elt F) → (⟨S4096, .i32⟩ : BufTy).Contents (Elt F) → (⟨S4096, .i32⟩ : BufTy).Contents (Elt F)),
    StableHlo.nullary main_c_4 (constantI S_ 32 1#32),
    StableHlo.unary main_c_4 main_v17 (broadcastInDim S4096 ![] bcast_S_S4096 : (⟨S_, .i32⟩ : BufTy).Contents (Elt F) → (⟨S4096, .i32⟩ : BufTy).Contents (Elt F)),
    StableHlo.binary main_v17 main_v16 main_v18 (addi : (⟨S4096, .i32⟩ : BufTy).Contents (Elt F) → (⟨S4096, .i32⟩ : BufTy).Contents (Elt F) → (⟨S4096, .i32⟩ : BufTy).Contents (Elt F)),
    StableHlo.unary main_arg4 main_v19 ((extractStridedSlice S1x8192 ![0, 0] · slices_S8x8192_S1x8192_0_0) : (⟨S8x8192, .f32⟩ : BufTy).Contents (Elt F) → (⟨S1x8192, .f32⟩ : BufTy).Contents (Elt F)),
    StableHlo.reshape main_v19 main_v20 rfl shapeCasts_S1x8192_S8192,
    StableHlo.unary main_v20 main_v21 (broadcastInDim S1x8192 ![1] bcast_S8192_S1x8192_1 : (⟨S8192, .f32⟩ : BufTy).Contents (Elt F) → (⟨S1x8192, .f32⟩ : BufTy).Contents (Elt F)),
    StableHlo.unary main_v21 main_v22 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v0 main_v22 main_v23 (addf : (⟨S2048x8192, .f32⟩ : BufTy).Contents (Elt F) → (⟨S2048x8192, .f32⟩ : BufTy).Contents (Elt F) → (⟨S2048x8192, .f32⟩ : BufTy).Contents (Elt F)),
    StableHlo.unary main_arg3 main_v24 ((extractStridedSlice S1x8192 ![0, 0] · slices_S8x8192_S1x8192_0_0) : (⟨S8x8192, .f32⟩ : BufTy).Contents (Elt F) → (⟨S1x8192, .f32⟩ : BufTy).Contents (Elt F)),
    StableHlo.reshape main_v24 main_v25 rfl shapeCasts_S1x8192_S8192,
    StableHlo.unary main_v25 main_v26 (Host.exp : (⟨S8192, .f32⟩ : BufTy).Contents (Elt F) → (⟨S8192, .f32⟩ : BufTy).Contents (Elt F)),
    StableHlo.unary main_v26 main_v27 (broadcastInDim S1x8192 ![1] bcast_S8192_S1x8192_1 : (⟨S8192, .f32⟩ : BufTy).Contents (Elt F) → (⟨S1x8192, .f32⟩ : BufTy).Contents (Elt F)),
    StableHlo.unary main_v27 main_v28 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v23 main_v28 main_v29 (mulf : (⟨S2048x8192, .f32⟩ : BufTy).Contents (Elt F) → (⟨S2048x8192, .f32⟩ : BufTy).Contents (Elt F) → (⟨S2048x8192, .f32⟩ : BufTy).Contents (Elt F)),
    StableHlo.unary main_arg3 main_v30 ((extractStridedSlice S1x8192 ![0, 0] · slices_S8x8192_S1x8192_0_0) : (⟨S8x8192, .f32⟩ : BufTy).Contents (Elt F) → (⟨S1x8192, .f32⟩ : BufTy).Contents (Elt F)),
    StableHlo.reshape main_v30 main_v31 rfl shapeCasts_S1x8192_S8192,
    StableHlo.nullary main_cst_5 (constant S_ .f32 0x00000000#32),
    StableHlo.binary main_v31 main_cst_5 main_v32 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v32 main_v33 (broadcastInDim S2048 ![] bcast_S_S2048 : (⟨S_, .f32⟩ : BufTy).Contents (Elt F) → (⟨S2048, .f32⟩ : BufTy).Contents (Elt F)),
    StableHlo.binary main_v8 main_v33 main_v34 (addf : (⟨S2048, .f32⟩ : BufTy).Contents (Elt F) → (⟨S2048, .f32⟩ : BufTy).Contents (Elt F) → (⟨S2048, .f32⟩ : BufTy).Contents (Elt F)),
    StableHlo.nullary main_c_6 (constantI S_ 32 0#32),
    StableHlo.unary main_c_6 main_v35 (broadcastInDim S4096 ![] bcast_S_S4096 : (⟨S_, .i32⟩ : BufTy).Contents (Elt F) → (⟨S4096, .i32⟩ : BufTy).Contents (Elt F)),
    StableHlo.binary main_v13 main_v35 main_v36 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 8192#32),
    StableHlo.unary main_c_7 main_v37 (broadcastInDim S4096 ![] bcast_S_S4096 : (⟨S_, .i32⟩ : BufTy).Contents (Elt F) → (⟨S4096, .i32⟩ : BufTy).Contents (Elt F)),
    StableHlo.binary main_v13 main_v37 main_v38 (addi : (⟨S4096, .i32⟩ : BufTy).Contents (Elt F) → (⟨S4096, .i32⟩ : BufTy).Contents (Elt F) → (⟨S4096, .i32⟩ : BufTy).Contents (Elt F)),
    StableHlo.ternary main_v36 main_v38 main_v13 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v39 main_v40 (broadcastInDim S4096x1 ![0] bcast_S4096_S4096x1_0 : (⟨S4096, .i32⟩ : BufTy).Contents (Elt F) → (⟨S4096x1, .i32⟩ : BufTy).Contents (Elt F)),
    StableHlo.binary main_v29 main_v40 main_v41 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.nullary main_c_8 (constantI S_ 32 0#32),
    StableHlo.unary main_c_8 main_v42 (broadcastInDim S4096 ![] bcast_S_S4096 : (⟨S_, .i32⟩ : BufTy).Contents (Elt F) → (⟨S4096, .i32⟩ : BufTy).Contents (Elt F)),
    StableHlo.binary main_v18 main_v42 main_v43 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 8192#32),
    StableHlo.unary main_c_9 main_v44 (broadcastInDim S4096 ![] bcast_S_S4096 : (⟨S_, .i32⟩ : BufTy).Contents (Elt F) → (⟨S4096, .i32⟩ : BufTy).Contents (Elt F)),
    StableHlo.binary main_v18 main_v44 main_v45 (addi : (⟨S4096, .i32⟩ : BufTy).Contents (Elt F) → (⟨S4096, .i32⟩ : BufTy).Contents (Elt F) → (⟨S4096, .i32⟩ : BufTy).Contents (Elt F)),
    StableHlo.ternary main_v43 main_v45 main_v18 main_v46 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v46 main_v47 (broadcastInDim S4096x1 ![0] bcast_S4096_S4096x1_0 : (⟨S4096, .i32⟩ : BufTy).Contents (Elt F) → (⟨S4096x1, .i32⟩ : BufTy).Contents (Elt F)) ]

set_option maxRecDepth 8192 in
theorem part0_eq (c : Dev nD) : main_part0 (F := F) c = seq ops0 := rfl

set_option maxRecDepth 8192 in
theorem ops0_sub : (ops0 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., nullary_bufs_sub .., unary_bufs_sub .., binary_bufs_sub .., nullary_bufs_sub .., unary_bufs_sub .., binary_bufs_sub .., nullary_bufs_sub .., nullary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

/-- No operation of the window leaves a result undetermined. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops0_W : List (Ref sig .tc) := [main_v0, main_c, main_v1, main_v2, main_c_0, main_v3, main_v4, main_v5, main_v6, main_v7, main_cst, main_v8, main_v9, main_c_1, main_v10, main_v11, main_c_2, main_v12, main_v13, main_v14, main_c_3, main_v15, main_v16, main_c_4, main_v17, main_v18, main_v19, main_v20, main_v21, main_v22, main_v23, main_v24, main_v25, main_v26, main_v27, main_v28, main_v29, main_v30, main_v31, main_cst_5, main_v32, main_v33, main_v34, main_c_6, main_v35, main_v36, main_c_7, main_v37, main_v38, main_v39, main_v40, main_v41, main_c_8, main_v42, main_v43, main_c_9, main_v44, main_v45, main_v46, main_v47]

set_option maxRecDepth 8192 in
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps1.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 61 … 120 of @main's 851, in order, as operations; each of the 2 calls of @leaky_relu is the seven operations of its body (the last the select of the @_where it calls) at the buffers of the call's record. -/
abbrev ops1 : List (HloOp τ sig (Elt F)) :=
  [ StableHlo.binary main_v29 main_v47 main_v48 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.binary main_v41 main_v7 main_v49 ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)),
    StableHlo.unary main_arg5 main_v50 ((extractStridedSlice S1x5120x1024 ![0, 0, 0] · slices_S8x5120x1024_S1x5120x1024_0_0_0) : (⟨S8x5120x1024, .f32⟩ : BufTy).Contents (Elt F) → (⟨S1x5120x1024, .f32⟩ : BufTy).Contents (Elt F)),
    StableHlo.reshape main_v50 main_v51 rfl shapeCasts_S1x5120x1024_S5120x1024,
    StableHlo.binary main_v49 main_v51 main_v52 ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)),
    StableHlo.unary main_arg6 main_v53 ((extractStridedSlice S1x1024 ![0, 0] · slices_S8x1024_S1x1024_0_0) : (⟨S8x1024, .f32⟩ : BufTy).Contents (Elt F) → (⟨S1x1024, .f32⟩ : BufTy).Contents (Elt F)),
    StableHlo.reshape main_v53 main_v54 rfl shapeCasts_S1x1024_S1024,
    StableHlo.unary main_v54 main_v55 (broadcastInDim S1x1024 ![1] bcast_S1024_S1x1024_1 : (⟨S1024, .f32⟩ : BufTy).Contents (Elt F) → (⟨S1x1024, .f32⟩ : BufTy).Contents (Elt F)),
    StableHlo.unary main_v55 main_v56 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v52 main_v56 main_v57 (addf : (⟨S2048x1024, .f32⟩ : BufTy).Contents (Elt F) → (⟨S2048x1024, .f32⟩ : BufTy).Contents (Elt F) → (⟨S2048x1024, .f32⟩ : BufTy).Contents (Elt F)),
    StableHlo.nullary main_cst_10 (constant S_ .f32 0x3E4CCCCD#32),
    StableHlo.nullary main_call0_cst (constant S_ .f32 0x00000000#32),
    StableHlo.unary main_call0_cst main_call0_v0 (broadcastInDim S2048x1024 ![] bcast_S_S2048x1024 : (⟨S_, .f32⟩ : BufTy).Contents (Elt F) → (⟨S2048x1024, .f32⟩ : BufTy).Contents (Elt F)),
    StableHlo.binary main_v57 main_call0_v0 main_call0_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_10 main_call0_v2 (id : (⟨S_, .f32⟩ : BufTy).Contents (Elt F) → (⟨S_, .f32⟩ : BufTy).Contents (Elt F)),
    StableHlo.unary main_call0_v2 main_call0_v3 (broadcastInDim S2048x1024 ![] bcast_S_S2048x1024 : (⟨S_, .f32⟩ : BufTy).Contents (Elt F) → (⟨S2048x1024, .f32⟩ : BufTy).Contents (Elt F)),
    StableHlo.binary main_call0_v3 main_v57 main_call0_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call0_v1 main_v57 main_call0_v4 main_v58 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg7 main_v59 ((extractStridedSlice S1x1024x1024 ![0, 0, 0] · slices_S8x1024x1024_S1x1024x1024_0_0_0) : (⟨S8x1024x1024, .f32⟩ : BufTy).Contents (Elt F) → (⟨S1x1024x1024, .f32⟩ : BufTy).Contents (Elt F)),
    StableHlo.reshape main_v59 main_v60 rfl shapeCasts_S1x1024x1024_S1024x1024,
    StableHlo.binary main_v58 main_v60 main_v61 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg8 main_v62 ((extractStridedSlice S1x1024 ![0, 0] · slices_S8x1024_S1x1024_0_0) : (⟨S8x1024, .f32⟩ : BufTy).Contents (Elt F) → (⟨S1x1024, .f32⟩ : BufTy).Contents (Elt F)),
    StableHlo.reshape main_v62 main_v63 rfl shapeCasts_S1x1024_S1024,
    StableHlo.unary main_v63 main_v64 (broadcastInDim S1x1024 ![1] bcast_S1024_S1x1024_1 : (⟨S1024, .f32⟩ : BufTy).Contents (Elt F) → (⟨S1x1024, .f32⟩ : BufTy).Contents (Elt F)),
    StableHlo.unary main_v64 main_v65 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v61 main_v65 main_v66 (addf : (⟨S2048x1024, .f32⟩ : BufTy).Contents (Elt F) → (⟨S2048x1024, .f32⟩ : BufTy).Contents (Elt F) → (⟨S2048x1024, .f32⟩ : BufTy).Contents (Elt F)),
    StableHlo.nullary main_cst_11 (constant S_ .f32 0x3E4CCCCD#32),
    StableHlo.nullary main_call1_cst (constant S_ .f32 0x00000000#32),
    StableHlo.unary main_call1_cst main_call1_v0 (broadcastInDim S2048x1024 ![] bcast_S_S2048x1024 : (⟨S_, .f32⟩ : BufTy).Contents (Elt F) → (⟨S2048x1024, .f32⟩ : BufTy).Contents (Elt F)),
    StableHlo.binary main_v66 main_call1_v0 main_call1_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_11 main_call1_v2 (id : (⟨S_, .f32⟩ : BufTy).Contents (Elt F) → (⟨S_, .f32⟩ : BufTy).Contents (Elt F)),
    StableHlo.unary main_call1_v2 main_call1_v3 (broadcastInDim S2048x1024 ![] bcast_S_S2048x1024 : (⟨S_, .f32⟩ : BufTy).Contents (Elt F) → (⟨S2048x1024, .f32⟩ : BufTy).Contents (Elt F)),
    StableHlo.binary main_call1_v3 main_v66 main_call1_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call1_v1 main_v66 main_call1_v4 main_v67 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg9 main_v68 ((extractStridedSlice S1x1024x4096 ![0, 0, 0] · slices_S8x1024x4096_S1x1024x4096_0_0_0) : (⟨S8x1024x4096, .f32⟩ : BufTy).Contents (Elt F) → (⟨S1x1024x4096, .f32⟩ : BufTy).Contents (Elt F)),
    StableHlo.reshape main_v68 main_v69 rfl shapeCasts_S1x1024x4096_S1024x4096,
    StableHlo.binary main_v67 main_v69 main_v70 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg10 main_v71 ((extractStridedSlice S1x4096 ![0, 0] · slices_S8x4096_S1x4096_0_0) : (⟨S8x4096, .f32⟩ : BufTy).Contents (Elt F) → (⟨S1x4096, .f32⟩ : BufTy).Contents (Elt F)),
    StableHlo.reshape main_v71 main_v72 rfl shapeCasts_S1x4096_S4096,
    StableHlo.unary main_v72 main_v73 (broadcastInDim S1x4096 ![1] bcast_S4096_S1x4096_1 : (⟨S4096, .f32⟩ : BufTy).Contents (Elt F) → (⟨S1x4096, .f32⟩ : BufTy).Contents (Elt F)),
    StableHlo.unary main_v73 main_v74 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v70 main_v74 main_v75 (addf : (⟨S2048x4096, .f32⟩ : BufTy).Contents (Elt F) → (⟨S2048x4096, .f32⟩ : BufTy).Contents (Elt F) → (⟨S2048x4096, .f32⟩ : BufTy).Contents (Elt F)),
    StableHlo.unary main_v75 main_v76 (Host.tanh : (⟨S2048x4096, .f32⟩ : BufTy).Contents (Elt F) → (⟨S2048x4096, .f32⟩ : BufTy).Contents (Elt F)),
    StableHlo.unary main_arg13 main_v77 ((extractStridedSlice S1 ![0] · slices_S8_S1_0) : (⟨S8, .f32⟩ : BufTy).Contents (Elt F) → (⟨S1, .f32⟩ : BufTy).Contents (Elt F)),
    StableHlo.reshape main_v77 main_v78 rfl shapeCasts_S1_S_,
    StableHlo.unary main_v78 main_v79 (broadcastInDim S2048x4096 ![] bcast_S_S2048x4096 : (⟨S_, .f32⟩ : BufTy).Contents (Elt F) → (⟨S2048x4096, .f32⟩ : BufTy).Contents (Elt F)),
    StableHlo.binary main_v76 main_v79 main_v80 (mulf : (⟨S2048x4096, .f32⟩ : BufTy).Contents (Elt F) → (⟨S2048x4096, .f32⟩ : BufTy).Contents (Elt F) → (⟨S2048x4096, .f32⟩ : BufTy).Contents (Elt F)),
    StableHlo.unary main_arg11 main_v81 ((extractStridedSlice S1x1024x4096 ![0, 0, 0] · slices_S8x1024x4096_S1x1024x4096_0_0_0) : (⟨S8x1024x4096, .f32⟩ : BufTy).Contents (Elt F) → (⟨S1x1024x4096, .f32⟩ : BufTy).Contents (Elt F)),
    StableHlo.reshape main_v81 main_v82 rfl shapeCasts_S1x1024x4096_S1024x4096,
    StableHlo.binary main_v67 main_v82 main_v83 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg12 main_v84 ((extractStridedSlice S1x4096 ![0, 0] · slices_S8x4096_S1x4096_0_0) : (⟨S8x4096, .f32⟩ : BufTy).Contents (Elt F) → (⟨S1x4096, .f32⟩ : BufTy).Contents (Elt F)),
    StableHlo.reshape main_v84 main_v85 rfl shapeCasts_S1x4096_S4096,
    StableHlo.unary main_v85 main_v86 (broadcastInDim S1x4096 ![1] bcast_S4096_S1x4096_1 : (⟨S4096, .f32⟩ : BufTy).Contents (Elt F) → (⟨S1x4096, .f32⟩ : BufTy).Contents (Elt F)),
    StableHlo.unary main_v86 main_v87 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v83 main_v87 main_v88 (addf : (⟨S2048x4096, .f32⟩ : BufTy).Contents (Elt F) → (⟨S2048x4096, .f32⟩ : BufTy).Contents (Elt F) → (⟨S2048x4096, .f32⟩ : BufTy).Contents (Elt F)),
    StableHlo.unary main_v80 main_v89 (Host.exp : (⟨S2048x4096, .f32⟩ : BufTy).Contents (Elt F) → (⟨S2048x4096, .f32⟩ : BufTy).Contents (Elt F)),
    StableHlo.binary main_v48 main_v89 main_v90 (mulf : (⟨S2048x4096, .f32⟩ : BufTy).Contents (Elt F) → (⟨S2048x4096, .f32⟩ : BufTy).Contents (Elt F) → (⟨S2048x4096, .f32⟩ : BufTy).Contents (Elt F)),
    StableHlo.binary main_v90 main_v88 main_v91 (addf : (⟨S2048x4096, .f32⟩ : BufTy).Contents (Elt F) → (⟨S2048x4096, .f32⟩ : BufTy).Contents (Elt F) → (⟨S2048x4096, .f32⟩ : BufTy).Contents (Elt F)),
    StableHlo.nullary main_cst_12 (constant S_ .f32 0x00000000#32),
    StableHlo.unary main_cst_12 main_v92 (broadcastInDim S2048x8192 ![] bcast_S_S2048x8192 : (⟨S_, .f32⟩ : BufTy).Contents (Elt F) → (⟨S2048x8192, .f32⟩ : BufTy).Contents (Elt F)),
    StableHlo.nullary main_c_13 (constantI S_ 32 0#32),
    StableHlo.unary main_c_13 main_v93 (broadcastInDim S4096 ![] bcast_S_S4096 : (⟨S_, .i32⟩ : BufTy).Contents (Elt F) → (⟨S4096, .i32⟩ : BufTy).Contents (Elt F)),
    StableHlo.binary main_v13 main_v93 main_v94 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 8192#32),
    StableHlo.unary main_c_14 main_v95 (broadcastInDim S4096 ![] bcast_S_S4096 : (⟨S_, .i32⟩ : BufTy).Contents (Elt F) → (⟨S4096, .i32⟩ : BufTy).Contents (Elt F)),
    StableHlo.binary main_v13 main_v95 main_v96 (addi : (⟨S4096, .i32⟩ : BufTy).Contents (Elt F) → (⟨S4096, .i32⟩ : BufTy).Contents (Elt F) → (⟨S4096, .i32⟩ : BufTy).Contents (Elt F)),
    StableHlo.ternary main_v94 main_v96 main_v13 main_v97 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v97 main_v98 (broadcastInDim S4096x1 ![0] bcast_S4096_S4096x1_0 : (⟨S4096, .i32⟩ : BufTy).Contents (Elt F) → (⟨S4096x1, .i32⟩ : BufTy).Contents (Elt F)),
    StableHlo.ternary main_v92 main_v98 main_v41 main_v99 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_c_15 (constantI S_ 32 0#32),
    StableHlo.unary main_c_15 main_v100 (broadcastInDim S4096 ![] bcast_S_S4096 : (⟨S_, .i32⟩ : BufTy).Contents (Elt F) → (⟨S4096, .i32⟩ : BufTy).Contents (Elt F)),
    StableHlo.binary main_v18 main_v100 main_v101 (cmpi .slt : (⟨S4096, .i32⟩ : BufTy).Contents (Elt F) → (⟨S4096, .i32⟩ : BufTy).Contents (Elt F) → (⟨S4096, .i1⟩ : BufTy).Contents (Elt F)) ]

set_option maxRecDepth 8192 in
theorem part1_eq (c : Dev nD) : main_part1 (F := F) c = seq ops1 := by
  simp only [main_part1, fn_leaky_relu.body, fn_where.body, seq, bind_assoc, pure_bind]
  rfl

set_option maxRecDepth 8192 in
theorem ops1_sub : (ops1 : List (HloOp τ sig (Elt F))).Forall fun op => op.bufs ⊆ tcRefs τ sig :=
  ⟨binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub ..⟩

/-- No operation of the window leaves a result undetermined. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops1_W : List (Ref sig .tc) := [main_v48, main_v49, main_v50, main_v51, main_v52, main_v53, main_v54, main_v55, main_v56, main_v57, main_cst_10, main_call0_cst, main_call0_v0, main_call0_v1, main_call0_v2, main_call0_v3, main_call0_v4, main_v58, main_v59, main_v60, main_v61, main_v62, main_v63, main_v64, main_v65, main_v66, main_cst_11, main_call1_cst, main_call1_v0, main_call1_v1, main_call1_v2, main_call1_v3, main_call1_v4, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_cst_12, main_v92, main_c_13, main_v93, main_v94, main_c_14, main_v95, main_v96, main_v97, main_v98, main_v99, main_c_15, main_v100, main_v101]

set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps2.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 121 … 180 of @main's 851, in order, as operations; each of the 1 calls of @leaky_relu is the seven operations of its body (the last the select of the @_where it calls) at the buffers of the call's record. -/
abbrev ops2 : List (HloOp τ sig (Elt F)) :=
  [ StableHlo.nullary main_c_16 (constantI S_ 32 8192#32),
    StableHlo.unary main_c_16 main_v102 (broadcastInDim S4096 ![] bcast_S_S4096 : (⟨S_, .i32⟩ : BufTy).Contents (Elt F) → (⟨S4096, .i32⟩ : BufTy).Contents (Elt F)),
    StableHlo.binary main_v18 main_v102 main_v103 (addi : (⟨S4096, .i32⟩ : BufTy).Contents (Elt F) → (⟨S4096, .i32⟩ : BufTy).Contents (Elt F) → (⟨S4096, .i32⟩ : BufTy).Contents (Elt F)),
    StableHlo.ternary main_v101 main_v103 main_v18 main_v104 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v104 main_v105 (broadcastInDim S4096x1 ![0] bcast_S4096_S4096x1_0 : (⟨S4096, .i32⟩ : BufTy).Contents (Elt F) → (⟨S4096x1, .i32⟩ : BufTy).Contents (Elt F)),
    StableHlo.ternary main_v99 main_v105 main_v91 main_v106 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_cst_17 (constant S_ .f32 0x00000000#32),
    StableHlo.binary main_v80 main_cst_17 main_v107 ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    StableHlo.binary main_v34 main_v107 main_v108 (addf : (⟨S2048, .f32⟩ : BufTy).Contents (Elt F) → (⟨S2048, .f32⟩ : BufTy).Contents (Elt F) → (⟨S2048, .f32⟩ : BufTy).Contents (Elt F)),
    StableHlo.unary main_arg4 main_v109 ((extractStridedSlice S1x8192 ![1, 0] · slices_S8x8192_S1x8192_1_0) : (⟨S8x8192, .f32⟩ : BufTy).Contents (Elt F) → (⟨S1x8192, .f32⟩ : BufTy).Contents (Elt F)),
    StableHlo.reshape main_v109 main_v110 rfl shapeCasts_S1x8192_S8192,
    StableHlo.unary main_v110 main_v111 (broadcastInDim S1x8192 ![1] bcast_S8192_S1x8192_1 : (⟨S8192, .f32⟩ : BufTy).Contents (Elt F) → (⟨S1x8192, .f32⟩ : BufTy).Contents (Elt F)),
    StableHlo.unary main_v111 main_v112 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v106 main_v112 main_v113 (addf : (⟨S2048x8192, .f32⟩ : BufTy).Contents (Elt F) → (⟨S2048x8192, .f32⟩ : BufTy).Contents (Elt F) → (⟨S2048x8192, .f32⟩ : BufTy).Contents (Elt F)),
    StableHlo.unary main_arg3 main_v114 ((extractStridedSlice S1x8192 ![1, 0] · slices_S8x8192_S1x8192_1_0) : (⟨S8x8192, .f32⟩ : BufTy).Contents (Elt F) → (⟨S1x8192, .f32⟩ : BufTy).Contents (Elt F)),
    StableHlo.reshape main_v114 main_v115 rfl shapeCasts_S1x8192_S8192,
    StableHlo.unary main_v115 main_v116 (Host.exp : (⟨S8192, .f32⟩ : BufTy).Contents (Elt F) → (⟨S8192, .f32⟩ : BufTy).Contents (Elt F)),
    StableHlo.unary main_v116 main_v117 (broadcastInDim S1x8192 ![1] bcast_S8192_S1x8192_1 : (⟨S8192, .f32⟩ : BufTy).Contents (Elt F) → (⟨S1x8192, .f32⟩ : BufTy).Contents (Elt F)),
    StableHlo.unary main_v117 main_v118 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v113 main_v118 main_v119 (mulf : (⟨S2048x8192, .f32⟩ : BufTy).Contents (Elt F) → (⟨S2048x8192, .f32⟩ : BufTy).Contents (Elt F) → (⟨S2048x8192, .f32⟩ : BufTy).Contents (Elt F)),
    StableHlo.unary main_arg3 main_v120 ((extractStridedSlice S1x8192 ![1, 0] · slices_S8x8192_S1x8192_1_0) : (⟨S8x8192, .f32⟩ : BufTy).Contents (Elt F) → (⟨S1x8192, .f32⟩ : BufTy).Contents (Elt F)),
    StableHlo.reshape main_v120 main_v121 rfl shapeCasts_S1x8192_S8192,
    StableHlo.nullary main_cst_18 (constant S_ .f32 0x00000000#32),
    StableHlo.binary main_v121 main_cst_18 main_v122 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v122 main_v123 (broadcastInDim S2048 ![] bcast_S_S2048 : (⟨S_, .f32⟩ : BufTy).Contents (Elt F) → (⟨S2048, .f32⟩ : BufTy).Contents (Elt F)),
    StableHlo.binary main_v108 main_v123 main_v124 (addf : (⟨S2048, .f32⟩ : BufTy).Contents (Elt F) → (⟨S2048, .f32⟩ : BufTy).Contents (Elt F) → (⟨S2048, .f32⟩ : BufTy).Contents (Elt F)),
    StableHlo.nullary main_c_19 (constantI S_ 32 0#32),
    StableHlo.unary main_c_19 main_v125 (broadcastInDim S4096 ![] bcast_S_S4096 : (⟨S_, .i32⟩ : BufTy).Contents (Elt F) → (⟨S4096, .i32⟩ : BufTy).Contents (Elt F)),
    StableHlo.binary main_v18 main_v125 main_v126 (cmpi .slt : (⟨S4096, .i32⟩ : BufTy).Contents (Elt F) → (⟨S4096, .i32⟩ : BufTy).Contents (Elt F) → (⟨S4096, .i1⟩ : BufTy).Contents (Elt F)),
    StableHlo.nullary main_c_20 (constantI S_ 32 8192#32),
    StableHlo.unary main_c_20 main_v127 (broadcastInDim S4096 ![] bcast_S_S4096 : (⟨S_, .i32⟩ : BufTy).Contents (Elt F) → (⟨S4096, .i32⟩ : BufTy).Contents (Elt F)),
    StableHlo.binary main_v18 main_v127 main_v128 (addi : (⟨S4096, .i32⟩ : BufTy).Contents (Elt F) → (⟨S4096, .i32⟩ : BufTy).Contents (Elt F) → (⟨S4096, .i32⟩ : BufTy).Contents (Elt F)),
    StableHlo.ternary main_v126 main_v128 main_v18 main_v129 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v129 main_v130 (broadcastInDim S4096x1 ![0] bcast_S4096_S4096x1_0 : (⟨S4096, .i32⟩ : BufTy).Contents (Elt F) → (⟨S4096x1, .i32⟩ : BufTy).Contents (Elt F)),
    StableHlo.binary main_v119 main_v130 main_v131 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.nullary main_c_21 (constantI S_ 32 0#32),
    StableHlo.unary main_c_21 main_v132 (broadcastInDim S4096 ![] bcast_S_S4096 : (⟨S_, .i32⟩ : BufTy).Contents (Elt F) → (⟨S4096, .i32⟩ : BufTy).Contents (Elt F)),
    StableHlo.binary main_v13 main_v132 main_v133 (cmpi .slt : (⟨S4096, .i32⟩ : BufTy).Contents (Elt F) → (⟨S4096, .i32⟩ : BufTy).Contents (Elt F) → (⟨S4096, .i1⟩ : BufTy).Contents (Elt F)),
    StableHlo.nullary main_c_22 (constantI S_ 32 8192#32),
    StableHlo.unary main_c_22 main_v134 (broadcastInDim S4096 ![] bcast_S_S4096 : (⟨S_, .i32⟩ : BufTy).Contents (Elt F) → (⟨S4096, .i32⟩ : BufTy).Contents (Elt F)),
    StableHlo.binary main_v13 main_v134 main_v135 (addi : (⟨S4096, .i32⟩ : BufTy).Contents (Elt F) → (⟨S4096, .i32⟩ : BufTy).Contents (Elt F) → (⟨S4096, .i32⟩ : BufTy).Contents (Elt F)),
    StableHlo.ternary main_v133 main_v135 main_v13 main_v136 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v136 main_v137 (broadcastInDim S4096x1 ![0] bcast_S4096_S4096x1_0 : (⟨S4096, .i32⟩ : BufTy).Contents (Elt F) → (⟨S4096x1, .i32⟩ : BufTy).Contents (Elt F)),
    StableHlo.binary main_v119 main_v137 main_v138 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.binary main_v131 main_v7 main_v139 ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)),
    StableHlo.unary main_arg5 main_v140 ((extractStridedSlice S1x5120x1024 ![1, 0, 0] · slices_S8x5120x1024_S1x5120x1024_1_0_0) : (⟨S8x5120x1024, .f32⟩ : BufTy).Contents (Elt F) → (⟨S1x5120x1024, .f32⟩ : BufTy).Contents (Elt F)),
    StableHlo.reshape main_v140 main_v141 rfl shapeCasts_S1x5120x1024_S5120x1024,
    StableHlo.binary main_v139 main_v141 main_v142 ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)),
    StableHlo.unary main_arg6 main_v143 ((extractStridedSlice S1x1024 ![1, 0] · slices_S8x1024_S1x1024_1_0) : (⟨S8x1024, .f32⟩ : BufTy).Contents (Elt F) → (⟨S1x1024, .f32⟩ : BufTy).Contents (Elt F)),
    StableHlo.reshape main_v143 main_v144 rfl shapeCasts_S1x1024_S1024,
    StableHlo.unary main_v144 main_v145 (broadcastInDim S1x1024 ![1] bcast_S1024_S1x1024_1 : (⟨S1024, .f32⟩ : BufTy).Contents (Elt F) → (⟨S1x1024, .f32⟩ : BufTy).Contents (Elt F)),
    StableHlo.unary main_v145 main_v146 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v142 main_v146 main_v147 (addf : (⟨S2048x1024, .f32⟩ : BufTy).Contents (Elt F) → (⟨S2048x1024, .f32⟩ : BufTy).Contents (Elt F) → (⟨S2048x1024, .f32⟩ : BufTy).Contents (Elt F)),
    StableHlo.nullary main_cst_23 (constant S_ .f32 0x3E4CCCCD#32),
    StableHlo.nullary main_call2_cst (constant S_ .f32 0x00000000#32),
    StableHlo.unary main_call2_cst main_call2_v0 (broadcastInDim S2048x1024 ![] bcast_S_S2048x1024 : (⟨S_, .f32⟩ : BufTy).Contents (Elt F) → (⟨S2048x1024, .f32⟩ : BufTy).Contents (Elt F)),
    StableHlo.binary main_v147 main_call2_v0 main_call2_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_23 main_call2_v2 (id : (⟨S_, .f32⟩ : BufTy).Contents (Elt F) → (⟨S_, .f32⟩ : BufTy).Contents (Elt F)),
    StableHlo.unary main_call2_v2 main_call2_v3 (broadcastInDim S2048x1024 ![] bcast_S_S2048x1024 : (⟨S_, .f32⟩ : BufTy).Contents (Elt F) → (⟨S2048x1024, .f32⟩ : BufTy).Contents (Elt F)),
    StableHlo.binary main_call2_v3 main_v147 main_call2_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call2_v1 main_v147 main_call2_v4 main_v148 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg7 main_v149 ((extractStridedSlice S1x1024x1024 ![1, 0, 0] · slices_S8x1024x1024_S1x1024x1024_1_0_0) : (⟨S8x1024x1024, .f32⟩ : BufTy).Contents (Elt F) → (⟨S1x1024x1024, .f32⟩ : BufTy).Contents (Elt F)),
    StableHlo.reshape main_v149 main_v150 rfl shapeCasts_S1x1024x1024_S1024x1024,
    StableHlo.binary main_v148 main_v150 main_v151 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg8 main_v152 ((extractStridedSlice S1x1024 ![1, 0] · slices_S8x1024_S1x1024_1_0) : (⟨S8x1024, .f32⟩ : BufTy).Contents (Elt F) → (⟨S1x1024, .f32⟩ : BufTy).Contents (Elt F)),
    StableHlo.reshape main_v152 main_v153 rfl shapeCasts_S1x1024_S1024 ]

set_option maxRecDepth 8192 in
theorem part2_eq (c : Dev nD) : main_part2 (F := F) c = seq ops2 := by
  simp only [main_part2, fn_leaky_relu.body, fn_where.body, seq, bind_assoc, pure_bind]
  rfl

set_option maxRecDepth 8192 in
theorem ops2_sub : (ops2 : List (HloOp τ sig (Elt F))).Forall fun op => op.bufs ⊆ tcRefs τ sig :=
  ⟨nullary_bufs_sub .., unary_bufs_sub .., binary_bufs_sub .., ternary_bufs_sub .., unary_bufs_sub .., ternary_bufs_sub .., nullary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub ..⟩

/-- No operation of the window leaves a result undetermined. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops2_W : List (Ref sig .tc) := [main_c_16, main_v102, main_v103, main_v104, main_v105, main_v106, main_cst_17, main_v107, main_v108, main_v109, main_v110, main_v111, main_v112, main_v113, main_v114, main_v115, main_v116, main_v117, main_v118, main_v119, main_v120, main_v121, main_cst_18, main_v122, main_v123, main_v124, main_c_19, main_v125, main_v126, main_c_20, main_v127, main_v128, main_v129, main_v130, main_v131, main_c_21, main_v132, main_v133, main_c_22, main_v134, main_v135, main_v136, main_v137, main_v138, main_v139, main_v140, main_v141, main_v142, main_v143, main_v144, main_v145, main_v146, main_v147, main_cst_23, main_call2_cst, main_call2_v0, main_call2_v1, main_call2_v2, main_call2_v3, main_call2_v4, main_v148, main_v149, main_v150, main_v151, main_v152, main_v153]

set_option maxRecDepth 8192 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps3.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 181 … 240 of @main's 851, in order, as operations; each of the 1 calls of @leaky_relu is the seven operations of its body (the last the select of the @_where it calls) at the buffers of the call's record. -/
abbrev ops3 : List (HloOp τ sig (Elt F)) :=
  [ StableHlo.unary main_v153 main_v154 (broadcastInDim S1x1024 ![1] bcast_S1024_S1x1024_1 : (⟨S1024, .f32⟩ : BufTy).Contents (Elt F) → (⟨S1x1024, .f32⟩ : BufTy).Contents (Elt F)),
    StableHlo.unary main_v154 main_v155 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v151 main_v155 main_v156 (addf : (⟨S2048x1024, .f32⟩ : BufTy).Contents (Elt F) → (⟨S2048x1024, .f32⟩ : BufTy).Contents (Elt F) → (⟨S2048x1024, .f32⟩ : BufTy).Contents (Elt F)),
    StableHlo.nullary main_cst_24 (constant S_ .f32 0x3E4CCCCD#32),
    StableHlo.nullary main_call3_cst (constant S_ .f32 0x00000000#32),
    StableHlo.unary main_call3_cst main_call3_v0 (broadcastInDim S2048x1024 ![] bcast_S_S2048x1024 : (⟨S_, .f32⟩ : BufTy).Contents (Elt F) → (⟨S2048x1024, .f32⟩ : BufTy).Contents (Elt F)),
    StableHlo.binary main_v156 main_call3_v0 main_call3_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_24 main_call3_v2 (id : (⟨S_, .f32⟩ : BufTy).Contents (Elt F) → (⟨S_, .f32⟩ : BufTy).Contents (Elt F)),
    StableHlo.unary main_call3_v2 main_call3_v3 (broadcastInDim S2048x1024 ![] bcast_S_S2048x1024 : (⟨S_, .f32⟩ : BufTy).Contents (Elt F) → (⟨S2048x1024, .f32⟩ : BufTy).Contents (Elt F)),
    StableHlo.binary main_call3_v3 main_v156 main_call3_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call3_v1 main_v156 main_call3_v4 main_v157 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg9 main_v158 ((extractStridedSlice S1x1024x4096 ![1, 0, 0] · slices_S8x1024x4096_S1x1024x4096_1_0_0) : (⟨S8x1024x4096, .f32⟩ : BufTy).Contents (Elt F) → (⟨S1x1024x4096, .f32⟩ : BufTy).Contents (Elt F)),
    StableHlo.reshape main_v158 main_v159 rfl shapeCasts_S1x1024x4096_S1024x4096,
    StableHlo.binary main_v157 main_v159 main_v160 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg10 main_v161 ((extractStridedSlice S1x4096 ![1, 0] · slices_S8x4096_S1x4096_1_0) : (⟨S8x4096, .f32⟩ : BufTy).Contents (Elt F) → (⟨S1x4096, .f32⟩ : BufTy).Contents (Elt F)),
    StableHlo.reshape main_v161 main_v162 rfl shapeCasts_S1x4096_S4096,
    StableHlo.unary main_v162 main_v163 (broadcastInDim S1x4096 ![1] bcast_S4096_S1x4096_1 : (⟨S4096, .f32⟩ : BufTy).Contents (Elt F) → (⟨S1x4096, .f32⟩ : BufTy).Contents (Elt F)),
    StableHlo.unary main_v163 main_v164 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v160 main_v164 main_v165 (addf : (⟨S2048x4096, .f32⟩ : BufTy).Contents (Elt F) → (⟨S2048x4096, .f32⟩ : BufTy).Contents (Elt F) → (⟨S2048x4096, .f32⟩ : BufTy).Contents (Elt F)),
    StableHlo.unary main_v165 main_v166 (Host.tanh : (⟨S2048x4096, .f32⟩ : BufTy).Contents (Elt F) → (⟨S2048x4096, .f32⟩ : BufTy).Contents (Elt F)),
    StableHlo.unary main_arg13 main_v167 ((extractStridedSlice S1 ![1] · slices_S8_S1_1) : (⟨S8, .f32⟩ : BufTy).Contents (Elt F) → (⟨S1, .f32⟩ : BufTy).Contents (Elt F)),
    StableHlo.reshape main_v167 main_v168 rfl shapeCasts_S1_S_,
    StableHlo.unary main_v168 main_v169 (broadcastInDim S2048x4096 ![] bcast_S_S2048x4096 : (⟨S_, .f32⟩ : BufTy).Contents (Elt F) → (⟨S2048x4096, .f32⟩ : BufTy).Contents (Elt F)),
    StableHlo.binary main_v166 main_v169 main_v170 (mulf : (⟨S2048x4096, .f32⟩ : BufTy).Contents (Elt F) → (⟨S2048x4096, .f32⟩ : BufTy).Contents (Elt F) → (⟨S2048x4096, .f32⟩ : BufTy).Contents (Elt F)),
    StableHlo.unary main_arg11 main_v171 ((extractStridedSlice S1x1024x4096 ![1, 0, 0] · slices_S8x1024x4096_S1x1024x4096_1_0_0) : (⟨S8x1024x4096, .f32⟩ : BufTy).Contents (Elt F) → (⟨S1x1024x4096, .f32⟩ : BufTy).Contents (Elt F)),
    StableHlo.reshape main_v171 main_v172 rfl shapeCasts_S1x1024x4096_S1024x4096,
    StableHlo.binary main_v157 main_v172 main_v173 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg12 main_v174 ((extractStridedSlice S1x4096 ![1, 0] · slices_S8x4096_S1x4096_1_0) : (⟨S8x4096, .f32⟩ : BufTy).Contents (Elt F) → (⟨S1x4096, .f32⟩ : BufTy).Contents (Elt F)),
    StableHlo.reshape main_v174 main_v175 rfl shapeCasts_S1x4096_S4096,
    StableHlo.unary main_v175 main_v176 (broadcastInDim S1x4096 ![1] bcast_S4096_S1x4096_1 : (⟨S4096, .f32⟩ : BufTy).Contents (Elt F) → (⟨S1x4096, .f32⟩ : BufTy).Contents (Elt F)),
    StableHlo.unary main_v176 main_v177 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v173 main_v177 main_v178 (addf : (⟨S2048x4096, .f32⟩ : BufTy).Contents (Elt F) → (⟨S2048x4096, .f32⟩ : BufTy).Contents (Elt F) → (⟨S2048x4096, .f32⟩ : BufTy).Contents (Elt F)),
    StableHlo.unary main_v170 main_v179 (Host.exp : (⟨S2048x4096, .f32⟩ : BufTy).Contents (Elt F) → (⟨S2048x4096, .f32⟩ : BufTy).Contents (Elt F)),
    StableHlo.binary main_v138 main_v179 main_v180 (mulf : (⟨S2048x4096, .f32⟩ : BufTy).Contents (Elt F) → (⟨S2048x4096, .f32⟩ : BufTy).Contents (Elt F) → (⟨S2048x4096, .f32⟩ : BufTy).Contents (Elt F)),
    StableHlo.binary main_v180 main_v178 main_v181 (addf : (⟨S2048x4096, .f32⟩ : BufTy).Contents (Elt F) → (⟨S2048x4096, .f32⟩ : BufTy).Contents (Elt F) → (⟨S2048x4096, .f32⟩ : BufTy).Contents (Elt F)),
    StableHlo.nullary main_cst_25 (constant S_ .f32 0x00000000#32),
    StableHlo.unary main_cst_25 main_v182 (broadcastInDim S2048x8192 ![] bcast_S_S2048x8192 : (⟨S_, .f32⟩ : BufTy).Contents (Elt F) → (⟨S2048x8192, .f32⟩ : BufTy).Contents (Elt F)),
    StableHlo.nullary main_c_26 (constantI S_ 32 0#32),
    StableHlo.unary main_c_26 main_v183 (broadcastInDim S4096 ![] bcast_S_S4096 : (⟨S_, .i32⟩ : BufTy).Contents (Elt F) → (⟨S4096, .i32⟩ : BufTy).Contents (Elt F)),
    StableHlo.binary main_v18 main_v183 main_v184 (cmpi .slt : (⟨S4096, .i32⟩ : BufTy).Contents (Elt F) → (⟨S4096, .i32⟩ : BufTy).Contents (Elt F) → (⟨S4096, .i1⟩ : BufTy).Contents (Elt F)),
    StableHlo.nullary main_c_27 (constantI S_ 32 8192#32),
    StableHlo.unary main_c_27 main_v185 (broadcastInDim S4096 ![] bcast_S_S4096 : (⟨S_, .i32⟩ : BufTy).Contents (Elt F) → (⟨S4096, .i32⟩ : BufTy).Contents (Elt F)),
    StableHlo.binary main_v18 main_v185 main_v186 (addi : (⟨S4096, .i32⟩ : BufTy).Contents (Elt F) → (⟨S4096, .i32⟩ : BufTy).Contents (Elt F) → (⟨S4096, .i32⟩ : BufTy).Contents (Elt F)),
    StableHlo.ternary main_v184 main_v186 main_v18 main_v187 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v187 main_v188 (broadcastInDim S4096x1 ![0] bcast_S4096_S4096x1_0 : (⟨S4096, .i32⟩ : BufTy).Contents (Elt F) → (⟨S4096x1, .i32⟩ : BufTy).Contents (Elt F)),
    StableHlo.ternary main_v182 main_v188 main_v131 main_v189 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_c_28 (constantI S_ 32 0#32),
    StableHlo.unary main_c_28 main_v190 (broadcastInDim S4096 ![] bcast_S_S4096 : (⟨S_, .i32⟩ : BufTy).Contents (Elt F) → (⟨S4096, .i32⟩ : BufTy).Contents (Elt F)),
    StableHlo.binary main_v13 main_v190 main_v191 (cmpi .slt : (⟨S4096, .i32⟩ : BufTy).Contents (Elt F) → (⟨S4096, .i32⟩ : BufTy).Contents (Elt F) → (⟨S4096, .i1⟩ : BufTy).Contents (Elt F)),
    StableHlo.nullary main_c_29 (constantI S_ 32 8192#32),
    StableHlo.unary main_c_29 main_v192 (broadcastInDim S4096 ![] bcast_S_S4096 : (⟨S_, .i32⟩ : BufTy).Contents (Elt F) → (⟨S4096, .i32⟩ : BufTy).Contents (Elt F)),
    StableHlo.binary main_v13 main_v192 main_v193 (addi : (⟨S4096, .i32⟩ : BufTy).Contents (Elt F) → (⟨S4096, .i32⟩ : BufTy).Contents (Elt F) → (⟨S4096, .i32⟩ : BufTy).Contents (Elt F)),
    StableHlo.ternary main_v191 main_v193 main_v13 main_v194 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v194 main_v195 (broadcastInDim S4096x1 ![0] bcast_S4096_S4096x1_0 : (⟨S4096, .i32⟩ : BufTy).Contents (Elt F) → (⟨S4096x1, .i32⟩ : BufTy).Contents (Elt F)),
    StableHlo.ternary main_v189 main_v195 main_v181 main_v196 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_cst_30 (constant S_ .f32 0x00000000#32),
    StableHlo.binary main_v170 main_cst_30 main_v197 ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    StableHlo.binary main_v124 main_v197 main_v198 (addf : (⟨S2048, .f32⟩ : BufTy).Contents (Elt F) → (⟨S2048, .f32⟩ : BufTy).Contents (Elt F) → (⟨S2048, .f32⟩ : BufTy).Contents (Elt F)),
    StableHlo.unary main_arg4 main_v199 ((extractStridedSlice S1x8192 ![2, 0] · slices_S8x8192_S1x8192_2_0) : (⟨S8x8192, .f32⟩ : BufTy).Contents (Elt F) → (⟨S1x8192, .f32⟩ : BufTy).Contents (Elt F)),
    StableHlo.reshape main_v199 main_v200 rfl shapeCasts_S1x8192_S8192,
    StableHlo.unary main_v200 main_v201 (broadcastInDim S1x8192 ![1] bcast_S8192_S1x8192_1 : (⟨S8192, .f32⟩ : BufTy).Contents (Elt F) → (⟨S1x8192, .f32⟩ : BufTy).Contents (Elt F)),
    StableHlo.unary main_v201 main_v202 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v196 main_v202 main_v203 (addf : (⟨S2048x8192, .f32⟩ : BufTy).Contents (Elt F) → (⟨S2048x8192, .f32⟩ : BufTy).Contents (Elt F) → (⟨S2048x8192, .f32⟩ : BufTy).Contents (Elt F)),
    StableHlo.unary main_arg3 main_v204 ((extractStridedSlice S1x8192 ![2, 0] · slices_S8x8192_S1x8192_2_0) : (⟨S8x8192, .f32⟩ : BufTy).Contents (Elt F) → (⟨S1x8192, .f32⟩ : BufTy).Contents (Elt F)),
    StableHlo.reshape main_v204 main_v205 rfl shapeCasts_S1x8192_S8192,
    StableHlo.unary main_v205 main_v206 (Host.exp : (⟨S8192, .f32⟩ : BufTy).Contents (Elt F) → (⟨S8192, .f32⟩ : BufTy).Contents (Elt F)) ]

set_option maxRecDepth 8192 in
theorem part3_eq (c : Dev nD) : main_part3 (F := F) c = seq ops3 := by
  simp only [main_part3, fn_leaky_relu.body, fn_where.body, seq, bind_assoc, pure_bind]
  rfl

set_option maxRecDepth 8192 in
theorem ops3_sub : (ops3 : List (HloOp τ sig (Elt F))).Forall fun op => op.bufs ⊆ tcRefs τ sig :=
  ⟨unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., binary_bufs_sub .., unary_bufs_sub .., reshape_bufs_sub .., unary_bufs_sub .., unary_bufs_sub .., binary_bufs_sub .., unary_bufs_sub .., reshape_bufs_sub .., unary_bufs_sub ..⟩

/-- No operation of the window leaves a result undetermined. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops3_W : List (Ref sig .tc) := [main_v154, main_v155, main_v156, main_cst_24, main_call3_cst, main_call3_v0, main_call3_v1, main_call3_v2, main_call3_v3, main_call3_v4, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_cst_25, main_v182, main_c_26, main_v183, main_v184, main_c_27, main_v185, main_v186, main_v187, main_v188, main_v189, main_c_28, main_v190, main_v191, main_c_29, main_v192, main_v193, main_v194, main_v195, main_v196, main_cst_30, main_v197, main_v198, main_v199, main_v200, main_v201, main_v202, main_v203, main_v204, main_v205, main_v206]

set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps4.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 241 … 300 of @main's 851, in order, as operations; each of the 2 calls of @leaky_relu is the seven operations of its body (the last the select of the @_where it calls) at the buffers of the call's record. -/
abbrev ops4 : List (HloOp τ sig (Elt F)) :=
  [ StableHlo.unary main_v206 main_v207 (broadcastInDim S1x8192 ![1] bcast_S8192_S1x8192_1 : (⟨S8192, .f32⟩ : BufTy).Contents (Elt F) → (⟨S1x8192, .f32⟩ : BufTy).Contents (Elt F)),
    StableHlo.unary main_v207 main_v208 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v203 main_v208 main_v209 (mulf : (⟨S2048x8192, .f32⟩ : BufTy).Contents (Elt F) → (⟨S2048x8192, .f32⟩ : BufTy).Contents (Elt F) → (⟨S2048x8192, .f32⟩ : BufTy).Contents (Elt F)),
    StableHlo.unary main_arg3 main_v210 ((extractStridedSlice S1x8192 ![2, 0] · slices_S8x8192_S1x8192_2_0) : (⟨S8x8192, .f32⟩ : BufTy).Contents (Elt F) → (⟨S1x8192, .f32⟩ : BufTy).Contents (Elt F)),
    StableHlo.reshape main_v210 main_v211 rfl shapeCasts_S1x8192_S8192,
    StableHlo.nullary main_cst_31 (constant S_ .f32 0x00000000#32),
    StableHlo.binary main_v211 main_cst_31 main_v212 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v212 main_v213 (broadcastInDim S2048 ![] bcast_S_S2048 : (⟨S_, .f32⟩ : BufTy).Contents (Elt F) → (⟨S2048, .f32⟩ : BufTy).Contents (Elt F)),
    StableHlo.binary main_v198 main_v213 main_v214 (addf : (⟨S2048, .f32⟩ : BufTy).Contents (Elt F) → (⟨S2048, .f32⟩ : BufTy).Contents (Elt F) → (⟨S2048, .f32⟩ : BufTy).Contents (Elt F)),
    StableHlo.nullary main_c_32 (constantI S_ 32 0#32),
    StableHlo.unary main_c_32 main_v215 (broadcastInDim S4096 ![] bcast_S_S4096 : (⟨S_, .i32⟩ : BufTy).Contents (Elt F) → (⟨S4096, .i32⟩ : BufTy).Contents (Elt F)),
    StableHlo.binary main_v13 main_v215 main_v216 (cmpi .slt : (⟨S4096, .i32⟩ : BufTy).Contents (Elt F) → (⟨S4096, .i32⟩ : BufTy).Contents (Elt F) → (⟨S4096, .i1⟩ : BufTy).Contents (Elt F)),
    StableHlo.nullary main_c_33 (constantI S_ 32 8192#32),
    StableHlo.unary main_c_33 main_v217 (broadcastInDim S4096 ![] bcast_S_S4096 : (⟨S_, .i32⟩ : BufTy).Contents (Elt F) → (⟨S4096, .i32⟩ : BufTy).Contents (Elt F)),
    StableHlo.binary main_v13 main_v217 main_v218 (addi : (⟨S4096, .i32⟩ : BufTy).Contents (Elt F) → (⟨S4096, .i32⟩ : BufTy).Contents (Elt F) → (⟨S4096, .i32⟩ : BufTy).Contents (Elt F)),
    StableHlo.ternary main_v216 main_v218 main_v13 main_v219 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v219 main_v220 (broadcastInDim S4096x1 ![0] bcast_S4096_S4096x1_0 : (⟨S4096, .i32⟩ : BufTy).Contents (Elt F) → (⟨S4096x1, .i32⟩ : BufTy).Contents (Elt F)),
    StableHlo.binary main_v209 main_v220 main_v221 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.nullary main_c_34 (constantI S_ 32 0#32),
    StableHlo.unary main_c_34 main_v222 (broadcastInDim S4096 ![] bcast_S_S4096 : (⟨S_, .i32⟩ : BufTy).Contents (Elt F) → (⟨S4096, .i32⟩ : BufTy).Contents (Elt F)),
    StableHlo.binary main_v18 main_v222 main_v223 (cmpi .slt : (⟨S4096, .i32⟩ : BufTy).Contents (Elt F) → (⟨S4096, .i32⟩ : BufTy).Contents (Elt F) → (⟨S4096, .i1⟩ : BufTy).Contents (Elt F)),
    StableHlo.nullary main_c_35 (constantI S_ 32 8192#32),
    StableHlo.unary main_c_35 main_v224 (broadcastInDim S4096 ![] bcast_S_S4096 : (⟨S_, .i32⟩ : BufTy).Contents (Elt F) → (⟨S4096, .i32⟩ : BufTy).Contents (Elt F)),
    StableHlo.binary main_v18 main_v224 main_v225 (addi : (⟨S4096, .i32⟩ : BufTy).Contents (Elt F) → (⟨S4096, .i32⟩ : BufTy).Contents (Elt F) → (⟨S4096, .i32⟩ : BufTy).Contents (Elt F)),
    StableHlo.ternary main_v223 main_v225 main_v18 main_v226 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v226 main_v227 (broadcastInDim S4096x1 ![0] bcast_S4096_S4096x1_0 : (⟨S4096, .i32⟩ : BufTy).Contents (Elt F) → (⟨S4096x1, .i32⟩ : BufTy).Contents (Elt F)),
    StableHlo.binary main_v209 main_v227 main_v228 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.binary main_v221 main_v7 main_v229 ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)),
    StableHlo.unary main_arg5 main_v230 ((extractStridedSlice S1x5120x1024 ![2, 0, 0] · slices_S8x5120x1024_S1x5120x1024_2_0_0) : (⟨S8x5120x1024, .f32⟩ : BufTy).Contents (Elt F) → (⟨S1x5120x1024, .f32⟩ : BufTy).Contents (Elt F)),
    StableHlo.reshape main_v230 main_v231 rfl shapeCasts_S1x5120x1024_S5120x1024,
    StableHlo.binary main_v229 main_v231 main_v232 ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)),
    StableHlo.unary main_arg6 main_v233 ((extractStridedSlice S1x1024 ![2, 0] · slices_S8x1024_S1x1024_2_0) : (⟨S8x1024, .f32⟩ : BufTy).Contents (Elt F) → (⟨S1x1024, .f32⟩ : BufTy).Contents (Elt F)),
    StableHlo.reshape main_v233 main_v234 rfl shapeCasts_S1x1024_S1024,
    StableHlo.unary main_v234 main_v235 (broadcastInDim S1x1024 ![1] bcast_S1024_S1x1024_1 : (⟨S1024, .f32⟩ : BufTy).Contents (Elt F) → (⟨S1x1024, .f32⟩ : BufTy).Contents (Elt F)),
    StableHlo.unary main_v235 main_v236 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v232 main_v236 main_v237 (addf : (⟨S2048x1024, .f32⟩ : BufTy).Contents (Elt F) → (⟨S2048x1024, .f32⟩ : BufTy).Contents (Elt F) → (⟨S2048x1024, .f32⟩ : BufTy).Contents (Elt F)),
    StableHlo.nullary main_cst_36 (constant S_ .f32 0x3E4CCCCD#32),
    StableHlo.nullary main_call4_cst (constant S_ .f32 0x00000000#32),
    StableHlo.unary main_call4_cst main_call4_v0 (broadcastInDim S2048x1024 ![] bcast_S_S2048x1024 : (⟨S_, .f32⟩ : BufTy).Contents (Elt F) → (⟨S2048x1024, .f32⟩ : BufTy).Contents (Elt F)),
    StableHlo.binary main_v237 main_call4_v0 main_call4_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_36 main_call4_v2 (id : (⟨S_, .f32⟩ : BufTy).Contents (Elt F) → (⟨S_, .f32⟩ : BufTy).Contents (Elt F)),
    StableHlo.unary main_call4_v2 main_call4_v3 (broadcastInDim S2048x1024 ![] bcast_S_S2048x1024 : (⟨S_, .f32⟩ : BufTy).Contents (Elt F) → (⟨S2048x1024, .f32⟩ : BufTy).Contents (Elt F)),
    StableHlo.binary main_call4_v3 main_v237 main_call4_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call4_v1 main_v237 main_call4_v4 main_v238 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg7 main_v239 ((extractStridedSlice S1x1024x1024 ![2, 0, 0] · slices_S8x1024x1024_S1x1024x1024_2_0_0) : (⟨S8x1024x1024, .f32⟩ : BufTy).Contents (Elt F) → (⟨S1x1024x1024, .f32⟩ : BufTy).Contents (Elt F)),
    StableHlo.reshape main_v239 main_v240 rfl shapeCasts_S1x1024x1024_S1024x1024,
    StableHlo.binary main_v238 main_v240 main_v241 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg8 main_v242 ((extractStridedSlice S1x1024 ![2, 0] · slices_S8x1024_S1x1024_2_0) : (⟨S8x1024, .f32⟩ : BufTy).Contents (Elt F) → (⟨S1x1024, .f32⟩ : BufTy).Contents (Elt F)),
    StableHlo.reshape main_v242 main_v243 rfl shapeCasts_S1x1024_S1024,
    StableHlo.unary main_v243 main_v244 (broadcastInDim S1x1024 ![1] bcast_S1024_S1x1024_1 : (⟨S1024, .f32⟩ : BufTy).Contents (Elt F) → (⟨S1x1024, .f32⟩ : BufTy).Contents (Elt F)),
    StableHlo.unary main_v244 main_v245 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v241 main_v245 main_v246 (addf : (⟨S2048x1024, .f32⟩ : BufTy).Contents (Elt F) → (⟨S2048x1024, .f32⟩ : BufTy).Contents (Elt F) → (⟨S2048x1024, .f32⟩ : BufTy).Contents (Elt F)),
    StableHlo.nullary main_cst_37 (constant S_ .f32 0x3E4CCCCD#32),
    StableHlo.nullary main_call5_cst (constant S_ .f32 0x00000000#32),
    StableHlo.unary main_call5_cst main_call5_v0 (broadcastInDim S2048x1024 ![] bcast_S_S2048x1024 : (⟨S_, .f32⟩ : BufTy).Contents (Elt F) → (⟨S2048x1024, .f32⟩ : BufTy).Contents (Elt F)),
    StableHlo.binary main_v246 main_call5_v0 main_call5_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_37 main_call5_v2 (id : (⟨S_, .f32⟩ : BufTy).Contents (Elt F) → (⟨S_, .f32⟩ : BufTy).Contents (Elt F)),
    StableHlo.unary main_call5_v2 main_call5_v3 (broadcastInDim S2048x1024 ![] bcast_S_S2048x1024 : (⟨S_, .f32⟩ : BufTy).Contents (Elt F) → (⟨S2048x1024, .f32⟩ : BufTy).Contents (Elt F)),
    StableHlo.binary main_call5_v3 main_v246 main_call5_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call5_v1 main_v246 main_call5_v4 main_v247 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg9 main_v248 ((extractStridedSlice S1x1024x4096 ![2, 0, 0] · slices_S8x1024x4096_S1x1024x4096_2_0_0) : (⟨S8x1024x4096, .f32⟩ : BufTy).Contents (Elt F) → (⟨S1x1024x4096, .f32⟩ : BufTy).Contents (Elt F)),
    StableHlo.reshape main_v248 main_v249 rfl shapeCasts_S1x1024x4096_S1024x4096,
    StableHlo.binary main_v247 main_v249 main_v250 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg10 main_v251 ((extractStridedSlice S1x4096 ![2, 0] · slices_S8x4096_S1x4096_2_0) : (⟨S8x4096, .f32⟩ : BufTy).Contents (Elt F) → (⟨S1x4096, .f32⟩ : BufTy).Contents (Elt F)),
    StableHlo.reshape main_v251 main_v252 rfl shapeCasts_S1x4096_S4096,
    StableHlo.unary main_v252 main_v253 (broadcastInDim S1x4096 ![1] bcast_S4096_S1x4096_1 : (⟨S4096, .f32⟩ : BufTy).Contents (Elt F) → (⟨S1x4096, .f32⟩ : BufTy).Contents (Elt F)),
    StableHlo.unary main_v253 main_v254 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v250 main_v254 main_v255 (addf : (⟨S2048x4096, .f32⟩ : BufTy).Contents (Elt F) → (⟨S2048x4096, .f32⟩ : BufTy).Contents (Elt F) → (⟨S2048x4096, .f32⟩ : BufTy).Contents (Elt F)),
    StableHlo.unary main_v255 main_v256 (Host.tanh : (⟨S2048x4096, .f32⟩ : BufTy).Contents (Elt F) → (⟨S2048x4096, .f32⟩ : BufTy).Contents (Elt F)),
    StableHlo.unary main_arg13 main_v257 ((extractStridedSlice S1 ![2] · slices_S8_S1_2) : (⟨S8, .f32⟩ : BufTy).Contents (Elt F) → (⟨S1, .f32⟩ : BufTy).Contents (Elt F)),
    StableHlo.reshape main_v257 main_v258 rfl shapeCasts_S1_S_,
    StableHlo.unary main_v258 main_v259 (broadcastInDim S2048x4096 ![] bcast_S_S2048x4096 : (⟨S_, .f32⟩ : BufTy).Contents (Elt F) → (⟨S2048x4096, .f32⟩ : BufTy).Contents (Elt F)) ]

set_option maxRecDepth 8192 in
theorem part4_eq (c : Dev nD) : main_part4 (F := F) c = seq ops4 := by
  simp only [main_part4, fn_leaky_relu.body, fn_where.body, seq, bind_assoc, pure_bind]
  rfl

set_option maxRecDepth 8192 in
theorem ops4_sub : (ops4 : List (HloOp τ sig (Elt F))).Forall fun op => op.bufs ⊆ tcRefs τ sig :=
  ⟨unary_bufs_sub .., unary_bufs_sub .., binary_bufs_sub .., unary_bufs_sub .., reshape_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., unary_bufs_sub .., unary_bufs_sub .., reshape_bufs_sub .., unary_bufs_sub ..⟩

/-- No operation of the window leaves a result undetermined. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops4_W : List (Ref sig .tc) := [main_v207, main_v208, main_v209, main_v210, main_v211, main_cst_31, main_v212, main_v213, main_v214, main_c_32, main_v215, main_v216, main_c_33, main_v217, main_v218, main_v219, main_v220, main_v221, main_c_34, main_v222, main_v223, main_c_35, main_v224, main_v225, main_v226, main_v227, main_v228, main_v229, main_v230, main_v231, main_v232, main_v233, main_v234, main_v235, main_v236, main_v237, main_cst_36, main_call4_cst, main_call4_v0, main_call4_v1, main_call4_v2, main_call4_v3, main_call4_v4, main_v238, main_v239, main_v240, main_v241, main_v242, main_v243, main_v244, main_v245, main_v246, main_cst_37, main_call5_cst, main_call5_v0, main_call5_v1, main_call5_v2, main_call5_v3, main_call5_v4, main_v247, main_v248, main_v249, main_v250, main_v251, main_v252, main_v253, main_v254, main_v255, main_v256, main_v257, main_v258, main_v259]

set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps5.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 301 … 360 of @main's 851, in order, as operations. -/
abbrev ops5 : List (HloOp τ sig (Elt F)) :=
  [ StableHlo.binary main_v256 main_v259 main_v260 (mulf : (⟨S2048x4096, .f32⟩ : BufTy).Contents (Elt F) → (⟨S2048x4096, .f32⟩ : BufTy).Contents (Elt F) → (⟨S2048x4096, .f32⟩ : BufTy).Contents (Elt F)),
    StableHlo.unary main_arg11 main_v261 ((extractStridedSlice S1x1024x4096 ![2, 0, 0] · slices_S8x1024x4096_S1x1024x4096_2_0_0) : (⟨S8x1024x4096, .f32⟩ : BufTy).Contents (Elt F) → (⟨S1x1024x4096, .f32⟩ : BufTy).Contents (Elt F)),
    StableHlo.reshape main_v261 main_v262 rfl shapeCasts_S1x1024x4096_S1024x4096,
    StableHlo.binary main_v247 main_v262 main_v263 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg12 main_v264 ((extractStridedSlice S1x4096 ![2, 0] · slices_S8x4096_S1x4096_2_0) : (⟨S8x4096, .f32⟩ : BufTy).Contents (Elt F) → (⟨S1x4096, .f32⟩ : BufTy).Contents (Elt F)),
    StableHlo.reshape main_v264 main_v265 rfl shapeCasts_S1x4096_S4096,
    StableHlo.unary main_v265 main_v266 (broadcastInDim S1x4096 ![1] bcast_S4096_S1x4096_1 : (⟨S4096, .f32⟩ : BufTy).Contents (Elt F) → (⟨S1x4096, .f32⟩ : BufTy).Contents (Elt F)),
    StableHlo.unary main_v266 main_v267 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v263 main_v267 main_v268 (addf : (⟨S2048x4096, .f32⟩ : BufTy).Contents (Elt F) → (⟨S2048x4096, .f32⟩ : BufTy).Contents (Elt F) → (⟨S2048x4096, .f32⟩ : BufTy).Contents (Elt F)),
    StableHlo.unary main_v260 main_v269 (Host.exp : (⟨S2048x4096, .f32⟩ : BufTy).Contents (Elt F) → (⟨S2048x4096, .f32⟩ : BufTy).Contents (Elt F)),
    StableHlo.binary main_v228 main_v269 main_v270 (mulf : (⟨S2048x4096, .f32⟩ : BufTy).Contents (Elt F) → (⟨S2048x4096, .f32⟩ : BufTy).Contents (Elt F) → (⟨S2048x4096, .f32⟩ : BufTy).Contents (Elt F)),
    StableHlo.binary main_v270 main_v268 main_v271 (addf : (⟨S2048x4096, .f32⟩ : BufTy).Contents (Elt F) → (⟨S2048x4096, .f32⟩ : BufTy).Contents (Elt F) → (⟨S2048x4096, .f32⟩ : BufTy).Contents (Elt F)),
    StableHlo.nullary main_cst_38 (constant S_ .f32 0x00000000#32),
    StableHlo.unary main_cst_38 main_v272 (broadcastInDim S2048x8192 ![] bcast_S_S2048x8192 : (⟨S_, .f32⟩ : BufTy).Contents (Elt F) → (⟨S2048x8192, .f32⟩ : BufTy).Contents (Elt F)),
    StableHlo.nullary main_c_39 (constantI S_ 32 0#32),
    StableHlo.unary main_c_39 main_v273 (broadcastInDim S4096 ![] bcast_S_S4096 : (⟨S_, .i32⟩ : BufTy).Contents (Elt F) → (⟨S4096, .i32⟩ : BufTy).Contents (Elt F)),
    StableHlo.binary main_v13 main_v273 main_v274 (cmpi .slt : (⟨S4096, .i32⟩ : BufTy).Contents (Elt F) → (⟨S4096, .i32⟩ : BufTy).Contents (Elt F) → (⟨S4096, .i1⟩ : BufTy).Contents (Elt F)),
    StableHlo.nullary main_c_40 (constantI S_ 32 8192#32),
    StableHlo.unary main_c_40 main_v275 (broadcastInDim S4096 ![] bcast_S_S4096 : (⟨S_, .i32⟩ : BufTy).Contents (Elt F) → (⟨S4096, .i32⟩ : BufTy).Contents (Elt F)),
    StableHlo.binary main_v13 main_v275 main_v276 (addi : (⟨S4096, .i32⟩ : BufTy).Contents (Elt F) → (⟨S4096, .i32⟩ : BufTy).Contents (Elt F) → (⟨S4096, .i32⟩ : BufTy).Contents (Elt F)),
    StableHlo.ternary main_v274 main_v276 main_v13 main_v277 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v277 main_v278 (broadcastInDim S4096x1 ![0] bcast_S4096_S4096x1_0 : (⟨S4096, .i32⟩ : BufTy).Contents (Elt F) → (⟨S4096x1, .i32⟩ : BufTy).Contents (Elt F)),
    StableHlo.ternary main_v272 main_v278 main_v221 main_v279 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_c_41 (constantI S_ 32 0#32),
    StableHlo.unary main_c_41 main_v280 (broadcastInDim S4096 ![] bcast_S_S4096 : (⟨S_, .i32⟩ : BufTy).Contents (Elt F) → (⟨S4096, .i32⟩ : BufTy).Contents (Elt F)),
    StableHlo.binary main_v18 main_v280 main_v281 (cmpi .slt : (⟨S4096, .i32⟩ : BufTy).Contents (Elt F) → (⟨S4096, .i32⟩ : BufTy).Contents (Elt F) → (⟨S4096, .i1⟩ : BufTy).Contents (Elt F)),
    StableHlo.nullary main_c_42 (constantI S_ 32 8192#32),
    StableHlo.unary main_c_42 main_v282 (broadcastInDim S4096 ![] bcast_S_S4096 : (⟨S_, .i32⟩ : BufTy).Contents (Elt F) → (⟨S4096, .i32⟩ : BufTy).Contents (Elt F)),
    StableHlo.binary main_v18 main_v282 main_v283 (addi : (⟨S4096, .i32⟩ : BufTy).Contents (Elt F) → (⟨S4096, .i32⟩ : BufTy).Contents (Elt F) → (⟨S4096, .i32⟩ : BufTy).Contents (Elt F)),
    StableHlo.ternary main_v281 main_v283 main_v18 main_v284 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v284 main_v285 (broadcastInDim S4096x1 ![0] bcast_S4096_S4096x1_0 : (⟨S4096, .i32⟩ : BufTy).Contents (Elt F) → (⟨S4096x1, .i32⟩ : BufTy).Contents (Elt F)),
    StableHlo.ternary main_v279 main_v285 main_v271 main_v286 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_cst_43 (constant S_ .f32 0x00000000#32),
    StableHlo.binary main_v260 main_cst_43 main_v287 ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    StableHlo.binary main_v214 main_v287 main_v288 (addf : (⟨S2048, .f32⟩ : BufTy).Contents (Elt F) → (⟨S2048, .f32⟩ : BufTy).Contents (Elt F) → (⟨S2048, .f32⟩ : BufTy).Contents (Elt F)),
    StableHlo.unary main_arg4 main_v289 ((extractStridedSlice S1x8192 ![3, 0] · slices_S8x8192_S1x8192_3_0) : (⟨S8x8192, .f32⟩ : BufTy).Contents (Elt F) → (⟨S1x8192, .f32⟩ : BufTy).Contents (Elt F)),
    StableHlo.reshape main_v289 main_v290 rfl shapeCasts_S1x8192_S8192,
    StableHlo.unary main_v290 main_v291 (broadcastInDim S1x8192 ![1] bcast_S8192_S1x8192_1 : (⟨S8192, .f32⟩ : BufTy).Contents (Elt F) → (⟨S1x8192, .f32⟩ : BufTy).Contents (Elt F)),
    StableHlo.unary main_v291 main_v292 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v286 main_v292 main_v293 (addf : (⟨S2048x8192, .f32⟩ : BufTy).Contents (Elt F) → (⟨S2048x8192, .f32⟩ : BufTy).Contents (Elt F) → (⟨S2048x8192, .f32⟩ : BufTy).Contents (Elt F)),
    StableHlo.unary main_arg3 main_v294 ((extractStridedSlice S1x8192 ![3, 0] · slices_S8x8192_S1x8192_3_0) : (⟨S8x8192, .f32⟩ : BufTy).Contents (Elt F) → (⟨S1x8192, .f32⟩ : BufTy).Contents (Elt F)),
    StableHlo.reshape main_v294 main_v295 rfl shapeCasts_S1x8192_S8192,
    StableHlo.unary main_v295 main_v296 (Host.exp : (⟨S8192, .f32⟩ : BufTy).Contents (Elt F) → (⟨S8192, .f32⟩ : BufTy).Contents (Elt F)),
    StableHlo.unary main_v296 main_v297 (broadcastInDim S1x8192 ![1] bcast_S8192_S1x8192_1 : (⟨S8192, .f32⟩ : BufTy).Contents (Elt F) → (⟨S1x8192, .f32⟩ : BufTy).Contents (Elt F)),
    StableHlo.unary main_v297 main_v298 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v293 main_v298 main_v299 (mulf : (⟨S2048x8192, .f32⟩ : BufTy).Contents (Elt F) → (⟨S2048x8192, .f32⟩ : BufTy).Contents (Elt F) → (⟨S2048x8192, .f32⟩ : BufTy).Contents (Elt F)),
    StableHlo.unary main_arg3 main_v300 ((extractStridedSlice S1x8192 ![3, 0] · slices_S8x8192_S1x8192_3_0) : (⟨S8x8192, .f32⟩ : BufTy).Contents (Elt F) → (⟨S1x8192, .f32⟩ : BufTy).Contents (Elt F)),
    StableHlo.reshape main_v300 main_v301 rfl shapeCasts_S1x8192_S8192,
    StableHlo.nullary main_cst_44 (constant S_ .f32 0x00000000#32),
    StableHlo.binary main_v301 main_cst_44 main_v302 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v302 main_v303 (broadcastInDim S2048 ![] bcast_S_S2048 : (⟨S_, .f32⟩ : BufTy).Contents (Elt F) → (⟨S2048, .f32⟩ : BufTy).Contents (Elt F)),
    StableHlo.binary main_v288 main_v303 main_v304 (addf : (⟨S2048, .f32⟩ : BufTy).Contents (Elt F) → (⟨S2048, .f32⟩ : BufTy).Contents (Elt F) → (⟨S2048, .f32⟩ : BufTy).Contents (Elt F)),
    StableHlo.nullary main_c_45 (constantI S_ 32 0#32),
    StableHlo.unary main_c_45 main_v305 (broadcastInDim S4096 ![] bcast_S_S4096 : (⟨S_, .i32⟩ : BufTy).Contents (Elt F) → (⟨S4096, .i32⟩ : BufTy).Contents (Elt F)),
    StableHlo.binary main_v18 main_v305 main_v306 (cmpi .slt : (⟨S4096, .i32⟩ : BufTy).Contents (Elt F) → (⟨S4096, .i32⟩ : BufTy).Contents (Elt F) → (⟨S4096, .i1⟩ : BufTy).Contents (Elt F)),
    StableHlo.nullary main_c_46 (constantI S_ 32 8192#32),
    StableHlo.unary main_c_46 main_v307 (broadcastInDim S4096 ![] bcast_S_S4096 : (⟨S_, .i32⟩ : BufTy).Contents (Elt F) → (⟨S4096, .i32⟩ : BufTy).Contents (Elt F)),
    StableHlo.binary main_v18 main_v307 main_v308 (addi : (⟨S4096, .i32⟩ : BufTy).Contents (Elt F) → (⟨S4096, .i32⟩ : BufTy).Contents (Elt F) → (⟨S4096, .i32⟩ : BufTy).Contents (Elt F)),
    StableHlo.ternary main_v306 main_v308 main_v18 main_v309 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v309 main_v310 (broadcastInDim S4096x1 ![0] bcast_S4096_S4096x1_0 : (⟨S4096, .i32⟩ : BufTy).Contents (Elt F) → (⟨S4096x1, .i32⟩ : BufTy).Contents (Elt F)) ]

set_option maxRecDepth 8192 in
theorem part5_eq (c : Dev nD) : main_part5 (F := F) c = seq ops5 := rfl

set_option maxRecDepth 8192 in
theorem ops5_sub : (ops5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

/-- No operation of the window leaves a result undetermined. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops5_W : List (Ref sig .tc) := [main_v260, main_v261, main_v262, main_v263, main_v264, main_v265, main_v266, main_v267, main_v268, main_v269, main_v270, main_v271, main_cst_38, main_v272, main_c_39, main_v273, main_v274, main_c_40, main_v275, main_v276, main_v277, main_v278, main_v279, main_c_41, main_v280, main_v281, main_c_42, main_v282, main_v283, main_v284, main_v285, main_v286, main_cst_43, main_v287, main_v288, main_v289, main_v290, main_v291, main_v292, main_v293, main_v294, main_v295, main_v296, main_v297, main_v298, main_v299, main_v300, main_v301, main_cst_44, main_v302, main_v303, main_v304, main_c_45, main_v305, main_v306, main_c_46, main_v307, main_v308, main_v309, main_v310]

set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps6.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 361 … 420 of @main's 851, in order, as operations; each of the 2 calls of @leaky_relu is the seven operations of its body (the last the select of the @_where it calls) at the buffers of the call's record. -/
abbrev ops6 : List (HloOp τ sig (Elt F)) :=
  [ StableHlo.binary main_v299 main_v310 main_v311 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.nullary main_c_47 (constantI S_ 32 0#32),
    StableHlo.unary main_c_47 main_v312 (broadcastInDim S4096 ![] bcast_S_S4096 : (⟨S_, .i32⟩ : BufTy).Contents (Elt F) → (⟨S4096, .i32⟩ : BufTy).Contents (Elt F)),
    StableHlo.binary main_v13 main_v312 main_v313 (cmpi .slt : (⟨S4096, .i32⟩ : BufTy).Contents (Elt F) → (⟨S4096, .i32⟩ : BufTy).Contents (Elt F) → (⟨S4096, .i1⟩ : BufTy).Contents (Elt F)),
    StableHlo.nullary main_c_48 (constantI S_ 32 8192#32),
    StableHlo.unary main_c_48 main_v314 (broadcastInDim S4096 ![] bcast_S_S4096 : (⟨S_, .i32⟩ : BufTy).Contents (Elt F) → (⟨S4096, .i32⟩ : BufTy).Contents (Elt F)),
    StableHlo.binary main_v13 main_v314 main_v315 (addi : (⟨S4096, .i32⟩ : BufTy).Contents (Elt F) → (⟨S4096, .i32⟩ : BufTy).Contents (Elt F) → (⟨S4096, .i32⟩ : BufTy).Contents (Elt F)),
    StableHlo.ternary main_v313 main_v315 main_v13 main_v316 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v316 main_v317 (broadcastInDim S4096x1 ![0] bcast_S4096_S4096x1_0 : (⟨S4096, .i32⟩ : BufTy).Contents (Elt F) → (⟨S4096x1, .i32⟩ : BufTy).Contents (Elt F)),
    StableHlo.binary main_v299 main_v317 main_v318 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.binary main_v311 main_v7 main_v319 ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)),
    StableHlo.unary main_arg5 main_v320 ((extractStridedSlice S1x5120x1024 ![3, 0, 0] · slices_S8x5120x1024_S1x5120x1024_3_0_0) : (⟨S8x5120x1024, .f32⟩ : BufTy).Contents (Elt F) → (⟨S1x5120x1024, .f32⟩ : BufTy).Contents (Elt F)),
    StableHlo.reshape main_v320 main_v321 rfl shapeCasts_S1x5120x1024_S5120x1024,
    StableHlo.binary main_v319 main_v321 main_v322 ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)),
    StableHlo.unary main_arg6 main_v323 ((extractStridedSlice S1x1024 ![3, 0] · slices_S8x1024_S1x1024_3_0) : (⟨S8x1024, .f32⟩ : BufTy).Contents (Elt F) → (⟨S1x1024, .f32⟩ : BufTy).Contents (Elt F)),
    StableHlo.reshape main_v323 main_v324 rfl shapeCasts_S1x1024_S1024,
    StableHlo.unary main_v324 main_v325 (broadcastInDim S1x1024 ![1] bcast_S1024_S1x1024_1 : (⟨S1024, .f32⟩ : BufTy).Contents (Elt F) → (⟨S1x1024, .f32⟩ : BufTy).Contents (Elt F)),
    StableHlo.unary main_v325 main_v326 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v322 main_v326 main_v327 (addf : (⟨S2048x1024, .f32⟩ : BufTy).Contents (Elt F) → (⟨S2048x1024, .f32⟩ : BufTy).Contents (Elt F) → (⟨S2048x1024, .f32⟩ : BufTy).Contents (Elt F)),
    StableHlo.nullary main_cst_49 (constant S_ .f32 0x3E4CCCCD#32),
    StableHlo.nullary main_call6_cst (constant S_ .f32 0x00000000#32),
    StableHlo.unary main_call6_cst main_call6_v0 (broadcastInDim S2048x1024 ![] bcast_S_S2048x1024 : (⟨S_, .f32⟩ : BufTy).Contents (Elt F) → (⟨S2048x1024, .f32⟩ : BufTy).Contents (Elt F)),
    StableHlo.binary main_v327 main_call6_v0 main_call6_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_49 main_call6_v2 (id : (⟨S_, .f32⟩ : BufTy).Contents (Elt F) → (⟨S_, .f32⟩ : BufTy).Contents (Elt F)),
    StableHlo.unary main_call6_v2 main_call6_v3 (broadcastInDim S2048x1024 ![] bcast_S_S2048x1024 : (⟨S_, .f32⟩ : BufTy).Contents (Elt F) → (⟨S2048x1024, .f32⟩ : BufTy).Contents (Elt F)),
    StableHlo.binary main_call6_v3 main_v327 main_call6_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call6_v1 main_v327 main_call6_v4 main_v328 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg7 main_v329 ((extractStridedSlice S1x1024x1024 ![3, 0, 0] · slices_S8x1024x1024_S1x1024x1024_3_0_0) : (⟨S8x1024x1024, .f32⟩ : BufTy).Contents (Elt F) → (⟨S1x1024x1024, .f32⟩ : BufTy).Contents (Elt F)),
    StableHlo.reshape main_v329 main_v330 rfl shapeCasts_S1x1024x1024_S1024x1024,
    StableHlo.binary main_v328 main_v330 main_v331 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg8 main_v332 ((extractStridedSlice S1x1024 ![3, 0] · slices_S8x1024_S1x1024_3_0) : (⟨S8x1024, .f32⟩ : BufTy).Contents (Elt F) → (⟨S1x1024, .f32⟩ : BufTy).Contents (Elt F)),
    StableHlo.reshape main_v332 main_v333 rfl shapeCasts_S1x1024_S1024,
    StableHlo.unary main_v333 main_v334 (broadcastInDim S1x1024 ![1] bcast_S1024_S1x1024_1 : (⟨S1024, .f32⟩ : BufTy).Contents (Elt F) → (⟨S1x1024, .f32⟩ : BufTy).Contents (Elt F)),
    StableHlo.unary main_v334 main_v335 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v331 main_v335 main_v336 (addf : (⟨S2048x1024, .f32⟩ : BufTy).Contents (Elt F) → (⟨S2048x1024, .f32⟩ : BufTy).Contents (Elt F) → (⟨S2048x1024, .f32⟩ : BufTy).Contents (Elt F)),
    StableHlo.nullary main_cst_50 (constant S_ .f32 0x3E4CCCCD#32),
    StableHlo.nullary main_call7_cst (constant S_ .f32 0x00000000#32),
    StableHlo.unary main_call7_cst main_call7_v0 (broadcastInDim S2048x1024 ![] bcast_S_S2048x1024 : (⟨S_, .f32⟩ : BufTy).Contents (Elt F) → (⟨S2048x1024, .f32⟩ : BufTy).Contents (Elt F)),
    StableHlo.binary main_v336 main_call7_v0 main_call7_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_50 main_call7_v2 (id : (⟨S_, .f32⟩ : BufTy).Contents (Elt F) → (⟨S_, .f32⟩ : BufTy).Contents (Elt F)),
    StableHlo.unary main_call7_v2 main_call7_v3 (broadcastInDim S2048x1024 ![] bcast_S_S2048x1024 : (⟨S_, .f32⟩ : BufTy).Contents (Elt F) → (⟨S2048x1024, .f32⟩ : BufTy).Contents (Elt F)),
    StableHlo.binary main_call7_v3 main_v336 main_call7_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call7_v1 main_v336 main_call7_v4 main_v337 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg9 main_v338 ((extractStridedSlice S1x1024x4096 ![3, 0, 0] · slices_S8x1024x4096_S1x1024x4096_3_0_0) : (⟨S8x1024x4096, .f32⟩ : BufTy).Contents (Elt F) → (⟨S1x1024x4096, .f32⟩ : BufTy).Contents (Elt F)),
    StableHlo.reshape main_v338 main_v339 rfl shapeCasts_S1x1024x4096_S1024x4096,
    StableHlo.binary main_v337 main_v339 main_v340 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg10 main_v341 ((extractStridedSlice S1x4096 ![3, 0] · slices_S8x4096_S1x4096_3_0) : (⟨S8x4096, .f32⟩ : BufTy).Contents (Elt F) → (⟨S1x4096, .f32⟩ : BufTy).Contents (Elt F)),
    StableHlo.reshape main_v341 main_v342 rfl shapeCasts_S1x4096_S4096,
    StableHlo.unary main_v342 main_v343 (broadcastInDim S1x4096 ![1] bcast_S4096_S1x4096_1 : (⟨S4096, .f32⟩ : BufTy).Contents (Elt F) → (⟨S1x4096, .f32⟩ : BufTy).Contents (Elt F)),
    StableHlo.unary main_v343 main_v344 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v340 main_v344 main_v345 (addf : (⟨S2048x4096, .f32⟩ : BufTy).Contents (Elt F) → (⟨S2048x4096, .f32⟩ : BufTy).Contents (Elt F) → (⟨S2048x4096, .f32⟩ : BufTy).Contents (Elt F)),
    StableHlo.unary main_v345 main_v346 (Host.tanh : (⟨S2048x4096, .f32⟩ : BufTy).Contents (Elt F) → (⟨S2048x4096, .f32⟩ : BufTy).Contents (Elt F)),
    StableHlo.unary main_arg13 main_v347 ((extractStridedSlice S1 ![3] · slices_S8_S1_3) : (⟨S8, .f32⟩ : BufTy).Contents (Elt F) → (⟨S1, .f32⟩ : BufTy).Contents (Elt F)),
    StableHlo.reshape main_v347 main_v348 rfl shapeCasts_S1_S_,
    StableHlo.unary main_v348 main_v349 (broadcastInDim S2048x4096 ![] bcast_S_S2048x4096 : (⟨S_, .f32⟩ : BufTy).Contents (Elt F) → (⟨S2048x4096, .f32⟩ : BufTy).Contents (Elt F)),
    StableHlo.binary main_v346 main_v349 main_v350 (mulf : (⟨S2048x4096, .f32⟩ : BufTy).Contents (Elt F) → (⟨S2048x4096, .f32⟩ : BufTy).Contents (Elt F) → (⟨S2048x4096, .f32⟩ : BufTy).Contents (Elt F)),
    StableHlo.unary main_arg11 main_v351 ((extractStridedSlice S1x1024x4096 ![3, 0, 0] · slices_S8x1024x4096_S1x1024x4096_3_0_0) : (⟨S8x1024x4096, .f32⟩ : BufTy).Contents (Elt F) → (⟨S1x1024x4096, .f32⟩ : BufTy).Contents (Elt F)),
    StableHlo.reshape main_v351 main_v352 rfl shapeCasts_S1x1024x4096_S1024x4096,
    StableHlo.binary main_v337 main_v352 main_v353 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg12 main_v354 ((extractStridedSlice S1x4096 ![3, 0] · slices_S8x4096_S1x4096_3_0) : (⟨S8x4096, .f32⟩ : BufTy).Contents (Elt F) → (⟨S1x4096, .f32⟩ : BufTy).Contents (Elt F)),
    StableHlo.reshape main_v354 main_v355 rfl shapeCasts_S1x4096_S4096,
    StableHlo.unary main_v355 main_v356 (broadcastInDim S1x4096 ![1] bcast_S4096_S1x4096_1 : (⟨S4096, .f32⟩ : BufTy).Contents (Elt F) → (⟨S1x4096, .f32⟩ : BufTy).Contents (Elt F)),
    StableHlo.unary main_v356 main_v357 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v353 main_v357 main_v358 (addf : (⟨S2048x4096, .f32⟩ : BufTy).Contents (Elt F) → (⟨S2048x4096, .f32⟩ : BufTy).Contents (Elt F) → (⟨S2048x4096, .f32⟩ : BufTy).Contents (Elt F)),
    StableHlo.unary main_v350 main_v359 (Host.exp : (⟨S2048x4096, .f32⟩ : BufTy).Contents (Elt F) → (⟨S2048x4096, .f32⟩ : BufTy).Contents (Elt F)),
    StableHlo.binary main_v318 main_v359 main_v360 (mulf : (⟨S2048x4096, .f32⟩ : BufTy).Contents (Elt F) → (⟨S2048x4096, .f32⟩ : BufTy).Contents (Elt F) → (⟨S2048x4096, .f32⟩ : BufTy).Contents (Elt F)),
    StableHlo.binary main_v360 main_v358 main_v361 (addf : (⟨S2048x4096, .f32⟩ : BufTy).Contents (Elt F) → (⟨S2048x4096, .f32⟩ : BufTy).Contents (Elt F) → (⟨S2048x4096, .f32⟩ : BufTy).Contents (Elt F)),
    StableHlo.nullary main_cst_51 (constant S_ .f32 0x00000000#32),
    StableHlo.unary main_cst_51 main_v362 (broadcastInDim S2048x8192 ![] bcast_S_S2048x8192 : (⟨S_, .f32⟩ : BufTy).Contents (Elt F) → (⟨S2048x8192, .f32⟩ : BufTy).Contents (Elt F)),
    StableHlo.nullary main_c_52 (constantI S_ 32 0#32),
    StableHlo.unary main_c_52 main_v363 (broadcastInDim S4096 ![] bcast_S_S4096 : (⟨S_, .i32⟩ : BufTy).Contents (Elt F) → (⟨S4096, .i32⟩ : BufTy).Contents (Elt F)),
    StableHlo.binary main_v18 main_v363 main_v364 (cmpi .slt : (⟨S4096, .i32⟩ : BufTy).Contents (Elt F) → (⟨S4096, .i32⟩ : BufTy).Contents (Elt F) → (⟨S4096, .i1⟩ : BufTy).Contents (Elt F)) ]

set_option maxRecDepth 8192 in
theorem part6_eq (c : Dev nD) : main_part6 (F := F) c = seq ops6 := by
  simp only [main_part6, fn_leaky_relu.body, fn_where.body, seq, bind_assoc, pure_bind]
  rfl

set_option maxRecDepth 8192 in
theorem ops6_sub : (ops6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., nullary_bufs_sub .., unary_bufs_sub .., binary_bufs_sub ..⟩

/-- No operation of the window leaves a result undetermined. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops6_W : List (Ref sig .tc) := [main_v311, main_c_47, main_v312, main_v313, main_c_48, main_v314, main_v315, main_v316, main_v317, main_v318, main_v319, main_v320, main_v321, main_v322, main_v323, main_v324, main_v325, main_v326, main_v327, main_cst_49, main_call6_cst, main_call6_v0, main_call6_v1, main_call6_v2, main_call6_v3, main_call6_v4, main_v328, main_v329, main_v330, main_v331, main_v332, main_v333, main_v334, main_v335, main_v336, main_cst_50, main_call7_cst, main_call7_v0, main_call7_v1, main_call7_v2, main_call7_v3, main_call7_v4, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_cst_51, main_v362, main_c_52, main_v363, main_v364]

set_option maxRecDepth 8192 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps7.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 421 … 480 of @main's 851, in order, as operations. -/
abbrev ops7 : List (HloOp τ sig (Elt F)) :=
  [ StableHlo.nullary main_c_53 (constantI S_ 32 8192#32),
    StableHlo.unary main_c_53 main_v365 (broadcastInDim S4096 ![] bcast_S_S4096 : (⟨S_, .i32⟩ : BufTy).Contents (Elt F) → (⟨S4096, .i32⟩ : BufTy).Contents (Elt F)),
    StableHlo.binary main_v18 main_v365 main_v366 (addi : (⟨S4096, .i32⟩ : BufTy).Contents (Elt F) → (⟨S4096, .i32⟩ : BufTy).Contents (Elt F) → (⟨S4096, .i32⟩ : BufTy).Contents (Elt F)),
    StableHlo.ternary main_v364 main_v366 main_v18 main_v367 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v367 main_v368 (broadcastInDim S4096x1 ![0] bcast_S4096_S4096x1_0 : (⟨S4096, .i32⟩ : BufTy).Contents (Elt F) → (⟨S4096x1, .i32⟩ : BufTy).Contents (Elt F)),
    StableHlo.ternary main_v362 main_v368 main_v311 main_v369 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_c_54 (constantI S_ 32 0#32),
    StableHlo.unary main_c_54 main_v370 (broadcastInDim S4096 ![] bcast_S_S4096 : (⟨S_, .i32⟩ : BufTy).Contents (Elt F) → (⟨S4096, .i32⟩ : BufTy).Contents (Elt F)),
    StableHlo.binary main_v13 main_v370 main_v371 (cmpi .slt : (⟨S4096, .i32⟩ : BufTy).Contents (Elt F) → (⟨S4096, .i32⟩ : BufTy).Contents (Elt F) → (⟨S4096, .i1⟩ : BufTy).Contents (Elt F)),
    StableHlo.nullary main_c_55 (constantI S_ 32 8192#32),
    StableHlo.unary main_c_55 main_v372 (broadcastInDim S4096 ![] bcast_S_S4096 : (⟨S_, .i32⟩ : BufTy).Contents (Elt F) → (⟨S4096, .i32⟩ : BufTy).Contents (Elt F)),
    StableHlo.binary main_v13 main_v372 main_v373 (addi : (⟨S4096, .i32⟩ : BufTy).Contents (Elt F) → (⟨S4096, .i32⟩ : BufTy).Contents (Elt F) → (⟨S4096, .i32⟩ : BufTy).Contents (Elt F)),
    StableHlo.ternary main_v371 main_v373 main_v13 main_v374 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v374 main_v375 (broadcastInDim S4096x1 ![0] bcast_S4096_S4096x1_0 : (⟨S4096, .i32⟩ : BufTy).Contents (Elt F) → (⟨S4096x1, .i32⟩ : BufTy).Contents (Elt F)),
    StableHlo.ternary main_v369 main_v375 main_v361 main_v376 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_cst_56 (constant S_ .f32 0x00000000#32),
    StableHlo.binary main_v350 main_cst_56 main_v377 ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    StableHlo.binary main_v304 main_v377 main_v378 (addf : (⟨S2048, .f32⟩ : BufTy).Contents (Elt F) → (⟨S2048, .f32⟩ : BufTy).Contents (Elt F) → (⟨S2048, .f32⟩ : BufTy).Contents (Elt F)),
    StableHlo.unary main_arg4 main_v379 ((extractStridedSlice S1x8192 ![4, 0] · slices_S8x8192_S1x8192_4_0) : (⟨S8x8192, .f32⟩ : BufTy).Contents (Elt F) → (⟨S1x8192, .f32⟩ : BufTy).Contents (Elt F)),
    StableHlo.reshape main_v379 main_v380 rfl shapeCasts_S1x8192_S8192,
    StableHlo.unary main_v380 main_v381 (broadcastInDim S1x8192 ![1] bcast_S8192_S1x8192_1 : (⟨S8192, .f32⟩ : BufTy).Contents (Elt F) → (⟨S1x8192, .f32⟩ : BufTy).Contents (Elt F)),
    StableHlo.unary main_v381 main_v382 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v376 main_v382 main_v383 (addf : (⟨S2048x8192, .f32⟩ : BufTy).Contents (Elt F) → (⟨S2048x8192, .f32⟩ : BufTy).Contents (Elt F) → (⟨S2048x8192, .f32⟩ : BufTy).Contents (Elt F)),
    StableHlo.unary main_arg3 main_v384 ((extractStridedSlice S1x8192 ![4, 0] · slices_S8x8192_S1x8192_4_0) : (⟨S8x8192, .f32⟩ : BufTy).Contents (Elt F) → (⟨S1x8192, .f32⟩ : BufTy).Contents (Elt F)),
    StableHlo.reshape main_v384 main_v385 rfl shapeCasts_S1x8192_S8192,
    StableHlo.unary main_v385 main_v386 (Host.exp : (⟨S8192, .f32⟩ : BufTy).Contents (Elt F) → (⟨S8192, .f32⟩ : BufTy).Contents (Elt F)),
    StableHlo.unary main_v386 main_v387 (broadcastInDim S1x8192 ![1] bcast_S8192_S1x8192_1 : (⟨S8192, .f32⟩ : BufTy).Contents (Elt F) → (⟨S1x8192, .f32⟩ : BufTy).Contents (Elt F)),
    StableHlo.unary main_v387 main_v388 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v383 main_v388 main_v389 (mulf : (⟨S2048x8192, .f32⟩ : BufTy).Contents (Elt F) → (⟨S2048x8192, .f32⟩ : BufTy).Contents (Elt F) → (⟨S2048x8192, .f32⟩ : BufTy).Contents (Elt F)),
    StableHlo.unary main_arg3 main_v390 ((extractStridedSlice S1x8192 ![4, 0] · slices_S8x8192_S1x8192_4_0) : (⟨S8x8192, .f32⟩ : BufTy).Contents (Elt F) → (⟨S1x8192, .f32⟩ : BufTy).Contents (Elt F)),
    StableHlo.reshape main_v390 main_v391 rfl shapeCasts_S1x8192_S8192,
    StableHlo.nullary main_cst_57 (constant S_ .f32 0x00000000#32),
    StableHlo.binary main_v391 main_cst_57 main_v392 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v392 main_v393 (broadcastInDim S2048 ![] bcast_S_S2048 : (⟨S_, .f32⟩ : BufTy).Contents (Elt F) → (⟨S2048, .f32⟩ : BufTy).Contents (Elt F)),
    StableHlo.binary main_v378 main_v393 main_v394 (addf : (⟨S2048, .f32⟩ : BufTy).Contents (Elt F) → (⟨S2048, .f32⟩ : BufTy).Contents (Elt F) → (⟨S2048, .f32⟩ : BufTy).Contents (Elt F)),
    StableHlo.nullary main_c_58 (constantI S_ 32 0#32),
    StableHlo.unary main_c_58 main_v395 (broadcastInDim S4096 ![] bcast_S_S4096 : (⟨S_, .i32⟩ : BufTy).Contents (Elt F) → (⟨S4096, .i32⟩ : BufTy).Contents (Elt F)),
    StableHlo.binary main_v13 main_v395 main_v396 (cmpi .slt : (⟨S4096, .i32⟩ : BufTy).Contents (Elt F) → (⟨S4096, .i32⟩ : BufTy).Contents (Elt F) → (⟨S4096, .i1⟩ : BufTy).Contents (Elt F)),
    StableHlo.nullary main_c_59 (constantI S_ 32 8192#32),
    StableHlo.unary main_c_59 main_v397 (broadcastInDim S4096 ![] bcast_S_S4096 : (⟨S_, .i32⟩ : BufTy).Contents (Elt F) → (⟨S4096, .i32⟩ : BufTy).Contents (Elt F)),
    StableHlo.binary main_v13 main_v397 main_v398 (addi : (⟨S4096, .i32⟩ : BufTy).Contents (Elt F) → (⟨S4096, .i32⟩ : BufTy).Contents (Elt F) → (⟨S4096, .i32⟩ : BufTy).Contents (Elt F)),
    StableHlo.ternary main_v396 main_v398 main_v13 main_v399 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v399 main_v400 (broadcastInDim S4096x1 ![0] bcast_S4096_S4096x1_0 : (⟨S4096, .i32⟩ : BufTy).Contents (Elt F) → (⟨S4096x1, .i32⟩ : BufTy).Contents (Elt F)),
    StableHlo.binary main_v389 main_v400 main_v401 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.nullary main_c_60 (constantI S_ 32 0#32),
    StableHlo.unary main_c_60 main_v402 (broadcastInDim S4096 ![] bcast_S_S4096 : (⟨S_, .i32⟩ : BufTy).Contents (Elt F) → (⟨S4096, .i32⟩ : BufTy).Contents (Elt F)),
    StableHlo.binary main_v18 main_v402 main_v403 (cmpi .slt : (⟨S4096, .i32⟩ : BufTy).Contents (Elt F) → (⟨S4096, .i32⟩ : BufTy).Contents (Elt F) → (⟨S4096, .i1⟩ : BufTy).Contents (Elt F)),
    StableHlo.nullary main_c_61 (constantI S_ 32 8192#32),
    StableHlo.unary main_c_61 main_v404 (broadcastInDim S4096 ![] bcast_S_S4096 : (⟨S_, .i32⟩ : BufTy).Contents (Elt F) → (⟨S4096, .i32⟩ : BufTy).Contents (Elt F)),
    StableHlo.binary main_v18 main_v404 main_v405 (addi : (⟨S4096, .i32⟩ : BufTy).Contents (Elt F) → (⟨S4096, .i32⟩ : BufTy).Contents (Elt F) → (⟨S4096, .i32⟩ : BufTy).Contents (Elt F)),
    StableHlo.ternary main_v403 main_v405 main_v18 main_v406 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v406 main_v407 (broadcastInDim S4096x1 ![0] bcast_S4096_S4096x1_0 : (⟨S4096, .i32⟩ : BufTy).Contents (Elt F) → (⟨S4096x1, .i32⟩ : BufTy).Contents (Elt F)),
    StableHlo.binary main_v389 main_v407 main_v408 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.binary main_v401 main_v7 main_v409 ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)),
    StableHlo.unary main_arg5 main_v410 ((extractStridedSlice S1x5120x1024 ![4, 0, 0] · slices_S8x5120x1024_S1x5120x1024_4_0_0) : (⟨S8x5120x1024, .f32⟩ : BufTy).Contents (Elt F) → (⟨S1x5120x1024, .f32⟩ : BufTy).Contents (Elt F)),
    StableHlo.reshape main_v410 main_v411 rfl shapeCasts_S1x5120x1024_S5120x1024,
    StableHlo.binary main_v409 main_v411 main_v412 ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)),
    StableHlo.unary main_arg6 main_v413 ((extractStridedSlice S1x1024 ![4, 0] · slices_S8x1024_S1x1024_4_0) : (⟨S8x1024, .f32⟩ : BufTy).Contents (Elt F) → (⟨S1x1024, .f32⟩ : BufTy).Contents (Elt F)),
    StableHlo.reshape main_v413 main_v414 rfl shapeCasts_S1x1024_S1024,
    StableHlo.unary main_v414 main_v415 (broadcastInDim S1x1024 ![1] bcast_S1024_S1x1024_1 : (⟨S1024, .f32⟩ : BufTy).Contents (Elt F) → (⟨S1x1024, .f32⟩ : BufTy).Contents (Elt F)) ]

set_option maxRecDepth 8192 in
theorem part7_eq (c : Dev nD) : main_part7 (F := F) c = seq ops7 := rfl

set_option maxRecDepth 8192 in
theorem ops7_sub : (ops7 : List (HloOp τ sig (Elt F))).Forall fun op => op.bufs ⊆ tcRefs τ sig :=
  ⟨nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub ..⟩

/-- No operation of the window leaves a result undetermined. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops7_W : List (Ref sig .tc) := [main_c_53, main_v365, main_v366, main_v367, main_v368, main_v369, main_c_54, main_v370, main_v371, main_c_55, main_v372, main_v373, main_v374, main_v375, main_v376, main_cst_56, main_v377, main_v378, main_v379, main_v380, main_v381, main_v382, main_v383, main_v384, main_v385, main_v386, main_v387, main_v388, main_v389, main_v390, main_v391, main_cst_57, main_v392, main_v393, main_v394, main_c_58, main_v395, main_v396, main_c_59, main_v397, main_v398, main_v399, main_v400, main_v401, main_c_60, main_v402, main_v403, main_c_61, main_v404, main_v405, main_v406, main_v407, main_v408, main_v409, main_v410, main_v411, main_v412, main_v413, main_v414, main_v415]

set_option maxRecDepth 8192 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps8.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 481 … 540 of @main's 851, in order, as operations; each of the 2 calls of @leaky_relu is the seven operations of its body (the last the select of the @_where it calls) at the buffers of the call's record. -/
abbrev ops8 : List (HloOp τ sig (Elt F)) :=
  [ StableHlo.unary main_v415 main_v416 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v412 main_v416 main_v417 (addf : (⟨S2048x1024, .f32⟩ : BufTy).Contents (Elt F) → (⟨S2048x1024, .f32⟩ : BufTy).Contents (Elt F) → (⟨S2048x1024, .f32⟩ : BufTy).Contents (Elt F)),
    StableHlo.nullary main_cst_62 (constant S_ .f32 0x3E4CCCCD#32),
    StableHlo.nullary main_call8_cst (constant S_ .f32 0x00000000#32),
    StableHlo.unary main_call8_cst main_call8_v0 (broadcastInDim S2048x1024 ![] bcast_S_S2048x1024 : (⟨S_, .f32⟩ : BufTy).Contents (Elt F) → (⟨S2048x1024, .f32⟩ : BufTy).Contents (Elt F)),
    StableHlo.binary main_v417 main_call8_v0 main_call8_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_62 main_call8_v2 (id : (⟨S_, .f32⟩ : BufTy).Contents (Elt F) → (⟨S_, .f32⟩ : BufTy).Contents (Elt F)),
    StableHlo.unary main_call8_v2 main_call8_v3 (broadcastInDim S2048x1024 ![] bcast_S_S2048x1024 : (⟨S_, .f32⟩ : BufTy).Contents (Elt F) → (⟨S2048x1024, .f32⟩ : BufTy).Contents (Elt F)),
    StableHlo.binary main_call8_v3 main_v417 main_call8_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call8_v1 main_v417 main_call8_v4 main_v418 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg7 main_v419 ((extractStridedSlice S1x1024x1024 ![4, 0, 0] · slices_S8x1024x1024_S1x1024x1024_4_0_0) : (⟨S8x1024x1024, .f32⟩ : BufTy).Contents (Elt F) → (⟨S1x1024x1024, .f32⟩ : BufTy).Contents (Elt F)),
    StableHlo.reshape main_v419 main_v420 rfl shapeCasts_S1x1024x1024_S1024x1024,
    StableHlo.binary main_v418 main_v420 main_v421 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg8 main_v422 ((extractStridedSlice S1x1024 ![4, 0] · slices_S8x1024_S1x1024_4_0) : (⟨S8x1024, .f32⟩ : BufTy).Contents (Elt F) → (⟨S1x1024, .f32⟩ : BufTy).Contents (Elt F)),
    StableHlo.reshape main_v422 main_v423 rfl shapeCasts_S1x1024_S1024,
    StableHlo.unary main_v423 main_v424 (broadcastInDim S1x1024 ![1] bcast_S1024_S1x1024_1 : (⟨S1024, .f32⟩ : BufTy).Contents (Elt F) → (⟨S1x1024, .f32⟩ : BufTy).Contents (Elt F)),
    StableHlo.unary main_v424 main_v425 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v421 main_v425 main_v426 (addf : (⟨S2048x1024, .f32⟩ : BufTy).Contents (Elt F) → (⟨S2048x1024, .f32⟩ : BufTy).Contents (Elt F) → (⟨S2048x1024, .f32⟩ : BufTy).Contents (Elt F)),
    StableHlo.nullary main_cst_63 (constant S_ .f32 0x3E4CCCCD#32),
    StableHlo.nullary main_call9_cst (constant S_ .f32 0x00000000#32),
    StableHlo.unary main_call9_cst main_call9_v0 (broadcastInDim S2048x1024 ![] bcast_S_S2048x1024 : (⟨S_, .f32⟩ : BufTy).Contents (Elt F) → (⟨S2048x1024, .f32⟩ : BufTy).Contents (Elt F)),
    StableHlo.binary main_v426 main_call9_v0 main_call9_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_63 main_call9_v2 (id : (⟨S_, .f32⟩ : BufTy).Contents (Elt F) → (⟨S_, .f32⟩ : BufTy).Contents (Elt F)),
    StableHlo.unary main_call9_v2 main_call9_v3 (broadcastInDim S2048x1024 ![] bcast_S_S2048x1024 : (⟨S_, .f32⟩ : BufTy).Contents (Elt F) → (⟨S2048x1024, .f32⟩ : BufTy).Contents (Elt F)),
    StableHlo.binary main_call9_v3 main_v426 main_call9_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call9_v1 main_v426 main_call9_v4 main_v427 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg9 main_v428 ((extractStridedSlice S1x1024x4096 ![4, 0, 0] · slices_S8x1024x4096_S1x1024x4096_4_0_0) : (⟨S8x1024x4096, .f32⟩ : BufTy).Contents (Elt F) → (⟨S1x1024x4096, .f32⟩ : BufTy).Contents (Elt F)),
    StableHlo.reshape main_v428 main_v429 rfl shapeCasts_S1x1024x4096_S1024x4096,
    StableHlo.binary main_v427 main_v429 main_v430 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg10 main_v431 ((extractStridedSlice S1x4096 ![4, 0] · slices_S8x4096_S1x4096_4_0) : (⟨S8x4096, .f32⟩ : BufTy).Contents (Elt F) → (⟨S1x4096, .f32⟩ : BufTy).Contents (Elt F)),
    StableHlo.reshape main_v431 main_v432 rfl shapeCasts_S1x4096_S4096,
    StableHlo.unary main_v432 main_v433 (broadcastInDim S1x4096 ![1] bcast_S4096_S1x4096_1 : (⟨S4096, .f32⟩ : BufTy).Contents (Elt F) → (⟨S1x4096, .f32⟩ : BufTy).Contents (Elt F)),
    StableHlo.unary main_v433 main_v434 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v430 main_v434 main_v435 (addf : (⟨S2048x4096, .f32⟩ : BufTy).Contents (Elt F) → (⟨S2048x4096, .f32⟩ : BufTy).Contents (Elt F) → (⟨S2048x4096, .f32⟩ : BufTy).Contents (Elt F)),
    StableHlo.unary main_v435 main_v436 (Host.tanh : (⟨S2048x4096, .f32⟩ : BufTy).Contents (Elt F) → (⟨S2048x4096, .f32⟩ : BufTy).Contents (Elt F)),
    StableHlo.unary main_arg13 main_v437 ((extractStridedSlice S1 ![4] · slices_S8_S1_4) : (⟨S8, .f32⟩ : BufTy).Contents (Elt F) → (⟨S1, .f32⟩ : BufTy).Contents (Elt F)),
    StableHlo.reshape main_v437 main_v438 rfl shapeCasts_S1_S_,
    StableHlo.unary main_v438 main_v439 (broadcastInDim S2048x4096 ![] bcast_S_S2048x4096 : (⟨S_, .f32⟩ : BufTy).Contents (Elt F) → (⟨S2048x4096, .f32⟩ : BufTy).Contents (Elt F)),
    StableHlo.binary main_v436 main_v439 main_v440 (mulf : (⟨S2048x4096, .f32⟩ : BufTy).Contents (Elt F) → (⟨S2048x4096, .f32⟩ : BufTy).Contents (Elt F) → (⟨S2048x4096, .f32⟩ : BufTy).Contents (Elt F)),
    StableHlo.unary main_arg11 main_v441 ((extractStridedSlice S1x1024x4096 ![4, 0, 0] · slices_S8x1024x4096_S1x1024x4096_4_0_0) : (⟨S8x1024x4096, .f32⟩ : BufTy).Contents (Elt F) → (⟨S1x1024x4096, .f32⟩ : BufTy).Contents (Elt F)),
    StableHlo.reshape main_v441 main_v442 rfl shapeCasts_S1x1024x4096_S1024x4096,
    StableHlo.binary main_v427 main_v442 main_v443 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg12 main_v444 ((extractStridedSlice S1x4096 ![4, 0] · slices_S8x4096_S1x4096_4_0) : (⟨S8x4096, .f32⟩ : BufTy).Contents (Elt F) → (⟨S1x4096, .f32⟩ : BufTy).Contents (Elt F)),
    StableHlo.reshape main_v444 main_v445 rfl shapeCasts_S1x4096_S4096,
    StableHlo.unary main_v445 main_v446 (broadcastInDim S1x4096 ![1] bcast_S4096_S1x4096_1 : (⟨S4096, .f32⟩ : BufTy).Contents (Elt F) → (⟨S1x4096, .f32⟩ : BufTy).Contents (Elt F)),
    StableHlo.unary main_v446 main_v447 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v443 main_v447 main_v448 (addf : (⟨S2048x4096, .f32⟩ : BufTy).Contents (Elt F) → (⟨S2048x4096, .f32⟩ : BufTy).Contents (Elt F) → (⟨S2048x4096, .f32⟩ : BufTy).Contents (Elt F)),
    StableHlo.unary main_v440 main_v449 (Host.exp : (⟨S2048x4096, .f32⟩ : BufTy).Contents (Elt F) → (⟨S2048x4096, .f32⟩ : BufTy).Contents (Elt F)),
    StableHlo.binary main_v408 main_v449 main_v450 (mulf : (⟨S2048x4096, .f32⟩ : BufTy).Contents (Elt F) → (⟨S2048x4096, .f32⟩ : BufTy).Contents (Elt F) → (⟨S2048x4096, .f32⟩ : BufTy).Contents (Elt F)),
    StableHlo.binary main_v450 main_v448 main_v451 (addf : (⟨S2048x4096, .f32⟩ : BufTy).Contents (Elt F) → (⟨S2048x4096, .f32⟩ : BufTy).Contents (Elt F) → (⟨S2048x4096, .f32⟩ : BufTy).Contents (Elt F)),
    StableHlo.nullary main_cst_64 (constant S_ .f32 0x00000000#32),
    StableHlo.unary main_cst_64 main_v452 (broadcastInDim S2048x8192 ![] bcast_S_S2048x8192 : (⟨S_, .f32⟩ : BufTy).Contents (Elt F) → (⟨S2048x8192, .f32⟩ : BufTy).Contents (Elt F)),
    StableHlo.nullary main_c_65 (constantI S_ 32 0#32),
    StableHlo.unary main_c_65 main_v453 (broadcastInDim S4096 ![] bcast_S_S4096 : (⟨S_, .i32⟩ : BufTy).Contents (Elt F) → (⟨S4096, .i32⟩ : BufTy).Contents (Elt F)),
    StableHlo.binary main_v13 main_v453 main_v454 (cmpi .slt : (⟨S4096, .i32⟩ : BufTy).Contents (Elt F) → (⟨S4096, .i32⟩ : BufTy).Contents (Elt F) → (⟨S4096, .i1⟩ : BufTy).Contents (Elt F)),
    StableHlo.nullary main_c_66 (constantI S_ 32 8192#32),
    StableHlo.unary main_c_66 main_v455 (broadcastInDim S4096 ![] bcast_S_S4096 : (⟨S_, .i32⟩ : BufTy).Contents (Elt F) → (⟨S4096, .i32⟩ : BufTy).Contents (Elt F)),
    StableHlo.binary main_v13 main_v455 main_v456 (addi : (⟨S4096, .i32⟩ : BufTy).Contents (Elt F) → (⟨S4096, .i32⟩ : BufTy).Contents (Elt F) → (⟨S4096, .i32⟩ : BufTy).Contents (Elt F)),
    StableHlo.ternary main_v454 main_v456 main_v13 main_v457 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v457 main_v458 (broadcastInDim S4096x1 ![0] bcast_S4096_S4096x1_0 : (⟨S4096, .i32⟩ : BufTy).Contents (Elt F) → (⟨S4096x1, .i32⟩ : BufTy).Contents (Elt F)),
    StableHlo.ternary main_v452 main_v458 main_v401 main_v459 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_c_67 (constantI S_ 32 0#32),
    StableHlo.unary main_c_67 main_v460 (broadcastInDim S4096 ![] bcast_S_S4096 : (⟨S_, .i32⟩ : BufTy).Contents (Elt F) → (⟨S4096, .i32⟩ : BufTy).Contents (Elt F)),
    StableHlo.binary main_v18 main_v460 main_v461 (cmpi .slt : (⟨S4096, .i32⟩ : BufTy).Contents (Elt F) → (⟨S4096, .i32⟩ : BufTy).Contents (Elt F) → (⟨S4096, .i1⟩ : BufTy).Contents (Elt F)),
    StableHlo.nullary main_c_68 (constantI S_ 32 8192#32),
    StableHlo.unary main_c_68 main_v462 (broadcastInDim S4096 ![] bcast_S_S4096 : (⟨S_, .i32⟩ : BufTy).Contents (Elt F) → (⟨S4096, .i32⟩ : BufTy).Contents (Elt F)),
    StableHlo.binary main_v18 main_v462 main_v463 (addi : (⟨S4096, .i32⟩ : BufTy).Contents (Elt F) → (⟨S4096, .i32⟩ : BufTy).Contents (Elt F) → (⟨S4096, .i32⟩ : BufTy).Contents (Elt F)),
    StableHlo.ternary main_v461 main_v463 main_v18 main_v464 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v464 main_v465 (broadcastInDim S4096x1 ![0] bcast_S4096_S4096x1_0 : (⟨S4096, .i32⟩ : BufTy).Contents (Elt F) → (⟨S4096x1, .i32⟩ : BufTy).Contents (Elt F)),
    StableHlo.ternary main_v459 main_v465 main_v451 main_v466 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_cst_69 (constant S_ .f32 0x00000000#32),
    StableHlo.binary main_v440 main_cst_69 main_v467 ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)) ]

set_option maxRecDepth 8192 in
theorem part8_eq (c : Dev nD) : main_part8 (F := F) c = seq ops8 := by
  simp only [main_part8, fn_leaky_relu.body, fn_where.body, seq, bind_assoc, pure_bind]
  rfl

set_option maxRecDepth 8192 in
theorem ops8_sub : (ops8 : List (HloOp τ sig (Elt F))).Forall fun op => op.bufs ⊆ tcRefs τ sig :=
  ⟨unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub ..⟩

/-- No operation of the window leaves a result undetermined. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops8_W : List (Ref sig .tc) := [main_v416, main_v417, main_cst_62, main_call8_cst, main_call8_v0, main_call8_v1, main_call8_v2, main_call8_v3, main_call8_v4, main_v418, main_v419, main_v420, main_v421, main_v422, main_v423, main_v424, main_v425, main_v426, main_cst_63, main_call9_cst, main_call9_v0, main_call9_v1, main_call9_v2, main_call9_v3, main_call9_v4, main_v427, main_v428, main_v429, main_v430, main_v431, main_v432, main_v433, main_v434, main_v435, main_v436, main_v437, main_v438, main_v439, main_v440, main_v441, main_v442, main_v443, main_v444, main_v445, main_v446, main_v447, main_v448, main_v449, main_v450, main_v451, main_cst_64, main_v452, main_c_65, main_v453, main_v454, main_c_66, main_v455, main_v456, main_v457, main_v458, main_v459, main_c_67, main_v460, main_v461, main_c_68, main_v462, main_v463, main_v464, main_v465, main_v466, main_cst_69, main_v467]

set_option maxRecDepth 8192 in
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps9.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 541 … 600 of @main's 851, in order, as operations; each of the 2 calls of @leaky_relu is the seven operations of its body (the last the select of the @_where it calls) at the buffers of the call's record. -/
abbrev ops9 : List (HloOp τ sig (Elt F)) :=
  [ StableHlo.binary main_v394 main_v467 main_v468 (addf : (⟨S2048, .f32⟩ : BufTy).Contents (Elt F) → (⟨S2048, .f32⟩ : BufTy).Contents (Elt F) → (⟨S2048, .f32⟩ : BufTy).Contents (Elt F)),
    StableHlo.unary main_arg4 main_v469 ((extractStridedSlice S1x8192 ![5, 0] · slices_S8x8192_S1x8192_5_0) : (⟨S8x8192, .f32⟩ : BufTy).Contents (Elt F) → (⟨S1x8192, .f32⟩ : BufTy).Contents (Elt F)),
    StableHlo.reshape main_v469 main_v470 rfl shapeCasts_S1x8192_S8192,
    StableHlo.unary main_v470 main_v471 (broadcastInDim S1x8192 ![1] bcast_S8192_S1x8192_1 : (⟨S8192, .f32⟩ : BufTy).Contents (Elt F) → (⟨S1x8192, .f32⟩ : BufTy).Contents (Elt F)),
    StableHlo.unary main_v471 main_v472 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v466 main_v472 main_v473 (addf : (⟨S2048x8192, .f32⟩ : BufTy).Contents (Elt F) → (⟨S2048x8192, .f32⟩ : BufTy).Contents (Elt F) → (⟨S2048x8192, .f32⟩ : BufTy).Contents (Elt F)),
    StableHlo.unary main_arg3 main_v474 ((extractStridedSlice S1x8192 ![5, 0] · slices_S8x8192_S1x8192_5_0) : (⟨S8x8192, .f32⟩ : BufTy).Contents (Elt F) → (⟨S1x8192, .f32⟩ : BufTy).Contents (Elt F)),
    StableHlo.reshape main_v474 main_v475 rfl shapeCasts_S1x8192_S8192,
    StableHlo.unary main_v475 main_v476 (Host.exp : (⟨S8192, .f32⟩ : BufTy).Contents (Elt F) → (⟨S8192, .f32⟩ : BufTy).Contents (Elt F)),
    StableHlo.unary main_v476 main_v477 (broadcastInDim S1x8192 ![1] bcast_S8192_S1x8192_1 : (⟨S8192, .f32⟩ : BufTy).Contents (Elt F) → (⟨S1x8192, .f32⟩ : BufTy).Contents (Elt F)),
    StableHlo.unary main_v477 main_v478 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v473 main_v478 main_v479 (mulf : (⟨S2048x8192, .f32⟩ : BufTy).Contents (Elt F) → (⟨S2048x8192, .f32⟩ : BufTy).Contents (Elt F) → (⟨S2048x8192, .f32⟩ : BufTy).Contents (Elt F)),
    StableHlo.unary main_arg3 main_v480 ((extractStridedSlice S1x8192 ![5, 0] · slices_S8x8192_S1x8192_5_0) : (⟨S8x8192, .f32⟩ : BufTy).Contents (Elt F) → (⟨S1x8192, .f32⟩ : BufTy).Contents (Elt F)),
    StableHlo.reshape main_v480 main_v481 rfl shapeCasts_S1x8192_S8192,
    StableHlo.nullary main_cst_70 (constant S_ .f32 0x00000000#32),
    StableHlo.binary main_v481 main_cst_70 main_v482 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v482 main_v483 (broadcastInDim S2048 ![] bcast_S_S2048 : (⟨S_, .f32⟩ : BufTy).Contents (Elt F) → (⟨S2048, .f32⟩ : BufTy).Contents (Elt F)),
    StableHlo.binary main_v468 main_v483 main_v484 (addf : (⟨S2048, .f32⟩ : BufTy).Contents (Elt F) → (⟨S2048, .f32⟩ : BufTy).Contents (Elt F) → (⟨S2048, .f32⟩ : BufTy).Contents (Elt F)),
    StableHlo.nullary main_c_71 (constantI S_ 32 0#32),
    StableHlo.unary main_c_71 main_v485 (broadcastInDim S4096 ![] bcast_S_S4096 : (⟨S_, .i32⟩ : BufTy).Contents (Elt F) → (⟨S4096, .i32⟩ : BufTy).Contents (Elt F)),
    StableHlo.binary main_v18 main_v485 main_v486 (cmpi .slt : (⟨S4096, .i32⟩ : BufTy).Contents (Elt F) → (⟨S4096, .i32⟩ : BufTy).Contents (Elt F) → (⟨S4096, .i1⟩ : BufTy).Contents (Elt F)),
    StableHlo.nullary main_c_72 (constantI S_ 32 8192#32),
    StableHlo.unary main_c_72 main_v487 (broadcastInDim S4096 ![] bcast_S_S4096 : (⟨S_, .i32⟩ : BufTy).Contents (Elt F) → (⟨S4096, .i32⟩ : BufTy).Contents (Elt F)),
    StableHlo.binary main_v18 main_v487 main_v488 (addi : (⟨S4096, .i32⟩ : BufTy).Contents (Elt F) → (⟨S4096, .i32⟩ : BufTy).Contents (Elt F) → (⟨S4096, .i32⟩ : BufTy).Contents (Elt F)),
    StableHlo.ternary main_v486 main_v488 main_v18 main_v489 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v489 main_v490 (broadcastInDim S4096x1 ![0] bcast_S4096_S4096x1_0 : (⟨S4096, .i32⟩ : BufTy).Contents (Elt F) → (⟨S4096x1, .i32⟩ : BufTy).Contents (Elt F)),
    StableHlo.binary main_v479 main_v490 main_v491 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.nullary main_c_73 (constantI S_ 32 0#32),
    StableHlo.unary main_c_73 main_v492 (broadcastInDim S4096 ![] bcast_S_S4096 : (⟨S_, .i32⟩ : BufTy).Contents (Elt F) → (⟨S4096, .i32⟩ : BufTy).Contents (Elt F)),
    StableHlo.binary main_v13 main_v492 main_v493 (cmpi .slt : (⟨S4096, .i32⟩ : BufTy).Contents (Elt F) → (⟨S4096, .i32⟩ : BufTy).Contents (Elt F) → (⟨S4096, .i1⟩ : BufTy).Contents (Elt F)),
    StableHlo.nullary main_c_74 (constantI S_ 32 8192#32),
    StableHlo.unary main_c_74 main_v494 (broadcastInDim S4096 ![] bcast_S_S4096 : (⟨S_, .i32⟩ : BufTy).Contents (Elt F) → (⟨S4096, .i32⟩ : BufTy).Contents (Elt F)),
    StableHlo.binary main_v13 main_v494 main_v495 (addi : (⟨S4096, .i32⟩ : BufTy).Contents (Elt F) → (⟨S4096, .i32⟩ : BufTy).Contents (Elt F) → (⟨S4096, .i32⟩ : BufTy).Contents (Elt F)),
    StableHlo.ternary main_v493 main_v495 main_v13 main_v496 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v496 main_v497 (broadcastInDim S4096x1 ![0] bcast_S4096_S4096x1_0 : (⟨S4096, .i32⟩ : BufTy).Contents (Elt F) → (⟨S4096x1, .i32⟩ : BufTy).Contents (Elt F)),
    StableHlo.binary main_v479 main_v497 main_v498 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.binary main_v491 main_v7 main_v499 ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)),
    StableHlo.unary main_arg5 main_v500 ((extractStridedSlice S1x5120x1024 ![5, 0, 0] · slices_S8x5120x1024_S1x5120x1024_5_0_0) : (⟨S8x5120x1024, .f32⟩ : BufTy).Contents (Elt F) → (⟨S1x5120x1024, .f32⟩ : BufTy).Contents (Elt F)),
    StableHlo.reshape main_v500 main_v501 rfl shapeCasts_S1x5120x1024_S5120x1024,
    StableHlo.binary main_v499 main_v501 main_v502 ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)),
    StableHlo.unary main_arg6 main_v503 ((extractStridedSlice S1x1024 ![5, 0] · slices_S8x1024_S1x1024_5_0) : (⟨S8x1024, .f32⟩ : BufTy).Contents (Elt F) → (⟨S1x1024, .f32⟩ : BufTy).Contents (Elt F)),
    StableHlo.reshape main_v503 main_v504 rfl shapeCasts_S1x1024_S1024,
    StableHlo.unary main_v504 main_v505 (broadcastInDim S1x1024 ![1] bcast_S1024_S1x1024_1 : (⟨S1024, .f32⟩ : BufTy).Contents (Elt F) → (⟨S1x1024, .f32⟩ : BufTy).Contents (Elt F)),
    StableHlo.unary main_v505 main_v506 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v502 main_v506 main_v507 (addf : (⟨S2048x1024, .f32⟩ : BufTy).Contents (Elt F) → (⟨S2048x1024, .f32⟩ : BufTy).Contents (Elt F) → (⟨S2048x1024, .f32⟩ : BufTy).Contents (Elt F)),
    StableHlo.nullary main_cst_75 (constant S_ .f32 0x3E4CCCCD#32),
    StableHlo.nullary main_call10_cst (constant S_ .f32 0x00000000#32),
    StableHlo.unary main_call10_cst main_call10_v0 (broadcastInDim S2048x1024 ![] bcast_S_S2048x1024 : (⟨S_, .f32⟩ : BufTy).Contents (Elt F) → (⟨S2048x1024, .f32⟩ : BufTy).Contents (Elt F)),
    StableHlo.binary main_v507 main_call10_v0 main_call10_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_75 main_call10_v2 (id : (⟨S_, .f32⟩ : BufTy).Contents (Elt F) → (⟨S_, .f32⟩ : BufTy).Contents (Elt F)),
    StableHlo.unary main_call10_v2 main_call10_v3 (broadcastInDim S2048x1024 ![] bcast_S_S2048x1024 : (⟨S_, .f32⟩ : BufTy).Contents (Elt F) → (⟨S2048x1024, .f32⟩ : BufTy).Contents (Elt F)),
    StableHlo.binary main_call10_v3 main_v507 main_call10_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call10_v1 main_v507 main_call10_v4 main_v508 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg7 main_v509 ((extractStridedSlice S1x1024x1024 ![5, 0, 0] · slices_S8x1024x1024_S1x1024x1024_5_0_0) : (⟨S8x1024x1024, .f32⟩ : BufTy).Contents (Elt F) → (⟨S1x1024x1024, .f32⟩ : BufTy).Contents (Elt F)),
    StableHlo.reshape main_v509 main_v510 rfl shapeCasts_S1x1024x1024_S1024x1024,
    StableHlo.binary main_v508 main_v510 main_v511 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg8 main_v512 ((extractStridedSlice S1x1024 ![5, 0] · slices_S8x1024_S1x1024_5_0) : (⟨S8x1024, .f32⟩ : BufTy).Contents (Elt F) → (⟨S1x1024, .f32⟩ : BufTy).Contents (Elt F)),
    StableHlo.reshape main_v512 main_v513 rfl shapeCasts_S1x1024_S1024,
    StableHlo.unary main_v513 main_v514 (broadcastInDim S1x1024 ![1] bcast_S1024_S1x1024_1 : (⟨S1024, .f32⟩ : BufTy).Contents (Elt F) → (⟨S1x1024, .f32⟩ : BufTy).Contents (Elt F)),
    StableHlo.unary main_v514 main_v515 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v511 main_v515 main_v516 (addf : (⟨S2048x1024, .f32⟩ : BufTy).Contents (Elt F) → (⟨S2048x1024, .f32⟩ : BufTy).Contents (Elt F) → (⟨S2048x1024, .f32⟩ : BufTy).Contents (Elt F)),
    StableHlo.nullary main_cst_76 (constant S_ .f32 0x3E4CCCCD#32),
    StableHlo.nullary main_call11_cst (constant S_ .f32 0x00000000#32),
    StableHlo.unary main_call11_cst main_call11_v0 (broadcastInDim S2048x1024 ![] bcast_S_S2048x1024 : (⟨S_, .f32⟩ : BufTy).Contents (Elt F) → (⟨S2048x1024, .f32⟩ : BufTy).Contents (Elt F)),
    StableHlo.binary main_v516 main_call11_v0 main_call11_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_76 main_call11_v2 (id : (⟨S_, .f32⟩ : BufTy).Contents (Elt F) → (⟨S_, .f32⟩ : BufTy).Contents (Elt F)),
    StableHlo.unary main_call11_v2 main_call11_v3 (broadcastInDim S2048x1024 ![] bcast_S_S2048x1024 : (⟨S_, .f32⟩ : BufTy).Contents (Elt F) → (⟨S2048x1024, .f32⟩ : BufTy).Contents (Elt F)),
    StableHlo.binary main_call11_v3 main_v516 main_call11_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call11_v1 main_v516 main_call11_v4 main_v517 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg9 main_v518 ((extractStridedSlice S1x1024x4096 ![5, 0, 0] · slices_S8x1024x4096_S1x1024x4096_5_0_0) : (⟨S8x1024x4096, .f32⟩ : BufTy).Contents (Elt F) → (⟨S1x1024x4096, .f32⟩ : BufTy).Contents (Elt F)),
    StableHlo.reshape main_v518 main_v519 rfl shapeCasts_S1x1024x4096_S1024x4096,
    StableHlo.binary main_v517 main_v519 main_v520 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) ]

set_option maxRecDepth 8192 in
theorem part9_eq (c : Dev nD) : main_part9 (F := F) c = seq ops9 := by
  simp only [main_part9, fn_leaky_relu.body, fn_where.body, seq, bind_assoc, pure_bind]
  rfl

set_option maxRecDepth 8192 in
theorem ops9_sub : (ops9 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub ..⟩

/-- No operation of the window leaves a result undetermined. -/
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops9_W : List (Ref sig .tc) := [main_v468, main_v469, main_v470, main_v471, main_v472, main_v473, main_v474, main_v475, main_v476, main_v477, main_v478, main_v479, main_v480, main_v481, main_cst_70, main_v482, main_v483, main_v484, main_c_71, main_v485, main_v486, main_c_72, main_v487, main_v488, main_v489, main_v490, main_v491, main_c_73, main_v492, main_v493, main_c_74, main_v494, main_v495, main_v496, main_v497, main_v498, main_v499, main_v500, main_v501, main_v502, main_v503, main_v504, main_v505, main_v506, main_v507, main_cst_75, main_call10_cst, main_call10_v0, main_call10_v1, main_call10_v2, main_call10_v3, main_call10_v4, main_v508, main_v509, main_v510, main_v511, main_v512, main_v513, main_v514, main_v515, main_v516, main_cst_76, main_call11_cst, main_call11_v0, main_call11_v1, main_call11_v2, main_call11_v3, main_call11_v4, main_v517, main_v518, main_v519, main_v520]

set_option maxRecDepth 8192 in
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps10.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 601 … 660 of @main's 851, in order, as operations. -/
abbrev ops10 : List (HloOp τ sig (Elt F)) :=
  [ StableHlo.unary main_arg10 main_v521 ((extractStridedSlice S1x4096 ![5, 0] · slices_S8x4096_S1x4096_5_0) : (⟨S8x4096, .f32⟩ : BufTy).Contents (Elt F) → (⟨S1x4096, .f32⟩ : BufTy).Contents (Elt F)),
    StableHlo.reshape main_v521 main_v522 rfl shapeCasts_S1x4096_S4096,
    StableHlo.unary main_v522 main_v523 (broadcastInDim S1x4096 ![1] bcast_S4096_S1x4096_1 : (⟨S4096, .f32⟩ : BufTy).Contents (Elt F) → (⟨S1x4096, .f32⟩ : BufTy).Contents (Elt F)),
    StableHlo.unary main_v523 main_v524 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v520 main_v524 main_v525 (addf : (⟨S2048x4096, .f32⟩ : BufTy).Contents (Elt F) → (⟨S2048x4096, .f32⟩ : BufTy).Contents (Elt F) → (⟨S2048x4096, .f32⟩ : BufTy).Contents (Elt F)),
    StableHlo.unary main_v525 main_v526 (Host.tanh : (⟨S2048x4096, .f32⟩ : BufTy).Contents (Elt F) → (⟨S2048x4096, .f32⟩ : BufTy).Contents (Elt F)),
    StableHlo.unary main_arg13 main_v527 ((extractStridedSlice S1 ![5] · slices_S8_S1_5) : (⟨S8, .f32⟩ : BufTy).Contents (Elt F) → (⟨S1, .f32⟩ : BufTy).Contents (Elt F)),
    StableHlo.reshape main_v527 main_v528 rfl shapeCasts_S1_S_,
    StableHlo.unary main_v528 main_v529 (broadcastInDim S2048x4096 ![] bcast_S_S2048x4096 : (⟨S_, .f32⟩ : BufTy).Contents (Elt F) → (⟨S2048x4096, .f32⟩ : BufTy).Contents (Elt F)),
    StableHlo.binary main_v526 main_v529 main_v530 (mulf : (⟨S2048x4096, .f32⟩ : BufTy).Contents (Elt F) → (⟨S2048x4096, .f32⟩ : BufTy).Contents (Elt F) → (⟨S2048x4096, .f32⟩ : BufTy).Contents (Elt F)),
    StableHlo.unary main_arg11 main_v531 ((extractStridedSlice S1x1024x4096 ![5, 0, 0] · slices_S8x1024x4096_S1x1024x4096_5_0_0) : (⟨S8x1024x4096, .f32⟩ : BufTy).Contents (Elt F) → (⟨S1x1024x4096, .f32⟩ : BufTy).Contents (Elt F)),
    StableHlo.reshape main_v531 main_v532 rfl shapeCasts_S1x1024x4096_S1024x4096,
    StableHlo.binary main_v517 main_v532 main_v533 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg12 main_v534 ((extractStridedSlice S1x4096 ![5, 0] · slices_S8x4096_S1x4096_5_0) : (⟨S8x4096, .f32⟩ : BufTy).Contents (Elt F) → (⟨S1x4096, .f32⟩ : BufTy).Contents (Elt F)),
    StableHlo.reshape main_v534 main_v535 rfl shapeCasts_S1x4096_S4096,
    StableHlo.unary main_v535 main_v536 (broadcastInDim S1x4096 ![1] bcast_S4096_S1x4096_1 : (⟨S4096, .f32⟩ : BufTy).Contents (Elt F) → (⟨S1x4096, .f32⟩ : BufTy).Contents (Elt F)),
    StableHlo.unary main_v536 main_v537 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v533 main_v537 main_v538 (addf : (⟨S2048x4096, .f32⟩ : BufTy).Contents (Elt F) → (⟨S2048x4096, .f32⟩ : BufTy).Contents (Elt F) → (⟨S2048x4096, .f32⟩ : BufTy).Contents (Elt F)),
    StableHlo.unary main_v530 main_v539 (Host.exp : (⟨S2048x4096, .f32⟩ : BufTy).Contents (Elt F) → (⟨S2048x4096, .f32⟩ : BufTy).Contents (Elt F)),
    StableHlo.binary main_v498 main_v539 main_v540 (mulf : (⟨S2048x4096, .f32⟩ : BufTy).Contents (Elt F) → (⟨S2048x4096, .f32⟩ : BufTy).Contents (Elt F) → (⟨S2048x4096, .f32⟩ : BufTy).Contents (Elt F)),
    StableHlo.binary main_v540 main_v538 main_v541 (addf : (⟨S2048x4096, .f32⟩ : BufTy).Contents (Elt F) → (⟨S2048x4096, .f32⟩ : BufTy).Contents (Elt F) → (⟨S2048x4096, .f32⟩ : BufTy).Contents (Elt F)),
    StableHlo.nullary main_cst_77 (constant S_ .f32 0x00000000#32),
    StableHlo.unary main_cst_77 main_v542 (broadcastInDim S2048x8192 ![] bcast_S_S2048x8192 : (⟨S_, .f32⟩ : BufTy).Contents (Elt F) → (⟨S2048x8192, .f32⟩ : BufTy).Contents (Elt F)),
    StableHlo.nullary main_c_78 (constantI S_ 32 0#32),
    StableHlo.unary main_c_78 main_v543 (broadcastInDim S4096 ![] bcast_S_S4096 : (⟨S_, .i32⟩ : BufTy).Contents (Elt F) → (⟨S4096, .i32⟩ : BufTy).Contents (Elt F)),
    StableHlo.binary main_v18 main_v543 main_v544 (cmpi .slt : (⟨S4096, .i32⟩ : BufTy).Contents (Elt F) → (⟨S4096, .i32⟩ : BufTy).Contents (Elt F) → (⟨S4096, .i1⟩ : BufTy).Contents (Elt F)),
    StableHlo.nullary main_c_79 (constantI S_ 32 8192#32),
    StableHlo.unary main_c_79 main_v545 (broadcastInDim S4096 ![] bcast_S_S4096 : (⟨S_, .i32⟩ : BufTy).Contents (Elt F) → (⟨S4096, .i32⟩ : BufTy).Contents (Elt F)),
    StableHlo.binary main_v18 main_v545 main_v546 (addi : (⟨S4096, .i32⟩ : BufTy).Contents (Elt F) → (⟨S4096, .i32⟩ : BufTy).Contents (Elt F) → (⟨S4096, .i32⟩ : BufTy).Contents (Elt F)),
    StableHlo.ternary main_v544 main_v546 main_v18 main_v547 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v547 main_v548 (broadcastInDim S4096x1 ![0] bcast_S4096_S4096x1_0 : (⟨S4096, .i32⟩ : BufTy).Contents (Elt F) → (⟨S4096x1, .i32⟩ : BufTy).Contents (Elt F)),
    StableHlo.ternary main_v542 main_v548 main_v491 main_v549 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_c_80 (constantI S_ 32 0#32),
    StableHlo.unary main_c_80 main_v550 (broadcastInDim S4096 ![] bcast_S_S4096 : (⟨S_, .i32⟩ : BufTy).Contents (Elt F) → (⟨S4096, .i32⟩ : BufTy).Contents (Elt F)),
    StableHlo.binary main_v13 main_v550 main_v551 (cmpi .slt : (⟨S4096, .i32⟩ : BufTy).Contents (Elt F) → (⟨S4096, .i32⟩ : BufTy).Contents (Elt F) → (⟨S4096, .i1⟩ : BufTy).Contents (Elt F)),
    StableHlo.nullary main_c_81 (constantI S_ 32 8192#32),
    StableHlo.unary main_c_81 main_v552 (broadcastInDim S4096 ![] bcast_S_S4096 : (⟨S_, .i32⟩ : BufTy).Contents (Elt F) → (⟨S4096, .i32⟩ : BufTy).Contents (Elt F)),
    StableHlo.binary main_v13 main_v552 main_v553 (addi : (⟨S4096, .i32⟩ : BufTy).Contents (Elt F) → (⟨S4096, .i32⟩ : BufTy).Contents (Elt F) → (⟨S4096, .i32⟩ : BufTy).Contents (Elt F)),
    StableHlo.ternary main_v551 main_v553 main_v13 main_v554 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v554 main_v555 (broadcastInDim S4096x1 ![0] bcast_S4096_S4096x1_0 : (⟨S4096, .i32⟩ : BufTy).Contents (Elt F) → (⟨S4096x1, .i32⟩ : BufTy).Contents (Elt F)),
    StableHlo.ternary main_v549 main_v555 main_v541 main_v556 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_cst_82 (constant S_ .f32 0x00000000#32),
    StableHlo.binary main_v530 main_cst_82 main_v557 ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    StableHlo.binary main_v484 main_v557 main_v558 (addf : (⟨S2048, .f32⟩ : BufTy).Contents (Elt F) → (⟨S2048, .f32⟩ : BufTy).Contents (Elt F) → (⟨S2048, .f32⟩ : BufTy).Contents (Elt F)),
    StableHlo.unary main_arg4 main_v559 ((extractStridedSlice S1x8192 ![6, 0] · slices_S8x8192_S1x8192_6_0) : (⟨S8x8192, .f32⟩ : BufTy).Contents (Elt F) → (⟨S1x8192, .f32⟩ : BufTy).Contents (Elt F)),
    StableHlo.reshape main_v559 main_v560 rfl shapeCasts_S1x8192_S8192,
    StableHlo.unary main_v560 main_v561 (broadcastInDim S1x8192 ![1] bcast_S8192_S1x8192_1 : (⟨S8192, .f32⟩ : BufTy).Contents (Elt F) → (⟨S1x8192, .f32⟩ : BufTy).Contents (Elt F)),
    StableHlo.unary main_v561 main_v562 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v556 main_v562 main_v563 (addf : (⟨S2048x8192, .f32⟩ : BufTy).Contents (Elt F) → (⟨S2048x8192, .f32⟩ : BufTy).Contents (Elt F) → (⟨S2048x8192, .f32⟩ : BufTy).Contents (Elt F)),
    StableHlo.unary main_arg3 main_v564 ((extractStridedSlice S1x8192 ![6, 0] · slices_S8x8192_S1x8192_6_0) : (⟨S8x8192, .f32⟩ : BufTy).Contents (Elt F) → (⟨S1x8192, .f32⟩ : BufTy).Contents (Elt F)),
    StableHlo.reshape main_v564 main_v565 rfl shapeCasts_S1x8192_S8192,
    StableHlo.unary main_v565 main_v566 (Host.exp : (⟨S8192, .f32⟩ : BufTy).Contents (Elt F) → (⟨S8192, .f32⟩ : BufTy).Contents (Elt F)),
    StableHlo.unary main_v566 main_v567 (broadcastInDim S1x8192 ![1] bcast_S8192_S1x8192_1 : (⟨S8192, .f32⟩ : BufTy).Contents (Elt F) → (⟨S1x8192, .f32⟩ : BufTy).Contents (Elt F)),
    StableHlo.unary main_v567 main_v568 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v563 main_v568 main_v569 (mulf : (⟨S2048x8192, .f32⟩ : BufTy).Contents (Elt F) → (⟨S2048x8192, .f32⟩ : BufTy).Contents (Elt F) → (⟨S2048x8192, .f32⟩ : BufTy).Contents (Elt F)),
    StableHlo.unary main_arg3 main_v570 ((extractStridedSlice S1x8192 ![6, 0] · slices_S8x8192_S1x8192_6_0) : (⟨S8x8192, .f32⟩ : BufTy).Contents (Elt F) → (⟨S1x8192, .f32⟩ : BufTy).Contents (Elt F)),
    StableHlo.reshape main_v570 main_v571 rfl shapeCasts_S1x8192_S8192,
    StableHlo.nullary main_cst_83 (constant S_ .f32 0x00000000#32),
    StableHlo.binary main_v571 main_cst_83 main_v572 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v572 main_v573 (broadcastInDim S2048 ![] bcast_S_S2048 : (⟨S_, .f32⟩ : BufTy).Contents (Elt F) → (⟨S2048, .f32⟩ : BufTy).Contents (Elt F)) ]

set_option maxRecDepth 8192 in
theorem part10_eq (c : Dev nD) : main_part10 (F := F) c = seq ops10 := rfl

set_option maxRecDepth 8192 in
theorem ops10_sub : (ops10 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., nullary_bufs_sub .., binary_bufs_sub .., unary_bufs_sub ..⟩

/-- No operation of the window leaves a result undetermined. -/
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops10_W : List (Ref sig .tc) := [main_v521, main_v522, main_v523, main_v524, main_v525, main_v526, main_v527, main_v528, main_v529, main_v530, main_v531, main_v532, main_v533, main_v534, main_v535, main_v536, main_v537, main_v538, main_v539, main_v540, main_v541, main_cst_77, main_v542, main_c_78, main_v543, main_v544, main_c_79, main_v545, main_v546, main_v547, main_v548, main_v549, main_c_80, main_v550, main_v551, main_c_81, main_v552, main_v553, main_v554, main_v555, main_v556, main_cst_82, main_v557, main_v558, main_v559, main_v560, main_v561, main_v562, main_v563, main_v564, main_v565, main_v566, main_v567, main_v568, main_v569, main_v570, main_v571, main_cst_83, main_v572, main_v573]

set_option maxRecDepth 8192 in
theorem ops10_writes : (ops10 : List (HloOp τ sig (Elt F))).Forall fun op => op.writes ⊆ (ops10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps11.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 661 … 720 of @main's 851, in order, as operations; each of the 2 calls of @leaky_relu is the seven operations of its body (the last the select of the @_where it calls) at the buffers of the call's record. -/
abbrev ops11 : List (HloOp τ sig (Elt F)) :=
  [ StableHlo.binary main_v558 main_v573 main_v574 (addf : (⟨S2048, .f32⟩ : BufTy).Contents (Elt F) → (⟨S2048, .f32⟩ : BufTy).Contents (Elt F) → (⟨S2048, .f32⟩ : BufTy).Contents (Elt F)),
    StableHlo.nullary main_c_84 (constantI S_ 32 0#32),
    StableHlo.unary main_c_84 main_v575 (broadcastInDim S4096 ![] bcast_S_S4096 : (⟨S_, .i32⟩ : BufTy).Contents (Elt F) → (⟨S4096, .i32⟩ : BufTy).Contents (Elt F)),
    StableHlo.binary main_v13 main_v575 main_v576 (cmpi .slt : (⟨S4096, .i32⟩ : BufTy).Contents (Elt F) → (⟨S4096, .i32⟩ : BufTy).Contents (Elt F) → (⟨S4096, .i1⟩ : BufTy).Contents (Elt F)),
    StableHlo.nullary main_c_85 (constantI S_ 32 8192#32),
    StableHlo.unary main_c_85 main_v577 (broadcastInDim S4096 ![] bcast_S_S4096 : (⟨S_, .i32⟩ : BufTy).Contents (Elt F) → (⟨S4096, .i32⟩ : BufTy).Contents (Elt F)),
    StableHlo.binary main_v13 main_v577 main_v578 (addi : (⟨S4096, .i32⟩ : BufTy).Contents (Elt F) → (⟨S4096, .i32⟩ : BufTy).Contents (Elt F) → (⟨S4096, .i32⟩ : BufTy).Contents (Elt F)),
    StableHlo.ternary main_v576 main_v578 main_v13 main_v579 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v579 main_v580 (broadcastInDim S4096x1 ![0] bcast_S4096_S4096x1_0 : (⟨S4096, .i32⟩ : BufTy).Contents (Elt F) → (⟨S4096x1, .i32⟩ : BufTy).Contents (Elt F)),
    StableHlo.binary main_v569 main_v580 main_v581 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.nullary main_c_86 (constantI S_ 32 0#32),
    StableHlo.unary main_c_86 main_v582 (broadcastInDim S4096 ![] bcast_S_S4096 : (⟨S_, .i32⟩ : BufTy).Contents (Elt F) → (⟨S4096, .i32⟩ : BufTy).Contents (Elt F)),
    StableHlo.binary main_v18 main_v582 main_v583 (cmpi .slt : (⟨S4096, .i32⟩ : BufTy).Contents (Elt F) → (⟨S4096, .i32⟩ : BufTy).Contents (Elt F) → (⟨S4096, .i1⟩ : BufTy).Contents (Elt F)),
    StableHlo.nullary main_c_87 (constantI S_ 32 8192#32),
    StableHlo.unary main_c_87 main_v584 (broadcastInDim S4096 ![] bcast_S_S4096 : (⟨S_, .i32⟩ : BufTy).Contents (Elt F) → (⟨S4096, .i32⟩ : BufTy).Contents (Elt F)),
    StableHlo.binary main_v18 main_v584 main_v585 (addi : (⟨S4096, .i32⟩ : BufTy).Contents (Elt F) → (⟨S4096, .i32⟩ : BufTy).Contents (Elt F) → (⟨S4096, .i32⟩ : BufTy).Contents (Elt F)),
    StableHlo.ternary main_v583 main_v585 main_v18 main_v586 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v586 main_v587 (broadcastInDim S4096x1 ![0] bcast_S4096_S4096x1_0 : (⟨S4096, .i32⟩ : BufTy).Contents (Elt F) → (⟨S4096x1, .i32⟩ : BufTy).Contents (Elt F)),
    StableHlo.binary main_v569 main_v587 main_v588 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.binary main_v581 main_v7 main_v589 ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)),
    StableHlo.unary main_arg5 main_v590 ((extractStridedSlice S1x5120x1024 ![6, 0, 0] · slices_S8x5120x1024_S1x5120x1024_6_0_0) : (⟨S8x5120x1024, .f32⟩ : BufTy).Contents (Elt F) → (⟨S1x5120x1024, .f32⟩ : BufTy).Contents (Elt F)),
    StableHlo.reshape main_v590 main_v591 rfl shapeCasts_S1x5120x1024_S5120x1024,
    StableHlo.binary main_v589 main_v591 main_v592 ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)),
    StableHlo.unary main_arg6 main_v593 ((extractStridedSlice S1x1024 ![6, 0] · slices_S8x1024_S1x1024_6_0) : (⟨S8x1024, .f32⟩ : BufTy).Contents (Elt F) → (⟨S1x1024, .f32⟩ : BufTy).Contents (Elt F)),
    StableHlo.reshape main_v593 main_v594 rfl shapeCasts_S1x1024_S1024,
    StableHlo.unary main_v594 main_v595 (broadcastInDim S1x1024 ![1] bcast_S1024_S1x1024_1 : (⟨S1024, .f32⟩ : BufTy).Contents (Elt F) → (⟨S1x1024, .f32⟩ : BufTy).Contents (Elt F)),
    StableHlo.unary main_v595 main_v596 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v592 main_v596 main_v597 (addf : (⟨S2048x1024, .f32⟩ : BufTy).Contents (Elt F) → (⟨S2048x1024, .f32⟩ : BufTy).Contents (Elt F) → (⟨S2048x1024, .f32⟩ : BufTy).Contents (Elt F)),
    StableHlo.nullary main_cst_88 (constant S_ .f32 0x3E4CCCCD#32),
    StableHlo.nullary main_call12_cst (constant S_ .f32 0x00000000#32),
    StableHlo.unary main_call12_cst main_call12_v0 (broadcastInDim S2048x1024 ![] bcast_S_S2048x1024 : (⟨S_, .f32⟩ : BufTy).Contents (Elt F) → (⟨S2048x1024, .f32⟩ : BufTy).Contents (Elt F)),
    StableHlo.binary main_v597 main_call12_v0 main_call12_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_88 main_call12_v2 (id : (⟨S_, .f32⟩ : BufTy).Contents (Elt F) → (⟨S_, .f32⟩ : BufTy).Contents (Elt F)),
    StableHlo.unary main_call12_v2 main_call12_v3 (broadcastInDim S2048x1024 ![] bcast_S_S2048x1024 : (⟨S_, .f32⟩ : BufTy).Contents (Elt F) → (⟨S2048x1024, .f32⟩ : BufTy).Contents (Elt F)),
    StableHlo.binary main_call12_v3 main_v597 main_call12_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call12_v1 main_v597 main_call12_v4 main_v598 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg7 main_v599 ((extractStridedSlice S1x1024x1024 ![6, 0, 0] · slices_S8x1024x1024_S1x1024x1024_6_0_0) : (⟨S8x1024x1024, .f32⟩ : BufTy).Contents (Elt F) → (⟨S1x1024x1024, .f32⟩ : BufTy).Contents (Elt F)),
    StableHlo.reshape main_v599 main_v600 rfl shapeCasts_S1x1024x1024_S1024x1024,
    StableHlo.binary main_v598 main_v600 main_v601 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg8 main_v602 ((extractStridedSlice S1x1024 ![6, 0] · slices_S8x1024_S1x1024_6_0) : (⟨S8x1024, .f32⟩ : BufTy).Contents (Elt F) → (⟨S1x1024, .f32⟩ : BufTy).Contents (Elt F)),
    StableHlo.reshape main_v602 main_v603 rfl shapeCasts_S1x1024_S1024,
    StableHlo.unary main_v603 main_v604 (broadcastInDim S1x1024 ![1] bcast_S1024_S1x1024_1 : (⟨S1024, .f32⟩ : BufTy).Contents (Elt F) → (⟨S1x1024, .f32⟩ : BufTy).Contents (Elt F)),
    StableHlo.unary main_v604 main_v605 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v601 main_v605 main_v606 (addf : (⟨S2048x1024, .f32⟩ : BufTy).Contents (Elt F) → (⟨S2048x1024, .f32⟩ : BufTy).Contents (Elt F) → (⟨S2048x1024, .f32⟩ : BufTy).Contents (Elt F)),
    StableHlo.nullary main_cst_89 (constant S_ .f32 0x3E4CCCCD#32),
    StableHlo.nullary main_call13_cst (constant S_ .f32 0x00000000#32),
    StableHlo.unary main_call13_cst main_call13_v0 (broadcastInDim S2048x1024 ![] bcast_S_S2048x1024 : (⟨S_, .f32⟩ : BufTy).Contents (Elt F) → (⟨S2048x1024, .f32⟩ : BufTy).Contents (Elt F)),
    StableHlo.binary main_v606 main_call13_v0 main_call13_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_89 main_call13_v2 (id : (⟨S_, .f32⟩ : BufTy).Contents (Elt F) → (⟨S_, .f32⟩ : BufTy).Contents (Elt F)),
    StableHlo.unary main_call13_v2 main_call13_v3 (broadcastInDim S2048x1024 ![] bcast_S_S2048x1024 : (⟨S_, .f32⟩ : BufTy).Contents (Elt F) → (⟨S2048x1024, .f32⟩ : BufTy).Contents (Elt F)),
    StableHlo.binary main_call13_v3 main_v606 main_call13_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call13_v1 main_v606 main_call13_v4 main_v607 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg9 main_v608 ((extractStridedSlice S1x1024x4096 ![6, 0, 0] · slices_S8x1024x4096_S1x1024x4096_6_0_0) : (⟨S8x1024x4096, .f32⟩ : BufTy).Contents (Elt F) → (⟨S1x1024x4096, .f32⟩ : BufTy).Contents (Elt F)),
    StableHlo.reshape main_v608 main_v609 rfl shapeCasts_S1x1024x4096_S1024x4096,
    StableHlo.binary main_v607 main_v609 main_v610 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg10 main_v611 ((extractStridedSlice S1x4096 ![6, 0] · slices_S8x4096_S1x4096_6_0) : (⟨S8x4096, .f32⟩ : BufTy).Contents (Elt F) → (⟨S1x4096, .f32⟩ : BufTy).Contents (Elt F)),
    StableHlo.reshape main_v611 main_v612 rfl shapeCasts_S1x4096_S4096,
    StableHlo.unary main_v612 main_v613 (broadcastInDim S1x4096 ![1] bcast_S4096_S1x4096_1 : (⟨S4096, .f32⟩ : BufTy).Contents (Elt F) → (⟨S1x4096, .f32⟩ : BufTy).Contents (Elt F)),
    StableHlo.unary main_v613 main_v614 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v610 main_v614 main_v615 (addf : (⟨S2048x4096, .f32⟩ : BufTy).Contents (Elt F) → (⟨S2048x4096, .f32⟩ : BufTy).Contents (Elt F) → (⟨S2048x4096, .f32⟩ : BufTy).Contents (Elt F)),
    StableHlo.unary main_v615 main_v616 (Host.tanh : (⟨S2048x4096, .f32⟩ : BufTy).Contents (Elt F) → (⟨S2048x4096, .f32⟩ : BufTy).Contents (Elt F)),
    StableHlo.unary main_arg13 main_v617 ((extractStridedSlice S1 ![6] · slices_S8_S1_6) : (⟨S8, .f32⟩ : BufTy).Contents (Elt F) → (⟨S1, .f32⟩ : BufTy).Contents (Elt F)),
    StableHlo.reshape main_v617 main_v618 rfl shapeCasts_S1_S_,
    StableHlo.unary main_v618 main_v619 (broadcastInDim S2048x4096 ![] bcast_S_S2048x4096 : (⟨S_, .f32⟩ : BufTy).Contents (Elt F) → (⟨S2048x4096, .f32⟩ : BufTy).Contents (Elt F)),
    StableHlo.binary main_v616 main_v619 main_v620 (mulf : (⟨S2048x4096, .f32⟩ : BufTy).Contents (Elt F) → (⟨S2048x4096, .f32⟩ : BufTy).Contents (Elt F) → (⟨S2048x4096, .f32⟩ : BufTy).Contents (Elt F)),
    StableHlo.unary main_arg11 main_v621 ((extractStridedSlice S1x1024x4096 ![6, 0, 0] · slices_S8x1024x4096_S1x1024x4096_6_0_0) : (⟨S8x1024x4096, .f32⟩ : BufTy).Contents (Elt F) → (⟨S1x1024x4096, .f32⟩ : BufTy).Contents (Elt F)),
    StableHlo.reshape main_v621 main_v622 rfl shapeCasts_S1x1024x4096_S1024x4096,
    StableHlo.binary main_v607 main_v622 main_v623 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg12 main_v624 ((extractStridedSlice S1x4096 ![6, 0] · slices_S8x4096_S1x4096_6_0) : (⟨S8x4096, .f32⟩ : BufTy).Contents (Elt F) → (⟨S1x4096, .f32⟩ : BufTy).Contents (Elt F)),
    StableHlo.reshape main_v624 main_v625 rfl shapeCasts_S1x4096_S4096,
    StableHlo.unary main_v625 main_v626 (broadcastInDim S1x4096 ![1] bcast_S4096_S1x4096_1 : (⟨S4096, .f32⟩ : BufTy).Contents (Elt F) → (⟨S1x4096, .f32⟩ : BufTy).Contents (Elt F)),
    StableHlo.unary main_v626 main_v627 (broadcastInDim S2048x4096 ![0, 1] bcast_S1x4096_S2048x4096_0_1 : (⟨S1x4096, .f32⟩ : BufTy).Contents (Elt F) → (⟨S2048x4096, .f32⟩ : BufTy).Contents (Elt F)) ]

set_option maxRecDepth 8192 in
theorem part11_eq (c : Dev nD) : main_part11 (F := F) c = seq ops11 := by
  simp only [main_part11, fn_leaky_relu.body, fn_where.body, seq, bind_assoc, pure_bind]
  rfl

set_option maxRecDepth 8192 in
theorem ops11_sub : (ops11 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., binary_bufs_sub .., unary_bufs_sub .., reshape_bufs_sub .., unary_bufs_sub .., unary_bufs_sub ..⟩

/-- No operation of the window leaves a result undetermined. -/
theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops11_W : List (Ref sig .tc) := [main_v574, main_c_84, main_v575, main_v576, main_c_85, main_v577, main_v578, main_v579, main_v580, main_v581, main_c_86, main_v582, main_v583, main_c_87, main_v584, main_v585, main_v586, main_v587, main_v588, main_v589, main_v590, main_v591, main_v592, main_v593, main_v594, main_v595, main_v596, main_v597, main_cst_88, main_call12_cst, main_call12_v0, main_call12_v1, main_call12_v2, main_call12_v3, main_call12_v4, main_v598, main_v599, main_v600, main_v601, main_v602, main_v603, main_v604, main_v605, main_v606, main_cst_89, main_call13_cst, main_call13_v0, main_call13_v1, main_call13_v2, main_call13_v3, main_call13_v4, main_v607, main_v608, main_v609, main_v610, main_v611, main_v612, main_v613, main_v614, main_v615, main_v616, main_v617, main_v618, main_v619, main_v620, main_v621, main_v622, main_v623, main_v624, main_v625, main_v626, main_v627]

set_option maxRecDepth 8192 in
theorem ops11_writes : (ops11 : List (HloOp τ sig (Elt F))).Forall fun op => op.writes ⊆ (ops11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps12.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 721 … 780 of @main's 851, in order, as operations. -/
abbrev ops12 : List (HloOp τ sig (Elt F)) :=
  [ StableHlo.binary main_v623 main_v627 main_v628 (addf : (⟨S2048x4096, .f32⟩ : BufTy).Contents (Elt F) → (⟨S2048x4096, .f32⟩ : BufTy).Contents (Elt F) → (⟨S2048x4096, .f32⟩ : BufTy).Contents (Elt F)),
    StableHlo.unary main_v620 main_v629 (Host.exp : (⟨S2048x4096, .f32⟩ : BufTy).Contents (Elt F) → (⟨S2048x4096, .f32⟩ : BufTy).Contents (Elt F)),
    StableHlo.binary main_v588 main_v629 main_v630 (mulf : (⟨S2048x4096, .f32⟩ : BufTy).Contents (Elt F) → (⟨S2048x4096, .f32⟩ : BufTy).Contents (Elt F) → (⟨S2048x4096, .f32⟩ : BufTy).Contents (Elt F)),
    StableHlo.binary main_v630 main_v628 main_v631 (addf : (⟨S2048x4096, .f32⟩ : BufTy).Contents (Elt F) → (⟨S2048x4096, .f32⟩ : BufTy).Contents (Elt F) → (⟨S2048x4096, .f32⟩ : BufTy).Contents (Elt F)),
    StableHlo.nullary main_cst_90 (constant S_ .f32 0x00000000#32),
    StableHlo.unary main_cst_90 main_v632 (broadcastInDim S2048x8192 ![] bcast_S_S2048x8192 : (⟨S_, .f32⟩ : BufTy).Contents (Elt F) → (⟨S2048x8192, .f32⟩ : BufTy).Contents (Elt F)),
    StableHlo.nullary main_c_91 (constantI S_ 32 0#32),
    StableHlo.unary main_c_91 main_v633 (broadcastInDim S4096 ![] bcast_S_S4096 : (⟨S_, .i32⟩ : BufTy).Contents (Elt F) → (⟨S4096, .i32⟩ : BufTy).Contents (Elt F)),
    StableHlo.binary main_v13 main_v633 main_v634 (cmpi .slt : (⟨S4096, .i32⟩ : BufTy).Contents (Elt F) → (⟨S4096, .i32⟩ : BufTy).Contents (Elt F) → (⟨S4096, .i1⟩ : BufTy).Contents (Elt F)),
    StableHlo.nullary main_c_92 (constantI S_ 32 8192#32),
    StableHlo.unary main_c_92 main_v635 (broadcastInDim S4096 ![] bcast_S_S4096 : (⟨S_, .i32⟩ : BufTy).Contents (Elt F) → (⟨S4096, .i32⟩ : BufTy).Contents (Elt F)),
    StableHlo.binary main_v13 main_v635 main_v636 (addi : (⟨S4096, .i32⟩ : BufTy).Contents (Elt F) → (⟨S4096, .i32⟩ : BufTy).Contents (Elt F) → (⟨S4096, .i32⟩ : BufTy).Contents (Elt F)),
    StableHlo.ternary main_v634 main_v636 main_v13 main_v637 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v637 main_v638 (broadcastInDim S4096x1 ![0] bcast_S4096_S4096x1_0 : (⟨S4096, .i32⟩ : BufTy).Contents (Elt F) → (⟨S4096x1, .i32⟩ : BufTy).Contents (Elt F)),
    StableHlo.ternary main_v632 main_v638 main_v581 main_v639 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_c_93 (constantI S_ 32 0#32),
    StableHlo.unary main_c_93 main_v640 (broadcastInDim S4096 ![] bcast_S_S4096 : (⟨S_, .i32⟩ : BufTy).Contents (Elt F) → (⟨S4096, .i32⟩ : BufTy).Contents (Elt F)),
    StableHlo.binary main_v18 main_v640 main_v641 (cmpi .slt : (⟨S4096, .i32⟩ : BufTy).Contents (Elt F) → (⟨S4096, .i32⟩ : BufTy).Contents (Elt F) → (⟨S4096, .i1⟩ : BufTy).Contents (Elt F)),
    StableHlo.nullary main_c_94 (constantI S_ 32 8192#32),
    StableHlo.unary main_c_94 main_v642 (broadcastInDim S4096 ![] bcast_S_S4096 : (⟨S_, .i32⟩ : BufTy).Contents (Elt F) → (⟨S4096, .i32⟩ : BufTy).Contents (Elt F)),
    StableHlo.binary main_v18 main_v642 main_v643 (addi : (⟨S4096, .i32⟩ : BufTy).Contents (Elt F) → (⟨S4096, .i32⟩ : BufTy).Contents (Elt F) → (⟨S4096, .i32⟩ : BufTy).Contents (Elt F)),
    StableHlo.ternary main_v641 main_v643 main_v18 main_v644 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v644 main_v645 (broadcastInDim S4096x1 ![0] bcast_S4096_S4096x1_0 : (⟨S4096, .i32⟩ : BufTy).Contents (Elt F) → (⟨S4096x1, .i32⟩ : BufTy).Contents (Elt F)),
    StableHlo.ternary main_v639 main_v645 main_v631 main_v646 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_cst_95 (constant S_ .f32 0x00000000#32),
    StableHlo.binary main_v620 main_cst_95 main_v647 ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    StableHlo.binary main_v574 main_v647 main_v648 (addf : (⟨S2048, .f32⟩ : BufTy).Contents (Elt F) → (⟨S2048, .f32⟩ : BufTy).Contents (Elt F) → (⟨S2048, .f32⟩ : BufTy).Contents (Elt F)),
    StableHlo.unary main_arg4 main_v649 ((extractStridedSlice S1x8192 ![7, 0] · slices_S8x8192_S1x8192_7_0) : (⟨S8x8192, .f32⟩ : BufTy).Contents (Elt F) → (⟨S1x8192, .f32⟩ : BufTy).Contents (Elt F)),
    StableHlo.reshape main_v649 main_v650 rfl shapeCasts_S1x8192_S8192,
    StableHlo.unary main_v650 main_v651 (broadcastInDim S1x8192 ![1] bcast_S8192_S1x8192_1 : (⟨S8192, .f32⟩ : BufTy).Contents (Elt F) → (⟨S1x8192, .f32⟩ : BufTy).Contents (Elt F)),
    StableHlo.unary main_v651 main_v652 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v646 main_v652 main_v653 (addf : (⟨S2048x8192, .f32⟩ : BufTy).Contents (Elt F) → (⟨S2048x8192, .f32⟩ : BufTy).Contents (Elt F) → (⟨S2048x8192, .f32⟩ : BufTy).Contents (Elt F)),
    StableHlo.unary main_arg3 main_v654 ((extractStridedSlice S1x8192 ![7, 0] · slices_S8x8192_S1x8192_7_0) : (⟨S8x8192, .f32⟩ : BufTy).Contents (Elt F) → (⟨S1x8192, .f32⟩ : BufTy).Contents (Elt F)),
    StableHlo.reshape main_v654 main_v655 rfl shapeCasts_S1x8192_S8192,
    StableHlo.unary main_v655 main_v656 (Host.exp : (⟨S8192, .f32⟩ : BufTy).Contents (Elt F) → (⟨S8192, .f32⟩ : BufTy).Contents (Elt F)),
    StableHlo.unary main_v656 main_v657 (broadcastInDim S1x8192 ![1] bcast_S8192_S1x8192_1 : (⟨S8192, .f32⟩ : BufTy).Contents (Elt F) → (⟨S1x8192, .f32⟩ : BufTy).Contents (Elt F)),
    StableHlo.unary main_v657 main_v658 (broadcastInDim S2048x8192 ![0, 1] bcast_S1x8192_S2048x8192_0_1 : (⟨S1x8192, .f32⟩ : BufTy).Contents (Elt F) → (⟨S2048x8192, .f32⟩ : BufTy).Contents (Elt F)),
    StableHlo.binary main_v653 main_v658 main_v659 (mulf : (⟨S2048x8192, .f32⟩ : BufTy).Contents (Elt F) → (⟨S2048x8192, .f32⟩ : BufTy).Contents (Elt F) → (⟨S2048x8192, .f32⟩ : BufTy).Contents (Elt F)),
    StableHlo.unary main_arg3 main_v660 ((extractStridedSlice S1x8192 ![7, 0] · slices_S8x8192_S1x8192_7_0) : (⟨S8x8192, .f32⟩ : BufTy).Contents (Elt F) → (⟨S1x8192, .f32⟩ : BufTy).Contents (Elt F)),
    StableHlo.reshape main_v660 main_v661 rfl shapeCasts_S1x8192_S8192,
    StableHlo.nullary main_cst_96 (constant S_ .f32 0x00000000#32),
    StableHlo.binary main_v661 main_cst_96 main_v662 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v662 main_v663 (broadcastInDim S2048 ![] bcast_S_S2048 : (⟨S_, .f32⟩ : BufTy).Contents (Elt F) → (⟨S2048, .f32⟩ : BufTy).Contents (Elt F)),
    StableHlo.binary main_v648 main_v663 main_v664 (addf : (⟨S2048, .f32⟩ : BufTy).Contents (Elt F) → (⟨S2048, .f32⟩ : BufTy).Contents (Elt F) → (⟨S2048, .f32⟩ : BufTy).Contents (Elt F)),
    StableHlo.nullary main_c_97 (constantI S_ 32 0#32),
    StableHlo.unary main_c_97 main_v665 (broadcastInDim S4096 ![] bcast_S_S4096 : (⟨S_, .i32⟩ : BufTy).Contents (Elt F) → (⟨S4096, .i32⟩ : BufTy).Contents (Elt F)),
    StableHlo.binary main_v18 main_v665 main_v666 (cmpi .slt : (⟨S4096, .i32⟩ : BufTy).Contents (Elt F) → (⟨S4096, .i32⟩ : BufTy).Contents (Elt F) → (⟨S4096, .i1⟩ : BufTy).Contents (Elt F)),
    StableHlo.nullary main_c_98 (constantI S_ 32 8192#32),
    StableHlo.unary main_c_98 main_v667 (broadcastInDim S4096 ![] bcast_S_S4096 : (⟨S_, .i32⟩ : BufTy).Contents (Elt F) → (⟨S4096, .i32⟩ : BufTy).Contents (Elt F)),
    StableHlo.binary main_v18 main_v667 main_v668 (addi : (⟨S4096, .i32⟩ : BufTy).Contents (Elt F) → (⟨S4096, .i32⟩ : BufTy).Contents (Elt F) → (⟨S4096, .i32⟩ : BufTy).Contents (Elt F)),
    StableHlo.ternary main_v666 main_v668 main_v18 main_v669 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v669 main_v670 (broadcastInDim S4096x1 ![0] bcast_S4096_S4096x1_0 : (⟨S4096, .i32⟩ : BufTy).Contents (Elt F) → (⟨S4096x1, .i32⟩ : BufTy).Contents (Elt F)),
    StableHlo.binary main_v659 main_v670 main_v671 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.nullary main_c_99 (constantI S_ 32 0#32),
    StableHlo.unary main_c_99 main_v672 (broadcastInDim S4096 ![] bcast_S_S4096 : (⟨S_, .i32⟩ : BufTy).Contents (Elt F) → (⟨S4096, .i32⟩ : BufTy).Contents (Elt F)),
    StableHlo.binary main_v13 main_v672 main_v673 (cmpi .slt : (⟨S4096, .i32⟩ : BufTy).Contents (Elt F) → (⟨S4096, .i32⟩ : BufTy).Contents (Elt F) → (⟨S4096, .i1⟩ : BufTy).Contents (Elt F)),
    StableHlo.nullary main_c_100 (constantI S_ 32 8192#32),
    StableHlo.unary main_c_100 main_v674 (broadcastInDim S4096 ![] bcast_S_S4096 : (⟨S_, .i32⟩ : BufTy).Contents (Elt F) → (⟨S4096, .i32⟩ : BufTy).Contents (Elt F)),
    StableHlo.binary main_v13 main_v674 main_v675 (addi : (⟨S4096, .i32⟩ : BufTy).Contents (Elt F) → (⟨S4096, .i32⟩ : BufTy).Contents (Elt F) → (⟨S4096, .i32⟩ : BufTy).Contents (Elt F)),
    StableHlo.ternary main_v673 main_v675 main_v13 main_v676 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

set_option maxRecDepth 8192 in
theorem part12_eq (c : Dev nD) : main_part12 (F := F) c = seq ops12 := rfl

set_option maxRecDepth 8192 in
theorem ops12_sub : (ops12 : List (HloOp τ sig (Elt F))).Forall fun op => op.bufs ⊆ tcRefs τ sig :=
  ⟨binary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩

/-- No operation of the window leaves a result undetermined. -/
theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops12_W : List (Ref sig .tc) := [main_v628, main_v629, main_v630, main_v631, main_cst_90, main_v632, main_c_91, main_v633, main_v634, main_c_92, main_v635, main_v636, main_v637, main_v638, main_v639, main_c_93, main_v640, main_v641, main_c_94, main_v642, main_v643, main_v644, main_v645, main_v646, main_cst_95, main_v647, main_v648, main_v649, main_v650, main_v651, main_v652, main_v653, main_v654, main_v655, main_v656, main_v657, main_v658, main_v659, main_v660, main_v661, main_cst_96, main_v662, main_v663, main_v664, main_c_97, main_v665, main_v666, main_c_98, main_v667, main_v668, main_v669, main_v670, main_v671, main_c_99, main_v672, main_v673, main_c_100, main_v674, main_v675, main_v676]

set_option maxRecDepth 8192 in
theorem ops12_writes : (ops12 : List (HloOp τ sig (Elt F))).Forall fun op => op.writes ⊆ (ops12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps13.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 781 … 840 of @main's 851, in order, as operations; each of the 2 calls of @leaky_relu is the seven operations of its body (the last the select of the @_where it calls) at the buffers of the call's record. -/
abbrev ops13 : List (HloOp τ sig (Elt F)) :=
  [ StableHlo.unary main_v676 main_v677 (broadcastInDim S4096x1 ![0] bcast_S4096_S4096x1_0 : (⟨S4096, .i32⟩ : BufTy).Contents (Elt F) → (⟨S4096x1, .i32⟩ : BufTy).Contents (Elt F)),
    StableHlo.binary main_v659 main_v677 main_v678 ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)),
    StableHlo.binary main_v671 main_v7 main_v679 ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)),
    StableHlo.unary main_arg5 main_v680 ((extractStridedSlice S1x5120x1024 ![7, 0, 0] · slices_S8x5120x1024_S1x5120x1024_7_0_0) : (⟨S8x5120x1024, .f32⟩ : BufTy).Contents (Elt F) → (⟨S1x5120x1024, .f32⟩ : BufTy).Contents (Elt F)),
    StableHlo.reshape main_v680 main_v681 rfl shapeCasts_S1x5120x1024_S5120x1024,
    StableHlo.binary main_v679 main_v681 main_v682 ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)),
    StableHlo.unary main_arg6 main_v683 ((extractStridedSlice S1x1024 ![7, 0] · slices_S8x1024_S1x1024_7_0) : (⟨S8x1024, .f32⟩ : BufTy).Contents (Elt F) → (⟨S1x1024, .f32⟩ : BufTy).Contents (Elt F)),
    StableHlo.reshape main_v683 main_v684 rfl shapeCasts_S1x1024_S1024,
    StableHlo.unary main_v684 main_v685 (broadcastInDim S1x1024 ![1] bcast_S1024_S1x1024_1 : (⟨S1024, .f32⟩ : BufTy).Contents (Elt F) → (⟨S1x1024, .f32⟩ : BufTy).Contents (Elt F)),
    StableHlo.unary main_v685 main_v686 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v682 main_v686 main_v687 (addf : (⟨S2048x1024, .f32⟩ : BufTy).Contents (Elt F) → (⟨S2048x1024, .f32⟩ : BufTy).Contents (Elt F) → (⟨S2048x1024, .f32⟩ : BufTy).Contents (Elt F)),
    StableHlo.nullary main_cst_101 (constant S_ .f32 0x3E4CCCCD#32),
    StableHlo.nullary main_call14_cst (constant S_ .f32 0x00000000#32),
    StableHlo.unary main_call14_cst main_call14_v0 (broadcastInDim S2048x1024 ![] bcast_S_S2048x1024 : (⟨S_, .f32⟩ : BufTy).Contents (Elt F) → (⟨S2048x1024, .f32⟩ : BufTy).Contents (Elt F)),
    StableHlo.binary main_v687 main_call14_v0 main_call14_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_101 main_call14_v2 (id : (⟨S_, .f32⟩ : BufTy).Contents (Elt F) → (⟨S_, .f32⟩ : BufTy).Contents (Elt F)),
    StableHlo.unary main_call14_v2 main_call14_v3 (broadcastInDim S2048x1024 ![] bcast_S_S2048x1024 : (⟨S_, .f32⟩ : BufTy).Contents (Elt F) → (⟨S2048x1024, .f32⟩ : BufTy).Contents (Elt F)),
    StableHlo.binary main_call14_v3 main_v687 main_call14_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call14_v1 main_v687 main_call14_v4 main_v688 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg7 main_v689 ((extractStridedSlice S1x1024x1024 ![7, 0, 0] · slices_S8x1024x1024_S1x1024x1024_7_0_0) : (⟨S8x1024x1024, .f32⟩ : BufTy).Contents (Elt F) → (⟨S1x1024x1024, .f32⟩ : BufTy).Contents (Elt F)),
    StableHlo.reshape main_v689 main_v690 rfl shapeCasts_S1x1024x1024_S1024x1024,
    StableHlo.binary main_v688 main_v690 main_v691 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg8 main_v692 ((extractStridedSlice S1x1024 ![7, 0] · slices_S8x1024_S1x1024_7_0) : (⟨S8x1024, .f32⟩ : BufTy).Contents (Elt F) → (⟨S1x1024, .f32⟩ : BufTy).Contents (Elt F)),
    StableHlo.reshape main_v692 main_v693 rfl shapeCasts_S1x1024_S1024,
    StableHlo.unary main_v693 main_v694 (broadcastInDim S1x1024 ![1] bcast_S1024_S1x1024_1 : (⟨S1024, .f32⟩ : BufTy).Contents (Elt F) → (⟨S1x1024, .f32⟩ : BufTy).Contents (Elt F)),
    StableHlo.unary main_v694 main_v695 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v691 main_v695 main_v696 (addf : (⟨S2048x1024, .f32⟩ : BufTy).Contents (Elt F) → (⟨S2048x1024, .f32⟩ : BufTy).Contents (Elt F) → (⟨S2048x1024, .f32⟩ : BufTy).Contents (Elt F)),
    StableHlo.nullary main_cst_102 (constant S_ .f32 0x3E4CCCCD#32),
    StableHlo.nullary main_call15_cst (constant S_ .f32 0x00000000#32),
    StableHlo.unary main_call15_cst main_call15_v0 (broadcastInDim S2048x1024 ![] bcast_S_S2048x1024 : (⟨S_, .f32⟩ : BufTy).Contents (Elt F) → (⟨S2048x1024, .f32⟩ : BufTy).Contents (Elt F)),
    StableHlo.binary main_v696 main_call15_v0 main_call15_v1 (cmpf .oge : (⟨S2048x1024, .f32⟩ : BufTy).Contents (Elt F) → (⟨S2048x1024, .f32⟩ : BufTy).Contents (Elt F) → (⟨S2048x1024, .i1⟩ : BufTy).Contents (Elt F)),
    StableHlo.unary main_cst_102 main_call15_v2 (id : (⟨S_, .f32⟩ : BufTy).Contents (Elt F) → (⟨S_, .f32⟩ : BufTy).Contents (Elt F)),
    StableHlo.unary main_call15_v2 main_call15_v3 (broadcastInDim S2048x1024 ![] bcast_S_S2048x1024 : (⟨S_, .f32⟩ : BufTy).Contents (Elt F) → (⟨S2048x1024, .f32⟩ : BufTy).Contents (Elt F)),
    StableHlo.binary main_call15_v3 main_v696 main_call15_v4 (mulf : (⟨S2048x1024, .f32⟩ : BufTy).Contents (Elt F) → (⟨S2048x1024, .f32⟩ : BufTy).Contents (Elt F) → (⟨S2048x1024, .f32⟩ : BufTy).Contents (Elt F)),
    StableHlo.ternary main_call15_v1 main_v696 main_call15_v4 main_v697 (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)),
    StableHlo.unary main_arg9 main_v698 ((extractStridedSlice S1x1024x4096 ![7, 0, 0] · slices_S8x1024x4096_S1x1024x4096_7_0_0) : (⟨S8x1024x4096, .f32⟩ : BufTy).Contents (Elt F) → (⟨S1x1024x4096, .f32⟩ : BufTy).Contents (Elt F)),
    StableHlo.reshape main_v698 main_v699 rfl shapeCasts_S1x1024x4096_S1024x4096,
    StableHlo.binary main_v697 main_v699 main_v700 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg10 main_v701 ((extractStridedSlice S1x4096 ![7, 0] · slices_S8x4096_S1x4096_7_0) : (⟨S8x4096, .f32⟩ : BufTy).Contents (Elt F) → (⟨S1x4096, .f32⟩ : BufTy).Contents (Elt F)),
    StableHlo.reshape main_v701 main_v702 rfl shapeCasts_S1x4096_S4096,
    StableHlo.unary main_v702 main_v703 (broadcastInDim S1x4096 ![1] bcast_S4096_S1x4096_1 : (⟨S4096, .f32⟩ : BufTy).Contents (Elt F) → (⟨S1x4096, .f32⟩ : BufTy).Contents (Elt F)),
    StableHlo.unary main_v703 main_v704 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v700 main_v704 main_v705 (addf : (⟨S2048x4096, .f32⟩ : BufTy).Contents (Elt F) → (⟨S2048x4096, .f32⟩ : BufTy).Contents (Elt F) → (⟨S2048x4096, .f32⟩ : BufTy).Contents (Elt F)),
    StableHlo.unary main_v705 main_v706 (Host.tanh : (⟨S2048x4096, .f32⟩ : BufTy).Contents (Elt F) → (⟨S2048x4096, .f32⟩ : BufTy).Contents (Elt F)),
    StableHlo.unary main_arg13 main_v707 ((extractStridedSlice S1 ![7] · slices_S8_S1_7) : (⟨S8, .f32⟩ : BufTy).Contents (Elt F) → (⟨S1, .f32⟩ : BufTy).Contents (Elt F)),
    StableHlo.reshape main_v707 main_v708 rfl shapeCasts_S1_S_,
    StableHlo.unary main_v708 main_v709 (broadcastInDim S2048x4096 ![] bcast_S_S2048x4096 : (⟨S_, .f32⟩ : BufTy).Contents (Elt F) → (⟨S2048x4096, .f32⟩ : BufTy).Contents (Elt F)),
    StableHlo.binary main_v706 main_v709 main_v710 (mulf : (⟨S2048x4096, .f32⟩ : BufTy).Contents (Elt F) → (⟨S2048x4096, .f32⟩ : BufTy).Contents (Elt F) → (⟨S2048x4096, .f32⟩ : BufTy).Contents (Elt F)),
    StableHlo.unary main_arg11 main_v711 ((extractStridedSlice S1x1024x4096 ![7, 0, 0] · slices_S8x1024x4096_S1x1024x4096_7_0_0) : (⟨S8x1024x4096, .f32⟩ : BufTy).Contents (Elt F) → (⟨S1x1024x4096, .f32⟩ : BufTy).Contents (Elt F)),
    StableHlo.reshape main_v711 main_v712 rfl shapeCasts_S1x1024x4096_S1024x4096,
    StableHlo.binary main_v697 main_v712 main_v713 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    StableHlo.unary main_arg12 main_v714 ((extractStridedSlice S1x4096 ![7, 0] · slices_S8x4096_S1x4096_7_0) : (⟨S8x4096, .f32⟩ : BufTy).Contents (Elt F) → (⟨S1x4096, .f32⟩ : BufTy).Contents (Elt F)),
    StableHlo.reshape main_v714 main_v715 rfl shapeCasts_S1x4096_S4096,
    StableHlo.unary main_v715 main_v716 (broadcastInDim S1x4096 ![1] bcast_S4096_S1x4096_1 : (⟨S4096, .f32⟩ : BufTy).Contents (Elt F) → (⟨S1x4096, .f32⟩ : BufTy).Contents (Elt F)),
    StableHlo.unary main_v716 main_v717 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v713 main_v717 main_v718 (addf : (⟨S2048x4096, .f32⟩ : BufTy).Contents (Elt F) → (⟨S2048x4096, .f32⟩ : BufTy).Contents (Elt F) → (⟨S2048x4096, .f32⟩ : BufTy).Contents (Elt F)),
    StableHlo.unary main_v710 main_v719 (Host.exp : (⟨S2048x4096, .f32⟩ : BufTy).Contents (Elt F) → (⟨S2048x4096, .f32⟩ : BufTy).Contents (Elt F)),
    StableHlo.binary main_v678 main_v719 main_v720 (mulf : (⟨S2048x4096, .f32⟩ : BufTy).Contents (Elt F) → (⟨S2048x4096, .f32⟩ : BufTy).Contents (Elt F) → (⟨S2048x4096, .f32⟩ : BufTy).Contents (Elt F)),
    StableHlo.binary main_v720 main_v718 main_v721 (addf : (⟨S2048x4096, .f32⟩ : BufTy).Contents (Elt F) → (⟨S2048x4096, .f32⟩ : BufTy).Contents (Elt F) → (⟨S2048x4096, .f32⟩ : BufTy).Contents (Elt F)),
    StableHlo.nullary main_cst_103 (constant S_ .f32 0x00000000#32),
    StableHlo.unary main_cst_103 main_v722 (broadcastInDim S2048x8192 ![] bcast_S_S2048x8192 : (⟨S_, .f32⟩ : BufTy).Contents (Elt F) → (⟨S2048x8192, .f32⟩ : BufTy).Contents (Elt F)),
    StableHlo.nullary main_c_104 (constantI S_ 32 0#32),
    StableHlo.unary main_c_104 main_v723 (broadcastInDim S4096 ![] bcast_S_S4096 : (⟨S_, .i32⟩ : BufTy).Contents (Elt F) → (⟨S4096, .i32⟩ : BufTy).Contents (Elt F)),
    StableHlo.binary main_v18 main_v723 main_v724 (cmpi .slt : (⟨S4096, .i32⟩ : BufTy).Contents (Elt F) → (⟨S4096, .i32⟩ : BufTy).Contents (Elt F) → (⟨S4096, .i1⟩ : BufTy).Contents (Elt F)),
    StableHlo.nullary main_c_105 (constantI S_ 32 8192#32),
    StableHlo.unary main_c_105 main_v725 (broadcastInDim S4096 ![] bcast_S_S4096 : (⟨S_, .i32⟩ : BufTy).Contents (Elt F) → (⟨S4096, .i32⟩ : BufTy).Contents (Elt F)),
    StableHlo.binary main_v18 main_v725 main_v726 (addi : (⟨S4096, .i32⟩ : BufTy).Contents (Elt F) → (⟨S4096, .i32⟩ : BufTy).Contents (Elt F) → (⟨S4096, .i32⟩ : BufTy).Contents (Elt F)),
    StableHlo.ternary main_v724 main_v726 main_v18 main_v727 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v727 main_v728 (broadcastInDim S4096x1 ![0] bcast_S4096_S4096x1_0 : (⟨S4096, .i32⟩ : BufTy).Contents (Elt F) → (⟨S4096x1, .i32⟩ : BufTy).Contents (Elt F)),
    StableHlo.ternary main_v722 main_v728 main_v671 main_v729 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_c_106 (constantI S_ 32 0#32),
    StableHlo.unary main_c_106 main_v730 (broadcastInDim S4096 ![] bcast_S_S4096 : (⟨S_, .i32⟩ : BufTy).Contents (Elt F) → (⟨S4096, .i32⟩ : BufTy).Contents (Elt F)) ]

set_option maxRecDepth 8192 in
theorem part13_eq (c : Dev nD) : main_part13 (F := F) c = seq ops13 := by
  simp only [main_part13, fn_leaky_relu.body, fn_where.body, seq, bind_assoc, pure_bind]
  rfl

set_option maxRecDepth 8192 in
theorem ops13_sub : (ops13 : List (HloOp τ sig (Elt F))).Forall fun op => op.bufs ⊆ tcRefs τ sig :=
  ⟨unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub ..⟩

/-- No operation of the window leaves a result undetermined. -/
theorem ops13_fresh : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops13_W : List (Ref sig .tc) := [main_v677, main_v678, main_v679, main_v680, main_v681, main_v682, main_v683, main_v684, main_v685, main_v686, main_v687, main_cst_101, main_call14_cst, main_call14_v0, main_call14_v1, main_call14_v2, main_call14_v3, main_call14_v4, main_v688, main_v689, main_v690, main_v691, main_v692, main_v693, main_v694, main_v695, main_v696, main_cst_102, main_call15_cst, main_call15_v0, main_call15_v1, main_call15_v2, main_call15_v3, main_call15_v4, main_v697, main_v698, main_v699, main_v700, main_v701, main_v702, main_v703, main_v704, main_v705, main_v706, main_v707, main_v708, main_v709, main_v710, main_v711, main_v712, main_v713, main_v714, main_v715, main_v716, main_v717, main_v718, main_v719, main_v720, main_v721, main_cst_103, main_v722, main_c_104, main_v723, main_v724, main_c_105, main_v725, main_v726, main_v727, main_v728, main_v729, main_c_106, main_v730]

set_option maxRecDepth 8192 in
theorem ops13_writes : (ops13 : List (HloOp τ sig (Elt F))).Forall fun op => op.writes ⊆ (ops13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.ROps14.lean ====
import proofs.«175835_j29978871726094_1_alg».proof.Proof.Gen.ReferenceIdeal
import Idealize.ShloMosaic.Lib.StableHlo.Run

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- Statements 841 … 851 of @main's 851, in order, as operations. -/
abbrev ops14 : List (HloOp τ sig (Elt F)) :=
  [ StableHlo.binary main_v13 main_v730 main_v731 (cmpi .slt : (⟨S4096, .i32⟩ : BufTy).Contents (Elt F) → (⟨S4096, .i32⟩ : BufTy).Contents (Elt F) → (⟨S4096, .i1⟩ : BufTy).Contents (Elt F)),
    StableHlo.nullary main_c_107 (constantI S_ 32 8192#32),
    StableHlo.unary main_c_107 main_v732 (broadcastInDim S4096 ![] bcast_S_S4096 : (⟨S_, .i32⟩ : BufTy).Contents (Elt F) → (⟨S4096, .i32⟩ : BufTy).Contents (Elt F)),
    StableHlo.binary main_v13 main_v732 main_v733 (addi : (⟨S4096, .i32⟩ : BufTy).Contents (Elt F) → (⟨S4096, .i32⟩ : BufTy).Contents (Elt F) → (⟨S4096, .i32⟩ : BufTy).Contents (Elt F)),
    StableHlo.ternary main_v731 main_v733 main_v13 main_v734 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v734 main_v735 (broadcastInDim S4096x1 ![0] bcast_S4096_S4096x1_0 : (⟨S4096, .i32⟩ : BufTy).Contents (Elt F) → (⟨S4096x1, .i32⟩ : BufTy).Contents (Elt F)),
    StableHlo.ternary main_v729 main_v735 main_v721 main_v736 ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)),
    StableHlo.nullary main_cst_108 (constant S_ .f32 0x00000000#32),
    StableHlo.binary main_v710 main_cst_108 main_v737 ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    StableHlo.binary main_v664 main_v737 main_v738 (addf : (⟨S2048, .f32⟩ : BufTy).Contents (Elt F) → (⟨S2048, .f32⟩ : BufTy).Contents (Elt F) → (⟨S2048, .f32⟩ : BufTy).Contents (Elt F)) ]

set_option maxRecDepth 8192 in
theorem part14_eq (c : Dev nD) : main_part14 (F := F) c = seq ops14 := rfl

set_option maxRecDepth 8192 in
theorem ops14_sub : (ops14 : List (HloOp τ sig (Elt F))).Forall fun op => op.bufs ⊆ tcRefs τ sig :=
  ⟨binary_bufs_sub .., nullary_bufs_sub .., unary_bufs_sub .., binary_bufs_sub .., ternary_bufs_sub .., unary_bufs_sub .., ternary_bufs_sub .., nullary_bufs_sub .., binary_bufs_sub .., binary_bufs_sub ..⟩

/-- No operation of the window leaves a result undetermined. -/
theorem ops14_fresh : (ops14 : List (HloOp τ sig (Elt F))).Forall fun op => op.fresh = ∅ :=
  ⟨rfl, rfl, rfl, rfl, rfl, rfl, rfl, rfl, rfl, rfl⟩

/-- The buffers the window's operations write, in order. -/
abbrev ops14_W : List (Ref sig .tc) := [main_v731, main_c_107, main_v732, main_v733, main_v734, main_v735, main_v736, main_cst_108, main_v737, main_v738]

set_option maxRecDepth 8192 in
theorem ops14_writes : (ops14 : List (HloOp τ sig (Elt F))).Forall fun op => op.writes ⊆ (ops14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RSide

end
-- ==== Proof.RRun.lean ====
/-
  The reference program's run, read back as a list.

  @main is printed in fifteen consecutive windows; each window is the straight line of its operations (the modules
  ROps0 … ROps14 hold the lists, the callee's operations written out at each call), so @main is the straight line of the
  concatenation. A straight line of operations on a signature that scopes nothing runs to its end from any memory with
  zero counters, and every buffer ends at the fold of the operations' results over its launch contents.
-/
import proofs.«175835_j29978871726094_1_alg».proof.Proof.ROps0
import proofs.«175835_j29978871726094_1_alg».proof.Proof.ROps1
import proofs.«175835_j29978871726094_1_alg».proof.Proof.ROps2
import proofs.«175835_j29978871726094_1_alg».proof.Proof.ROps3
import proofs.«175835_j29978871726094_1_alg».proof.Proof.ROps4
import proofs.«175835_j29978871726094_1_alg».proof.Proof.ROps5
import proofs.«175835_j29978871726094_1_alg».proof.Proof.ROps6
import proofs.«175835_j29978871726094_1_alg».proof.Proof.ROps7
import proofs.«175835_j29978871726094_1_alg».proof.Proof.ROps8
import proofs.«175835_j29978871726094_1_alg».proof.Proof.ROps9
import proofs.«175835_j29978871726094_1_alg».proof.Proof.ROps10
import proofs.«175835_j29978871726094_1_alg».proof.Proof.ROps11
import proofs.«175835_j29978871726094_1_alg».proof.Proof.ROps12
import proofs.«175835_j29978871726094_1_alg».proof.Proof.ROps13
import proofs.«175835_j29978871726094_1_alg».proof.Proof.ROps14
import Idealize.ShloMosaic.Lib.StableHlo.Run
import Idealize.ShloMosaic.Lib.Pipeline.Frame

noncomputable section

namespace Cert.RSide

open Cert.ReferenceIdeal Cert.ReferenceIdeal.Gen Idealize.ShloMosaic Idealize.ShloMosaic.TcCoe Idealize.SL.Sem Idealize.ShloMosaic.StableHlo

variable {F : FTy → Type} [FloatOps F]

/-- @main's 946 operations, in order: the windows' lists one after the other. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14))))))))))))))

/-- @main runs its windows in order, each the straight line of its list: two lines in a row are the line of the
    concatenation. -/
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c, ← part9_eq c, ← part10_eq c, ← part11_eq c, ← part12_eq c, ← part13_eq c, ← part14_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h]

/-- Every operation determines its results: window by window. -/
theorem ops_fresh : ∀ op ∈ (ops : List (HloOp τ sig (Elt F))), op.fresh = ∅ := fun op h => by
  simp only [ops, List.mem_append] at h
  rcases h with h | h | h | h | h | h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h, List.forall_iff_forall_mem.mp ops12_fresh op h, List.forall_iff_forall_mem.mp ops13_fresh op h, List.forall_iff_forall_mem.mp ops14_fresh op h]

/-- On every device, for any float values, from any memory with zero counters: every weakly fair execution of @main
    terminates, and every final state has each TensorCore buffer at the fold of the operations' results over its
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The fold over the whole list is the folds over the windows, one after the other. -/
theorem after_ops (V : Valuation τ sig (Elt F)) :
    after ops V = after ops14 (after ops13 (after ops12 (after ops11 (after ops10 (after ops9 (after ops8 (after ops7 (after ops6 (after ops5 (after ops4 (after ops3 (after ops2 (after ops1 (after ops0 (V))))))))))))))) := by
  simp only [ops, after_append]

end Cert.RSide

end
-- ==== Proof.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.RWrites.lean ====
import proofs.«175835_j29978871726094_1_alg».proof.Proof.RRun
import proofs.«175835_j29978871726094_1_alg».proof.Proof.LibSingleAssignment

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! The writes of the reference's operations position by position, the operations after each window, the contents before each window. -/

set_option maxRecDepth 8192 in
theorem ops0_w2 : Writes (ops0 : List (HloOp τ sig (Elt F))) ops0_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))

set_option maxRecDepth 8192 in
theorem ops1_w2 : Writes (ops1 : List (HloOp τ sig (Elt F))) ops1_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))

set_option maxRecDepth 8192 in
theorem ops2_w2 : Writes (ops2 : List (HloOp τ sig (Elt F))) ops2_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))

set_option maxRecDepth 8192 in
theorem ops3_w2 : Writes (ops3 : List (HloOp τ sig (Elt F))) ops3_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))

set_option maxRecDepth 8192 in
theorem ops4_w2 : Writes (ops4 : List (HloOp τ sig (Elt F))) ops4_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))

set_option maxRecDepth 8192 in
theorem ops5_w2 : Writes (ops5 : List (HloOp τ sig (Elt F))) ops5_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))

set_option maxRecDepth 8192 in
theorem ops6_w2 : Writes (ops6 : List (HloOp τ sig (Elt F))) ops6_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))

set_option maxRecDepth 8192 in
theorem ops7_w2 : Writes (ops7 : List (HloOp τ sig (Elt F))) ops7_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))

set_option maxRecDepth 8192 in
theorem ops8_w2 : Writes (ops8 : List (HloOp τ sig (Elt F))) ops8_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))

set_option maxRecDepth 8192 in
theorem ops9_w2 : Writes (ops9 : List (HloOp τ sig (Elt F))) ops9_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))

set_option maxRecDepth 8192 in
theorem ops10_w2 : Writes (ops10 : List (HloOp τ sig (Elt F))) ops10_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))

set_option maxRecDepth 8192 in
theorem ops11_w2 : Writes (ops11 : List (HloOp τ sig (Elt F))) ops11_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))

set_option maxRecDepth 8192 in
theorem ops12_w2 : Writes (ops12 : List (HloOp τ sig (Elt F))) ops12_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))

set_option maxRecDepth 8192 in
theorem ops13_w2 : Writes (ops13 : List (HloOp τ sig (Elt F))) ops13_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))

set_option maxRecDepth 8192 in
theorem ops14_w2 : Writes (ops14 : List (HloOp τ sig (Elt F))) ops14_W :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))

/-- The operations after window 13, and the buffers they write. -/
abbrev tail14 : List (HloOp τ sig (Elt F)) := ops14
abbrev tailW14 : List (Ref sig .tc) := ops14_W
theorem tail14_w2 : Writes (tail14 : List (HloOp τ sig (Elt F))) tailW14 := ops14_w2

/-- The operations after window 12, and the buffers they write. -/
abbrev tail13 : List (HloOp τ sig (Elt F)) := ops13 ++ tail14
abbrev tailW13 : List (Ref sig .tc) := ops13_W ++ tailW14
theorem tail13_w2 : Writes (tail13 : List (HloOp τ sig (Elt F))) tailW13 := ops13_w2.append tail14_w2

/-- The operations after window 11, and the buffers they write. -/
abbrev tail12 : List (HloOp τ sig (Elt F)) := ops12 ++ tail13
abbrev tailW12 : List (Ref sig .tc) := ops12_W ++ tailW13
theorem tail12_w2 : Writes (tail12 : List (HloOp τ sig (Elt F))) tailW12 := ops12_w2.append tail13_w2

/-- The operations after window 10, and the buffers they write. -/
abbrev tail11 : List (HloOp τ sig (Elt F)) := ops11 ++ tail12
abbrev tailW11 : List (Ref sig .tc) := ops11_W ++ tailW12
theorem tail11_w2 : Writes (tail11 : List (HloOp τ sig (Elt F))) tailW11 := ops11_w2.append tail12_w2

/-- The operations after window 9, and the buffers they write. -/
abbrev tail10 : List (HloOp τ sig (Elt F)) := ops10 ++ tail11
abbrev tailW10 : List (Ref sig .tc) := ops10_W ++ tailW11
theorem tail10_w2 : Writes (tail10 : List (HloOp τ sig (Elt F))) tailW10 := ops10_w2.append tail11_w2

/-- The operations after window 8, and the buffers they write. -/
abbrev tail9 : List (HloOp τ sig (Elt F)) := ops9 ++ tail10
abbrev tailW9 : List (Ref sig .tc) := ops9_W ++ tailW10
theorem tail9_w2 : Writes (tail9 : List (HloOp τ sig (Elt F))) tailW9 := ops9_w2.append tail10_w2

/-- The operations after window 7, and the buffers they write. -/
abbrev tail8 : List (HloOp τ sig (Elt F)) := ops8 ++ tail9
abbrev tailW8 : List (Ref sig .tc) := ops8_W ++ tailW9
theorem tail8_w2 : Writes (tail8 : List (HloOp τ sig (Elt F))) tailW8 := ops8_w2.append tail9_w2

/-- The operations after window 6, and the buffers they write. -/
abbrev tail7 : List (HloOp τ sig (Elt F)) := ops7 ++ tail8
abbrev tailW7 : List (Ref sig .tc) := ops7_W ++ tailW8
theorem tail7_w2 : Writes (tail7 : List (HloOp τ sig (Elt F))) tailW7 := ops7_w2.append tail8_w2

/-- The operations after window 5, and the buffers they write. -/
abbrev tail6 : List (HloOp τ sig (Elt F)) := ops6 ++ tail7
abbrev tailW6 : List (Ref sig .tc) := ops6_W ++ tailW7
theorem tail6_w2 : Writes (tail6 : List (HloOp τ sig (Elt F))) tailW6 := ops6_w2.append tail7_w2

/-- The operations after window 4, and the buffers they write. -/
abbrev tail5 : List (HloOp τ sig (Elt F)) := ops5 ++ tail6
abbrev tailW5 : List (Ref sig .tc) := ops5_W ++ tailW6
theorem tail5_w2 : Writes (tail5 : List (HloOp τ sig (Elt F))) tailW5 := ops5_w2.append tail6_w2

/-- The operations after window 3, and the buffers they write. -/
abbrev tail4 : List (HloOp τ sig (Elt F)) := ops4 ++ tail5
abbrev tailW4 : List (Ref sig .tc) := ops4_W ++ tailW5
theorem tail4_w2 : Writes (tail4 : List (HloOp τ sig (Elt F))) tailW4 := ops4_w2.append tail5_w2

/-- The operations after window 2, and the buffers they write. -/
abbrev tail3 : List (HloOp τ sig (Elt F)) := ops3 ++ tail4
abbrev tailW3 : List (Ref sig .tc) := ops3_W ++ tailW4
theorem tail3_w2 : Writes (tail3 : List (HloOp τ sig (Elt F))) tailW3 := ops3_w2.append tail4_w2

/-- The operations after window 1, and the buffers they write. -/
abbrev tail2 : List (HloOp τ sig (Elt F)) := ops2 ++ tail3
abbrev tailW2 : List (Ref sig .tc) := ops2_W ++ tailW3
theorem tail2_w2 : Writes (tail2 : List (HloOp τ sig (Elt F))) tailW2 := ops2_w2.append tail3_w2

/-- The operations after window 0, and the buffers they write. -/
abbrev tail1 : List (HloOp τ sig (Elt F)) := ops1 ++ tail2
abbrev tailW1 : List (Ref sig .tc) := ops1_W ++ tailW2
theorem tail1_w2 : Writes (tail1 : List (HloOp τ sig (Elt F))) tailW1 := ops1_w2.append tail2_w2

/-- The contents before window 0: the launch's. -/
def val0 (V : Valuation τ sig (Elt F)) : Valuation τ sig (Elt F) := V

/-- The contents before window 1. -/
def val1 (V : Valuation τ sig (Elt F)) : Valuation τ sig (Elt F) := after ops0 (val0 V)

/-- The contents before window 2. -/
def val2 (V : Valuation τ sig (Elt F)) : Valuation τ sig (Elt F) := after ops1 (val1 V)

/-- The contents before window 3. -/
def val3 (V : Valuation τ sig (Elt F)) : Valuation τ sig (Elt F) := after ops2 (val2 V)

/-- The contents before window 4. -/
def val4 (V : Valuation τ sig (Elt F)) : Valuation τ sig (Elt F) := after ops3 (val3 V)

/-- The contents before window 5. -/
def val5 (V : Valuation τ sig (Elt F)) : Valuation τ sig (Elt F) := after ops4 (val4 V)

/-- The contents before window 6. -/
def val6 (V : Valuation τ sig (Elt F)) : Valuation τ sig (Elt F) := after ops5 (val5 V)

/-- The contents before window 7. -/
def val7 (V : Valuation τ sig (Elt F)) : Valuation τ sig (Elt F) := after ops6 (val6 V)

/-- The contents before window 8. -/
def val8 (V : Valuation τ sig (Elt F)) : Valuation τ sig (Elt F) := after ops7 (val7 V)

/-- The contents before window 9. -/
def val9 (V : Valuation τ sig (Elt F)) : Valuation τ sig (Elt F) := after ops8 (val8 V)

/-- The contents before window 10. -/
def val10 (V : Valuation τ sig (Elt F)) : Valuation τ sig (Elt F) := after ops9 (val9 V)

/-- The contents before window 11. -/
def val11 (V : Valuation τ sig (Elt F)) : Valuation τ sig (Elt F) := after ops10 (val10 V)

/-- The contents before window 12. -/
def val12 (V : Valuation τ sig (Elt F)) : Valuation τ sig (Elt F) := after ops11 (val11 V)

/-- The contents before window 13. -/
def val13 (V : Valuation τ sig (Elt F)) : Valuation τ sig (Elt F) := after ops12 (val12 V)

/-- The contents before window 14. -/
def val14 (V : Valuation τ sig (Elt F)) : Valuation τ sig (Elt F) := after ops13 (val13 V)

/-- The whole fold, split after window 0. -/
theorem split0 (V : Valuation τ sig (Elt F)) : after ops V = after tail1 (after ops0 (val0 V)) := after_append ops0 tail1 V

/-- The whole fold, split after window 1. -/
theorem split1 (V : Valuation τ sig (Elt F)) : after ops V = after tail2 (after ops1 (val1 V)) :=
  (split0 V).trans (after_append ops1 tail2 (val1 V))

/-- The whole fold, split after window 2. -/
theorem split2 (V : Valuation τ sig (Elt F)) : after ops V = after tail3 (after ops2 (val2 V)) :=
  (split1 V).trans (after_append ops2 tail3 (val2 V))

/-- The whole fold, split after window 3. -/
theorem split3 (V : Valuation τ sig (Elt F)) : after ops V = after tail4 (after ops3 (val3 V)) :=
  (split2 V).trans (after_append ops3 tail4 (val3 V))

/-- The whole fold, split after window 4. -/
theorem split4 (V : Valuation τ sig (Elt F)) : after ops V = after tail5 (after ops4 (val4 V)) :=
  (split3 V).trans (after_append ops4 tail5 (val4 V))

/-- The whole fold, split after window 5. -/
theorem split5 (V : Valuation τ sig (Elt F)) : after ops V = after tail6 (after ops5 (val5 V)) :=
  (split4 V).trans (after_append ops5 tail6 (val5 V))

/-- The whole fold, split after window 6. -/
theorem split6 (V : Valuation τ sig (Elt F)) : after ops V = after tail7 (after ops6 (val6 V)) :=
  (split5 V).trans (after_append ops6 tail7 (val6 V))

/-- The whole fold, split after window 7. -/
theorem split7 (V : Valuation τ sig (Elt F)) : after ops V = after tail8 (after ops7 (val7 V)) :=
  (split6 V).trans (after_append ops7 tail8 (val7 V))

/-- The whole fold, split after window 8. -/
theorem split8 (V : Valuation τ sig (Elt F)) : after ops V = after tail9 (after ops8 (val8 V)) :=
  (split7 V).trans (after_append ops8 tail9 (val8 V))

/-- The whole fold, split after window 9. -/
theorem split9 (V : Valuation τ sig (Elt F)) : after ops V = after tail10 (after ops9 (val9 V)) :=
  (split8 V).trans (after_append ops9 tail10 (val9 V))

/-- The whole fold, split after window 10. -/
theorem split10 (V : Valuation τ sig (Elt F)) : after ops V = after tail11 (after ops10 (val10 V)) :=
  (split9 V).trans (after_append ops10 tail11 (val10 V))

/-- The whole fold, split after window 11. -/
theorem split11 (V : Valuation τ sig (Elt F)) : after ops V = after tail12 (after ops11 (val11 V)) :=
  (split10 V).trans (after_append ops11 tail12 (val11 V))

/-- The whole fold, split after window 12. -/
theorem split12 (V : Valuation τ sig (Elt F)) : after ops V = after tail13 (after ops12 (val12 V)) :=
  (split11 V).trans (after_append ops12 tail13 (val12 V))

/-- The whole fold, split after window 13. -/
theorem split13 (V : Valuation τ sig (Elt F)) : after ops V = after tail14 (after ops13 (val13 V)) :=
  (split12 V).trans (after_append ops13 tail14 (val13 V))

/-- The whole fold ends with the last window. -/
theorem split14 (V : Valuation τ sig (Elt F)) : after ops V = after ([] : List (HloOp τ sig (Elt F))) (after ops14 (val14 V)) := split13 V

end Cert.RSide

end
-- ==== Proof.RSsa0.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 0: each operation's buffer at the end of the run, as the operation's function of its operands' buffers at the end of the run. -/

theorem W_main_v0 (V : Valuation τ sig (Elt F)) :
    after ops V (Proc.devRef .tc main_v0) = shapeCast S2048x8192 (after ops V (Proc.devRef .tc main_arg0)) shapeCasts_S2048x256x32_S2048x8192 := by
  rw [split0 V]
  exact read_reshape ops0_w2 tail1_w2 0 rfl (by decide) (by decide) (val0 V)

theorem W_main_c (V : Valuation τ sig (Elt F)) :
    after ops V (Proc.devRef .tc main_c) = (constantI S_ 32 0#32) := by
  rw [split0 V]
  exact read_nullary ops0_w2 tail1_w2 1 rfl (by decide) (val0 V)

theorem W_main_v1 (V : Valuation τ sig (Elt F)) :
    after ops V (Proc.devRef .tc main_v1) = (broadcastInDim S2048 ![] bcast_S_S2048 : (⟨S_, .i32⟩ : BufTy).Contents (Elt F) → (⟨S2048, .i32⟩ : BufTy).Contents (Elt F)) (after ops V (Proc.devRef .tc main_c)) := by
  rw [split0 V]
  exact read_unary ops0_w2 tail1_w2 2 rfl (by decide) (by decide) (val0 V)

theorem W_main_v2 (V : Valuation τ sig (Elt F)) :
    after ops V (Proc.devRef .tc main_v2) = (cmpi .slt : (⟨S2048, .i32⟩ : BufTy).Contents (Elt F) → (⟨S2048, .i32⟩ : BufTy).Contents (Elt F) → (⟨S2048, .i1⟩ : BufTy).Contents (Elt F)) (after ops V (Proc.devRef .tc main_arg1)) (after ops V (Proc.devRef .tc main_v1)) := by
  rw [split0 V]
  exact read_binary ops0_w2 tail1_w2 3 rfl (by decide) (by decide) (by decide) (val0 V)

theorem W_main_c_0 (V : Valuation τ sig (Elt F)) :
    after ops V (Proc.devRef .tc main_c_0) = (constantI S_ 32 4#32) := by
  rw [split0 V]
  exact read_nullary ops0_w2 tail1_w2 4 rfl (by decide) (val0 V)

theorem W_main_v3 (V : Valuation τ sig (Elt F)) :
    after ops V (Proc.devRef .tc main_v3) = (broadcastInDim S2048 ![] bcast_S_S2048 : (⟨S_, .i32⟩ : BufTy).Contents (Elt F) → (⟨S2048, .i32⟩ : BufTy).Contents (Elt F)) (after ops V (Proc.devRef .tc main_c_0)) := by
  rw [split0 V]
  exact read_unary ops0_w2 tail1_w2 5 rfl (by decide) (by decide) (val0 V)

theorem W_main_v4 (V : Valuation τ sig (Elt F)) :
    after ops V (Proc.devRef .tc main_v4) = (addi : (⟨S2048, .i32⟩ : BufTy).Contents (Elt F) → (⟨S2048, .i32⟩ : BufTy).Contents (Elt F) → (⟨S2048, .i32⟩ : BufTy).Contents (Elt F)) (after ops V (Proc.devRef .tc main_arg1)) (after ops V (Proc.devRef .tc main_v3)) := by
  rw [split0 V]
  exact read_binary ops0_w2 tail1_w2 6 rfl (by decide) (by decide) (by decide) (val0 V)

theorem W_main_v5 (V : Valuation τ sig (Elt F)) :
    after ops V (Proc.devRef .tc main_v5) = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (after ops V (Proc.devRef .tc main_v2)) (after ops V (Proc.devRef .tc main_v4)) (after ops V (Proc.devRef .tc main_arg1)) := by
  rw [split0 V]
  exact read_ternary ops0_w2 tail1_w2 7 rfl (by decide) (by decide) (by decide) (by decide) (val0 V)

theorem W_main_v6 (V : Valuation τ sig (Elt F)) :
    after ops V (Proc.devRef .tc main_v6) = (broadcastInDim S2048x1 ![0] bcast_S2048_S2048x1_0 : (⟨S2048, .i32⟩ : BufTy).Contents (Elt F) → (⟨S2048x1, .i32⟩ : BufTy).Contents (Elt F)) (after ops V (Proc.devRef .tc main_v5)) := by
  rw [split0 V]
  exact read_unary ops0_w2 tail1_w2 8 rfl (by decide) (by decide) (val0 V)

theorem W_main_v7 (V : Valuation τ sig (Elt F)) :
    after ops V (Proc.devRef .tc main_v7) = ((fun x i => Host.gather gather_S4x1024_S2048x1_S2048x1024_1_0_n_n_0_1_11024 x i) : (⟨S4x1024, .f32⟩ : BufTy).Contents (Elt F) → (⟨S2048x1, .i32⟩ : BufTy).Contents (Elt F) → (⟨S2048x1024, .f32⟩ : BufTy).Contents (Elt F)) (after ops V (Proc.devRef .tc main_arg2)) (after ops V (Proc.devRef .tc main_v6)) := by
  rw [split0 V]
  exact read_binary ops0_w2 tail1_w2 9 rfl (by decide) (by decide) (by decide) (val0 V)

theorem W_main_cst (V : Valuation τ sig (Elt F)) :
    after ops V (Proc.devRef .tc main_cst) = (constant S_ .f32 0x00000000#32) := by
  rw [split0 V]
  exact read_nullary ops0_w2 tail1_w2 10 rfl (by decide) (val0 V)

theorem W_main_v8 (V : Valuation τ sig (Elt F)) :
    after ops V (Proc.devRef .tc main_v8) = (broadcastInDim S2048 ![] bcast_S_S2048 : (⟨S_, .f32⟩ : BufTy).Contents (Elt F) → (⟨S2048, .f32⟩ : BufTy).Contents (Elt F)) (after ops V (Proc.devRef .tc main_cst)) := by
  rw [split0 V]
  exact read_unary ops0_w2 tail1_w2 11 rfl (by decide) (by decide) (val0 V)

theorem W_main_v9 (V : Valuation τ sig (Elt F)) :
    after ops V (Proc.devRef .tc main_v9) = (iotaInDim S4096 32 0) := by
  rw [split0 V]
  exact read_nullary ops0_w2 tail1_w2 12 rfl (by decide) (val0 V)

theorem W_main_c_1 (V : Valuation τ sig (Elt F)) :
    after ops V (Proc.devRef .tc main_c_1) = (constantI S_ 32 2#32) := by
  rw [split0 V]
  exact read_nullary ops0_w2 tail1_w2 13 rfl (by decide) (val0 V)

theorem W_main_v10 (V : Valuation τ sig (Elt F)) :
    after ops V (Proc.devRef .tc main_v10) = (broadcastInDim S4096 ![] bcast_S_S4096 : (⟨S_, .i32⟩ : BufTy).Contents (Elt F) → (⟨S4096, .i32⟩ : BufTy).Contents (Elt F)) (after ops V (Proc.devRef .tc main_c_1)) := by
  rw [split0 V]
  exact read_unary ops0_w2 tail1_w2 14 rfl (by decide) (by decide) (val0 V)

theorem W_main_v11 (V : Valuation τ sig (Elt F)) :
    after ops V (Proc.devRef .tc main_v11) = (muli : (⟨S4096, .i32⟩ : BufTy).Contents (Elt F) → (⟨S4096, .i32⟩ : BufTy).Contents (Elt F) → (⟨S4096, .i32⟩ : BufTy).Contents (Elt F)) (after ops V (Proc.devRef .tc main_v10)) (after ops V (Proc.devRef .tc main_v9)) := by
  rw [split0 V]
  exact read_binary ops0_w2 tail1_w2 15 rfl (by decide) (by decide) (by decide) (val0 V)

theorem W_main_c_2 (V : Valuation τ sig (Elt F)) :
    after ops V (Proc.devRef .tc main_c_2) = (constantI S_ 32 0#32) := by
  rw [split0 V]
  exact read_nullary ops0_w2 tail1_w2 16 rfl (by decide) (val0 V)

theorem W_main_v12 (V : Valuation τ sig (Elt F)) :
    after ops V (Proc.devRef .tc main_v12) = (broadcastInDim S4096 ![] bcast_S_S4096 : (⟨S_, .i32⟩ : BufTy).Contents (Elt F) → (⟨S4096, .i32⟩ : BufTy).Contents (Elt F)) (after ops V (Proc.devRef .tc main_c_2)) := by
  rw [split0 V]
  exact read_unary ops0_w2 tail1_w2 17 rfl (by decide) (by decide) (val0 V)

theorem W_main_v13 (V : Valuation τ sig (Elt F)) :
    after ops V (Proc.devRef .tc main_v13) = (addi : (⟨S4096, .i32⟩ : BufTy).Contents (Elt F) → (⟨S4096, .i32⟩ : BufTy).Contents (Elt F) → (⟨S4096, .i32⟩ : BufTy).Contents (Elt F)) (after ops V (Proc.devRef .tc main_v12)) (after ops V (Proc.devRef .tc main_v11)) := by
  rw [split0 V]
  exact read_binary ops0_w2 tail1_w2 18 rfl (by decide) (by decide) (by decide) (val0 V)

theorem W_main_v14 (V : Valuation τ sig (Elt F)) :
    after ops V (Proc.devRef .tc main_v14) = (iotaInDim S4096 32 0) := by
  rw [split0 V]
  exact read_nullary ops0_w2 tail1_w2 19 rfl (by decide) (val0 V)

theorem W_main_c_3 (V : Valuation τ sig (Elt F)) :
    after ops V (Proc.devRef .tc main_c_3) = (constantI S_ 32 2#32) := by
  rw [split0 V]
  exact read_nullary ops0_w2 tail1_w2 20 rfl (by decide) (val0 V)

theorem W_main_v15 (V : Valuation τ sig (Elt F)) :
    after ops V (Proc.devRef .tc main_v15) = (broadcastInDim S4096 ![] bcast_S_S4096 : (⟨S_, .i32⟩ : BufTy).Contents (Elt F) → (⟨S4096, .i32⟩ : BufTy).Contents (Elt F)) (after ops V (Proc.devRef .tc main_c_3)) := by
  rw [split0 V]
  exact read_unary ops0_w2 tail1_w2 21 rfl (by decide) (by decide) (val0 V)

theorem W_main_v16 (V : Valuation τ sig (Elt F)) :
    after ops V (Proc.devRef .tc main_v16) = (muli : (⟨S4096, .i32⟩ : BufTy).Contents (Elt F) → (⟨S4096, .i32⟩ : BufTy).Contents (Elt F) → (⟨S4096, .i32⟩ : BufTy).Contents (Elt F)) (after ops V (Proc.devRef .tc main_v15)) (after ops V (Proc.devRef .tc main_v14)) := by
  rw [split0 V]
  exact read_binary ops0_w2 tail1_w2 22 rfl (by decide) (by decide) (by decide) (val0 V)

theorem W_main_c_4 (V : Valuation τ sig (Elt F)) :
    after ops V (Proc.devRef .tc main_c_4) = (constantI S_ 32 1#32) := by
  rw [split0 V]
  exact read_nullary ops0_w2 tail1_w2 23 rfl (by decide) (val0 V)

theorem W_main_v17 (V : Valuation τ sig (Elt F)) :
    after ops V (Proc.devRef .tc main_v17) = (broadcastInDim S4096 ![] bcast_S_S4096 : (⟨S_, .i32⟩ : BufTy).Contents (Elt F) → (⟨S4096, .i32⟩ : BufTy).Contents (Elt F)) (after ops V (Proc.devRef .tc main_c_4)) := by
  rw [split0 V]
  exact read_unary ops0_w2 tail1_w2 24 rfl (by decide) (by decide) (val0 V)

theorem W_main_v18 (V : Valuation τ sig (Elt F)) :
    after ops V (Proc.devRef .tc main_v18) = (addi : (⟨S4096, .i32⟩ : BufTy).Contents (Elt F) → (⟨S4096, .i32⟩ : BufTy).Contents (Elt F) → (⟨S4096, .i32⟩ : BufTy).Contents (Elt F)) (after ops V (Proc.devRef .tc main_v17)) (after ops V (Proc.devRef .tc main_v16)) := by
  rw [split0 V]
  exact read_binary ops0_w2 tail1_w2 25 rfl (by decide) (by decide) (by decide) (val0 V)

theorem W_main_v19 (V : Valuation τ sig (Elt F)) :
    after ops V (Proc.devRef .tc main_v19) = ((extractStridedSlice S1x8192 ![0, 0] · slices_S8x8192_S1x8192_0_0) : (⟨S8x8192, .f32⟩ : BufTy).Contents (Elt F) → (⟨S1x8192, .f32⟩ : BufTy).Contents (Elt F)) (after ops V (Proc.devRef .tc main_arg4)) := by
  rw [split0 V]
  exact read_unary ops0_w2 tail1_w2 26 rfl (by decide) (by decide) (val0 V)

theorem W_main_v20 (V : Valuation τ sig (Elt F)) :
    after ops V (Proc.devRef .tc main_v20) = shapeCast S8192 (after ops V (Proc.devRef .tc main_v19)) shapeCasts_S1x8192_S8192 := by
  rw [split0 V]
  exact read_reshape ops0_w2 tail1_w2 27 rfl (by decide) (by decide) (val0 V)

theorem W_main_v21 (V : Valuation τ sig (Elt F)) :
    after ops V (Proc.devRef .tc main_v21) = (broadcastInDim S1x8192 ![1] bcast_S8192_S1x8192_1 : (⟨S8192, .f32⟩ : BufTy).Contents (Elt F) → (⟨S1x8192, .f32⟩ : BufTy).Contents (Elt F)) (after ops V (Proc.devRef .tc main_v20)) := by
  rw [split0 V]
  exact read_unary ops0_w2 tail1_w2 28 rfl (by decide) (by decide) (val0 V)

theorem W_main_v22 (V : Valuation τ sig (Elt F)) :
    after ops V (Proc.devRef .tc main_v22) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v21)) := by
  rw [split0 V]
  exact read_unary ops0_w2 tail1_w2 29 rfl (by decide) (by decide) (val0 V)

theorem W_main_v23 (V : Valuation τ sig (Elt F)) :
    after ops V (Proc.devRef .tc main_v23) = (addf : (⟨S2048x8192, .f32⟩ : BufTy).Contents (Elt F) → (⟨S2048x8192, .f32⟩ : BufTy).Contents (Elt F) → (⟨S2048x8192, .f32⟩ : BufTy).Contents (Elt F)) (after ops V (Proc.devRef .tc main_v0)) (after ops V (Proc.devRef .tc main_v22)) := by
  rw [split0 V]
  exact read_binary ops0_w2 tail1_w2 30 rfl (by decide) (by decide) (by decide) (val0 V)

theorem W_main_v24 (V : Valuation τ sig (Elt F)) :
    after ops V (Proc.devRef .tc main_v24) = ((extractStridedSlice S1x8192 ![0, 0] · slices_S8x8192_S1x8192_0_0) : (⟨S8x8192, .f32⟩ : BufTy).Contents (Elt F) → (⟨S1x8192, .f32⟩ : BufTy).Contents (Elt F)) (after ops V (Proc.devRef .tc main_arg3)) := by
  rw [split0 V]
  exact read_unary ops0_w2 tail1_w2 31 rfl (by decide) (by decide) (val0 V)

theorem W_main_v25 (V : Valuation τ sig (Elt F)) :
    after ops V (Proc.devRef .tc main_v25) = shapeCast S8192 (after ops V (Proc.devRef .tc main_v24)) shapeCasts_S1x8192_S8192 := by
  rw [split0 V]
  exact read_reshape ops0_w2 tail1_w2 32 rfl (by decide) (by decide) (val0 V)

theorem W_main_v26 (V : Valuation τ sig (Elt F)) :
    after ops V (Proc.devRef .tc main_v26) = (Host.exp : (⟨S8192, .f32⟩ : BufTy).Contents (Elt F) → (⟨S8192, .f32⟩ : BufTy).Contents (Elt F)) (after ops V (Proc.devRef .tc main_v25)) := by
  rw [split0 V]
  exact read_unary ops0_w2 tail1_w2 33 rfl (by decide) (by decide) (val0 V)

theorem W_main_v27 (V : Valuation τ sig (Elt F)) :
    after ops V (Proc.devRef .tc main_v27) = (broadcastInDim S1x8192 ![1] bcast_S8192_S1x8192_1 : (⟨S8192, .f32⟩ : BufTy).Contents (Elt F) → (⟨S1x8192, .f32⟩ : BufTy).Contents (Elt F)) (after ops V (Proc.devRef .tc main_v26)) := by
  rw [split0 V]
  exact read_unary ops0_w2 tail1_w2 34 rfl (by decide) (by decide) (val0 V)

theorem W_main_v28 (V : Valuation τ sig (Elt F)) :
    after ops V (Proc.devRef .tc main_v28) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v27)) := by
  rw [split0 V]
  exact read_unary ops0_w2 tail1_w2 35 rfl (by decide) (by decide) (val0 V)

theorem W_main_v29 (V : Valuation τ sig (Elt F)) :
    after ops V (Proc.devRef .tc main_v29) = (mulf : (⟨S2048x8192, .f32⟩ : BufTy).Contents (Elt F) → (⟨S2048x8192, .f32⟩ : BufTy).Contents (Elt F) → (⟨S2048x8192, .f32⟩ : BufTy).Contents (Elt F)) (after ops V (Proc.devRef .tc main_v23)) (after ops V (Proc.devRef .tc main_v28)) := by
  rw [split0 V]
  exact read_binary ops0_w2 tail1_w2 36 rfl (by decide) (by decide) (by decide) (val0 V)

theorem W_main_v30 (V : Valuation τ sig (Elt F)) :
    after ops V (Proc.devRef .tc main_v30) = ((extractStridedSlice S1x8192 ![0, 0] · slices_S8x8192_S1x8192_0_0) : (⟨S8x8192, .f32⟩ : BufTy).Contents (Elt F) → (⟨S1x8192, .f32⟩ : BufTy).Contents (Elt F)) (after ops V (Proc.devRef .tc main_arg3)) := by
  rw [split0 V]
  exact read_unary ops0_w2 tail1_w2 37 rfl (by decide) (by decide) (val0 V)

theorem W_main_v31 (V : Valuation τ sig (Elt F)) :
    after ops V (Proc.devRef .tc main_v31) = shapeCast S8192 (after ops V (Proc.devRef .tc main_v30)) shapeCasts_S1x8192_S8192 := by
  rw [split0 V]
  exact read_reshape ops0_w2 tail1_w2 38 rfl (by decide) (by decide) (val0 V)

theorem W_main_cst_5 (V : Valuation τ sig (Elt F)) :
    after ops V (Proc.devRef .tc main_cst_5) = (constant S_ .f32 0x00000000#32) := by
  rw [split0 V]
  exact read_nullary ops0_w2 tail1_w2 39 rfl (by decide) (val0 V)

theorem W_main_v32 (V : Valuation τ sig (Elt F)) :
    after ops V (Proc.devRef .tc main_v32) = ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (after ops V (Proc.devRef .tc main_v31)) (after ops V (Proc.devRef .tc main_cst_5)) := by
  rw [split0 V]
  exact read_binary ops0_w2 tail1_w2 40 rfl (by decide) (by decide) (by decide) (val0 V)

theorem W_main_v33 (V : Valuation τ sig (Elt F)) :
    after ops V (Proc.devRef .tc main_v33) = (broadcastInDim S2048 ![] bcast_S_S2048 : (⟨S_, .f32⟩ : BufTy).Contents (Elt F) → (⟨S2048, .f32⟩ : BufTy).Contents (Elt F)) (after ops V (Proc.devRef .tc main_v32)) := by
  rw [split0 V]
  exact read_unary ops0_w2 tail1_w2 41 rfl (by decide) (by decide) (val0 V)

theorem W_main_v34 (V : Valuation τ sig (Elt F)) :
    after ops V (Proc.devRef .tc main_v34) = (addf : (⟨S2048, .f32⟩ : BufTy).Contents (Elt F) → (⟨S2048, .f32⟩ : BufTy).Contents (Elt F) → (⟨S2048, .f32⟩ : BufTy).Contents (Elt F)) (after ops V (Proc.devRef .tc main_v8)) (after ops V (Proc.devRef .tc main_v33)) := by
  rw [split0 V]
  exact read_binary ops0_w2 tail1_w2 42 rfl (by decide) (by decide) (by decide) (val0 V)

theorem W_main_c_6 (V : Valuation τ sig (Elt F)) :
    after ops V (Proc.devRef .tc main_c_6) = (constantI S_ 32 0#32) := by
  rw [split0 V]
  exact read_nullary ops0_w2 tail1_w2 43 rfl (by decide) (val0 V)

theorem W_main_v35 (V : Valuation τ sig (Elt F)) :
    after ops V (Proc.devRef .tc main_v35) = (broadcastInDim S4096 ![] bcast_S_S4096 : (⟨S_, .i32⟩ : BufTy).Contents (Elt F) → (⟨S4096, .i32⟩ : BufTy).Contents (Elt F)) (after ops V (Proc.devRef .tc main_c_6)) := by
  rw [split0 V]
  exact read_unary ops0_w2 tail1_w2 44 rfl (by decide) (by decide) (val0 V)

theorem W_main_v36 (V : Valuation τ sig (Elt F)) :
    after ops V (Proc.devRef .tc main_v36) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v35)) := by
  rw [split0 V]
  exact read_binary ops0_w2 tail1_w2 45 rfl (by decide) (by decide) (by decide) (val0 V)

theorem W_main_c_7 (V : Valuation τ sig (Elt F)) :
    after ops V (Proc.devRef .tc main_c_7) = (constantI S_ 32 8192#32) := by
  rw [split0 V]
  exact read_nullary ops0_w2 tail1_w2 46 rfl (by decide) (val0 V)

theorem W_main_v37 (V : Valuation τ sig (Elt F)) :
    after ops V (Proc.devRef .tc main_v37) = (broadcastInDim S4096 ![] bcast_S_S4096 : (⟨S_, .i32⟩ : BufTy).Contents (Elt F) → (⟨S4096, .i32⟩ : BufTy).Contents (Elt F)) (after ops V (Proc.devRef .tc main_c_7)) := by
  rw [split0 V]
  exact read_unary ops0_w2 tail1_w2 47 rfl (by decide) (by decide) (val0 V)

theorem W_main_v38 (V : Valuation τ sig (Elt F)) :
    after ops V (Proc.devRef .tc main_v38) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v37)) := by
  rw [split0 V]
  exact read_binary ops0_w2 tail1_w2 48 rfl (by decide) (by decide) (by decide) (val0 V)

theorem W_main_v39 (V : Valuation τ sig (Elt F)) :
    after ops V (Proc.devRef .tc main_v39) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v36)) (after ops V (Proc.devRef .tc main_v38)) (after ops V (Proc.devRef .tc main_v13)) := by
  rw [split0 V]
  exact read_ternary ops0_w2 tail1_w2 49 rfl (by decide) (by decide) (by decide) (by decide) (val0 V)

theorem W_main_v40 (V : Valuation τ sig (Elt F)) :
    after ops V (Proc.devRef .tc main_v40) = (broadcastInDim S4096x1 ![0] bcast_S4096_S4096x1_0 : (⟨S4096, .i32⟩ : BufTy).Contents (Elt F) → (⟨S4096x1, .i32⟩ : BufTy).Contents (Elt F)) (after ops V (Proc.devRef .tc main_v39)) := by
  rw [split0 V]
  exact read_unary ops0_w2 tail1_w2 50 rfl (by decide) (by decide) (val0 V)

theorem W_main_v41 (V : Valuation τ sig (Elt F)) :
    after ops V (Proc.devRef .tc main_v41) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v29)) (after ops V (Proc.devRef .tc main_v40)) := by
  rw [split0 V]
  exact read_binary ops0_w2 tail1_w2 51 rfl (by decide) (by decide) (by decide) (val0 V)

theorem W_main_c_8 (V : Valuation τ sig (Elt F)) :
    after ops V (Proc.devRef .tc main_c_8) = (constantI S_ 32 0#32) := by
  rw [split0 V]
  exact read_nullary ops0_w2 tail1_w2 52 rfl (by decide) (val0 V)

theorem W_main_v42 (V : Valuation τ sig (Elt F)) :
    after ops V (Proc.devRef .tc main_v42) = (broadcastInDim S4096 ![] bcast_S_S4096 : (⟨S_, .i32⟩ : BufTy).Contents (Elt F) → (⟨S4096, .i32⟩ : BufTy).Contents (Elt F)) (after ops V (Proc.devRef .tc main_c_8)) := by
  rw [split0 V]
  exact read_unary ops0_w2 tail1_w2 53 rfl (by decide) (by decide) (val0 V)

theorem W_main_v43 (V : Valuation τ sig (Elt F)) :
    after ops V (Proc.devRef .tc main_v43) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v42)) := by
  rw [split0 V]
  exact read_binary ops0_w2 tail1_w2 54 rfl (by decide) (by decide) (by decide) (val0 V)

theorem W_main_c_9 (V : Valuation τ sig (Elt F)) :
    after ops V (Proc.devRef .tc main_c_9) = (constantI S_ 32 8192#32) := by
  rw [split0 V]
  exact read_nullary ops0_w2 tail1_w2 55 rfl (by decide) (val0 V)

theorem W_main_v44 (V : Valuation τ sig (Elt F)) :
    after ops V (Proc.devRef .tc main_v44) = (broadcastInDim S4096 ![] bcast_S_S4096 : (⟨S_, .i32⟩ : BufTy).Contents (Elt F) → (⟨S4096, .i32⟩ : BufTy).Contents (Elt F)) (after ops V (Proc.devRef .tc main_c_9)) := by
  rw [split0 V]
  exact read_unary ops0_w2 tail1_w2 56 rfl (by decide) (by decide) (val0 V)

theorem W_main_v45 (V : Valuation τ sig (Elt F)) :
    after ops V (Proc.devRef .tc main_v45) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v44)) := by
  rw [split0 V]
  exact read_binary ops0_w2 tail1_w2 57 rfl (by decide) (by decide) (by decide) (val0 V)

theorem W_main_v46 (V : Valuation τ sig (Elt F)) :
    after ops V (Proc.devRef .tc main_v46) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v43)) (after ops V (Proc.devRef .tc main_v45)) (after ops V (Proc.devRef .tc main_v18)) := by
  rw [split0 V]
  exact read_ternary ops0_w2 tail1_w2 58 rfl (by decide) (by decide) (by decide) (by decide) (val0 V)

theorem W_main_v47 (V : Valuation τ sig (Elt F)) :
    after ops V (Proc.devRef .tc main_v47) = (broadcastInDim S4096x1 ![0] bcast_S4096_S4096x1_0 : (⟨S4096, .i32⟩ : BufTy).Contents (Elt F) → (⟨S4096x1, .i32⟩ : BufTy).Contents (Elt F)) (after ops V (Proc.devRef .tc main_v46)) := by
  rw [split0 V]
  exact read_unary ops0_w2 tail1_w2 59 rfl (by decide) (by decide) (val0 V)

end Cert.RSide

end
-- ==== Proof.RFlowBase.lean ====
/-
  The reference's run: the arrays of the flow read off the device's contents.

  The eleven parameter arrays, the conditioning array and the starting array are functions of the contents of the
  fourteen argument buffers at launch; no operation writes an argument buffer, so they hold at the end what they held at
  launch. The conditioning array is the row selection the program computes first (the index, counted from the end when
  negative, laid out as a column); the starting array is the input with its last two axes merged; the vector starts at
  zero.
-/
import proofs.«175835_j29978871726094_1_alg».proof.Proof.RSsa0
import proofs.«175835_j29978871726094_1_alg».proof.Proof.FlowSpec
import proofs.«175835_j29978871726094_1_alg».proof.Proof.FlowVector

open scoped BigOperators

noncomputable section

namespace Cert.RSide

open Cert.ReferenceIdeal Cert.ReferenceIdeal.Gen Idealize.ShloMosaic Idealize.ShloMosaic.TcCoe Idealize.SL.Sem Idealize.ShloMosaic.StableHlo Cert.Lib.SingleAssignment Cert.Flow

/-- The whole line's writes, position by position. -/
theorem ops_w2 {F : FTy → Type} [FloatOps F] : Writes (ops : List (HloOp τ sig (Elt F))) (ops0_W ++ tailW1) :=
  ops0_w2.append tail1_w2

/-- Argument 0 is written by no operation. -/
theorem W_main_arg0 {F : FTy → Type} [FloatOps F] (V : Valuation τ sig (Elt F)) :
    after ops V (Proc.devRef .tc main_arg0) = V (Proc.devRef .tc main_arg0) :=
  after_of_not_mem ops_w2 (by decide) V

/-- Argument 1 is written by no operation. -/
theorem W_main_arg1 {F : FTy → Type} [FloatOps F] (V : Valuation τ sig (Elt F)) :
    after ops V (Proc.devRef .tc main_arg1) = V (Proc.devRef .tc main_arg1) :=
  after_of_not_mem ops_w2 (by decide) V

/-- Argument 2 is written by no operation. -/
theorem W_main_arg2 {F : FTy → Type} [FloatOps F] (V : Valuation τ sig (Elt F)) :
    after ops V (Proc.devRef .tc main_arg2) = V (Proc.devRef .tc main_arg2) :=
  after_of_not_mem ops_w2 (by decide) V

/-- Argument 3 is written by no operation. -/
theorem W_main_arg3 {F : FTy → Type} [FloatOps F] (V : Valuation τ sig (Elt F)) :
    after ops V (Proc.devRef .tc main_arg3) = V (Proc.devRef .tc main_arg3) :=
  after_of_not_mem ops_w2 (by decide) V

/-- Argument 4 is written by no operation. -/
theorem W_main_arg4 {F : FTy → Type} [FloatOps F] (V : Valuation τ sig (Elt F)) :
    after ops V (Proc.devRef .tc main_arg4) = V (Proc.devRef .tc main_arg4) :=
  after_of_not_mem ops_w2 (by decide) V

/-- Argument 5 is written by no operation. -/
theorem W_main_arg5 {F : FTy → Type} [FloatOps F] (V : Valuation τ sig (Elt F)) :
    after ops V (Proc.devRef .tc main_arg5) = V (Proc.devRef .tc main_arg5) :=
  after_of_not_mem ops_w2 (by decide) V

/-- Argument 6 is written by no operation. -/
theorem W_main_arg6 {F : FTy → Type} [FloatOps F] (V : Valuation τ sig (Elt F)) :
    after ops V (Proc.devRef .tc main_arg6) = V (Proc.devRef .tc main_arg6) :=
  after_of_not_mem ops_w2 (by decide) V

/-- Argument 7 is written by no operation. -/
theorem W_main_arg7 {F : FTy → Type} [FloatOps F] (V : Valuation τ sig (Elt F)) :
    after ops V (Proc.devRef .tc main_arg7) = V (Proc.devRef .tc main_arg7) :=
  after_of_not_mem ops_w2 (by decide) V

/-- Argument 8 is written by no operation. -/
theorem W_main_arg8 {F : FTy → Type} [FloatOps F] (V : Valuation τ sig (Elt F)) :
    after ops V (Proc.devRef .tc main_arg8) = V (Proc.devRef .tc main_arg8) :=
  after_of_not_mem ops_w2 (by decide) V

/-- Argument 9 is written by no operation. -/
theorem W_main_arg9 {F : FTy → Type} [FloatOps F] (V : Valuation τ sig (Elt F)) :
    after ops V (Proc.devRef .tc main_arg9) = V (Proc.devRef .tc main_arg9) :=
  after_of_not_mem ops_w2 (by decide) V

/-- Argument 10 is written by no operation. -/
theorem W_main_arg10 {F : FTy → Type} [FloatOps F] (V : Valuation τ sig (Elt F)) :
    after ops V (Proc.devRef .tc main_arg10) = V (Proc.devRef .tc main_arg10) :=
  after_of_not_mem ops_w2 (by decide) V

/-- Argument 11 is written by no operation. -/
theorem W_main_arg11 {F : FTy → Type} [FloatOps F] (V : Valuation τ sig (Elt F)) :
    after ops V (Proc.devRef .tc main_arg11) = V (Proc.devRef .tc main_arg11) :=
  after_of_not_mem ops_w2 (by decide) V

/-- Argument 12 is written by no operation. -/
theorem W_main_arg12 {F : FTy → Type} [FloatOps F] (V : Valuation τ sig (Elt F)) :
    after ops V (Proc.devRef .tc main_arg12) = V (Proc.devRef .tc main_arg12) :=
  after_of_not_mem ops_w2 (by decide) V

/-- Argument 13 is written by no operation. -/
theorem W_main_arg13 {F : FTy → Type} [FloatOps F] (V : Valuation τ sig (Elt F)) :
    after ops V (Proc.devRef .tc main_arg13) = V (Proc.devRef .tc main_arg13) :=
  after_of_not_mem ops_w2 (by decide) V

/-- The parameter arrays of the eight layers, read off the device's contents. -/
abbrev RP (V : Valuation τ sig (Elt Ideal)) : Params where
  als := V (Proc.devRef .tc main_arg3)
  ab := V (Proc.devRef .tc main_arg4)
  W1 := V (Proc.devRef .tc main_arg5)
  b1 := V (Proc.devRef .tc main_arg6)
  W2 := V (Proc.devRef .tc main_arg7)
  b2 := V (Proc.devRef .tc main_arg8)
  Ws := V (Proc.devRef .tc main_arg9)
  bs := V (Proc.devRef .tc main_arg10)
  Wt := V (Proc.devRef .tc main_arg11)
  bt := V (Proc.devRef .tc main_arg12)
  sf := V (Proc.devRef .tc main_arg13)

/-- The conditioning array, read off the device's contents. -/
abbrev Rcnd (V : Valuation τ sig (Elt Ideal)) : A2 2048 1024 :=
  cond (V (Proc.devRef .tc main_arg1)) (V (Proc.devRef .tc main_arg2))

/-- The starting array, read off the device's contents. -/
abbrev Rz0 (V : Valuation τ sig (Elt Ideal)) : A2 2048 8192 := z0 (V (Proc.devRef .tc main_arg0))

/-- The program's first gather is the conditioning array. -/
theorem W_cond (V : Valuation τ sig (Elt Ideal)) : after ops V (Proc.devRef .tc main_v7) = Rcnd V := by
  rw [W_main_v7, W_main_v6, W_main_v5, W_main_v4, W_main_v3, W_main_c_0, W_main_v2, W_main_v1, W_main_c, W_main_arg1,
    W_main_arg2]
  rfl

/-- The program's first reshape is the starting array. -/
theorem W_z0 (V : Valuation τ sig (Elt Ideal)) : after ops V (Proc.devRef .tc main_v0) = Rz0 V := by
  rw [W_main_v0, W_main_arg0]
  rfl

/-- The vector starts at zero. -/
theorem W_ld0 (V : Valuation τ sig (Elt Ideal)) : after ops V (Proc.devRef .tc main_v8) = fun _ => (0 : EReal) := by
  rw [W_main_v8, W_main_cst]
  exact Cert.Flow.Terms.zero_vector _

end Cert.RSide

end
-- ==== Proof.RSsa1.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 1: each operation's buffer at the end of the run, as the operation's function of its operands' buffers at the end of the run. -/

theorem W_main_v48 (V : Valuation τ sig (Elt F)) :
    after ops V (Proc.devRef .tc main_v48) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v29)) (after ops V (Proc.devRef .tc main_v47)) := by
  rw [split1 V]
  exact read_binary ops1_w2 tail2_w2 0 rfl (by decide) (by decide) (by decide) (val1 V)

theorem W_main_v49 (V : Valuation τ sig (Elt F)) :
    after ops V (Proc.devRef .tc main_v49) = ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)) (after ops V (Proc.devRef .tc main_v41)) (after ops V (Proc.devRef .tc main_v7)) := by
  rw [split1 V]
  exact read_binary ops1_w2 tail2_w2 1 rfl (by decide) (by decide) (by decide) (val1 V)

theorem W_main_v50 (V : Valuation τ sig (Elt F)) :
    after ops V (Proc.devRef .tc main_v50) = ((extractStridedSlice S1x5120x1024 ![0, 0, 0] · slices_S8x5120x1024_S1x5120x1024_0_0_0) : (⟨S8x5120x1024, .f32⟩ : BufTy).Contents (Elt F) → (⟨S1x5120x1024, .f32⟩ : BufTy).Contents (Elt F)) (after ops V (Proc.devRef .tc main_arg5)) := by
  rw [split1 V]
  exact read_unary ops1_w2 tail2_w2 2 rfl (by decide) (by decide) (val1 V)

theorem W_main_v51 (V : Valuation τ sig (Elt F)) :
    after ops V (Proc.devRef .tc main_v51) = shapeCast S5120x1024 (after ops V (Proc.devRef .tc main_v50)) shapeCasts_S1x5120x1024_S5120x1024 := by
  rw [split1 V]
  exact read_reshape ops1_w2 tail2_w2 3 rfl (by decide) (by decide) (val1 V)

theorem W_main_v52 (V : Valuation τ sig (Elt F)) :
    after ops V (Proc.devRef .tc main_v52) = ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)) (after ops V (Proc.devRef .tc main_v49)) (after ops V (Proc.devRef .tc main_v51)) := by
  rw [split1 V]
  exact read_binary ops1_w2 tail2_w2 4 rfl (by decide) (by decide) (by decide) (val1 V)

theorem W_main_v53 (V : Valuation τ sig (Elt F)) :
    after ops V (Proc.devRef .tc main_v53) = ((extractStridedSlice S1x1024 ![0, 0] · slices_S8x1024_S1x1024_0_0) : (⟨S8x1024, .f32⟩ : BufTy).Contents (Elt F) → (⟨S1x1024, .f32⟩ : BufTy).Contents (Elt F)) (after ops V (Proc.devRef .tc main_arg6)) := by
  rw [split1 V]
  exact read_unary ops1_w2 tail2_w2 5 rfl (by decide) (by decide) (val1 V)

theorem W_main_v54 (V : Valuation τ sig (Elt F)) :
    after ops V (Proc.devRef .tc main_v54) = shapeCast S1024 (after ops V (Proc.devRef .tc main_v53)) shapeCasts_S1x1024_S1024 := by
  rw [split1 V]
  exact read_reshape ops1_w2 tail2_w2 6 rfl (by decide) (by decide) (val1 V)

theorem W_main_v55 (V : Valuation τ sig (Elt F)) :
    after ops V (Proc.devRef .tc main_v55) = (broadcastInDim S1x1024 ![1] bcast_S1024_S1x1024_1 : (⟨S1024, .f32⟩ : BufTy).Contents (Elt F) → (⟨S1x1024, .f32⟩ : BufTy).Contents (Elt F)) (after ops V (Proc.devRef .tc main_v54)) := by
  rw [split1 V]
  exact read_unary ops1_w2 tail2_w2 7 rfl (by decide) (by decide) (val1 V)

theorem W_main_v56 (V : Valuation τ sig (Elt F)) :
    after ops V (Proc.devRef .tc main_v56) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v55)) := by
  rw [split1 V]
  exact read_unary ops1_w2 tail2_w2 8 rfl (by decide) (by decide) (val1 V)

theorem W_main_v57 (V : Valuation τ sig (Elt F)) :
    after ops V (Proc.devRef .tc main_v57) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v52)) (after ops V (Proc.devRef .tc main_v56)) := by
  rw [split1 V]
  exact read_binary ops1_w2 tail2_w2 9 rfl (by decide) (by decide) (by decide) (val1 V)

theorem W_main_cst_10 (V : Valuation τ sig (Elt F)) :
    after ops V (Proc.devRef .tc main_cst_10) = (constant S_ .f32 0x3E4CCCCD#32) := by
  rw [split1 V]
  exact read_nullary ops1_w2 tail2_w2 10 rfl (by decide) (val1 V)

theorem W_main_call0_cst (V : Valuation τ sig (Elt F)) :
    after ops V (Proc.devRef .tc main_call0_cst) = (constant S_ .f32 0x00000000#32) := by
  rw [split1 V]
  exact read_nullary ops1_w2 tail2_w2 11 rfl (by decide) (val1 V)

theorem W_main_call0_v0 (V : Valuation τ sig (Elt F)) :
    after ops V (Proc.devRef .tc main_call0_v0) = (broadcastInDim S2048x1024 ![] bcast_S_S2048x1024 : (⟨S_, .f32⟩ : BufTy).Contents (Elt F) → (⟨S2048x1024, .f32⟩ : BufTy).Contents (Elt F)) (after ops V (Proc.devRef .tc main_call0_cst)) := by
  rw [split1 V]
  exact read_unary ops1_w2 tail2_w2 12 rfl (by decide) (by decide) (val1 V)

theorem W_main_call0_v1 (V : Valuation τ sig (Elt F)) :
    after ops V (Proc.devRef .tc main_call0_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v57)) (after ops V (Proc.devRef .tc main_call0_v0)) := by
  rw [split1 V]
  exact read_binary ops1_w2 tail2_w2 13 rfl (by decide) (by decide) (by decide) (val1 V)

theorem W_main_call0_v2 (V : Valuation τ sig (Elt F)) :
    after ops V (Proc.devRef .tc main_call0_v2) = (id : (⟨S_, .f32⟩ : BufTy).Contents (Elt F) → (⟨S_, .f32⟩ : BufTy).Contents (Elt F)) (after ops V (Proc.devRef .tc main_cst_10)) := by
  rw [split1 V]
  exact read_unary ops1_w2 tail2_w2 14 rfl (by decide) (by decide) (val1 V)

theorem W_main_call0_v3 (V : Valuation τ sig (Elt F)) :
    after ops V (Proc.devRef .tc main_call0_v3) = (broadcastInDim S2048x1024 ![] bcast_S_S2048x1024 : (⟨S_, .f32⟩ : BufTy).Contents (Elt F) → (⟨S2048x1024, .f32⟩ : BufTy).Contents (Elt F)) (after ops V (Proc.devRef .tc main_call0_v2)) := by
  rw [split1 V]
  exact read_unary ops1_w2 tail2_w2 15 rfl (by decide) (by decide) (val1 V)

theorem W_main_call0_v4 (V : Valuation τ sig (Elt F)) :
    after ops V (Proc.devRef .tc main_call0_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call0_v3)) (after ops V (Proc.devRef .tc main_v57)) := by
  rw [split1 V]
  exact read_binary ops1_w2 tail2_w2 16 rfl (by decide) (by decide) (by decide) (val1 V)

theorem W_main_v58 (V : Valuation τ sig (Elt F)) :
    after ops V (Proc.devRef .tc main_v58) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call0_v1)) (after ops V (Proc.devRef .tc main_v57)) (after ops V (Proc.devRef .tc main_call0_v4)) := by
  rw [split1 V]
  exact read_ternary ops1_w2 tail2_w2 17 rfl (by decide) (by decide) (by decide) (by decide) (val1 V)

theorem W_main_v59 (V : Valuation τ sig (Elt F)) :
    after ops V (Proc.devRef .tc main_v59) = ((extractStridedSlice S1x1024x1024 ![0, 0, 0] · slices_S8x1024x1024_S1x1024x1024_0_0_0) : (⟨S8x1024x1024, .f32⟩ : BufTy).Contents (Elt F) → (⟨S1x1024x1024, .f32⟩ : BufTy).Contents (Elt F)) (after ops V (Proc.devRef .tc main_arg7)) := by
  rw [split1 V]
  exact read_unary ops1_w2 tail2_w2 18 rfl (by decide) (by decide) (val1 V)

theorem W_main_v60 (V : Valuation τ sig (Elt F)) :
    after ops V (Proc.devRef .tc main_v60) = shapeCast S1024x1024 (after ops V (Proc.devRef .tc main_v59)) shapeCasts_S1x1024x1024_S1024x1024 := by
  rw [split1 V]
  exact read_reshape ops1_w2 tail2_w2 19 rfl (by decide) (by decide) (val1 V)

theorem W_main_v61 (V : Valuation τ sig (Elt F)) :
    after ops V (Proc.devRef .tc main_v61) = ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)) (after ops V (Proc.devRef .tc main_v58)) (after ops V (Proc.devRef .tc main_v60)) := by
  rw [split1 V]
  exact read_binary ops1_w2 tail2_w2 20 rfl (by decide) (by decide) (by decide) (val1 V)

theorem W_main_v62 (V : Valuation τ sig (Elt F)) :
    after ops V (Proc.devRef .tc main_v62) = ((extractStridedSlice S1x1024 ![0, 0] · slices_S8x1024_S1x1024_0_0) : (⟨S8x1024, .f32⟩ : BufTy).Contents (Elt F) → (⟨S1x1024, .f32⟩ : BufTy).Contents (Elt F)) (after ops V (Proc.devRef .tc main_arg8)) := by
  rw [split1 V]
  exact read_unary ops1_w2 tail2_w2 21 rfl (by decide) (by decide) (val1 V)

theorem W_main_v63 (V : Valuation τ sig (Elt F)) :
    after ops V (Proc.devRef .tc main_v63) = shapeCast S1024 (after ops V (Proc.devRef .tc main_v62)) shapeCasts_S1x1024_S1024 := by
  rw [split1 V]
  exact read_reshape ops1_w2 tail2_w2 22 rfl (by decide) (by decide) (val1 V)

theorem W_main_v64 (V : Valuation τ sig (Elt F)) :
    after ops V (Proc.devRef .tc main_v64) = (broadcastInDim S1x1024 ![1] bcast_S1024_S1x1024_1 : (⟨S1024, .f32⟩ : BufTy).Contents (Elt F) → (⟨S1x1024, .f32⟩ : BufTy).Contents (Elt F)) (after ops V (Proc.devRef .tc main_v63)) := by
  rw [split1 V]
  exact read_unary ops1_w2 tail2_w2 23 rfl (by decide) (by decide) (val1 V)

theorem W_main_v65 (V : Valuation τ sig (Elt F)) :
    after ops V (Proc.devRef .tc main_v65) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v64)) := by
  rw [split1 V]
  exact read_unary ops1_w2 tail2_w2 24 rfl (by decide) (by decide) (val1 V)

theorem W_main_v66 (V : Valuation τ sig (Elt F)) :
    after ops V (Proc.devRef .tc main_v66) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v61)) (after ops V (Proc.devRef .tc main_v65)) := by
  rw [split1 V]
  exact read_binary ops1_w2 tail2_w2 25 rfl (by decide) (by decide) (by decide) (val1 V)

theorem W_main_cst_11 (V : Valuation τ sig (Elt F)) :
    after ops V (Proc.devRef .tc main_cst_11) = (constant S_ .f32 0x3E4CCCCD#32) := by
  rw [split1 V]
  exact read_nullary ops1_w2 tail2_w2 26 rfl (by decide) (val1 V)

theorem W_main_call1_cst (V : Valuation τ sig (Elt F)) :
    after ops V (Proc.devRef .tc main_call1_cst) = (constant S_ .f32 0x00000000#32) := by
  rw [split1 V]
  exact read_nullary ops1_w2 tail2_w2 27 rfl (by decide) (val1 V)

theorem W_main_call1_v0 (V : Valuation τ sig (Elt F)) :
    after ops V (Proc.devRef .tc main_call1_v0) = (broadcastInDim S2048x1024 ![] bcast_S_S2048x1024 : (⟨S_, .f32⟩ : BufTy).Contents (Elt F) → (⟨S2048x1024, .f32⟩ : BufTy).Contents (Elt F)) (after ops V (Proc.devRef .tc main_call1_cst)) := by
  rw [split1 V]
  exact read_unary ops1_w2 tail2_w2 28 rfl (by decide) (by decide) (val1 V)

theorem W_main_call1_v1 (V : Valuation τ sig (Elt F)) :
    after ops V (Proc.devRef .tc main_call1_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v66)) (after ops V (Proc.devRef .tc main_call1_v0)) := by
  rw [split1 V]
  exact read_binary ops1_w2 tail2_w2 29 rfl (by decide) (by decide) (by decide) (val1 V)

theorem W_main_call1_v2 (V : Valuation τ sig (Elt F)) :
    after ops V (Proc.devRef .tc main_call1_v2) = (id : (⟨S_, .f32⟩ : BufTy).Contents (Elt F) → (⟨S_, .f32⟩ : BufTy).Contents (Elt F)) (after ops V (Proc.devRef .tc main_cst_11)) := by
  rw [split1 V]
  exact read_unary ops1_w2 tail2_w2 30 rfl (by decide) (by decide) (val1 V)

theorem W_main_call1_v3 (V : Valuation τ sig (Elt F)) :
    after ops V (Proc.devRef .tc main_call1_v3) = (broadcastInDim S2048x1024 ![] bcast_S_S2048x1024 : (⟨S_, .f32⟩ : BufTy).Contents (Elt F) → (⟨S2048x1024, .f32⟩ : BufTy).Contents (Elt F)) (after ops V (Proc.devRef .tc main_call1_v2)) := by
  rw [split1 V]
  exact read_unary ops1_w2 tail2_w2 31 rfl (by decide) (by decide) (val1 V)

theorem W_main_call1_v4 (V : Valuation τ sig (Elt F)) :
    after ops V (Proc.devRef .tc main_call1_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call1_v3)) (after ops V (Proc.devRef .tc main_v66)) := by
  rw [split1 V]
  exact read_binary ops1_w2 tail2_w2 32 rfl (by decide) (by decide) (by decide) (val1 V)

theorem W_main_v67 (V : Valuation τ sig (Elt F)) :
    after ops V (Proc.devRef .tc main_v67) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call1_v1)) (after ops V (Proc.devRef .tc main_v66)) (after ops V (Proc.devRef .tc main_call1_v4)) := by
  rw [split1 V]
  exact read_ternary ops1_w2 tail2_w2 33 rfl (by decide) (by decide) (by decide) (by decide) (val1 V)

theorem W_main_v68 (V : Valuation τ sig (Elt F)) :
    after ops V (Proc.devRef .tc main_v68) = ((extractStridedSlice S1x1024x4096 ![0, 0, 0] · slices_S8x1024x4096_S1x1024x4096_0_0_0) : (⟨S8x1024x4096, .f32⟩ : BufTy).Contents (Elt F) → (⟨S1x1024x4096, .f32⟩ : BufTy).Contents (Elt F)) (after ops V (Proc.devRef .tc main_arg9)) := by
  rw [split1 V]
  exact read_unary ops1_w2 tail2_w2 34 rfl (by decide) (by decide) (val1 V)

theorem W_main_v69 (V : Valuation τ sig (Elt F)) :
    after ops V (Proc.devRef .tc main_v69) = shapeCast S1024x4096 (after ops V (Proc.devRef .tc main_v68)) shapeCasts_S1x1024x4096_S1024x4096 := by
  rw [split1 V]
  exact read_reshape ops1_w2 tail2_w2 35 rfl (by decide) (by decide) (val1 V)

theorem W_main_v70 (V : Valuation τ sig (Elt F)) :
    after ops V (Proc.devRef .tc main_v70) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v67)) (after ops V (Proc.devRef .tc main_v69)) := by
  rw [split1 V]
  exact read_binary ops1_w2 tail2_w2 36 rfl (by decide) (by decide) (by decide) (val1 V)

theorem W_main_v71 (V : Valuation τ sig (Elt F)) :
    after ops V (Proc.devRef .tc main_v71) = ((extractStridedSlice S1x4096 ![0, 0] · slices_S8x4096_S1x4096_0_0) : (⟨S8x4096, .f32⟩ : BufTy).Contents (Elt F) → (⟨S1x4096, .f32⟩ : BufTy).Contents (Elt F)) (after ops V (Proc.devRef .tc main_arg10)) := by
  rw [split1 V]
  exact read_unary ops1_w2 tail2_w2 37 rfl (by decide) (by decide) (val1 V)

theorem W_main_v72 (V : Valuation τ sig (Elt F)) :
    after ops V (Proc.devRef .tc main_v72) = shapeCast S4096 (after ops V (Proc.devRef .tc main_v71)) shapeCasts_S1x4096_S4096 := by
  rw [split1 V]
  exact read_reshape ops1_w2 tail2_w2 38 rfl (by decide) (by decide) (val1 V)

theorem W_main_v73 (V : Valuation τ sig (Elt F)) :
    after ops V (Proc.devRef .tc main_v73) = (broadcastInDim S1x4096 ![1] bcast_S4096_S1x4096_1 : (⟨S4096, .f32⟩ : BufTy).Contents (Elt F) → (⟨S1x4096, .f32⟩ : BufTy).Contents (Elt F)) (after ops V (Proc.devRef .tc main_v72)) := by
  rw [split1 V]
  exact read_unary ops1_w2 tail2_w2 39 rfl (by decide) (by decide) (val1 V)

theorem W_main_v74 (V : Valuation τ sig (Elt F)) :
    after ops V (Proc.devRef .tc main_v74) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v73)) := by
  rw [split1 V]
  exact read_unary ops1_w2 tail2_w2 40 rfl (by decide) (by decide) (val1 V)

theorem W_main_v75 (V : Valuation τ sig (Elt F)) :
    after ops V (Proc.devRef .tc main_v75) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v70)) (after ops V (Proc.devRef .tc main_v74)) := by
  rw [split1 V]
  exact read_binary ops1_w2 tail2_w2 41 rfl (by decide) (by decide) (by decide) (val1 V)

theorem W_main_v76 (V : Valuation τ sig (Elt F)) :
    after ops V (Proc.devRef .tc main_v76) = (Host.tanh : (⟨S2048x4096, .f32⟩ : BufTy).Contents (Elt F) → (⟨S2048x4096, .f32⟩ : BufTy).Contents (Elt F)) (after ops V (Proc.devRef .tc main_v75)) := by
  rw [split1 V]
  exact read_unary ops1_w2 tail2_w2 42 rfl (by decide) (by decide) (val1 V)

theorem W_main_v77 (V : Valuation τ sig (Elt F)) :
    after ops V (Proc.devRef .tc main_v77) = ((extractStridedSlice S1 ![0] · slices_S8_S1_0) : (⟨S8, .f32⟩ : BufTy).Contents (Elt F) → (⟨S1, .f32⟩ : BufTy).Contents (Elt F)) (after ops V (Proc.devRef .tc main_arg13)) := by
  rw [split1 V]
  exact read_unary ops1_w2 tail2_w2 43 rfl (by decide) (by decide) (val1 V)

theorem W_main_v78 (V : Valuation τ sig (Elt F)) :
    after ops V (Proc.devRef .tc main_v78) = shapeCast S_ (after ops V (Proc.devRef .tc main_v77)) shapeCasts_S1_S_ := by
  rw [split1 V]
  exact read_reshape ops1_w2 tail2_w2 44 rfl (by decide) (by decide) (val1 V)

theorem W_main_v79 (V : Valuation τ sig (Elt F)) :
    after ops V (Proc.devRef .tc main_v79) = (broadcastInDim S2048x4096 ![] bcast_S_S2048x4096 : (⟨S_, .f32⟩ : BufTy).Contents (Elt F) → (⟨S2048x4096, .f32⟩ : BufTy).Contents (Elt F)) (after ops V (Proc.devRef .tc main_v78)) := by
  rw [split1 V]
  exact read_unary ops1_w2 tail2_w2 45 rfl (by decide) (by decide) (val1 V)

theorem W_main_v80 (V : Valuation τ sig (Elt F)) :
    after ops V (Proc.devRef .tc main_v80) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v76)) (after ops V (Proc.devRef .tc main_v79)) := by
  rw [split1 V]
  exact read_binary ops1_w2 tail2_w2 46 rfl (by decide) (by decide) (by decide) (val1 V)

theorem W_main_v81 (V : Valuation τ sig (Elt F)) :
    after ops V (Proc.devRef .tc main_v81) = ((extractStridedSlice S1x1024x4096 ![0, 0, 0] · slices_S8x1024x4096_S1x1024x4096_0_0_0) : (⟨S8x1024x4096, .f32⟩ : BufTy).Contents (Elt F) → (⟨S1x1024x4096, .f32⟩ : BufTy).Contents (Elt F)) (after ops V (Proc.devRef .tc main_arg11)) := by
  rw [split1 V]
  exact read_unary ops1_w2 tail2_w2 47 rfl (by decide) (by decide) (val1 V)

theorem W_main_v82 (V : Valuation τ sig (Elt F)) :
    after ops V (Proc.devRef .tc main_v82) = shapeCast S1024x4096 (after ops V (Proc.devRef .tc main_v81)) shapeCasts_S1x1024x4096_S1024x4096 := by
  rw [split1 V]
  exact read_reshape ops1_w2 tail2_w2 48 rfl (by decide) (by decide) (val1 V)

theorem W_main_v83 (V : Valuation τ sig (Elt F)) :
    after ops V (Proc.devRef .tc main_v83) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v67)) (after ops V (Proc.devRef .tc main_v82)) := by
  rw [split1 V]
  exact read_binary ops1_w2 tail2_w2 49 rfl (by decide) (by decide) (by decide) (val1 V)

theorem W_main_v84 (V : Valuation τ sig (Elt F)) :
    after ops V (Proc.devRef .tc main_v84) = ((extractStridedSlice S1x4096 ![0, 0] · slices_S8x4096_S1x4096_0_0) : (⟨S8x4096, .f32⟩ : BufTy).Contents (Elt F) → (⟨S1x4096, .f32⟩ : BufTy).Contents (Elt F)) (after ops V (Proc.devRef .tc main_arg12)) := by
  rw [split1 V]
  exact read_unary ops1_w2 tail2_w2 50 rfl (by decide) (by decide) (val1 V)

theorem W_main_v85 (V : Valuation τ sig (Elt F)) :
    after ops V (Proc.devRef .tc main_v85) = shapeCast S4096 (after ops V (Proc.devRef .tc main_v84)) shapeCasts_S1x4096_S4096 := by
  rw [split1 V]
  exact read_reshape ops1_w2 tail2_w2 51 rfl (by decide) (by decide) (val1 V)

theorem W_main_v86 (V : Valuation τ sig (Elt F)) :
    after ops V (Proc.devRef .tc main_v86) = (broadcastInDim S1x4096 ![1] bcast_S4096_S1x4096_1 : (⟨S4096, .f32⟩ : BufTy).Contents (Elt F) → (⟨S1x4096, .f32⟩ : BufTy).Contents (Elt F)) (after ops V (Proc.devRef .tc main_v85)) := by
  rw [split1 V]
  exact read_unary ops1_w2 tail2_w2 52 rfl (by decide) (by decide) (val1 V)

theorem W_main_v87 (V : Valuation τ sig (Elt F)) :
    after ops V (Proc.devRef .tc main_v87) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v86)) := by
  rw [split1 V]
  exact read_unary ops1_w2 tail2_w2 53 rfl (by decide) (by decide) (val1 V)

theorem W_main_v88 (V : Valuation τ sig (Elt F)) :
    after ops V (Proc.devRef .tc main_v88) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v83)) (after ops V (Proc.devRef .tc main_v87)) := by
  rw [split1 V]
  exact read_binary ops1_w2 tail2_w2 54 rfl (by decide) (by decide) (by decide) (val1 V)

theorem W_main_v89 (V : Valuation τ sig (Elt F)) :
    after ops V (Proc.devRef .tc main_v89) = (Host.exp : (⟨S2048x4096, .f32⟩ : BufTy).Contents (Elt F) → (⟨S2048x4096, .f32⟩ : BufTy).Contents (Elt F)) (after ops V (Proc.devRef .tc main_v80)) := by
  rw [split1 V]
  exact read_unary ops1_w2 tail2_w2 55 rfl (by decide) (by decide) (val1 V)

theorem W_main_v90 (V : Valuation τ sig (Elt F)) :
    after ops V (Proc.devRef .tc main_v90) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v48)) (after ops V (Proc.devRef .tc main_v89)) := by
  rw [split1 V]
  exact read_binary ops1_w2 tail2_w2 56 rfl (by decide) (by decide) (by decide) (val1 V)

theorem W_main_v91 (V : Valuation τ sig (Elt F)) :
    after ops V (Proc.devRef .tc main_v91) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v90)) (after ops V (Proc.devRef .tc main_v88)) := by
  rw [split1 V]
  exact read_binary ops1_w2 tail2_w2 57 rfl (by decide) (by decide) (by decide) (val1 V)

theorem W_main_cst_12 (V : Valuation τ sig (Elt F)) :
    after ops V (Proc.devRef .tc main_cst_12) = (constant S_ .f32 0x00000000#32) := by
  rw [split1 V]
  exact read_nullary ops1_w2 tail2_w2 58 rfl (by decide) (val1 V)

theorem W_main_v92 (V : Valuation τ sig (Elt F)) :
    after ops V (Proc.devRef .tc main_v92) = (broadcastInDim S2048x8192 ![] bcast_S_S2048x8192 : (⟨S_, .f32⟩ : BufTy).Contents (Elt F) → (⟨S2048x8192, .f32⟩ : BufTy).Contents (Elt F)) (after ops V (Proc.devRef .tc main_cst_12)) := by
  rw [split1 V]
  exact read_unary ops1_w2 tail2_w2 59 rfl (by decide) (by decide) (val1 V)

theorem W_main_c_13 (V : Valuation τ sig (Elt F)) :
    after ops V (Proc.devRef .tc main_c_13) = (constantI S_ 32 0#32) := by
  rw [split1 V]
  exact read_nullary ops1_w2 tail2_w2 60 rfl (by decide) (val1 V)

theorem W_main_v93 (V : Valuation τ sig (Elt F)) :
    after ops V (Proc.devRef .tc main_v93) = (broadcastInDim S4096 ![] bcast_S_S4096 : (⟨S_, .i32⟩ : BufTy).Contents (Elt F) → (⟨S4096, .i32⟩ : BufTy).Contents (Elt F)) (after ops V (Proc.devRef .tc main_c_13)) := by
  rw [split1 V]
  exact read_unary ops1_w2 tail2_w2 61 rfl (by decide) (by decide) (val1 V)

theorem W_main_v94 (V : Valuation τ sig (Elt F)) :
    after ops V (Proc.devRef .tc main_v94) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v93)) := by
  rw [split1 V]
  exact read_binary ops1_w2 tail2_w2 62 rfl (by decide) (by decide) (by decide) (val1 V)

theorem W_main_c_14 (V : Valuation τ sig (Elt F)) :
    after ops V (Proc.devRef .tc main_c_14) = (constantI S_ 32 8192#32) := by
  rw [split1 V]
  exact read_nullary ops1_w2 tail2_w2 63 rfl (by decide) (val1 V)

theorem W_main_v95 (V : Valuation τ sig (Elt F)) :
    after ops V (Proc.devRef .tc main_v95) = (broadcastInDim S4096 ![] bcast_S_S4096 : (⟨S_, .i32⟩ : BufTy).Contents (Elt F) → (⟨S4096, .i32⟩ : BufTy).Contents (Elt F)) (after ops V (Proc.devRef .tc main_c_14)) := by
  rw [split1 V]
  exact read_unary ops1_w2 tail2_w2 64 rfl (by decide) (by decide) (val1 V)

theorem W_main_v96 (V : Valuation τ sig (Elt F)) :
    after ops V (Proc.devRef .tc main_v96) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v95)) := by
  rw [split1 V]
  exact read_binary ops1_w2 tail2_w2 65 rfl (by decide) (by decide) (by decide) (val1 V)

theorem W_main_v97 (V : Valuation τ sig (Elt F)) :
    after ops V (Proc.devRef .tc main_v97) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v94)) (after ops V (Proc.devRef .tc main_v96)) (after ops V (Proc.devRef .tc main_v13)) := by
  rw [split1 V]
  exact read_ternary ops1_w2 tail2_w2 66 rfl (by decide) (by decide) (by decide) (by decide) (val1 V)

theorem W_main_v98 (V : Valuation τ sig (Elt F)) :
    after ops V (Proc.devRef .tc main_v98) = (broadcastInDim S4096x1 ![0] bcast_S4096_S4096x1_0 : (⟨S4096, .i32⟩ : BufTy).Contents (Elt F) → (⟨S4096x1, .i32⟩ : BufTy).Contents (Elt F)) (after ops V (Proc.devRef .tc main_v97)) := by
  rw [split1 V]
  exact read_unary ops1_w2 tail2_w2 67 rfl (by decide) (by decide) (val1 V)

theorem W_main_v99 (V : Valuation τ sig (Elt F)) :
    after ops V (Proc.devRef .tc main_v99) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v92)) (after ops V (Proc.devRef .tc main_v98)) (after ops V (Proc.devRef .tc main_v41)) := by
  rw [split1 V]
  exact read_ternary ops1_w2 tail2_w2 68 rfl (by decide) (by decide) (by decide) (by decide) (val1 V)

theorem W_main_c_15 (V : Valuation τ sig (Elt F)) :
    after ops V (Proc.devRef .tc main_c_15) = (constantI S_ 32 0#32) := by
  rw [split1 V]
  exact read_nullary ops1_w2 tail2_w2 69 rfl (by decide) (val1 V)

theorem W_main_v100 (V : Valuation τ sig (Elt F)) :
    after ops V (Proc.devRef .tc main_v100) = (broadcastInDim S4096 ![] bcast_S_S4096 : (⟨S_, .i32⟩ : BufTy).Contents (Elt F) → (⟨S4096, .i32⟩ : BufTy).Contents (Elt F)) (after ops V (Proc.devRef .tc main_c_15)) := by
  rw [split1 V]
  exact read_unary ops1_w2 tail2_w2 70 rfl (by decide) (by decide) (val1 V)

theorem W_main_v101 (V : Valuation τ sig (Elt F)) :
    after ops V (Proc.devRef .tc main_v101) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v100)) := by
  rw [split1 V]
  exact read_binary ops1_w2 tail2_w2 71 rfl (by decide) (by decide) (by decide) (val1 V)

end Cert.RSide

end
-- ==== Proof.RSsa2.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 2: each operation's buffer at the end of the run, as the operation's function of its operands' buffers at the end of the run. -/

theorem W_main_c_16 (V : Valuation τ sig (Elt F)) :
    after ops V (Proc.devRef .tc main_c_16) = (constantI S_ 32 8192#32) := by
  rw [split2 V]
  exact read_nullary ops2_w2 tail3_w2 0 rfl (by decide) (val2 V)

theorem W_main_v102 (V : Valuation τ sig (Elt F)) :
    after ops V (Proc.devRef .tc main_v102) = (broadcastInDim S4096 ![] bcast_S_S4096 : (⟨S_, .i32⟩ : BufTy).Contents (Elt F) → (⟨S4096, .i32⟩ : BufTy).Contents (Elt F)) (after ops V (Proc.devRef .tc main_c_16)) := by
  rw [split2 V]
  exact read_unary ops2_w2 tail3_w2 1 rfl (by decide) (by decide) (val2 V)

theorem W_main_v103 (V : Valuation τ sig (Elt F)) :
    after ops V (Proc.devRef .tc main_v103) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v102)) := by
  rw [split2 V]
  exact read_binary ops2_w2 tail3_w2 2 rfl (by decide) (by decide) (by decide) (val2 V)

theorem W_main_v104 (V : Valuation τ sig (Elt F)) :
    after ops V (Proc.devRef .tc main_v104) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v101)) (after ops V (Proc.devRef .tc main_v103)) (after ops V (Proc.devRef .tc main_v18)) := by
  rw [split2 V]
  exact read_ternary ops2_w2 tail3_w2 3 rfl (by decide) (by decide) (by decide) (by decide) (val2 V)

theorem W_main_v105 (V : Valuation τ sig (Elt F)) :
    after ops V (Proc.devRef .tc main_v105) = (broadcastInDim S4096x1 ![0] bcast_S4096_S4096x1_0 : (⟨S4096, .i32⟩ : BufTy).Contents (Elt F) → (⟨S4096x1, .i32⟩ : BufTy).Contents (Elt F)) (after ops V (Proc.devRef .tc main_v104)) := by
  rw [split2 V]
  exact read_unary ops2_w2 tail3_w2 4 rfl (by decide) (by decide) (val2 V)

theorem W_main_v106 (V : Valuation τ sig (Elt F)) :
    after ops V (Proc.devRef .tc main_v106) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v99)) (after ops V (Proc.devRef .tc main_v105)) (after ops V (Proc.devRef .tc main_v91)) := by
  rw [split2 V]
  exact read_ternary ops2_w2 tail3_w2 5 rfl (by decide) (by decide) (by decide) (by decide) (val2 V)

theorem W_main_cst_17 (V : Valuation τ sig (Elt F)) :
    after ops V (Proc.devRef .tc main_cst_17) = (constant S_ .f32 0x00000000#32) := by
  rw [split2 V]
  exact read_nullary ops2_w2 tail3_w2 6 rfl (by decide) (val2 V)

theorem W_main_v107 (V : Valuation τ sig (Elt F)) :
    after ops V (Proc.devRef .tc main_v107) = ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)) (after ops V (Proc.devRef .tc main_v80)) (after ops V (Proc.devRef .tc main_cst_17)) := by
  rw [split2 V]
  exact read_binary ops2_w2 tail3_w2 7 rfl (by decide) (by decide) (by decide) (val2 V)

theorem W_main_v108 (V : Valuation τ sig (Elt F)) :
    after ops V (Proc.devRef .tc main_v108) = (addf : (⟨S2048, .f32⟩ : BufTy).Contents (Elt F) → (⟨S2048, .f32⟩ : BufTy).Contents (Elt F) → (⟨S2048, .f32⟩ : BufTy).Contents (Elt F)) (after ops V (Proc.devRef .tc main_v34)) (after ops V (Proc.devRef .tc main_v107)) := by
  rw [split2 V]
  exact read_binary ops2_w2 tail3_w2 8 rfl (by decide) (by decide) (by decide) (val2 V)

theorem W_main_v109 (V : Valuation τ sig (Elt F)) :
    after ops V (Proc.devRef .tc main_v109) = ((extractStridedSlice S1x8192 ![1, 0] · slices_S8x8192_S1x8192_1_0) : (⟨S8x8192, .f32⟩ : BufTy).Contents (Elt F) → (⟨S1x8192, .f32⟩ : BufTy).Contents (Elt F)) (after ops V (Proc.devRef .tc main_arg4)) := by
  rw [split2 V]
  exact read_unary ops2_w2 tail3_w2 9 rfl (by decide) (by decide) (val2 V)

theorem W_main_v110 (V : Valuation τ sig (Elt F)) :
    after ops V (Proc.devRef .tc main_v110) = shapeCast S8192 (after ops V (Proc.devRef .tc main_v109)) shapeCasts_S1x8192_S8192 := by
  rw [split2 V]
  exact read_reshape ops2_w2 tail3_w2 10 rfl (by decide) (by decide) (val2 V)

theorem W_main_v111 (V : Valuation τ sig (Elt F)) :
    after ops V (Proc.devRef .tc main_v111) = (broadcastInDim S1x8192 ![1] bcast_S8192_S1x8192_1 : (⟨S8192, .f32⟩ : BufTy).Contents (Elt F) → (⟨S1x8192, .f32⟩ : BufTy).Contents (Elt F)) (after ops V (Proc.devRef .tc main_v110)) := by
  rw [split2 V]
  exact read_unary ops2_w2 tail3_w2 11 rfl (by decide) (by decide) (val2 V)

theorem W_main_v112 (V : Valuation τ sig (Elt F)) :
    after ops V (Proc.devRef .tc main_v112) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v111)) := by
  rw [split2 V]
  exact read_unary ops2_w2 tail3_w2 12 rfl (by decide) (by decide) (val2 V)

theorem W_main_v113 (V : Valuation τ sig (Elt F)) :
    after ops V (Proc.devRef .tc main_v113) = (addf : (⟨S2048x8192, .f32⟩ : BufTy).Contents (Elt F) → (⟨S2048x8192, .f32⟩ : BufTy).Contents (Elt F) → (⟨S2048x8192, .f32⟩ : BufTy).Contents (Elt F)) (after ops V (Proc.devRef .tc main_v106)) (after ops V (Proc.devRef .tc main_v112)) := by
  rw [split2 V]
  exact read_binary ops2_w2 tail3_w2 13 rfl (by decide) (by decide) (by decide) (val2 V)

theorem W_main_v114 (V : Valuation τ sig (Elt F)) :
    after ops V (Proc.devRef .tc main_v114) = ((extractStridedSlice S1x8192 ![1, 0] · slices_S8x8192_S1x8192_1_0) : (⟨S8x8192, .f32⟩ : BufTy).Contents (Elt F) → (⟨S1x8192, .f32⟩ : BufTy).Contents (Elt F)) (after ops V (Proc.devRef .tc main_arg3)) := by
  rw [split2 V]
  exact read_unary ops2_w2 tail3_w2 14 rfl (by decide) (by decide) (val2 V)

theorem W_main_v115 (V : Valuation τ sig (Elt F)) :
    after ops V (Proc.devRef .tc main_v115) = shapeCast S8192 (after ops V (Proc.devRef .tc main_v114)) shapeCasts_S1x8192_S8192 := by
  rw [split2 V]
  exact read_reshape ops2_w2 tail3_w2 15 rfl (by decide) (by decide) (val2 V)

theorem W_main_v116 (V : Valuation τ sig (Elt F)) :
    after ops V (Proc.devRef .tc main_v116) = (Host.exp : (⟨S8192, .f32⟩ : BufTy).Contents (Elt F) → (⟨S8192, .f32⟩ : BufTy).Contents (Elt F)) (after ops V (Proc.devRef .tc main_v115)) := by
  rw [split2 V]
  exact read_unary ops2_w2 tail3_w2 16 rfl (by decide) (by decide) (val2 V)

theorem W_main_v117 (V : Valuation τ sig (Elt F)) :
    after ops V (Proc.devRef .tc main_v117) = (broadcastInDim S1x8192 ![1] bcast_S8192_S1x8192_1 : (⟨S8192, .f32⟩ : BufTy).Contents (Elt F) → (⟨S1x8192, .f32⟩ : BufTy).Contents (Elt F)) (after ops V (Proc.devRef .tc main_v116)) := by
  rw [split2 V]
  exact read_unary ops2_w2 tail3_w2 17 rfl (by decide) (by decide) (val2 V)

theorem W_main_v118 (V : Valuation τ sig (Elt F)) :
    after ops V (Proc.devRef .tc main_v118) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v117)) := by
  rw [split2 V]
  exact read_unary ops2_w2 tail3_w2 18 rfl (by decide) (by decide) (val2 V)

theorem W_main_v119 (V : Valuation τ sig (Elt F)) :
    after ops V (Proc.devRef .tc main_v119) = (mulf : (⟨S2048x8192, .f32⟩ : BufTy).Contents (Elt F) → (⟨S2048x8192, .f32⟩ : BufTy).Contents (Elt F) → (⟨S2048x8192, .f32⟩ : BufTy).Contents (Elt F)) (after ops V (Proc.devRef .tc main_v113)) (after ops V (Proc.devRef .tc main_v118)) := by
  rw [split2 V]
  exact read_binary ops2_w2 tail3_w2 19 rfl (by decide) (by decide) (by decide) (val2 V)

theorem W_main_v120 (V : Valuation τ sig (Elt F)) :
    after ops V (Proc.devRef .tc main_v120) = ((extractStridedSlice S1x8192 ![1, 0] · slices_S8x8192_S1x8192_1_0) : (⟨S8x8192, .f32⟩ : BufTy).Contents (Elt F) → (⟨S1x8192, .f32⟩ : BufTy).Contents (Elt F)) (after ops V (Proc.devRef .tc main_arg3)) := by
  rw [split2 V]
  exact read_unary ops2_w2 tail3_w2 20 rfl (by decide) (by decide) (val2 V)

theorem W_main_v121 (V : Valuation τ sig (Elt F)) :
    after ops V (Proc.devRef .tc main_v121) = shapeCast S8192 (after ops V (Proc.devRef .tc main_v120)) shapeCasts_S1x8192_S8192 := by
  rw [split2 V]
  exact read_reshape ops2_w2 tail3_w2 21 rfl (by decide) (by decide) (val2 V)

theorem W_main_cst_18 (V : Valuation τ sig (Elt F)) :
    after ops V (Proc.devRef .tc main_cst_18) = (constant S_ .f32 0x00000000#32) := by
  rw [split2 V]
  exact read_nullary ops2_w2 tail3_w2 22 rfl (by decide) (val2 V)

theorem W_main_v122 (V : Valuation τ sig (Elt F)) :
    after ops V (Proc.devRef .tc main_v122) = ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (after ops V (Proc.devRef .tc main_v121)) (after ops V (Proc.devRef .tc main_cst_18)) := by
  rw [split2 V]
  exact read_binary ops2_w2 tail3_w2 23 rfl (by decide) (by decide) (by decide) (val2 V)

theorem W_main_v123 (V : Valuation τ sig (Elt F)) :
    after ops V (Proc.devRef .tc main_v123) = (broadcastInDim S2048 ![] bcast_S_S2048 : (⟨S_, .f32⟩ : BufTy).Contents (Elt F) → (⟨S2048, .f32⟩ : BufTy).Contents (Elt F)) (after ops V (Proc.devRef .tc main_v122)) := by
  rw [split2 V]
  exact read_unary ops2_w2 tail3_w2 24 rfl (by decide) (by decide) (val2 V)

theorem W_main_v124 (V : Valuation τ sig (Elt F)) :
    after ops V (Proc.devRef .tc main_v124) = (addf : (⟨S2048, .f32⟩ : BufTy).Contents (Elt F) → (⟨S2048, .f32⟩ : BufTy).Contents (Elt F) → (⟨S2048, .f32⟩ : BufTy).Contents (Elt F)) (after ops V (Proc.devRef .tc main_v108)) (after ops V (Proc.devRef .tc main_v123)) := by
  rw [split2 V]
  exact read_binary ops2_w2 tail3_w2 25 rfl (by decide) (by decide) (by decide) (val2 V)

theorem W_main_c_19 (V : Valuation τ sig (Elt F)) :
    after ops V (Proc.devRef .tc main_c_19) = (constantI S_ 32 0#32) := by
  rw [split2 V]
  exact read_nullary ops2_w2 tail3_w2 26 rfl (by decide) (val2 V)

theorem W_main_v125 (V : Valuation τ sig (Elt F)) :
    after ops V (Proc.devRef .tc main_v125) = (broadcastInDim S4096 ![] bcast_S_S4096 : (⟨S_, .i32⟩ : BufTy).Contents (Elt F) → (⟨S4096, .i32⟩ : BufTy).Contents (Elt F)) (after ops V (Proc.devRef .tc main_c_19)) := by
  rw [split2 V]
  exact read_unary ops2_w2 tail3_w2 27 rfl (by decide) (by decide) (val2 V)

theorem W_main_v126 (V : Valuation τ sig (Elt F)) :
    after ops V (Proc.devRef .tc main_v126) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v125)) := by
  rw [split2 V]
  exact read_binary ops2_w2 tail3_w2 28 rfl (by decide) (by decide) (by decide) (val2 V)

theorem W_main_c_20 (V : Valuation τ sig (Elt F)) :
    after ops V (Proc.devRef .tc main_c_20) = (constantI S_ 32 8192#32) := by
  rw [split2 V]
  exact read_nullary ops2_w2 tail3_w2 29 rfl (by decide) (val2 V)

theorem W_main_v127 (V : Valuation τ sig (Elt F)) :
    after ops V (Proc.devRef .tc main_v127) = (broadcastInDim S4096 ![] bcast_S_S4096 : (⟨S_, .i32⟩ : BufTy).Contents (Elt F) → (⟨S4096, .i32⟩ : BufTy).Contents (Elt F)) (after ops V (Proc.devRef .tc main_c_20)) := by
  rw [split2 V]
  exact read_unary ops2_w2 tail3_w2 30 rfl (by decide) (by decide) (val2 V)

theorem W_main_v128 (V : Valuation τ sig (Elt F)) :
    after ops V (Proc.devRef .tc main_v128) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v127)) := by
  rw [split2 V]
  exact read_binary ops2_w2 tail3_w2 31 rfl (by decide) (by decide) (by decide) (val2 V)

theorem W_main_v129 (V : Valuation τ sig (Elt F)) :
    after ops V (Proc.devRef .tc main_v129) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v126)) (after ops V (Proc.devRef .tc main_v128)) (after ops V (Proc.devRef .tc main_v18)) := by
  rw [split2 V]
  exact read_ternary ops2_w2 tail3_w2 32 rfl (by decide) (by decide) (by decide) (by decide) (val2 V)

theorem W_main_v130 (V : Valuation τ sig (Elt F)) :
    after ops V (Proc.devRef .tc main_v130) = (broadcastInDim S4096x1 ![0] bcast_S4096_S4096x1_0 : (⟨S4096, .i32⟩ : BufTy).Contents (Elt F) → (⟨S4096x1, .i32⟩ : BufTy).Contents (Elt F)) (after ops V (Proc.devRef .tc main_v129)) := by
  rw [split2 V]
  exact read_unary ops2_w2 tail3_w2 33 rfl (by decide) (by decide) (val2 V)

theorem W_main_v131 (V : Valuation τ sig (Elt F)) :
    after ops V (Proc.devRef .tc main_v131) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v119)) (after ops V (Proc.devRef .tc main_v130)) := by
  rw [split2 V]
  exact read_binary ops2_w2 tail3_w2 34 rfl (by decide) (by decide) (by decide) (val2 V)

theorem W_main_c_21 (V : Valuation τ sig (Elt F)) :
    after ops V (Proc.devRef .tc main_c_21) = (constantI S_ 32 0#32) := by
  rw [split2 V]
  exact read_nullary ops2_w2 tail3_w2 35 rfl (by decide) (val2 V)

theorem W_main_v132 (V : Valuation τ sig (Elt F)) :
    after ops V (Proc.devRef .tc main_v132) = (broadcastInDim S4096 ![] bcast_S_S4096 : (⟨S_, .i32⟩ : BufTy).Contents (Elt F) → (⟨S4096, .i32⟩ : BufTy).Contents (Elt F)) (after ops V (Proc.devRef .tc main_c_21)) := by
  rw [split2 V]
  exact read_unary ops2_w2 tail3_w2 36 rfl (by decide) (by decide) (val2 V)

theorem W_main_v133 (V : Valuation τ sig (Elt F)) :
    after ops V (Proc.devRef .tc main_v133) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v132)) := by
  rw [split2 V]
  exact read_binary ops2_w2 tail3_w2 37 rfl (by decide) (by decide) (by decide) (val2 V)

theorem W_main_c_22 (V : Valuation τ sig (Elt F)) :
    after ops V (Proc.devRef .tc main_c_22) = (constantI S_ 32 8192#32) := by
  rw [split2 V]
  exact read_nullary ops2_w2 tail3_w2 38 rfl (by decide) (val2 V)

theorem W_main_v134 (V : Valuation τ sig (Elt F)) :
    after ops V (Proc.devRef .tc main_v134) = (broadcastInDim S4096 ![] bcast_S_S4096 : (⟨S_, .i32⟩ : BufTy).Contents (Elt F) → (⟨S4096, .i32⟩ : BufTy).Contents (Elt F)) (after ops V (Proc.devRef .tc main_c_22)) := by
  rw [split2 V]
  exact read_unary ops2_w2 tail3_w2 39 rfl (by decide) (by decide) (val2 V)

theorem W_main_v135 (V : Valuation τ sig (Elt F)) :
    after ops V (Proc.devRef .tc main_v135) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v134)) := by
  rw [split2 V]
  exact read_binary ops2_w2 tail3_w2 40 rfl (by decide) (by decide) (by decide) (val2 V)

theorem W_main_v136 (V : Valuation τ sig (Elt F)) :
    after ops V (Proc.devRef .tc main_v136) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v133)) (after ops V (Proc.devRef .tc main_v135)) (after ops V (Proc.devRef .tc main_v13)) := by
  rw [split2 V]
  exact read_ternary ops2_w2 tail3_w2 41 rfl (by decide) (by decide) (by decide) (by decide) (val2 V)

theorem W_main_v137 (V : Valuation τ sig (Elt F)) :
    after ops V (Proc.devRef .tc main_v137) = (broadcastInDim S4096x1 ![0] bcast_S4096_S4096x1_0 : (⟨S4096, .i32⟩ : BufTy).Contents (Elt F) → (⟨S4096x1, .i32⟩ : BufTy).Contents (Elt F)) (after ops V (Proc.devRef .tc main_v136)) := by
  rw [split2 V]
  exact read_unary ops2_w2 tail3_w2 42 rfl (by decide) (by decide) (val2 V)

theorem W_main_v138 (V : Valuation τ sig (Elt F)) :
    after ops V (Proc.devRef .tc main_v138) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v119)) (after ops V (Proc.devRef .tc main_v137)) := by
  rw [split2 V]
  exact read_binary ops2_w2 tail3_w2 43 rfl (by decide) (by decide) (by decide) (val2 V)

theorem W_main_v139 (V : Valuation τ sig (Elt F)) :
    after ops V (Proc.devRef .tc main_v139) = ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)) (after ops V (Proc.devRef .tc main_v131)) (after ops V (Proc.devRef .tc main_v7)) := by
  rw [split2 V]
  exact read_binary ops2_w2 tail3_w2 44 rfl (by decide) (by decide) (by decide) (val2 V)

theorem W_main_v140 (V : Valuation τ sig (Elt F)) :
    after ops V (Proc.devRef .tc main_v140) = ((extractStridedSlice S1x5120x1024 ![1, 0, 0] · slices_S8x5120x1024_S1x5120x1024_1_0_0) : (⟨S8x5120x1024, .f32⟩ : BufTy).Contents (Elt F) → (⟨S1x5120x1024, .f32⟩ : BufTy).Contents (Elt F)) (after ops V (Proc.devRef .tc main_arg5)) := by
  rw [split2 V]
  exact read_unary ops2_w2 tail3_w2 45 rfl (by decide) (by decide) (val2 V)

theorem W_main_v141 (V : Valuation τ sig (Elt F)) :
    after ops V (Proc.devRef .tc main_v141) = shapeCast S5120x1024 (after ops V (Proc.devRef .tc main_v140)) shapeCasts_S1x5120x1024_S5120x1024 := by
  rw [split2 V]
  exact read_reshape ops2_w2 tail3_w2 46 rfl (by decide) (by decide) (val2 V)

theorem W_main_v142 (V : Valuation τ sig (Elt F)) :
    after ops V (Proc.devRef .tc main_v142) = ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)) (after ops V (Proc.devRef .tc main_v139)) (after ops V (Proc.devRef .tc main_v141)) := by
  rw [split2 V]
  exact read_binary ops2_w2 tail3_w2 47 rfl (by decide) (by decide) (by decide) (val2 V)

theorem W_main_v143 (V : Valuation τ sig (Elt F)) :
    after ops V (Proc.devRef .tc main_v143) = ((extractStridedSlice S1x1024 ![1, 0] · slices_S8x1024_S1x1024_1_0) : (⟨S8x1024, .f32⟩ : BufTy).Contents (Elt F) → (⟨S1x1024, .f32⟩ : BufTy).Contents (Elt F)) (after ops V (Proc.devRef .tc main_arg6)) := by
  rw [split2 V]
  exact read_unary ops2_w2 tail3_w2 48 rfl (by decide) (by decide) (val2 V)

theorem W_main_v144 (V : Valuation τ sig (Elt F)) :
    after ops V (Proc.devRef .tc main_v144) = shapeCast S1024 (after ops V (Proc.devRef .tc main_v143)) shapeCasts_S1x1024_S1024 := by
  rw [split2 V]
  exact read_reshape ops2_w2 tail3_w2 49 rfl (by decide) (by decide) (val2 V)

theorem W_main_v145 (V : Valuation τ sig (Elt F)) :
    after ops V (Proc.devRef .tc main_v145) = (broadcastInDim S1x1024 ![1] bcast_S1024_S1x1024_1 : (⟨S1024, .f32⟩ : BufTy).Contents (Elt F) → (⟨S1x1024, .f32⟩ : BufTy).Contents (Elt F)) (after ops V (Proc.devRef .tc main_v144)) := by
  rw [split2 V]
  exact read_unary ops2_w2 tail3_w2 50 rfl (by decide) (by decide) (val2 V)

theorem W_main_v146 (V : Valuation τ sig (Elt F)) :
    after ops V (Proc.devRef .tc main_v146) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v145)) := by
  rw [split2 V]
  exact read_unary ops2_w2 tail3_w2 51 rfl (by decide) (by decide) (val2 V)

theorem W_main_v147 (V : Valuation τ sig (Elt F)) :
    after ops V (Proc.devRef .tc main_v147) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v142)) (after ops V (Proc.devRef .tc main_v146)) := by
  rw [split2 V]
  exact read_binary ops2_w2 tail3_w2 52 rfl (by decide) (by decide) (by decide) (val2 V)

theorem W_main_cst_23 (V : Valuation τ sig (Elt F)) :
    after ops V (Proc.devRef .tc main_cst_23) = (constant S_ .f32 0x3E4CCCCD#32) := by
  rw [split2 V]
  exact read_nullary ops2_w2 tail3_w2 53 rfl (by decide) (val2 V)

theorem W_main_call2_cst (V : Valuation τ sig (Elt F)) :
    after ops V (Proc.devRef .tc main_call2_cst) = (constant S_ .f32 0x00000000#32) := by
  rw [split2 V]
  exact read_nullary ops2_w2 tail3_w2 54 rfl (by decide) (val2 V)

theorem W_main_call2_v0 (V : Valuation τ sig (Elt F)) :
    after ops V (Proc.devRef .tc main_call2_v0) = (broadcastInDim S2048x1024 ![] bcast_S_S2048x1024 : (⟨S_, .f32⟩ : BufTy).Contents (Elt F) → (⟨S2048x1024, .f32⟩ : BufTy).Contents (Elt F)) (after ops V (Proc.devRef .tc main_call2_cst)) := by
  rw [split2 V]
  exact read_unary ops2_w2 tail3_w2 55 rfl (by decide) (by decide) (val2 V)

theorem W_main_call2_v1 (V : Valuation τ sig (Elt F)) :
    after ops V (Proc.devRef .tc main_call2_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v147)) (after ops V (Proc.devRef .tc main_call2_v0)) := by
  rw [split2 V]
  exact read_binary ops2_w2 tail3_w2 56 rfl (by decide) (by decide) (by decide) (val2 V)

theorem W_main_call2_v2 (V : Valuation τ sig (Elt F)) :
    after ops V (Proc.devRef .tc main_call2_v2) = (id : (⟨S_, .f32⟩ : BufTy).Contents (Elt F) → (⟨S_, .f32⟩ : BufTy).Contents (Elt F)) (after ops V (Proc.devRef .tc main_cst_23)) := by
  rw [split2 V]
  exact read_unary ops2_w2 tail3_w2 57 rfl (by decide) (by decide) (val2 V)

theorem W_main_call2_v3 (V : Valuation τ sig (Elt F)) :
    after ops V (Proc.devRef .tc main_call2_v3) = (broadcastInDim S2048x1024 ![] bcast_S_S2048x1024 : (⟨S_, .f32⟩ : BufTy).Contents (Elt F) → (⟨S2048x1024, .f32⟩ : BufTy).Contents (Elt F)) (after ops V (Proc.devRef .tc main_call2_v2)) := by
  rw [split2 V]
  exact read_unary ops2_w2 tail3_w2 58 rfl (by decide) (by decide) (val2 V)

theorem W_main_call2_v4 (V : Valuation τ sig (Elt F)) :
    after ops V (Proc.devRef .tc main_call2_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call2_v3)) (after ops V (Proc.devRef .tc main_v147)) := by
  rw [split2 V]
  exact read_binary ops2_w2 tail3_w2 59 rfl (by decide) (by decide) (by decide) (val2 V)

theorem W_main_v148 (V : Valuation τ sig (Elt F)) :
    after ops V (Proc.devRef .tc main_v148) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call2_v1)) (after ops V (Proc.devRef .tc main_v147)) (after ops V (Proc.devRef .tc main_call2_v4)) := by
  rw [split2 V]
  exact read_ternary ops2_w2 tail3_w2 60 rfl (by decide) (by decide) (by decide) (by decide) (val2 V)

theorem W_main_v149 (V : Valuation τ sig (Elt F)) :
    after ops V (Proc.devRef .tc main_v149) = ((extractStridedSlice S1x1024x1024 ![1, 0, 0] · slices_S8x1024x1024_S1x1024x1024_1_0_0) : (⟨S8x1024x1024, .f32⟩ : BufTy).Contents (Elt F) → (⟨S1x1024x1024, .f32⟩ : BufTy).Contents (Elt F)) (after ops V (Proc.devRef .tc main_arg7)) := by
  rw [split2 V]
  exact read_unary ops2_w2 tail3_w2 61 rfl (by decide) (by decide) (val2 V)

theorem W_main_v150 (V : Valuation τ sig (Elt F)) :
    after ops V (Proc.devRef .tc main_v150) = shapeCast S1024x1024 (after ops V (Proc.devRef .tc main_v149)) shapeCasts_S1x1024x1024_S1024x1024 := by
  rw [split2 V]
  exact read_reshape ops2_w2 tail3_w2 62 rfl (by decide) (by decide) (val2 V)

theorem W_main_v151 (V : Valuation τ sig (Elt F)) :
    after ops V (Proc.devRef .tc main_v151) = ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)) (after ops V (Proc.devRef .tc main_v148)) (after ops V (Proc.devRef .tc main_v150)) := by
  rw [split2 V]
  exact read_binary ops2_w2 tail3_w2 63 rfl (by decide) (by decide) (by decide) (val2 V)

theorem W_main_v152 (V : Valuation τ sig (Elt F)) :
    after ops V (Proc.devRef .tc main_v152) = ((extractStridedSlice S1x1024 ![1, 0] · slices_S8x1024_S1x1024_1_0) : (⟨S8x1024, .f32⟩ : BufTy).Contents (Elt F) → (⟨S1x1024, .f32⟩ : BufTy).Contents (Elt F)) (after ops V (Proc.devRef .tc main_arg8)) := by
  rw [split2 V]
  exact read_unary ops2_w2 tail3_w2 64 rfl (by decide) (by decide) (val2 V)

theorem W_main_v153 (V : Valuation τ sig (Elt F)) :
    after ops V (Proc.devRef .tc main_v153) = shapeCast S1024 (after ops V (Proc.devRef .tc main_v152)) shapeCasts_S1x1024_S1024 := by
  rw [split2 V]
  exact read_reshape ops2_w2 tail3_w2 65 rfl (by decide) (by decide) (val2 V)

end Cert.RSide

end
-- ==== Proof.LibColumnPick.lean ====
/-
  COLUMN PICKS: reading every second column of a two-axis array with `stablehlo.gather`, and writing columns back at
  every second position with `stablehlo.scatter`, each read at one index. Program-free: only the library's operations.

  The index vector `par + 2 * iota` reads `2k + par` at `k`; the usual negative-index normalisation is the identity on
  it; as a one-column array it keeps its entries. A gather whose start indices are such a column reads the operand's
  column named by the index. A scatter (the body returning the update) whose indices are `2k + par` writes update column
  `k` to result column `2k + par` and leaves the columns of the other parity. The scatter is a left fold of one-element
  updates; below it is read at an index through a general fact on such folds.
-/
import Idealize.ShloMosaic.PureOps.Ideal
import Idealize.ShloMosaic.Lib.ValueIdx
import Idealize.ShloMosaic.Lib.Pipeline.Value

namespace Cert.Lib.ColumnPick

open Idealize.ShloMosaic Idealize.ShloMosaic.ValueIdx

/-! ## Small 32-bit words read as signed integers -/

/-- A natural number below `2^31`, as a 32-bit word read signed, is itself. -/
theorem toInt_ofNat_lt (c : Nat) (h : c < 2147483648) : (BitVec.ofNat 32 c).toInt = (c : Int) := by
  rw [BitVec.toInt_eq_toNat_cond, BitVec.toNat_ofNat]
  have hc : c % 2 ^ 32 = c := Nat.mod_eq_of_lt (by omega)
  rw [hc]
  split <;> omega

/-- A natural number below `2^31`, as a 32-bit word, is not signed-less-than zero. -/
theorem slt_zero_ofNat_lt (c : Nat) (h : c < 2147483648) : (BitVec.ofNat 32 c).slt 0#32 = false := by
  have := toInt_ofNat_lt c h
  simp [BitVec.slt, this]

/-! ## The index vector `par + 2 * iota` -/

/-- The vector `par + 2 * iota` over `4096` positions reads `2k + par` at position `k` (as 32-bit words, where sum and
    product are those of the naturals taken modulo `2^32`). -/
theorem evenOdd_apply (par : Nat) (h0 : (⟨0, ![]⟩ : Shape).BroadcastsInDim ⟨1, ![4096]⟩ ![]) (k : Fin 4096) :
    addi (broadcastInDim ⟨1, ![4096]⟩ ![] h0 (constantI ⟨0, ![]⟩ 32 (BitVec.ofNat 32 par)))
        (muli (broadcastInDim ⟨1, ![4096]⟩ ![] h0 (constantI ⟨0, ![]⟩ 32 2#32)) (iotaInDim ⟨1, ![4096]⟩ 32 0)) (ix1 k)
      = BitVec.ofNat 32 (2 * k.val + par) := by
  show BitVec.ofNat 32 par + BitVec.ofNat 32 2 * BitVec.ofNat 32 k.val = _
  rw [← BitVec.ofNat_mul, ← BitVec.ofNat_add, Nat.add_comm]

/-- The negative-index normalisation `if v < 0 then v + 8192 else v` is the identity on a vector whose entries are
    natural numbers below `8192`: such a word is not negative. -/
theorem normalizeIdx_eq (h0 : (⟨0, ![]⟩ : Shape).BroadcastsInDim ⟨1, ![4096]⟩ ![]) (v : IVec ⟨1, ![4096]⟩ 32)
    (c : Fin 4096 → Nat) (hc : ∀ k, c k < 8192) (hv : ∀ k, v (ix1 k) = BitVec.ofNat 32 (c k)) :
    select (cmpi .slt v (broadcastInDim ⟨1, ![4096]⟩ ![] h0 (constantI ⟨0, ![]⟩ 32 0#32)))
        (addi v (broadcastInDim ⟨1, ![4096]⟩ ![] h0 (constantI ⟨0, ![]⟩ 32 8192#32))) v = v := by
  funext j
  obtain ⟨k, rfl⟩ : ∃ k, j = ix1 k := ⟨j 0, eq_ix1 j⟩
  show Scalar.select (BitVec.ofBool ((v (ix1 k)).slt 0#32)) _ (v (ix1 k)) = v (ix1 k)
  rw [hv k, slt_zero_ofNat_lt (c k) (by have := hc k; omega)]
  exact select_zero _ _

/-- A vector laid out as a one-column array keeps its entries: row `k` of the column is entry `k`. -/
theorem column_apply {α : Type} (h1 : (⟨1, ![4096]⟩ : Shape).BroadcastsInDim ⟨2, ![4096, 1]⟩ ![0])
    (v : (⟨1, ![4096]⟩ : Shape).Idx → α) (k : Fin 4096) :
    broadcastInDim ⟨2, ![4096, 1]⟩ ![0] h1 v (ix2 k 0) = v (ix1 k) := by
  show v _ = v _
  congr 1
  funext a
  match a with
  | ⟨0, _⟩ => rfl

/-! ## A left fold of one-position updates, read at a position -/

section Fold
variable {ι κ α : Type*}

/-- A left fold whose steps each leave position `i'` as it was leaves it as it was. -/
theorem foldl_apply_of_miss (step : (κ → α) → ι → κ → α) (i' : κ) (l : List ι)
    (hmiss : ∀ m ∈ l, ∀ r, step r m i' = r i') (x : κ → α) : l.foldl step x i' = x i' := by
  induction l generalizing x with
  | nil => rfl
  | cons m l ih =>
    rw [List.foldl_cons, ih (fun m' hm' => hmiss m' (List.mem_cons_of_mem _ hm')), hmiss m List.mem_cons_self]

/-- A left fold over a list without repeats in which exactly one step `n` changes position `i'`, to `v` of what it held,
    ends with `v` of the initial value there: the steps before `n` leave the position alone, and so do the steps after. -/
theorem foldl_apply_of_hit (step : (κ → α) → ι → κ → α) (i' : κ) (v : α → α) (n : ι) (l : List ι) (hl : l.Nodup)
    (hn : n ∈ l) (hhit : ∀ r, step r n i' = v (r i')) (hmiss : ∀ m ∈ l, m ≠ n → ∀ r, step r m i' = r i') (x : κ → α) :
    l.foldl step x i' = v (x i') := by
  induction l generalizing x with
  | nil => exact absurd hn List.not_mem_nil
  | cons m l ih =>
    rw [List.foldl_cons]
    obtain ⟨hml, hl'⟩ := List.nodup_cons.1 hl
    rcases List.mem_cons.1 hn with rfl | hn'
    · rw [foldl_apply_of_miss step i' l (fun m' hm' => hmiss m' (List.mem_cons_of_mem _ hm')
        (fun h => hml (h ▸ hm'))), hhit]
    · have hmn : m ≠ n := fun h => hml (h ▸ hn')
      rw [ih hl' hn' (fun m' hm' => hmiss m' (List.mem_cons_of_mem _ hm')), hmiss m List.mem_cons_self hmn]

end Fold

/-! ## `stablehlo.gather` of columns, read at an index

The operand is `[2048, 8192]`, the start indices a one-column array `[4096, 1]` (the index vector's axis is the second),
each naming ONE operand column; the slice is a whole column (`[2048, 1]`, its second axis collapsed), so result element
`(b, k)` is operand element `(b, idx[k, 0])`. A start index is read signed and clamped into `[0, 8191]`; below `8192` it
is itself. -/

section Gather
variable {α : Type}

/-- Those dimension numbers as a literal record; their conditions `wf` are decided on a program's literal shapes. -/
abbrev colDims (wf : GatherDims.WF ⟨2, ![2048, 8192]⟩ ⟨2, ![4096, 1]⟩ ⟨2, ![2048, 4096]⟩ [0] [1] [] [1] [] 1 ![2048, 1]) :
    GatherDims ⟨2, ![2048, 8192]⟩ ⟨2, ![4096, 1]⟩ ⟨2, ![2048, 4096]⟩ where
  offsetDims := [0]
  collapsedSliceDims := [1]
  operandBatchingDims := []
  startIndicesBatchingDims := []
  startIndexMap := [1]
  indexVectorDim := 1
  sliceSizes := ![2048, 1]
  wf := wf

/-- The column gather at `(b, k)` with the literal record: the operand at row `b`, column `idx[k, 0]`. -/
theorem gather_colDims_apply
    (wf : GatherDims.WF ⟨2, ![2048, 8192]⟩ ⟨2, ![4096, 1]⟩ ⟨2, ![2048, 4096]⟩ [0] [1] [] [1] [] 1 ![2048, 1])
    (x : (⟨2, ![2048, 8192]⟩ : Shape).Idx → α) (idx : IVec ⟨2, ![4096, 1]⟩ 32) (c : Fin 4096 → Nat)
    (hc : ∀ k, c k < 8192) (hidx : ∀ k, idx (ix2 k 0) = BitVec.ofNat 32 (c k)) (b : Fin 2048) (k : Fin 4096) :
    Host.gather (colDims wf) x idx (ix2 b k) = x (ix2 b ⟨c k, hc k⟩) := by
  unfold Host.gather
  congr 1
  funext a
  refine Fin.ext ?_
  match a with
  | ⟨0, _⟩ =>
    show (colDims wf).start (ix2 b k) idx 0 + (colDims wf).batchCoord (ix2 b k) 0 + (colDims wf).offCoord (ix2 b k) 0 = b.val
    rw [GatherDims.batchCoord_eq_zero _ _ _ List.not_mem_nil]
    have hs : (colDims wf).start (ix2 b k) idx 0 = 0 := by
      unfold GatherDims.start
      rw [dif_neg (show (0 : Fin 2) ∉ (colDims wf).startIndexMap from
        fun h => absurd (List.mem_singleton.mp h) (show ¬ (0 : Fin 2) = 1 by decide))]
    have ho : (colDims wf).offCoord (ix2 b k) 0 = b.val := by
      unfold GatherDims.offCoord
      rw [dif_pos (show (0 : Fin 2) ∈ (colDims wf).sKept from (GatherDims.mem_sKept _ _).mpr
        ⟨fun h => absurd (List.mem_singleton.mp h) (show ¬ (0 : Fin 2) = 1 by decide), List.not_mem_nil⟩)]
      rfl
    rw [hs, ho]
    omega
  | ⟨1, _⟩ =>
    show (colDims wf).start (ix2 b k) idx 1 + (colDims wf).batchCoord (ix2 b k) 1 + (colDims wf).offCoord (ix2 b k) 1 = c k
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims wf).startIndexMap from List.mem_singleton.mpr rfl)]
    have hsi : (colDims wf).siIdx (ix2 b k) ⟨List.idxOf (1 : Fin 2) (colDims wf).startIndexMap,
        List.idxOf_lt_length_iff.2 (List.mem_singleton.mpr rfl)⟩ = ix2 k 0 := by
      funext a'; refine Fin.ext ?_
      match a' with
      | ⟨0, _⟩ => rfl
      | ⟨1, _⟩ => rfl
    rw [hsi, hidx k, toInt_ofNat_lt (c k) (by have := hc k; omega)]
    show min ((c k : Int).toNat) (8192 - 1) = c k
    have := hc k
    rw [Int.toNat_natCast]
    omega

/-- THE COLUMN GATHER READ AT `(b, k)`: for dimension numbers with offset axis `0`, collapsed operand axis `1`, no
    batching axes, the start index naming operand axis `1`, the index vector on the start indices' axis `1` and whole
    columns as slices, and start indices `idx[k, 0] = c k` below `8192`, the result at `(b, k)` is the operand at
    `(b, c k)`. -/
theorem gather_column_apply (d : GatherDims ⟨2, ![2048, 8192]⟩ ⟨2, ![4096, 1]⟩ ⟨2, ![2048, 4096]⟩)
    (hod : d.offsetDims = [0]) (hcd : d.collapsedSliceDims = [1]) (hob : d.operandBatchingDims = [])
    (hsb : d.startIndicesBatchingDims = []) (hsm : d.startIndexMap = [1]) (hiv : d.indexVectorDim = 1)
    (hss : d.sliceSizes = ![2048, 1])
    (x : (⟨2, ![2048, 8192]⟩ : Shape).Idx → α) (idx : IVec ⟨2, ![4096, 1]⟩ 32) (c : Fin 4096 → Nat)
    (hc : ∀ k, c k < 8192) (hidx : ∀ k, idx (ix2 k 0) = BitVec.ofNat 32 (c k)) (b : Fin 2048) (k : Fin 4096) :
    Host.gather d x idx (ix2 b k) = x (ix2 b ⟨c k, hc k⟩) := by
  obtain ⟨od, cd, ob, sb, sm, iv, ss, wf⟩ := d
  simp only at hod hcd hob hsb hsm hiv hss
  subst hod hcd hob hsb hsm hiv hss
  exact gather_colDims_apply wf x idx c hc hidx b k

end Gather

/-! ## `stablehlo.scatter` read at an index

The scatter is the left fold, over the update indices in row-major order, of the step that replaces the result's
element at the update's result index. Where the in-bounds result indices are pairwise distinct, each position of the
result is changed by at most one step, so it holds the body applied to the operand's element and that one update, or the
operand's element when no update lands on it. -/

section ScatterFold
variable {α : Type} {s si u : Shape} {w : Nat}

/-- A position no update's result index names keeps the operand's element. -/
theorem scatter_apply_of_miss (d : ScatterDims s si u) (f : α → α → α) (x : s.Idx → α) (idx : IVec si w)
    (upd : u.Idx → α) (i : s.Idx) (hmiss : ∀ j, d.resultIdx? j idx ≠ some i) : Host.scatter d f x idx upd i = x i := by
  unfold Host.scatter
  apply foldl_apply_of_miss
  intro m _ r
  rcases h : d.resultIdx? (u.rowMajor.symm m) idx with _ | i2
  · rfl
  · have hne : i ≠ i2 := fun e => hmiss _ (e ▸ h)
    show (if i = i2 then f (r i2) (upd (u.rowMajor.symm m)) else r i) = r i
    exact if_neg hne

/-- A position that exactly one update index `j` names holds the body applied to the operand's element there and
    update `j`. -/
theorem scatter_apply_of_hit (d : ScatterDims s si u) (f : α → α → α) (x : s.Idx → α) (idx : IVec si w)
    (upd : u.Idx → α) (j : u.Idx) (i : s.Idx) (hj : d.resultIdx? j idx = some i)
    (hinj : ∀ j', d.resultIdx? j' idx = some i → j' = j) : Host.scatter d f x idx upd i = f (x i) (upd j) := by
  unfold Host.scatter
  refine foldl_apply_of_hit _ i (fun a => f a (upd j)) (u.rowMajor j) _ (List.nodup_finRange _) (List.mem_finRange _)
    ?_ ?_ x
  · intro r
    rw [Equiv.symm_apply_apply, hj]
    show (if i = i then f (r i) (upd j) else r i) = f (r i) (upd j)
    exact if_pos rfl
  · intro m _ hm r
    rcases h : d.resultIdx? (u.rowMajor.symm m) idx with _ | i2
    · rfl
    · show (if i = i2 then f (r i2) (upd (u.rowMajor.symm m)) else r i) = r i
      refine if_neg fun e => hm ?_
      subst e
      have := hinj _ h
      rw [← this, Equiv.apply_symm_apply]

end ScatterFold

/-! ## `stablehlo.scatter` of columns at every second position, read at an index

The operand is `[2048, 8192]`, the scatter indices a one-column array `[4096, 1]` each naming ONE operand column, the
updates `[2048, 4096]`: update column `k` (a window over the rows) is written to operand column `idx[k, 0]`. With
`idx[k, 0] = 2k + par` the columns written are those of parity `par`, each once. -/

section Scatter
variable {α : Type}

/-- Those dimension numbers as a literal record; their conditions `wf` are decided on a program's literal shapes. -/
abbrev scatDims (wf : ScatterDims.WF ⟨2, ![2048, 8192]⟩ ⟨2, ![4096, 1]⟩ ⟨2, ![2048, 4096]⟩ [0] [1] [1] 1) :
    ScatterDims ⟨2, ![2048, 8192]⟩ ⟨2, ![4096, 1]⟩ ⟨2, ![2048, 4096]⟩ where
  updateWindowDims := [0]
  insertedWindowDims := [1]
  scatterDimsToOperandDims := [1]
  indexVectorDim := 1
  wf := wf

/-- The result index of update `(b, k)`: row `b` (the window coordinate; the start is `0` on the row axis), column
    `idx[k, 0]` (the start, read signed: a natural number below `8192` is itself; the window coordinate is `0` on the
    inserted axis). It is inside the operand. -/
theorem resultIdx_scatDims (wf : ScatterDims.WF ⟨2, ![2048, 8192]⟩ ⟨2, ![4096, 1]⟩ ⟨2, ![2048, 4096]⟩ [0] [1] [1] 1)
    (idx : IVec ⟨2, ![4096, 1]⟩ 32) (c : Fin 4096 → Nat) (hc : ∀ k, c k < 8192)
    (hidx : ∀ k, idx (ix2 k 0) = BitVec.ofNat 32 (c k)) (b : Fin 2048) (k : Fin 4096) :
    (scatDims wf).resultIdx? (ix2 b k) idx = some (ix2 b ⟨c k, hc k⟩) := by
  have hs0 : (scatDims wf).start (ix2 b k) idx 0 = 0 := by
    unfold ScatterDims.start
    rw [dif_neg (show (0 : Fin 2) ∉ (scatDims wf).scatterDimsToOperandDims from
      fun h => absurd (List.mem_singleton.mp h) (show ¬ (0 : Fin 2) = 1 by decide))]
  have hs1 : (scatDims wf).start (ix2 b k) idx 1 = (c k : Int) := by
    unfold ScatterDims.start
    rw [dif_pos (show (1 : Fin 2) ∈ (scatDims wf).scatterDimsToOperandDims from List.mem_singleton.mpr rfl)]
    have hsi : (scatDims wf).siIdx (ix2 b k) ⟨List.idxOf (1 : Fin 2) (scatDims wf).scatterDimsToOperandDims,
        List.idxOf_lt_length_iff.2 (List.mem_singleton.mpr rfl)⟩ = ix2 k 0 := by
      funext a'; refine Fin.ext ?_
      match a' with
      | ⟨0, _⟩ => rfl
      | ⟨1, _⟩ => rfl
    rw [hsi, hidx k, toInt_ofNat_lt (c k) (by have := hc k; omega)]
  have hw0 : (scatDims wf).window (ix2 b k) 0 = b.val := by
    unfold ScatterDims.window
    rw [dif_pos (show (0 : Fin 2) ∈ (⟨2, ![2048, 8192]⟩ : Shape).kept [1] from by decide)]
    rfl
  have hw1 : (scatDims wf).window (ix2 b k) 1 = 0 := by
    unfold ScatterDims.window
    rw [dif_neg (show (1 : Fin 2) ∉ (⟨2, ![2048, 8192]⟩ : Shape).kept [1] from by decide)]
  unfold ScatterDims.resultIdx?
  split
  · next h =>
    congr 1
    funext a
    refine Fin.ext ?_
    match a with
    | ⟨0, _⟩ =>
      show ((scatDims wf).start (ix2 b k) idx 0 + ((scatDims wf).window (ix2 b k) 0 : Int)).toNat = b.val
      rw [hs0, hw0]; simp
    | ⟨1, _⟩ =>
      show ((scatDims wf).start (ix2 b k) idx 1 + ((scatDims wf).window (ix2 b k) 1 : Int)).toNat = c k
      rw [hs1, hw1]; simp
  · next h =>
    refine absurd (fun a => ?_) h
    match a with
    | ⟨0, _⟩ =>
      show 0 ≤ (scatDims wf).start (ix2 b k) idx 0 + ((scatDims wf).window (ix2 b k) 0 : Int) ∧
        (scatDims wf).start (ix2 b k) idx 0 + ((scatDims wf).window (ix2 b k) 0 : Int) < ((2048 : Nat) : Int)
      rw [hs0, hw0]; have := b.isLt; omega
    | ⟨1, _⟩ =>
      show 0 ≤ (scatDims wf).start (ix2 b k) idx 1 + ((scatDims wf).window (ix2 b k) 1 : Int) ∧
        (scatDims wf).start (ix2 b k) idx 1 + ((scatDims wf).window (ix2 b k) 1 : Int) < ((8192 : Nat) : Int)
      rw [hs1, hw1]; have := hc k; omega

/-- The column scatter at `(b, col)` with the literal record. -/
theorem scatter_scatDims_apply
    (wf : ScatterDims.WF ⟨2, ![2048, 8192]⟩ ⟨2, ![4096, 1]⟩ ⟨2, ![2048, 4096]⟩ [0] [1] [1] 1)
    (x : (⟨2, ![2048, 8192]⟩ : Shape).Idx → α) (upd : (⟨2, ![2048, 4096]⟩ : Shape).Idx → α)
    (idx : IVec ⟨2, ![4096, 1]⟩ 32) (par : Nat) (hpar : par < 2)
    (hidx : ∀ k : Fin 4096, idx (ix2 k 0) = BitVec.ofNat 32 (2 * k.val + par)) (b : Fin 2048) (col : Fin 8192) :
    Host.scatter (scatDims wf) (fun _ v => v) x idx upd (ix2 b col)
      = if col.val % 2 = par then upd (ix2 b ⟨col.val / 2, by have := col.isLt; omega⟩) else x (ix2 b col) := by
  have hc : ∀ k : Fin 4096, 2 * k.val + par < 8192 := fun k => by have := k.isLt; omega
  have hres : ∀ (b' : Fin 2048) (k' : Fin 4096),
      (scatDims wf).resultIdx? (ix2 b' k') idx = some (ix2 b' ⟨2 * k'.val + par, hc k'⟩) :=
    fun b' k' => resultIdx_scatDims wf idx (fun k => 2 * k.val + par) hc hidx b' k'
  have hcol := col.isLt
  split
  · next hp =>
    have hk : col.val / 2 < 4096 := by omega
    refine scatter_apply_of_hit (scatDims wf) _ x idx upd (ix2 b ⟨col.val / 2, hk⟩) (ix2 b col) ?_ ?_
    · rw [hres]
      congr 2
      refine Fin.ext ?_
      show 2 * (col.val / 2) + par = col.val
      omega
    · intro j' hj'
      obtain ⟨b', k', rfl⟩ : ∃ b' k', j' = ix2 b' k' := ⟨j' 0, j' 1, eq_ix2 j'⟩
      rw [hres] at hj'
      have e := Option.some.inj hj'
      have e0 : b' = b := congrFun e 0
      have e1 : 2 * k'.val + par = col.val := congrArg Fin.val (congrFun e 1)
      subst e0
      congr 1
      refine Fin.ext ?_
      show k'.val = col.val / 2
      omega
  · next hp =>
    refine scatter_apply_of_miss (scatDims wf) _ x idx upd (ix2 b col) fun j' hj' => hp ?_
    obtain ⟨b', k', rfl⟩ : ∃ b' k', j' = ix2 b' k' := ⟨j' 0, j' 1, eq_ix2 j'⟩
    rw [hres] at hj'
    have e := Option.some.inj hj'
    have e1 : 2 * k'.val + par = col.val := congrArg Fin.val (congrFun e 1)
    omega

/-- THE COLUMN SCATTER READ AT `(b, col)`: for dimension numbers with the updates' window axis `0`, the operand's
    inserted axis `1`, the scatter index naming operand axis `1`, the index vector on the scatter indices' axis `1`,
    the body returning the update, and scatter indices `idx[k, 0] = 2k + par` (`par` is `0` or `1`): a column of parity
    `par` holds the update's column `col / 2`, a column of the other parity the operand's. -/
theorem scatter_column_apply (d : ScatterDims ⟨2, ![2048, 8192]⟩ ⟨2, ![4096, 1]⟩ ⟨2, ![2048, 4096]⟩)
    (huw : d.updateWindowDims = [0]) (hiw : d.insertedWindowDims = [1]) (hsd : d.scatterDimsToOperandDims = [1])
    (hiv : d.indexVectorDim = 1)
    (x : (⟨2, ![2048, 8192]⟩ : Shape).Idx → α) (upd : (⟨2, ![2048, 4096]⟩ : Shape).Idx → α)
    (idx : IVec ⟨2, ![4096, 1]⟩ 32) (par : Nat) (hpar : par < 2)
    (hidx : ∀ k : Fin 4096, idx (ix2 k 0) = BitVec.ofNat 32 (2 * k.val + par)) (b : Fin 2048) (col : Fin 8192) :
    Host.scatter d (fun _ v => v) x idx upd (ix2 b col)
      = if col.val % 2 = par then upd (ix2 b ⟨col.val / 2, by have := col.isLt; omega⟩) else x (ix2 b col) := by
  obtain ⟨uw, iw, sd, iv, wf⟩ := d
  simp only at huw hiw hsd hiv
  subst huw hiw hsd hiv
  exact scatter_scatDims_apply wf x upd idx par hpar hidx b col

end Scatter

end Cert.Lib.ColumnPick
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«175835_j29978871726094_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.FlowRefTerms.lean ====
/-
  One layer of the coupling flow as a host program spells it, read entry by entry on the extended reals (first part).

  The activation is a comparison with a zero splat and a choice between x and a splat of the word 3E4CCCCD times x. A
  host sum of a vector from the zero word is the plain sum of its entries. The first dense layer contracts the
  concatenation [xc | cnd] of 4096 and 1024 columns with a 5120-row matrix: the sum over 5120 indices is the sum over
  the first 4096, which read xc, plus the sum over the last 1024, which read cnd. The columns of one parity are taken
  by a gather whose start indices are the column vector 2k + par, normalised for negative entries (there are none);
  the columns are put back by two scatters, one per parity, each writing its columns once, so that whatever the array
  scattered into held is overwritten everywhere. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«175835_j29978871726094_1_alg».proof.Proof.FlowSpec
import proofs.«175835_j29978871726094_1_alg».proof.Proof.LibColumnPick
import proofs.«175835_j29978871726094_1_alg».proof.Proof.LibMatProd

open scoped BigOperators

noncomputable section

namespace Cert.Flow.RefTerms

open Idealize.ShloMosaic Idealize.ShloMosaic.ValueIdx Cert.Flow Cert.Lib.ColumnPick Cert.Lib.MatProd

/-! ## The activation -/

/-- The host's activation at an index: the comparison with the zero splat chooses x or the splat of the word
    3E4CCCCD times x; that is `lrelu` of the entry. -/
theorem lrelu_host {S : Shape} (h : (⟨0, ![]⟩ : Shape).BroadcastsInDim S ![]) (x : FVec Ideal S .f32) (j : S.Idx) :
    select (cmpf .oge x (broadcastInDim S ![] h (constant (F := Ideal) ⟨0, ![]⟩ .f32 0x00000000#32))) x
        (mulf (broadcastInDim S ![] h (id (constant (F := Ideal) ⟨0, ![]⟩ .f32 0x3E4CCCCD#32))) x) j
      = lrelu (x j) := rfl

/-- The same as an equation of arrays. -/
theorem lrelu_host_eq {S : Shape} (h : (⟨0, ![]⟩ : Shape).BroadcastsInDim S ![]) (x : FVec Ideal S .f32) :
    select (cmpf .oge x (broadcastInDim S ![] h (constant (F := Ideal) ⟨0, ![]⟩ .f32 0x00000000#32))) x
        (mulf (broadcastInDim S ![] h (id (constant (F := Ideal) ⟨0, ![]⟩ .f32 0x3E4CCCCD#32))) x)
      = fun j => lrelu (x j) := rfl

/-! ## The host's sum of a vector -/

/-- A rank-one index set is its one coordinate's range. -/
def idxEquiv1 {n : Nat} : (⟨1, ![n]⟩ : Shape).Idx ≃ Fin n where
  toFun i := i 0
  invFun k := ix1 k
  left_inv i := (eq_ix1 i).symm
  right_inv _ := rfl

/-- The host's sum of a vector of n entries, from the zero word, is the sum of the entries. -/
theorem host_vecsum_apply {n : Nat} (v : FVec Ideal ⟨1, ![n]⟩ .f32)
    (h' : (⟨1, ![n]⟩ : Shape).ReducesTo [0] ⟨0, ![]⟩) (hu : 0 < (⟨0, ![]⟩ : Shape).numel) (j : (⟨0, ![]⟩ : Shape).Idx) :
    Host.reduceAdd v (constant (F := Ideal) ⟨0, ![]⟩ .f32 0x00000000#32) h' hu j = ∑ k : Fin n, v (ix1 k) := by
  show Ideal.hostReduceAdd h' v (Ideal.ofBits .f32 0x00000000#32) j = _
  rw [Ideal.hostReduceAdd_total h' (fun b => b.elim0), Ideal.ofBits_zero_f32, zero_add]
  exact Fintype.sum_equiv idxEquiv1 _ _ fun i => congrArg v (eq_ix1 i)

/-! ## The first dense layer over the concatenation -/

/-- The product of the concatenation [xc | cnd] with a 5120-row matrix, at (p, q): the first 4096 rows of the matrix
    meet xc, the last 1024 meet cnd. -/
theorem dense_concat_apply (d : DotDims ⟨2, ![2048, 5120]⟩ ⟨2, ![5120, 1024]⟩ ⟨2, ![2048, 1024]⟩)
    (hlc : d.lhsContracting = [1]) (hrc : d.rhsContracting = [0]) (hln : d.lhsNonContracting = [0])
    (hrn : d.rhsNonContracting = [1]) (hlb : d.lhsBatch = []) (hrb : d.rhsBatch = [])
    (xc : FVec Ideal ⟨2, ![2048, 4096]⟩ .f32) (cnd : FVec Ideal ⟨2, ![2048, 1024]⟩ .f32)
    (W : FVec Ideal ⟨2, ![5120, 1024]⟩ .f32)
    (hcat : Shape.Concatenates [(⟨2, ![2048, 4096]⟩ : Shape), ⟨2, ![2048, 1024]⟩] ⟨2, ![2048, 5120]⟩ 1)
    (p : Fin 2048) (q : Fin 1024) :
    Host.dotGeneral d none
        (concatenate ⟨2, ![2048, 5120]⟩ 1 [⟨⟨2, ![2048, 4096]⟩, xc⟩, ⟨⟨2, ![2048, 1024]⟩, cnd⟩] hcat) W (ix2 p q)
      = (∑ c : Fin 4096, xc (ix2 p c) * W (ix2 ⟨c.val, by have := c.isLt; omega⟩ q))
        + ∑ c : Fin 1024, cnd (ix2 p c) * W (ix2 ⟨4096 + c.val, by have := c.isLt; omega⟩ q) := by
  simp only [Host.dotGeneral]
  rw [dotGeneral_eq_matProd d hlc hrc hln hrn hlb hrb none _ _ W, matProd_apply, sum_two_bands]
  refine congrArg₂ HAdd.hAdd (Finset.sum_congr rfl fun c _ => ?_) (Finset.sum_congr rfl fun c _ => ?_)
  · refine congrArg₂ HMul.hMul ?_ rfl
    refine concatenate_pair_apply_left (t := ⟨2, ![2048, 5120]⟩) (1 : Fin 2) xc cnd hcat _ rfl (ix2 p c) fun b => ?_
    match b with
    | ⟨0, _⟩ => rfl
    | ⟨1, _⟩ => rfl
  · refine congrArg₂ HMul.hMul ?_ rfl
    refine concatenate_pair_apply_right (t := ⟨2, ![2048, 5120]⟩) (1 : Fin 2) xc cnd hcat _ rfl rfl (ix2 p c)
      (fun b hb => ?_) ?_
    · match b with
      | ⟨0, _⟩ => rfl
      | ⟨1, _⟩ => exact absurd rfl hb
    · show c.val + 4096 = 4096 + c.val
      omega

/-! ## The column index vector -/

/-- The column vector `2k + par`, normalised for negative entries and laid out as one column, reads `2k + par` at row k. -/
theorem colIdx_apply (par : Nat) (hpar : par < 2) (h0 : (⟨0, ![]⟩ : Shape).BroadcastsInDim ⟨1, ![4096]⟩ ![])
    (h1 : (⟨1, ![4096]⟩ : Shape).BroadcastsInDim ⟨2, ![4096, 1]⟩ ![0]) (k : Fin 4096) :
    (broadcastInDim ⟨2, ![4096, 1]⟩ ![0] h1 (select (cmpi .slt (addi (broadcastInDim ⟨1, ![4096]⟩ ![] h0 (constantI ⟨0, ![]⟩ 32 (BitVec.ofNat 32 par))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 0#32))) (addi (addi (broadcastInDim ⟨1, ![4096]⟩ ![] h0 (constantI ⟨0, ![]⟩ 32 (BitVec.ofNat 32 par))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 8192#32))) (addi (broadcastInDim ⟨1, ![4096]⟩ ![] h0 (constantI ⟨0, ![]⟩ 32 (BitVec.ofNat 32 par))) (muli (broadcastInDim ⟨1, ![4096]⟩ ![] h0 (constantI ⟨0, ![]⟩ 32 2#32)) (iotaInDim ⟨1, ![4096]⟩ 32 0))))) (ix2 k 0)
      = BitVec.ofNat 32 (2 * k.val + par) := by
  have hc : ∀ k : Fin 4096, 2 * k.val + par < 8192 := fun k => by have := k.isLt; omega
  rw [column_apply, normalizeIdx_eq h0 _ (fun k => 2 * k.val + par) hc (evenOdd_apply par h0)]
  exact evenOdd_apply par h0 k

/-! ## The split: the columns of one parity by a gather -/

/-- The gather of whole columns at the column vector `2k + par` is the columns of parity `par`. -/
theorem split_gather (par : Nat) (q : Fin 2) (hq : par = q.val) (gd : GatherDims ⟨2, ![2048, 8192]⟩ ⟨2, ![4096, 1]⟩ ⟨2, ![2048, 4096]⟩)
    (hod : gd.offsetDims = [0]) (hcd : gd.collapsedSliceDims = [1]) (hob : gd.operandBatchingDims = [])
    (hsb : gd.startIndicesBatchingDims = []) (hsm : gd.startIndexMap = [1]) (hiv : gd.indexVectorDim = 1)
    (hss : gd.sliceSizes = ![2048, 1]) (h0 : (⟨0, ![]⟩ : Shape).BroadcastsInDim ⟨1, ![4096]⟩ ![])
    (h1 : (⟨1, ![4096]⟩ : Shape).BroadcastsInDim ⟨2, ![4096, 1]⟩ ![0]) (z : A2 2048 8192) :
    Host.gather gd z (broadcastInDim ⟨2, ![4096, 1]⟩ ![0] h1 (select (cmpi .slt (addi (broadcastInDim ⟨1, ![4096]⟩ ![] h0 (constantI ⟨0, ![]⟩ 32 (BitVec.ofNat 32 par))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 0#32))) (addi (addi (broadcastInDim ⟨1, ![4096]⟩ ![] h0 (constantI ⟨0, ![]⟩ 32 (BitVec.ofNat 32 par))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 8192#32))) (addi (broadcastInDim ⟨1, ![4096]⟩ ![] h0 (constantI ⟨0, ![]⟩ 32 (BitVec.ofNat 32 par))) (muli (broadcastInDim ⟨1, ![4096]⟩ ![] h0 (constantI ⟨0, ![]⟩ 32 2#32)) (iotaInDim ⟨1, ![4096]⟩ 32 0)))))
      = cols q z := by
  subst hq
  have hc : ∀ k : Fin 4096, 2 * k.val + q.val < 8192 := fun k => by have := k.isLt; have := q.isLt; omega
  refine ext2 fun p k => ?_
  exact gather_column_apply gd hod hcd hob hsb hsm hiv hss z _ (fun k => 2 * k.val + q.val) hc
    (colIdx_apply q.val q.isLt h0 h1) p k

/-! ## The merge: the columns put back by two scatters -/

/-- Two scatters of whole columns, the first writing xc at the columns `2k + q`, the second yu at the columns of the
    other parity, give `merge q xc yu` whatever array they write into: each column is written by exactly one of them. -/
theorem merge_scatter_of_reads (q : Fin 2) (sd : ScatterDims ⟨2, ![2048, 8192]⟩ ⟨2, ![4096, 1]⟩ ⟨2, ![2048, 4096]⟩)
    (huw : sd.updateWindowDims = [0]) (hiw : sd.insertedWindowDims = [1]) (hsd : sd.scatterDimsToOperandDims = [1])
    (hsiv : sd.indexVectorDim = 1) (x0 : A2 2048 8192) (xc yu : A2 2048 4096)
    (idxM idxU : IVec ⟨2, ![4096, 1]⟩ 32)
    (hM : ∀ k : Fin 4096, idxM (ix2 k 0) = BitVec.ofNat 32 (2 * k.val + q.val))
    (hU : ∀ k : Fin 4096, idxU (ix2 k 0) = BitVec.ofNat 32 (2 * k.val + (1 - q.val))) :
    Host.scatter sd (fun _ b => b) (Host.scatter sd (fun _ b => b) x0 idxM xc) idxU yu = merge q xc yu := by
  refine ext2 fun p d => ?_
  have hq := q.isLt
  rw [scatter_column_apply sd huw hiw hsd hsiv _ yu idxU (1 - q.val) (by omega) hU p d,
    scatter_column_apply sd huw hiw hsd hsiv x0 xc idxM q.val hq hM p d]
  show _ = if d.val % 2 = q.val then xc (ix2 p ⟨d.val / 2, _⟩) else yu (ix2 p ⟨d.val / 2, _⟩)
  have hm : d.val % 2 < 2 := Nat.mod_lt _ (by decide)
  by_cases hd : d.val % 2 = q.val
  · rw [if_neg (by omega), if_pos hd, if_pos hd]
  · rw [if_pos (by omega), if_neg hd]

/-- The same with the two index arrays spelled as the normalised column vectors of parities `parM` (= q) and `parU`
    (the other one). -/
theorem merge_scatter (parM parU : Nat) (q : Fin 2) (hqM : parM = q.val) (hqU : parU = 1 - q.val) (sd : ScatterDims ⟨2, ![2048, 8192]⟩ ⟨2, ![4096, 1]⟩ ⟨2, ![2048, 4096]⟩)
    (huw : sd.updateWindowDims = [0]) (hiw : sd.insertedWindowDims = [1]) (hsd : sd.scatterDimsToOperandDims = [1])
    (hsiv : sd.indexVectorDim = 1) (h0 : (⟨0, ![]⟩ : Shape).BroadcastsInDim ⟨1, ![4096]⟩ ![])
    (h1 : (⟨1, ![4096]⟩ : Shape).BroadcastsInDim ⟨2, ![4096, 1]⟩ ![0])
    (x0 : A2 2048 8192) (xc yu : A2 2048 4096) :
    Host.scatter sd (fun _ b => b)
        (Host.scatter sd (fun _ b => b) x0
          (broadcastInDim ⟨2, ![4096, 1]⟩ ![0] h1 (select (cmpi .slt (addi (broadcastInDim ⟨1, ![4096]⟩ ![] h0 (constantI ⟨0, ![]⟩ 32 (BitVec.ofNat 32 parM))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 0#32))) (addi (addi (broadcastInDim ⟨1, ![4096]⟩ ![] h0 (constantI ⟨0, ![]⟩ 32 (BitVec.ofNat 32 parM))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 8192#32))) (addi (broadcastInDim ⟨1, ![4096]⟩ ![] h0 (constantI ⟨0, ![]⟩ 32 (BitVec.ofNat 32 parM))) (muli (broadcastInDim ⟨1, ![4096]⟩ ![] h0 (constantI ⟨0, ![]⟩ 32 2#32)) (iotaInDim ⟨1, ![4096]⟩ 32 0))))) xc)
        (broadcastInDim ⟨2, ![4096, 1]⟩ ![0] h1 (select (cmpi .slt (addi (broadcastInDim ⟨1, ![4096]⟩ ![] h0 (constantI ⟨0, ![]⟩ 32 (BitVec.ofNat 32 parU))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 0#32))) (addi (addi (broadcastInDim ⟨1, ![4096]⟩ ![] h0 (constantI ⟨0, ![]⟩ 32 (BitVec.ofNat 32 parU))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 8192#32))) (addi (broadcastInDim ⟨1, ![4096]⟩ ![] h0 (constantI ⟨0, ![]⟩ 32 (BitVec.ofNat 32 parU))) (muli (broadcastInDim ⟨1, ![4096]⟩ ![] h0 (constantI ⟨0, ![]⟩ 32 2#32)) (iotaInDim ⟨1, ![4096]⟩ 32 0))))) yu
      = merge q xc yu := by
  subst hqM hqU
  have hq := q.isLt
  exact merge_scatter_of_reads q sd huw hiw hsd hsiv x0 xc yu _ _ (colIdx_apply q.val hq h0 h1)
    (colIdx_apply (1 - q.val) (by omega) h0 h1)

end Cert.Flow.RefTerms

end
-- ==== Proof.FlowRefTerms2.lean ====
/-
  One layer of the coupling flow as a host program spells it, read entry by entry on the extended reals (second part).

  A dense layer is a product with layer i's matrix — a unit-stride slice of the stack of eight with the unit axis
  dropped — plus layer i's bias row — a slice of the table, flattened, laid out as a row and broadcast down the rows.
  Two such layers with the activation between and after them, the first over the concatenation [xc | cnd], give the
  hidden array; one more, through tanh and times the layer's scalar, the scales; one more the shifts; and
  xu · exp(s) + t the transformed half. The vector gains the sum of the layer's logarithmic scales and the row sums of
  the scales. Each spelling is the specification's function. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.LibMatProd
import proofs.«175835_j29978871726094_1_alg».proof.Proof.LibRowVector
import proofs.«175835_j29978871726094_1_alg».proof.Proof.FlowRefTerms

open scoped BigOperators

noncomputable section

namespace Cert.Flow.RefTerms

open Idealize.ShloMosaic Idealize.ShloMosaic.ValueIdx Cert.Flow Cert.Flow.Terms Cert.Lib.MatProd

/-! ## A dense layer with layer i's matrix and bias row -/

/-- A product with layer i's matrix plus layer i's bias row, at (p, q): the sum over c of X(p, c) times the matrix
    at (c, q), plus the row's entry q. -/
theorem dense_bias_apply {r k n : Nat} (i : Fin 8) (o : Nat) (ho : o = i.val) (d : DotDims ⟨2, ![r, k]⟩ ⟨2, ![k, n]⟩ ⟨2, ![r, n]⟩)
    (dlc : d.lhsContracting = [1]) (drc : d.rhsContracting = [0]) (dln : d.lhsNonContracting = [0])
    (drn : d.rhsNonContracting = [1]) (dlb : d.lhsBatch = []) (drb : d.rhsBatch = [])
    (X : FVec Ideal ⟨2, ![r, k]⟩ .f32) (W : FVec Ideal ⟨3, ![8, k, n]⟩ .f32) (B : FVec Ideal ⟨2, ![8, n]⟩ .f32)
    (hsW : (⟨3, ![8, k, n]⟩ : Shape).Slices ![o, 0, 0] ⟨3, ![1, k, n]⟩)
    (hcW : (⟨3, ![1, k, n]⟩ : Shape).ShapeCasts ⟨2, ![k, n]⟩)
    (hsB : (⟨2, ![8, n]⟩ : Shape).Slices ![o, 0] ⟨2, ![1, n]⟩) (hcB : (⟨2, ![1, n]⟩ : Shape).ShapeCasts ⟨1, ![n]⟩)
    (hbA : (⟨1, ![n]⟩ : Shape).BroadcastsInDim ⟨2, ![1, n]⟩ ![1])
    (hbB : (⟨2, ![1, n]⟩ : Shape).BroadcastsInDim ⟨2, ![r, n]⟩ ![0, 1]) (hk : 0 + k ≤ k) (p : Fin r) (q : Fin n) :
    addf (Host.dotGeneral d none X (shapeCast ⟨2, ![k, n]⟩ (extractStridedSlice ⟨3, ![1, k, n]⟩ ![o, 0, 0] W hsW) hcW))
        (broadcastInDim ⟨2, ![r, n]⟩ ![0, 1] hbB (broadcastInDim ⟨2, ![1, n]⟩ ![1] hbA (shapeCast ⟨1, ![n]⟩ (extractStridedSlice ⟨2, ![1, n]⟩ ![o, 0] B hsB) hcB))) (ix2 p q)
      = (∑ c : Fin k, X (ix2 p c) * band i W 0 k hk (ix2 c q)) + rowOf i B (ix2 0 q) := by
  rw [addf_apply, table_row_bcast_apply i o ho B hsB hcB hbA hbB p q, stack_slice i o ho W hsW hcW hk]
  simp only [Host.dotGeneral]
  rw [dotGeneral_eq_matProd d dlc drc dln drn dlb drb none _ X _, matProd_apply]
  rfl

/-- The first layer, over the concatenation [xc | cnd], at (p, k): rows 0 … 4095 of layer i's matrix meet xc, rows
    4096 … 5119 meet cnd. -/
theorem dense_first_apply (i : Fin 8) (o : Nat) (ho : o = i.val) (d1 : DotDims ⟨2, ![2048, 5120]⟩ ⟨2, ![5120, 1024]⟩ ⟨2, ![2048, 1024]⟩)
    (d1lc : d1.lhsContracting = [1]) (d1rc : d1.rhsContracting = [0]) (d1ln : d1.lhsNonContracting = [0])
    (d1rn : d1.rhsNonContracting = [1]) (d1lb : d1.lhsBatch = []) (d1rb : d1.rhsBatch = [])
    (xc : FVec Ideal ⟨2, ![2048, 4096]⟩ .f32) (cnd : FVec Ideal ⟨2, ![2048, 1024]⟩ .f32)
    (W1 : FVec Ideal ⟨3, ![8, 5120, 1024]⟩ .f32) (b1 : FVec Ideal ⟨2, ![8, 1024]⟩ .f32)
    (hcat : Shape.Concatenates [(⟨2, ![2048, 4096]⟩ : Shape), ⟨2, ![2048, 1024]⟩] ⟨2, ![2048, 5120]⟩ 1)
    (hsW1 : (⟨3, ![8, 5120, 1024]⟩ : Shape).Slices ![o, 0, 0] ⟨3, ![1, 5120, 1024]⟩)
    (hcW1 : (⟨3, ![1, 5120, 1024]⟩ : Shape).ShapeCasts ⟨2, ![5120, 1024]⟩)
    (hsB : (⟨2, ![8, 1024]⟩ : Shape).Slices ![o, 0] ⟨2, ![1, 1024]⟩)
    (hcB : (⟨2, ![1, 1024]⟩ : Shape).ShapeCasts ⟨1, ![1024]⟩)
    (hbA : (⟨1, ![1024]⟩ : Shape).BroadcastsInDim ⟨2, ![1, 1024]⟩ ![1])
    (hbB : (⟨2, ![1, 1024]⟩ : Shape).BroadcastsInDim ⟨2, ![2048, 1024]⟩ ![0, 1])
    (h1a : 0 + 4096 ≤ 5120) (h1b : 4096 + 1024 ≤ 5120) (p : Fin 2048) (k : Fin 1024) :
    (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (ix2 p k)
      = ((∑ c : Fin 4096, xc (ix2 p c) * band i W1 0 4096 h1a (ix2 c k))
          + ∑ c : Fin 1024, cnd (ix2 p c) * band i W1 4096 1024 h1b (ix2 c k)) + rowOf i b1 (ix2 0 k) := by
  rw [addf_apply, table_row_bcast_apply i o ho b1 hsB hcB hbA hbB p k,
    stack_slice i o ho W1 hsW1 hcW1 (show 0 + 5120 ≤ 5120 by decide),
    dense_concat_apply d1 d1lc d1rc d1ln d1rn d1lb d1rb xc cnd _ hcat p k]
  refine congrArg₂ HAdd.hAdd (congrArg₂ HAdd.hAdd rfl (Finset.sum_congr rfl fun c _ => congrArg₂ HMul.hMul rfl ?_)) rfl
  exact congrArg (fun a => W1 (ix3 i a k)) (Fin.ext (Nat.zero_add _))

/-! ## The hidden array, the scales, the shifts and the transformed half -/

/-- The two layers with the activation are `coupleH` over layer i's parameters. -/
theorem hidden_term (i : Fin 8) (o : Nat) (ho : o = i.val) (d1 : DotDims ⟨2, ![2048, 5120]⟩ ⟨2, ![5120, 1024]⟩ ⟨2, ![2048, 1024]⟩)
    (d1lc : d1.lhsContracting = [1]) (d1rc : d1.rhsContracting = [0]) (d1ln : d1.lhsNonContracting = [0])
    (d1rn : d1.rhsNonContracting = [1]) (d1lb : d1.lhsBatch = []) (d1rb : d1.rhsBatch = []) (d2 : DotDims ⟨2, ![2048, 1024]⟩ ⟨2, ![1024, 1024]⟩ ⟨2, ![2048, 1024]⟩)
    (d2lc : d2.lhsContracting = [1]) (d2rc : d2.rhsContracting = [0]) (d2ln : d2.lhsNonContracting = [0])
    (d2rn : d2.rhsNonContracting = [1]) (d2lb : d2.lhsBatch = []) (d2rb : d2.rhsBatch = [])
    (xc : FVec Ideal ⟨2, ![2048, 4096]⟩ .f32) (cnd : FVec Ideal ⟨2, ![2048, 1024]⟩ .f32)
    (W1 : FVec Ideal ⟨3, ![8, 5120, 1024]⟩ .f32) (b1 : FVec Ideal ⟨2, ![8, 1024]⟩ .f32)
    (W2 : FVec Ideal ⟨3, ![8, 1024, 1024]⟩ .f32) (b2 : FVec Ideal ⟨2, ![8, 1024]⟩ .f32)
    (hcat : Shape.Concatenates [(⟨2, ![2048, 4096]⟩ : Shape), ⟨2, ![2048, 1024]⟩] ⟨2, ![2048, 5120]⟩ 1)
    (hsW1 : (⟨3, ![8, 5120, 1024]⟩ : Shape).Slices ![o, 0, 0] ⟨3, ![1, 5120, 1024]⟩)
    (hcW1 : (⟨3, ![1, 5120, 1024]⟩ : Shape).ShapeCasts ⟨2, ![5120, 1024]⟩) (hsW2 : (⟨3, ![8, 1024, 1024]⟩ : Shape).Slices ![o, 0, 0] ⟨3, ![1, 1024, 1024]⟩)
    (hcW2 : (⟨3, ![1, 1024, 1024]⟩ : Shape).ShapeCasts ⟨2, ![1024, 1024]⟩)
    (hsB : (⟨2, ![8, 1024]⟩ : Shape).Slices ![o, 0] ⟨2, ![1, 1024]⟩)
    (hcB : (⟨2, ![1, 1024]⟩ : Shape).ShapeCasts ⟨1, ![1024]⟩)
    (hbA : (⟨1, ![1024]⟩ : Shape).BroadcastsInDim ⟨2, ![1, 1024]⟩ ![1])
    (hbB : (⟨2, ![1, 1024]⟩ : Shape).BroadcastsInDim ⟨2, ![2048, 1024]⟩ ![0, 1])
    (hz : (⟨0, ![]⟩ : Shape).BroadcastsInDim ⟨2, ![2048, 1024]⟩ ![])
    (h1a : 0 + 4096 ≤ 5120) (h1b : 4096 + 1024 ≤ 5120) (h2 : 0 + 1024 ≤ 1024) :
    (select (cmpf .oge (addf (Host.dotGeneral d2 none (select (cmpf .oge (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (broadcastInDim ⟨2, ![2048, 1024]⟩ ![] hz (constant (F := Ideal) ⟨0, ![]⟩ .f32 0x00000000#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (mulf (broadcastInDim ⟨2, ![2048, 1024]⟩ ![] hz (id (constant (F := Ideal) ⟨0, ![]⟩ .f32 0x3E4CCCCD#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))))) (shapeCast ⟨2, ![1024, 1024]⟩ (extractStridedSlice ⟨3, ![1, 1024, 1024]⟩ ![o, 0, 0] W2 hsW2) hcW2)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b2 hsB) hcB)))) (broadcastInDim ⟨2, ![2048, 1024]⟩ ![] hz (constant (F := Ideal) ⟨0, ![]⟩ .f32 0x00000000#32))) (addf (Host.dotGeneral d2 none (select (cmpf .oge (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (broadcastInDim ⟨2, ![2048, 1024]⟩ ![] hz (constant (F := Ideal) ⟨0, ![]⟩ .f32 0x00000000#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (mulf (broadcastInDim ⟨2, ![2048, 1024]⟩ ![] hz (id (constant (F := Ideal) ⟨0, ![]⟩ .f32 0x3E4CCCCD#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))))) (shapeCast ⟨2, ![1024, 1024]⟩ (extractStridedSlice ⟨3, ![1, 1024, 1024]⟩ ![o, 0, 0] W2 hsW2) hcW2)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b2 hsB) hcB)))) (mulf (broadcastInDim ⟨2, ![2048, 1024]⟩ ![] hz (id (constant (F := Ideal) ⟨0, ![]⟩ .f32 0x3E4CCCCD#32))) (addf (Host.dotGeneral d2 none (select (cmpf .oge (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (broadcastInDim ⟨2, ![2048, 1024]⟩ ![] hz (constant (F := Ideal) ⟨0, ![]⟩ .f32 0x00000000#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (mulf (broadcastInDim ⟨2, ![2048, 1024]⟩ ![] hz (id (constant (F := Ideal) ⟨0, ![]⟩ .f32 0x3E4CCCCD#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))))) (shapeCast ⟨2, ![1024, 1024]⟩ (extractStridedSlice ⟨3, ![1, 1024, 1024]⟩ ![o, 0, 0] W2 hsW2) hcW2)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b2 hsB) hcB))))))
      = coupleH xc cnd (band i W1 0 4096 h1a) (band i W1 4096 1024 h1b) (rowOf i b1) (band i W2 0 1024 h2) (rowOf i b2) := by
  refine ext2 fun p q => ?_
  rw [lrelu_host, dense_bias_apply i o ho d2 d2lc d2rc d2ln d2rn d2lb d2rb _ W2 b2 hsW2 hcW2 hsB hcB hbA hbB h2 p q]
  refine congrArg lrelu (congrArg₂ HAdd.hAdd (Finset.sum_congr rfl fun k _ => congrArg₂ HMul.hMul ?_ rfl) rfl)
  rw [lrelu_host, dense_first_apply i o ho d1 d1lc d1rc d1ln d1rn d1lb d1rb xc cnd W1 b1 hcat hsW1 hcW1 hsB hcB hbA hbB h1a h1b p k]

/-- tanh of a dense layer on the hidden array, times layer i's scalar broadcast, is `coupleS`. -/
theorem scale_term (i : Fin 8) (o : Nat) (ho : o = i.val) (d3 : DotDims ⟨2, ![2048, 1024]⟩ ⟨2, ![1024, 4096]⟩ ⟨2, ![2048, 4096]⟩)
    (d3lc : d3.lhsContracting = [1]) (d3rc : d3.rhsContracting = [0]) (d3ln : d3.lhsNonContracting = [0])
    (d3rn : d3.rhsNonContracting = [1]) (d3lb : d3.lhsBatch = []) (d3rb : d3.rhsBatch = [])
    (h : FVec Ideal ⟨2, ![2048, 1024]⟩ .f32) (Ws : FVec Ideal ⟨3, ![8, 1024, 4096]⟩ .f32) (bs : FVec Ideal ⟨2, ![8, 4096]⟩ .f32)
    (sf : FVec Ideal ⟨1, ![8]⟩ .f32)
    (hsW4 : (⟨3, ![8, 1024, 4096]⟩ : Shape).Slices ![o, 0, 0] ⟨3, ![1, 1024, 4096]⟩)
    (hcW4 : (⟨3, ![1, 1024, 4096]⟩ : Shape).ShapeCasts ⟨2, ![1024, 4096]⟩)
    (hsB4 : (⟨2, ![8, 4096]⟩ : Shape).Slices ![o, 0] ⟨2, ![1, 4096]⟩)
    (hcB4 : (⟨2, ![1, 4096]⟩ : Shape).ShapeCasts ⟨1, ![4096]⟩)
    (hbA4 : (⟨1, ![4096]⟩ : Shape).BroadcastsInDim ⟨2, ![1, 4096]⟩ ![1])
    (hbB4 : (⟨2, ![1, 4096]⟩ : Shape).BroadcastsInDim ⟨2, ![2048, 4096]⟩ ![0, 1])
    (hs1 : (⟨1, ![8]⟩ : Shape).Slices ![o] ⟨1, ![1]⟩) (hc1 : (⟨1, ![1]⟩ : Shape).ShapeCasts ⟨0, ![]⟩)
    (hz4 : (⟨0, ![]⟩ : Shape).BroadcastsInDim ⟨2, ![2048, 4096]⟩ ![]) (h3 : 0 + 1024 ≤ 1024) :
    (mulf (Host.tanh (addf (Host.dotGeneral d3 none h (shapeCast ⟨2, ![1024, 4096]⟩ (extractStridedSlice ⟨3, ![1, 1024, 4096]⟩ ![o, 0, 0] Ws hsW4) hcW4)) (broadcastInDim ⟨2, ![2048, 4096]⟩ ![0, 1] hbB4 (broadcastInDim ⟨2, ![1, 4096]⟩ ![1] hbA4 (shapeCast ⟨1, ![4096]⟩ (extractStridedSlice ⟨2, ![1, 4096]⟩ ![o, 0] bs hsB4) hcB4))))) (broadcastInDim ⟨2, ![2048, 4096]⟩ ![] hz4 (shapeCast ⟨0, ![]⟩ (extractStridedSlice ⟨1, ![1]⟩ ![o] sf hs1) hc1)))
      = coupleS h (band i Ws 0 1024 h3) (rowOf i bs) (scalarOf i sf) := by
  refine ext2 fun p q => ?_
  rw [mulf_apply, Cert.Lib.RowVector.bcastInDim_scalar_apply, scalar_slice_apply i o ho sf hs1 hc1 ix0]
  show Ideal.tanh (addf (F := Ideal) (φ := .f32) _ _ (ix2 p q)) * _ = _
  rw [dense_bias_apply i o ho d3 d3lc d3rc d3ln d3rn d3lb d3rb h Ws bs hsW4 hcW4 hsB4 hcB4 hbA4 hbB4 h3 p q]
  rfl

/-- A dense layer on the hidden array is `coupleT`. -/
theorem shift_term (i : Fin 8) (o : Nat) (ho : o = i.val) (d3 : DotDims ⟨2, ![2048, 1024]⟩ ⟨2, ![1024, 4096]⟩ ⟨2, ![2048, 4096]⟩)
    (d3lc : d3.lhsContracting = [1]) (d3rc : d3.rhsContracting = [0]) (d3ln : d3.lhsNonContracting = [0])
    (d3rn : d3.rhsNonContracting = [1]) (d3lb : d3.lhsBatch = []) (d3rb : d3.rhsBatch = [])
    (h : FVec Ideal ⟨2, ![2048, 1024]⟩ .f32) (Wt : FVec Ideal ⟨3, ![8, 1024, 4096]⟩ .f32) (bt : FVec Ideal ⟨2, ![8, 4096]⟩ .f32)
    (hsW4 : (⟨3, ![8, 1024, 4096]⟩ : Shape).Slices ![o, 0, 0] ⟨3, ![1, 1024, 4096]⟩)
    (hcW4 : (⟨3, ![1, 1024, 4096]⟩ : Shape).ShapeCasts ⟨2, ![1024, 4096]⟩)
    (hsB4 : (⟨2, ![8, 4096]⟩ : Shape).Slices ![o, 0] ⟨2, ![1, 4096]⟩)
    (hcB4 : (⟨2, ![1, 4096]⟩ : Shape).ShapeCasts ⟨1, ![4096]⟩)
    (hbA4 : (⟨1, ![4096]⟩ : Shape).BroadcastsInDim ⟨2, ![1, 4096]⟩ ![1])
    (hbB4 : (⟨2, ![1, 4096]⟩ : Shape).BroadcastsInDim ⟨2, ![2048, 4096]⟩ ![0, 1]) (h3 : 0 + 1024 ≤ 1024) :
    (addf (Host.dotGeneral d3 none h (shapeCast ⟨2, ![1024, 4096]⟩ (extractStridedSlice ⟨3, ![1, 1024, 4096]⟩ ![o, 0, 0] Wt hsW4) hcW4)) (broadcastInDim ⟨2, ![2048, 4096]⟩ ![0, 1] hbB4 (broadcastInDim ⟨2, ![1, 4096]⟩ ![1] hbA4 (shapeCast ⟨1, ![4096]⟩ (extractStridedSlice ⟨2, ![1, 4096]⟩ ![o, 0] bt hsB4) hcB4))))
      = coupleT h (band i Wt 0 1024 h3) (rowOf i bt) := by
  refine ext2 fun p q => ?_
  rw [dense_bias_apply i o ho d3 d3lc d3rc d3ln d3rn d3lb d3rb h Wt bt hsW4 hcW4 hsB4 hcB4 hbA4 hbB4 h3 p q]
  rfl

/-- xu · exp(s) + t is `coupleY`. -/
theorem y_term (xu s t : FVec Ideal ⟨2, ![2048, 4096]⟩ .f32) : (addf (mulf xu (Host.exp s)) t) = coupleY xu s t :=
  ext2 fun _ _ => rfl

/-! ## The vector -/

/-- The vector plus the sum of layer i's logarithmic scales (broadcast) plus the row sums of the scales. -/
theorem logdet_term (i : Fin 8) (o : Nat) (ho : o = i.val) (ld : FVec Ideal ⟨1, ![2048]⟩ .f32)
    (als : FVec Ideal ⟨2, ![8, 8192]⟩ .f32) (s : FVec Ideal ⟨2, ![2048, 4096]⟩ .f32)
    (hs8 : (⟨2, ![8, 8192]⟩ : Shape).Slices ![o, 0] ⟨2, ![1, 8192]⟩)
    (hc8 : (⟨2, ![1, 8192]⟩ : Shape).ShapeCasts ⟨1, ![8192]⟩)
    (hz1 : (⟨0, ![]⟩ : Shape).BroadcastsInDim ⟨1, ![2048]⟩ ![])
    (hr0 : (⟨1, ![8192]⟩ : Shape).ReducesTo [0] ⟨0, ![]⟩) (hr1 : (⟨2, ![2048, 4096]⟩ : Shape).ReducesTo [1] ⟨1, ![2048]⟩)
    (hu : 0 < (⟨0, ![]⟩ : Shape).numel) :
    (addf (addf ld (broadcastInDim ⟨1, ![2048]⟩ ![] hz1 (Host.reduceAdd (shapeCast ⟨1, ![8192]⟩ (extractStridedSlice ⟨2, ![1, 8192]⟩ ![o, 0] als hs8) hc8) (constant (F := Ideal) ⟨0, ![]⟩ .f32 0x00000000#32) hr0 hu))) (Host.reduceAdd s (constant (F := Ideal) ⟨0, ![]⟩ .f32 0x00000000#32) hr1 hu))
      = ofFn1 fun p => (ld (ix1 p) + ∑ d : Fin 8192, als (ix2 i d)) + ∑ k : Fin 4096, s (ix2 p k) := by
  refine ext1 fun p => ?_
  rw [addf_apply, addf_apply, Cert.Lib.RowVector.bcastInDim_scalar_apply, host_vecsum_apply, host_rowsum_apply]
  refine congrArg₂ HAdd.hAdd (congrArg₂ HAdd.hAdd rfl (Finset.sum_congr rfl fun d _ => ?_)) rfl
  exact row_vector_apply i o ho als hs8 hc8 d

end Cert.Flow.RefTerms

end
-- ==== Proof.FlowRefTerms3.lean ====
/-
  One whole layer of the coupling flow as a host program spells it, on the extended reals.

  The layer's operations in order — the column rescaling, the two gathers of the columns of either parity, the two
  dense layers with the activation over [xc | cnd], the scales, the shifts, the transformed half, the two scatters
  that put the columns back, and the three additions on the vector — compose to the specification's `stepZ` and
  `stepLd` at the parameters of layer i. The conditioning half has the parity of i: the statement takes the two
  parities as numbers with their equations, so it reads both an even and an odd layer. The intermediate arrays are
  named, each with the equation that defines it, so that no step handles more than one operation's spelling. Nothing
  here mentions a program.
-/
import Idealize.ShloMosaic.PureOps.Ideal
import Idealize.ShloMosaic.PureOps.Ideal.Laws
import Idealize.ShloMosaic.Lib.ValueIdx
import Idealize.ShloMosaic.Lib.Pipeline.Value
import proofs.«175835_j29978871726094_1_alg».proof.Proof.FlowSpec
import proofs.«175835_j29978871726094_1_alg».proof.Proof.FlowParams
import proofs.«175835_j29978871726094_1_alg».proof.Proof.FlowLayout
import proofs.«175835_j29978871726094_1_alg».proof.Proof.FlowRefTerms
import proofs.«175835_j29978871726094_1_alg».proof.Proof.FlowRefTerms2

open scoped BigOperators

noncomputable section

namespace Cert.Flow.RefTerms

open Idealize.ShloMosaic Idealize.ShloMosaic.ValueIdx Cert.Flow Cert.Flow.Terms

/-- THE ARRAY AFTER ONE LAYER: with za the rescaled array, xc and xu its columns of the two parities, hm the hidden
    array, s the scales and t the shifts, each given by its equation, the two scatters of xc and of xu · exp(s) + t
    (into any array x0) are `stepZ` at layer i's parameters. -/
theorem layer_z_of_eqs (i : Fin 8) (o : Nat) (ho : o = i.val) (parC parU : Nat) (hC : parC = (par i).val) (hU : parU = 1 - (par i).val)
    (als ab : FVec Ideal ⟨2, ![8, 8192]⟩ .f32) (W1 : FVec Ideal ⟨3, ![8, 5120, 1024]⟩ .f32) (b1 : FVec Ideal ⟨2, ![8, 1024]⟩ .f32)
    (W2 : FVec Ideal ⟨3, ![8, 1024, 1024]⟩ .f32) (b2 : FVec Ideal ⟨2, ![8, 1024]⟩ .f32)
    (Ws : FVec Ideal ⟨3, ![8, 1024, 4096]⟩ .f32) (bs : FVec Ideal ⟨2, ![8, 4096]⟩ .f32)
    (Wt : FVec Ideal ⟨3, ![8, 1024, 4096]⟩ .f32) (bt : FVec Ideal ⟨2, ![8, 4096]⟩ .f32) (sf : FVec Ideal ⟨1, ![8]⟩ .f32)
    (cnd : FVec Ideal ⟨2, ![2048, 1024]⟩ .f32) (z : FVec Ideal ⟨2, ![2048, 8192]⟩ .f32)
    (gd : GatherDims ⟨2, ![2048, 8192]⟩ ⟨2, ![4096, 1]⟩ ⟨2, ![2048, 4096]⟩)
    (hod : gd.offsetDims = [0]) (hcd : gd.collapsedSliceDims = [1]) (hob : gd.operandBatchingDims = [])
    (hsb : gd.startIndicesBatchingDims = []) (hsm : gd.startIndexMap = [1]) (hiv : gd.indexVectorDim = 1)
    (hss : gd.sliceSizes = ![2048, 1])
    (h0 : (⟨0, ![]⟩ : Shape).BroadcastsInDim ⟨1, ![4096]⟩ ![])
    (h1 : (⟨1, ![4096]⟩ : Shape).BroadcastsInDim ⟨2, ![4096, 1]⟩ ![0])
    (d1 : DotDims ⟨2, ![2048, 5120]⟩ ⟨2, ![5120, 1024]⟩ ⟨2, ![2048, 1024]⟩)
    (d1lc : d1.lhsContracting = [1]) (d1rc : d1.rhsContracting = [0]) (d1ln : d1.lhsNonContracting = [0])
    (d1rn : d1.rhsNonContracting = [1]) (d1lb : d1.lhsBatch = []) (d1rb : d1.rhsBatch = [])
    (d2 : DotDims ⟨2, ![2048, 1024]⟩ ⟨2, ![1024, 1024]⟩ ⟨2, ![2048, 1024]⟩)
    (d2lc : d2.lhsContracting = [1]) (d2rc : d2.rhsContracting = [0]) (d2ln : d2.lhsNonContracting = [0])
    (d2rn : d2.rhsNonContracting = [1]) (d2lb : d2.lhsBatch = []) (d2rb : d2.rhsBatch = [])
    (d3 : DotDims ⟨2, ![2048, 1024]⟩ ⟨2, ![1024, 4096]⟩ ⟨2, ![2048, 4096]⟩)
    (d3lc : d3.lhsContracting = [1]) (d3rc : d3.rhsContracting = [0]) (d3ln : d3.lhsNonContracting = [0])
    (d3rn : d3.rhsNonContracting = [1]) (d3lb : d3.lhsBatch = []) (d3rb : d3.rhsBatch = [])
    (hcat : Shape.Concatenates [(⟨2, ![2048, 4096]⟩ : Shape), ⟨2, ![2048, 1024]⟩] ⟨2, ![2048, 5120]⟩ 1)
    (hsW1 : (⟨3, ![8, 5120, 1024]⟩ : Shape).Slices ![o, 0, 0] ⟨3, ![1, 5120, 1024]⟩)
    (hcW1 : (⟨3, ![1, 5120, 1024]⟩ : Shape).ShapeCasts ⟨2, ![5120, 1024]⟩) (hsW2 : (⟨3, ![8, 1024, 1024]⟩ : Shape).Slices ![o, 0, 0] ⟨3, ![1, 1024, 1024]⟩)
    (hcW2 : (⟨3, ![1, 1024, 1024]⟩ : Shape).ShapeCasts ⟨2, ![1024, 1024]⟩) (hsW4 : (⟨3, ![8, 1024, 4096]⟩ : Shape).Slices ![o, 0, 0] ⟨3, ![1, 1024, 4096]⟩)
    (hcW4 : (⟨3, ![1, 1024, 4096]⟩ : Shape).ShapeCasts ⟨2, ![1024, 4096]⟩)
    (hsB : (⟨2, ![8, 1024]⟩ : Shape).Slices ![o, 0] ⟨2, ![1, 1024]⟩)
    (hcB : (⟨2, ![1, 1024]⟩ : Shape).ShapeCasts ⟨1, ![1024]⟩)
    (hbA : (⟨1, ![1024]⟩ : Shape).BroadcastsInDim ⟨2, ![1, 1024]⟩ ![1])
    (hbB : (⟨2, ![1, 1024]⟩ : Shape).BroadcastsInDim ⟨2, ![2048, 1024]⟩ ![0, 1])
    (hsB4 : (⟨2, ![8, 4096]⟩ : Shape).Slices ![o, 0] ⟨2, ![1, 4096]⟩)
    (hcB4 : (⟨2, ![1, 4096]⟩ : Shape).ShapeCasts ⟨1, ![4096]⟩)
    (hbA4 : (⟨1, ![4096]⟩ : Shape).BroadcastsInDim ⟨2, ![1, 4096]⟩ ![1])
    (hbB4 : (⟨2, ![1, 4096]⟩ : Shape).BroadcastsInDim ⟨2, ![2048, 4096]⟩ ![0, 1])
    (hs8 : (⟨2, ![8, 8192]⟩ : Shape).Slices ![o, 0] ⟨2, ![1, 8192]⟩)
    (hc8 : (⟨2, ![1, 8192]⟩ : Shape).ShapeCasts ⟨1, ![8192]⟩)
    (hbA8 : (⟨1, ![8192]⟩ : Shape).BroadcastsInDim ⟨2, ![1, 8192]⟩ ![1])
    (hbB8 : (⟨2, ![1, 8192]⟩ : Shape).BroadcastsInDim ⟨2, ![2048, 8192]⟩ ![0, 1])
    (hs1 : (⟨1, ![8]⟩ : Shape).Slices ![o] ⟨1, ![1]⟩) (hc1 : (⟨1, ![1]⟩ : Shape).ShapeCasts ⟨0, ![]⟩)
    (hz : (⟨0, ![]⟩ : Shape).BroadcastsInDim ⟨2, ![2048, 1024]⟩ ![]) (hz4 : (⟨0, ![]⟩ : Shape).BroadcastsInDim ⟨2, ![2048, 4096]⟩ ![])
    (sd : ScatterDims ⟨2, ![2048, 8192]⟩ ⟨2, ![4096, 1]⟩ ⟨2, ![2048, 4096]⟩)
    (huw : sd.updateWindowDims = [0]) (hiw : sd.insertedWindowDims = [1]) (hsd : sd.scatterDimsToOperandDims = [1])
    (hsiv : sd.indexVectorDim = 1)
    (x0 : FVec Ideal ⟨2, ![2048, 8192]⟩ .f32)
    (za : FVec Ideal ⟨2, ![2048, 8192]⟩ .f32) (xc xu : FVec Ideal ⟨2, ![2048, 4096]⟩ .f32) (hm : FVec Ideal ⟨2, ![2048, 1024]⟩ .f32)
    (s t : FVec Ideal ⟨2, ![2048, 4096]⟩ .f32)
    (hza : za = (mulf (addf z (broadcastInDim ⟨2, ![2048, 8192]⟩ ![0, 1] hbB8 (broadcastInDim ⟨2, ![1, 8192]⟩ ![1] hbA8 (shapeCast ⟨1, ![8192]⟩ (extractStridedSlice ⟨2, ![1, 8192]⟩ ![o, 0] ab hs8) hc8)))) (broadcastInDim ⟨2, ![2048, 8192]⟩ ![0, 1] hbB8 (broadcastInDim ⟨2, ![1, 8192]⟩ ![1] hbA8 (Host.exp (shapeCast ⟨1, ![8192]⟩ (extractStridedSlice ⟨2, ![1, 8192]⟩ ![o, 0] als hs8) hc8))))))
    (hxc : xc = (Host.gather gd za (broadcastInDim ⟨2, ![4096, 1]⟩ ![0] h1 (select (cmpi .slt (addi (broadcastInDim ⟨1, ![4096]⟩ ![] h0 (constantI ⟨0, ![]⟩ 32 (BitVec.ofNat 32 parC))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 0#32))) (addi (addi (broadcastInDim ⟨1, ![4096]⟩ ![] h0 (constantI ⟨0, ![]⟩ 32 (BitVec.ofNat 32 parC))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 8192#32))) (addi (broadcastInDim ⟨1, ![4096]⟩ ![] h0 (constantI ⟨0, ![]⟩ 32 (BitVec.ofNat 32 parC))) (muli (broadcastInDim ⟨1, ![4096]⟩ ![] h0 (constantI ⟨0, ![]⟩ 32 2#32)) (iotaInDim ⟨1, ![4096]⟩ 32 0)))))))
    (hxu : xu = (Host.gather gd za (broadcastInDim ⟨2, ![4096, 1]⟩ ![0] h1 (select (cmpi .slt (addi (broadcastInDim ⟨1, ![4096]⟩ ![] h0 (constantI ⟨0, ![]⟩ 32 (BitVec.ofNat 32 parU))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 0#32))) (addi (addi (broadcastInDim ⟨1, ![4096]⟩ ![] h0 (constantI ⟨0, ![]⟩ 32 (BitVec.ofNat 32 parU))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 8192#32))) (addi (broadcastInDim ⟨1, ![4096]⟩ ![] h0 (constantI ⟨0, ![]⟩ 32 (BitVec.ofNat 32 parU))) (muli (broadcastInDim ⟨1, ![4096]⟩ ![] h0 (constantI ⟨0, ![]⟩ 32 2#32)) (iotaInDim ⟨1, ![4096]⟩ 32 0)))))))
    (hhm : hm = (select (cmpf .oge (addf (Host.dotGeneral d2 none (select (cmpf .oge (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (broadcastInDim ⟨2, ![2048, 1024]⟩ ![] hz (constant (F := Ideal) ⟨0, ![]⟩ .f32 0x00000000#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (mulf (broadcastInDim ⟨2, ![2048, 1024]⟩ ![] hz (id (constant (F := Ideal) ⟨0, ![]⟩ .f32 0x3E4CCCCD#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))))) (shapeCast ⟨2, ![1024, 1024]⟩ (extractStridedSlice ⟨3, ![1, 1024, 1024]⟩ ![o, 0, 0] W2 hsW2) hcW2)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b2 hsB) hcB)))) (broadcastInDim ⟨2, ![2048, 1024]⟩ ![] hz (constant (F := Ideal) ⟨0, ![]⟩ .f32 0x00000000#32))) (addf (Host.dotGeneral d2 none (select (cmpf .oge (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (broadcastInDim ⟨2, ![2048, 1024]⟩ ![] hz (constant (F := Ideal) ⟨0, ![]⟩ .f32 0x00000000#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (mulf (broadcastInDim ⟨2, ![2048, 1024]⟩ ![] hz (id (constant (F := Ideal) ⟨0, ![]⟩ .f32 0x3E4CCCCD#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))))) (shapeCast ⟨2, ![1024, 1024]⟩ (extractStridedSlice ⟨3, ![1, 1024, 1024]⟩ ![o, 0, 0] W2 hsW2) hcW2)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b2 hsB) hcB)))) (mulf (broadcastInDim ⟨2, ![2048, 1024]⟩ ![] hz (id (constant (F := Ideal) ⟨0, ![]⟩ .f32 0x3E4CCCCD#32))) (addf (Host.dotGeneral d2 none (select (cmpf .oge (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (broadcastInDim ⟨2, ![2048, 1024]⟩ ![] hz (constant (F := Ideal) ⟨0, ![]⟩ .f32 0x00000000#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (mulf (broadcastInDim ⟨2, ![2048, 1024]⟩ ![] hz (id (constant (F := Ideal) ⟨0, ![]⟩ .f32 0x3E4CCCCD#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))))) (shapeCast ⟨2, ![1024, 1024]⟩ (extractStridedSlice ⟨3, ![1, 1024, 1024]⟩ ![o, 0, 0] W2 hsW2) hcW2)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b2 hsB) hcB)))))))
    (hs_ : s = (mulf (Host.tanh (addf (Host.dotGeneral d3 none hm (shapeCast ⟨2, ![1024, 4096]⟩ (extractStridedSlice ⟨3, ![1, 1024, 4096]⟩ ![o, 0, 0] Ws hsW4) hcW4)) (broadcastInDim ⟨2, ![2048, 4096]⟩ ![0, 1] hbB4 (broadcastInDim ⟨2, ![1, 4096]⟩ ![1] hbA4 (shapeCast ⟨1, ![4096]⟩ (extractStridedSlice ⟨2, ![1, 4096]⟩ ![o, 0] bs hsB4) hcB4))))) (broadcastInDim ⟨2, ![2048, 4096]⟩ ![] hz4 (shapeCast ⟨0, ![]⟩ (extractStridedSlice ⟨1, ![1]⟩ ![o] sf hs1) hc1))))
    (ht : t = (addf (Host.dotGeneral d3 none hm (shapeCast ⟨2, ![1024, 4096]⟩ (extractStridedSlice ⟨3, ![1, 1024, 4096]⟩ ![o, 0, 0] Wt hsW4) hcW4)) (broadcastInDim ⟨2, ![2048, 4096]⟩ ![0, 1] hbB4 (broadcastInDim ⟨2, ![1, 4096]⟩ ![1] hbA4 (shapeCast ⟨1, ![4096]⟩ (extractStridedSlice ⟨2, ![1, 4096]⟩ ![o, 0] bt hsB4) hcB4))))) :
    (Host.scatter sd (fun _ b => b) (Host.scatter sd (fun _ b => b) x0 (broadcastInDim ⟨2, ![4096, 1]⟩ ![0] h1 (select (cmpi .slt (addi (broadcastInDim ⟨1, ![4096]⟩ ![] h0 (constantI ⟨0, ![]⟩ 32 (BitVec.ofNat 32 parC))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 0#32))) (addi (addi (broadcastInDim ⟨1, ![4096]⟩ ![] h0 (constantI ⟨0, ![]⟩ 32 (BitVec.ofNat 32 parC))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 8192#32))) (addi (broadcastInDim ⟨1, ![4096]⟩ ![] h0 (constantI ⟨0, ![]⟩ 32 (BitVec.ofNat 32 parC))) (muli (broadcastInDim ⟨1, ![4096]⟩ ![] h0 (constantI ⟨0, ![]⟩ 32 2#32)) (iotaInDim ⟨1, ![4096]⟩ 32 0))))) xc) (broadcastInDim ⟨2, ![4096, 1]⟩ ![0] h1 (select (cmpi .slt (addi (broadcastInDim ⟨1, ![4096]⟩ ![] h0 (constantI ⟨0, ![]⟩ 32 (BitVec.ofNat 32 parU))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 0#32))) (addi (addi (broadcastInDim ⟨1, ![4096]⟩ ![] h0 (constantI ⟨0, ![]⟩ 32 (BitVec.ofNat 32 parU))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 8192#32))) (addi (broadcastInDim ⟨1, ![4096]⟩ ![] h0 (constantI ⟨0, ![]⟩ 32 (BitVec.ofNat 32 parU))) (muli (broadcastInDim ⟨1, ![4096]⟩ ![] h0 (constantI ⟨0, ![]⟩ 32 2#32)) (iotaInDim ⟨1, ![4096]⟩ 32 0))))) (addf (mulf xu (Host.exp s)) t))
      = stepZ { als := als, ab := ab, W1 := W1, b1 := b1, W2 := W2, b2 := b2, Ws := Ws, bs := bs, Wt := Wt, bt := bt, sf := sf } cnd i z := by
  have hza' : za = actnorm i ab als z := hza.trans (actnorm_term i o ho ab als z hs8 hc8 hbA8 hbB8)
  have hxc' : xc = cols (par i) (actnorm i ab als z) := by
    rw [hxc, hza']
    exact split_gather parC (par i) hC gd hod hcd hob hsb hsm hiv hss h0 h1 _
  have hxu' : xu = cols (opp (par i)) (actnorm i ab als z) := by
    rw [hxu, hza']
    exact split_gather parU (opp (par i)) hU gd hod hcd hob hsb hsm hiv hss h0 h1 _
  have hhm' : hm = coupleH xc cnd (band i W1 0 4096 (by decide)) (band i W1 4096 1024 (by decide)) (rowOf i b1)
      (band i W2 0 1024 (by decide)) (rowOf i b2) :=
    hhm.trans (hidden_term i o ho d1 d1lc d1rc d1ln d1rn d1lb d1rb d2 d2lc d2rc d2ln d2rn d2lb d2rb xc cnd W1 b1 W2 b2 hcat hsW1 hcW1 hsW2 hcW2
      hsB hcB hbA hbB hz _ _ _)
  have hs' : s = coupleS hm (band i Ws 0 1024 (by decide)) (rowOf i bs) (scalarOf i sf) :=
    hs_.trans (scale_term i o ho d3 d3lc d3rc d3ln d3rn d3lb d3rb hm Ws bs sf hsW4 hcW4 hsB4 hcB4 hbA4 hbB4 hs1 hc1 hz4 _)
  have ht' : t = coupleT hm (band i Wt 0 1024 (by decide)) (rowOf i bt) :=
    ht.trans (shift_term i o ho d3 d3lc d3rc d3ln d3rn d3lb d3rb hm Wt bt hsW4 hcW4 hsB4 hcB4 hbA4 hbB4 _)
  rw [y_term xu s t, merge_scatter parC parU (par i) hC hU sd huw hiw hsd hsiv h0 h1 x0 xc _]
  subst hs' ht'
  subst hhm'
  subst hxc' hxu'
  rfl

/-- THE VECTOR AFTER ONE LAYER: with the same named arrays, the vector plus the broadcast sum of layer i's logarithmic
    scales plus the row sums of s is `stepLd` at layer i's parameters. -/
theorem layer_ld_of_eqs (i : Fin 8) (o : Nat) (ho : o = i.val) (parC parU : Nat) (hC : parC = (par i).val) (hU : parU = 1 - (par i).val)
    (als ab : FVec Ideal ⟨2, ![8, 8192]⟩ .f32) (W1 : FVec Ideal ⟨3, ![8, 5120, 1024]⟩ .f32) (b1 : FVec Ideal ⟨2, ![8, 1024]⟩ .f32)
    (W2 : FVec Ideal ⟨3, ![8, 1024, 1024]⟩ .f32) (b2 : FVec Ideal ⟨2, ![8, 1024]⟩ .f32)
    (Ws : FVec Ideal ⟨3, ![8, 1024, 4096]⟩ .f32) (bs : FVec Ideal ⟨2, ![8, 4096]⟩ .f32)
    (Wt : FVec Ideal ⟨3, ![8, 1024, 4096]⟩ .f32) (bt : FVec Ideal ⟨2, ![8, 4096]⟩ .f32) (sf : FVec Ideal ⟨1, ![8]⟩ .f32)
    (cnd : FVec Ideal ⟨2, ![2048, 1024]⟩ .f32) (z : FVec Ideal ⟨2, ![2048, 8192]⟩ .f32)
    (gd : GatherDims ⟨2, ![2048, 8192]⟩ ⟨2, ![4096, 1]⟩ ⟨2, ![2048, 4096]⟩)
    (hod : gd.offsetDims = [0]) (hcd : gd.collapsedSliceDims = [1]) (hob : gd.operandBatchingDims = [])
    (hsb : gd.startIndicesBatchingDims = []) (hsm : gd.startIndexMap = [1]) (hiv : gd.indexVectorDim = 1)
    (hss : gd.sliceSizes = ![2048, 1])
    (h0 : (⟨0, ![]⟩ : Shape).BroadcastsInDim ⟨1, ![4096]⟩ ![])
    (h1 : (⟨1, ![4096]⟩ : Shape).BroadcastsInDim ⟨2, ![4096, 1]⟩ ![0])
    (d1 : DotDims ⟨2, ![2048, 5120]⟩ ⟨2, ![5120, 1024]⟩ ⟨2, ![2048, 1024]⟩)
    (d1lc : d1.lhsContracting = [1]) (d1rc : d1.rhsContracting = [0]) (d1ln : d1.lhsNonContracting = [0])
    (d1rn : d1.rhsNonContracting = [1]) (d1lb : d1.lhsBatch = []) (d1rb : d1.rhsBatch = [])
    (d2 : DotDims ⟨2, ![2048, 1024]⟩ ⟨2, ![1024, 1024]⟩ ⟨2, ![2048, 1024]⟩)
    (d2lc : d2.lhsContracting = [1]) (d2rc : d2.rhsContracting = [0]) (d2ln : d2.lhsNonContracting = [0])
    (d2rn : d2.rhsNonContracting = [1]) (d2lb : d2.lhsBatch = []) (d2rb : d2.rhsBatch = [])
    (d3 : DotDims ⟨2, ![2048, 1024]⟩ ⟨2, ![1024, 4096]⟩ ⟨2, ![2048, 4096]⟩)
    (d3lc : d3.lhsContracting = [1]) (d3rc : d3.rhsContracting = [0]) (d3ln : d3.lhsNonContracting = [0])
    (d3rn : d3.rhsNonContracting = [1]) (d3lb : d3.lhsBatch = []) (d3rb : d3.rhsBatch = [])
    (hcat : Shape.Concatenates [(⟨2, ![2048, 4096]⟩ : Shape), ⟨2, ![2048, 1024]⟩] ⟨2, ![2048, 5120]⟩ 1)
    (hsW1 : (⟨3, ![8, 5120, 1024]⟩ : Shape).Slices ![o, 0, 0] ⟨3, ![1, 5120, 1024]⟩)
    (hcW1 : (⟨3, ![1, 5120, 1024]⟩ : Shape).ShapeCasts ⟨2, ![5120, 1024]⟩) (hsW2 : (⟨3, ![8, 1024, 1024]⟩ : Shape).Slices ![o, 0, 0] ⟨3, ![1, 1024, 1024]⟩)
    (hcW2 : (⟨3, ![1, 1024, 1024]⟩ : Shape).ShapeCasts ⟨2, ![1024, 1024]⟩) (hsW4 : (⟨3, ![8, 1024, 4096]⟩ : Shape).Slices ![o, 0, 0] ⟨3, ![1, 1024, 4096]⟩)
    (hcW4 : (⟨3, ![1, 1024, 4096]⟩ : Shape).ShapeCasts ⟨2, ![1024, 4096]⟩)
    (hsB : (⟨2, ![8, 1024]⟩ : Shape).Slices ![o, 0] ⟨2, ![1, 1024]⟩)
    (hcB : (⟨2, ![1, 1024]⟩ : Shape).ShapeCasts ⟨1, ![1024]⟩)
    (hbA : (⟨1, ![1024]⟩ : Shape).BroadcastsInDim ⟨2, ![1, 1024]⟩ ![1])
    (hbB : (⟨2, ![1, 1024]⟩ : Shape).BroadcastsInDim ⟨2, ![2048, 1024]⟩ ![0, 1])
    (hsB4 : (⟨2, ![8, 4096]⟩ : Shape).Slices ![o, 0] ⟨2, ![1, 4096]⟩)
    (hcB4 : (⟨2, ![1, 4096]⟩ : Shape).ShapeCasts ⟨1, ![4096]⟩)
    (hbA4 : (⟨1, ![4096]⟩ : Shape).BroadcastsInDim ⟨2, ![1, 4096]⟩ ![1])
    (hbB4 : (⟨2, ![1, 4096]⟩ : Shape).BroadcastsInDim ⟨2, ![2048, 4096]⟩ ![0, 1])
    (hs8 : (⟨2, ![8, 8192]⟩ : Shape).Slices ![o, 0] ⟨2, ![1, 8192]⟩)
    (hc8 : (⟨2, ![1, 8192]⟩ : Shape).ShapeCasts ⟨1, ![8192]⟩)
    (hbA8 : (⟨1, ![8192]⟩ : Shape).BroadcastsInDim ⟨2, ![1, 8192]⟩ ![1])
    (hbB8 : (⟨2, ![1, 8192]⟩ : Shape).BroadcastsInDim ⟨2, ![2048, 8192]⟩ ![0, 1])
    (hs1 : (⟨1, ![8]⟩ : Shape).Slices ![o] ⟨1, ![1]⟩) (hc1 : (⟨1, ![1]⟩ : Shape).ShapeCasts ⟨0, ![]⟩)
    (hz : (⟨0, ![]⟩ : Shape).BroadcastsInDim ⟨2, ![2048, 1024]⟩ ![]) (hz4 : (⟨0, ![]⟩ : Shape).BroadcastsInDim ⟨2, ![2048, 4096]⟩ ![])
    (hz1 : (⟨0, ![]⟩ : Shape).BroadcastsInDim ⟨1, ![2048]⟩ ![])
    (hr0 : (⟨1, ![8192]⟩ : Shape).ReducesTo [0] ⟨0, ![]⟩) (hr1 : (⟨2, ![2048, 4096]⟩ : Shape).ReducesTo [1] ⟨1, ![2048]⟩)
    (hu : 0 < (⟨0, ![]⟩ : Shape).numel) (ld : FVec Ideal ⟨1, ![2048]⟩ .f32)
    (za : FVec Ideal ⟨2, ![2048, 8192]⟩ .f32) (xc : FVec Ideal ⟨2, ![2048, 4096]⟩ .f32) (hm : FVec Ideal ⟨2, ![2048, 1024]⟩ .f32)
    (s : FVec Ideal ⟨2, ![2048, 4096]⟩ .f32)
    (hza : za = (mulf (addf z (broadcastInDim ⟨2, ![2048, 8192]⟩ ![0, 1] hbB8 (broadcastInDim ⟨2, ![1, 8192]⟩ ![1] hbA8 (shapeCast ⟨1, ![8192]⟩ (extractStridedSlice ⟨2, ![1, 8192]⟩ ![o, 0] ab hs8) hc8)))) (broadcastInDim ⟨2, ![2048, 8192]⟩ ![0, 1] hbB8 (broadcastInDim ⟨2, ![1, 8192]⟩ ![1] hbA8 (Host.exp (shapeCast ⟨1, ![8192]⟩ (extractStridedSlice ⟨2, ![1, 8192]⟩ ![o, 0] als hs8) hc8))))))
    (hxc : xc = (Host.gather gd za (broadcastInDim ⟨2, ![4096, 1]⟩ ![0] h1 (select (cmpi .slt (addi (broadcastInDim ⟨1, ![4096]⟩ ![] h0 (constantI ⟨0, ![]⟩ 32 (BitVec.ofNat 32 parC))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 0#32))) (addi (addi (broadcastInDim ⟨1, ![4096]⟩ ![] h0 (constantI ⟨0, ![]⟩ 32 (BitVec.ofNat 32 parC))) (muli (broadcastInDim ⟨1, ![4096]⟩ ![] h0 (constantI ⟨0, ![]⟩ 32 2#32)) (iotaInDim ⟨1, ![4096]⟩ 32 0))) (broadcastInDim ⟨1, ![4096]⟩ ![] h0 (constantI ⟨0, ![]⟩ 32 8192#32))) (addi (broadcastInDim ⟨1, ![4096]⟩ ![] h0 (constantI ⟨0, ![]⟩ 32 (BitVec.ofNat 32 parC))) (muli (broadcastInDim ⟨1, ![4096]⟩ ![] h0 (constantI ⟨0, ![]⟩ 32 2#32)) (iotaInDim ⟨1, ![4096]⟩ 32 0)))))))
    (hhm : hm = (select (cmpf .oge (addf (Host.dotGeneral d2 none (select (cmpf .oge (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (broadcastInDim ⟨2, ![2048, 1024]⟩ ![] hz (constant (F := Ideal) ⟨0, ![]⟩ .f32 0x00000000#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (mulf (broadcastInDim ⟨2, ![2048, 1024]⟩ ![] hz (id (constant (F := Ideal) ⟨0, ![]⟩ .f32 0x3E4CCCCD#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))))) (shapeCast ⟨2, ![1024, 1024]⟩ (extractStridedSlice ⟨3, ![1, 1024, 1024]⟩ ![o, 0, 0] W2 hsW2) hcW2)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b2 hsB) hcB)))) (broadcastInDim ⟨2, ![2048, 1024]⟩ ![] hz (constant (F := Ideal) ⟨0, ![]⟩ .f32 0x00000000#32))) (addf (Host.dotGeneral d2 none (select (cmpf .oge (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (broadcastInDim ⟨2, ![2048, 1024]⟩ ![] hz (constant (F := Ideal) ⟨0, ![]⟩ .f32 0x00000000#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (mulf (broadcastInDim ⟨2, ![2048, 1024]⟩ ![] hz (id (constant (F := Ideal) ⟨0, ![]⟩ .f32 0x3E4CCCCD#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))))) (shapeCast ⟨2, ![1024, 1024]⟩ (extractStridedSlice ⟨3, ![1, 1024, 1024]⟩ ![o, 0, 0] W2 hsW2) hcW2)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b2 hsB) hcB)))) (mulf (broadcastInDim ⟨2, ![2048, 1024]⟩ ![] hz (id (constant (F := Ideal) ⟨0, ![]⟩ .f32 0x3E4CCCCD#32))) (addf (Host.dotGeneral d2 none (select (cmpf .oge (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (broadcastInDim ⟨2, ![2048, 1024]⟩ ![] hz (constant (F := Ideal) ⟨0, ![]⟩ .f32 0x00000000#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))) (mulf (broadcastInDim ⟨2, ![2048, 1024]⟩ ![] hz (id (constant (F := Ideal) ⟨0, ![]⟩ .f32 0x3E4CCCCD#32))) (addf (Host.dotGeneral d1 none (concatenate ⟨2, ![2048, 5120]⟩ 1 [⟨⟨2, ![2048, 4096]⟩, xc⟩, ⟨⟨2, ![2048, 1024]⟩, cnd⟩] hcat) (shapeCast ⟨2, ![5120, 1024]⟩ (extractStridedSlice ⟨3, ![1, 5120, 1024]⟩ ![o, 0, 0] W1 hsW1) hcW1)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b1 hsB) hcB)))))) (shapeCast ⟨2, ![1024, 1024]⟩ (extractStridedSlice ⟨3, ![1, 1024, 1024]⟩ ![o, 0, 0] W2 hsW2) hcW2)) (broadcastInDim ⟨2, ![2048, 1024]⟩ ![0, 1] hbB (broadcastInDim ⟨2, ![1, 1024]⟩ ![1] hbA (shapeCast ⟨1, ![1024]⟩ (extractStridedSlice ⟨2, ![1, 1024]⟩ ![o, 0] b2 hsB) hcB)))))))
    (hs_ : s = (mulf (Host.tanh (addf (Host.dotGeneral d3 none hm (shapeCast ⟨2, ![1024, 4096]⟩ (extractStridedSlice ⟨3, ![1, 1024, 4096]⟩ ![o, 0, 0] Ws hsW4) hcW4)) (broadcastInDim ⟨2, ![2048, 4096]⟩ ![0, 1] hbB4 (broadcastInDim ⟨2, ![1, 4096]⟩ ![1] hbA4 (shapeCast ⟨1, ![4096]⟩ (extractStridedSlice ⟨2, ![1, 4096]⟩ ![o, 0] bs hsB4) hcB4))))) (broadcastInDim ⟨2, ![2048, 4096]⟩ ![] hz4 (shapeCast ⟨0, ![]⟩ (extractStridedSlice ⟨1, ![1]⟩ ![o] sf hs1) hc1)))) :
    (addf (addf ld (broadcastInDim ⟨1, ![2048]⟩ ![] hz1 (Host.reduceAdd (shapeCast ⟨1, ![8192]⟩ (extractStridedSlice ⟨2, ![1, 8192]⟩ ![o, 0] als hs8) hc8) (constant (F := Ideal) ⟨0, ![]⟩ .f32 0x00000000#32) hr0 hu))) (Host.reduceAdd s (constant (F := Ideal) ⟨0, ![]⟩ .f32 0x00000000#32) hr1 hu))
      = stepLd { als := als, ab := ab, W1 := W1, b1 := b1, W2 := W2, b2 := b2, Ws := Ws, bs := bs, Wt := Wt, bt := bt, sf := sf } cnd i z ld := by
  have hza' : za = actnorm i ab als z := hza.trans (actnorm_term i o ho ab als z hs8 hc8 hbA8 hbB8)
  have hxc' : xc = cols (par i) (actnorm i ab als z) := by
    rw [hxc, hza']
    exact split_gather parC (par i) hC gd hod hcd hob hsb hsm hiv hss h0 h1 _
  have hhm' : hm = coupleH xc cnd (band i W1 0 4096 (by decide)) (band i W1 4096 1024 (by decide)) (rowOf i b1)
      (band i W2 0 1024 (by decide)) (rowOf i b2) :=
    hhm.trans (hidden_term i o ho d1 d1lc d1rc d1ln d1rn d1lb d1rb d2 d2lc d2rc d2ln d2rn d2lb d2rb xc cnd W1 b1 W2 b2 hcat hsW1 hcW1 hsW2 hcW2
      hsB hcB hbA hbB hz _ _ _)
  have hs' : s = coupleS hm (band i Ws 0 1024 (by decide)) (rowOf i bs) (scalarOf i sf) :=
    hs_.trans (scale_term i o ho d3 d3lc d3rc d3ln d3rn d3lb d3rb hm Ws bs sf hsW4 hcW4 hsB4 hcB4 hbA4 hbB4 hs1 hc1 hz4 _)
  rw [logdet_term i o ho ld als s hs8 hc8 hz1 hr0 hr1 hu]
  subst hs'
  subst hhm'
  subst hxc'
  rfl

end Cert.Flow.RefTerms

end
-- ==== Proof.RFlow0.lean ====
import proofs.«175835_j29978871726094_1_alg».proof.Proof.RSsa0
import proofs.«175835_j29978871726094_1_alg».proof.Proof.RSsa1
import proofs.«175835_j29978871726094_1_alg».proof.Proof.RSsa2
import proofs.«175835_j29978871726094_1_alg».proof.Proof.RFlowBase
import proofs.«175835_j29978871726094_1_alg».proof.Proof.FlowRefTerms3

open scoped BigOperators

noncomputable section

namespace Cert.RSide

open Cert.ReferenceIdeal Cert.ReferenceIdeal.Gen Idealize.ShloMosaic Idealize.ShloMosaic.TcCoe Idealize.SL.Sem Idealize.ShloMosaic.StableHlo Cert.Flow Cert.Flow.RefTerms

/-- Layer 0 on the array: the second scatter's result is stepZ of the array the layer starts from. The two scatters
    write the conditioning columns and the transformed columns; the arrays they are computed from — the rescaled array, its
    columns of the two parities, the hidden array, the scales and the shifts — are each their own operations' function of the
    ones before (the equations of the run, read one operation at a time). -/
theorem flow0_z (V : Valuation τ sig (Elt Ideal)) :
    after ops V (Proc.devRef .tc main_v106) = stepZ (RP V) (Rcnd V) 0 (after ops V (Proc.devRef .tc main_v0)) := by
  rw [W_main_v106, W_main_v105, W_main_v104, W_main_v103, W_main_v102, W_main_c_16, W_main_v101, W_main_v100, W_main_c_15, W_main_v99, W_main_v98, W_main_v97, W_main_v96, W_main_v95, W_main_c_14, W_main_v94, W_main_v93, W_main_c_13, W_main_v92, W_main_cst_12, W_main_v91, W_main_v90, W_main_v89,
    W_main_v13, W_main_v12, W_main_c_2, W_main_v11, W_main_v10, W_main_c_1, W_main_v9,
    W_main_v18, W_main_v17, W_main_c_4, W_main_v16, W_main_v15, W_main_c_3, W_main_v14]
  beta_reduce
  apply layer_z_of_eqs (i := 0) (o := 0) (parC := 0) (parU := 1) (za := after ops V (Proc.devRef .tc main_v29))
    (hm := after ops V (Proc.devRef .tc main_v67))
  case hza =>
    rw [W_main_v29, W_main_v28, W_main_v27, W_main_v26, W_main_v25, W_main_v24, W_main_v23, W_main_v22, W_main_v21, W_main_v20, W_main_v19, W_main_arg3, W_main_arg4]
    all_goals rfl
  case hxc =>
    rw [W_main_v41, W_main_v40, W_main_v39, W_main_v38, W_main_v37, W_main_c_7, W_main_v36, W_main_v35, W_main_c_6, W_main_v13, W_main_v12, W_main_c_2, W_main_v11, W_main_v10, W_main_c_1, W_main_v9]
    all_goals rfl
  case hxu =>
    rw [W_main_v48, W_main_v47, W_main_v46, W_main_v45, W_main_v44, W_main_c_9, W_main_v43, W_main_v42, W_main_c_8, W_main_v18, W_main_v17, W_main_c_4, W_main_v16, W_main_v15, W_main_c_3, W_main_v14]
    all_goals rfl
  case hhm =>
    rw [W_main_v67, W_main_call1_v4, W_main_call1_v3, W_main_call1_v2, W_main_cst_11, W_main_call1_v1, W_main_call1_v0, W_main_call1_cst, W_main_v66, W_main_v65, W_main_v64, W_main_v63, W_main_v62, W_main_v61, W_main_v60, W_main_v59, W_main_v58, W_main_call0_v4, W_main_call0_v3, W_main_call0_v2, W_main_cst_10, W_main_call0_v1, W_main_call0_v0, W_main_call0_cst, W_main_v57, W_main_v56, W_main_v55, W_main_v54, W_main_v53, W_main_v52, W_main_v51, W_main_v50, W_main_v49, W_cond, W_main_arg5, W_main_arg6, W_main_arg7, W_main_arg8]
    all_goals rfl
  case hs_ =>
    rw [W_main_v80, W_main_v79, W_main_v78, W_main_v77, W_main_v76, W_main_v75, W_main_v74, W_main_v73, W_main_v72, W_main_v71, W_main_v70, W_main_v69, W_main_v68, W_main_arg9, W_main_arg10, W_main_arg13]
    all_goals rfl
  case ht =>
    rw [W_main_v88, W_main_v87, W_main_v86, W_main_v85, W_main_v84, W_main_v83, W_main_v82, W_main_v81, W_main_arg11, W_main_arg12]
    all_goals rfl
  all_goals rfl

/-- Layer 0 on the vector: the sum of the layer's logarithmic scales, then the row sums of the scales, added to the vector the
    layer starts from, are stepLd. -/
theorem flow0_ld (V : Valuation τ sig (Elt Ideal)) :
    after ops V (Proc.devRef .tc main_v108) = stepLd (RP V) (Rcnd V) 0 (after ops V (Proc.devRef .tc main_v0)) (after ops V (Proc.devRef .tc main_v8)) := by
  rw [W_main_v108, W_main_v107, W_main_cst_17, W_main_v34, W_main_v33, W_main_v32, W_main_cst_5, W_main_v31, W_main_v30, W_main_arg3]
  beta_reduce
  apply layer_ld_of_eqs (i := 0) (o := 0) (parC := 0) (parU := 1) (za := after ops V (Proc.devRef .tc main_v29))
    (xc := after ops V (Proc.devRef .tc main_v41)) (hm := after ops V (Proc.devRef .tc main_v67))
  case hza =>
    rw [W_main_v29, W_main_v28, W_main_v27, W_main_v26, W_main_v25, W_main_v24, W_main_v23, W_main_v22, W_main_v21, W_main_v20, W_main_v19, W_main_arg3, W_main_arg4]
    all_goals rfl
  case hxc =>
    rw [W_main_v41, W_main_v40, W_main_v39, W_main_v38, W_main_v37, W_main_c_7, W_main_v36, W_main_v35, W_main_c_6, W_main_v13, W_main_v12, W_main_c_2, W_main_v11, W_main_v10, W_main_c_1, W_main_v9]
    all_goals rfl
  case hhm =>
    rw [W_main_v67, W_main_call1_v4, W_main_call1_v3, W_main_call1_v2, W_main_cst_11, W_main_call1_v1, W_main_call1_v0, W_main_call1_cst, W_main_v66, W_main_v65, W_main_v64, W_main_v63, W_main_v62, W_main_v61, W_main_v60, W_main_v59, W_main_v58, W_main_call0_v4, W_main_call0_v3, W_main_call0_v2, W_main_cst_10, W_main_call0_v1, W_main_call0_v0, W_main_call0_cst, W_main_v57, W_main_v56, W_main_v55, W_main_v54, W_main_v53, W_main_v52, W_main_v51, W_main_v50, W_main_v49, W_cond, W_main_arg5, W_main_arg6, W_main_arg7, W_main_arg8]
    all_goals rfl
  case hs_ =>
    rw [W_main_v80, W_main_v79, W_main_v78, W_main_v77, W_main_v76, W_main_v75, W_main_v74, W_main_v73, W_main_v72, W_main_v71, W_main_v70, W_main_v69, W_main_v68, W_main_arg9, W_main_arg10, W_main_arg13]
    all_goals rfl
  all_goals rfl

end Cert.RSide

end
-- ==== Proof.RSsa3.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 3: each operation's buffer at the end of the run, as the operation's function of its operands' buffers at the end of the run. -/

theorem W_main_v154 (V : Valuation τ sig (Elt F)) :
    after ops V (Proc.devRef .tc main_v154) = (broadcastInDim S1x1024 ![1] bcast_S1024_S1x1024_1 : (⟨S1024, .f32⟩ : BufTy).Contents (Elt F) → (⟨S1x1024, .f32⟩ : BufTy).Contents (Elt F)) (after ops V (Proc.devRef .tc main_v153)) := by
  rw [split3 V]
  exact read_unary ops3_w2 tail4_w2 0 rfl (by decide) (by decide) (val3 V)

theorem W_main_v155 (V : Valuation τ sig (Elt F)) :
    after ops V (Proc.devRef .tc main_v155) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v154)) := by
  rw [split3 V]
  exact read_unary ops3_w2 tail4_w2 1 rfl (by decide) (by decide) (val3 V)

theorem W_main_v156 (V : Valuation τ sig (Elt F)) :
    after ops V (Proc.devRef .tc main_v156) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v151)) (after ops V (Proc.devRef .tc main_v155)) := by
  rw [split3 V]
  exact read_binary ops3_w2 tail4_w2 2 rfl (by decide) (by decide) (by decide) (val3 V)

theorem W_main_cst_24 (V : Valuation τ sig (Elt F)) :
    after ops V (Proc.devRef .tc main_cst_24) = (constant S_ .f32 0x3E4CCCCD#32) := by
  rw [split3 V]
  exact read_nullary ops3_w2 tail4_w2 3 rfl (by decide) (val3 V)

theorem W_main_call3_cst (V : Valuation τ sig (Elt F)) :
    after ops V (Proc.devRef .tc main_call3_cst) = (constant S_ .f32 0x00000000#32) := by
  rw [split3 V]
  exact read_nullary ops3_w2 tail4_w2 4 rfl (by decide) (val3 V)

theorem W_main_call3_v0 (V : Valuation τ sig (Elt F)) :
    after ops V (Proc.devRef .tc main_call3_v0) = (broadcastInDim S2048x1024 ![] bcast_S_S2048x1024 : (⟨S_, .f32⟩ : BufTy).Contents (Elt F) → (⟨S2048x1024, .f32⟩ : BufTy).Contents (Elt F)) (after ops V (Proc.devRef .tc main_call3_cst)) := by
  rw [split3 V]
  exact read_unary ops3_w2 tail4_w2 5 rfl (by decide) (by decide) (val3 V)

theorem W_main_call3_v1 (V : Valuation τ sig (Elt F)) :
    after ops V (Proc.devRef .tc main_call3_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v156)) (after ops V (Proc.devRef .tc main_call3_v0)) := by
  rw [split3 V]
  exact read_binary ops3_w2 tail4_w2 6 rfl (by decide) (by decide) (by decide) (val3 V)

theorem W_main_call3_v2 (V : Valuation τ sig (Elt F)) :
    after ops V (Proc.devRef .tc main_call3_v2) = (id : (⟨S_, .f32⟩ : BufTy).Contents (Elt F) → (⟨S_, .f32⟩ : BufTy).Contents (Elt F)) (after ops V (Proc.devRef .tc main_cst_24)) := by
  rw [split3 V]
  exact read_unary ops3_w2 tail4_w2 7 rfl (by decide) (by decide) (val3 V)

theorem W_main_call3_v3 (V : Valuation τ sig (Elt F)) :
    after ops V (Proc.devRef .tc main_call3_v3) = (broadcastInDim S2048x1024 ![] bcast_S_S2048x1024 : (⟨S_, .f32⟩ : BufTy).Contents (Elt F) → (⟨S2048x1024, .f32⟩ : BufTy).Contents (Elt F)) (after ops V (Proc.devRef .tc main_call3_v2)) := by
  rw [split3 V]
  exact read_unary ops3_w2 tail4_w2 8 rfl (by decide) (by decide) (val3 V)

theorem W_main_call3_v4 (V : Valuation τ sig (Elt F)) :
    after ops V (Proc.devRef .tc main_call3_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call3_v3)) (after ops V (Proc.devRef .tc main_v156)) := by
  rw [split3 V]
  exact read_binary ops3_w2 tail4_w2 9 rfl (by decide) (by decide) (by decide) (val3 V)

theorem W_main_v157 (V : Valuation τ sig (Elt F)) :
    after ops V (Proc.devRef .tc main_v157) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call3_v1)) (after ops V (Proc.devRef .tc main_v156)) (after ops V (Proc.devRef .tc main_call3_v4)) := by
  rw [split3 V]
  exact read_ternary ops3_w2 tail4_w2 10 rfl (by decide) (by decide) (by decide) (by decide) (val3 V)

theorem W_main_v158 (V : Valuation τ sig (Elt F)) :
    after ops V (Proc.devRef .tc main_v158) = ((extractStridedSlice S1x1024x4096 ![1, 0, 0] · slices_S8x1024x4096_S1x1024x4096_1_0_0) : (⟨S8x1024x4096, .f32⟩ : BufTy).Contents (Elt F) → (⟨S1x1024x4096, .f32⟩ : BufTy).Contents (Elt F)) (after ops V (Proc.devRef .tc main_arg9)) := by
  rw [split3 V]
  exact read_unary ops3_w2 tail4_w2 11 rfl (by decide) (by decide) (val3 V)

theorem W_main_v159 (V : Valuation τ sig (Elt F)) :
    after ops V (Proc.devRef .tc main_v159) = shapeCast S1024x4096 (after ops V (Proc.devRef .tc main_v158)) shapeCasts_S1x1024x4096_S1024x4096 := by
  rw [split3 V]
  exact read_reshape ops3_w2 tail4_w2 12 rfl (by decide) (by decide) (val3 V)

theorem W_main_v160 (V : Valuation τ sig (Elt F)) :
    after ops V (Proc.devRef .tc main_v160) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v157)) (after ops V (Proc.devRef .tc main_v159)) := by
  rw [split3 V]
  exact read_binary ops3_w2 tail4_w2 13 rfl (by decide) (by decide) (by decide) (val3 V)

theorem W_main_v161 (V : Valuation τ sig (Elt F)) :
    after ops V (Proc.devRef .tc main_v161) = ((extractStridedSlice S1x4096 ![1, 0] · slices_S8x4096_S1x4096_1_0) : (⟨S8x4096, .f32⟩ : BufTy).Contents (Elt F) → (⟨S1x4096, .f32⟩ : BufTy).Contents (Elt F)) (after ops V (Proc.devRef .tc main_arg10)) := by
  rw [split3 V]
  exact read_unary ops3_w2 tail4_w2 14 rfl (by decide) (by decide) (val3 V)

theorem W_main_v162 (V : Valuation τ sig (Elt F)) :
    after ops V (Proc.devRef .tc main_v162) = shapeCast S4096 (after ops V (Proc.devRef .tc main_v161)) shapeCasts_S1x4096_S4096 := by
  rw [split3 V]
  exact read_reshape ops3_w2 tail4_w2 15 rfl (by decide) (by decide) (val3 V)

theorem W_main_v163 (V : Valuation τ sig (Elt F)) :
    after ops V (Proc.devRef .tc main_v163) = (broadcastInDim S1x4096 ![1] bcast_S4096_S1x4096_1 : (⟨S4096, .f32⟩ : BufTy).Contents (Elt F) → (⟨S1x4096, .f32⟩ : BufTy).Contents (Elt F)) (after ops V (Proc.devRef .tc main_v162)) := by
  rw [split3 V]
  exact read_unary ops3_w2 tail4_w2 16 rfl (by decide) (by decide) (val3 V)

theorem W_main_v164 (V : Valuation τ sig (Elt F)) :
    after ops V (Proc.devRef .tc main_v164) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v163)) := by
  rw [split3 V]
  exact read_unary ops3_w2 tail4_w2 17 rfl (by decide) (by decide) (val3 V)

theorem W_main_v165 (V : Valuation τ sig (Elt F)) :
    after ops V (Proc.devRef .tc main_v165) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v160)) (after ops V (Proc.devRef .tc main_v164)) := by
  rw [split3 V]
  exact read_binary ops3_w2 tail4_w2 18 rfl (by decide) (by decide) (by decide) (val3 V)

theorem W_main_v166 (V : Valuation τ sig (Elt F)) :
    after ops V (Proc.devRef .tc main_v166) = (Host.tanh : (⟨S2048x4096, .f32⟩ : BufTy).Contents (Elt F) → (⟨S2048x4096, .f32⟩ : BufTy).Contents (Elt F)) (after ops V (Proc.devRef .tc main_v165)) := by
  rw [split3 V]
  exact read_unary ops3_w2 tail4_w2 19 rfl (by decide) (by decide) (val3 V)

theorem W_main_v167 (V : Valuation τ sig (Elt F)) :
    after ops V (Proc.devRef .tc main_v167) = ((extractStridedSlice S1 ![1] · slices_S8_S1_1) : (⟨S8, .f32⟩ : BufTy).Contents (Elt F) → (⟨S1, .f32⟩ : BufTy).Contents (Elt F)) (after ops V (Proc.devRef .tc main_arg13)) := by
  rw [split3 V]
  exact read_unary ops3_w2 tail4_w2 20 rfl (by decide) (by decide) (val3 V)

theorem W_main_v168 (V : Valuation τ sig (Elt F)) :
    after ops V (Proc.devRef .tc main_v168) = shapeCast S_ (after ops V (Proc.devRef .tc main_v167)) shapeCasts_S1_S_ := by
  rw [split3 V]
  exact read_reshape ops3_w2 tail4_w2 21 rfl (by decide) (by decide) (val3 V)

theorem W_main_v169 (V : Valuation τ sig (Elt F)) :
    after ops V (Proc.devRef .tc main_v169) = (broadcastInDim S2048x4096 ![] bcast_S_S2048x4096 : (⟨S_, .f32⟩ : BufTy).Contents (Elt F) → (⟨S2048x4096, .f32⟩ : BufTy).Contents (Elt F)) (after ops V (Proc.devRef .tc main_v168)) := by
  rw [split3 V]
  exact read_unary ops3_w2 tail4_w2 22 rfl (by decide) (by decide) (val3 V)

theorem W_main_v170 (V : Valuation τ sig (Elt F)) :
    after ops V (Proc.devRef .tc main_v170) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v166)) (after ops V (Proc.devRef .tc main_v169)) := by
  rw [split3 V]
  exact read_binary ops3_w2 tail4_w2 23 rfl (by decide) (by decide) (by decide) (val3 V)

theorem W_main_v171 (V : Valuation τ sig (Elt F)) :
    after ops V (Proc.devRef .tc main_v171) = ((extractStridedSlice S1x1024x4096 ![1, 0, 0] · slices_S8x1024x4096_S1x1024x4096_1_0_0) : (⟨S8x1024x4096, .f32⟩ : BufTy).Contents (Elt F) → (⟨S1x1024x4096, .f32⟩ : BufTy).Contents (Elt F)) (after ops V (Proc.devRef .tc main_arg11)) := by
  rw [split3 V]
  exact read_unary ops3_w2 tail4_w2 24 rfl (by decide) (by decide) (val3 V)

theorem W_main_v172 (V : Valuation τ sig (Elt F)) :
    after ops V (Proc.devRef .tc main_v172) = shapeCast S1024x4096 (after ops V (Proc.devRef .tc main_v171)) shapeCasts_S1x1024x4096_S1024x4096 := by
  rw [split3 V]
  exact read_reshape ops3_w2 tail4_w2 25 rfl (by decide) (by decide) (val3 V)

theorem W_main_v173 (V : Valuation τ sig (Elt F)) :
    after ops V (Proc.devRef .tc main_v173) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v157)) (after ops V (Proc.devRef .tc main_v172)) := by
  rw [split3 V]
  exact read_binary ops3_w2 tail4_w2 26 rfl (by decide) (by decide) (by decide) (val3 V)

theorem W_main_v174 (V : Valuation τ sig (Elt F)) :
    after ops V (Proc.devRef .tc main_v174) = ((extractStridedSlice S1x4096 ![1, 0] · slices_S8x4096_S1x4096_1_0) : (⟨S8x4096, .f32⟩ : BufTy).Contents (Elt F) → (⟨S1x4096, .f32⟩ : BufTy).Contents (Elt F)) (after ops V (Proc.devRef .tc main_arg12)) := by
  rw [split3 V]
  exact read_unary ops3_w2 tail4_w2 27 rfl (by decide) (by decide) (val3 V)

theorem W_main_v175 (V : Valuation τ sig (Elt F)) :
    after ops V (Proc.devRef .tc main_v175) = shapeCast S4096 (after ops V (Proc.devRef .tc main_v174)) shapeCasts_S1x4096_S4096 := by
  rw [split3 V]
  exact read_reshape ops3_w2 tail4_w2 28 rfl (by decide) (by decide) (val3 V)

theorem W_main_v176 (V : Valuation τ sig (Elt F)) :
    after ops V (Proc.devRef .tc main_v176) = (broadcastInDim S1x4096 ![1] bcast_S4096_S1x4096_1 : (⟨S4096, .f32⟩ : BufTy).Contents (Elt F) → (⟨S1x4096, .f32⟩ : BufTy).Contents (Elt F)) (after ops V (Proc.devRef .tc main_v175)) := by
  rw [split3 V]
  exact read_unary ops3_w2 tail4_w2 29 rfl (by decide) (by decide) (val3 V)

theorem W_main_v177 (V : Valuation τ sig (Elt F)) :
    after ops V (Proc.devRef .tc main_v177) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v176)) := by
  rw [split3 V]
  exact read_unary ops3_w2 tail4_w2 30 rfl (by decide) (by decide) (val3 V)

theorem W_main_v178 (V : Valuation τ sig (Elt F)) :
    after ops V (Proc.devRef .tc main_v178) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v173)) (after ops V (Proc.devRef .tc main_v177)) := by
  rw [split3 V]
  exact read_binary ops3_w2 tail4_w2 31 rfl (by decide) (by decide) (by decide) (val3 V)

theorem W_main_v179 (V : Valuation τ sig (Elt F)) :
    after ops V (Proc.devRef .tc main_v179) = (Host.exp : (⟨S2048x4096, .f32⟩ : BufTy).Contents (Elt F) → (⟨S2048x4096, .f32⟩ : BufTy).Contents (Elt F)) (after ops V (Proc.devRef .tc main_v170)) := by
  rw [split3 V]
  exact read_unary ops3_w2 tail4_w2 32 rfl (by decide) (by decide) (val3 V)

theorem W_main_v180 (V : Valuation τ sig (Elt F)) :
    after ops V (Proc.devRef .tc main_v180) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v138)) (after ops V (Proc.devRef .tc main_v179)) := by
  rw [split3 V]
  exact read_binary ops3_w2 tail4_w2 33 rfl (by decide) (by decide) (by decide) (val3 V)

theorem W_main_v181 (V : Valuation τ sig (Elt F)) :
    after ops V (Proc.devRef .tc main_v181) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v180)) (after ops V (Proc.devRef .tc main_v178)) := by
  rw [split3 V]
  exact read_binary ops3_w2 tail4_w2 34 rfl (by decide) (by decide) (by decide) (val3 V)

theorem W_main_cst_25 (V : Valuation τ sig (Elt F)) :
    after ops V (Proc.devRef .tc main_cst_25) = (constant S_ .f32 0x00000000#32) := by
  rw [split3 V]
  exact read_nullary ops3_w2 tail4_w2 35 rfl (by decide) (val3 V)

theorem W_main_v182 (V : Valuation τ sig (Elt F)) :
    after ops V (Proc.devRef .tc main_v182) = (broadcastInDim S2048x8192 ![] bcast_S_S2048x8192 : (⟨S_, .f32⟩ : BufTy).Contents (Elt F) → (⟨S2048x8192, .f32⟩ : BufTy).Contents (Elt F)) (after ops V (Proc.devRef .tc main_cst_25)) := by
  rw [split3 V]
  exact read_unary ops3_w2 tail4_w2 36 rfl (by decide) (by decide) (val3 V)

theorem W_main_c_26 (V : Valuation τ sig (Elt F)) :
    after ops V (Proc.devRef .tc main_c_26) = (constantI S_ 32 0#32) := by
  rw [split3 V]
  exact read_nullary ops3_w2 tail4_w2 37 rfl (by decide) (val3 V)

theorem W_main_v183 (V : Valuation τ sig (Elt F)) :
    after ops V (Proc.devRef .tc main_v183) = (broadcastInDim S4096 ![] bcast_S_S4096 : (⟨S_, .i32⟩ : BufTy).Contents (Elt F) → (⟨S4096, .i32⟩ : BufTy).Contents (Elt F)) (after ops V (Proc.devRef .tc main_c_26)) := by
  rw [split3 V]
  exact read_unary ops3_w2 tail4_w2 38 rfl (by decide) (by decide) (val3 V)

theorem W_main_v184 (V : Valuation τ sig (Elt F)) :
    after ops V (Proc.devRef .tc main_v184) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v183)) := by
  rw [split3 V]
  exact read_binary ops3_w2 tail4_w2 39 rfl (by decide) (by decide) (by decide) (val3 V)

theorem W_main_c_27 (V : Valuation τ sig (Elt F)) :
    after ops V (Proc.devRef .tc main_c_27) = (constantI S_ 32 8192#32) := by
  rw [split3 V]
  exact read_nullary ops3_w2 tail4_w2 40 rfl (by decide) (val3 V)

theorem W_main_v185 (V : Valuation τ sig (Elt F)) :
    after ops V (Proc.devRef .tc main_v185) = (broadcastInDim S4096 ![] bcast_S_S4096 : (⟨S_, .i32⟩ : BufTy).Contents (Elt F) → (⟨S4096, .i32⟩ : BufTy).Contents (Elt F)) (after ops V (Proc.devRef .tc main_c_27)) := by
  rw [split3 V]
  exact read_unary ops3_w2 tail4_w2 41 rfl (by decide) (by decide) (val3 V)

theorem W_main_v186 (V : Valuation τ sig (Elt F)) :
    after ops V (Proc.devRef .tc main_v186) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v185)) := by
  rw [split3 V]
  exact read_binary ops3_w2 tail4_w2 42 rfl (by decide) (by decide) (by decide) (val3 V)

theorem W_main_v187 (V : Valuation τ sig (Elt F)) :
    after ops V (Proc.devRef .tc main_v187) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v184)) (after ops V (Proc.devRef .tc main_v186)) (after ops V (Proc.devRef .tc main_v18)) := by
  rw [split3 V]
  exact read_ternary ops3_w2 tail4_w2 43 rfl (by decide) (by decide) (by decide) (by decide) (val3 V)

theorem W_main_v188 (V : Valuation τ sig (Elt F)) :
    after ops V (Proc.devRef .tc main_v188) = (broadcastInDim S4096x1 ![0] bcast_S4096_S4096x1_0 : (⟨S4096, .i32⟩ : BufTy).Contents (Elt F) → (⟨S4096x1, .i32⟩ : BufTy).Contents (Elt F)) (after ops V (Proc.devRef .tc main_v187)) := by
  rw [split3 V]
  exact read_unary ops3_w2 tail4_w2 44 rfl (by decide) (by decide) (val3 V)

theorem W_main_v189 (V : Valuation τ sig (Elt F)) :
    after ops V (Proc.devRef .tc main_v189) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v182)) (after ops V (Proc.devRef .tc main_v188)) (after ops V (Proc.devRef .tc main_v131)) := by
  rw [split3 V]
  exact read_ternary ops3_w2 tail4_w2 45 rfl (by decide) (by decide) (by decide) (by decide) (val3 V)

theorem W_main_c_28 (V : Valuation τ sig (Elt F)) :
    after ops V (Proc.devRef .tc main_c_28) = (constantI S_ 32 0#32) := by
  rw [split3 V]
  exact read_nullary ops3_w2 tail4_w2 46 rfl (by decide) (val3 V)

theorem W_main_v190 (V : Valuation τ sig (Elt F)) :
    after ops V (Proc.devRef .tc main_v190) = (broadcastInDim S4096 ![] bcast_S_S4096 : (⟨S_, .i32⟩ : BufTy).Contents (Elt F) → (⟨S4096, .i32⟩ : BufTy).Contents (Elt F)) (after ops V (Proc.devRef .tc main_c_28)) := by
  rw [split3 V]
  exact read_unary ops3_w2 tail4_w2 47 rfl (by decide) (by decide) (val3 V)

theorem W_main_v191 (V : Valuation τ sig (Elt F)) :
    after ops V (Proc.devRef .tc main_v191) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v190)) := by
  rw [split3 V]
  exact read_binary ops3_w2 tail4_w2 48 rfl (by decide) (by decide) (by decide) (val3 V)

theorem W_main_c_29 (V : Valuation τ sig (Elt F)) :
    after ops V (Proc.devRef .tc main_c_29) = (constantI S_ 32 8192#32) := by
  rw [split3 V]
  exact read_nullary ops3_w2 tail4_w2 49 rfl (by decide) (val3 V)

theorem W_main_v192 (V : Valuation τ sig (Elt F)) :
    after ops V (Proc.devRef .tc main_v192) = (broadcastInDim S4096 ![] bcast_S_S4096 : (⟨S_, .i32⟩ : BufTy).Contents (Elt F) → (⟨S4096, .i32⟩ : BufTy).Contents (Elt F)) (after ops V (Proc.devRef .tc main_c_29)) := by
  rw [split3 V]
  exact read_unary ops3_w2 tail4_w2 50 rfl (by decide) (by decide) (val3 V)

theorem W_main_v193 (V : Valuation τ sig (Elt F)) :
    after ops V (Proc.devRef .tc main_v193) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v192)) := by
  rw [split3 V]
  exact read_binary ops3_w2 tail4_w2 51 rfl (by decide) (by decide) (by decide) (val3 V)

theorem W_main_v194 (V : Valuation τ sig (Elt F)) :
    after ops V (Proc.devRef .tc main_v194) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v191)) (after ops V (Proc.devRef .tc main_v193)) (after ops V (Proc.devRef .tc main_v13)) := by
  rw [split3 V]
  exact read_ternary ops3_w2 tail4_w2 52 rfl (by decide) (by decide) (by decide) (by decide) (val3 V)

theorem W_main_v195 (V : Valuation τ sig (Elt F)) :
    after ops V (Proc.devRef .tc main_v195) = (broadcastInDim S4096x1 ![0] bcast_S4096_S4096x1_0 : (⟨S4096, .i32⟩ : BufTy).Contents (Elt F) → (⟨S4096x1, .i32⟩ : BufTy).Contents (Elt F)) (after ops V (Proc.devRef .tc main_v194)) := by
  rw [split3 V]
  exact read_unary ops3_w2 tail4_w2 53 rfl (by decide) (by decide) (val3 V)

theorem W_main_v196 (V : Valuation τ sig (Elt F)) :
    after ops V (Proc.devRef .tc main_v196) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v189)) (after ops V (Proc.devRef .tc main_v195)) (after ops V (Proc.devRef .tc main_v181)) := by
  rw [split3 V]
  exact read_ternary ops3_w2 tail4_w2 54 rfl (by decide) (by decide) (by decide) (by decide) (val3 V)

theorem W_main_cst_30 (V : Valuation τ sig (Elt F)) :
    after ops V (Proc.devRef .tc main_cst_30) = (constant S_ .f32 0x00000000#32) := by
  rw [split3 V]
  exact read_nullary ops3_w2 tail4_w2 55 rfl (by decide) (val3 V)

theorem W_main_v197 (V : Valuation τ sig (Elt F)) :
    after ops V (Proc.devRef .tc main_v197) = ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)) (after ops V (Proc.devRef .tc main_v170)) (after ops V (Proc.devRef .tc main_cst_30)) := by
  rw [split3 V]
  exact read_binary ops3_w2 tail4_w2 56 rfl (by decide) (by decide) (by decide) (val3 V)

theorem W_main_v198 (V : Valuation τ sig (Elt F)) :
    after ops V (Proc.devRef .tc main_v198) = (addf : (⟨S2048, .f32⟩ : BufTy).Contents (Elt F) → (⟨S2048, .f32⟩ : BufTy).Contents (Elt F) → (⟨S2048, .f32⟩ : BufTy).Contents (Elt F)) (after ops V (Proc.devRef .tc main_v124)) (after ops V (Proc.devRef .tc main_v197)) := by
  rw [split3 V]
  exact read_binary ops3_w2 tail4_w2 57 rfl (by decide) (by decide) (by decide) (val3 V)

theorem W_main_v199 (V : Valuation τ sig (Elt F)) :
    after ops V (Proc.devRef .tc main_v199) = ((extractStridedSlice S1x8192 ![2, 0] · slices_S8x8192_S1x8192_2_0) : (⟨S8x8192, .f32⟩ : BufTy).Contents (Elt F) → (⟨S1x8192, .f32⟩ : BufTy).Contents (Elt F)) (after ops V (Proc.devRef .tc main_arg4)) := by
  rw [split3 V]
  exact read_unary ops3_w2 tail4_w2 58 rfl (by decide) (by decide) (val3 V)

theorem W_main_v200 (V : Valuation τ sig (Elt F)) :
    after ops V (Proc.devRef .tc main_v200) = shapeCast S8192 (after ops V (Proc.devRef .tc main_v199)) shapeCasts_S1x8192_S8192 := by
  rw [split3 V]
  exact read_reshape ops3_w2 tail4_w2 59 rfl (by decide) (by decide) (val3 V)

theorem W_main_v201 (V : Valuation τ sig (Elt F)) :
    after ops V (Proc.devRef .tc main_v201) = (broadcastInDim S1x8192 ![1] bcast_S8192_S1x8192_1 : (⟨S8192, .f32⟩ : BufTy).Contents (Elt F) → (⟨S1x8192, .f32⟩ : BufTy).Contents (Elt F)) (after ops V (Proc.devRef .tc main_v200)) := by
  rw [split3 V]
  exact read_unary ops3_w2 tail4_w2 60 rfl (by decide) (by decide) (val3 V)

theorem W_main_v202 (V : Valuation τ sig (Elt F)) :
    after ops V (Proc.devRef .tc main_v202) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v201)) := by
  rw [split3 V]
  exact read_unary ops3_w2 tail4_w2 61 rfl (by decide) (by decide) (val3 V)

theorem W_main_v203 (V : Valuation τ sig (Elt F)) :
    after ops V (Proc.devRef .tc main_v203) = (addf : (⟨S2048x8192, .f32⟩ : BufTy).Contents (Elt F) → (⟨S2048x8192, .f32⟩ : BufTy).Contents (Elt F) → (⟨S2048x8192, .f32⟩ : BufTy).Contents (Elt F)) (after ops V (Proc.devRef .tc main_v196)) (after ops V (Proc.devRef .tc main_v202)) := by
  rw [split3 V]
  exact read_binary ops3_w2 tail4_w2 62 rfl (by decide) (by decide) (by decide) (val3 V)

theorem W_main_v204 (V : Valuation τ sig (Elt F)) :
    after ops V (Proc.devRef .tc main_v204) = ((extractStridedSlice S1x8192 ![2, 0] · slices_S8x8192_S1x8192_2_0) : (⟨S8x8192, .f32⟩ : BufTy).Contents (Elt F) → (⟨S1x8192, .f32⟩ : BufTy).Contents (Elt F)) (after ops V (Proc.devRef .tc main_arg3)) := by
  rw [split3 V]
  exact read_unary ops3_w2 tail4_w2 63 rfl (by decide) (by decide) (val3 V)

theorem W_main_v205 (V : Valuation τ sig (Elt F)) :
    after ops V (Proc.devRef .tc main_v205) = shapeCast S8192 (after ops V (Proc.devRef .tc main_v204)) shapeCasts_S1x8192_S8192 := by
  rw [split3 V]
  exact read_reshape ops3_w2 tail4_w2 64 rfl (by decide) (by decide) (val3 V)

theorem W_main_v206 (V : Valuation τ sig (Elt F)) :
    after ops V (Proc.devRef .tc main_v206) = (Host.exp : (⟨S8192, .f32⟩ : BufTy).Contents (Elt F) → (⟨S8192, .f32⟩ : BufTy).Contents (Elt F)) (after ops V (Proc.devRef .tc main_v205)) := by
  rw [split3 V]
  exact read_unary ops3_w2 tail4_w2 65 rfl (by decide) (by decide) (val3 V)

end Cert.RSide

end
-- ==== Proof.RFlow1.lean ====
import proofs.«175835_j29978871726094_1_alg».proof.Proof.RSsa0
import proofs.«175835_j29978871726094_1_alg».proof.Proof.RSsa2
import proofs.«175835_j29978871726094_1_alg».proof.Proof.RSsa3
import proofs.«175835_j29978871726094_1_alg».proof.Proof.RFlowBase
import proofs.«175835_j29978871726094_1_alg».proof.Proof.FlowRefTerms3

open scoped BigOperators

noncomputable section

namespace Cert.RSide

open Cert.ReferenceIdeal Cert.ReferenceIdeal.Gen Idealize.ShloMosaic Idealize.ShloMosaic.TcCoe Idealize.SL.Sem Idealize.ShloMosaic.StableHlo Cert.Flow Cert.Flow.RefTerms

/-- Layer 1 on the array: the second scatter's result is stepZ of the array the layer starts from. The two scatters
    write the conditioning columns and the transformed columns; the arrays they are computed from — the rescaled array, its
    columns of the two parities, the hidden array, the scales and the shifts — are each their own operations' function of the
    ones before (the equations of the run, read one operation at a time). -/
theorem flow1_z (V : Valuation τ sig (Elt Ideal)) :
    after ops V (Proc.devRef .tc main_v196) = stepZ (RP V) (Rcnd V) 1 (after ops V (Proc.devRef .tc main_v106)) := by
  rw [W_main_v196, W_main_v195, W_main_v194, W_main_v193, W_main_v192, W_main_c_29, W_main_v191, W_main_v190, W_main_c_28, W_main_v189, W_main_v188, W_main_v187, W_main_v186, W_main_v185, W_main_c_27, W_main_v184, W_main_v183, W_main_c_26, W_main_v182, W_main_cst_25, W_main_v181, W_main_v180, W_main_v179,
    W_main_v13, W_main_v12, W_main_c_2, W_main_v11, W_main_v10, W_main_c_1, W_main_v9,
    W_main_v18, W_main_v17, W_main_c_4, W_main_v16, W_main_v15, W_main_c_3, W_main_v14]
  beta_reduce
  apply layer_z_of_eqs (i := 1) (o := 1) (parC := 1) (parU := 0) (za := after ops V (Proc.devRef .tc main_v119))
    (hm := after ops V (Proc.devRef .tc main_v157))
  case hza =>
    rw [W_main_v119, W_main_v118, W_main_v117, W_main_v116, W_main_v115, W_main_v114, W_main_v113, W_main_v112, W_main_v111, W_main_v110, W_main_v109, W_main_arg3, W_main_arg4]
    all_goals rfl
  case hxc =>
    rw [W_main_v131, W_main_v130, W_main_v129, W_main_v128, W_main_v127, W_main_c_20, W_main_v126, W_main_v125, W_main_c_19, W_main_v18, W_main_v17, W_main_c_4, W_main_v16, W_main_v15, W_main_c_3, W_main_v14]
    all_goals rfl
  case hxu =>
    rw [W_main_v138, W_main_v137, W_main_v136, W_main_v135, W_main_v134, W_main_c_22, W_main_v133, W_main_v132, W_main_c_21, W_main_v13, W_main_v12, W_main_c_2, W_main_v11, W_main_v10, W_main_c_1, W_main_v9]
    all_goals rfl
  case hhm =>
    rw [W_main_v157, W_main_call3_v4, W_main_call3_v3, W_main_call3_v2, W_main_cst_24, W_main_call3_v1, W_main_call3_v0, W_main_call3_cst, W_main_v156, W_main_v155, W_main_v154, W_main_v153, W_main_v152, W_main_v151, W_main_v150, W_main_v149, W_main_v148, W_main_call2_v4, W_main_call2_v3, W_main_call2_v2, W_main_cst_23, W_main_call2_v1, W_main_call2_v0, W_main_call2_cst, W_main_v147, W_main_v146, W_main_v145, W_main_v144, W_main_v143, W_main_v142, W_main_v141, W_main_v140, W_main_v139, W_cond, W_main_arg5, W_main_arg6, W_main_arg7, W_main_arg8]
    all_goals rfl
  case hs_ =>
    rw [W_main_v170, W_main_v169, W_main_v168, W_main_v167, W_main_v166, W_main_v165, W_main_v164, W_main_v163, W_main_v162, W_main_v161, W_main_v160, W_main_v159, W_main_v158, W_main_arg9, W_main_arg10, W_main_arg13]
    all_goals rfl
  case ht =>
    rw [W_main_v178, W_main_v177, W_main_v176, W_main_v175, W_main_v174, W_main_v173, W_main_v172, W_main_v171, W_main_arg11, W_main_arg12]
    all_goals rfl
  all_goals rfl

/-- Layer 1 on the vector: the sum of the layer's logarithmic scales, then the row sums of the scales, added to the vector the
    layer starts from, are stepLd. -/
theorem flow1_ld (V : Valuation τ sig (Elt Ideal)) :
    after ops V (Proc.devRef .tc main_v198) = stepLd (RP V) (Rcnd V) 1 (after ops V (Proc.devRef .tc main_v106)) (after ops V (Proc.devRef .tc main_v108)) := by
  rw [W_main_v198, W_main_v197, W_main_cst_30, W_main_v124, W_main_v123, W_main_v122, W_main_cst_18, W_main_v121, W_main_v120, W_main_arg3]
  beta_reduce
  apply layer_ld_of_eqs (i := 1) (o := 1) (parC := 1) (parU := 0) (za := after ops V (Proc.devRef .tc main_v119))
    (xc := after ops V (Proc.devRef .tc main_v131)) (hm := after ops V (Proc.devRef .tc main_v157))
  case hza =>
    rw [W_main_v119, W_main_v118, W_main_v117, W_main_v116, W_main_v115, W_main_v114, W_main_v113, W_main_v112, W_main_v111, W_main_v110, W_main_v109, W_main_arg3, W_main_arg4]
    all_goals rfl
  case hxc =>
    rw [W_main_v131, W_main_v130, W_main_v129, W_main_v128, W_main_v127, W_main_c_20, W_main_v126, W_main_v125, W_main_c_19, W_main_v18, W_main_v17, W_main_c_4, W_main_v16, W_main_v15, W_main_c_3, W_main_v14]
    all_goals rfl
  case hhm =>
    rw [W_main_v157, W_main_call3_v4, W_main_call3_v3, W_main_call3_v2, W_main_cst_24, W_main_call3_v1, W_main_call3_v0, W_main_call3_cst, W_main_v156, W_main_v155, W_main_v154, W_main_v153, W_main_v152, W_main_v151, W_main_v150, W_main_v149, W_main_v148, W_main_call2_v4, W_main_call2_v3, W_main_call2_v2, W_main_cst_23, W_main_call2_v1, W_main_call2_v0, W_main_call2_cst, W_main_v147, W_main_v146, W_main_v145, W_main_v144, W_main_v143, W_main_v142, W_main_v141, W_main_v140, W_main_v139, W_cond, W_main_arg5, W_main_arg6, W_main_arg7, W_main_arg8]
    all_goals rfl
  case hs_ =>
    rw [W_main_v170, W_main_v169, W_main_v168, W_main_v167, W_main_v166, W_main_v165, W_main_v164, W_main_v163, W_main_v162, W_main_v161, W_main_v160, W_main_v159, W_main_v158, W_main_arg9, W_main_arg10, W_main_arg13]
    all_goals rfl
  all_goals rfl

end Cert.RSide

end
-- ==== Proof.RSsa4.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 4: each operation's buffer at the end of the run, as the operation's function of its operands' buffers at the end of the run. -/

theorem W_main_v207 (V : Valuation τ sig (Elt F)) :
    after ops V (Proc.devRef .tc main_v207) = (broadcastInDim S1x8192 ![1] bcast_S8192_S1x8192_1 : (⟨S8192, .f32⟩ : BufTy).Contents (Elt F) → (⟨S1x8192, .f32⟩ : BufTy).Contents (Elt F)) (after ops V (Proc.devRef .tc main_v206)) := by
  rw [split4 V]
  exact read_unary ops4_w2 tail5_w2 0 rfl (by decide) (by decide) (val4 V)

theorem W_main_v208 (V : Valuation τ sig (Elt F)) :
    after ops V (Proc.devRef .tc main_v208) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v207)) := by
  rw [split4 V]
  exact read_unary ops4_w2 tail5_w2 1 rfl (by decide) (by decide) (val4 V)

theorem W_main_v209 (V : Valuation τ sig (Elt F)) :
    after ops V (Proc.devRef .tc main_v209) = (mulf : (⟨S2048x8192, .f32⟩ : BufTy).Contents (Elt F) → (⟨S2048x8192, .f32⟩ : BufTy).Contents (Elt F) → (⟨S2048x8192, .f32⟩ : BufTy).Contents (Elt F)) (after ops V (Proc.devRef .tc main_v203)) (after ops V (Proc.devRef .tc main_v208)) := by
  rw [split4 V]
  exact read_binary ops4_w2 tail5_w2 2 rfl (by decide) (by decide) (by decide) (val4 V)

theorem W_main_v210 (V : Valuation τ sig (Elt F)) :
    after ops V (Proc.devRef .tc main_v210) = ((extractStridedSlice S1x8192 ![2, 0] · slices_S8x8192_S1x8192_2_0) : (⟨S8x8192, .f32⟩ : BufTy).Contents (Elt F) → (⟨S1x8192, .f32⟩ : BufTy).Contents (Elt F)) (after ops V (Proc.devRef .tc main_arg3)) := by
  rw [split4 V]
  exact read_unary ops4_w2 tail5_w2 3 rfl (by decide) (by decide) (val4 V)

theorem W_main_v211 (V : Valuation τ sig (Elt F)) :
    after ops V (Proc.devRef .tc main_v211) = shapeCast S8192 (after ops V (Proc.devRef .tc main_v210)) shapeCasts_S1x8192_S8192 := by
  rw [split4 V]
  exact read_reshape ops4_w2 tail5_w2 4 rfl (by decide) (by decide) (val4 V)

theorem W_main_cst_31 (V : Valuation τ sig (Elt F)) :
    after ops V (Proc.devRef .tc main_cst_31) = (constant S_ .f32 0x00000000#32) := by
  rw [split4 V]
  exact read_nullary ops4_w2 tail5_w2 5 rfl (by decide) (val4 V)

theorem W_main_v212 (V : Valuation τ sig (Elt F)) :
    after ops V (Proc.devRef .tc main_v212) = ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (after ops V (Proc.devRef .tc main_v211)) (after ops V (Proc.devRef .tc main_cst_31)) := by
  rw [split4 V]
  exact read_binary ops4_w2 tail5_w2 6 rfl (by decide) (by decide) (by decide) (val4 V)

theorem W_main_v213 (V : Valuation τ sig (Elt F)) :
    after ops V (Proc.devRef .tc main_v213) = (broadcastInDim S2048 ![] bcast_S_S2048 : (⟨S_, .f32⟩ : BufTy).Contents (Elt F) → (⟨S2048, .f32⟩ : BufTy).Contents (Elt F)) (after ops V (Proc.devRef .tc main_v212)) := by
  rw [split4 V]
  exact read_unary ops4_w2 tail5_w2 7 rfl (by decide) (by decide) (val4 V)

theorem W_main_v214 (V : Valuation τ sig (Elt F)) :
    after ops V (Proc.devRef .tc main_v214) = (addf : (⟨S2048, .f32⟩ : BufTy).Contents (Elt F) → (⟨S2048, .f32⟩ : BufTy).Contents (Elt F) → (⟨S2048, .f32⟩ : BufTy).Contents (Elt F)) (after ops V (Proc.devRef .tc main_v198)) (after ops V (Proc.devRef .tc main_v213)) := by
  rw [split4 V]
  exact read_binary ops4_w2 tail5_w2 8 rfl (by decide) (by decide) (by decide) (val4 V)

theorem W_main_c_32 (V : Valuation τ sig (Elt F)) :
    after ops V (Proc.devRef .tc main_c_32) = (constantI S_ 32 0#32) := by
  rw [split4 V]
  exact read_nullary ops4_w2 tail5_w2 9 rfl (by decide) (val4 V)

theorem W_main_v215 (V : Valuation τ sig (Elt F)) :
    after ops V (Proc.devRef .tc main_v215) = (broadcastInDim S4096 ![] bcast_S_S4096 : (⟨S_, .i32⟩ : BufTy).Contents (Elt F) → (⟨S4096, .i32⟩ : BufTy).Contents (Elt F)) (after ops V (Proc.devRef .tc main_c_32)) := by
  rw [split4 V]
  exact read_unary ops4_w2 tail5_w2 10 rfl (by decide) (by decide) (val4 V)

theorem W_main_v216 (V : Valuation τ sig (Elt F)) :
    after ops V (Proc.devRef .tc main_v216) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v215)) := by
  rw [split4 V]
  exact read_binary ops4_w2 tail5_w2 11 rfl (by decide) (by decide) (by decide) (val4 V)

theorem W_main_c_33 (V : Valuation τ sig (Elt F)) :
    after ops V (Proc.devRef .tc main_c_33) = (constantI S_ 32 8192#32) := by
  rw [split4 V]
  exact read_nullary ops4_w2 tail5_w2 12 rfl (by decide) (val4 V)

theorem W_main_v217 (V : Valuation τ sig (Elt F)) :
    after ops V (Proc.devRef .tc main_v217) = (broadcastInDim S4096 ![] bcast_S_S4096 : (⟨S_, .i32⟩ : BufTy).Contents (Elt F) → (⟨S4096, .i32⟩ : BufTy).Contents (Elt F)) (after ops V (Proc.devRef .tc main_c_33)) := by
  rw [split4 V]
  exact read_unary ops4_w2 tail5_w2 13 rfl (by decide) (by decide) (val4 V)

theorem W_main_v218 (V : Valuation τ sig (Elt F)) :
    after ops V (Proc.devRef .tc main_v218) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v217)) := by
  rw [split4 V]
  exact read_binary ops4_w2 tail5_w2 14 rfl (by decide) (by decide) (by decide) (val4 V)

theorem W_main_v219 (V : Valuation τ sig (Elt F)) :
    after ops V (Proc.devRef .tc main_v219) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v216)) (after ops V (Proc.devRef .tc main_v218)) (after ops V (Proc.devRef .tc main_v13)) := by
  rw [split4 V]
  exact read_ternary ops4_w2 tail5_w2 15 rfl (by decide) (by decide) (by decide) (by decide) (val4 V)

theorem W_main_v220 (V : Valuation τ sig (Elt F)) :
    after ops V (Proc.devRef .tc main_v220) = (broadcastInDim S4096x1 ![0] bcast_S4096_S4096x1_0 : (⟨S4096, .i32⟩ : BufTy).Contents (Elt F) → (⟨S4096x1, .i32⟩ : BufTy).Contents (Elt F)) (after ops V (Proc.devRef .tc main_v219)) := by
  rw [split4 V]
  exact read_unary ops4_w2 tail5_w2 16 rfl (by decide) (by decide) (val4 V)

theorem W_main_v221 (V : Valuation τ sig (Elt F)) :
    after ops V (Proc.devRef .tc main_v221) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v209)) (after ops V (Proc.devRef .tc main_v220)) := by
  rw [split4 V]
  exact read_binary ops4_w2 tail5_w2 17 rfl (by decide) (by decide) (by decide) (val4 V)

theorem W_main_c_34 (V : Valuation τ sig (Elt F)) :
    after ops V (Proc.devRef .tc main_c_34) = (constantI S_ 32 0#32) := by
  rw [split4 V]
  exact read_nullary ops4_w2 tail5_w2 18 rfl (by decide) (val4 V)

theorem W_main_v222 (V : Valuation τ sig (Elt F)) :
    after ops V (Proc.devRef .tc main_v222) = (broadcastInDim S4096 ![] bcast_S_S4096 : (⟨S_, .i32⟩ : BufTy).Contents (Elt F) → (⟨S4096, .i32⟩ : BufTy).Contents (Elt F)) (after ops V (Proc.devRef .tc main_c_34)) := by
  rw [split4 V]
  exact read_unary ops4_w2 tail5_w2 19 rfl (by decide) (by decide) (val4 V)

theorem W_main_v223 (V : Valuation τ sig (Elt F)) :
    after ops V (Proc.devRef .tc main_v223) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v222)) := by
  rw [split4 V]
  exact read_binary ops4_w2 tail5_w2 20 rfl (by decide) (by decide) (by decide) (val4 V)

theorem W_main_c_35 (V : Valuation τ sig (Elt F)) :
    after ops V (Proc.devRef .tc main_c_35) = (constantI S_ 32 8192#32) := by
  rw [split4 V]
  exact read_nullary ops4_w2 tail5_w2 21 rfl (by decide) (val4 V)

theorem W_main_v224 (V : Valuation τ sig (Elt F)) :
    after ops V (Proc.devRef .tc main_v224) = (broadcastInDim S4096 ![] bcast_S_S4096 : (⟨S_, .i32⟩ : BufTy).Contents (Elt F) → (⟨S4096, .i32⟩ : BufTy).Contents (Elt F)) (after ops V (Proc.devRef .tc main_c_35)) := by
  rw [split4 V]
  exact read_unary ops4_w2 tail5_w2 22 rfl (by decide) (by decide) (val4 V)

theorem W_main_v225 (V : Valuation τ sig (Elt F)) :
    after ops V (Proc.devRef .tc main_v225) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v224)) := by
  rw [split4 V]
  exact read_binary ops4_w2 tail5_w2 23 rfl (by decide) (by decide) (by decide) (val4 V)

theorem W_main_v226 (V : Valuation τ sig (Elt F)) :
    after ops V (Proc.devRef .tc main_v226) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v223)) (after ops V (Proc.devRef .tc main_v225)) (after ops V (Proc.devRef .tc main_v18)) := by
  rw [split4 V]
  exact read_ternary ops4_w2 tail5_w2 24 rfl (by decide) (by decide) (by decide) (by decide) (val4 V)

theorem W_main_v227 (V : Valuation τ sig (Elt F)) :
    after ops V (Proc.devRef .tc main_v227) = (broadcastInDim S4096x1 ![0] bcast_S4096_S4096x1_0 : (⟨S4096, .i32⟩ : BufTy).Contents (Elt F) → (⟨S4096x1, .i32⟩ : BufTy).Contents (Elt F)) (after ops V (Proc.devRef .tc main_v226)) := by
  rw [split4 V]
  exact read_unary ops4_w2 tail5_w2 25 rfl (by decide) (by decide) (val4 V)

theorem W_main_v228 (V : Valuation τ sig (Elt F)) :
    after ops V (Proc.devRef .tc main_v228) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v209)) (after ops V (Proc.devRef .tc main_v227)) := by
  rw [split4 V]
  exact read_binary ops4_w2 tail5_w2 26 rfl (by decide) (by decide) (by decide) (val4 V)

theorem W_main_v229 (V : Valuation τ sig (Elt F)) :
    after ops V (Proc.devRef .tc main_v229) = ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)) (after ops V (Proc.devRef .tc main_v221)) (after ops V (Proc.devRef .tc main_v7)) := by
  rw [split4 V]
  exact read_binary ops4_w2 tail5_w2 27 rfl (by decide) (by decide) (by decide) (val4 V)

theorem W_main_v230 (V : Valuation τ sig (Elt F)) :
    after ops V (Proc.devRef .tc main_v230) = ((extractStridedSlice S1x5120x1024 ![2, 0, 0] · slices_S8x5120x1024_S1x5120x1024_2_0_0) : (⟨S8x5120x1024, .f32⟩ : BufTy).Contents (Elt F) → (⟨S1x5120x1024, .f32⟩ : BufTy).Contents (Elt F)) (after ops V (Proc.devRef .tc main_arg5)) := by
  rw [split4 V]
  exact read_unary ops4_w2 tail5_w2 28 rfl (by decide) (by decide) (val4 V)

theorem W_main_v231 (V : Valuation τ sig (Elt F)) :
    after ops V (Proc.devRef .tc main_v231) = shapeCast S5120x1024 (after ops V (Proc.devRef .tc main_v230)) shapeCasts_S1x5120x1024_S5120x1024 := by
  rw [split4 V]
  exact read_reshape ops4_w2 tail5_w2 29 rfl (by decide) (by decide) (val4 V)

theorem W_main_v232 (V : Valuation τ sig (Elt F)) :
    after ops V (Proc.devRef .tc main_v232) = ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)) (after ops V (Proc.devRef .tc main_v229)) (after ops V (Proc.devRef .tc main_v231)) := by
  rw [split4 V]
  exact read_binary ops4_w2 tail5_w2 30 rfl (by decide) (by decide) (by decide) (val4 V)

theorem W_main_v233 (V : Valuation τ sig (Elt F)) :
    after ops V (Proc.devRef .tc main_v233) = ((extractStridedSlice S1x1024 ![2, 0] · slices_S8x1024_S1x1024_2_0) : (⟨S8x1024, .f32⟩ : BufTy).Contents (Elt F) → (⟨S1x1024, .f32⟩ : BufTy).Contents (Elt F)) (after ops V (Proc.devRef .tc main_arg6)) := by
  rw [split4 V]
  exact read_unary ops4_w2 tail5_w2 31 rfl (by decide) (by decide) (val4 V)

theorem W_main_v234 (V : Valuation τ sig (Elt F)) :
    after ops V (Proc.devRef .tc main_v234) = shapeCast S1024 (after ops V (Proc.devRef .tc main_v233)) shapeCasts_S1x1024_S1024 := by
  rw [split4 V]
  exact read_reshape ops4_w2 tail5_w2 32 rfl (by decide) (by decide) (val4 V)

theorem W_main_v235 (V : Valuation τ sig (Elt F)) :
    after ops V (Proc.devRef .tc main_v235) = (broadcastInDim S1x1024 ![1] bcast_S1024_S1x1024_1 : (⟨S1024, .f32⟩ : BufTy).Contents (Elt F) → (⟨S1x1024, .f32⟩ : BufTy).Contents (Elt F)) (after ops V (Proc.devRef .tc main_v234)) := by
  rw [split4 V]
  exact read_unary ops4_w2 tail5_w2 33 rfl (by decide) (by decide) (val4 V)

theorem W_main_v236 (V : Valuation τ sig (Elt F)) :
    after ops V (Proc.devRef .tc main_v236) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v235)) := by
  rw [split4 V]
  exact read_unary ops4_w2 tail5_w2 34 rfl (by decide) (by decide) (val4 V)

theorem W_main_v237 (V : Valuation τ sig (Elt F)) :
    after ops V (Proc.devRef .tc main_v237) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v232)) (after ops V (Proc.devRef .tc main_v236)) := by
  rw [split4 V]
  exact read_binary ops4_w2 tail5_w2 35 rfl (by decide) (by decide) (by decide) (val4 V)

theorem W_main_cst_36 (V : Valuation τ sig (Elt F)) :
    after ops V (Proc.devRef .tc main_cst_36) = (constant S_ .f32 0x3E4CCCCD#32) := by
  rw [split4 V]
  exact read_nullary ops4_w2 tail5_w2 36 rfl (by decide) (val4 V)

theorem W_main_call4_cst (V : Valuation τ sig (Elt F)) :
    after ops V (Proc.devRef .tc main_call4_cst) = (constant S_ .f32 0x00000000#32) := by
  rw [split4 V]
  exact read_nullary ops4_w2 tail5_w2 37 rfl (by decide) (val4 V)

theorem W_main_call4_v0 (V : Valuation τ sig (Elt F)) :
    after ops V (Proc.devRef .tc main_call4_v0) = (broadcastInDim S2048x1024 ![] bcast_S_S2048x1024 : (⟨S_, .f32⟩ : BufTy).Contents (Elt F) → (⟨S2048x1024, .f32⟩ : BufTy).Contents (Elt F)) (after ops V (Proc.devRef .tc main_call4_cst)) := by
  rw [split4 V]
  exact read_unary ops4_w2 tail5_w2 38 rfl (by decide) (by decide) (val4 V)

theorem W_main_call4_v1 (V : Valuation τ sig (Elt F)) :
    after ops V (Proc.devRef .tc main_call4_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v237)) (after ops V (Proc.devRef .tc main_call4_v0)) := by
  rw [split4 V]
  exact read_binary ops4_w2 tail5_w2 39 rfl (by decide) (by decide) (by decide) (val4 V)

theorem W_main_call4_v2 (V : Valuation τ sig (Elt F)) :
    after ops V (Proc.devRef .tc main_call4_v2) = (id : (⟨S_, .f32⟩ : BufTy).Contents (Elt F) → (⟨S_, .f32⟩ : BufTy).Contents (Elt F)) (after ops V (Proc.devRef .tc main_cst_36)) := by
  rw [split4 V]
  exact read_unary ops4_w2 tail5_w2 40 rfl (by decide) (by decide) (val4 V)

theorem W_main_call4_v3 (V : Valuation τ sig (Elt F)) :
    after ops V (Proc.devRef .tc main_call4_v3) = (broadcastInDim S2048x1024 ![] bcast_S_S2048x1024 : (⟨S_, .f32⟩ : BufTy).Contents (Elt F) → (⟨S2048x1024, .f32⟩ : BufTy).Contents (Elt F)) (after ops V (Proc.devRef .tc main_call4_v2)) := by
  rw [split4 V]
  exact read_unary ops4_w2 tail5_w2 41 rfl (by decide) (by decide) (val4 V)

theorem W_main_call4_v4 (V : Valuation τ sig (Elt F)) :
    after ops V (Proc.devRef .tc main_call4_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call4_v3)) (after ops V (Proc.devRef .tc main_v237)) := by
  rw [split4 V]
  exact read_binary ops4_w2 tail5_w2 42 rfl (by decide) (by decide) (by decide) (val4 V)

theorem W_main_v238 (V : Valuation τ sig (Elt F)) :
    after ops V (Proc.devRef .tc main_v238) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call4_v1)) (after ops V (Proc.devRef .tc main_v237)) (after ops V (Proc.devRef .tc main_call4_v4)) := by
  rw [split4 V]
  exact read_ternary ops4_w2 tail5_w2 43 rfl (by decide) (by decide) (by decide) (by decide) (val4 V)

theorem W_main_v239 (V : Valuation τ sig (Elt F)) :
    after ops V (Proc.devRef .tc main_v239) = ((extractStridedSlice S1x1024x1024 ![2, 0, 0] · slices_S8x1024x1024_S1x1024x1024_2_0_0) : (⟨S8x1024x1024, .f32⟩ : BufTy).Contents (Elt F) → (⟨S1x1024x1024, .f32⟩ : BufTy).Contents (Elt F)) (after ops V (Proc.devRef .tc main_arg7)) := by
  rw [split4 V]
  exact read_unary ops4_w2 tail5_w2 44 rfl (by decide) (by decide) (val4 V)

theorem W_main_v240 (V : Valuation τ sig (Elt F)) :
    after ops V (Proc.devRef .tc main_v240) = shapeCast S1024x1024 (after ops V (Proc.devRef .tc main_v239)) shapeCasts_S1x1024x1024_S1024x1024 := by
  rw [split4 V]
  exact read_reshape ops4_w2 tail5_w2 45 rfl (by decide) (by decide) (val4 V)

theorem W_main_v241 (V : Valuation τ sig (Elt F)) :
    after ops V (Proc.devRef .tc main_v241) = ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)) (after ops V (Proc.devRef .tc main_v238)) (after ops V (Proc.devRef .tc main_v240)) := by
  rw [split4 V]
  exact read_binary ops4_w2 tail5_w2 46 rfl (by decide) (by decide) (by decide) (val4 V)

theorem W_main_v242 (V : Valuation τ sig (Elt F)) :
    after ops V (Proc.devRef .tc main_v242) = ((extractStridedSlice S1x1024 ![2, 0] · slices_S8x1024_S1x1024_2_0) : (⟨S8x1024, .f32⟩ : BufTy).Contents (Elt F) → (⟨S1x1024, .f32⟩ : BufTy).Contents (Elt F)) (after ops V (Proc.devRef .tc main_arg8)) := by
  rw [split4 V]
  exact read_unary ops4_w2 tail5_w2 47 rfl (by decide) (by decide) (val4 V)

theorem W_main_v243 (V : Valuation τ sig (Elt F)) :
    after ops V (Proc.devRef .tc main_v243) = shapeCast S1024 (after ops V (Proc.devRef .tc main_v242)) shapeCasts_S1x1024_S1024 := by
  rw [split4 V]
  exact read_reshape ops4_w2 tail5_w2 48 rfl (by decide) (by decide) (val4 V)

theorem W_main_v244 (V : Valuation τ sig (Elt F)) :
    after ops V (Proc.devRef .tc main_v244) = (broadcastInDim S1x1024 ![1] bcast_S1024_S1x1024_1 : (⟨S1024, .f32⟩ : BufTy).Contents (Elt F) → (⟨S1x1024, .f32⟩ : BufTy).Contents (Elt F)) (after ops V (Proc.devRef .tc main_v243)) := by
  rw [split4 V]
  exact read_unary ops4_w2 tail5_w2 49 rfl (by decide) (by decide) (val4 V)

theorem W_main_v245 (V : Valuation τ sig (Elt F)) :
    after ops V (Proc.devRef .tc main_v245) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v244)) := by
  rw [split4 V]
  exact read_unary ops4_w2 tail5_w2 50 rfl (by decide) (by decide) (val4 V)

theorem W_main_v246 (V : Valuation τ sig (Elt F)) :
    after ops V (Proc.devRef .tc main_v246) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v241)) (after ops V (Proc.devRef .tc main_v245)) := by
  rw [split4 V]
  exact read_binary ops4_w2 tail5_w2 51 rfl (by decide) (by decide) (by decide) (val4 V)

theorem W_main_cst_37 (V : Valuation τ sig (Elt F)) :
    after ops V (Proc.devRef .tc main_cst_37) = (constant S_ .f32 0x3E4CCCCD#32) := by
  rw [split4 V]
  exact read_nullary ops4_w2 tail5_w2 52 rfl (by decide) (val4 V)

theorem W_main_call5_cst (V : Valuation τ sig (Elt F)) :
    after ops V (Proc.devRef .tc main_call5_cst) = (constant S_ .f32 0x00000000#32) := by
  rw [split4 V]
  exact read_nullary ops4_w2 tail5_w2 53 rfl (by decide) (val4 V)

theorem W_main_call5_v0 (V : Valuation τ sig (Elt F)) :
    after ops V (Proc.devRef .tc main_call5_v0) = (broadcastInDim S2048x1024 ![] bcast_S_S2048x1024 : (⟨S_, .f32⟩ : BufTy).Contents (Elt F) → (⟨S2048x1024, .f32⟩ : BufTy).Contents (Elt F)) (after ops V (Proc.devRef .tc main_call5_cst)) := by
  rw [split4 V]
  exact read_unary ops4_w2 tail5_w2 54 rfl (by decide) (by decide) (val4 V)

theorem W_main_call5_v1 (V : Valuation τ sig (Elt F)) :
    after ops V (Proc.devRef .tc main_call5_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v246)) (after ops V (Proc.devRef .tc main_call5_v0)) := by
  rw [split4 V]
  exact read_binary ops4_w2 tail5_w2 55 rfl (by decide) (by decide) (by decide) (val4 V)

theorem W_main_call5_v2 (V : Valuation τ sig (Elt F)) :
    after ops V (Proc.devRef .tc main_call5_v2) = (id : (⟨S_, .f32⟩ : BufTy).Contents (Elt F) → (⟨S_, .f32⟩ : BufTy).Contents (Elt F)) (after ops V (Proc.devRef .tc main_cst_37)) := by
  rw [split4 V]
  exact read_unary ops4_w2 tail5_w2 56 rfl (by decide) (by decide) (val4 V)

theorem W_main_call5_v3 (V : Valuation τ sig (Elt F)) :
    after ops V (Proc.devRef .tc main_call5_v3) = (broadcastInDim S2048x1024 ![] bcast_S_S2048x1024 : (⟨S_, .f32⟩ : BufTy).Contents (Elt F) → (⟨S2048x1024, .f32⟩ : BufTy).Contents (Elt F)) (after ops V (Proc.devRef .tc main_call5_v2)) := by
  rw [split4 V]
  exact read_unary ops4_w2 tail5_w2 57 rfl (by decide) (by decide) (val4 V)

theorem W_main_call5_v4 (V : Valuation τ sig (Elt F)) :
    after ops V (Proc.devRef .tc main_call5_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call5_v3)) (after ops V (Proc.devRef .tc main_v246)) := by
  rw [split4 V]
  exact read_binary ops4_w2 tail5_w2 58 rfl (by decide) (by decide) (by decide) (val4 V)

theorem W_main_v247 (V : Valuation τ sig (Elt F)) :
    after ops V (Proc.devRef .tc main_v247) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call5_v1)) (after ops V (Proc.devRef .tc main_v246)) (after ops V (Proc.devRef .tc main_call5_v4)) := by
  rw [split4 V]
  exact read_ternary ops4_w2 tail5_w2 59 rfl (by decide) (by decide) (by decide) (by decide) (val4 V)

theorem W_main_v248 (V : Valuation τ sig (Elt F)) :
    after ops V (Proc.devRef .tc main_v248) = ((extractStridedSlice S1x1024x4096 ![2, 0, 0] · slices_S8x1024x4096_S1x1024x4096_2_0_0) : (⟨S8x1024x4096, .f32⟩ : BufTy).Contents (Elt F) → (⟨S1x1024x4096, .f32⟩ : BufTy).Contents (Elt F)) (after ops V (Proc.devRef .tc main_arg9)) := by
  rw [split4 V]
  exact read_unary ops4_w2 tail5_w2 60 rfl (by decide) (by decide) (val4 V)

theorem W_main_v249 (V : Valuation τ sig (Elt F)) :
    after ops V (Proc.devRef .tc main_v249) = shapeCast S1024x4096 (after ops V (Proc.devRef .tc main_v248)) shapeCasts_S1x1024x4096_S1024x4096 := by
  rw [split4 V]
  exact read_reshape ops4_w2 tail5_w2 61 rfl (by decide) (by decide) (val4 V)

theorem W_main_v250 (V : Valuation τ sig (Elt F)) :
    after ops V (Proc.devRef .tc main_v250) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v247)) (after ops V (Proc.devRef .tc main_v249)) := by
  rw [split4 V]
  exact read_binary ops4_w2 tail5_w2 62 rfl (by decide) (by decide) (by decide) (val4 V)

theorem W_main_v251 (V : Valuation τ sig (Elt F)) :
    after ops V (Proc.devRef .tc main_v251) = ((extractStridedSlice S1x4096 ![2, 0] · slices_S8x4096_S1x4096_2_0) : (⟨S8x4096, .f32⟩ : BufTy).Contents (Elt F) → (⟨S1x4096, .f32⟩ : BufTy).Contents (Elt F)) (after ops V (Proc.devRef .tc main_arg10)) := by
  rw [split4 V]
  exact read_unary ops4_w2 tail5_w2 63 rfl (by decide) (by decide) (val4 V)

theorem W_main_v252 (V : Valuation τ sig (Elt F)) :
    after ops V (Proc.devRef .tc main_v252) = shapeCast S4096 (after ops V (Proc.devRef .tc main_v251)) shapeCasts_S1x4096_S4096 := by
  rw [split4 V]
  exact read_reshape ops4_w2 tail5_w2 64 rfl (by decide) (by decide) (val4 V)

theorem W_main_v253 (V : Valuation τ sig (Elt F)) :
    after ops V (Proc.devRef .tc main_v253) = (broadcastInDim S1x4096 ![1] bcast_S4096_S1x4096_1 : (⟨S4096, .f32⟩ : BufTy).Contents (Elt F) → (⟨S1x4096, .f32⟩ : BufTy).Contents (Elt F)) (after ops V (Proc.devRef .tc main_v252)) := by
  rw [split4 V]
  exact read_unary ops4_w2 tail5_w2 65 rfl (by decide) (by decide) (val4 V)

theorem W_main_v254 (V : Valuation τ sig (Elt F)) :
    after ops V (Proc.devRef .tc main_v254) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v253)) := by
  rw [split4 V]
  exact read_unary ops4_w2 tail5_w2 66 rfl (by decide) (by decide) (val4 V)

theorem W_main_v255 (V : Valuation τ sig (Elt F)) :
    after ops V (Proc.devRef .tc main_v255) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v250)) (after ops V (Proc.devRef .tc main_v254)) := by
  rw [split4 V]
  exact read_binary ops4_w2 tail5_w2 67 rfl (by decide) (by decide) (by decide) (val4 V)

theorem W_main_v256 (V : Valuation τ sig (Elt F)) :
    after ops V (Proc.devRef .tc main_v256) = (Host.tanh : (⟨S2048x4096, .f32⟩ : BufTy).Contents (Elt F) → (⟨S2048x4096, .f32⟩ : BufTy).Contents (Elt F)) (after ops V (Proc.devRef .tc main_v255)) := by
  rw [split4 V]
  exact read_unary ops4_w2 tail5_w2 68 rfl (by decide) (by decide) (val4 V)

theorem W_main_v257 (V : Valuation τ sig (Elt F)) :
    after ops V (Proc.devRef .tc main_v257) = ((extractStridedSlice S1 ![2] · slices_S8_S1_2) : (⟨S8, .f32⟩ : BufTy).Contents (Elt F) → (⟨S1, .f32⟩ : BufTy).Contents (Elt F)) (after ops V (Proc.devRef .tc main_arg13)) := by
  rw [split4 V]
  exact read_unary ops4_w2 tail5_w2 69 rfl (by decide) (by decide) (val4 V)

theorem W_main_v258 (V : Valuation τ sig (Elt F)) :
    after ops V (Proc.devRef .tc main_v258) = shapeCast S_ (after ops V (Proc.devRef .tc main_v257)) shapeCasts_S1_S_ := by
  rw [split4 V]
  exact read_reshape ops4_w2 tail5_w2 70 rfl (by decide) (by decide) (val4 V)

theorem W_main_v259 (V : Valuation τ sig (Elt F)) :
    after ops V (Proc.devRef .tc main_v259) = (broadcastInDim S2048x4096 ![] bcast_S_S2048x4096 : (⟨S_, .f32⟩ : BufTy).Contents (Elt F) → (⟨S2048x4096, .f32⟩ : BufTy).Contents (Elt F)) (after ops V (Proc.devRef .tc main_v258)) := by
  rw [split4 V]
  exact read_unary ops4_w2 tail5_w2 71 rfl (by decide) (by decide) (val4 V)

end Cert.RSide

end
-- ==== Proof.RSsa5.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 5: each operation's buffer at the end of the run, as the operation's function of its operands' buffers at the end of the run. -/

theorem W_main_v260 (V : Valuation τ sig (Elt F)) :
    after ops V (Proc.devRef .tc main_v260) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v256)) (after ops V (Proc.devRef .tc main_v259)) := by
  rw [split5 V]
  exact read_binary ops5_w2 tail6_w2 0 rfl (by decide) (by decide) (by decide) (val5 V)

theorem W_main_v261 (V : Valuation τ sig (Elt F)) :
    after ops V (Proc.devRef .tc main_v261) = ((extractStridedSlice S1x1024x4096 ![2, 0, 0] · slices_S8x1024x4096_S1x1024x4096_2_0_0) : (⟨S8x1024x4096, .f32⟩ : BufTy).Contents (Elt F) → (⟨S1x1024x4096, .f32⟩ : BufTy).Contents (Elt F)) (after ops V (Proc.devRef .tc main_arg11)) := by
  rw [split5 V]
  exact read_unary ops5_w2 tail6_w2 1 rfl (by decide) (by decide) (val5 V)

theorem W_main_v262 (V : Valuation τ sig (Elt F)) :
    after ops V (Proc.devRef .tc main_v262) = shapeCast S1024x4096 (after ops V (Proc.devRef .tc main_v261)) shapeCasts_S1x1024x4096_S1024x4096 := by
  rw [split5 V]
  exact read_reshape ops5_w2 tail6_w2 2 rfl (by decide) (by decide) (val5 V)

theorem W_main_v263 (V : Valuation τ sig (Elt F)) :
    after ops V (Proc.devRef .tc main_v263) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v247)) (after ops V (Proc.devRef .tc main_v262)) := by
  rw [split5 V]
  exact read_binary ops5_w2 tail6_w2 3 rfl (by decide) (by decide) (by decide) (val5 V)

theorem W_main_v264 (V : Valuation τ sig (Elt F)) :
    after ops V (Proc.devRef .tc main_v264) = ((extractStridedSlice S1x4096 ![2, 0] · slices_S8x4096_S1x4096_2_0) : (⟨S8x4096, .f32⟩ : BufTy).Contents (Elt F) → (⟨S1x4096, .f32⟩ : BufTy).Contents (Elt F)) (after ops V (Proc.devRef .tc main_arg12)) := by
  rw [split5 V]
  exact read_unary ops5_w2 tail6_w2 4 rfl (by decide) (by decide) (val5 V)

theorem W_main_v265 (V : Valuation τ sig (Elt F)) :
    after ops V (Proc.devRef .tc main_v265) = shapeCast S4096 (after ops V (Proc.devRef .tc main_v264)) shapeCasts_S1x4096_S4096 := by
  rw [split5 V]
  exact read_reshape ops5_w2 tail6_w2 5 rfl (by decide) (by decide) (val5 V)

theorem W_main_v266 (V : Valuation τ sig (Elt F)) :
    after ops V (Proc.devRef .tc main_v266) = (broadcastInDim S1x4096 ![1] bcast_S4096_S1x4096_1 : (⟨S4096, .f32⟩ : BufTy).Contents (Elt F) → (⟨S1x4096, .f32⟩ : BufTy).Contents (Elt F)) (after ops V (Proc.devRef .tc main_v265)) := by
  rw [split5 V]
  exact read_unary ops5_w2 tail6_w2 6 rfl (by decide) (by decide) (val5 V)

theorem W_main_v267 (V : Valuation τ sig (Elt F)) :
    after ops V (Proc.devRef .tc main_v267) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v266)) := by
  rw [split5 V]
  exact read_unary ops5_w2 tail6_w2 7 rfl (by decide) (by decide) (val5 V)

theorem W_main_v268 (V : Valuation τ sig (Elt F)) :
    after ops V (Proc.devRef .tc main_v268) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v263)) (after ops V (Proc.devRef .tc main_v267)) := by
  rw [split5 V]
  exact read_binary ops5_w2 tail6_w2 8 rfl (by decide) (by decide) (by decide) (val5 V)

theorem W_main_v269 (V : Valuation τ sig (Elt F)) :
    after ops V (Proc.devRef .tc main_v269) = (Host.exp : (⟨S2048x4096, .f32⟩ : BufTy).Contents (Elt F) → (⟨S2048x4096, .f32⟩ : BufTy).Contents (Elt F)) (after ops V (Proc.devRef .tc main_v260)) := by
  rw [split5 V]
  exact read_unary ops5_w2 tail6_w2 9 rfl (by decide) (by decide) (val5 V)

theorem W_main_v270 (V : Valuation τ sig (Elt F)) :
    after ops V (Proc.devRef .tc main_v270) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v228)) (after ops V (Proc.devRef .tc main_v269)) := by
  rw [split5 V]
  exact read_binary ops5_w2 tail6_w2 10 rfl (by decide) (by decide) (by decide) (val5 V)

theorem W_main_v271 (V : Valuation τ sig (Elt F)) :
    after ops V (Proc.devRef .tc main_v271) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v270)) (after ops V (Proc.devRef .tc main_v268)) := by
  rw [split5 V]
  exact read_binary ops5_w2 tail6_w2 11 rfl (by decide) (by decide) (by decide) (val5 V)

theorem W_main_cst_38 (V : Valuation τ sig (Elt F)) :
    after ops V (Proc.devRef .tc main_cst_38) = (constant S_ .f32 0x00000000#32) := by
  rw [split5 V]
  exact read_nullary ops5_w2 tail6_w2 12 rfl (by decide) (val5 V)

theorem W_main_v272 (V : Valuation τ sig (Elt F)) :
    after ops V (Proc.devRef .tc main_v272) = (broadcastInDim S2048x8192 ![] bcast_S_S2048x8192 : (⟨S_, .f32⟩ : BufTy).Contents (Elt F) → (⟨S2048x8192, .f32⟩ : BufTy).Contents (Elt F)) (after ops V (Proc.devRef .tc main_cst_38)) := by
  rw [split5 V]
  exact read_unary ops5_w2 tail6_w2 13 rfl (by decide) (by decide) (val5 V)

theorem W_main_c_39 (V : Valuation τ sig (Elt F)) :
    after ops V (Proc.devRef .tc main_c_39) = (constantI S_ 32 0#32) := by
  rw [split5 V]
  exact read_nullary ops5_w2 tail6_w2 14 rfl (by decide) (val5 V)

theorem W_main_v273 (V : Valuation τ sig (Elt F)) :
    after ops V (Proc.devRef .tc main_v273) = (broadcastInDim S4096 ![] bcast_S_S4096 : (⟨S_, .i32⟩ : BufTy).Contents (Elt F) → (⟨S4096, .i32⟩ : BufTy).Contents (Elt F)) (after ops V (Proc.devRef .tc main_c_39)) := by
  rw [split5 V]
  exact read_unary ops5_w2 tail6_w2 15 rfl (by decide) (by decide) (val5 V)

theorem W_main_v274 (V : Valuation τ sig (Elt F)) :
    after ops V (Proc.devRef .tc main_v274) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v273)) := by
  rw [split5 V]
  exact read_binary ops5_w2 tail6_w2 16 rfl (by decide) (by decide) (by decide) (val5 V)

theorem W_main_c_40 (V : Valuation τ sig (Elt F)) :
    after ops V (Proc.devRef .tc main_c_40) = (constantI S_ 32 8192#32) := by
  rw [split5 V]
  exact read_nullary ops5_w2 tail6_w2 17 rfl (by decide) (val5 V)

theorem W_main_v275 (V : Valuation τ sig (Elt F)) :
    after ops V (Proc.devRef .tc main_v275) = (broadcastInDim S4096 ![] bcast_S_S4096 : (⟨S_, .i32⟩ : BufTy).Contents (Elt F) → (⟨S4096, .i32⟩ : BufTy).Contents (Elt F)) (after ops V (Proc.devRef .tc main_c_40)) := by
  rw [split5 V]
  exact read_unary ops5_w2 tail6_w2 18 rfl (by decide) (by decide) (val5 V)

theorem W_main_v276 (V : Valuation τ sig (Elt F)) :
    after ops V (Proc.devRef .tc main_v276) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v275)) := by
  rw [split5 V]
  exact read_binary ops5_w2 tail6_w2 19 rfl (by decide) (by decide) (by decide) (val5 V)

theorem W_main_v277 (V : Valuation τ sig (Elt F)) :
    after ops V (Proc.devRef .tc main_v277) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v274)) (after ops V (Proc.devRef .tc main_v276)) (after ops V (Proc.devRef .tc main_v13)) := by
  rw [split5 V]
  exact read_ternary ops5_w2 tail6_w2 20 rfl (by decide) (by decide) (by decide) (by decide) (val5 V)

theorem W_main_v278 (V : Valuation τ sig (Elt F)) :
    after ops V (Proc.devRef .tc main_v278) = (broadcastInDim S4096x1 ![0] bcast_S4096_S4096x1_0 : (⟨S4096, .i32⟩ : BufTy).Contents (Elt F) → (⟨S4096x1, .i32⟩ : BufTy).Contents (Elt F)) (after ops V (Proc.devRef .tc main_v277)) := by
  rw [split5 V]
  exact read_unary ops5_w2 tail6_w2 21 rfl (by decide) (by decide) (val5 V)

theorem W_main_v279 (V : Valuation τ sig (Elt F)) :
    after ops V (Proc.devRef .tc main_v279) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v272)) (after ops V (Proc.devRef .tc main_v278)) (after ops V (Proc.devRef .tc main_v221)) := by
  rw [split5 V]
  exact read_ternary ops5_w2 tail6_w2 22 rfl (by decide) (by decide) (by decide) (by decide) (val5 V)

theorem W_main_c_41 (V : Valuation τ sig (Elt F)) :
    after ops V (Proc.devRef .tc main_c_41) = (constantI S_ 32 0#32) := by
  rw [split5 V]
  exact read_nullary ops5_w2 tail6_w2 23 rfl (by decide) (val5 V)

theorem W_main_v280 (V : Valuation τ sig (Elt F)) :
    after ops V (Proc.devRef .tc main_v280) = (broadcastInDim S4096 ![] bcast_S_S4096 : (⟨S_, .i32⟩ : BufTy).Contents (Elt F) → (⟨S4096, .i32⟩ : BufTy).Contents (Elt F)) (after ops V (Proc.devRef .tc main_c_41)) := by
  rw [split5 V]
  exact read_unary ops5_w2 tail6_w2 24 rfl (by decide) (by decide) (val5 V)

theorem W_main_v281 (V : Valuation τ sig (Elt F)) :
    after ops V (Proc.devRef .tc main_v281) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v280)) := by
  rw [split5 V]
  exact read_binary ops5_w2 tail6_w2 25 rfl (by decide) (by decide) (by decide) (val5 V)

theorem W_main_c_42 (V : Valuation τ sig (Elt F)) :
    after ops V (Proc.devRef .tc main_c_42) = (constantI S_ 32 8192#32) := by
  rw [split5 V]
  exact read_nullary ops5_w2 tail6_w2 26 rfl (by decide) (val5 V)

theorem W_main_v282 (V : Valuation τ sig (Elt F)) :
    after ops V (Proc.devRef .tc main_v282) = (broadcastInDim S4096 ![] bcast_S_S4096 : (⟨S_, .i32⟩ : BufTy).Contents (Elt F) → (⟨S4096, .i32⟩ : BufTy).Contents (Elt F)) (after ops V (Proc.devRef .tc main_c_42)) := by
  rw [split5 V]
  exact read_unary ops5_w2 tail6_w2 27 rfl (by decide) (by decide) (val5 V)

theorem W_main_v283 (V : Valuation τ sig (Elt F)) :
    after ops V (Proc.devRef .tc main_v283) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v282)) := by
  rw [split5 V]
  exact read_binary ops5_w2 tail6_w2 28 rfl (by decide) (by decide) (by decide) (val5 V)

theorem W_main_v284 (V : Valuation τ sig (Elt F)) :
    after ops V (Proc.devRef .tc main_v284) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v281)) (after ops V (Proc.devRef .tc main_v283)) (after ops V (Proc.devRef .tc main_v18)) := by
  rw [split5 V]
  exact read_ternary ops5_w2 tail6_w2 29 rfl (by decide) (by decide) (by decide) (by decide) (val5 V)

theorem W_main_v285 (V : Valuation τ sig (Elt F)) :
    after ops V (Proc.devRef .tc main_v285) = (broadcastInDim S4096x1 ![0] bcast_S4096_S4096x1_0 : (⟨S4096, .i32⟩ : BufTy).Contents (Elt F) → (⟨S4096x1, .i32⟩ : BufTy).Contents (Elt F)) (after ops V (Proc.devRef .tc main_v284)) := by
  rw [split5 V]
  exact read_unary ops5_w2 tail6_w2 30 rfl (by decide) (by decide) (val5 V)

theorem W_main_v286 (V : Valuation τ sig (Elt F)) :
    after ops V (Proc.devRef .tc main_v286) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v279)) (after ops V (Proc.devRef .tc main_v285)) (after ops V (Proc.devRef .tc main_v271)) := by
  rw [split5 V]
  exact read_ternary ops5_w2 tail6_w2 31 rfl (by decide) (by decide) (by decide) (by decide) (val5 V)

theorem W_main_cst_43 (V : Valuation τ sig (Elt F)) :
    after ops V (Proc.devRef .tc main_cst_43) = (constant S_ .f32 0x00000000#32) := by
  rw [split5 V]
  exact read_nullary ops5_w2 tail6_w2 32 rfl (by decide) (val5 V)

theorem W_main_v287 (V : Valuation τ sig (Elt F)) :
    after ops V (Proc.devRef .tc main_v287) = ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)) (after ops V (Proc.devRef .tc main_v260)) (after ops V (Proc.devRef .tc main_cst_43)) := by
  rw [split5 V]
  exact read_binary ops5_w2 tail6_w2 33 rfl (by decide) (by decide) (by decide) (val5 V)

theorem W_main_v288 (V : Valuation τ sig (Elt F)) :
    after ops V (Proc.devRef .tc main_v288) = (addf : (⟨S2048, .f32⟩ : BufTy).Contents (Elt F) → (⟨S2048, .f32⟩ : BufTy).Contents (Elt F) → (⟨S2048, .f32⟩ : BufTy).Contents (Elt F)) (after ops V (Proc.devRef .tc main_v214)) (after ops V (Proc.devRef .tc main_v287)) := by
  rw [split5 V]
  exact read_binary ops5_w2 tail6_w2 34 rfl (by decide) (by decide) (by decide) (val5 V)

theorem W_main_v289 (V : Valuation τ sig (Elt F)) :
    after ops V (Proc.devRef .tc main_v289) = ((extractStridedSlice S1x8192 ![3, 0] · slices_S8x8192_S1x8192_3_0) : (⟨S8x8192, .f32⟩ : BufTy).Contents (Elt F) → (⟨S1x8192, .f32⟩ : BufTy).Contents (Elt F)) (after ops V (Proc.devRef .tc main_arg4)) := by
  rw [split5 V]
  exact read_unary ops5_w2 tail6_w2 35 rfl (by decide) (by decide) (val5 V)

theorem W_main_v290 (V : Valuation τ sig (Elt F)) :
    after ops V (Proc.devRef .tc main_v290) = shapeCast S8192 (after ops V (Proc.devRef .tc main_v289)) shapeCasts_S1x8192_S8192 := by
  rw [split5 V]
  exact read_reshape ops5_w2 tail6_w2 36 rfl (by decide) (by decide) (val5 V)

theorem W_main_v291 (V : Valuation τ sig (Elt F)) :
    after ops V (Proc.devRef .tc main_v291) = (broadcastInDim S1x8192 ![1] bcast_S8192_S1x8192_1 : (⟨S8192, .f32⟩ : BufTy).Contents (Elt F) → (⟨S1x8192, .f32⟩ : BufTy).Contents (Elt F)) (after ops V (Proc.devRef .tc main_v290)) := by
  rw [split5 V]
  exact read_unary ops5_w2 tail6_w2 37 rfl (by decide) (by decide) (val5 V)

theorem W_main_v292 (V : Valuation τ sig (Elt F)) :
    after ops V (Proc.devRef .tc main_v292) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v291)) := by
  rw [split5 V]
  exact read_unary ops5_w2 tail6_w2 38 rfl (by decide) (by decide) (val5 V)

theorem W_main_v293 (V : Valuation τ sig (Elt F)) :
    after ops V (Proc.devRef .tc main_v293) = (addf : (⟨S2048x8192, .f32⟩ : BufTy).Contents (Elt F) → (⟨S2048x8192, .f32⟩ : BufTy).Contents (Elt F) → (⟨S2048x8192, .f32⟩ : BufTy).Contents (Elt F)) (after ops V (Proc.devRef .tc main_v286)) (after ops V (Proc.devRef .tc main_v292)) := by
  rw [split5 V]
  exact read_binary ops5_w2 tail6_w2 39 rfl (by decide) (by decide) (by decide) (val5 V)

theorem W_main_v294 (V : Valuation τ sig (Elt F)) :
    after ops V (Proc.devRef .tc main_v294) = ((extractStridedSlice S1x8192 ![3, 0] · slices_S8x8192_S1x8192_3_0) : (⟨S8x8192, .f32⟩ : BufTy).Contents (Elt F) → (⟨S1x8192, .f32⟩ : BufTy).Contents (Elt F)) (after ops V (Proc.devRef .tc main_arg3)) := by
  rw [split5 V]
  exact read_unary ops5_w2 tail6_w2 40 rfl (by decide) (by decide) (val5 V)

theorem W_main_v295 (V : Valuation τ sig (Elt F)) :
    after ops V (Proc.devRef .tc main_v295) = shapeCast S8192 (after ops V (Proc.devRef .tc main_v294)) shapeCasts_S1x8192_S8192 := by
  rw [split5 V]
  exact read_reshape ops5_w2 tail6_w2 41 rfl (by decide) (by decide) (val5 V)

theorem W_main_v296 (V : Valuation τ sig (Elt F)) :
    after ops V (Proc.devRef .tc main_v296) = (Host.exp : (⟨S8192, .f32⟩ : BufTy).Contents (Elt F) → (⟨S8192, .f32⟩ : BufTy).Contents (Elt F)) (after ops V (Proc.devRef .tc main_v295)) := by
  rw [split5 V]
  exact read_unary ops5_w2 tail6_w2 42 rfl (by decide) (by decide) (val5 V)

theorem W_main_v297 (V : Valuation τ sig (Elt F)) :
    after ops V (Proc.devRef .tc main_v297) = (broadcastInDim S1x8192 ![1] bcast_S8192_S1x8192_1 : (⟨S8192, .f32⟩ : BufTy).Contents (Elt F) → (⟨S1x8192, .f32⟩ : BufTy).Contents (Elt F)) (after ops V (Proc.devRef .tc main_v296)) := by
  rw [split5 V]
  exact read_unary ops5_w2 tail6_w2 43 rfl (by decide) (by decide) (val5 V)

theorem W_main_v298 (V : Valuation τ sig (Elt F)) :
    after ops V (Proc.devRef .tc main_v298) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v297)) := by
  rw [split5 V]
  exact read_unary ops5_w2 tail6_w2 44 rfl (by decide) (by decide) (val5 V)

theorem W_main_v299 (V : Valuation τ sig (Elt F)) :
    after ops V (Proc.devRef .tc main_v299) = (mulf : (⟨S2048x8192, .f32⟩ : BufTy).Contents (Elt F) → (⟨S2048x8192, .f32⟩ : BufTy).Contents (Elt F) → (⟨S2048x8192, .f32⟩ : BufTy).Contents (Elt F)) (after ops V (Proc.devRef .tc main_v293)) (after ops V (Proc.devRef .tc main_v298)) := by
  rw [split5 V]
  exact read_binary ops5_w2 tail6_w2 45 rfl (by decide) (by decide) (by decide) (val5 V)

theorem W_main_v300 (V : Valuation τ sig (Elt F)) :
    after ops V (Proc.devRef .tc main_v300) = ((extractStridedSlice S1x8192 ![3, 0] · slices_S8x8192_S1x8192_3_0) : (⟨S8x8192, .f32⟩ : BufTy).Contents (Elt F) → (⟨S1x8192, .f32⟩ : BufTy).Contents (Elt F)) (after ops V (Proc.devRef .tc main_arg3)) := by
  rw [split5 V]
  exact read_unary ops5_w2 tail6_w2 46 rfl (by decide) (by decide) (val5 V)

theorem W_main_v301 (V : Valuation τ sig (Elt F)) :
    after ops V (Proc.devRef .tc main_v301) = shapeCast S8192 (after ops V (Proc.devRef .tc main_v300)) shapeCasts_S1x8192_S8192 := by
  rw [split5 V]
  exact read_reshape ops5_w2 tail6_w2 47 rfl (by decide) (by decide) (val5 V)

theorem W_main_cst_44 (V : Valuation τ sig (Elt F)) :
    after ops V (Proc.devRef .tc main_cst_44) = (constant S_ .f32 0x00000000#32) := by
  rw [split5 V]
  exact read_nullary ops5_w2 tail6_w2 48 rfl (by decide) (val5 V)

theorem W_main_v302 (V : Valuation τ sig (Elt F)) :
    after ops V (Proc.devRef .tc main_v302) = ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (after ops V (Proc.devRef .tc main_v301)) (after ops V (Proc.devRef .tc main_cst_44)) := by
  rw [split5 V]
  exact read_binary ops5_w2 tail6_w2 49 rfl (by decide) (by decide) (by decide) (val5 V)

theorem W_main_v303 (V : Valuation τ sig (Elt F)) :
    after ops V (Proc.devRef .tc main_v303) = (broadcastInDim S2048 ![] bcast_S_S2048 : (⟨S_, .f32⟩ : BufTy).Contents (Elt F) → (⟨S2048, .f32⟩ : BufTy).Contents (Elt F)) (after ops V (Proc.devRef .tc main_v302)) := by
  rw [split5 V]
  exact read_unary ops5_w2 tail6_w2 50 rfl (by decide) (by decide) (val5 V)

theorem W_main_v304 (V : Valuation τ sig (Elt F)) :
    after ops V (Proc.devRef .tc main_v304) = (addf : (⟨S2048, .f32⟩ : BufTy).Contents (Elt F) → (⟨S2048, .f32⟩ : BufTy).Contents (Elt F) → (⟨S2048, .f32⟩ : BufTy).Contents (Elt F)) (after ops V (Proc.devRef .tc main_v288)) (after ops V (Proc.devRef .tc main_v303)) := by
  rw [split5 V]
  exact read_binary ops5_w2 tail6_w2 51 rfl (by decide) (by decide) (by decide) (val5 V)

theorem W_main_c_45 (V : Valuation τ sig (Elt F)) :
    after ops V (Proc.devRef .tc main_c_45) = (constantI S_ 32 0#32) := by
  rw [split5 V]
  exact read_nullary ops5_w2 tail6_w2 52 rfl (by decide) (val5 V)

theorem W_main_v305 (V : Valuation τ sig (Elt F)) :
    after ops V (Proc.devRef .tc main_v305) = (broadcastInDim S4096 ![] bcast_S_S4096 : (⟨S_, .i32⟩ : BufTy).Contents (Elt F) → (⟨S4096, .i32⟩ : BufTy).Contents (Elt F)) (after ops V (Proc.devRef .tc main_c_45)) := by
  rw [split5 V]
  exact read_unary ops5_w2 tail6_w2 53 rfl (by decide) (by decide) (val5 V)

theorem W_main_v306 (V : Valuation τ sig (Elt F)) :
    after ops V (Proc.devRef .tc main_v306) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v305)) := by
  rw [split5 V]
  exact read_binary ops5_w2 tail6_w2 54 rfl (by decide) (by decide) (by decide) (val5 V)

theorem W_main_c_46 (V : Valuation τ sig (Elt F)) :
    after ops V (Proc.devRef .tc main_c_46) = (constantI S_ 32 8192#32) := by
  rw [split5 V]
  exact read_nullary ops5_w2 tail6_w2 55 rfl (by decide) (val5 V)

theorem W_main_v307 (V : Valuation τ sig (Elt F)) :
    after ops V (Proc.devRef .tc main_v307) = (broadcastInDim S4096 ![] bcast_S_S4096 : (⟨S_, .i32⟩ : BufTy).Contents (Elt F) → (⟨S4096, .i32⟩ : BufTy).Contents (Elt F)) (after ops V (Proc.devRef .tc main_c_46)) := by
  rw [split5 V]
  exact read_unary ops5_w2 tail6_w2 56 rfl (by decide) (by decide) (val5 V)

theorem W_main_v308 (V : Valuation τ sig (Elt F)) :
    after ops V (Proc.devRef .tc main_v308) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v307)) := by
  rw [split5 V]
  exact read_binary ops5_w2 tail6_w2 57 rfl (by decide) (by decide) (by decide) (val5 V)

theorem W_main_v309 (V : Valuation τ sig (Elt F)) :
    after ops V (Proc.devRef .tc main_v309) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v306)) (after ops V (Proc.devRef .tc main_v308)) (after ops V (Proc.devRef .tc main_v18)) := by
  rw [split5 V]
  exact read_ternary ops5_w2 tail6_w2 58 rfl (by decide) (by decide) (by decide) (by decide) (val5 V)

theorem W_main_v310 (V : Valuation τ sig (Elt F)) :
    after ops V (Proc.devRef .tc main_v310) = (broadcastInDim S4096x1 ![0] bcast_S4096_S4096x1_0 : (⟨S4096, .i32⟩ : BufTy).Contents (Elt F) → (⟨S4096x1, .i32⟩ : BufTy).Contents (Elt F)) (after ops V (Proc.devRef .tc main_v309)) := by
  rw [split5 V]
  exact read_unary ops5_w2 tail6_w2 59 rfl (by decide) (by decide) (val5 V)

end Cert.RSide

end
-- ==== Proof.RFlow2.lean ====
import proofs.«175835_j29978871726094_1_alg».proof.Proof.RSsa0
import proofs.«175835_j29978871726094_1_alg».proof.Proof.RSsa3
import proofs.«175835_j29978871726094_1_alg».proof.Proof.RSsa4
import proofs.«175835_j29978871726094_1_alg».proof.Proof.RSsa5
import proofs.«175835_j29978871726094_1_alg».proof.Proof.RFlowBase
import proofs.«175835_j29978871726094_1_alg».proof.Proof.FlowRefTerms3

open scoped BigOperators

noncomputable section

namespace Cert.RSide

open Cert.ReferenceIdeal Cert.ReferenceIdeal.Gen Idealize.ShloMosaic Idealize.ShloMosaic.TcCoe Idealize.SL.Sem Idealize.ShloMosaic.StableHlo Cert.Flow Cert.Flow.RefTerms

/-- Layer 2 on the array: the second scatter's result is stepZ of the array the layer starts from. The two scatters
    write the conditioning columns and the transformed columns; the arrays they are computed from — the rescaled array, its
    columns of the two parities, the hidden array, the scales and the shifts — are each their own operations' function of the
    ones before (the equations of the run, read one operation at a time). -/
theorem flow2_z (V : Valuation τ sig (Elt Ideal)) :
    after ops V (Proc.devRef .tc main_v286) = stepZ (RP V) (Rcnd V) 2 (after ops V (Proc.devRef .tc main_v196)) := by
  rw [W_main_v286, W_main_v285, W_main_v284, W_main_v283, W_main_v282, W_main_c_42, W_main_v281, W_main_v280, W_main_c_41, W_main_v279, W_main_v278, W_main_v277, W_main_v276, W_main_v275, W_main_c_40, W_main_v274, W_main_v273, W_main_c_39, W_main_v272, W_main_cst_38, W_main_v271, W_main_v270, W_main_v269,
    W_main_v13, W_main_v12, W_main_c_2, W_main_v11, W_main_v10, W_main_c_1, W_main_v9,
    W_main_v18, W_main_v17, W_main_c_4, W_main_v16, W_main_v15, W_main_c_3, W_main_v14]
  beta_reduce
  apply layer_z_of_eqs (i := 2) (o := 2) (parC := 0) (parU := 1) (za := after ops V (Proc.devRef .tc main_v209))
    (hm := after ops V (Proc.devRef .tc main_v247))
  case hza =>
    rw [W_main_v209, W_main_v208, W_main_v207, W_main_v206, W_main_v205, W_main_v204, W_main_v203, W_main_v202, W_main_v201, W_main_v200, W_main_v199, W_main_arg3, W_main_arg4]
    all_goals rfl
  case hxc =>
    rw [W_main_v221, W_main_v220, W_main_v219, W_main_v218, W_main_v217, W_main_c_33, W_main_v216, W_main_v215, W_main_c_32, W_main_v13, W_main_v12, W_main_c_2, W_main_v11, W_main_v10, W_main_c_1, W_main_v9]
    all_goals rfl
  case hxu =>
    rw [W_main_v228, W_main_v227, W_main_v226, W_main_v225, W_main_v224, W_main_c_35, W_main_v223, W_main_v222, W_main_c_34, W_main_v18, W_main_v17, W_main_c_4, W_main_v16, W_main_v15, W_main_c_3, W_main_v14]
    all_goals rfl
  case hhm =>
    rw [W_main_v247, W_main_call5_v4, W_main_call5_v3, W_main_call5_v2, W_main_cst_37, W_main_call5_v1, W_main_call5_v0, W_main_call5_cst, W_main_v246, W_main_v245, W_main_v244, W_main_v243, W_main_v242, W_main_v241, W_main_v240, W_main_v239, W_main_v238, W_main_call4_v4, W_main_call4_v3, W_main_call4_v2, W_main_cst_36, W_main_call4_v1, W_main_call4_v0, W_main_call4_cst, W_main_v237, W_main_v236, W_main_v235, W_main_v234, W_main_v233, W_main_v232, W_main_v231, W_main_v230, W_main_v229, W_cond, W_main_arg5, W_main_arg6, W_main_arg7, W_main_arg8]
    all_goals rfl
  case hs_ =>
    rw [W_main_v260, W_main_v259, W_main_v258, W_main_v257, W_main_v256, W_main_v255, W_main_v254, W_main_v253, W_main_v252, W_main_v251, W_main_v250, W_main_v249, W_main_v248, W_main_arg9, W_main_arg10, W_main_arg13]
    all_goals rfl
  case ht =>
    rw [W_main_v268, W_main_v267, W_main_v266, W_main_v265, W_main_v264, W_main_v263, W_main_v262, W_main_v261, W_main_arg11, W_main_arg12]
    all_goals rfl
  all_goals rfl

/-- Layer 2 on the vector: the sum of the layer's logarithmic scales, then the row sums of the scales, added to the vector the
    layer starts from, are stepLd. -/
theorem flow2_ld (V : Valuation τ sig (Elt Ideal)) :
    after ops V (Proc.devRef .tc main_v288) = stepLd (RP V) (Rcnd V) 2 (after ops V (Proc.devRef .tc main_v196)) (after ops V (Proc.devRef .tc main_v198)) := by
  rw [W_main_v288, W_main_v287, W_main_cst_43, W_main_v214, W_main_v213, W_main_v212, W_main_cst_31, W_main_v211, W_main_v210, W_main_arg3]
  beta_reduce
  apply layer_ld_of_eqs (i := 2) (o := 2) (parC := 0) (parU := 1) (za := after ops V (Proc.devRef .tc main_v209))
    (xc := after ops V (Proc.devRef .tc main_v221)) (hm := after ops V (Proc.devRef .tc main_v247))
  case hza =>
    rw [W_main_v209, W_main_v208, W_main_v207, W_main_v206, W_main_v205, W_main_v204, W_main_v203, W_main_v202, W_main_v201, W_main_v200, W_main_v199, W_main_arg3, W_main_arg4]
    all_goals rfl
  case hxc =>
    rw [W_main_v221, W_main_v220, W_main_v219, W_main_v218, W_main_v217, W_main_c_33, W_main_v216, W_main_v215, W_main_c_32, W_main_v13, W_main_v12, W_main_c_2, W_main_v11, W_main_v10, W_main_c_1, W_main_v9]
    all_goals rfl
  case hhm =>
    rw [W_main_v247, W_main_call5_v4, W_main_call5_v3, W_main_call5_v2, W_main_cst_37, W_main_call5_v1, W_main_call5_v0, W_main_call5_cst, W_main_v246, W_main_v245, W_main_v244, W_main_v243, W_main_v242, W_main_v241, W_main_v240, W_main_v239, W_main_v238, W_main_call4_v4, W_main_call4_v3, W_main_call4_v2, W_main_cst_36, W_main_call4_v1, W_main_call4_v0, W_main_call4_cst, W_main_v237, W_main_v236, W_main_v235, W_main_v234, W_main_v233, W_main_v232, W_main_v231, W_main_v230, W_main_v229, W_cond, W_main_arg5, W_main_arg6, W_main_arg7, W_main_arg8]
    all_goals rfl
  case hs_ =>
    rw [W_main_v260, W_main_v259, W_main_v258, W_main_v257, W_main_v256, W_main_v255, W_main_v254, W_main_v253, W_main_v252, W_main_v251, W_main_v250, W_main_v249, W_main_v248, W_main_arg9, W_main_arg10, W_main_arg13]
    all_goals rfl
  all_goals rfl

end Cert.RSide

end
-- ==== Proof.RSsa6.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 6: each operation's buffer at the end of the run, as the operation's function of its operands' buffers at the end of the run. -/

theorem W_main_v311 (V : Valuation τ sig (Elt F)) :
    after ops V (Proc.devRef .tc main_v311) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v299)) (after ops V (Proc.devRef .tc main_v310)) := by
  rw [split6 V]
  exact read_binary ops6_w2 tail7_w2 0 rfl (by decide) (by decide) (by decide) (val6 V)

theorem W_main_c_47 (V : Valuation τ sig (Elt F)) :
    after ops V (Proc.devRef .tc main_c_47) = (constantI S_ 32 0#32) := by
  rw [split6 V]
  exact read_nullary ops6_w2 tail7_w2 1 rfl (by decide) (val6 V)

theorem W_main_v312 (V : Valuation τ sig (Elt F)) :
    after ops V (Proc.devRef .tc main_v312) = (broadcastInDim S4096 ![] bcast_S_S4096 : (⟨S_, .i32⟩ : BufTy).Contents (Elt F) → (⟨S4096, .i32⟩ : BufTy).Contents (Elt F)) (after ops V (Proc.devRef .tc main_c_47)) := by
  rw [split6 V]
  exact read_unary ops6_w2 tail7_w2 2 rfl (by decide) (by decide) (val6 V)

theorem W_main_v313 (V : Valuation τ sig (Elt F)) :
    after ops V (Proc.devRef .tc main_v313) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v312)) := by
  rw [split6 V]
  exact read_binary ops6_w2 tail7_w2 3 rfl (by decide) (by decide) (by decide) (val6 V)

theorem W_main_c_48 (V : Valuation τ sig (Elt F)) :
    after ops V (Proc.devRef .tc main_c_48) = (constantI S_ 32 8192#32) := by
  rw [split6 V]
  exact read_nullary ops6_w2 tail7_w2 4 rfl (by decide) (val6 V)

theorem W_main_v314 (V : Valuation τ sig (Elt F)) :
    after ops V (Proc.devRef .tc main_v314) = (broadcastInDim S4096 ![] bcast_S_S4096 : (⟨S_, .i32⟩ : BufTy).Contents (Elt F) → (⟨S4096, .i32⟩ : BufTy).Contents (Elt F)) (after ops V (Proc.devRef .tc main_c_48)) := by
  rw [split6 V]
  exact read_unary ops6_w2 tail7_w2 5 rfl (by decide) (by decide) (val6 V)

theorem W_main_v315 (V : Valuation τ sig (Elt F)) :
    after ops V (Proc.devRef .tc main_v315) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v314)) := by
  rw [split6 V]
  exact read_binary ops6_w2 tail7_w2 6 rfl (by decide) (by decide) (by decide) (val6 V)

theorem W_main_v316 (V : Valuation τ sig (Elt F)) :
    after ops V (Proc.devRef .tc main_v316) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v313)) (after ops V (Proc.devRef .tc main_v315)) (after ops V (Proc.devRef .tc main_v13)) := by
  rw [split6 V]
  exact read_ternary ops6_w2 tail7_w2 7 rfl (by decide) (by decide) (by decide) (by decide) (val6 V)

theorem W_main_v317 (V : Valuation τ sig (Elt F)) :
    after ops V (Proc.devRef .tc main_v317) = (broadcastInDim S4096x1 ![0] bcast_S4096_S4096x1_0 : (⟨S4096, .i32⟩ : BufTy).Contents (Elt F) → (⟨S4096x1, .i32⟩ : BufTy).Contents (Elt F)) (after ops V (Proc.devRef .tc main_v316)) := by
  rw [split6 V]
  exact read_unary ops6_w2 tail7_w2 8 rfl (by decide) (by decide) (val6 V)

theorem W_main_v318 (V : Valuation τ sig (Elt F)) :
    after ops V (Proc.devRef .tc main_v318) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v299)) (after ops V (Proc.devRef .tc main_v317)) := by
  rw [split6 V]
  exact read_binary ops6_w2 tail7_w2 9 rfl (by decide) (by decide) (by decide) (val6 V)

theorem W_main_v319 (V : Valuation τ sig (Elt F)) :
    after ops V (Proc.devRef .tc main_v319) = ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)) (after ops V (Proc.devRef .tc main_v311)) (after ops V (Proc.devRef .tc main_v7)) := by
  rw [split6 V]
  exact read_binary ops6_w2 tail7_w2 10 rfl (by decide) (by decide) (by decide) (val6 V)

theorem W_main_v320 (V : Valuation τ sig (Elt F)) :
    after ops V (Proc.devRef .tc main_v320) = ((extractStridedSlice S1x5120x1024 ![3, 0, 0] · slices_S8x5120x1024_S1x5120x1024_3_0_0) : (⟨S8x5120x1024, .f32⟩ : BufTy).Contents (Elt F) → (⟨S1x5120x1024, .f32⟩ : BufTy).Contents (Elt F)) (after ops V (Proc.devRef .tc main_arg5)) := by
  rw [split6 V]
  exact read_unary ops6_w2 tail7_w2 11 rfl (by decide) (by decide) (val6 V)

theorem W_main_v321 (V : Valuation τ sig (Elt F)) :
    after ops V (Proc.devRef .tc main_v321) = shapeCast S5120x1024 (after ops V (Proc.devRef .tc main_v320)) shapeCasts_S1x5120x1024_S5120x1024 := by
  rw [split6 V]
  exact read_reshape ops6_w2 tail7_w2 12 rfl (by decide) (by decide) (val6 V)

theorem W_main_v322 (V : Valuation τ sig (Elt F)) :
    after ops V (Proc.devRef .tc main_v322) = ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)) (after ops V (Proc.devRef .tc main_v319)) (after ops V (Proc.devRef .tc main_v321)) := by
  rw [split6 V]
  exact read_binary ops6_w2 tail7_w2 13 rfl (by decide) (by decide) (by decide) (val6 V)

theorem W_main_v323 (V : Valuation τ sig (Elt F)) :
    after ops V (Proc.devRef .tc main_v323) = ((extractStridedSlice S1x1024 ![3, 0] · slices_S8x1024_S1x1024_3_0) : (⟨S8x1024, .f32⟩ : BufTy).Contents (Elt F) → (⟨S1x1024, .f32⟩ : BufTy).Contents (Elt F)) (after ops V (Proc.devRef .tc main_arg6)) := by
  rw [split6 V]
  exact read_unary ops6_w2 tail7_w2 14 rfl (by decide) (by decide) (val6 V)

theorem W_main_v324 (V : Valuation τ sig (Elt F)) :
    after ops V (Proc.devRef .tc main_v324) = shapeCast S1024 (after ops V (Proc.devRef .tc main_v323)) shapeCasts_S1x1024_S1024 := by
  rw [split6 V]
  exact read_reshape ops6_w2 tail7_w2 15 rfl (by decide) (by decide) (val6 V)

theorem W_main_v325 (V : Valuation τ sig (Elt F)) :
    after ops V (Proc.devRef .tc main_v325) = (broadcastInDim S1x1024 ![1] bcast_S1024_S1x1024_1 : (⟨S1024, .f32⟩ : BufTy).Contents (Elt F) → (⟨S1x1024, .f32⟩ : BufTy).Contents (Elt F)) (after ops V (Proc.devRef .tc main_v324)) := by
  rw [split6 V]
  exact read_unary ops6_w2 tail7_w2 16 rfl (by decide) (by decide) (val6 V)

theorem W_main_v326 (V : Valuation τ sig (Elt F)) :
    after ops V (Proc.devRef .tc main_v326) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v325)) := by
  rw [split6 V]
  exact read_unary ops6_w2 tail7_w2 17 rfl (by decide) (by decide) (val6 V)

theorem W_main_v327 (V : Valuation τ sig (Elt F)) :
    after ops V (Proc.devRef .tc main_v327) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v322)) (after ops V (Proc.devRef .tc main_v326)) := by
  rw [split6 V]
  exact read_binary ops6_w2 tail7_w2 18 rfl (by decide) (by decide) (by decide) (val6 V)

theorem W_main_cst_49 (V : Valuation τ sig (Elt F)) :
    after ops V (Proc.devRef .tc main_cst_49) = (constant S_ .f32 0x3E4CCCCD#32) := by
  rw [split6 V]
  exact read_nullary ops6_w2 tail7_w2 19 rfl (by decide) (val6 V)

theorem W_main_call6_cst (V : Valuation τ sig (Elt F)) :
    after ops V (Proc.devRef .tc main_call6_cst) = (constant S_ .f32 0x00000000#32) := by
  rw [split6 V]
  exact read_nullary ops6_w2 tail7_w2 20 rfl (by decide) (val6 V)

theorem W_main_call6_v0 (V : Valuation τ sig (Elt F)) :
    after ops V (Proc.devRef .tc main_call6_v0) = (broadcastInDim S2048x1024 ![] bcast_S_S2048x1024 : (⟨S_, .f32⟩ : BufTy).Contents (Elt F) → (⟨S2048x1024, .f32⟩ : BufTy).Contents (Elt F)) (after ops V (Proc.devRef .tc main_call6_cst)) := by
  rw [split6 V]
  exact read_unary ops6_w2 tail7_w2 21 rfl (by decide) (by decide) (val6 V)

theorem W_main_call6_v1 (V : Valuation τ sig (Elt F)) :
    after ops V (Proc.devRef .tc main_call6_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v327)) (after ops V (Proc.devRef .tc main_call6_v0)) := by
  rw [split6 V]
  exact read_binary ops6_w2 tail7_w2 22 rfl (by decide) (by decide) (by decide) (val6 V)

theorem W_main_call6_v2 (V : Valuation τ sig (Elt F)) :
    after ops V (Proc.devRef .tc main_call6_v2) = (id : (⟨S_, .f32⟩ : BufTy).Contents (Elt F) → (⟨S_, .f32⟩ : BufTy).Contents (Elt F)) (after ops V (Proc.devRef .tc main_cst_49)) := by
  rw [split6 V]
  exact read_unary ops6_w2 tail7_w2 23 rfl (by decide) (by decide) (val6 V)

theorem W_main_call6_v3 (V : Valuation τ sig (Elt F)) :
    after ops V (Proc.devRef .tc main_call6_v3) = (broadcastInDim S2048x1024 ![] bcast_S_S2048x1024 : (⟨S_, .f32⟩ : BufTy).Contents (Elt F) → (⟨S2048x1024, .f32⟩ : BufTy).Contents (Elt F)) (after ops V (Proc.devRef .tc main_call6_v2)) := by
  rw [split6 V]
  exact read_unary ops6_w2 tail7_w2 24 rfl (by decide) (by decide) (val6 V)

theorem W_main_call6_v4 (V : Valuation τ sig (Elt F)) :
    after ops V (Proc.devRef .tc main_call6_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call6_v3)) (after ops V (Proc.devRef .tc main_v327)) := by
  rw [split6 V]
  exact read_binary ops6_w2 tail7_w2 25 rfl (by decide) (by decide) (by decide) (val6 V)

theorem W_main_v328 (V : Valuation τ sig (Elt F)) :
    after ops V (Proc.devRef .tc main_v328) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call6_v1)) (after ops V (Proc.devRef .tc main_v327)) (after ops V (Proc.devRef .tc main_call6_v4)) := by
  rw [split6 V]
  exact read_ternary ops6_w2 tail7_w2 26 rfl (by decide) (by decide) (by decide) (by decide) (val6 V)

theorem W_main_v329 (V : Valuation τ sig (Elt F)) :
    after ops V (Proc.devRef .tc main_v329) = ((extractStridedSlice S1x1024x1024 ![3, 0, 0] · slices_S8x1024x1024_S1x1024x1024_3_0_0) : (⟨S8x1024x1024, .f32⟩ : BufTy).Contents (Elt F) → (⟨S1x1024x1024, .f32⟩ : BufTy).Contents (Elt F)) (after ops V (Proc.devRef .tc main_arg7)) := by
  rw [split6 V]
  exact read_unary ops6_w2 tail7_w2 27 rfl (by decide) (by decide) (val6 V)

theorem W_main_v330 (V : Valuation τ sig (Elt F)) :
    after ops V (Proc.devRef .tc main_v330) = shapeCast S1024x1024 (after ops V (Proc.devRef .tc main_v329)) shapeCasts_S1x1024x1024_S1024x1024 := by
  rw [split6 V]
  exact read_reshape ops6_w2 tail7_w2 28 rfl (by decide) (by decide) (val6 V)

theorem W_main_v331 (V : Valuation τ sig (Elt F)) :
    after ops V (Proc.devRef .tc main_v331) = ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)) (after ops V (Proc.devRef .tc main_v328)) (after ops V (Proc.devRef .tc main_v330)) := by
  rw [split6 V]
  exact read_binary ops6_w2 tail7_w2 29 rfl (by decide) (by decide) (by decide) (val6 V)

theorem W_main_v332 (V : Valuation τ sig (Elt F)) :
    after ops V (Proc.devRef .tc main_v332) = ((extractStridedSlice S1x1024 ![3, 0] · slices_S8x1024_S1x1024_3_0) : (⟨S8x1024, .f32⟩ : BufTy).Contents (Elt F) → (⟨S1x1024, .f32⟩ : BufTy).Contents (Elt F)) (after ops V (Proc.devRef .tc main_arg8)) := by
  rw [split6 V]
  exact read_unary ops6_w2 tail7_w2 30 rfl (by decide) (by decide) (val6 V)

theorem W_main_v333 (V : Valuation τ sig (Elt F)) :
    after ops V (Proc.devRef .tc main_v333) = shapeCast S1024 (after ops V (Proc.devRef .tc main_v332)) shapeCasts_S1x1024_S1024 := by
  rw [split6 V]
  exact read_reshape ops6_w2 tail7_w2 31 rfl (by decide) (by decide) (val6 V)

theorem W_main_v334 (V : Valuation τ sig (Elt F)) :
    after ops V (Proc.devRef .tc main_v334) = (broadcastInDim S1x1024 ![1] bcast_S1024_S1x1024_1 : (⟨S1024, .f32⟩ : BufTy).Contents (Elt F) → (⟨S1x1024, .f32⟩ : BufTy).Contents (Elt F)) (after ops V (Proc.devRef .tc main_v333)) := by
  rw [split6 V]
  exact read_unary ops6_w2 tail7_w2 32 rfl (by decide) (by decide) (val6 V)

theorem W_main_v335 (V : Valuation τ sig (Elt F)) :
    after ops V (Proc.devRef .tc main_v335) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v334)) := by
  rw [split6 V]
  exact read_unary ops6_w2 tail7_w2 33 rfl (by decide) (by decide) (val6 V)

theorem W_main_v336 (V : Valuation τ sig (Elt F)) :
    after ops V (Proc.devRef .tc main_v336) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v331)) (after ops V (Proc.devRef .tc main_v335)) := by
  rw [split6 V]
  exact read_binary ops6_w2 tail7_w2 34 rfl (by decide) (by decide) (by decide) (val6 V)

theorem W_main_cst_50 (V : Valuation τ sig (Elt F)) :
    after ops V (Proc.devRef .tc main_cst_50) = (constant S_ .f32 0x3E4CCCCD#32) := by
  rw [split6 V]
  exact read_nullary ops6_w2 tail7_w2 35 rfl (by decide) (val6 V)

theorem W_main_call7_cst (V : Valuation τ sig (Elt F)) :
    after ops V (Proc.devRef .tc main_call7_cst) = (constant S_ .f32 0x00000000#32) := by
  rw [split6 V]
  exact read_nullary ops6_w2 tail7_w2 36 rfl (by decide) (val6 V)

theorem W_main_call7_v0 (V : Valuation τ sig (Elt F)) :
    after ops V (Proc.devRef .tc main_call7_v0) = (broadcastInDim S2048x1024 ![] bcast_S_S2048x1024 : (⟨S_, .f32⟩ : BufTy).Contents (Elt F) → (⟨S2048x1024, .f32⟩ : BufTy).Contents (Elt F)) (after ops V (Proc.devRef .tc main_call7_cst)) := by
  rw [split6 V]
  exact read_unary ops6_w2 tail7_w2 37 rfl (by decide) (by decide) (val6 V)

theorem W_main_call7_v1 (V : Valuation τ sig (Elt F)) :
    after ops V (Proc.devRef .tc main_call7_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v336)) (after ops V (Proc.devRef .tc main_call7_v0)) := by
  rw [split6 V]
  exact read_binary ops6_w2 tail7_w2 38 rfl (by decide) (by decide) (by decide) (val6 V)

theorem W_main_call7_v2 (V : Valuation τ sig (Elt F)) :
    after ops V (Proc.devRef .tc main_call7_v2) = (id : (⟨S_, .f32⟩ : BufTy).Contents (Elt F) → (⟨S_, .f32⟩ : BufTy).Contents (Elt F)) (after ops V (Proc.devRef .tc main_cst_50)) := by
  rw [split6 V]
  exact read_unary ops6_w2 tail7_w2 39 rfl (by decide) (by decide) (val6 V)

theorem W_main_call7_v3 (V : Valuation τ sig (Elt F)) :
    after ops V (Proc.devRef .tc main_call7_v3) = (broadcastInDim S2048x1024 ![] bcast_S_S2048x1024 : (⟨S_, .f32⟩ : BufTy).Contents (Elt F) → (⟨S2048x1024, .f32⟩ : BufTy).Contents (Elt F)) (after ops V (Proc.devRef .tc main_call7_v2)) := by
  rw [split6 V]
  exact read_unary ops6_w2 tail7_w2 40 rfl (by decide) (by decide) (val6 V)

theorem W_main_call7_v4 (V : Valuation τ sig (Elt F)) :
    after ops V (Proc.devRef .tc main_call7_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call7_v3)) (after ops V (Proc.devRef .tc main_v336)) := by
  rw [split6 V]
  exact read_binary ops6_w2 tail7_w2 41 rfl (by decide) (by decide) (by decide) (val6 V)

theorem W_main_v337 (V : Valuation τ sig (Elt F)) :
    after ops V (Proc.devRef .tc main_v337) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call7_v1)) (after ops V (Proc.devRef .tc main_v336)) (after ops V (Proc.devRef .tc main_call7_v4)) := by
  rw [split6 V]
  exact read_ternary ops6_w2 tail7_w2 42 rfl (by decide) (by decide) (by decide) (by decide) (val6 V)

theorem W_main_v338 (V : Valuation τ sig (Elt F)) :
    after ops V (Proc.devRef .tc main_v338) = ((extractStridedSlice S1x1024x4096 ![3, 0, 0] · slices_S8x1024x4096_S1x1024x4096_3_0_0) : (⟨S8x1024x4096, .f32⟩ : BufTy).Contents (Elt F) → (⟨S1x1024x4096, .f32⟩ : BufTy).Contents (Elt F)) (after ops V (Proc.devRef .tc main_arg9)) := by
  rw [split6 V]
  exact read_unary ops6_w2 tail7_w2 43 rfl (by decide) (by decide) (val6 V)

theorem W_main_v339 (V : Valuation τ sig (Elt F)) :
    after ops V (Proc.devRef .tc main_v339) = shapeCast S1024x4096 (after ops V (Proc.devRef .tc main_v338)) shapeCasts_S1x1024x4096_S1024x4096 := by
  rw [split6 V]
  exact read_reshape ops6_w2 tail7_w2 44 rfl (by decide) (by decide) (val6 V)

theorem W_main_v340 (V : Valuation τ sig (Elt F)) :
    after ops V (Proc.devRef .tc main_v340) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v337)) (after ops V (Proc.devRef .tc main_v339)) := by
  rw [split6 V]
  exact read_binary ops6_w2 tail7_w2 45 rfl (by decide) (by decide) (by decide) (val6 V)

theorem W_main_v341 (V : Valuation τ sig (Elt F)) :
    after ops V (Proc.devRef .tc main_v341) = ((extractStridedSlice S1x4096 ![3, 0] · slices_S8x4096_S1x4096_3_0) : (⟨S8x4096, .f32⟩ : BufTy).Contents (Elt F) → (⟨S1x4096, .f32⟩ : BufTy).Contents (Elt F)) (after ops V (Proc.devRef .tc main_arg10)) := by
  rw [split6 V]
  exact read_unary ops6_w2 tail7_w2 46 rfl (by decide) (by decide) (val6 V)

theorem W_main_v342 (V : Valuation τ sig (Elt F)) :
    after ops V (Proc.devRef .tc main_v342) = shapeCast S4096 (after ops V (Proc.devRef .tc main_v341)) shapeCasts_S1x4096_S4096 := by
  rw [split6 V]
  exact read_reshape ops6_w2 tail7_w2 47 rfl (by decide) (by decide) (val6 V)

theorem W_main_v343 (V : Valuation τ sig (Elt F)) :
    after ops V (Proc.devRef .tc main_v343) = (broadcastInDim S1x4096 ![1] bcast_S4096_S1x4096_1 : (⟨S4096, .f32⟩ : BufTy).Contents (Elt F) → (⟨S1x4096, .f32⟩ : BufTy).Contents (Elt F)) (after ops V (Proc.devRef .tc main_v342)) := by
  rw [split6 V]
  exact read_unary ops6_w2 tail7_w2 48 rfl (by decide) (by decide) (val6 V)

theorem W_main_v344 (V : Valuation τ sig (Elt F)) :
    after ops V (Proc.devRef .tc main_v344) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v343)) := by
  rw [split6 V]
  exact read_unary ops6_w2 tail7_w2 49 rfl (by decide) (by decide) (val6 V)

theorem W_main_v345 (V : Valuation τ sig (Elt F)) :
    after ops V (Proc.devRef .tc main_v345) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v340)) (after ops V (Proc.devRef .tc main_v344)) := by
  rw [split6 V]
  exact read_binary ops6_w2 tail7_w2 50 rfl (by decide) (by decide) (by decide) (val6 V)

theorem W_main_v346 (V : Valuation τ sig (Elt F)) :
    after ops V (Proc.devRef .tc main_v346) = (Host.tanh : (⟨S2048x4096, .f32⟩ : BufTy).Contents (Elt F) → (⟨S2048x4096, .f32⟩ : BufTy).Contents (Elt F)) (after ops V (Proc.devRef .tc main_v345)) := by
  rw [split6 V]
  exact read_unary ops6_w2 tail7_w2 51 rfl (by decide) (by decide) (val6 V)

theorem W_main_v347 (V : Valuation τ sig (Elt F)) :
    after ops V (Proc.devRef .tc main_v347) = ((extractStridedSlice S1 ![3] · slices_S8_S1_3) : (⟨S8, .f32⟩ : BufTy).Contents (Elt F) → (⟨S1, .f32⟩ : BufTy).Contents (Elt F)) (after ops V (Proc.devRef .tc main_arg13)) := by
  rw [split6 V]
  exact read_unary ops6_w2 tail7_w2 52 rfl (by decide) (by decide) (val6 V)

theorem W_main_v348 (V : Valuation τ sig (Elt F)) :
    after ops V (Proc.devRef .tc main_v348) = shapeCast S_ (after ops V (Proc.devRef .tc main_v347)) shapeCasts_S1_S_ := by
  rw [split6 V]
  exact read_reshape ops6_w2 tail7_w2 53 rfl (by decide) (by decide) (val6 V)

theorem W_main_v349 (V : Valuation τ sig (Elt F)) :
    after ops V (Proc.devRef .tc main_v349) = (broadcastInDim S2048x4096 ![] bcast_S_S2048x4096 : (⟨S_, .f32⟩ : BufTy).Contents (Elt F) → (⟨S2048x4096, .f32⟩ : BufTy).Contents (Elt F)) (after ops V (Proc.devRef .tc main_v348)) := by
  rw [split6 V]
  exact read_unary ops6_w2 tail7_w2 54 rfl (by decide) (by decide) (val6 V)

theorem W_main_v350 (V : Valuation τ sig (Elt F)) :
    after ops V (Proc.devRef .tc main_v350) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v346)) (after ops V (Proc.devRef .tc main_v349)) := by
  rw [split6 V]
  exact read_binary ops6_w2 tail7_w2 55 rfl (by decide) (by decide) (by decide) (val6 V)

theorem W_main_v351 (V : Valuation τ sig (Elt F)) :
    after ops V (Proc.devRef .tc main_v351) = ((extractStridedSlice S1x1024x4096 ![3, 0, 0] · slices_S8x1024x4096_S1x1024x4096_3_0_0) : (⟨S8x1024x4096, .f32⟩ : BufTy).Contents (Elt F) → (⟨S1x1024x4096, .f32⟩ : BufTy).Contents (Elt F)) (after ops V (Proc.devRef .tc main_arg11)) := by
  rw [split6 V]
  exact read_unary ops6_w2 tail7_w2 56 rfl (by decide) (by decide) (val6 V)

theorem W_main_v352 (V : Valuation τ sig (Elt F)) :
    after ops V (Proc.devRef .tc main_v352) = shapeCast S1024x4096 (after ops V (Proc.devRef .tc main_v351)) shapeCasts_S1x1024x4096_S1024x4096 := by
  rw [split6 V]
  exact read_reshape ops6_w2 tail7_w2 57 rfl (by decide) (by decide) (val6 V)

theorem W_main_v353 (V : Valuation τ sig (Elt F)) :
    after ops V (Proc.devRef .tc main_v353) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v337)) (after ops V (Proc.devRef .tc main_v352)) := by
  rw [split6 V]
  exact read_binary ops6_w2 tail7_w2 58 rfl (by decide) (by decide) (by decide) (val6 V)

theorem W_main_v354 (V : Valuation τ sig (Elt F)) :
    after ops V (Proc.devRef .tc main_v354) = ((extractStridedSlice S1x4096 ![3, 0] · slices_S8x4096_S1x4096_3_0) : (⟨S8x4096, .f32⟩ : BufTy).Contents (Elt F) → (⟨S1x4096, .f32⟩ : BufTy).Contents (Elt F)) (after ops V (Proc.devRef .tc main_arg12)) := by
  rw [split6 V]
  exact read_unary ops6_w2 tail7_w2 59 rfl (by decide) (by decide) (val6 V)

theorem W_main_v355 (V : Valuation τ sig (Elt F)) :
    after ops V (Proc.devRef .tc main_v355) = shapeCast S4096 (after ops V (Proc.devRef .tc main_v354)) shapeCasts_S1x4096_S4096 := by
  rw [split6 V]
  exact read_reshape ops6_w2 tail7_w2 60 rfl (by decide) (by decide) (val6 V)

theorem W_main_v356 (V : Valuation τ sig (Elt F)) :
    after ops V (Proc.devRef .tc main_v356) = (broadcastInDim S1x4096 ![1] bcast_S4096_S1x4096_1 : (⟨S4096, .f32⟩ : BufTy).Contents (Elt F) → (⟨S1x4096, .f32⟩ : BufTy).Contents (Elt F)) (after ops V (Proc.devRef .tc main_v355)) := by
  rw [split6 V]
  exact read_unary ops6_w2 tail7_w2 61 rfl (by decide) (by decide) (val6 V)

theorem W_main_v357 (V : Valuation τ sig (Elt F)) :
    after ops V (Proc.devRef .tc main_v357) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v356)) := by
  rw [split6 V]
  exact read_unary ops6_w2 tail7_w2 62 rfl (by decide) (by decide) (val6 V)

theorem W_main_v358 (V : Valuation τ sig (Elt F)) :
    after ops V (Proc.devRef .tc main_v358) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v353)) (after ops V (Proc.devRef .tc main_v357)) := by
  rw [split6 V]
  exact read_binary ops6_w2 tail7_w2 63 rfl (by decide) (by decide) (by decide) (val6 V)

theorem W_main_v359 (V : Valuation τ sig (Elt F)) :
    after ops V (Proc.devRef .tc main_v359) = (Host.exp : (⟨S2048x4096, .f32⟩ : BufTy).Contents (Elt F) → (⟨S2048x4096, .f32⟩ : BufTy).Contents (Elt F)) (after ops V (Proc.devRef .tc main_v350)) := by
  rw [split6 V]
  exact read_unary ops6_w2 tail7_w2 64 rfl (by decide) (by decide) (val6 V)

theorem W_main_v360 (V : Valuation τ sig (Elt F)) :
    after ops V (Proc.devRef .tc main_v360) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v318)) (after ops V (Proc.devRef .tc main_v359)) := by
  rw [split6 V]
  exact read_binary ops6_w2 tail7_w2 65 rfl (by decide) (by decide) (by decide) (val6 V)

theorem W_main_v361 (V : Valuation τ sig (Elt F)) :
    after ops V (Proc.devRef .tc main_v361) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v360)) (after ops V (Proc.devRef .tc main_v358)) := by
  rw [split6 V]
  exact read_binary ops6_w2 tail7_w2 66 rfl (by decide) (by decide) (by decide) (val6 V)

theorem W_main_cst_51 (V : Valuation τ sig (Elt F)) :
    after ops V (Proc.devRef .tc main_cst_51) = (constant S_ .f32 0x00000000#32) := by
  rw [split6 V]
  exact read_nullary ops6_w2 tail7_w2 67 rfl (by decide) (val6 V)

theorem W_main_v362 (V : Valuation τ sig (Elt F)) :
    after ops V (Proc.devRef .tc main_v362) = (broadcastInDim S2048x8192 ![] bcast_S_S2048x8192 : (⟨S_, .f32⟩ : BufTy).Contents (Elt F) → (⟨S2048x8192, .f32⟩ : BufTy).Contents (Elt F)) (after ops V (Proc.devRef .tc main_cst_51)) := by
  rw [split6 V]
  exact read_unary ops6_w2 tail7_w2 68 rfl (by decide) (by decide) (val6 V)

theorem W_main_c_52 (V : Valuation τ sig (Elt F)) :
    after ops V (Proc.devRef .tc main_c_52) = (constantI S_ 32 0#32) := by
  rw [split6 V]
  exact read_nullary ops6_w2 tail7_w2 69 rfl (by decide) (val6 V)

theorem W_main_v363 (V : Valuation τ sig (Elt F)) :
    after ops V (Proc.devRef .tc main_v363) = (broadcastInDim S4096 ![] bcast_S_S4096 : (⟨S_, .i32⟩ : BufTy).Contents (Elt F) → (⟨S4096, .i32⟩ : BufTy).Contents (Elt F)) (after ops V (Proc.devRef .tc main_c_52)) := by
  rw [split6 V]
  exact read_unary ops6_w2 tail7_w2 70 rfl (by decide) (by decide) (val6 V)

theorem W_main_v364 (V : Valuation τ sig (Elt F)) :
    after ops V (Proc.devRef .tc main_v364) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v363)) := by
  rw [split6 V]
  exact read_binary ops6_w2 tail7_w2 71 rfl (by decide) (by decide) (by decide) (val6 V)

end Cert.RSide

end
-- ==== Proof.RSsa7.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 7: each operation's buffer at the end of the run, as the operation's function of its operands' buffers at the end of the run. -/

theorem W_main_c_53 (V : Valuation τ sig (Elt F)) :
    after ops V (Proc.devRef .tc main_c_53) = (constantI S_ 32 8192#32) := by
  rw [split7 V]
  exact read_nullary ops7_w2 tail8_w2 0 rfl (by decide) (val7 V)

theorem W_main_v365 (V : Valuation τ sig (Elt F)) :
    after ops V (Proc.devRef .tc main_v365) = (broadcastInDim S4096 ![] bcast_S_S4096 : (⟨S_, .i32⟩ : BufTy).Contents (Elt F) → (⟨S4096, .i32⟩ : BufTy).Contents (Elt F)) (after ops V (Proc.devRef .tc main_c_53)) := by
  rw [split7 V]
  exact read_unary ops7_w2 tail8_w2 1 rfl (by decide) (by decide) (val7 V)

theorem W_main_v366 (V : Valuation τ sig (Elt F)) :
    after ops V (Proc.devRef .tc main_v366) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v365)) := by
  rw [split7 V]
  exact read_binary ops7_w2 tail8_w2 2 rfl (by decide) (by decide) (by decide) (val7 V)

theorem W_main_v367 (V : Valuation τ sig (Elt F)) :
    after ops V (Proc.devRef .tc main_v367) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v364)) (after ops V (Proc.devRef .tc main_v366)) (after ops V (Proc.devRef .tc main_v18)) := by
  rw [split7 V]
  exact read_ternary ops7_w2 tail8_w2 3 rfl (by decide) (by decide) (by decide) (by decide) (val7 V)

theorem W_main_v368 (V : Valuation τ sig (Elt F)) :
    after ops V (Proc.devRef .tc main_v368) = (broadcastInDim S4096x1 ![0] bcast_S4096_S4096x1_0 : (⟨S4096, .i32⟩ : BufTy).Contents (Elt F) → (⟨S4096x1, .i32⟩ : BufTy).Contents (Elt F)) (after ops V (Proc.devRef .tc main_v367)) := by
  rw [split7 V]
  exact read_unary ops7_w2 tail8_w2 4 rfl (by decide) (by decide) (val7 V)

theorem W_main_v369 (V : Valuation τ sig (Elt F)) :
    after ops V (Proc.devRef .tc main_v369) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v362)) (after ops V (Proc.devRef .tc main_v368)) (after ops V (Proc.devRef .tc main_v311)) := by
  rw [split7 V]
  exact read_ternary ops7_w2 tail8_w2 5 rfl (by decide) (by decide) (by decide) (by decide) (val7 V)

theorem W_main_c_54 (V : Valuation τ sig (Elt F)) :
    after ops V (Proc.devRef .tc main_c_54) = (constantI S_ 32 0#32) := by
  rw [split7 V]
  exact read_nullary ops7_w2 tail8_w2 6 rfl (by decide) (val7 V)

theorem W_main_v370 (V : Valuation τ sig (Elt F)) :
    after ops V (Proc.devRef .tc main_v370) = (broadcastInDim S4096 ![] bcast_S_S4096 : (⟨S_, .i32⟩ : BufTy).Contents (Elt F) → (⟨S4096, .i32⟩ : BufTy).Contents (Elt F)) (after ops V (Proc.devRef .tc main_c_54)) := by
  rw [split7 V]
  exact read_unary ops7_w2 tail8_w2 7 rfl (by decide) (by decide) (val7 V)

theorem W_main_v371 (V : Valuation τ sig (Elt F)) :
    after ops V (Proc.devRef .tc main_v371) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v370)) := by
  rw [split7 V]
  exact read_binary ops7_w2 tail8_w2 8 rfl (by decide) (by decide) (by decide) (val7 V)

theorem W_main_c_55 (V : Valuation τ sig (Elt F)) :
    after ops V (Proc.devRef .tc main_c_55) = (constantI S_ 32 8192#32) := by
  rw [split7 V]
  exact read_nullary ops7_w2 tail8_w2 9 rfl (by decide) (val7 V)

theorem W_main_v372 (V : Valuation τ sig (Elt F)) :
    after ops V (Proc.devRef .tc main_v372) = (broadcastInDim S4096 ![] bcast_S_S4096 : (⟨S_, .i32⟩ : BufTy).Contents (Elt F) → (⟨S4096, .i32⟩ : BufTy).Contents (Elt F)) (after ops V (Proc.devRef .tc main_c_55)) := by
  rw [split7 V]
  exact read_unary ops7_w2 tail8_w2 10 rfl (by decide) (by decide) (val7 V)

theorem W_main_v373 (V : Valuation τ sig (Elt F)) :
    after ops V (Proc.devRef .tc main_v373) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v372)) := by
  rw [split7 V]
  exact read_binary ops7_w2 tail8_w2 11 rfl (by decide) (by decide) (by decide) (val7 V)

theorem W_main_v374 (V : Valuation τ sig (Elt F)) :
    after ops V (Proc.devRef .tc main_v374) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v371)) (after ops V (Proc.devRef .tc main_v373)) (after ops V (Proc.devRef .tc main_v13)) := by
  rw [split7 V]
  exact read_ternary ops7_w2 tail8_w2 12 rfl (by decide) (by decide) (by decide) (by decide) (val7 V)

theorem W_main_v375 (V : Valuation τ sig (Elt F)) :
    after ops V (Proc.devRef .tc main_v375) = (broadcastInDim S4096x1 ![0] bcast_S4096_S4096x1_0 : (⟨S4096, .i32⟩ : BufTy).Contents (Elt F) → (⟨S4096x1, .i32⟩ : BufTy).Contents (Elt F)) (after ops V (Proc.devRef .tc main_v374)) := by
  rw [split7 V]
  exact read_unary ops7_w2 tail8_w2 13 rfl (by decide) (by decide) (val7 V)

theorem W_main_v376 (V : Valuation τ sig (Elt F)) :
    after ops V (Proc.devRef .tc main_v376) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v369)) (after ops V (Proc.devRef .tc main_v375)) (after ops V (Proc.devRef .tc main_v361)) := by
  rw [split7 V]
  exact read_ternary ops7_w2 tail8_w2 14 rfl (by decide) (by decide) (by decide) (by decide) (val7 V)

theorem W_main_cst_56 (V : Valuation τ sig (Elt F)) :
    after ops V (Proc.devRef .tc main_cst_56) = (constant S_ .f32 0x00000000#32) := by
  rw [split7 V]
  exact read_nullary ops7_w2 tail8_w2 15 rfl (by decide) (val7 V)

theorem W_main_v377 (V : Valuation τ sig (Elt F)) :
    after ops V (Proc.devRef .tc main_v377) = ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)) (after ops V (Proc.devRef .tc main_v350)) (after ops V (Proc.devRef .tc main_cst_56)) := by
  rw [split7 V]
  exact read_binary ops7_w2 tail8_w2 16 rfl (by decide) (by decide) (by decide) (val7 V)

theorem W_main_v378 (V : Valuation τ sig (Elt F)) :
    after ops V (Proc.devRef .tc main_v378) = (addf : (⟨S2048, .f32⟩ : BufTy).Contents (Elt F) → (⟨S2048, .f32⟩ : BufTy).Contents (Elt F) → (⟨S2048, .f32⟩ : BufTy).Contents (Elt F)) (after ops V (Proc.devRef .tc main_v304)) (after ops V (Proc.devRef .tc main_v377)) := by
  rw [split7 V]
  exact read_binary ops7_w2 tail8_w2 17 rfl (by decide) (by decide) (by decide) (val7 V)

theorem W_main_v379 (V : Valuation τ sig (Elt F)) :
    after ops V (Proc.devRef .tc main_v379) = ((extractStridedSlice S1x8192 ![4, 0] · slices_S8x8192_S1x8192_4_0) : (⟨S8x8192, .f32⟩ : BufTy).Contents (Elt F) → (⟨S1x8192, .f32⟩ : BufTy).Contents (Elt F)) (after ops V (Proc.devRef .tc main_arg4)) := by
  rw [split7 V]
  exact read_unary ops7_w2 tail8_w2 18 rfl (by decide) (by decide) (val7 V)

theorem W_main_v380 (V : Valuation τ sig (Elt F)) :
    after ops V (Proc.devRef .tc main_v380) = shapeCast S8192 (after ops V (Proc.devRef .tc main_v379)) shapeCasts_S1x8192_S8192 := by
  rw [split7 V]
  exact read_reshape ops7_w2 tail8_w2 19 rfl (by decide) (by decide) (val7 V)

theorem W_main_v381 (V : Valuation τ sig (Elt F)) :
    after ops V (Proc.devRef .tc main_v381) = (broadcastInDim S1x8192 ![1] bcast_S8192_S1x8192_1 : (⟨S8192, .f32⟩ : BufTy).Contents (Elt F) → (⟨S1x8192, .f32⟩ : BufTy).Contents (Elt F)) (after ops V (Proc.devRef .tc main_v380)) := by
  rw [split7 V]
  exact read_unary ops7_w2 tail8_w2 20 rfl (by decide) (by decide) (val7 V)

theorem W_main_v382 (V : Valuation τ sig (Elt F)) :
    after ops V (Proc.devRef .tc main_v382) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v381)) := by
  rw [split7 V]
  exact read_unary ops7_w2 tail8_w2 21 rfl (by decide) (by decide) (val7 V)

theorem W_main_v383 (V : Valuation τ sig (Elt F)) :
    after ops V (Proc.devRef .tc main_v383) = (addf : (⟨S2048x8192, .f32⟩ : BufTy).Contents (Elt F) → (⟨S2048x8192, .f32⟩ : BufTy).Contents (Elt F) → (⟨S2048x8192, .f32⟩ : BufTy).Contents (Elt F)) (after ops V (Proc.devRef .tc main_v376)) (after ops V (Proc.devRef .tc main_v382)) := by
  rw [split7 V]
  exact read_binary ops7_w2 tail8_w2 22 rfl (by decide) (by decide) (by decide) (val7 V)

theorem W_main_v384 (V : Valuation τ sig (Elt F)) :
    after ops V (Proc.devRef .tc main_v384) = ((extractStridedSlice S1x8192 ![4, 0] · slices_S8x8192_S1x8192_4_0) : (⟨S8x8192, .f32⟩ : BufTy).Contents (Elt F) → (⟨S1x8192, .f32⟩ : BufTy).Contents (Elt F)) (after ops V (Proc.devRef .tc main_arg3)) := by
  rw [split7 V]
  exact read_unary ops7_w2 tail8_w2 23 rfl (by decide) (by decide) (val7 V)

theorem W_main_v385 (V : Valuation τ sig (Elt F)) :
    after ops V (Proc.devRef .tc main_v385) = shapeCast S8192 (after ops V (Proc.devRef .tc main_v384)) shapeCasts_S1x8192_S8192 := by
  rw [split7 V]
  exact read_reshape ops7_w2 tail8_w2 24 rfl (by decide) (by decide) (val7 V)

theorem W_main_v386 (V : Valuation τ sig (Elt F)) :
    after ops V (Proc.devRef .tc main_v386) = (Host.exp : (⟨S8192, .f32⟩ : BufTy).Contents (Elt F) → (⟨S8192, .f32⟩ : BufTy).Contents (Elt F)) (after ops V (Proc.devRef .tc main_v385)) := by
  rw [split7 V]
  exact read_unary ops7_w2 tail8_w2 25 rfl (by decide) (by decide) (val7 V)

theorem W_main_v387 (V : Valuation τ sig (Elt F)) :
    after ops V (Proc.devRef .tc main_v387) = (broadcastInDim S1x8192 ![1] bcast_S8192_S1x8192_1 : (⟨S8192, .f32⟩ : BufTy).Contents (Elt F) → (⟨S1x8192, .f32⟩ : BufTy).Contents (Elt F)) (after ops V (Proc.devRef .tc main_v386)) := by
  rw [split7 V]
  exact read_unary ops7_w2 tail8_w2 26 rfl (by decide) (by decide) (val7 V)

theorem W_main_v388 (V : Valuation τ sig (Elt F)) :
    after ops V (Proc.devRef .tc main_v388) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v387)) := by
  rw [split7 V]
  exact read_unary ops7_w2 tail8_w2 27 rfl (by decide) (by decide) (val7 V)

theorem W_main_v389 (V : Valuation τ sig (Elt F)) :
    after ops V (Proc.devRef .tc main_v389) = (mulf : (⟨S2048x8192, .f32⟩ : BufTy).Contents (Elt F) → (⟨S2048x8192, .f32⟩ : BufTy).Contents (Elt F) → (⟨S2048x8192, .f32⟩ : BufTy).Contents (Elt F)) (after ops V (Proc.devRef .tc main_v383)) (after ops V (Proc.devRef .tc main_v388)) := by
  rw [split7 V]
  exact read_binary ops7_w2 tail8_w2 28 rfl (by decide) (by decide) (by decide) (val7 V)

theorem W_main_v390 (V : Valuation τ sig (Elt F)) :
    after ops V (Proc.devRef .tc main_v390) = ((extractStridedSlice S1x8192 ![4, 0] · slices_S8x8192_S1x8192_4_0) : (⟨S8x8192, .f32⟩ : BufTy).Contents (Elt F) → (⟨S1x8192, .f32⟩ : BufTy).Contents (Elt F)) (after ops V (Proc.devRef .tc main_arg3)) := by
  rw [split7 V]
  exact read_unary ops7_w2 tail8_w2 29 rfl (by decide) (by decide) (val7 V)

theorem W_main_v391 (V : Valuation τ sig (Elt F)) :
    after ops V (Proc.devRef .tc main_v391) = shapeCast S8192 (after ops V (Proc.devRef .tc main_v390)) shapeCasts_S1x8192_S8192 := by
  rw [split7 V]
  exact read_reshape ops7_w2 tail8_w2 30 rfl (by decide) (by decide) (val7 V)

theorem W_main_cst_57 (V : Valuation τ sig (Elt F)) :
    after ops V (Proc.devRef .tc main_cst_57) = (constant S_ .f32 0x00000000#32) := by
  rw [split7 V]
  exact read_nullary ops7_w2 tail8_w2 31 rfl (by decide) (val7 V)

theorem W_main_v392 (V : Valuation τ sig (Elt F)) :
    after ops V (Proc.devRef .tc main_v392) = ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (after ops V (Proc.devRef .tc main_v391)) (after ops V (Proc.devRef .tc main_cst_57)) := by
  rw [split7 V]
  exact read_binary ops7_w2 tail8_w2 32 rfl (by decide) (by decide) (by decide) (val7 V)

theorem W_main_v393 (V : Valuation τ sig (Elt F)) :
    after ops V (Proc.devRef .tc main_v393) = (broadcastInDim S2048 ![] bcast_S_S2048 : (⟨S_, .f32⟩ : BufTy).Contents (Elt F) → (⟨S2048, .f32⟩ : BufTy).Contents (Elt F)) (after ops V (Proc.devRef .tc main_v392)) := by
  rw [split7 V]
  exact read_unary ops7_w2 tail8_w2 33 rfl (by decide) (by decide) (val7 V)

theorem W_main_v394 (V : Valuation τ sig (Elt F)) :
    after ops V (Proc.devRef .tc main_v394) = (addf : (⟨S2048, .f32⟩ : BufTy).Contents (Elt F) → (⟨S2048, .f32⟩ : BufTy).Contents (Elt F) → (⟨S2048, .f32⟩ : BufTy).Contents (Elt F)) (after ops V (Proc.devRef .tc main_v378)) (after ops V (Proc.devRef .tc main_v393)) := by
  rw [split7 V]
  exact read_binary ops7_w2 tail8_w2 34 rfl (by decide) (by decide) (by decide) (val7 V)

theorem W_main_c_58 (V : Valuation τ sig (Elt F)) :
    after ops V (Proc.devRef .tc main_c_58) = (constantI S_ 32 0#32) := by
  rw [split7 V]
  exact read_nullary ops7_w2 tail8_w2 35 rfl (by decide) (val7 V)

theorem W_main_v395 (V : Valuation τ sig (Elt F)) :
    after ops V (Proc.devRef .tc main_v395) = (broadcastInDim S4096 ![] bcast_S_S4096 : (⟨S_, .i32⟩ : BufTy).Contents (Elt F) → (⟨S4096, .i32⟩ : BufTy).Contents (Elt F)) (after ops V (Proc.devRef .tc main_c_58)) := by
  rw [split7 V]
  exact read_unary ops7_w2 tail8_w2 36 rfl (by decide) (by decide) (val7 V)

theorem W_main_v396 (V : Valuation τ sig (Elt F)) :
    after ops V (Proc.devRef .tc main_v396) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v395)) := by
  rw [split7 V]
  exact read_binary ops7_w2 tail8_w2 37 rfl (by decide) (by decide) (by decide) (val7 V)

theorem W_main_c_59 (V : Valuation τ sig (Elt F)) :
    after ops V (Proc.devRef .tc main_c_59) = (constantI S_ 32 8192#32) := by
  rw [split7 V]
  exact read_nullary ops7_w2 tail8_w2 38 rfl (by decide) (val7 V)

theorem W_main_v397 (V : Valuation τ sig (Elt F)) :
    after ops V (Proc.devRef .tc main_v397) = (broadcastInDim S4096 ![] bcast_S_S4096 : (⟨S_, .i32⟩ : BufTy).Contents (Elt F) → (⟨S4096, .i32⟩ : BufTy).Contents (Elt F)) (after ops V (Proc.devRef .tc main_c_59)) := by
  rw [split7 V]
  exact read_unary ops7_w2 tail8_w2 39 rfl (by decide) (by decide) (val7 V)

theorem W_main_v398 (V : Valuation τ sig (Elt F)) :
    after ops V (Proc.devRef .tc main_v398) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v397)) := by
  rw [split7 V]
  exact read_binary ops7_w2 tail8_w2 40 rfl (by decide) (by decide) (by decide) (val7 V)

theorem W_main_v399 (V : Valuation τ sig (Elt F)) :
    after ops V (Proc.devRef .tc main_v399) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v396)) (after ops V (Proc.devRef .tc main_v398)) (after ops V (Proc.devRef .tc main_v13)) := by
  rw [split7 V]
  exact read_ternary ops7_w2 tail8_w2 41 rfl (by decide) (by decide) (by decide) (by decide) (val7 V)

theorem W_main_v400 (V : Valuation τ sig (Elt F)) :
    after ops V (Proc.devRef .tc main_v400) = (broadcastInDim S4096x1 ![0] bcast_S4096_S4096x1_0 : (⟨S4096, .i32⟩ : BufTy).Contents (Elt F) → (⟨S4096x1, .i32⟩ : BufTy).Contents (Elt F)) (after ops V (Proc.devRef .tc main_v399)) := by
  rw [split7 V]
  exact read_unary ops7_w2 tail8_w2 42 rfl (by decide) (by decide) (val7 V)

theorem W_main_v401 (V : Valuation τ sig (Elt F)) :
    after ops V (Proc.devRef .tc main_v401) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v389)) (after ops V (Proc.devRef .tc main_v400)) := by
  rw [split7 V]
  exact read_binary ops7_w2 tail8_w2 43 rfl (by decide) (by decide) (by decide) (val7 V)

theorem W_main_c_60 (V : Valuation τ sig (Elt F)) :
    after ops V (Proc.devRef .tc main_c_60) = (constantI S_ 32 0#32) := by
  rw [split7 V]
  exact read_nullary ops7_w2 tail8_w2 44 rfl (by decide) (val7 V)

theorem W_main_v402 (V : Valuation τ sig (Elt F)) :
    after ops V (Proc.devRef .tc main_v402) = (broadcastInDim S4096 ![] bcast_S_S4096 : (⟨S_, .i32⟩ : BufTy).Contents (Elt F) → (⟨S4096, .i32⟩ : BufTy).Contents (Elt F)) (after ops V (Proc.devRef .tc main_c_60)) := by
  rw [split7 V]
  exact read_unary ops7_w2 tail8_w2 45 rfl (by decide) (by decide) (val7 V)

theorem W_main_v403 (V : Valuation τ sig (Elt F)) :
    after ops V (Proc.devRef .tc main_v403) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v402)) := by
  rw [split7 V]
  exact read_binary ops7_w2 tail8_w2 46 rfl (by decide) (by decide) (by decide) (val7 V)

theorem W_main_c_61 (V : Valuation τ sig (Elt F)) :
    after ops V (Proc.devRef .tc main_c_61) = (constantI S_ 32 8192#32) := by
  rw [split7 V]
  exact read_nullary ops7_w2 tail8_w2 47 rfl (by decide) (val7 V)

theorem W_main_v404 (V : Valuation τ sig (Elt F)) :
    after ops V (Proc.devRef .tc main_v404) = (broadcastInDim S4096 ![] bcast_S_S4096 : (⟨S_, .i32⟩ : BufTy).Contents (Elt F) → (⟨S4096, .i32⟩ : BufTy).Contents (Elt F)) (after ops V (Proc.devRef .tc main_c_61)) := by
  rw [split7 V]
  exact read_unary ops7_w2 tail8_w2 48 rfl (by decide) (by decide) (val7 V)

theorem W_main_v405 (V : Valuation τ sig (Elt F)) :
    after ops V (Proc.devRef .tc main_v405) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v404)) := by
  rw [split7 V]
  exact read_binary ops7_w2 tail8_w2 49 rfl (by decide) (by decide) (by decide) (val7 V)

theorem W_main_v406 (V : Valuation τ sig (Elt F)) :
    after ops V (Proc.devRef .tc main_v406) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v403)) (after ops V (Proc.devRef .tc main_v405)) (after ops V (Proc.devRef .tc main_v18)) := by
  rw [split7 V]
  exact read_ternary ops7_w2 tail8_w2 50 rfl (by decide) (by decide) (by decide) (by decide) (val7 V)

theorem W_main_v407 (V : Valuation τ sig (Elt F)) :
    after ops V (Proc.devRef .tc main_v407) = (broadcastInDim S4096x1 ![0] bcast_S4096_S4096x1_0 : (⟨S4096, .i32⟩ : BufTy).Contents (Elt F) → (⟨S4096x1, .i32⟩ : BufTy).Contents (Elt F)) (after ops V (Proc.devRef .tc main_v406)) := by
  rw [split7 V]
  exact read_unary ops7_w2 tail8_w2 51 rfl (by decide) (by decide) (val7 V)

theorem W_main_v408 (V : Valuation τ sig (Elt F)) :
    after ops V (Proc.devRef .tc main_v408) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v389)) (after ops V (Proc.devRef .tc main_v407)) := by
  rw [split7 V]
  exact read_binary ops7_w2 tail8_w2 52 rfl (by decide) (by decide) (by decide) (val7 V)

theorem W_main_v409 (V : Valuation τ sig (Elt F)) :
    after ops V (Proc.devRef .tc main_v409) = ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)) (after ops V (Proc.devRef .tc main_v401)) (after ops V (Proc.devRef .tc main_v7)) := by
  rw [split7 V]
  exact read_binary ops7_w2 tail8_w2 53 rfl (by decide) (by decide) (by decide) (val7 V)

theorem W_main_v410 (V : Valuation τ sig (Elt F)) :
    after ops V (Proc.devRef .tc main_v410) = ((extractStridedSlice S1x5120x1024 ![4, 0, 0] · slices_S8x5120x1024_S1x5120x1024_4_0_0) : (⟨S8x5120x1024, .f32⟩ : BufTy).Contents (Elt F) → (⟨S1x5120x1024, .f32⟩ : BufTy).Contents (Elt F)) (after ops V (Proc.devRef .tc main_arg5)) := by
  rw [split7 V]
  exact read_unary ops7_w2 tail8_w2 54 rfl (by decide) (by decide) (val7 V)

theorem W_main_v411 (V : Valuation τ sig (Elt F)) :
    after ops V (Proc.devRef .tc main_v411) = shapeCast S5120x1024 (after ops V (Proc.devRef .tc main_v410)) shapeCasts_S1x5120x1024_S5120x1024 := by
  rw [split7 V]
  exact read_reshape ops7_w2 tail8_w2 55 rfl (by decide) (by decide) (val7 V)

theorem W_main_v412 (V : Valuation τ sig (Elt F)) :
    after ops V (Proc.devRef .tc main_v412) = ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)) (after ops V (Proc.devRef .tc main_v409)) (after ops V (Proc.devRef .tc main_v411)) := by
  rw [split7 V]
  exact read_binary ops7_w2 tail8_w2 56 rfl (by decide) (by decide) (by decide) (val7 V)

theorem W_main_v413 (V : Valuation τ sig (Elt F)) :
    after ops V (Proc.devRef .tc main_v413) = ((extractStridedSlice S1x1024 ![4, 0] · slices_S8x1024_S1x1024_4_0) : (⟨S8x1024, .f32⟩ : BufTy).Contents (Elt F) → (⟨S1x1024, .f32⟩ : BufTy).Contents (Elt F)) (after ops V (Proc.devRef .tc main_arg6)) := by
  rw [split7 V]
  exact read_unary ops7_w2 tail8_w2 57 rfl (by decide) (by decide) (val7 V)

theorem W_main_v414 (V : Valuation τ sig (Elt F)) :
    after ops V (Proc.devRef .tc main_v414) = shapeCast S1024 (after ops V (Proc.devRef .tc main_v413)) shapeCasts_S1x1024_S1024 := by
  rw [split7 V]
  exact read_reshape ops7_w2 tail8_w2 58 rfl (by decide) (by decide) (val7 V)

theorem W_main_v415 (V : Valuation τ sig (Elt F)) :
    after ops V (Proc.devRef .tc main_v415) = (broadcastInDim S1x1024 ![1] bcast_S1024_S1x1024_1 : (⟨S1024, .f32⟩ : BufTy).Contents (Elt F) → (⟨S1x1024, .f32⟩ : BufTy).Contents (Elt F)) (after ops V (Proc.devRef .tc main_v414)) := by
  rw [split7 V]
  exact read_unary ops7_w2 tail8_w2 59 rfl (by decide) (by decide) (val7 V)

end Cert.RSide

end
-- ==== Proof.RFlow3.lean ====
import proofs.«175835_j29978871726094_1_alg».proof.Proof.RSsa0
import proofs.«175835_j29978871726094_1_alg».proof.Proof.RSsa5
import proofs.«175835_j29978871726094_1_alg».proof.Proof.RSsa6
import proofs.«175835_j29978871726094_1_alg».proof.Proof.RSsa7
import proofs.«175835_j29978871726094_1_alg».proof.Proof.RFlowBase
import proofs.«175835_j29978871726094_1_alg».proof.Proof.FlowRefTerms3

open scoped BigOperators

noncomputable section

namespace Cert.RSide

open Cert.ReferenceIdeal Cert.ReferenceIdeal.Gen Idealize.ShloMosaic Idealize.ShloMosaic.TcCoe Idealize.SL.Sem Idealize.ShloMosaic.StableHlo Cert.Flow Cert.Flow.RefTerms

/-- Layer 3 on the array: the second scatter's result is stepZ of the array the layer starts from. The two scatters
    write the conditioning columns and the transformed columns; the arrays they are computed from — the rescaled array, its
    columns of the two parities, the hidden array, the scales and the shifts — are each their own operations' function of the
    ones before (the equations of the run, read one operation at a time). -/
theorem flow3_z (V : Valuation τ sig (Elt Ideal)) :
    after ops V (Proc.devRef .tc main_v376) = stepZ (RP V) (Rcnd V) 3 (after ops V (Proc.devRef .tc main_v286)) := by
  rw [W_main_v376, W_main_v375, W_main_v374, W_main_v373, W_main_v372, W_main_c_55, W_main_v371, W_main_v370, W_main_c_54, W_main_v369, W_main_v368, W_main_v367, W_main_v366, W_main_v365, W_main_c_53, W_main_v364, W_main_v363, W_main_c_52, W_main_v362, W_main_cst_51, W_main_v361, W_main_v360, W_main_v359,
    W_main_v13, W_main_v12, W_main_c_2, W_main_v11, W_main_v10, W_main_c_1, W_main_v9,
    W_main_v18, W_main_v17, W_main_c_4, W_main_v16, W_main_v15, W_main_c_3, W_main_v14]
  beta_reduce
  apply layer_z_of_eqs (i := 3) (o := 3) (parC := 1) (parU := 0) (za := after ops V (Proc.devRef .tc main_v299))
    (hm := after ops V (Proc.devRef .tc main_v337))
  case hza =>
    rw [W_main_v299, W_main_v298, W_main_v297, W_main_v296, W_main_v295, W_main_v294, W_main_v293, W_main_v292, W_main_v291, W_main_v290, W_main_v289, W_main_arg3, W_main_arg4]
    all_goals rfl
  case hxc =>
    rw [W_main_v311, W_main_v310, W_main_v309, W_main_v308, W_main_v307, W_main_c_46, W_main_v306, W_main_v305, W_main_c_45, W_main_v18, W_main_v17, W_main_c_4, W_main_v16, W_main_v15, W_main_c_3, W_main_v14]
    all_goals rfl
  case hxu =>
    rw [W_main_v318, W_main_v317, W_main_v316, W_main_v315, W_main_v314, W_main_c_48, W_main_v313, W_main_v312, W_main_c_47, W_main_v13, W_main_v12, W_main_c_2, W_main_v11, W_main_v10, W_main_c_1, W_main_v9]
    all_goals rfl
  case hhm =>
    rw [W_main_v337, W_main_call7_v4, W_main_call7_v3, W_main_call7_v2, W_main_cst_50, W_main_call7_v1, W_main_call7_v0, W_main_call7_cst, W_main_v336, W_main_v335, W_main_v334, W_main_v333, W_main_v332, W_main_v331, W_main_v330, W_main_v329, W_main_v328, W_main_call6_v4, W_main_call6_v3, W_main_call6_v2, W_main_cst_49, W_main_call6_v1, W_main_call6_v0, W_main_call6_cst, W_main_v327, W_main_v326, W_main_v325, W_main_v324, W_main_v323, W_main_v322, W_main_v321, W_main_v320, W_main_v319, W_cond, W_main_arg5, W_main_arg6, W_main_arg7, W_main_arg8]
    all_goals rfl
  case hs_ =>
    rw [W_main_v350, W_main_v349, W_main_v348, W_main_v347, W_main_v346, W_main_v345, W_main_v344, W_main_v343, W_main_v342, W_main_v341, W_main_v340, W_main_v339, W_main_v338, W_main_arg9, W_main_arg10, W_main_arg13]
    all_goals rfl
  case ht =>
    rw [W_main_v358, W_main_v357, W_main_v356, W_main_v355, W_main_v354, W_main_v353, W_main_v352, W_main_v351, W_main_arg11, W_main_arg12]
    all_goals rfl
  all_goals rfl

/-- Layer 3 on the vector: the sum of the layer's logarithmic scales, then the row sums of the scales, added to the vector the
    layer starts from, are stepLd. -/
theorem flow3_ld (V : Valuation τ sig (Elt Ideal)) :
    after ops V (Proc.devRef .tc main_v378) = stepLd (RP V) (Rcnd V) 3 (after ops V (Proc.devRef .tc main_v286)) (after ops V (Proc.devRef .tc main_v288)) := by
  rw [W_main_v378, W_main_v377, W_main_cst_56, W_main_v304, W_main_v303, W_main_v302, W_main_cst_44, W_main_v301, W_main_v300, W_main_arg3]
  beta_reduce
  apply layer_ld_of_eqs (i := 3) (o := 3) (parC := 1) (parU := 0) (za := after ops V (Proc.devRef .tc main_v299))
    (xc := after ops V (Proc.devRef .tc main_v311)) (hm := after ops V (Proc.devRef .tc main_v337))
  case hza =>
    rw [W_main_v299, W_main_v298, W_main_v297, W_main_v296, W_main_v295, W_main_v294, W_main_v293, W_main_v292, W_main_v291, W_main_v290, W_main_v289, W_main_arg3, W_main_arg4]
    all_goals rfl
  case hxc =>
    rw [W_main_v311, W_main_v310, W_main_v309, W_main_v308, W_main_v307, W_main_c_46, W_main_v306, W_main_v305, W_main_c_45, W_main_v18, W_main_v17, W_main_c_4, W_main_v16, W_main_v15, W_main_c_3, W_main_v14]
    all_goals rfl
  case hhm =>
    rw [W_main_v337, W_main_call7_v4, W_main_call7_v3, W_main_call7_v2, W_main_cst_50, W_main_call7_v1, W_main_call7_v0, W_main_call7_cst, W_main_v336, W_main_v335, W_main_v334, W_main_v333, W_main_v332, W_main_v331, W_main_v330, W_main_v329, W_main_v328, W_main_call6_v4, W_main_call6_v3, W_main_call6_v2, W_main_cst_49, W_main_call6_v1, W_main_call6_v0, W_main_call6_cst, W_main_v327, W_main_v326, W_main_v325, W_main_v324, W_main_v323, W_main_v322, W_main_v321, W_main_v320, W_main_v319, W_cond, W_main_arg5, W_main_arg6, W_main_arg7, W_main_arg8]
    all_goals rfl
  case hs_ =>
    rw [W_main_v350, W_main_v349, W_main_v348, W_main_v347, W_main_v346, W_main_v345, W_main_v344, W_main_v343, W_main_v342, W_main_v341, W_main_v340, W_main_v339, W_main_v338, W_main_arg9, W_main_arg10, W_main_arg13]
    all_goals rfl
  all_goals rfl

end Cert.RSide

end
-- ==== Proof.RSsa8.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 8: each operation's buffer at the end of the run, as the operation's function of its operands' buffers at the end of the run. -/

theorem W_main_v416 (V : Valuation τ sig (Elt F)) :
    after ops V (Proc.devRef .tc main_v416) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v415)) := by
  rw [split8 V]
  exact read_unary ops8_w2 tail9_w2 0 rfl (by decide) (by decide) (val8 V)

theorem W_main_v417 (V : Valuation τ sig (Elt F)) :
    after ops V (Proc.devRef .tc main_v417) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v412)) (after ops V (Proc.devRef .tc main_v416)) := by
  rw [split8 V]
  exact read_binary ops8_w2 tail9_w2 1 rfl (by decide) (by decide) (by decide) (val8 V)

theorem W_main_cst_62 (V : Valuation τ sig (Elt F)) :
    after ops V (Proc.devRef .tc main_cst_62) = (constant S_ .f32 0x3E4CCCCD#32) := by
  rw [split8 V]
  exact read_nullary ops8_w2 tail9_w2 2 rfl (by decide) (val8 V)

theorem W_main_call8_cst (V : Valuation τ sig (Elt F)) :
    after ops V (Proc.devRef .tc main_call8_cst) = (constant S_ .f32 0x00000000#32) := by
  rw [split8 V]
  exact read_nullary ops8_w2 tail9_w2 3 rfl (by decide) (val8 V)

theorem W_main_call8_v0 (V : Valuation τ sig (Elt F)) :
    after ops V (Proc.devRef .tc main_call8_v0) = (broadcastInDim S2048x1024 ![] bcast_S_S2048x1024 : (⟨S_, .f32⟩ : BufTy).Contents (Elt F) → (⟨S2048x1024, .f32⟩ : BufTy).Contents (Elt F)) (after ops V (Proc.devRef .tc main_call8_cst)) := by
  rw [split8 V]
  exact read_unary ops8_w2 tail9_w2 4 rfl (by decide) (by decide) (val8 V)

theorem W_main_call8_v1 (V : Valuation τ sig (Elt F)) :
    after ops V (Proc.devRef .tc main_call8_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v417)) (after ops V (Proc.devRef .tc main_call8_v0)) := by
  rw [split8 V]
  exact read_binary ops8_w2 tail9_w2 5 rfl (by decide) (by decide) (by decide) (val8 V)

theorem W_main_call8_v2 (V : Valuation τ sig (Elt F)) :
    after ops V (Proc.devRef .tc main_call8_v2) = (id : (⟨S_, .f32⟩ : BufTy).Contents (Elt F) → (⟨S_, .f32⟩ : BufTy).Contents (Elt F)) (after ops V (Proc.devRef .tc main_cst_62)) := by
  rw [split8 V]
  exact read_unary ops8_w2 tail9_w2 6 rfl (by decide) (by decide) (val8 V)

theorem W_main_call8_v3 (V : Valuation τ sig (Elt F)) :
    after ops V (Proc.devRef .tc main_call8_v3) = (broadcastInDim S2048x1024 ![] bcast_S_S2048x1024 : (⟨S_, .f32⟩ : BufTy).Contents (Elt F) → (⟨S2048x1024, .f32⟩ : BufTy).Contents (Elt F)) (after ops V (Proc.devRef .tc main_call8_v2)) := by
  rw [split8 V]
  exact read_unary ops8_w2 tail9_w2 7 rfl (by decide) (by decide) (val8 V)

theorem W_main_call8_v4 (V : Valuation τ sig (Elt F)) :
    after ops V (Proc.devRef .tc main_call8_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call8_v3)) (after ops V (Proc.devRef .tc main_v417)) := by
  rw [split8 V]
  exact read_binary ops8_w2 tail9_w2 8 rfl (by decide) (by decide) (by decide) (val8 V)

theorem W_main_v418 (V : Valuation τ sig (Elt F)) :
    after ops V (Proc.devRef .tc main_v418) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call8_v1)) (after ops V (Proc.devRef .tc main_v417)) (after ops V (Proc.devRef .tc main_call8_v4)) := by
  rw [split8 V]
  exact read_ternary ops8_w2 tail9_w2 9 rfl (by decide) (by decide) (by decide) (by decide) (val8 V)

theorem W_main_v419 (V : Valuation τ sig (Elt F)) :
    after ops V (Proc.devRef .tc main_v419) = ((extractStridedSlice S1x1024x1024 ![4, 0, 0] · slices_S8x1024x1024_S1x1024x1024_4_0_0) : (⟨S8x1024x1024, .f32⟩ : BufTy).Contents (Elt F) → (⟨S1x1024x1024, .f32⟩ : BufTy).Contents (Elt F)) (after ops V (Proc.devRef .tc main_arg7)) := by
  rw [split8 V]
  exact read_unary ops8_w2 tail9_w2 10 rfl (by decide) (by decide) (val8 V)

theorem W_main_v420 (V : Valuation τ sig (Elt F)) :
    after ops V (Proc.devRef .tc main_v420) = shapeCast S1024x1024 (after ops V (Proc.devRef .tc main_v419)) shapeCasts_S1x1024x1024_S1024x1024 := by
  rw [split8 V]
  exact read_reshape ops8_w2 tail9_w2 11 rfl (by decide) (by decide) (val8 V)

theorem W_main_v421 (V : Valuation τ sig (Elt F)) :
    after ops V (Proc.devRef .tc main_v421) = ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)) (after ops V (Proc.devRef .tc main_v418)) (after ops V (Proc.devRef .tc main_v420)) := by
  rw [split8 V]
  exact read_binary ops8_w2 tail9_w2 12 rfl (by decide) (by decide) (by decide) (val8 V)

theorem W_main_v422 (V : Valuation τ sig (Elt F)) :
    after ops V (Proc.devRef .tc main_v422) = ((extractStridedSlice S1x1024 ![4, 0] · slices_S8x1024_S1x1024_4_0) : (⟨S8x1024, .f32⟩ : BufTy).Contents (Elt F) → (⟨S1x1024, .f32⟩ : BufTy).Contents (Elt F)) (after ops V (Proc.devRef .tc main_arg8)) := by
  rw [split8 V]
  exact read_unary ops8_w2 tail9_w2 13 rfl (by decide) (by decide) (val8 V)

theorem W_main_v423 (V : Valuation τ sig (Elt F)) :
    after ops V (Proc.devRef .tc main_v423) = shapeCast S1024 (after ops V (Proc.devRef .tc main_v422)) shapeCasts_S1x1024_S1024 := by
  rw [split8 V]
  exact read_reshape ops8_w2 tail9_w2 14 rfl (by decide) (by decide) (val8 V)

theorem W_main_v424 (V : Valuation τ sig (Elt F)) :
    after ops V (Proc.devRef .tc main_v424) = (broadcastInDim S1x1024 ![1] bcast_S1024_S1x1024_1 : (⟨S1024, .f32⟩ : BufTy).Contents (Elt F) → (⟨S1x1024, .f32⟩ : BufTy).Contents (Elt F)) (after ops V (Proc.devRef .tc main_v423)) := by
  rw [split8 V]
  exact read_unary ops8_w2 tail9_w2 15 rfl (by decide) (by decide) (val8 V)

theorem W_main_v425 (V : Valuation τ sig (Elt F)) :
    after ops V (Proc.devRef .tc main_v425) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v424)) := by
  rw [split8 V]
  exact read_unary ops8_w2 tail9_w2 16 rfl (by decide) (by decide) (val8 V)

theorem W_main_v426 (V : Valuation τ sig (Elt F)) :
    after ops V (Proc.devRef .tc main_v426) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v421)) (after ops V (Proc.devRef .tc main_v425)) := by
  rw [split8 V]
  exact read_binary ops8_w2 tail9_w2 17 rfl (by decide) (by decide) (by decide) (val8 V)

theorem W_main_cst_63 (V : Valuation τ sig (Elt F)) :
    after ops V (Proc.devRef .tc main_cst_63) = (constant S_ .f32 0x3E4CCCCD#32) := by
  rw [split8 V]
  exact read_nullary ops8_w2 tail9_w2 18 rfl (by decide) (val8 V)

theorem W_main_call9_cst (V : Valuation τ sig (Elt F)) :
    after ops V (Proc.devRef .tc main_call9_cst) = (constant S_ .f32 0x00000000#32) := by
  rw [split8 V]
  exact read_nullary ops8_w2 tail9_w2 19 rfl (by decide) (val8 V)

theorem W_main_call9_v0 (V : Valuation τ sig (Elt F)) :
    after ops V (Proc.devRef .tc main_call9_v0) = (broadcastInDim S2048x1024 ![] bcast_S_S2048x1024 : (⟨S_, .f32⟩ : BufTy).Contents (Elt F) → (⟨S2048x1024, .f32⟩ : BufTy).Contents (Elt F)) (after ops V (Proc.devRef .tc main_call9_cst)) := by
  rw [split8 V]
  exact read_unary ops8_w2 tail9_w2 20 rfl (by decide) (by decide) (val8 V)

theorem W_main_call9_v1 (V : Valuation τ sig (Elt F)) :
    after ops V (Proc.devRef .tc main_call9_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v426)) (after ops V (Proc.devRef .tc main_call9_v0)) := by
  rw [split8 V]
  exact read_binary ops8_w2 tail9_w2 21 rfl (by decide) (by decide) (by decide) (val8 V)

theorem W_main_call9_v2 (V : Valuation τ sig (Elt F)) :
    after ops V (Proc.devRef .tc main_call9_v2) = (id : (⟨S_, .f32⟩ : BufTy).Contents (Elt F) → (⟨S_, .f32⟩ : BufTy).Contents (Elt F)) (after ops V (Proc.devRef .tc main_cst_63)) := by
  rw [split8 V]
  exact read_unary ops8_w2 tail9_w2 22 rfl (by decide) (by decide) (val8 V)

theorem W_main_call9_v3 (V : Valuation τ sig (Elt F)) :
    after ops V (Proc.devRef .tc main_call9_v3) = (broadcastInDim S2048x1024 ![] bcast_S_S2048x1024 : (⟨S_, .f32⟩ : BufTy).Contents (Elt F) → (⟨S2048x1024, .f32⟩ : BufTy).Contents (Elt F)) (after ops V (Proc.devRef .tc main_call9_v2)) := by
  rw [split8 V]
  exact read_unary ops8_w2 tail9_w2 23 rfl (by decide) (by decide) (val8 V)

theorem W_main_call9_v4 (V : Valuation τ sig (Elt F)) :
    after ops V (Proc.devRef .tc main_call9_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call9_v3)) (after ops V (Proc.devRef .tc main_v426)) := by
  rw [split8 V]
  exact read_binary ops8_w2 tail9_w2 24 rfl (by decide) (by decide) (by decide) (val8 V)

theorem W_main_v427 (V : Valuation τ sig (Elt F)) :
    after ops V (Proc.devRef .tc main_v427) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call9_v1)) (after ops V (Proc.devRef .tc main_v426)) (after ops V (Proc.devRef .tc main_call9_v4)) := by
  rw [split8 V]
  exact read_ternary ops8_w2 tail9_w2 25 rfl (by decide) (by decide) (by decide) (by decide) (val8 V)

theorem W_main_v428 (V : Valuation τ sig (Elt F)) :
    after ops V (Proc.devRef .tc main_v428) = ((extractStridedSlice S1x1024x4096 ![4, 0, 0] · slices_S8x1024x4096_S1x1024x4096_4_0_0) : (⟨S8x1024x4096, .f32⟩ : BufTy).Contents (Elt F) → (⟨S1x1024x4096, .f32⟩ : BufTy).Contents (Elt F)) (after ops V (Proc.devRef .tc main_arg9)) := by
  rw [split8 V]
  exact read_unary ops8_w2 tail9_w2 26 rfl (by decide) (by decide) (val8 V)

theorem W_main_v429 (V : Valuation τ sig (Elt F)) :
    after ops V (Proc.devRef .tc main_v429) = shapeCast S1024x4096 (after ops V (Proc.devRef .tc main_v428)) shapeCasts_S1x1024x4096_S1024x4096 := by
  rw [split8 V]
  exact read_reshape ops8_w2 tail9_w2 27 rfl (by decide) (by decide) (val8 V)

theorem W_main_v430 (V : Valuation τ sig (Elt F)) :
    after ops V (Proc.devRef .tc main_v430) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v427)) (after ops V (Proc.devRef .tc main_v429)) := by
  rw [split8 V]
  exact read_binary ops8_w2 tail9_w2 28 rfl (by decide) (by decide) (by decide) (val8 V)

theorem W_main_v431 (V : Valuation τ sig (Elt F)) :
    after ops V (Proc.devRef .tc main_v431) = ((extractStridedSlice S1x4096 ![4, 0] · slices_S8x4096_S1x4096_4_0) : (⟨S8x4096, .f32⟩ : BufTy).Contents (Elt F) → (⟨S1x4096, .f32⟩ : BufTy).Contents (Elt F)) (after ops V (Proc.devRef .tc main_arg10)) := by
  rw [split8 V]
  exact read_unary ops8_w2 tail9_w2 29 rfl (by decide) (by decide) (val8 V)

theorem W_main_v432 (V : Valuation τ sig (Elt F)) :
    after ops V (Proc.devRef .tc main_v432) = shapeCast S4096 (after ops V (Proc.devRef .tc main_v431)) shapeCasts_S1x4096_S4096 := by
  rw [split8 V]
  exact read_reshape ops8_w2 tail9_w2 30 rfl (by decide) (by decide) (val8 V)

theorem W_main_v433 (V : Valuation τ sig (Elt F)) :
    after ops V (Proc.devRef .tc main_v433) = (broadcastInDim S1x4096 ![1] bcast_S4096_S1x4096_1 : (⟨S4096, .f32⟩ : BufTy).Contents (Elt F) → (⟨S1x4096, .f32⟩ : BufTy).Contents (Elt F)) (after ops V (Proc.devRef .tc main_v432)) := by
  rw [split8 V]
  exact read_unary ops8_w2 tail9_w2 31 rfl (by decide) (by decide) (val8 V)

theorem W_main_v434 (V : Valuation τ sig (Elt F)) :
    after ops V (Proc.devRef .tc main_v434) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v433)) := by
  rw [split8 V]
  exact read_unary ops8_w2 tail9_w2 32 rfl (by decide) (by decide) (val8 V)

theorem W_main_v435 (V : Valuation τ sig (Elt F)) :
    after ops V (Proc.devRef .tc main_v435) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v430)) (after ops V (Proc.devRef .tc main_v434)) := by
  rw [split8 V]
  exact read_binary ops8_w2 tail9_w2 33 rfl (by decide) (by decide) (by decide) (val8 V)

theorem W_main_v436 (V : Valuation τ sig (Elt F)) :
    after ops V (Proc.devRef .tc main_v436) = (Host.tanh : (⟨S2048x4096, .f32⟩ : BufTy).Contents (Elt F) → (⟨S2048x4096, .f32⟩ : BufTy).Contents (Elt F)) (after ops V (Proc.devRef .tc main_v435)) := by
  rw [split8 V]
  exact read_unary ops8_w2 tail9_w2 34 rfl (by decide) (by decide) (val8 V)

theorem W_main_v437 (V : Valuation τ sig (Elt F)) :
    after ops V (Proc.devRef .tc main_v437) = ((extractStridedSlice S1 ![4] · slices_S8_S1_4) : (⟨S8, .f32⟩ : BufTy).Contents (Elt F) → (⟨S1, .f32⟩ : BufTy).Contents (Elt F)) (after ops V (Proc.devRef .tc main_arg13)) := by
  rw [split8 V]
  exact read_unary ops8_w2 tail9_w2 35 rfl (by decide) (by decide) (val8 V)

theorem W_main_v438 (V : Valuation τ sig (Elt F)) :
    after ops V (Proc.devRef .tc main_v438) = shapeCast S_ (after ops V (Proc.devRef .tc main_v437)) shapeCasts_S1_S_ := by
  rw [split8 V]
  exact read_reshape ops8_w2 tail9_w2 36 rfl (by decide) (by decide) (val8 V)

theorem W_main_v439 (V : Valuation τ sig (Elt F)) :
    after ops V (Proc.devRef .tc main_v439) = (broadcastInDim S2048x4096 ![] bcast_S_S2048x4096 : (⟨S_, .f32⟩ : BufTy).Contents (Elt F) → (⟨S2048x4096, .f32⟩ : BufTy).Contents (Elt F)) (after ops V (Proc.devRef .tc main_v438)) := by
  rw [split8 V]
  exact read_unary ops8_w2 tail9_w2 37 rfl (by decide) (by decide) (val8 V)

theorem W_main_v440 (V : Valuation τ sig (Elt F)) :
    after ops V (Proc.devRef .tc main_v440) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v436)) (after ops V (Proc.devRef .tc main_v439)) := by
  rw [split8 V]
  exact read_binary ops8_w2 tail9_w2 38 rfl (by decide) (by decide) (by decide) (val8 V)

theorem W_main_v441 (V : Valuation τ sig (Elt F)) :
    after ops V (Proc.devRef .tc main_v441) = ((extractStridedSlice S1x1024x4096 ![4, 0, 0] · slices_S8x1024x4096_S1x1024x4096_4_0_0) : (⟨S8x1024x4096, .f32⟩ : BufTy).Contents (Elt F) → (⟨S1x1024x4096, .f32⟩ : BufTy).Contents (Elt F)) (after ops V (Proc.devRef .tc main_arg11)) := by
  rw [split8 V]
  exact read_unary ops8_w2 tail9_w2 39 rfl (by decide) (by decide) (val8 V)

theorem W_main_v442 (V : Valuation τ sig (Elt F)) :
    after ops V (Proc.devRef .tc main_v442) = shapeCast S1024x4096 (after ops V (Proc.devRef .tc main_v441)) shapeCasts_S1x1024x4096_S1024x4096 := by
  rw [split8 V]
  exact read_reshape ops8_w2 tail9_w2 40 rfl (by decide) (by decide) (val8 V)

theorem W_main_v443 (V : Valuation τ sig (Elt F)) :
    after ops V (Proc.devRef .tc main_v443) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v427)) (after ops V (Proc.devRef .tc main_v442)) := by
  rw [split8 V]
  exact read_binary ops8_w2 tail9_w2 41 rfl (by decide) (by decide) (by decide) (val8 V)

theorem W_main_v444 (V : Valuation τ sig (Elt F)) :
    after ops V (Proc.devRef .tc main_v444) = ((extractStridedSlice S1x4096 ![4, 0] · slices_S8x4096_S1x4096_4_0) : (⟨S8x4096, .f32⟩ : BufTy).Contents (Elt F) → (⟨S1x4096, .f32⟩ : BufTy).Contents (Elt F)) (after ops V (Proc.devRef .tc main_arg12)) := by
  rw [split8 V]
  exact read_unary ops8_w2 tail9_w2 42 rfl (by decide) (by decide) (val8 V)

theorem W_main_v445 (V : Valuation τ sig (Elt F)) :
    after ops V (Proc.devRef .tc main_v445) = shapeCast S4096 (after ops V (Proc.devRef .tc main_v444)) shapeCasts_S1x4096_S4096 := by
  rw [split8 V]
  exact read_reshape ops8_w2 tail9_w2 43 rfl (by decide) (by decide) (val8 V)

theorem W_main_v446 (V : Valuation τ sig (Elt F)) :
    after ops V (Proc.devRef .tc main_v446) = (broadcastInDim S1x4096 ![1] bcast_S4096_S1x4096_1 : (⟨S4096, .f32⟩ : BufTy).Contents (Elt F) → (⟨S1x4096, .f32⟩ : BufTy).Contents (Elt F)) (after ops V (Proc.devRef .tc main_v445)) := by
  rw [split8 V]
  exact read_unary ops8_w2 tail9_w2 44 rfl (by decide) (by decide) (val8 V)

theorem W_main_v447 (V : Valuation τ sig (Elt F)) :
    after ops V (Proc.devRef .tc main_v447) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v446)) := by
  rw [split8 V]
  exact read_unary ops8_w2 tail9_w2 45 rfl (by decide) (by decide) (val8 V)

theorem W_main_v448 (V : Valuation τ sig (Elt F)) :
    after ops V (Proc.devRef .tc main_v448) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v443)) (after ops V (Proc.devRef .tc main_v447)) := by
  rw [split8 V]
  exact read_binary ops8_w2 tail9_w2 46 rfl (by decide) (by decide) (by decide) (val8 V)

theorem W_main_v449 (V : Valuation τ sig (Elt F)) :
    after ops V (Proc.devRef .tc main_v449) = (Host.exp : (⟨S2048x4096, .f32⟩ : BufTy).Contents (Elt F) → (⟨S2048x4096, .f32⟩ : BufTy).Contents (Elt F)) (after ops V (Proc.devRef .tc main_v440)) := by
  rw [split8 V]
  exact read_unary ops8_w2 tail9_w2 47 rfl (by decide) (by decide) (val8 V)

theorem W_main_v450 (V : Valuation τ sig (Elt F)) :
    after ops V (Proc.devRef .tc main_v450) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v408)) (after ops V (Proc.devRef .tc main_v449)) := by
  rw [split8 V]
  exact read_binary ops8_w2 tail9_w2 48 rfl (by decide) (by decide) (by decide) (val8 V)

theorem W_main_v451 (V : Valuation τ sig (Elt F)) :
    after ops V (Proc.devRef .tc main_v451) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v450)) (after ops V (Proc.devRef .tc main_v448)) := by
  rw [split8 V]
  exact read_binary ops8_w2 tail9_w2 49 rfl (by decide) (by decide) (by decide) (val8 V)

theorem W_main_cst_64 (V : Valuation τ sig (Elt F)) :
    after ops V (Proc.devRef .tc main_cst_64) = (constant S_ .f32 0x00000000#32) := by
  rw [split8 V]
  exact read_nullary ops8_w2 tail9_w2 50 rfl (by decide) (val8 V)

theorem W_main_v452 (V : Valuation τ sig (Elt F)) :
    after ops V (Proc.devRef .tc main_v452) = (broadcastInDim S2048x8192 ![] bcast_S_S2048x8192 : (⟨S_, .f32⟩ : BufTy).Contents (Elt F) → (⟨S2048x8192, .f32⟩ : BufTy).Contents (Elt F)) (after ops V (Proc.devRef .tc main_cst_64)) := by
  rw [split8 V]
  exact read_unary ops8_w2 tail9_w2 51 rfl (by decide) (by decide) (val8 V)

theorem W_main_c_65 (V : Valuation τ sig (Elt F)) :
    after ops V (Proc.devRef .tc main_c_65) = (constantI S_ 32 0#32) := by
  rw [split8 V]
  exact read_nullary ops8_w2 tail9_w2 52 rfl (by decide) (val8 V)

theorem W_main_v453 (V : Valuation τ sig (Elt F)) :
    after ops V (Proc.devRef .tc main_v453) = (broadcastInDim S4096 ![] bcast_S_S4096 : (⟨S_, .i32⟩ : BufTy).Contents (Elt F) → (⟨S4096, .i32⟩ : BufTy).Contents (Elt F)) (after ops V (Proc.devRef .tc main_c_65)) := by
  rw [split8 V]
  exact read_unary ops8_w2 tail9_w2 53 rfl (by decide) (by decide) (val8 V)

theorem W_main_v454 (V : Valuation τ sig (Elt F)) :
    after ops V (Proc.devRef .tc main_v454) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v453)) := by
  rw [split8 V]
  exact read_binary ops8_w2 tail9_w2 54 rfl (by decide) (by decide) (by decide) (val8 V)

theorem W_main_c_66 (V : Valuation τ sig (Elt F)) :
    after ops V (Proc.devRef .tc main_c_66) = (constantI S_ 32 8192#32) := by
  rw [split8 V]
  exact read_nullary ops8_w2 tail9_w2 55 rfl (by decide) (val8 V)

theorem W_main_v455 (V : Valuation τ sig (Elt F)) :
    after ops V (Proc.devRef .tc main_v455) = (broadcastInDim S4096 ![] bcast_S_S4096 : (⟨S_, .i32⟩ : BufTy).Contents (Elt F) → (⟨S4096, .i32⟩ : BufTy).Contents (Elt F)) (after ops V (Proc.devRef .tc main_c_66)) := by
  rw [split8 V]
  exact read_unary ops8_w2 tail9_w2 56 rfl (by decide) (by decide) (val8 V)

theorem W_main_v456 (V : Valuation τ sig (Elt F)) :
    after ops V (Proc.devRef .tc main_v456) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v455)) := by
  rw [split8 V]
  exact read_binary ops8_w2 tail9_w2 57 rfl (by decide) (by decide) (by decide) (val8 V)

theorem W_main_v457 (V : Valuation τ sig (Elt F)) :
    after ops V (Proc.devRef .tc main_v457) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v454)) (after ops V (Proc.devRef .tc main_v456)) (after ops V (Proc.devRef .tc main_v13)) := by
  rw [split8 V]
  exact read_ternary ops8_w2 tail9_w2 58 rfl (by decide) (by decide) (by decide) (by decide) (val8 V)

theorem W_main_v458 (V : Valuation τ sig (Elt F)) :
    after ops V (Proc.devRef .tc main_v458) = (broadcastInDim S4096x1 ![0] bcast_S4096_S4096x1_0 : (⟨S4096, .i32⟩ : BufTy).Contents (Elt F) → (⟨S4096x1, .i32⟩ : BufTy).Contents (Elt F)) (after ops V (Proc.devRef .tc main_v457)) := by
  rw [split8 V]
  exact read_unary ops8_w2 tail9_w2 59 rfl (by decide) (by decide) (val8 V)

theorem W_main_v459 (V : Valuation τ sig (Elt F)) :
    after ops V (Proc.devRef .tc main_v459) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v452)) (after ops V (Proc.devRef .tc main_v458)) (after ops V (Proc.devRef .tc main_v401)) := by
  rw [split8 V]
  exact read_ternary ops8_w2 tail9_w2 60 rfl (by decide) (by decide) (by decide) (by decide) (val8 V)

theorem W_main_c_67 (V : Valuation τ sig (Elt F)) :
    after ops V (Proc.devRef .tc main_c_67) = (constantI S_ 32 0#32) := by
  rw [split8 V]
  exact read_nullary ops8_w2 tail9_w2 61 rfl (by decide) (val8 V)

theorem W_main_v460 (V : Valuation τ sig (Elt F)) :
    after ops V (Proc.devRef .tc main_v460) = (broadcastInDim S4096 ![] bcast_S_S4096 : (⟨S_, .i32⟩ : BufTy).Contents (Elt F) → (⟨S4096, .i32⟩ : BufTy).Contents (Elt F)) (after ops V (Proc.devRef .tc main_c_67)) := by
  rw [split8 V]
  exact read_unary ops8_w2 tail9_w2 62 rfl (by decide) (by decide) (val8 V)

theorem W_main_v461 (V : Valuation τ sig (Elt F)) :
    after ops V (Proc.devRef .tc main_v461) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v460)) := by
  rw [split8 V]
  exact read_binary ops8_w2 tail9_w2 63 rfl (by decide) (by decide) (by decide) (val8 V)

theorem W_main_c_68 (V : Valuation τ sig (Elt F)) :
    after ops V (Proc.devRef .tc main_c_68) = (constantI S_ 32 8192#32) := by
  rw [split8 V]
  exact read_nullary ops8_w2 tail9_w2 64 rfl (by decide) (val8 V)

theorem W_main_v462 (V : Valuation τ sig (Elt F)) :
    after ops V (Proc.devRef .tc main_v462) = (broadcastInDim S4096 ![] bcast_S_S4096 : (⟨S_, .i32⟩ : BufTy).Contents (Elt F) → (⟨S4096, .i32⟩ : BufTy).Contents (Elt F)) (after ops V (Proc.devRef .tc main_c_68)) := by
  rw [split8 V]
  exact read_unary ops8_w2 tail9_w2 65 rfl (by decide) (by decide) (val8 V)

theorem W_main_v463 (V : Valuation τ sig (Elt F)) :
    after ops V (Proc.devRef .tc main_v463) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v462)) := by
  rw [split8 V]
  exact read_binary ops8_w2 tail9_w2 66 rfl (by decide) (by decide) (by decide) (val8 V)

theorem W_main_v464 (V : Valuation τ sig (Elt F)) :
    after ops V (Proc.devRef .tc main_v464) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v461)) (after ops V (Proc.devRef .tc main_v463)) (after ops V (Proc.devRef .tc main_v18)) := by
  rw [split8 V]
  exact read_ternary ops8_w2 tail9_w2 67 rfl (by decide) (by decide) (by decide) (by decide) (val8 V)

theorem W_main_v465 (V : Valuation τ sig (Elt F)) :
    after ops V (Proc.devRef .tc main_v465) = (broadcastInDim S4096x1 ![0] bcast_S4096_S4096x1_0 : (⟨S4096, .i32⟩ : BufTy).Contents (Elt F) → (⟨S4096x1, .i32⟩ : BufTy).Contents (Elt F)) (after ops V (Proc.devRef .tc main_v464)) := by
  rw [split8 V]
  exact read_unary ops8_w2 tail9_w2 68 rfl (by decide) (by decide) (val8 V)

theorem W_main_v466 (V : Valuation τ sig (Elt F)) :
    after ops V (Proc.devRef .tc main_v466) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v459)) (after ops V (Proc.devRef .tc main_v465)) (after ops V (Proc.devRef .tc main_v451)) := by
  rw [split8 V]
  exact read_ternary ops8_w2 tail9_w2 69 rfl (by decide) (by decide) (by decide) (by decide) (val8 V)

theorem W_main_cst_69 (V : Valuation τ sig (Elt F)) :
    after ops V (Proc.devRef .tc main_cst_69) = (constant S_ .f32 0x00000000#32) := by
  rw [split8 V]
  exact read_nullary ops8_w2 tail9_w2 70 rfl (by decide) (val8 V)

theorem W_main_v467 (V : Valuation τ sig (Elt F)) :
    after ops V (Proc.devRef .tc main_v467) = ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)) (after ops V (Proc.devRef .tc main_v440)) (after ops V (Proc.devRef .tc main_cst_69)) := by
  rw [split8 V]
  exact read_binary ops8_w2 tail9_w2 71 rfl (by decide) (by decide) (by decide) (val8 V)

end Cert.RSide

end
-- ==== Proof.RSsa9.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 9: each operation's buffer at the end of the run, as the operation's function of its operands' buffers at the end of the run. -/

theorem W_main_v468 (V : Valuation τ sig (Elt F)) :
    after ops V (Proc.devRef .tc main_v468) = (addf : (⟨S2048, .f32⟩ : BufTy).Contents (Elt F) → (⟨S2048, .f32⟩ : BufTy).Contents (Elt F) → (⟨S2048, .f32⟩ : BufTy).Contents (Elt F)) (after ops V (Proc.devRef .tc main_v394)) (after ops V (Proc.devRef .tc main_v467)) := by
  rw [split9 V]
  exact read_binary ops9_w2 tail10_w2 0 rfl (by decide) (by decide) (by decide) (val9 V)

theorem W_main_v469 (V : Valuation τ sig (Elt F)) :
    after ops V (Proc.devRef .tc main_v469) = ((extractStridedSlice S1x8192 ![5, 0] · slices_S8x8192_S1x8192_5_0) : (⟨S8x8192, .f32⟩ : BufTy).Contents (Elt F) → (⟨S1x8192, .f32⟩ : BufTy).Contents (Elt F)) (after ops V (Proc.devRef .tc main_arg4)) := by
  rw [split9 V]
  exact read_unary ops9_w2 tail10_w2 1 rfl (by decide) (by decide) (val9 V)

theorem W_main_v470 (V : Valuation τ sig (Elt F)) :
    after ops V (Proc.devRef .tc main_v470) = shapeCast S8192 (after ops V (Proc.devRef .tc main_v469)) shapeCasts_S1x8192_S8192 := by
  rw [split9 V]
  exact read_reshape ops9_w2 tail10_w2 2 rfl (by decide) (by decide) (val9 V)

theorem W_main_v471 (V : Valuation τ sig (Elt F)) :
    after ops V (Proc.devRef .tc main_v471) = (broadcastInDim S1x8192 ![1] bcast_S8192_S1x8192_1 : (⟨S8192, .f32⟩ : BufTy).Contents (Elt F) → (⟨S1x8192, .f32⟩ : BufTy).Contents (Elt F)) (after ops V (Proc.devRef .tc main_v470)) := by
  rw [split9 V]
  exact read_unary ops9_w2 tail10_w2 3 rfl (by decide) (by decide) (val9 V)

theorem W_main_v472 (V : Valuation τ sig (Elt F)) :
    after ops V (Proc.devRef .tc main_v472) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v471)) := by
  rw [split9 V]
  exact read_unary ops9_w2 tail10_w2 4 rfl (by decide) (by decide) (val9 V)

theorem W_main_v473 (V : Valuation τ sig (Elt F)) :
    after ops V (Proc.devRef .tc main_v473) = (addf : (⟨S2048x8192, .f32⟩ : BufTy).Contents (Elt F) → (⟨S2048x8192, .f32⟩ : BufTy).Contents (Elt F) → (⟨S2048x8192, .f32⟩ : BufTy).Contents (Elt F)) (after ops V (Proc.devRef .tc main_v466)) (after ops V (Proc.devRef .tc main_v472)) := by
  rw [split9 V]
  exact read_binary ops9_w2 tail10_w2 5 rfl (by decide) (by decide) (by decide) (val9 V)

theorem W_main_v474 (V : Valuation τ sig (Elt F)) :
    after ops V (Proc.devRef .tc main_v474) = ((extractStridedSlice S1x8192 ![5, 0] · slices_S8x8192_S1x8192_5_0) : (⟨S8x8192, .f32⟩ : BufTy).Contents (Elt F) → (⟨S1x8192, .f32⟩ : BufTy).Contents (Elt F)) (after ops V (Proc.devRef .tc main_arg3)) := by
  rw [split9 V]
  exact read_unary ops9_w2 tail10_w2 6 rfl (by decide) (by decide) (val9 V)

theorem W_main_v475 (V : Valuation τ sig (Elt F)) :
    after ops V (Proc.devRef .tc main_v475) = shapeCast S8192 (after ops V (Proc.devRef .tc main_v474)) shapeCasts_S1x8192_S8192 := by
  rw [split9 V]
  exact read_reshape ops9_w2 tail10_w2 7 rfl (by decide) (by decide) (val9 V)

theorem W_main_v476 (V : Valuation τ sig (Elt F)) :
    after ops V (Proc.devRef .tc main_v476) = (Host.exp : (⟨S8192, .f32⟩ : BufTy).Contents (Elt F) → (⟨S8192, .f32⟩ : BufTy).Contents (Elt F)) (after ops V (Proc.devRef .tc main_v475)) := by
  rw [split9 V]
  exact read_unary ops9_w2 tail10_w2 8 rfl (by decide) (by decide) (val9 V)

theorem W_main_v477 (V : Valuation τ sig (Elt F)) :
    after ops V (Proc.devRef .tc main_v477) = (broadcastInDim S1x8192 ![1] bcast_S8192_S1x8192_1 : (⟨S8192, .f32⟩ : BufTy).Contents (Elt F) → (⟨S1x8192, .f32⟩ : BufTy).Contents (Elt F)) (after ops V (Proc.devRef .tc main_v476)) := by
  rw [split9 V]
  exact read_unary ops9_w2 tail10_w2 9 rfl (by decide) (by decide) (val9 V)

theorem W_main_v478 (V : Valuation τ sig (Elt F)) :
    after ops V (Proc.devRef .tc main_v478) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v477)) := by
  rw [split9 V]
  exact read_unary ops9_w2 tail10_w2 10 rfl (by decide) (by decide) (val9 V)

theorem W_main_v479 (V : Valuation τ sig (Elt F)) :
    after ops V (Proc.devRef .tc main_v479) = (mulf : (⟨S2048x8192, .f32⟩ : BufTy).Contents (Elt F) → (⟨S2048x8192, .f32⟩ : BufTy).Contents (Elt F) → (⟨S2048x8192, .f32⟩ : BufTy).Contents (Elt F)) (after ops V (Proc.devRef .tc main_v473)) (after ops V (Proc.devRef .tc main_v478)) := by
  rw [split9 V]
  exact read_binary ops9_w2 tail10_w2 11 rfl (by decide) (by decide) (by decide) (val9 V)

theorem W_main_v480 (V : Valuation τ sig (Elt F)) :
    after ops V (Proc.devRef .tc main_v480) = ((extractStridedSlice S1x8192 ![5, 0] · slices_S8x8192_S1x8192_5_0) : (⟨S8x8192, .f32⟩ : BufTy).Contents (Elt F) → (⟨S1x8192, .f32⟩ : BufTy).Contents (Elt F)) (after ops V (Proc.devRef .tc main_arg3)) := by
  rw [split9 V]
  exact read_unary ops9_w2 tail10_w2 12 rfl (by decide) (by decide) (val9 V)

theorem W_main_v481 (V : Valuation τ sig (Elt F)) :
    after ops V (Proc.devRef .tc main_v481) = shapeCast S8192 (after ops V (Proc.devRef .tc main_v480)) shapeCasts_S1x8192_S8192 := by
  rw [split9 V]
  exact read_reshape ops9_w2 tail10_w2 13 rfl (by decide) (by decide) (val9 V)

theorem W_main_cst_70 (V : Valuation τ sig (Elt F)) :
    after ops V (Proc.devRef .tc main_cst_70) = (constant S_ .f32 0x00000000#32) := by
  rw [split9 V]
  exact read_nullary ops9_w2 tail10_w2 14 rfl (by decide) (val9 V)

theorem W_main_v482 (V : Valuation τ sig (Elt F)) :
    after ops V (Proc.devRef .tc main_v482) = ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (after ops V (Proc.devRef .tc main_v481)) (after ops V (Proc.devRef .tc main_cst_70)) := by
  rw [split9 V]
  exact read_binary ops9_w2 tail10_w2 15 rfl (by decide) (by decide) (by decide) (val9 V)

theorem W_main_v483 (V : Valuation τ sig (Elt F)) :
    after ops V (Proc.devRef .tc main_v483) = (broadcastInDim S2048 ![] bcast_S_S2048 : (⟨S_, .f32⟩ : BufTy).Contents (Elt F) → (⟨S2048, .f32⟩ : BufTy).Contents (Elt F)) (after ops V (Proc.devRef .tc main_v482)) := by
  rw [split9 V]
  exact read_unary ops9_w2 tail10_w2 16 rfl (by decide) (by decide) (val9 V)

theorem W_main_v484 (V : Valuation τ sig (Elt F)) :
    after ops V (Proc.devRef .tc main_v484) = (addf : (⟨S2048, .f32⟩ : BufTy).Contents (Elt F) → (⟨S2048, .f32⟩ : BufTy).Contents (Elt F) → (⟨S2048, .f32⟩ : BufTy).Contents (Elt F)) (after ops V (Proc.devRef .tc main_v468)) (after ops V (Proc.devRef .tc main_v483)) := by
  rw [split9 V]
  exact read_binary ops9_w2 tail10_w2 17 rfl (by decide) (by decide) (by decide) (val9 V)

theorem W_main_c_71 (V : Valuation τ sig (Elt F)) :
    after ops V (Proc.devRef .tc main_c_71) = (constantI S_ 32 0#32) := by
  rw [split9 V]
  exact read_nullary ops9_w2 tail10_w2 18 rfl (by decide) (val9 V)

theorem W_main_v485 (V : Valuation τ sig (Elt F)) :
    after ops V (Proc.devRef .tc main_v485) = (broadcastInDim S4096 ![] bcast_S_S4096 : (⟨S_, .i32⟩ : BufTy).Contents (Elt F) → (⟨S4096, .i32⟩ : BufTy).Contents (Elt F)) (after ops V (Proc.devRef .tc main_c_71)) := by
  rw [split9 V]
  exact read_unary ops9_w2 tail10_w2 19 rfl (by decide) (by decide) (val9 V)

theorem W_main_v486 (V : Valuation τ sig (Elt F)) :
    after ops V (Proc.devRef .tc main_v486) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v485)) := by
  rw [split9 V]
  exact read_binary ops9_w2 tail10_w2 20 rfl (by decide) (by decide) (by decide) (val9 V)

theorem W_main_c_72 (V : Valuation τ sig (Elt F)) :
    after ops V (Proc.devRef .tc main_c_72) = (constantI S_ 32 8192#32) := by
  rw [split9 V]
  exact read_nullary ops9_w2 tail10_w2 21 rfl (by decide) (val9 V)

theorem W_main_v487 (V : Valuation τ sig (Elt F)) :
    after ops V (Proc.devRef .tc main_v487) = (broadcastInDim S4096 ![] bcast_S_S4096 : (⟨S_, .i32⟩ : BufTy).Contents (Elt F) → (⟨S4096, .i32⟩ : BufTy).Contents (Elt F)) (after ops V (Proc.devRef .tc main_c_72)) := by
  rw [split9 V]
  exact read_unary ops9_w2 tail10_w2 22 rfl (by decide) (by decide) (val9 V)

theorem W_main_v488 (V : Valuation τ sig (Elt F)) :
    after ops V (Proc.devRef .tc main_v488) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v487)) := by
  rw [split9 V]
  exact read_binary ops9_w2 tail10_w2 23 rfl (by decide) (by decide) (by decide) (val9 V)

theorem W_main_v489 (V : Valuation τ sig (Elt F)) :
    after ops V (Proc.devRef .tc main_v489) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v486)) (after ops V (Proc.devRef .tc main_v488)) (after ops V (Proc.devRef .tc main_v18)) := by
  rw [split9 V]
  exact read_ternary ops9_w2 tail10_w2 24 rfl (by decide) (by decide) (by decide) (by decide) (val9 V)

theorem W_main_v490 (V : Valuation τ sig (Elt F)) :
    after ops V (Proc.devRef .tc main_v490) = (broadcastInDim S4096x1 ![0] bcast_S4096_S4096x1_0 : (⟨S4096, .i32⟩ : BufTy).Contents (Elt F) → (⟨S4096x1, .i32⟩ : BufTy).Contents (Elt F)) (after ops V (Proc.devRef .tc main_v489)) := by
  rw [split9 V]
  exact read_unary ops9_w2 tail10_w2 25 rfl (by decide) (by decide) (val9 V)

theorem W_main_v491 (V : Valuation τ sig (Elt F)) :
    after ops V (Proc.devRef .tc main_v491) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v479)) (after ops V (Proc.devRef .tc main_v490)) := by
  rw [split9 V]
  exact read_binary ops9_w2 tail10_w2 26 rfl (by decide) (by decide) (by decide) (val9 V)

theorem W_main_c_73 (V : Valuation τ sig (Elt F)) :
    after ops V (Proc.devRef .tc main_c_73) = (constantI S_ 32 0#32) := by
  rw [split9 V]
  exact read_nullary ops9_w2 tail10_w2 27 rfl (by decide) (val9 V)

theorem W_main_v492 (V : Valuation τ sig (Elt F)) :
    after ops V (Proc.devRef .tc main_v492) = (broadcastInDim S4096 ![] bcast_S_S4096 : (⟨S_, .i32⟩ : BufTy).Contents (Elt F) → (⟨S4096, .i32⟩ : BufTy).Contents (Elt F)) (after ops V (Proc.devRef .tc main_c_73)) := by
  rw [split9 V]
  exact read_unary ops9_w2 tail10_w2 28 rfl (by decide) (by decide) (val9 V)

theorem W_main_v493 (V : Valuation τ sig (Elt F)) :
    after ops V (Proc.devRef .tc main_v493) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v492)) := by
  rw [split9 V]
  exact read_binary ops9_w2 tail10_w2 29 rfl (by decide) (by decide) (by decide) (val9 V)

theorem W_main_c_74 (V : Valuation τ sig (Elt F)) :
    after ops V (Proc.devRef .tc main_c_74) = (constantI S_ 32 8192#32) := by
  rw [split9 V]
  exact read_nullary ops9_w2 tail10_w2 30 rfl (by decide) (val9 V)

theorem W_main_v494 (V : Valuation τ sig (Elt F)) :
    after ops V (Proc.devRef .tc main_v494) = (broadcastInDim S4096 ![] bcast_S_S4096 : (⟨S_, .i32⟩ : BufTy).Contents (Elt F) → (⟨S4096, .i32⟩ : BufTy).Contents (Elt F)) (after ops V (Proc.devRef .tc main_c_74)) := by
  rw [split9 V]
  exact read_unary ops9_w2 tail10_w2 31 rfl (by decide) (by decide) (val9 V)

theorem W_main_v495 (V : Valuation τ sig (Elt F)) :
    after ops V (Proc.devRef .tc main_v495) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v494)) := by
  rw [split9 V]
  exact read_binary ops9_w2 tail10_w2 32 rfl (by decide) (by decide) (by decide) (val9 V)

theorem W_main_v496 (V : Valuation τ sig (Elt F)) :
    after ops V (Proc.devRef .tc main_v496) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v493)) (after ops V (Proc.devRef .tc main_v495)) (after ops V (Proc.devRef .tc main_v13)) := by
  rw [split9 V]
  exact read_ternary ops9_w2 tail10_w2 33 rfl (by decide) (by decide) (by decide) (by decide) (val9 V)

theorem W_main_v497 (V : Valuation τ sig (Elt F)) :
    after ops V (Proc.devRef .tc main_v497) = (broadcastInDim S4096x1 ![0] bcast_S4096_S4096x1_0 : (⟨S4096, .i32⟩ : BufTy).Contents (Elt F) → (⟨S4096x1, .i32⟩ : BufTy).Contents (Elt F)) (after ops V (Proc.devRef .tc main_v496)) := by
  rw [split9 V]
  exact read_unary ops9_w2 tail10_w2 34 rfl (by decide) (by decide) (val9 V)

theorem W_main_v498 (V : Valuation τ sig (Elt F)) :
    after ops V (Proc.devRef .tc main_v498) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v479)) (after ops V (Proc.devRef .tc main_v497)) := by
  rw [split9 V]
  exact read_binary ops9_w2 tail10_w2 35 rfl (by decide) (by decide) (by decide) (val9 V)

theorem W_main_v499 (V : Valuation τ sig (Elt F)) :
    after ops V (Proc.devRef .tc main_v499) = ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)) (after ops V (Proc.devRef .tc main_v491)) (after ops V (Proc.devRef .tc main_v7)) := by
  rw [split9 V]
  exact read_binary ops9_w2 tail10_w2 36 rfl (by decide) (by decide) (by decide) (val9 V)

theorem W_main_v500 (V : Valuation τ sig (Elt F)) :
    after ops V (Proc.devRef .tc main_v500) = ((extractStridedSlice S1x5120x1024 ![5, 0, 0] · slices_S8x5120x1024_S1x5120x1024_5_0_0) : (⟨S8x5120x1024, .f32⟩ : BufTy).Contents (Elt F) → (⟨S1x5120x1024, .f32⟩ : BufTy).Contents (Elt F)) (after ops V (Proc.devRef .tc main_arg5)) := by
  rw [split9 V]
  exact read_unary ops9_w2 tail10_w2 37 rfl (by decide) (by decide) (val9 V)

theorem W_main_v501 (V : Valuation τ sig (Elt F)) :
    after ops V (Proc.devRef .tc main_v501) = shapeCast S5120x1024 (after ops V (Proc.devRef .tc main_v500)) shapeCasts_S1x5120x1024_S5120x1024 := by
  rw [split9 V]
  exact read_reshape ops9_w2 tail10_w2 38 rfl (by decide) (by decide) (val9 V)

theorem W_main_v502 (V : Valuation τ sig (Elt F)) :
    after ops V (Proc.devRef .tc main_v502) = ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)) (after ops V (Proc.devRef .tc main_v499)) (after ops V (Proc.devRef .tc main_v501)) := by
  rw [split9 V]
  exact read_binary ops9_w2 tail10_w2 39 rfl (by decide) (by decide) (by decide) (val9 V)

theorem W_main_v503 (V : Valuation τ sig (Elt F)) :
    after ops V (Proc.devRef .tc main_v503) = ((extractStridedSlice S1x1024 ![5, 0] · slices_S8x1024_S1x1024_5_0) : (⟨S8x1024, .f32⟩ : BufTy).Contents (Elt F) → (⟨S1x1024, .f32⟩ : BufTy).Contents (Elt F)) (after ops V (Proc.devRef .tc main_arg6)) := by
  rw [split9 V]
  exact read_unary ops9_w2 tail10_w2 40 rfl (by decide) (by decide) (val9 V)

theorem W_main_v504 (V : Valuation τ sig (Elt F)) :
    after ops V (Proc.devRef .tc main_v504) = shapeCast S1024 (after ops V (Proc.devRef .tc main_v503)) shapeCasts_S1x1024_S1024 := by
  rw [split9 V]
  exact read_reshape ops9_w2 tail10_w2 41 rfl (by decide) (by decide) (val9 V)

theorem W_main_v505 (V : Valuation τ sig (Elt F)) :
    after ops V (Proc.devRef .tc main_v505) = (broadcastInDim S1x1024 ![1] bcast_S1024_S1x1024_1 : (⟨S1024, .f32⟩ : BufTy).Contents (Elt F) → (⟨S1x1024, .f32⟩ : BufTy).Contents (Elt F)) (after ops V (Proc.devRef .tc main_v504)) := by
  rw [split9 V]
  exact read_unary ops9_w2 tail10_w2 42 rfl (by decide) (by decide) (val9 V)

theorem W_main_v506 (V : Valuation τ sig (Elt F)) :
    after ops V (Proc.devRef .tc main_v506) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v505)) := by
  rw [split9 V]
  exact read_unary ops9_w2 tail10_w2 43 rfl (by decide) (by decide) (val9 V)

theorem W_main_v507 (V : Valuation τ sig (Elt F)) :
    after ops V (Proc.devRef .tc main_v507) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v502)) (after ops V (Proc.devRef .tc main_v506)) := by
  rw [split9 V]
  exact read_binary ops9_w2 tail10_w2 44 rfl (by decide) (by decide) (by decide) (val9 V)

theorem W_main_cst_75 (V : Valuation τ sig (Elt F)) :
    after ops V (Proc.devRef .tc main_cst_75) = (constant S_ .f32 0x3E4CCCCD#32) := by
  rw [split9 V]
  exact read_nullary ops9_w2 tail10_w2 45 rfl (by decide) (val9 V)

theorem W_main_call10_cst (V : Valuation τ sig (Elt F)) :
    after ops V (Proc.devRef .tc main_call10_cst) = (constant S_ .f32 0x00000000#32) := by
  rw [split9 V]
  exact read_nullary ops9_w2 tail10_w2 46 rfl (by decide) (val9 V)

theorem W_main_call10_v0 (V : Valuation τ sig (Elt F)) :
    after ops V (Proc.devRef .tc main_call10_v0) = (broadcastInDim S2048x1024 ![] bcast_S_S2048x1024 : (⟨S_, .f32⟩ : BufTy).Contents (Elt F) → (⟨S2048x1024, .f32⟩ : BufTy).Contents (Elt F)) (after ops V (Proc.devRef .tc main_call10_cst)) := by
  rw [split9 V]
  exact read_unary ops9_w2 tail10_w2 47 rfl (by decide) (by decide) (val9 V)

theorem W_main_call10_v1 (V : Valuation τ sig (Elt F)) :
    after ops V (Proc.devRef .tc main_call10_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v507)) (after ops V (Proc.devRef .tc main_call10_v0)) := by
  rw [split9 V]
  exact read_binary ops9_w2 tail10_w2 48 rfl (by decide) (by decide) (by decide) (val9 V)

theorem W_main_call10_v2 (V : Valuation τ sig (Elt F)) :
    after ops V (Proc.devRef .tc main_call10_v2) = (id : (⟨S_, .f32⟩ : BufTy).Contents (Elt F) → (⟨S_, .f32⟩ : BufTy).Contents (Elt F)) (after ops V (Proc.devRef .tc main_cst_75)) := by
  rw [split9 V]
  exact read_unary ops9_w2 tail10_w2 49 rfl (by decide) (by decide) (val9 V)

theorem W_main_call10_v3 (V : Valuation τ sig (Elt F)) :
    after ops V (Proc.devRef .tc main_call10_v3) = (broadcastInDim S2048x1024 ![] bcast_S_S2048x1024 : (⟨S_, .f32⟩ : BufTy).Contents (Elt F) → (⟨S2048x1024, .f32⟩ : BufTy).Contents (Elt F)) (after ops V (Proc.devRef .tc main_call10_v2)) := by
  rw [split9 V]
  exact read_unary ops9_w2 tail10_w2 50 rfl (by decide) (by decide) (val9 V)

theorem W_main_call10_v4 (V : Valuation τ sig (Elt F)) :
    after ops V (Proc.devRef .tc main_call10_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call10_v3)) (after ops V (Proc.devRef .tc main_v507)) := by
  rw [split9 V]
  exact read_binary ops9_w2 tail10_w2 51 rfl (by decide) (by decide) (by decide) (val9 V)

theorem W_main_v508 (V : Valuation τ sig (Elt F)) :
    after ops V (Proc.devRef .tc main_v508) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call10_v1)) (after ops V (Proc.devRef .tc main_v507)) (after ops V (Proc.devRef .tc main_call10_v4)) := by
  rw [split9 V]
  exact read_ternary ops9_w2 tail10_w2 52 rfl (by decide) (by decide) (by decide) (by decide) (val9 V)

theorem W_main_v509 (V : Valuation τ sig (Elt F)) :
    after ops V (Proc.devRef .tc main_v509) = ((extractStridedSlice S1x1024x1024 ![5, 0, 0] · slices_S8x1024x1024_S1x1024x1024_5_0_0) : (⟨S8x1024x1024, .f32⟩ : BufTy).Contents (Elt F) → (⟨S1x1024x1024, .f32⟩ : BufTy).Contents (Elt F)) (after ops V (Proc.devRef .tc main_arg7)) := by
  rw [split9 V]
  exact read_unary ops9_w2 tail10_w2 53 rfl (by decide) (by decide) (val9 V)

theorem W_main_v510 (V : Valuation τ sig (Elt F)) :
    after ops V (Proc.devRef .tc main_v510) = shapeCast S1024x1024 (after ops V (Proc.devRef .tc main_v509)) shapeCasts_S1x1024x1024_S1024x1024 := by
  rw [split9 V]
  exact read_reshape ops9_w2 tail10_w2 54 rfl (by decide) (by decide) (val9 V)

theorem W_main_v511 (V : Valuation τ sig (Elt F)) :
    after ops V (Proc.devRef .tc main_v511) = ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)) (after ops V (Proc.devRef .tc main_v508)) (after ops V (Proc.devRef .tc main_v510)) := by
  rw [split9 V]
  exact read_binary ops9_w2 tail10_w2 55 rfl (by decide) (by decide) (by decide) (val9 V)

theorem W_main_v512 (V : Valuation τ sig (Elt F)) :
    after ops V (Proc.devRef .tc main_v512) = ((extractStridedSlice S1x1024 ![5, 0] · slices_S8x1024_S1x1024_5_0) : (⟨S8x1024, .f32⟩ : BufTy).Contents (Elt F) → (⟨S1x1024, .f32⟩ : BufTy).Contents (Elt F)) (after ops V (Proc.devRef .tc main_arg8)) := by
  rw [split9 V]
  exact read_unary ops9_w2 tail10_w2 56 rfl (by decide) (by decide) (val9 V)

theorem W_main_v513 (V : Valuation τ sig (Elt F)) :
    after ops V (Proc.devRef .tc main_v513) = shapeCast S1024 (after ops V (Proc.devRef .tc main_v512)) shapeCasts_S1x1024_S1024 := by
  rw [split9 V]
  exact read_reshape ops9_w2 tail10_w2 57 rfl (by decide) (by decide) (val9 V)

theorem W_main_v514 (V : Valuation τ sig (Elt F)) :
    after ops V (Proc.devRef .tc main_v514) = (broadcastInDim S1x1024 ![1] bcast_S1024_S1x1024_1 : (⟨S1024, .f32⟩ : BufTy).Contents (Elt F) → (⟨S1x1024, .f32⟩ : BufTy).Contents (Elt F)) (after ops V (Proc.devRef .tc main_v513)) := by
  rw [split9 V]
  exact read_unary ops9_w2 tail10_w2 58 rfl (by decide) (by decide) (val9 V)

theorem W_main_v515 (V : Valuation τ sig (Elt F)) :
    after ops V (Proc.devRef .tc main_v515) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v514)) := by
  rw [split9 V]
  exact read_unary ops9_w2 tail10_w2 59 rfl (by decide) (by decide) (val9 V)

theorem W_main_v516 (V : Valuation τ sig (Elt F)) :
    after ops V (Proc.devRef .tc main_v516) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v511)) (after ops V (Proc.devRef .tc main_v515)) := by
  rw [split9 V]
  exact read_binary ops9_w2 tail10_w2 60 rfl (by decide) (by decide) (by decide) (val9 V)

theorem W_main_cst_76 (V : Valuation τ sig (Elt F)) :
    after ops V (Proc.devRef .tc main_cst_76) = (constant S_ .f32 0x3E4CCCCD#32) := by
  rw [split9 V]
  exact read_nullary ops9_w2 tail10_w2 61 rfl (by decide) (val9 V)

theorem W_main_call11_cst (V : Valuation τ sig (Elt F)) :
    after ops V (Proc.devRef .tc main_call11_cst) = (constant S_ .f32 0x00000000#32) := by
  rw [split9 V]
  exact read_nullary ops9_w2 tail10_w2 62 rfl (by decide) (val9 V)

theorem W_main_call11_v0 (V : Valuation τ sig (Elt F)) :
    after ops V (Proc.devRef .tc main_call11_v0) = (broadcastInDim S2048x1024 ![] bcast_S_S2048x1024 : (⟨S_, .f32⟩ : BufTy).Contents (Elt F) → (⟨S2048x1024, .f32⟩ : BufTy).Contents (Elt F)) (after ops V (Proc.devRef .tc main_call11_cst)) := by
  rw [split9 V]
  exact read_unary ops9_w2 tail10_w2 63 rfl (by decide) (by decide) (val9 V)

theorem W_main_call11_v1 (V : Valuation τ sig (Elt F)) :
    after ops V (Proc.devRef .tc main_call11_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v516)) (after ops V (Proc.devRef .tc main_call11_v0)) := by
  rw [split9 V]
  exact read_binary ops9_w2 tail10_w2 64 rfl (by decide) (by decide) (by decide) (val9 V)

theorem W_main_call11_v2 (V : Valuation τ sig (Elt F)) :
    after ops V (Proc.devRef .tc main_call11_v2) = (id : (⟨S_, .f32⟩ : BufTy).Contents (Elt F) → (⟨S_, .f32⟩ : BufTy).Contents (Elt F)) (after ops V (Proc.devRef .tc main_cst_76)) := by
  rw [split9 V]
  exact read_unary ops9_w2 tail10_w2 65 rfl (by decide) (by decide) (val9 V)

theorem W_main_call11_v3 (V : Valuation τ sig (Elt F)) :
    after ops V (Proc.devRef .tc main_call11_v3) = (broadcastInDim S2048x1024 ![] bcast_S_S2048x1024 : (⟨S_, .f32⟩ : BufTy).Contents (Elt F) → (⟨S2048x1024, .f32⟩ : BufTy).Contents (Elt F)) (after ops V (Proc.devRef .tc main_call11_v2)) := by
  rw [split9 V]
  exact read_unary ops9_w2 tail10_w2 66 rfl (by decide) (by decide) (val9 V)

theorem W_main_call11_v4 (V : Valuation τ sig (Elt F)) :
    after ops V (Proc.devRef .tc main_call11_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call11_v3)) (after ops V (Proc.devRef .tc main_v516)) := by
  rw [split9 V]
  exact read_binary ops9_w2 tail10_w2 67 rfl (by decide) (by decide) (by decide) (val9 V)

theorem W_main_v517 (V : Valuation τ sig (Elt F)) :
    after ops V (Proc.devRef .tc main_v517) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call11_v1)) (after ops V (Proc.devRef .tc main_v516)) (after ops V (Proc.devRef .tc main_call11_v4)) := by
  rw [split9 V]
  exact read_ternary ops9_w2 tail10_w2 68 rfl (by decide) (by decide) (by decide) (by decide) (val9 V)

theorem W_main_v518 (V : Valuation τ sig (Elt F)) :
    after ops V (Proc.devRef .tc main_v518) = ((extractStridedSlice S1x1024x4096 ![5, 0, 0] · slices_S8x1024x4096_S1x1024x4096_5_0_0) : (⟨S8x1024x4096, .f32⟩ : BufTy).Contents (Elt F) → (⟨S1x1024x4096, .f32⟩ : BufTy).Contents (Elt F)) (after ops V (Proc.devRef .tc main_arg9)) := by
  rw [split9 V]
  exact read_unary ops9_w2 tail10_w2 69 rfl (by decide) (by decide) (val9 V)

theorem W_main_v519 (V : Valuation τ sig (Elt F)) :
    after ops V (Proc.devRef .tc main_v519) = shapeCast S1024x4096 (after ops V (Proc.devRef .tc main_v518)) shapeCasts_S1x1024x4096_S1024x4096 := by
  rw [split9 V]
  exact read_reshape ops9_w2 tail10_w2 70 rfl (by decide) (by decide) (val9 V)

theorem W_main_v520 (V : Valuation τ sig (Elt F)) :
    after ops V (Proc.devRef .tc main_v520) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v517)) (after ops V (Proc.devRef .tc main_v519)) := by
  rw [split9 V]
  exact read_binary ops9_w2 tail10_w2 71 rfl (by decide) (by decide) (by decide) (val9 V)

end Cert.RSide

end
-- ==== Proof.RFlow4.lean ====
import proofs.«175835_j29978871726094_1_alg».proof.Proof.RSsa0
import proofs.«175835_j29978871726094_1_alg».proof.Proof.RSsa7
import proofs.«175835_j29978871726094_1_alg».proof.Proof.RSsa8
import proofs.«175835_j29978871726094_1_alg».proof.Proof.RSsa9
import proofs.«175835_j29978871726094_1_alg».proof.Proof.RFlowBase
import proofs.«175835_j29978871726094_1_alg».proof.Proof.FlowRefTerms3

open scoped BigOperators

noncomputable section

namespace Cert.RSide

open Cert.ReferenceIdeal Cert.ReferenceIdeal.Gen Idealize.ShloMosaic Idealize.ShloMosaic.TcCoe Idealize.SL.Sem Idealize.ShloMosaic.StableHlo Cert.Flow Cert.Flow.RefTerms

/-- Layer 4 on the array: the second scatter's result is stepZ of the array the layer starts from. The two scatters
    write the conditioning columns and the transformed columns; the arrays they are computed from — the rescaled array, its
    columns of the two parities, the hidden array, the scales and the shifts — are each their own operations' function of the
    ones before (the equations of the run, read one operation at a time). -/
theorem flow4_z (V : Valuation τ sig (Elt Ideal)) :
    after ops V (Proc.devRef .tc main_v466) = stepZ (RP V) (Rcnd V) 4 (after ops V (Proc.devRef .tc main_v376)) := by
  rw [W_main_v466, W_main_v465, W_main_v464, W_main_v463, W_main_v462, W_main_c_68, W_main_v461, W_main_v460, W_main_c_67, W_main_v459, W_main_v458, W_main_v457, W_main_v456, W_main_v455, W_main_c_66, W_main_v454, W_main_v453, W_main_c_65, W_main_v452, W_main_cst_64, W_main_v451, W_main_v450, W_main_v449,
    W_main_v13, W_main_v12, W_main_c_2, W_main_v11, W_main_v10, W_main_c_1, W_main_v9,
    W_main_v18, W_main_v17, W_main_c_4, W_main_v16, W_main_v15, W_main_c_3, W_main_v14]
  beta_reduce
  apply layer_z_of_eqs (i := 4) (o := 4) (parC := 0) (parU := 1) (za := after ops V (Proc.devRef .tc main_v389))
    (hm := after ops V (Proc.devRef .tc main_v427))
  case hza =>
    rw [W_main_v389, W_main_v388, W_main_v387, W_main_v386, W_main_v385, W_main_v384, W_main_v383, W_main_v382, W_main_v381, W_main_v380, W_main_v379, W_main_arg3, W_main_arg4]
    all_goals rfl
  case hxc =>
    rw [W_main_v401, W_main_v400, W_main_v399, W_main_v398, W_main_v397, W_main_c_59, W_main_v396, W_main_v395, W_main_c_58, W_main_v13, W_main_v12, W_main_c_2, W_main_v11, W_main_v10, W_main_c_1, W_main_v9]
    all_goals rfl
  case hxu =>
    rw [W_main_v408, W_main_v407, W_main_v406, W_main_v405, W_main_v404, W_main_c_61, W_main_v403, W_main_v402, W_main_c_60, W_main_v18, W_main_v17, W_main_c_4, W_main_v16, W_main_v15, W_main_c_3, W_main_v14]
    all_goals rfl
  case hhm =>
    rw [W_main_v427, W_main_call9_v4, W_main_call9_v3, W_main_call9_v2, W_main_cst_63, W_main_call9_v1, W_main_call9_v0, W_main_call9_cst, W_main_v426, W_main_v425, W_main_v424, W_main_v423, W_main_v422, W_main_v421, W_main_v420, W_main_v419, W_main_v418, W_main_call8_v4, W_main_call8_v3, W_main_call8_v2, W_main_cst_62, W_main_call8_v1, W_main_call8_v0, W_main_call8_cst, W_main_v417, W_main_v416, W_main_v415, W_main_v414, W_main_v413, W_main_v412, W_main_v411, W_main_v410, W_main_v409, W_cond, W_main_arg5, W_main_arg6, W_main_arg7, W_main_arg8]
    all_goals rfl
  case hs_ =>
    rw [W_main_v440, W_main_v439, W_main_v438, W_main_v437, W_main_v436, W_main_v435, W_main_v434, W_main_v433, W_main_v432, W_main_v431, W_main_v430, W_main_v429, W_main_v428, W_main_arg9, W_main_arg10, W_main_arg13]
    all_goals rfl
  case ht =>
    rw [W_main_v448, W_main_v447, W_main_v446, W_main_v445, W_main_v444, W_main_v443, W_main_v442, W_main_v441, W_main_arg11, W_main_arg12]
    all_goals rfl
  all_goals rfl

/-- Layer 4 on the vector: the sum of the layer's logarithmic scales, then the row sums of the scales, added to the vector the
    layer starts from, are stepLd. -/
theorem flow4_ld (V : Valuation τ sig (Elt Ideal)) :
    after ops V (Proc.devRef .tc main_v468) = stepLd (RP V) (Rcnd V) 4 (after ops V (Proc.devRef .tc main_v376)) (after ops V (Proc.devRef .tc main_v378)) := by
  rw [W_main_v468, W_main_v467, W_main_cst_69, W_main_v394, W_main_v393, W_main_v392, W_main_cst_57, W_main_v391, W_main_v390, W_main_arg3]
  beta_reduce
  apply layer_ld_of_eqs (i := 4) (o := 4) (parC := 0) (parU := 1) (za := after ops V (Proc.devRef .tc main_v389))
    (xc := after ops V (Proc.devRef .tc main_v401)) (hm := after ops V (Proc.devRef .tc main_v427))
  case hza =>
    rw [W_main_v389, W_main_v388, W_main_v387, W_main_v386, W_main_v385, W_main_v384, W_main_v383, W_main_v382, W_main_v381, W_main_v380, W_main_v379, W_main_arg3, W_main_arg4]
    all_goals rfl
  case hxc =>
    rw [W_main_v401, W_main_v400, W_main_v399, W_main_v398, W_main_v397, W_main_c_59, W_main_v396, W_main_v395, W_main_c_58, W_main_v13, W_main_v12, W_main_c_2, W_main_v11, W_main_v10, W_main_c_1, W_main_v9]
    all_goals rfl
  case hhm =>
    rw [W_main_v427, W_main_call9_v4, W_main_call9_v3, W_main_call9_v2, W_main_cst_63, W_main_call9_v1, W_main_call9_v0, W_main_call9_cst, W_main_v426, W_main_v425, W_main_v424, W_main_v423, W_main_v422, W_main_v421, W_main_v420, W_main_v419, W_main_v418, W_main_call8_v4, W_main_call8_v3, W_main_call8_v2, W_main_cst_62, W_main_call8_v1, W_main_call8_v0, W_main_call8_cst, W_main_v417, W_main_v416, W_main_v415, W_main_v414, W_main_v413, W_main_v412, W_main_v411, W_main_v410, W_main_v409, W_cond, W_main_arg5, W_main_arg6, W_main_arg7, W_main_arg8]
    all_goals rfl
  case hs_ =>
    rw [W_main_v440, W_main_v439, W_main_v438, W_main_v437, W_main_v436, W_main_v435, W_main_v434, W_main_v433, W_main_v432, W_main_v431, W_main_v430, W_main_v429, W_main_v428, W_main_arg9, W_main_arg10, W_main_arg13]
    all_goals rfl
  all_goals rfl

end Cert.RSide

end
-- ==== Proof.RSsa10.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 10: each operation's buffer at the end of the run, as the operation's function of its operands' buffers at the end of the run. -/

theorem W_main_v521 (V : Valuation τ sig (Elt F)) :
    after ops V (Proc.devRef .tc main_v521) = ((extractStridedSlice S1x4096 ![5, 0] · slices_S8x4096_S1x4096_5_0) : (⟨S8x4096, .f32⟩ : BufTy).Contents (Elt F) → (⟨S1x4096, .f32⟩ : BufTy).Contents (Elt F)) (after ops V (Proc.devRef .tc main_arg10)) := by
  rw [split10 V]
  exact read_unary ops10_w2 tail11_w2 0 rfl (by decide) (by decide) (val10 V)

theorem W_main_v522 (V : Valuation τ sig (Elt F)) :
    after ops V (Proc.devRef .tc main_v522) = shapeCast S4096 (after ops V (Proc.devRef .tc main_v521)) shapeCasts_S1x4096_S4096 := by
  rw [split10 V]
  exact read_reshape ops10_w2 tail11_w2 1 rfl (by decide) (by decide) (val10 V)

theorem W_main_v523 (V : Valuation τ sig (Elt F)) :
    after ops V (Proc.devRef .tc main_v523) = (broadcastInDim S1x4096 ![1] bcast_S4096_S1x4096_1 : (⟨S4096, .f32⟩ : BufTy).Contents (Elt F) → (⟨S1x4096, .f32⟩ : BufTy).Contents (Elt F)) (after ops V (Proc.devRef .tc main_v522)) := by
  rw [split10 V]
  exact read_unary ops10_w2 tail11_w2 2 rfl (by decide) (by decide) (val10 V)

theorem W_main_v524 (V : Valuation τ sig (Elt F)) :
    after ops V (Proc.devRef .tc main_v524) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v523)) := by
  rw [split10 V]
  exact read_unary ops10_w2 tail11_w2 3 rfl (by decide) (by decide) (val10 V)

theorem W_main_v525 (V : Valuation τ sig (Elt F)) :
    after ops V (Proc.devRef .tc main_v525) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v520)) (after ops V (Proc.devRef .tc main_v524)) := by
  rw [split10 V]
  exact read_binary ops10_w2 tail11_w2 4 rfl (by decide) (by decide) (by decide) (val10 V)

theorem W_main_v526 (V : Valuation τ sig (Elt F)) :
    after ops V (Proc.devRef .tc main_v526) = (Host.tanh : (⟨S2048x4096, .f32⟩ : BufTy).Contents (Elt F) → (⟨S2048x4096, .f32⟩ : BufTy).Contents (Elt F)) (after ops V (Proc.devRef .tc main_v525)) := by
  rw [split10 V]
  exact read_unary ops10_w2 tail11_w2 5 rfl (by decide) (by decide) (val10 V)

theorem W_main_v527 (V : Valuation τ sig (Elt F)) :
    after ops V (Proc.devRef .tc main_v527) = ((extractStridedSlice S1 ![5] · slices_S8_S1_5) : (⟨S8, .f32⟩ : BufTy).Contents (Elt F) → (⟨S1, .f32⟩ : BufTy).Contents (Elt F)) (after ops V (Proc.devRef .tc main_arg13)) := by
  rw [split10 V]
  exact read_unary ops10_w2 tail11_w2 6 rfl (by decide) (by decide) (val10 V)

theorem W_main_v528 (V : Valuation τ sig (Elt F)) :
    after ops V (Proc.devRef .tc main_v528) = shapeCast S_ (after ops V (Proc.devRef .tc main_v527)) shapeCasts_S1_S_ := by
  rw [split10 V]
  exact read_reshape ops10_w2 tail11_w2 7 rfl (by decide) (by decide) (val10 V)

theorem W_main_v529 (V : Valuation τ sig (Elt F)) :
    after ops V (Proc.devRef .tc main_v529) = (broadcastInDim S2048x4096 ![] bcast_S_S2048x4096 : (⟨S_, .f32⟩ : BufTy).Contents (Elt F) → (⟨S2048x4096, .f32⟩ : BufTy).Contents (Elt F)) (after ops V (Proc.devRef .tc main_v528)) := by
  rw [split10 V]
  exact read_unary ops10_w2 tail11_w2 8 rfl (by decide) (by decide) (val10 V)

theorem W_main_v530 (V : Valuation τ sig (Elt F)) :
    after ops V (Proc.devRef .tc main_v530) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v526)) (after ops V (Proc.devRef .tc main_v529)) := by
  rw [split10 V]
  exact read_binary ops10_w2 tail11_w2 9 rfl (by decide) (by decide) (by decide) (val10 V)

theorem W_main_v531 (V : Valuation τ sig (Elt F)) :
    after ops V (Proc.devRef .tc main_v531) = ((extractStridedSlice S1x1024x4096 ![5, 0, 0] · slices_S8x1024x4096_S1x1024x4096_5_0_0) : (⟨S8x1024x4096, .f32⟩ : BufTy).Contents (Elt F) → (⟨S1x1024x4096, .f32⟩ : BufTy).Contents (Elt F)) (after ops V (Proc.devRef .tc main_arg11)) := by
  rw [split10 V]
  exact read_unary ops10_w2 tail11_w2 10 rfl (by decide) (by decide) (val10 V)

theorem W_main_v532 (V : Valuation τ sig (Elt F)) :
    after ops V (Proc.devRef .tc main_v532) = shapeCast S1024x4096 (after ops V (Proc.devRef .tc main_v531)) shapeCasts_S1x1024x4096_S1024x4096 := by
  rw [split10 V]
  exact read_reshape ops10_w2 tail11_w2 11 rfl (by decide) (by decide) (val10 V)

theorem W_main_v533 (V : Valuation τ sig (Elt F)) :
    after ops V (Proc.devRef .tc main_v533) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v517)) (after ops V (Proc.devRef .tc main_v532)) := by
  rw [split10 V]
  exact read_binary ops10_w2 tail11_w2 12 rfl (by decide) (by decide) (by decide) (val10 V)

theorem W_main_v534 (V : Valuation τ sig (Elt F)) :
    after ops V (Proc.devRef .tc main_v534) = ((extractStridedSlice S1x4096 ![5, 0] · slices_S8x4096_S1x4096_5_0) : (⟨S8x4096, .f32⟩ : BufTy).Contents (Elt F) → (⟨S1x4096, .f32⟩ : BufTy).Contents (Elt F)) (after ops V (Proc.devRef .tc main_arg12)) := by
  rw [split10 V]
  exact read_unary ops10_w2 tail11_w2 13 rfl (by decide) (by decide) (val10 V)

theorem W_main_v535 (V : Valuation τ sig (Elt F)) :
    after ops V (Proc.devRef .tc main_v535) = shapeCast S4096 (after ops V (Proc.devRef .tc main_v534)) shapeCasts_S1x4096_S4096 := by
  rw [split10 V]
  exact read_reshape ops10_w2 tail11_w2 14 rfl (by decide) (by decide) (val10 V)

theorem W_main_v536 (V : Valuation τ sig (Elt F)) :
    after ops V (Proc.devRef .tc main_v536) = (broadcastInDim S1x4096 ![1] bcast_S4096_S1x4096_1 : (⟨S4096, .f32⟩ : BufTy).Contents (Elt F) → (⟨S1x4096, .f32⟩ : BufTy).Contents (Elt F)) (after ops V (Proc.devRef .tc main_v535)) := by
  rw [split10 V]
  exact read_unary ops10_w2 tail11_w2 15 rfl (by decide) (by decide) (val10 V)

theorem W_main_v537 (V : Valuation τ sig (Elt F)) :
    after ops V (Proc.devRef .tc main_v537) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v536)) := by
  rw [split10 V]
  exact read_unary ops10_w2 tail11_w2 16 rfl (by decide) (by decide) (val10 V)

theorem W_main_v538 (V : Valuation τ sig (Elt F)) :
    after ops V (Proc.devRef .tc main_v538) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v533)) (after ops V (Proc.devRef .tc main_v537)) := by
  rw [split10 V]
  exact read_binary ops10_w2 tail11_w2 17 rfl (by decide) (by decide) (by decide) (val10 V)

theorem W_main_v539 (V : Valuation τ sig (Elt F)) :
    after ops V (Proc.devRef .tc main_v539) = (Host.exp : (⟨S2048x4096, .f32⟩ : BufTy).Contents (Elt F) → (⟨S2048x4096, .f32⟩ : BufTy).Contents (Elt F)) (after ops V (Proc.devRef .tc main_v530)) := by
  rw [split10 V]
  exact read_unary ops10_w2 tail11_w2 18 rfl (by decide) (by decide) (val10 V)

theorem W_main_v540 (V : Valuation τ sig (Elt F)) :
    after ops V (Proc.devRef .tc main_v540) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v498)) (after ops V (Proc.devRef .tc main_v539)) := by
  rw [split10 V]
  exact read_binary ops10_w2 tail11_w2 19 rfl (by decide) (by decide) (by decide) (val10 V)

theorem W_main_v541 (V : Valuation τ sig (Elt F)) :
    after ops V (Proc.devRef .tc main_v541) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v540)) (after ops V (Proc.devRef .tc main_v538)) := by
  rw [split10 V]
  exact read_binary ops10_w2 tail11_w2 20 rfl (by decide) (by decide) (by decide) (val10 V)

theorem W_main_cst_77 (V : Valuation τ sig (Elt F)) :
    after ops V (Proc.devRef .tc main_cst_77) = (constant S_ .f32 0x00000000#32) := by
  rw [split10 V]
  exact read_nullary ops10_w2 tail11_w2 21 rfl (by decide) (val10 V)

theorem W_main_v542 (V : Valuation τ sig (Elt F)) :
    after ops V (Proc.devRef .tc main_v542) = (broadcastInDim S2048x8192 ![] bcast_S_S2048x8192 : (⟨S_, .f32⟩ : BufTy).Contents (Elt F) → (⟨S2048x8192, .f32⟩ : BufTy).Contents (Elt F)) (after ops V (Proc.devRef .tc main_cst_77)) := by
  rw [split10 V]
  exact read_unary ops10_w2 tail11_w2 22 rfl (by decide) (by decide) (val10 V)

theorem W_main_c_78 (V : Valuation τ sig (Elt F)) :
    after ops V (Proc.devRef .tc main_c_78) = (constantI S_ 32 0#32) := by
  rw [split10 V]
  exact read_nullary ops10_w2 tail11_w2 23 rfl (by decide) (val10 V)

theorem W_main_v543 (V : Valuation τ sig (Elt F)) :
    after ops V (Proc.devRef .tc main_v543) = (broadcastInDim S4096 ![] bcast_S_S4096 : (⟨S_, .i32⟩ : BufTy).Contents (Elt F) → (⟨S4096, .i32⟩ : BufTy).Contents (Elt F)) (after ops V (Proc.devRef .tc main_c_78)) := by
  rw [split10 V]
  exact read_unary ops10_w2 tail11_w2 24 rfl (by decide) (by decide) (val10 V)

theorem W_main_v544 (V : Valuation τ sig (Elt F)) :
    after ops V (Proc.devRef .tc main_v544) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v543)) := by
  rw [split10 V]
  exact read_binary ops10_w2 tail11_w2 25 rfl (by decide) (by decide) (by decide) (val10 V)

theorem W_main_c_79 (V : Valuation τ sig (Elt F)) :
    after ops V (Proc.devRef .tc main_c_79) = (constantI S_ 32 8192#32) := by
  rw [split10 V]
  exact read_nullary ops10_w2 tail11_w2 26 rfl (by decide) (val10 V)

theorem W_main_v545 (V : Valuation τ sig (Elt F)) :
    after ops V (Proc.devRef .tc main_v545) = (broadcastInDim S4096 ![] bcast_S_S4096 : (⟨S_, .i32⟩ : BufTy).Contents (Elt F) → (⟨S4096, .i32⟩ : BufTy).Contents (Elt F)) (after ops V (Proc.devRef .tc main_c_79)) := by
  rw [split10 V]
  exact read_unary ops10_w2 tail11_w2 27 rfl (by decide) (by decide) (val10 V)

theorem W_main_v546 (V : Valuation τ sig (Elt F)) :
    after ops V (Proc.devRef .tc main_v546) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v545)) := by
  rw [split10 V]
  exact read_binary ops10_w2 tail11_w2 28 rfl (by decide) (by decide) (by decide) (val10 V)

theorem W_main_v547 (V : Valuation τ sig (Elt F)) :
    after ops V (Proc.devRef .tc main_v547) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v544)) (after ops V (Proc.devRef .tc main_v546)) (after ops V (Proc.devRef .tc main_v18)) := by
  rw [split10 V]
  exact read_ternary ops10_w2 tail11_w2 29 rfl (by decide) (by decide) (by decide) (by decide) (val10 V)

theorem W_main_v548 (V : Valuation τ sig (Elt F)) :
    after ops V (Proc.devRef .tc main_v548) = (broadcastInDim S4096x1 ![0] bcast_S4096_S4096x1_0 : (⟨S4096, .i32⟩ : BufTy).Contents (Elt F) → (⟨S4096x1, .i32⟩ : BufTy).Contents (Elt F)) (after ops V (Proc.devRef .tc main_v547)) := by
  rw [split10 V]
  exact read_unary ops10_w2 tail11_w2 30 rfl (by decide) (by decide) (val10 V)

theorem W_main_v549 (V : Valuation τ sig (Elt F)) :
    after ops V (Proc.devRef .tc main_v549) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v542)) (after ops V (Proc.devRef .tc main_v548)) (after ops V (Proc.devRef .tc main_v491)) := by
  rw [split10 V]
  exact read_ternary ops10_w2 tail11_w2 31 rfl (by decide) (by decide) (by decide) (by decide) (val10 V)

theorem W_main_c_80 (V : Valuation τ sig (Elt F)) :
    after ops V (Proc.devRef .tc main_c_80) = (constantI S_ 32 0#32) := by
  rw [split10 V]
  exact read_nullary ops10_w2 tail11_w2 32 rfl (by decide) (val10 V)

theorem W_main_v550 (V : Valuation τ sig (Elt F)) :
    after ops V (Proc.devRef .tc main_v550) = (broadcastInDim S4096 ![] bcast_S_S4096 : (⟨S_, .i32⟩ : BufTy).Contents (Elt F) → (⟨S4096, .i32⟩ : BufTy).Contents (Elt F)) (after ops V (Proc.devRef .tc main_c_80)) := by
  rw [split10 V]
  exact read_unary ops10_w2 tail11_w2 33 rfl (by decide) (by decide) (val10 V)

theorem W_main_v551 (V : Valuation τ sig (Elt F)) :
    after ops V (Proc.devRef .tc main_v551) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v550)) := by
  rw [split10 V]
  exact read_binary ops10_w2 tail11_w2 34 rfl (by decide) (by decide) (by decide) (val10 V)

theorem W_main_c_81 (V : Valuation τ sig (Elt F)) :
    after ops V (Proc.devRef .tc main_c_81) = (constantI S_ 32 8192#32) := by
  rw [split10 V]
  exact read_nullary ops10_w2 tail11_w2 35 rfl (by decide) (val10 V)

theorem W_main_v552 (V : Valuation τ sig (Elt F)) :
    after ops V (Proc.devRef .tc main_v552) = (broadcastInDim S4096 ![] bcast_S_S4096 : (⟨S_, .i32⟩ : BufTy).Contents (Elt F) → (⟨S4096, .i32⟩ : BufTy).Contents (Elt F)) (after ops V (Proc.devRef .tc main_c_81)) := by
  rw [split10 V]
  exact read_unary ops10_w2 tail11_w2 36 rfl (by decide) (by decide) (val10 V)

theorem W_main_v553 (V : Valuation τ sig (Elt F)) :
    after ops V (Proc.devRef .tc main_v553) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v552)) := by
  rw [split10 V]
  exact read_binary ops10_w2 tail11_w2 37 rfl (by decide) (by decide) (by decide) (val10 V)

theorem W_main_v554 (V : Valuation τ sig (Elt F)) :
    after ops V (Proc.devRef .tc main_v554) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v551)) (after ops V (Proc.devRef .tc main_v553)) (after ops V (Proc.devRef .tc main_v13)) := by
  rw [split10 V]
  exact read_ternary ops10_w2 tail11_w2 38 rfl (by decide) (by decide) (by decide) (by decide) (val10 V)

theorem W_main_v555 (V : Valuation τ sig (Elt F)) :
    after ops V (Proc.devRef .tc main_v555) = (broadcastInDim S4096x1 ![0] bcast_S4096_S4096x1_0 : (⟨S4096, .i32⟩ : BufTy).Contents (Elt F) → (⟨S4096x1, .i32⟩ : BufTy).Contents (Elt F)) (after ops V (Proc.devRef .tc main_v554)) := by
  rw [split10 V]
  exact read_unary ops10_w2 tail11_w2 39 rfl (by decide) (by decide) (val10 V)

theorem W_main_v556 (V : Valuation τ sig (Elt F)) :
    after ops V (Proc.devRef .tc main_v556) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v549)) (after ops V (Proc.devRef .tc main_v555)) (after ops V (Proc.devRef .tc main_v541)) := by
  rw [split10 V]
  exact read_ternary ops10_w2 tail11_w2 40 rfl (by decide) (by decide) (by decide) (by decide) (val10 V)

theorem W_main_cst_82 (V : Valuation τ sig (Elt F)) :
    after ops V (Proc.devRef .tc main_cst_82) = (constant S_ .f32 0x00000000#32) := by
  rw [split10 V]
  exact read_nullary ops10_w2 tail11_w2 41 rfl (by decide) (val10 V)

theorem W_main_v557 (V : Valuation τ sig (Elt F)) :
    after ops V (Proc.devRef .tc main_v557) = ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)) (after ops V (Proc.devRef .tc main_v530)) (after ops V (Proc.devRef .tc main_cst_82)) := by
  rw [split10 V]
  exact read_binary ops10_w2 tail11_w2 42 rfl (by decide) (by decide) (by decide) (val10 V)

theorem W_main_v558 (V : Valuation τ sig (Elt F)) :
    after ops V (Proc.devRef .tc main_v558) = (addf : (⟨S2048, .f32⟩ : BufTy).Contents (Elt F) → (⟨S2048, .f32⟩ : BufTy).Contents (Elt F) → (⟨S2048, .f32⟩ : BufTy).Contents (Elt F)) (after ops V (Proc.devRef .tc main_v484)) (after ops V (Proc.devRef .tc main_v557)) := by
  rw [split10 V]
  exact read_binary ops10_w2 tail11_w2 43 rfl (by decide) (by decide) (by decide) (val10 V)

theorem W_main_v559 (V : Valuation τ sig (Elt F)) :
    after ops V (Proc.devRef .tc main_v559) = ((extractStridedSlice S1x8192 ![6, 0] · slices_S8x8192_S1x8192_6_0) : (⟨S8x8192, .f32⟩ : BufTy).Contents (Elt F) → (⟨S1x8192, .f32⟩ : BufTy).Contents (Elt F)) (after ops V (Proc.devRef .tc main_arg4)) := by
  rw [split10 V]
  exact read_unary ops10_w2 tail11_w2 44 rfl (by decide) (by decide) (val10 V)

theorem W_main_v560 (V : Valuation τ sig (Elt F)) :
    after ops V (Proc.devRef .tc main_v560) = shapeCast S8192 (after ops V (Proc.devRef .tc main_v559)) shapeCasts_S1x8192_S8192 := by
  rw [split10 V]
  exact read_reshape ops10_w2 tail11_w2 45 rfl (by decide) (by decide) (val10 V)

theorem W_main_v561 (V : Valuation τ sig (Elt F)) :
    after ops V (Proc.devRef .tc main_v561) = (broadcastInDim S1x8192 ![1] bcast_S8192_S1x8192_1 : (⟨S8192, .f32⟩ : BufTy).Contents (Elt F) → (⟨S1x8192, .f32⟩ : BufTy).Contents (Elt F)) (after ops V (Proc.devRef .tc main_v560)) := by
  rw [split10 V]
  exact read_unary ops10_w2 tail11_w2 46 rfl (by decide) (by decide) (val10 V)

theorem W_main_v562 (V : Valuation τ sig (Elt F)) :
    after ops V (Proc.devRef .tc main_v562) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v561)) := by
  rw [split10 V]
  exact read_unary ops10_w2 tail11_w2 47 rfl (by decide) (by decide) (val10 V)

theorem W_main_v563 (V : Valuation τ sig (Elt F)) :
    after ops V (Proc.devRef .tc main_v563) = (addf : (⟨S2048x8192, .f32⟩ : BufTy).Contents (Elt F) → (⟨S2048x8192, .f32⟩ : BufTy).Contents (Elt F) → (⟨S2048x8192, .f32⟩ : BufTy).Contents (Elt F)) (after ops V (Proc.devRef .tc main_v556)) (after ops V (Proc.devRef .tc main_v562)) := by
  rw [split10 V]
  exact read_binary ops10_w2 tail11_w2 48 rfl (by decide) (by decide) (by decide) (val10 V)

theorem W_main_v564 (V : Valuation τ sig (Elt F)) :
    after ops V (Proc.devRef .tc main_v564) = ((extractStridedSlice S1x8192 ![6, 0] · slices_S8x8192_S1x8192_6_0) : (⟨S8x8192, .f32⟩ : BufTy).Contents (Elt F) → (⟨S1x8192, .f32⟩ : BufTy).Contents (Elt F)) (after ops V (Proc.devRef .tc main_arg3)) := by
  rw [split10 V]
  exact read_unary ops10_w2 tail11_w2 49 rfl (by decide) (by decide) (val10 V)

theorem W_main_v565 (V : Valuation τ sig (Elt F)) :
    after ops V (Proc.devRef .tc main_v565) = shapeCast S8192 (after ops V (Proc.devRef .tc main_v564)) shapeCasts_S1x8192_S8192 := by
  rw [split10 V]
  exact read_reshape ops10_w2 tail11_w2 50 rfl (by decide) (by decide) (val10 V)

theorem W_main_v566 (V : Valuation τ sig (Elt F)) :
    after ops V (Proc.devRef .tc main_v566) = (Host.exp : (⟨S8192, .f32⟩ : BufTy).Contents (Elt F) → (⟨S8192, .f32⟩ : BufTy).Contents (Elt F)) (after ops V (Proc.devRef .tc main_v565)) := by
  rw [split10 V]
  exact read_unary ops10_w2 tail11_w2 51 rfl (by decide) (by decide) (val10 V)

theorem W_main_v567 (V : Valuation τ sig (Elt F)) :
    after ops V (Proc.devRef .tc main_v567) = (broadcastInDim S1x8192 ![1] bcast_S8192_S1x8192_1 : (⟨S8192, .f32⟩ : BufTy).Contents (Elt F) → (⟨S1x8192, .f32⟩ : BufTy).Contents (Elt F)) (after ops V (Proc.devRef .tc main_v566)) := by
  rw [split10 V]
  exact read_unary ops10_w2 tail11_w2 52 rfl (by decide) (by decide) (val10 V)

theorem W_main_v568 (V : Valuation τ sig (Elt F)) :
    after ops V (Proc.devRef .tc main_v568) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v567)) := by
  rw [split10 V]
  exact read_unary ops10_w2 tail11_w2 53 rfl (by decide) (by decide) (val10 V)

theorem W_main_v569 (V : Valuation τ sig (Elt F)) :
    after ops V (Proc.devRef .tc main_v569) = (mulf : (⟨S2048x8192, .f32⟩ : BufTy).Contents (Elt F) → (⟨S2048x8192, .f32⟩ : BufTy).Contents (Elt F) → (⟨S2048x8192, .f32⟩ : BufTy).Contents (Elt F)) (after ops V (Proc.devRef .tc main_v563)) (after ops V (Proc.devRef .tc main_v568)) := by
  rw [split10 V]
  exact read_binary ops10_w2 tail11_w2 54 rfl (by decide) (by decide) (by decide) (val10 V)

theorem W_main_v570 (V : Valuation τ sig (Elt F)) :
    after ops V (Proc.devRef .tc main_v570) = ((extractStridedSlice S1x8192 ![6, 0] · slices_S8x8192_S1x8192_6_0) : (⟨S8x8192, .f32⟩ : BufTy).Contents (Elt F) → (⟨S1x8192, .f32⟩ : BufTy).Contents (Elt F)) (after ops V (Proc.devRef .tc main_arg3)) := by
  rw [split10 V]
  exact read_unary ops10_w2 tail11_w2 55 rfl (by decide) (by decide) (val10 V)

theorem W_main_v571 (V : Valuation τ sig (Elt F)) :
    after ops V (Proc.devRef .tc main_v571) = shapeCast S8192 (after ops V (Proc.devRef .tc main_v570)) shapeCasts_S1x8192_S8192 := by
  rw [split10 V]
  exact read_reshape ops10_w2 tail11_w2 56 rfl (by decide) (by decide) (val10 V)

theorem W_main_cst_83 (V : Valuation τ sig (Elt F)) :
    after ops V (Proc.devRef .tc main_cst_83) = (constant S_ .f32 0x00000000#32) := by
  rw [split10 V]
  exact read_nullary ops10_w2 tail11_w2 57 rfl (by decide) (val10 V)

theorem W_main_v572 (V : Valuation τ sig (Elt F)) :
    after ops V (Proc.devRef .tc main_v572) = ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (after ops V (Proc.devRef .tc main_v571)) (after ops V (Proc.devRef .tc main_cst_83)) := by
  rw [split10 V]
  exact read_binary ops10_w2 tail11_w2 58 rfl (by decide) (by decide) (by decide) (val10 V)

theorem W_main_v573 (V : Valuation τ sig (Elt F)) :
    after ops V (Proc.devRef .tc main_v573) = (broadcastInDim S2048 ![] bcast_S_S2048 : (⟨S_, .f32⟩ : BufTy).Contents (Elt F) → (⟨S2048, .f32⟩ : BufTy).Contents (Elt F)) (after ops V (Proc.devRef .tc main_v572)) := by
  rw [split10 V]
  exact read_unary ops10_w2 tail11_w2 59 rfl (by decide) (by decide) (val10 V)

end Cert.RSide

end
-- ==== Proof.RFlow5.lean ====
import proofs.«175835_j29978871726094_1_alg».proof.Proof.RSsa0
import proofs.«175835_j29978871726094_1_alg».proof.Proof.RSsa9
import proofs.«175835_j29978871726094_1_alg».proof.Proof.RSsa10
import proofs.«175835_j29978871726094_1_alg».proof.Proof.RFlowBase
import proofs.«175835_j29978871726094_1_alg».proof.Proof.FlowRefTerms3

open scoped BigOperators

noncomputable section

namespace Cert.RSide

open Cert.ReferenceIdeal Cert.ReferenceIdeal.Gen Idealize.ShloMosaic Idealize.ShloMosaic.TcCoe Idealize.SL.Sem Idealize.ShloMosaic.StableHlo Cert.Flow Cert.Flow.RefTerms

/-- Layer 5 on the array: the second scatter's result is stepZ of the array the layer starts from. The two scatters
    write the conditioning columns and the transformed columns; the arrays they are computed from — the rescaled array, its
    columns of the two parities, the hidden array, the scales and the shifts — are each their own operations' function of the
    ones before (the equations of the run, read one operation at a time). -/
theorem flow5_z (V : Valuation τ sig (Elt Ideal)) :
    after ops V (Proc.devRef .tc main_v556) = stepZ (RP V) (Rcnd V) 5 (after ops V (Proc.devRef .tc main_v466)) := by
  rw [W_main_v556, W_main_v555, W_main_v554, W_main_v553, W_main_v552, W_main_c_81, W_main_v551, W_main_v550, W_main_c_80, W_main_v549, W_main_v548, W_main_v547, W_main_v546, W_main_v545, W_main_c_79, W_main_v544, W_main_v543, W_main_c_78, W_main_v542, W_main_cst_77, W_main_v541, W_main_v540, W_main_v539,
    W_main_v13, W_main_v12, W_main_c_2, W_main_v11, W_main_v10, W_main_c_1, W_main_v9,
    W_main_v18, W_main_v17, W_main_c_4, W_main_v16, W_main_v15, W_main_c_3, W_main_v14]
  beta_reduce
  apply layer_z_of_eqs (i := 5) (o := 5) (parC := 1) (parU := 0) (za := after ops V (Proc.devRef .tc main_v479))
    (hm := after ops V (Proc.devRef .tc main_v517))
  case hza =>
    rw [W_main_v479, W_main_v478, W_main_v477, W_main_v476, W_main_v475, W_main_v474, W_main_v473, W_main_v472, W_main_v471, W_main_v470, W_main_v469, W_main_arg3, W_main_arg4]
    all_goals rfl
  case hxc =>
    rw [W_main_v491, W_main_v490, W_main_v489, W_main_v488, W_main_v487, W_main_c_72, W_main_v486, W_main_v485, W_main_c_71, W_main_v18, W_main_v17, W_main_c_4, W_main_v16, W_main_v15, W_main_c_3, W_main_v14]
    all_goals rfl
  case hxu =>
    rw [W_main_v498, W_main_v497, W_main_v496, W_main_v495, W_main_v494, W_main_c_74, W_main_v493, W_main_v492, W_main_c_73, W_main_v13, W_main_v12, W_main_c_2, W_main_v11, W_main_v10, W_main_c_1, W_main_v9]
    all_goals rfl
  case hhm =>
    rw [W_main_v517, W_main_call11_v4, W_main_call11_v3, W_main_call11_v2, W_main_cst_76, W_main_call11_v1, W_main_call11_v0, W_main_call11_cst, W_main_v516, W_main_v515, W_main_v514, W_main_v513, W_main_v512, W_main_v511, W_main_v510, W_main_v509, W_main_v508, W_main_call10_v4, W_main_call10_v3, W_main_call10_v2, W_main_cst_75, W_main_call10_v1, W_main_call10_v0, W_main_call10_cst, W_main_v507, W_main_v506, W_main_v505, W_main_v504, W_main_v503, W_main_v502, W_main_v501, W_main_v500, W_main_v499, W_cond, W_main_arg5, W_main_arg6, W_main_arg7, W_main_arg8]
    all_goals rfl
  case hs_ =>
    rw [W_main_v530, W_main_v529, W_main_v528, W_main_v527, W_main_v526, W_main_v525, W_main_v524, W_main_v523, W_main_v522, W_main_v521, W_main_v520, W_main_v519, W_main_v518, W_main_arg9, W_main_arg10, W_main_arg13]
    all_goals rfl
  case ht =>
    rw [W_main_v538, W_main_v537, W_main_v536, W_main_v535, W_main_v534, W_main_v533, W_main_v532, W_main_v531, W_main_arg11, W_main_arg12]
    all_goals rfl
  all_goals rfl

/-- Layer 5 on the vector: the sum of the layer's logarithmic scales, then the row sums of the scales, added to the vector the
    layer starts from, are stepLd. -/
theorem flow5_ld (V : Valuation τ sig (Elt Ideal)) :
    after ops V (Proc.devRef .tc main_v558) = stepLd (RP V) (Rcnd V) 5 (after ops V (Proc.devRef .tc main_v466)) (after ops V (Proc.devRef .tc main_v468)) := by
  rw [W_main_v558, W_main_v557, W_main_cst_82, W_main_v484, W_main_v483, W_main_v482, W_main_cst_70, W_main_v481, W_main_v480, W_main_arg3]
  beta_reduce
  apply layer_ld_of_eqs (i := 5) (o := 5) (parC := 1) (parU := 0) (za := after ops V (Proc.devRef .tc main_v479))
    (xc := after ops V (Proc.devRef .tc main_v491)) (hm := after ops V (Proc.devRef .tc main_v517))
  case hza =>
    rw [W_main_v479, W_main_v478, W_main_v477, W_main_v476, W_main_v475, W_main_v474, W_main_v473, W_main_v472, W_main_v471, W_main_v470, W_main_v469, W_main_arg3, W_main_arg4]
    all_goals rfl
  case hxc =>
    rw [W_main_v491, W_main_v490, W_main_v489, W_main_v488, W_main_v487, W_main_c_72, W_main_v486, W_main_v485, W_main_c_71, W_main_v18, W_main_v17, W_main_c_4, W_main_v16, W_main_v15, W_main_c_3, W_main_v14]
    all_goals rfl
  case hhm =>
    rw [W_main_v517, W_main_call11_v4, W_main_call11_v3, W_main_call11_v2, W_main_cst_76, W_main_call11_v1, W_main_call11_v0, W_main_call11_cst, W_main_v516, W_main_v515, W_main_v514, W_main_v513, W_main_v512, W_main_v511, W_main_v510, W_main_v509, W_main_v508, W_main_call10_v4, W_main_call10_v3, W_main_call10_v2, W_main_cst_75, W_main_call10_v1, W_main_call10_v0, W_main_call10_cst, W_main_v507, W_main_v506, W_main_v505, W_main_v504, W_main_v503, W_main_v502, W_main_v501, W_main_v500, W_main_v499, W_cond, W_main_arg5, W_main_arg6, W_main_arg7, W_main_arg8]
    all_goals rfl
  case hs_ =>
    rw [W_main_v530, W_main_v529, W_main_v528, W_main_v527, W_main_v526, W_main_v525, W_main_v524, W_main_v523, W_main_v522, W_main_v521, W_main_v520, W_main_v519, W_main_v518, W_main_arg9, W_main_arg10, W_main_arg13]
    all_goals rfl
  all_goals rfl

end Cert.RSide

end
-- ==== Proof.RSsa11.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 11: each operation's buffer at the end of the run, as the operation's function of its operands' buffers at the end of the run. -/

theorem W_main_v574 (V : Valuation τ sig (Elt F)) :
    after ops V (Proc.devRef .tc main_v574) = (addf : (⟨S2048, .f32⟩ : BufTy).Contents (Elt F) → (⟨S2048, .f32⟩ : BufTy).Contents (Elt F) → (⟨S2048, .f32⟩ : BufTy).Contents (Elt F)) (after ops V (Proc.devRef .tc main_v558)) (after ops V (Proc.devRef .tc main_v573)) := by
  rw [split11 V]
  exact read_binary ops11_w2 tail12_w2 0 rfl (by decide) (by decide) (by decide) (val11 V)

theorem W_main_c_84 (V : Valuation τ sig (Elt F)) :
    after ops V (Proc.devRef .tc main_c_84) = (constantI S_ 32 0#32) := by
  rw [split11 V]
  exact read_nullary ops11_w2 tail12_w2 1 rfl (by decide) (val11 V)

theorem W_main_v575 (V : Valuation τ sig (Elt F)) :
    after ops V (Proc.devRef .tc main_v575) = (broadcastInDim S4096 ![] bcast_S_S4096 : (⟨S_, .i32⟩ : BufTy).Contents (Elt F) → (⟨S4096, .i32⟩ : BufTy).Contents (Elt F)) (after ops V (Proc.devRef .tc main_c_84)) := by
  rw [split11 V]
  exact read_unary ops11_w2 tail12_w2 2 rfl (by decide) (by decide) (val11 V)

theorem W_main_v576 (V : Valuation τ sig (Elt F)) :
    after ops V (Proc.devRef .tc main_v576) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v575)) := by
  rw [split11 V]
  exact read_binary ops11_w2 tail12_w2 3 rfl (by decide) (by decide) (by decide) (val11 V)

theorem W_main_c_85 (V : Valuation τ sig (Elt F)) :
    after ops V (Proc.devRef .tc main_c_85) = (constantI S_ 32 8192#32) := by
  rw [split11 V]
  exact read_nullary ops11_w2 tail12_w2 4 rfl (by decide) (val11 V)

theorem W_main_v577 (V : Valuation τ sig (Elt F)) :
    after ops V (Proc.devRef .tc main_v577) = (broadcastInDim S4096 ![] bcast_S_S4096 : (⟨S_, .i32⟩ : BufTy).Contents (Elt F) → (⟨S4096, .i32⟩ : BufTy).Contents (Elt F)) (after ops V (Proc.devRef .tc main_c_85)) := by
  rw [split11 V]
  exact read_unary ops11_w2 tail12_w2 5 rfl (by decide) (by decide) (val11 V)

theorem W_main_v578 (V : Valuation τ sig (Elt F)) :
    after ops V (Proc.devRef .tc main_v578) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v577)) := by
  rw [split11 V]
  exact read_binary ops11_w2 tail12_w2 6 rfl (by decide) (by decide) (by decide) (val11 V)

theorem W_main_v579 (V : Valuation τ sig (Elt F)) :
    after ops V (Proc.devRef .tc main_v579) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v576)) (after ops V (Proc.devRef .tc main_v578)) (after ops V (Proc.devRef .tc main_v13)) := by
  rw [split11 V]
  exact read_ternary ops11_w2 tail12_w2 7 rfl (by decide) (by decide) (by decide) (by decide) (val11 V)

theorem W_main_v580 (V : Valuation τ sig (Elt F)) :
    after ops V (Proc.devRef .tc main_v580) = (broadcastInDim S4096x1 ![0] bcast_S4096_S4096x1_0 : (⟨S4096, .i32⟩ : BufTy).Contents (Elt F) → (⟨S4096x1, .i32⟩ : BufTy).Contents (Elt F)) (after ops V (Proc.devRef .tc main_v579)) := by
  rw [split11 V]
  exact read_unary ops11_w2 tail12_w2 8 rfl (by decide) (by decide) (val11 V)

theorem W_main_v581 (V : Valuation τ sig (Elt F)) :
    after ops V (Proc.devRef .tc main_v581) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v569)) (after ops V (Proc.devRef .tc main_v580)) := by
  rw [split11 V]
  exact read_binary ops11_w2 tail12_w2 9 rfl (by decide) (by decide) (by decide) (val11 V)

theorem W_main_c_86 (V : Valuation τ sig (Elt F)) :
    after ops V (Proc.devRef .tc main_c_86) = (constantI S_ 32 0#32) := by
  rw [split11 V]
  exact read_nullary ops11_w2 tail12_w2 10 rfl (by decide) (val11 V)

theorem W_main_v582 (V : Valuation τ sig (Elt F)) :
    after ops V (Proc.devRef .tc main_v582) = (broadcastInDim S4096 ![] bcast_S_S4096 : (⟨S_, .i32⟩ : BufTy).Contents (Elt F) → (⟨S4096, .i32⟩ : BufTy).Contents (Elt F)) (after ops V (Proc.devRef .tc main_c_86)) := by
  rw [split11 V]
  exact read_unary ops11_w2 tail12_w2 11 rfl (by decide) (by decide) (val11 V)

theorem W_main_v583 (V : Valuation τ sig (Elt F)) :
    after ops V (Proc.devRef .tc main_v583) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v582)) := by
  rw [split11 V]
  exact read_binary ops11_w2 tail12_w2 12 rfl (by decide) (by decide) (by decide) (val11 V)

theorem W_main_c_87 (V : Valuation τ sig (Elt F)) :
    after ops V (Proc.devRef .tc main_c_87) = (constantI S_ 32 8192#32) := by
  rw [split11 V]
  exact read_nullary ops11_w2 tail12_w2 13 rfl (by decide) (val11 V)

theorem W_main_v584 (V : Valuation τ sig (Elt F)) :
    after ops V (Proc.devRef .tc main_v584) = (broadcastInDim S4096 ![] bcast_S_S4096 : (⟨S_, .i32⟩ : BufTy).Contents (Elt F) → (⟨S4096, .i32⟩ : BufTy).Contents (Elt F)) (after ops V (Proc.devRef .tc main_c_87)) := by
  rw [split11 V]
  exact read_unary ops11_w2 tail12_w2 14 rfl (by decide) (by decide) (val11 V)

theorem W_main_v585 (V : Valuation τ sig (Elt F)) :
    after ops V (Proc.devRef .tc main_v585) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v584)) := by
  rw [split11 V]
  exact read_binary ops11_w2 tail12_w2 15 rfl (by decide) (by decide) (by decide) (val11 V)

theorem W_main_v586 (V : Valuation τ sig (Elt F)) :
    after ops V (Proc.devRef .tc main_v586) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v583)) (after ops V (Proc.devRef .tc main_v585)) (after ops V (Proc.devRef .tc main_v18)) := by
  rw [split11 V]
  exact read_ternary ops11_w2 tail12_w2 16 rfl (by decide) (by decide) (by decide) (by decide) (val11 V)

theorem W_main_v587 (V : Valuation τ sig (Elt F)) :
    after ops V (Proc.devRef .tc main_v587) = (broadcastInDim S4096x1 ![0] bcast_S4096_S4096x1_0 : (⟨S4096, .i32⟩ : BufTy).Contents (Elt F) → (⟨S4096x1, .i32⟩ : BufTy).Contents (Elt F)) (after ops V (Proc.devRef .tc main_v586)) := by
  rw [split11 V]
  exact read_unary ops11_w2 tail12_w2 17 rfl (by decide) (by decide) (val11 V)

theorem W_main_v588 (V : Valuation τ sig (Elt F)) :
    after ops V (Proc.devRef .tc main_v588) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v569)) (after ops V (Proc.devRef .tc main_v587)) := by
  rw [split11 V]
  exact read_binary ops11_w2 tail12_w2 18 rfl (by decide) (by decide) (by decide) (val11 V)

theorem W_main_v589 (V : Valuation τ sig (Elt F)) :
    after ops V (Proc.devRef .tc main_v589) = ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)) (after ops V (Proc.devRef .tc main_v581)) (after ops V (Proc.devRef .tc main_v7)) := by
  rw [split11 V]
  exact read_binary ops11_w2 tail12_w2 19 rfl (by decide) (by decide) (by decide) (val11 V)

theorem W_main_v590 (V : Valuation τ sig (Elt F)) :
    after ops V (Proc.devRef .tc main_v590) = ((extractStridedSlice S1x5120x1024 ![6, 0, 0] · slices_S8x5120x1024_S1x5120x1024_6_0_0) : (⟨S8x5120x1024, .f32⟩ : BufTy).Contents (Elt F) → (⟨S1x5120x1024, .f32⟩ : BufTy).Contents (Elt F)) (after ops V (Proc.devRef .tc main_arg5)) := by
  rw [split11 V]
  exact read_unary ops11_w2 tail12_w2 20 rfl (by decide) (by decide) (val11 V)

theorem W_main_v591 (V : Valuation τ sig (Elt F)) :
    after ops V (Proc.devRef .tc main_v591) = shapeCast S5120x1024 (after ops V (Proc.devRef .tc main_v590)) shapeCasts_S1x5120x1024_S5120x1024 := by
  rw [split11 V]
  exact read_reshape ops11_w2 tail12_w2 21 rfl (by decide) (by decide) (val11 V)

theorem W_main_v592 (V : Valuation τ sig (Elt F)) :
    after ops V (Proc.devRef .tc main_v592) = ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)) (after ops V (Proc.devRef .tc main_v589)) (after ops V (Proc.devRef .tc main_v591)) := by
  rw [split11 V]
  exact read_binary ops11_w2 tail12_w2 22 rfl (by decide) (by decide) (by decide) (val11 V)

theorem W_main_v593 (V : Valuation τ sig (Elt F)) :
    after ops V (Proc.devRef .tc main_v593) = ((extractStridedSlice S1x1024 ![6, 0] · slices_S8x1024_S1x1024_6_0) : (⟨S8x1024, .f32⟩ : BufTy).Contents (Elt F) → (⟨S1x1024, .f32⟩ : BufTy).Contents (Elt F)) (after ops V (Proc.devRef .tc main_arg6)) := by
  rw [split11 V]
  exact read_unary ops11_w2 tail12_w2 23 rfl (by decide) (by decide) (val11 V)

theorem W_main_v594 (V : Valuation τ sig (Elt F)) :
    after ops V (Proc.devRef .tc main_v594) = shapeCast S1024 (after ops V (Proc.devRef .tc main_v593)) shapeCasts_S1x1024_S1024 := by
  rw [split11 V]
  exact read_reshape ops11_w2 tail12_w2 24 rfl (by decide) (by decide) (val11 V)

theorem W_main_v595 (V : Valuation τ sig (Elt F)) :
    after ops V (Proc.devRef .tc main_v595) = (broadcastInDim S1x1024 ![1] bcast_S1024_S1x1024_1 : (⟨S1024, .f32⟩ : BufTy).Contents (Elt F) → (⟨S1x1024, .f32⟩ : BufTy).Contents (Elt F)) (after ops V (Proc.devRef .tc main_v594)) := by
  rw [split11 V]
  exact read_unary ops11_w2 tail12_w2 25 rfl (by decide) (by decide) (val11 V)

theorem W_main_v596 (V : Valuation τ sig (Elt F)) :
    after ops V (Proc.devRef .tc main_v596) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v595)) := by
  rw [split11 V]
  exact read_unary ops11_w2 tail12_w2 26 rfl (by decide) (by decide) (val11 V)

theorem W_main_v597 (V : Valuation τ sig (Elt F)) :
    after ops V (Proc.devRef .tc main_v597) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v592)) (after ops V (Proc.devRef .tc main_v596)) := by
  rw [split11 V]
  exact read_binary ops11_w2 tail12_w2 27 rfl (by decide) (by decide) (by decide) (val11 V)

theorem W_main_cst_88 (V : Valuation τ sig (Elt F)) :
    after ops V (Proc.devRef .tc main_cst_88) = (constant S_ .f32 0x3E4CCCCD#32) := by
  rw [split11 V]
  exact read_nullary ops11_w2 tail12_w2 28 rfl (by decide) (val11 V)

theorem W_main_call12_cst (V : Valuation τ sig (Elt F)) :
    after ops V (Proc.devRef .tc main_call12_cst) = (constant S_ .f32 0x00000000#32) := by
  rw [split11 V]
  exact read_nullary ops11_w2 tail12_w2 29 rfl (by decide) (val11 V)

theorem W_main_call12_v0 (V : Valuation τ sig (Elt F)) :
    after ops V (Proc.devRef .tc main_call12_v0) = (broadcastInDim S2048x1024 ![] bcast_S_S2048x1024 : (⟨S_, .f32⟩ : BufTy).Contents (Elt F) → (⟨S2048x1024, .f32⟩ : BufTy).Contents (Elt F)) (after ops V (Proc.devRef .tc main_call12_cst)) := by
  rw [split11 V]
  exact read_unary ops11_w2 tail12_w2 30 rfl (by decide) (by decide) (val11 V)

theorem W_main_call12_v1 (V : Valuation τ sig (Elt F)) :
    after ops V (Proc.devRef .tc main_call12_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v597)) (after ops V (Proc.devRef .tc main_call12_v0)) := by
  rw [split11 V]
  exact read_binary ops11_w2 tail12_w2 31 rfl (by decide) (by decide) (by decide) (val11 V)

theorem W_main_call12_v2 (V : Valuation τ sig (Elt F)) :
    after ops V (Proc.devRef .tc main_call12_v2) = (id : (⟨S_, .f32⟩ : BufTy).Contents (Elt F) → (⟨S_, .f32⟩ : BufTy).Contents (Elt F)) (after ops V (Proc.devRef .tc main_cst_88)) := by
  rw [split11 V]
  exact read_unary ops11_w2 tail12_w2 32 rfl (by decide) (by decide) (val11 V)

theorem W_main_call12_v3 (V : Valuation τ sig (Elt F)) :
    after ops V (Proc.devRef .tc main_call12_v3) = (broadcastInDim S2048x1024 ![] bcast_S_S2048x1024 : (⟨S_, .f32⟩ : BufTy).Contents (Elt F) → (⟨S2048x1024, .f32⟩ : BufTy).Contents (Elt F)) (after ops V (Proc.devRef .tc main_call12_v2)) := by
  rw [split11 V]
  exact read_unary ops11_w2 tail12_w2 33 rfl (by decide) (by decide) (val11 V)

theorem W_main_call12_v4 (V : Valuation τ sig (Elt F)) :
    after ops V (Proc.devRef .tc main_call12_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call12_v3)) (after ops V (Proc.devRef .tc main_v597)) := by
  rw [split11 V]
  exact read_binary ops11_w2 tail12_w2 34 rfl (by decide) (by decide) (by decide) (val11 V)

theorem W_main_v598 (V : Valuation τ sig (Elt F)) :
    after ops V (Proc.devRef .tc main_v598) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call12_v1)) (after ops V (Proc.devRef .tc main_v597)) (after ops V (Proc.devRef .tc main_call12_v4)) := by
  rw [split11 V]
  exact read_ternary ops11_w2 tail12_w2 35 rfl (by decide) (by decide) (by decide) (by decide) (val11 V)

theorem W_main_v599 (V : Valuation τ sig (Elt F)) :
    after ops V (Proc.devRef .tc main_v599) = ((extractStridedSlice S1x1024x1024 ![6, 0, 0] · slices_S8x1024x1024_S1x1024x1024_6_0_0) : (⟨S8x1024x1024, .f32⟩ : BufTy).Contents (Elt F) → (⟨S1x1024x1024, .f32⟩ : BufTy).Contents (Elt F)) (after ops V (Proc.devRef .tc main_arg7)) := by
  rw [split11 V]
  exact read_unary ops11_w2 tail12_w2 36 rfl (by decide) (by decide) (val11 V)

theorem W_main_v600 (V : Valuation τ sig (Elt F)) :
    after ops V (Proc.devRef .tc main_v600) = shapeCast S1024x1024 (after ops V (Proc.devRef .tc main_v599)) shapeCasts_S1x1024x1024_S1024x1024 := by
  rw [split11 V]
  exact read_reshape ops11_w2 tail12_w2 37 rfl (by decide) (by decide) (val11 V)

theorem W_main_v601 (V : Valuation τ sig (Elt F)) :
    after ops V (Proc.devRef .tc main_v601) = ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)) (after ops V (Proc.devRef .tc main_v598)) (after ops V (Proc.devRef .tc main_v600)) := by
  rw [split11 V]
  exact read_binary ops11_w2 tail12_w2 38 rfl (by decide) (by decide) (by decide) (val11 V)

theorem W_main_v602 (V : Valuation τ sig (Elt F)) :
    after ops V (Proc.devRef .tc main_v602) = ((extractStridedSlice S1x1024 ![6, 0] · slices_S8x1024_S1x1024_6_0) : (⟨S8x1024, .f32⟩ : BufTy).Contents (Elt F) → (⟨S1x1024, .f32⟩ : BufTy).Contents (Elt F)) (after ops V (Proc.devRef .tc main_arg8)) := by
  rw [split11 V]
  exact read_unary ops11_w2 tail12_w2 39 rfl (by decide) (by decide) (val11 V)

theorem W_main_v603 (V : Valuation τ sig (Elt F)) :
    after ops V (Proc.devRef .tc main_v603) = shapeCast S1024 (after ops V (Proc.devRef .tc main_v602)) shapeCasts_S1x1024_S1024 := by
  rw [split11 V]
  exact read_reshape ops11_w2 tail12_w2 40 rfl (by decide) (by decide) (val11 V)

theorem W_main_v604 (V : Valuation τ sig (Elt F)) :
    after ops V (Proc.devRef .tc main_v604) = (broadcastInDim S1x1024 ![1] bcast_S1024_S1x1024_1 : (⟨S1024, .f32⟩ : BufTy).Contents (Elt F) → (⟨S1x1024, .f32⟩ : BufTy).Contents (Elt F)) (after ops V (Proc.devRef .tc main_v603)) := by
  rw [split11 V]
  exact read_unary ops11_w2 tail12_w2 41 rfl (by decide) (by decide) (val11 V)

theorem W_main_v605 (V : Valuation τ sig (Elt F)) :
    after ops V (Proc.devRef .tc main_v605) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v604)) := by
  rw [split11 V]
  exact read_unary ops11_w2 tail12_w2 42 rfl (by decide) (by decide) (val11 V)

theorem W_main_v606 (V : Valuation τ sig (Elt F)) :
    after ops V (Proc.devRef .tc main_v606) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v601)) (after ops V (Proc.devRef .tc main_v605)) := by
  rw [split11 V]
  exact read_binary ops11_w2 tail12_w2 43 rfl (by decide) (by decide) (by decide) (val11 V)

theorem W_main_cst_89 (V : Valuation τ sig (Elt F)) :
    after ops V (Proc.devRef .tc main_cst_89) = (constant S_ .f32 0x3E4CCCCD#32) := by
  rw [split11 V]
  exact read_nullary ops11_w2 tail12_w2 44 rfl (by decide) (val11 V)

theorem W_main_call13_cst (V : Valuation τ sig (Elt F)) :
    after ops V (Proc.devRef .tc main_call13_cst) = (constant S_ .f32 0x00000000#32) := by
  rw [split11 V]
  exact read_nullary ops11_w2 tail12_w2 45 rfl (by decide) (val11 V)

theorem W_main_call13_v0 (V : Valuation τ sig (Elt F)) :
    after ops V (Proc.devRef .tc main_call13_v0) = (broadcastInDim S2048x1024 ![] bcast_S_S2048x1024 : (⟨S_, .f32⟩ : BufTy).Contents (Elt F) → (⟨S2048x1024, .f32⟩ : BufTy).Contents (Elt F)) (after ops V (Proc.devRef .tc main_call13_cst)) := by
  rw [split11 V]
  exact read_unary ops11_w2 tail12_w2 46 rfl (by decide) (by decide) (val11 V)

theorem W_main_call13_v1 (V : Valuation τ sig (Elt F)) :
    after ops V (Proc.devRef .tc main_call13_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v606)) (after ops V (Proc.devRef .tc main_call13_v0)) := by
  rw [split11 V]
  exact read_binary ops11_w2 tail12_w2 47 rfl (by decide) (by decide) (by decide) (val11 V)

theorem W_main_call13_v2 (V : Valuation τ sig (Elt F)) :
    after ops V (Proc.devRef .tc main_call13_v2) = (id : (⟨S_, .f32⟩ : BufTy).Contents (Elt F) → (⟨S_, .f32⟩ : BufTy).Contents (Elt F)) (after ops V (Proc.devRef .tc main_cst_89)) := by
  rw [split11 V]
  exact read_unary ops11_w2 tail12_w2 48 rfl (by decide) (by decide) (val11 V)

theorem W_main_call13_v3 (V : Valuation τ sig (Elt F)) :
    after ops V (Proc.devRef .tc main_call13_v3) = (broadcastInDim S2048x1024 ![] bcast_S_S2048x1024 : (⟨S_, .f32⟩ : BufTy).Contents (Elt F) → (⟨S2048x1024, .f32⟩ : BufTy).Contents (Elt F)) (after ops V (Proc.devRef .tc main_call13_v2)) := by
  rw [split11 V]
  exact read_unary ops11_w2 tail12_w2 49 rfl (by decide) (by decide) (val11 V)

theorem W_main_call13_v4 (V : Valuation τ sig (Elt F)) :
    after ops V (Proc.devRef .tc main_call13_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call13_v3)) (after ops V (Proc.devRef .tc main_v606)) := by
  rw [split11 V]
  exact read_binary ops11_w2 tail12_w2 50 rfl (by decide) (by decide) (by decide) (val11 V)

theorem W_main_v607 (V : Valuation τ sig (Elt F)) :
    after ops V (Proc.devRef .tc main_v607) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call13_v1)) (after ops V (Proc.devRef .tc main_v606)) (after ops V (Proc.devRef .tc main_call13_v4)) := by
  rw [split11 V]
  exact read_ternary ops11_w2 tail12_w2 51 rfl (by decide) (by decide) (by decide) (by decide) (val11 V)

theorem W_main_v608 (V : Valuation τ sig (Elt F)) :
    after ops V (Proc.devRef .tc main_v608) = ((extractStridedSlice S1x1024x4096 ![6, 0, 0] · slices_S8x1024x4096_S1x1024x4096_6_0_0) : (⟨S8x1024x4096, .f32⟩ : BufTy).Contents (Elt F) → (⟨S1x1024x4096, .f32⟩ : BufTy).Contents (Elt F)) (after ops V (Proc.devRef .tc main_arg9)) := by
  rw [split11 V]
  exact read_unary ops11_w2 tail12_w2 52 rfl (by decide) (by decide) (val11 V)

theorem W_main_v609 (V : Valuation τ sig (Elt F)) :
    after ops V (Proc.devRef .tc main_v609) = shapeCast S1024x4096 (after ops V (Proc.devRef .tc main_v608)) shapeCasts_S1x1024x4096_S1024x4096 := by
  rw [split11 V]
  exact read_reshape ops11_w2 tail12_w2 53 rfl (by decide) (by decide) (val11 V)

theorem W_main_v610 (V : Valuation τ sig (Elt F)) :
    after ops V (Proc.devRef .tc main_v610) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v607)) (after ops V (Proc.devRef .tc main_v609)) := by
  rw [split11 V]
  exact read_binary ops11_w2 tail12_w2 54 rfl (by decide) (by decide) (by decide) (val11 V)

theorem W_main_v611 (V : Valuation τ sig (Elt F)) :
    after ops V (Proc.devRef .tc main_v611) = ((extractStridedSlice S1x4096 ![6, 0] · slices_S8x4096_S1x4096_6_0) : (⟨S8x4096, .f32⟩ : BufTy).Contents (Elt F) → (⟨S1x4096, .f32⟩ : BufTy).Contents (Elt F)) (after ops V (Proc.devRef .tc main_arg10)) := by
  rw [split11 V]
  exact read_unary ops11_w2 tail12_w2 55 rfl (by decide) (by decide) (val11 V)

theorem W_main_v612 (V : Valuation τ sig (Elt F)) :
    after ops V (Proc.devRef .tc main_v612) = shapeCast S4096 (after ops V (Proc.devRef .tc main_v611)) shapeCasts_S1x4096_S4096 := by
  rw [split11 V]
  exact read_reshape ops11_w2 tail12_w2 56 rfl (by decide) (by decide) (val11 V)

theorem W_main_v613 (V : Valuation τ sig (Elt F)) :
    after ops V (Proc.devRef .tc main_v613) = (broadcastInDim S1x4096 ![1] bcast_S4096_S1x4096_1 : (⟨S4096, .f32⟩ : BufTy).Contents (Elt F) → (⟨S1x4096, .f32⟩ : BufTy).Contents (Elt F)) (after ops V (Proc.devRef .tc main_v612)) := by
  rw [split11 V]
  exact read_unary ops11_w2 tail12_w2 57 rfl (by decide) (by decide) (val11 V)

theorem W_main_v614 (V : Valuation τ sig (Elt F)) :
    after ops V (Proc.devRef .tc main_v614) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v613)) := by
  rw [split11 V]
  exact read_unary ops11_w2 tail12_w2 58 rfl (by decide) (by decide) (val11 V)

theorem W_main_v615 (V : Valuation τ sig (Elt F)) :
    after ops V (Proc.devRef .tc main_v615) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v610)) (after ops V (Proc.devRef .tc main_v614)) := by
  rw [split11 V]
  exact read_binary ops11_w2 tail12_w2 59 rfl (by decide) (by decide) (by decide) (val11 V)

theorem W_main_v616 (V : Valuation τ sig (Elt F)) :
    after ops V (Proc.devRef .tc main_v616) = (Host.tanh : (⟨S2048x4096, .f32⟩ : BufTy).Contents (Elt F) → (⟨S2048x4096, .f32⟩ : BufTy).Contents (Elt F)) (after ops V (Proc.devRef .tc main_v615)) := by
  rw [split11 V]
  exact read_unary ops11_w2 tail12_w2 60 rfl (by decide) (by decide) (val11 V)

theorem W_main_v617 (V : Valuation τ sig (Elt F)) :
    after ops V (Proc.devRef .tc main_v617) = ((extractStridedSlice S1 ![6] · slices_S8_S1_6) : (⟨S8, .f32⟩ : BufTy).Contents (Elt F) → (⟨S1, .f32⟩ : BufTy).Contents (Elt F)) (after ops V (Proc.devRef .tc main_arg13)) := by
  rw [split11 V]
  exact read_unary ops11_w2 tail12_w2 61 rfl (by decide) (by decide) (val11 V)

theorem W_main_v618 (V : Valuation τ sig (Elt F)) :
    after ops V (Proc.devRef .tc main_v618) = shapeCast S_ (after ops V (Proc.devRef .tc main_v617)) shapeCasts_S1_S_ := by
  rw [split11 V]
  exact read_reshape ops11_w2 tail12_w2 62 rfl (by decide) (by decide) (val11 V)

theorem W_main_v619 (V : Valuation τ sig (Elt F)) :
    after ops V (Proc.devRef .tc main_v619) = (broadcastInDim S2048x4096 ![] bcast_S_S2048x4096 : (⟨S_, .f32⟩ : BufTy).Contents (Elt F) → (⟨S2048x4096, .f32⟩ : BufTy).Contents (Elt F)) (after ops V (Proc.devRef .tc main_v618)) := by
  rw [split11 V]
  exact read_unary ops11_w2 tail12_w2 63 rfl (by decide) (by decide) (val11 V)

theorem W_main_v620 (V : Valuation τ sig (Elt F)) :
    after ops V (Proc.devRef .tc main_v620) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v616)) (after ops V (Proc.devRef .tc main_v619)) := by
  rw [split11 V]
  exact read_binary ops11_w2 tail12_w2 64 rfl (by decide) (by decide) (by decide) (val11 V)

theorem W_main_v621 (V : Valuation τ sig (Elt F)) :
    after ops V (Proc.devRef .tc main_v621) = ((extractStridedSlice S1x1024x4096 ![6, 0, 0] · slices_S8x1024x4096_S1x1024x4096_6_0_0) : (⟨S8x1024x4096, .f32⟩ : BufTy).Contents (Elt F) → (⟨S1x1024x4096, .f32⟩ : BufTy).Contents (Elt F)) (after ops V (Proc.devRef .tc main_arg11)) := by
  rw [split11 V]
  exact read_unary ops11_w2 tail12_w2 65 rfl (by decide) (by decide) (val11 V)

theorem W_main_v622 (V : Valuation τ sig (Elt F)) :
    after ops V (Proc.devRef .tc main_v622) = shapeCast S1024x4096 (after ops V (Proc.devRef .tc main_v621)) shapeCasts_S1x1024x4096_S1024x4096 := by
  rw [split11 V]
  exact read_reshape ops11_w2 tail12_w2 66 rfl (by decide) (by decide) (val11 V)

theorem W_main_v623 (V : Valuation τ sig (Elt F)) :
    after ops V (Proc.devRef .tc main_v623) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v607)) (after ops V (Proc.devRef .tc main_v622)) := by
  rw [split11 V]
  exact read_binary ops11_w2 tail12_w2 67 rfl (by decide) (by decide) (by decide) (val11 V)

theorem W_main_v624 (V : Valuation τ sig (Elt F)) :
    after ops V (Proc.devRef .tc main_v624) = ((extractStridedSlice S1x4096 ![6, 0] · slices_S8x4096_S1x4096_6_0) : (⟨S8x4096, .f32⟩ : BufTy).Contents (Elt F) → (⟨S1x4096, .f32⟩ : BufTy).Contents (Elt F)) (after ops V (Proc.devRef .tc main_arg12)) := by
  rw [split11 V]
  exact read_unary ops11_w2 tail12_w2 68 rfl (by decide) (by decide) (val11 V)

theorem W_main_v625 (V : Valuation τ sig (Elt F)) :
    after ops V (Proc.devRef .tc main_v625) = shapeCast S4096 (after ops V (Proc.devRef .tc main_v624)) shapeCasts_S1x4096_S4096 := by
  rw [split11 V]
  exact read_reshape ops11_w2 tail12_w2 69 rfl (by decide) (by decide) (val11 V)

theorem W_main_v626 (V : Valuation τ sig (Elt F)) :
    after ops V (Proc.devRef .tc main_v626) = (broadcastInDim S1x4096 ![1] bcast_S4096_S1x4096_1 : (⟨S4096, .f32⟩ : BufTy).Contents (Elt F) → (⟨S1x4096, .f32⟩ : BufTy).Contents (Elt F)) (after ops V (Proc.devRef .tc main_v625)) := by
  rw [split11 V]
  exact read_unary ops11_w2 tail12_w2 70 rfl (by decide) (by decide) (val11 V)

theorem W_main_v627 (V : Valuation τ sig (Elt F)) :
    after ops V (Proc.devRef .tc main_v627) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v626)) := by
  rw [split11 V]
  exact read_unary ops11_w2 tail12_w2 71 rfl (by decide) (by decide) (val11 V)

end Cert.RSide

end
-- ==== Proof.RSsa12.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 12: each operation's buffer at the end of the run, as the operation's function of its operands' buffers at the end of the run. -/

theorem W_main_v628 (V : Valuation τ sig (Elt F)) :
    after ops V (Proc.devRef .tc main_v628) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v623)) (after ops V (Proc.devRef .tc main_v627)) := by
  rw [split12 V]
  exact read_binary ops12_w2 tail13_w2 0 rfl (by decide) (by decide) (by decide) (val12 V)

theorem W_main_v629 (V : Valuation τ sig (Elt F)) :
    after ops V (Proc.devRef .tc main_v629) = (Host.exp : (⟨S2048x4096, .f32⟩ : BufTy).Contents (Elt F) → (⟨S2048x4096, .f32⟩ : BufTy).Contents (Elt F)) (after ops V (Proc.devRef .tc main_v620)) := by
  rw [split12 V]
  exact read_unary ops12_w2 tail13_w2 1 rfl (by decide) (by decide) (val12 V)

theorem W_main_v630 (V : Valuation τ sig (Elt F)) :
    after ops V (Proc.devRef .tc main_v630) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v588)) (after ops V (Proc.devRef .tc main_v629)) := by
  rw [split12 V]
  exact read_binary ops12_w2 tail13_w2 2 rfl (by decide) (by decide) (by decide) (val12 V)

theorem W_main_v631 (V : Valuation τ sig (Elt F)) :
    after ops V (Proc.devRef .tc main_v631) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v630)) (after ops V (Proc.devRef .tc main_v628)) := by
  rw [split12 V]
  exact read_binary ops12_w2 tail13_w2 3 rfl (by decide) (by decide) (by decide) (val12 V)

theorem W_main_cst_90 (V : Valuation τ sig (Elt F)) :
    after ops V (Proc.devRef .tc main_cst_90) = (constant S_ .f32 0x00000000#32) := by
  rw [split12 V]
  exact read_nullary ops12_w2 tail13_w2 4 rfl (by decide) (val12 V)

theorem W_main_v632 (V : Valuation τ sig (Elt F)) :
    after ops V (Proc.devRef .tc main_v632) = (broadcastInDim S2048x8192 ![] bcast_S_S2048x8192 : (⟨S_, .f32⟩ : BufTy).Contents (Elt F) → (⟨S2048x8192, .f32⟩ : BufTy).Contents (Elt F)) (after ops V (Proc.devRef .tc main_cst_90)) := by
  rw [split12 V]
  exact read_unary ops12_w2 tail13_w2 5 rfl (by decide) (by decide) (val12 V)

theorem W_main_c_91 (V : Valuation τ sig (Elt F)) :
    after ops V (Proc.devRef .tc main_c_91) = (constantI S_ 32 0#32) := by
  rw [split12 V]
  exact read_nullary ops12_w2 tail13_w2 6 rfl (by decide) (val12 V)

theorem W_main_v633 (V : Valuation τ sig (Elt F)) :
    after ops V (Proc.devRef .tc main_v633) = (broadcastInDim S4096 ![] bcast_S_S4096 : (⟨S_, .i32⟩ : BufTy).Contents (Elt F) → (⟨S4096, .i32⟩ : BufTy).Contents (Elt F)) (after ops V (Proc.devRef .tc main_c_91)) := by
  rw [split12 V]
  exact read_unary ops12_w2 tail13_w2 7 rfl (by decide) (by decide) (val12 V)

theorem W_main_v634 (V : Valuation τ sig (Elt F)) :
    after ops V (Proc.devRef .tc main_v634) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v633)) := by
  rw [split12 V]
  exact read_binary ops12_w2 tail13_w2 8 rfl (by decide) (by decide) (by decide) (val12 V)

theorem W_main_c_92 (V : Valuation τ sig (Elt F)) :
    after ops V (Proc.devRef .tc main_c_92) = (constantI S_ 32 8192#32) := by
  rw [split12 V]
  exact read_nullary ops12_w2 tail13_w2 9 rfl (by decide) (val12 V)

theorem W_main_v635 (V : Valuation τ sig (Elt F)) :
    after ops V (Proc.devRef .tc main_v635) = (broadcastInDim S4096 ![] bcast_S_S4096 : (⟨S_, .i32⟩ : BufTy).Contents (Elt F) → (⟨S4096, .i32⟩ : BufTy).Contents (Elt F)) (after ops V (Proc.devRef .tc main_c_92)) := by
  rw [split12 V]
  exact read_unary ops12_w2 tail13_w2 10 rfl (by decide) (by decide) (val12 V)

theorem W_main_v636 (V : Valuation τ sig (Elt F)) :
    after ops V (Proc.devRef .tc main_v636) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v635)) := by
  rw [split12 V]
  exact read_binary ops12_w2 tail13_w2 11 rfl (by decide) (by decide) (by decide) (val12 V)

theorem W_main_v637 (V : Valuation τ sig (Elt F)) :
    after ops V (Proc.devRef .tc main_v637) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v634)) (after ops V (Proc.devRef .tc main_v636)) (after ops V (Proc.devRef .tc main_v13)) := by
  rw [split12 V]
  exact read_ternary ops12_w2 tail13_w2 12 rfl (by decide) (by decide) (by decide) (by decide) (val12 V)

theorem W_main_v638 (V : Valuation τ sig (Elt F)) :
    after ops V (Proc.devRef .tc main_v638) = (broadcastInDim S4096x1 ![0] bcast_S4096_S4096x1_0 : (⟨S4096, .i32⟩ : BufTy).Contents (Elt F) → (⟨S4096x1, .i32⟩ : BufTy).Contents (Elt F)) (after ops V (Proc.devRef .tc main_v637)) := by
  rw [split12 V]
  exact read_unary ops12_w2 tail13_w2 13 rfl (by decide) (by decide) (val12 V)

theorem W_main_v639 (V : Valuation τ sig (Elt F)) :
    after ops V (Proc.devRef .tc main_v639) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v632)) (after ops V (Proc.devRef .tc main_v638)) (after ops V (Proc.devRef .tc main_v581)) := by
  rw [split12 V]
  exact read_ternary ops12_w2 tail13_w2 14 rfl (by decide) (by decide) (by decide) (by decide) (val12 V)

theorem W_main_c_93 (V : Valuation τ sig (Elt F)) :
    after ops V (Proc.devRef .tc main_c_93) = (constantI S_ 32 0#32) := by
  rw [split12 V]
  exact read_nullary ops12_w2 tail13_w2 15 rfl (by decide) (val12 V)

theorem W_main_v640 (V : Valuation τ sig (Elt F)) :
    after ops V (Proc.devRef .tc main_v640) = (broadcastInDim S4096 ![] bcast_S_S4096 : (⟨S_, .i32⟩ : BufTy).Contents (Elt F) → (⟨S4096, .i32⟩ : BufTy).Contents (Elt F)) (after ops V (Proc.devRef .tc main_c_93)) := by
  rw [split12 V]
  exact read_unary ops12_w2 tail13_w2 16 rfl (by decide) (by decide) (val12 V)

theorem W_main_v641 (V : Valuation τ sig (Elt F)) :
    after ops V (Proc.devRef .tc main_v641) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v640)) := by
  rw [split12 V]
  exact read_binary ops12_w2 tail13_w2 17 rfl (by decide) (by decide) (by decide) (val12 V)

theorem W_main_c_94 (V : Valuation τ sig (Elt F)) :
    after ops V (Proc.devRef .tc main_c_94) = (constantI S_ 32 8192#32) := by
  rw [split12 V]
  exact read_nullary ops12_w2 tail13_w2 18 rfl (by decide) (val12 V)

theorem W_main_v642 (V : Valuation τ sig (Elt F)) :
    after ops V (Proc.devRef .tc main_v642) = (broadcastInDim S4096 ![] bcast_S_S4096 : (⟨S_, .i32⟩ : BufTy).Contents (Elt F) → (⟨S4096, .i32⟩ : BufTy).Contents (Elt F)) (after ops V (Proc.devRef .tc main_c_94)) := by
  rw [split12 V]
  exact read_unary ops12_w2 tail13_w2 19 rfl (by decide) (by decide) (val12 V)

theorem W_main_v643 (V : Valuation τ sig (Elt F)) :
    after ops V (Proc.devRef .tc main_v643) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v642)) := by
  rw [split12 V]
  exact read_binary ops12_w2 tail13_w2 20 rfl (by decide) (by decide) (by decide) (val12 V)

theorem W_main_v644 (V : Valuation τ sig (Elt F)) :
    after ops V (Proc.devRef .tc main_v644) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v641)) (after ops V (Proc.devRef .tc main_v643)) (after ops V (Proc.devRef .tc main_v18)) := by
  rw [split12 V]
  exact read_ternary ops12_w2 tail13_w2 21 rfl (by decide) (by decide) (by decide) (by decide) (val12 V)

theorem W_main_v645 (V : Valuation τ sig (Elt F)) :
    after ops V (Proc.devRef .tc main_v645) = (broadcastInDim S4096x1 ![0] bcast_S4096_S4096x1_0 : (⟨S4096, .i32⟩ : BufTy).Contents (Elt F) → (⟨S4096x1, .i32⟩ : BufTy).Contents (Elt F)) (after ops V (Proc.devRef .tc main_v644)) := by
  rw [split12 V]
  exact read_unary ops12_w2 tail13_w2 22 rfl (by decide) (by decide) (val12 V)

theorem W_main_v646 (V : Valuation τ sig (Elt F)) :
    after ops V (Proc.devRef .tc main_v646) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v639)) (after ops V (Proc.devRef .tc main_v645)) (after ops V (Proc.devRef .tc main_v631)) := by
  rw [split12 V]
  exact read_ternary ops12_w2 tail13_w2 23 rfl (by decide) (by decide) (by decide) (by decide) (val12 V)

theorem W_main_cst_95 (V : Valuation τ sig (Elt F)) :
    after ops V (Proc.devRef .tc main_cst_95) = (constant S_ .f32 0x00000000#32) := by
  rw [split12 V]
  exact read_nullary ops12_w2 tail13_w2 24 rfl (by decide) (val12 V)

theorem W_main_v647 (V : Valuation τ sig (Elt F)) :
    after ops V (Proc.devRef .tc main_v647) = ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)) (after ops V (Proc.devRef .tc main_v620)) (after ops V (Proc.devRef .tc main_cst_95)) := by
  rw [split12 V]
  exact read_binary ops12_w2 tail13_w2 25 rfl (by decide) (by decide) (by decide) (val12 V)

theorem W_main_v648 (V : Valuation τ sig (Elt F)) :
    after ops V (Proc.devRef .tc main_v648) = (addf : (⟨S2048, .f32⟩ : BufTy).Contents (Elt F) → (⟨S2048, .f32⟩ : BufTy).Contents (Elt F) → (⟨S2048, .f32⟩ : BufTy).Contents (Elt F)) (after ops V (Proc.devRef .tc main_v574)) (after ops V (Proc.devRef .tc main_v647)) := by
  rw [split12 V]
  exact read_binary ops12_w2 tail13_w2 26 rfl (by decide) (by decide) (by decide) (val12 V)

theorem W_main_v649 (V : Valuation τ sig (Elt F)) :
    after ops V (Proc.devRef .tc main_v649) = ((extractStridedSlice S1x8192 ![7, 0] · slices_S8x8192_S1x8192_7_0) : (⟨S8x8192, .f32⟩ : BufTy).Contents (Elt F) → (⟨S1x8192, .f32⟩ : BufTy).Contents (Elt F)) (after ops V (Proc.devRef .tc main_arg4)) := by
  rw [split12 V]
  exact read_unary ops12_w2 tail13_w2 27 rfl (by decide) (by decide) (val12 V)

theorem W_main_v650 (V : Valuation τ sig (Elt F)) :
    after ops V (Proc.devRef .tc main_v650) = shapeCast S8192 (after ops V (Proc.devRef .tc main_v649)) shapeCasts_S1x8192_S8192 := by
  rw [split12 V]
  exact read_reshape ops12_w2 tail13_w2 28 rfl (by decide) (by decide) (val12 V)

theorem W_main_v651 (V : Valuation τ sig (Elt F)) :
    after ops V (Proc.devRef .tc main_v651) = (broadcastInDim S1x8192 ![1] bcast_S8192_S1x8192_1 : (⟨S8192, .f32⟩ : BufTy).Contents (Elt F) → (⟨S1x8192, .f32⟩ : BufTy).Contents (Elt F)) (after ops V (Proc.devRef .tc main_v650)) := by
  rw [split12 V]
  exact read_unary ops12_w2 tail13_w2 29 rfl (by decide) (by decide) (val12 V)

theorem W_main_v652 (V : Valuation τ sig (Elt F)) :
    after ops V (Proc.devRef .tc main_v652) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v651)) := by
  rw [split12 V]
  exact read_unary ops12_w2 tail13_w2 30 rfl (by decide) (by decide) (val12 V)

theorem W_main_v653 (V : Valuation τ sig (Elt F)) :
    after ops V (Proc.devRef .tc main_v653) = (addf : (⟨S2048x8192, .f32⟩ : BufTy).Contents (Elt F) → (⟨S2048x8192, .f32⟩ : BufTy).Contents (Elt F) → (⟨S2048x8192, .f32⟩ : BufTy).Contents (Elt F)) (after ops V (Proc.devRef .tc main_v646)) (after ops V (Proc.devRef .tc main_v652)) := by
  rw [split12 V]
  exact read_binary ops12_w2 tail13_w2 31 rfl (by decide) (by decide) (by decide) (val12 V)

theorem W_main_v654 (V : Valuation τ sig (Elt F)) :
    after ops V (Proc.devRef .tc main_v654) = ((extractStridedSlice S1x8192 ![7, 0] · slices_S8x8192_S1x8192_7_0) : (⟨S8x8192, .f32⟩ : BufTy).Contents (Elt F) → (⟨S1x8192, .f32⟩ : BufTy).Contents (Elt F)) (after ops V (Proc.devRef .tc main_arg3)) := by
  rw [split12 V]
  exact read_unary ops12_w2 tail13_w2 32 rfl (by decide) (by decide) (val12 V)

theorem W_main_v655 (V : Valuation τ sig (Elt F)) :
    after ops V (Proc.devRef .tc main_v655) = shapeCast S8192 (after ops V (Proc.devRef .tc main_v654)) shapeCasts_S1x8192_S8192 := by
  rw [split12 V]
  exact read_reshape ops12_w2 tail13_w2 33 rfl (by decide) (by decide) (val12 V)

theorem W_main_v656 (V : Valuation τ sig (Elt F)) :
    after ops V (Proc.devRef .tc main_v656) = (Host.exp : (⟨S8192, .f32⟩ : BufTy).Contents (Elt F) → (⟨S8192, .f32⟩ : BufTy).Contents (Elt F)) (after ops V (Proc.devRef .tc main_v655)) := by
  rw [split12 V]
  exact read_unary ops12_w2 tail13_w2 34 rfl (by decide) (by decide) (val12 V)

theorem W_main_v657 (V : Valuation τ sig (Elt F)) :
    after ops V (Proc.devRef .tc main_v657) = (broadcastInDim S1x8192 ![1] bcast_S8192_S1x8192_1 : (⟨S8192, .f32⟩ : BufTy).Contents (Elt F) → (⟨S1x8192, .f32⟩ : BufTy).Contents (Elt F)) (after ops V (Proc.devRef .tc main_v656)) := by
  rw [split12 V]
  exact read_unary ops12_w2 tail13_w2 35 rfl (by decide) (by decide) (val12 V)

theorem W_main_v658 (V : Valuation τ sig (Elt F)) :
    after ops V (Proc.devRef .tc main_v658) = (broadcastInDim S2048x8192 ![0, 1] bcast_S1x8192_S2048x8192_0_1 : (⟨S1x8192, .f32⟩ : BufTy).Contents (Elt F) → (⟨S2048x8192, .f32⟩ : BufTy).Contents (Elt F)) (after ops V (Proc.devRef .tc main_v657)) := by
  rw [split12 V]
  exact read_unary ops12_w2 tail13_w2 36 rfl (by decide) (by decide) (val12 V)

theorem W_main_v659 (V : Valuation τ sig (Elt F)) :
    after ops V (Proc.devRef .tc main_v659) = (mulf : (⟨S2048x8192, .f32⟩ : BufTy).Contents (Elt F) → (⟨S2048x8192, .f32⟩ : BufTy).Contents (Elt F) → (⟨S2048x8192, .f32⟩ : BufTy).Contents (Elt F)) (after ops V (Proc.devRef .tc main_v653)) (after ops V (Proc.devRef .tc main_v658)) := by
  rw [split12 V]
  exact read_binary ops12_w2 tail13_w2 37 rfl (by decide) (by decide) (by decide) (val12 V)

theorem W_main_v660 (V : Valuation τ sig (Elt F)) :
    after ops V (Proc.devRef .tc main_v660) = ((extractStridedSlice S1x8192 ![7, 0] · slices_S8x8192_S1x8192_7_0) : (⟨S8x8192, .f32⟩ : BufTy).Contents (Elt F) → (⟨S1x8192, .f32⟩ : BufTy).Contents (Elt F)) (after ops V (Proc.devRef .tc main_arg3)) := by
  rw [split12 V]
  exact read_unary ops12_w2 tail13_w2 38 rfl (by decide) (by decide) (val12 V)

theorem W_main_v661 (V : Valuation τ sig (Elt F)) :
    after ops V (Proc.devRef .tc main_v661) = shapeCast S8192 (after ops V (Proc.devRef .tc main_v660)) shapeCasts_S1x8192_S8192 := by
  rw [split12 V]
  exact read_reshape ops12_w2 tail13_w2 39 rfl (by decide) (by decide) (val12 V)

theorem W_main_cst_96 (V : Valuation τ sig (Elt F)) :
    after ops V (Proc.devRef .tc main_cst_96) = (constant S_ .f32 0x00000000#32) := by
  rw [split12 V]
  exact read_nullary ops12_w2 tail13_w2 40 rfl (by decide) (val12 V)

theorem W_main_v662 (V : Valuation τ sig (Elt F)) :
    after ops V (Proc.devRef .tc main_v662) = ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (after ops V (Proc.devRef .tc main_v661)) (after ops V (Proc.devRef .tc main_cst_96)) := by
  rw [split12 V]
  exact read_binary ops12_w2 tail13_w2 41 rfl (by decide) (by decide) (by decide) (val12 V)

theorem W_main_v663 (V : Valuation τ sig (Elt F)) :
    after ops V (Proc.devRef .tc main_v663) = (broadcastInDim S2048 ![] bcast_S_S2048 : (⟨S_, .f32⟩ : BufTy).Contents (Elt F) → (⟨S2048, .f32⟩ : BufTy).Contents (Elt F)) (after ops V (Proc.devRef .tc main_v662)) := by
  rw [split12 V]
  exact read_unary ops12_w2 tail13_w2 42 rfl (by decide) (by decide) (val12 V)

theorem W_main_v664 (V : Valuation τ sig (Elt F)) :
    after ops V (Proc.devRef .tc main_v664) = (addf : (⟨S2048, .f32⟩ : BufTy).Contents (Elt F) → (⟨S2048, .f32⟩ : BufTy).Contents (Elt F) → (⟨S2048, .f32⟩ : BufTy).Contents (Elt F)) (after ops V (Proc.devRef .tc main_v648)) (after ops V (Proc.devRef .tc main_v663)) := by
  rw [split12 V]
  exact read_binary ops12_w2 tail13_w2 43 rfl (by decide) (by decide) (by decide) (val12 V)

theorem W_main_c_97 (V : Valuation τ sig (Elt F)) :
    after ops V (Proc.devRef .tc main_c_97) = (constantI S_ 32 0#32) := by
  rw [split12 V]
  exact read_nullary ops12_w2 tail13_w2 44 rfl (by decide) (val12 V)

theorem W_main_v665 (V : Valuation τ sig (Elt F)) :
    after ops V (Proc.devRef .tc main_v665) = (broadcastInDim S4096 ![] bcast_S_S4096 : (⟨S_, .i32⟩ : BufTy).Contents (Elt F) → (⟨S4096, .i32⟩ : BufTy).Contents (Elt F)) (after ops V (Proc.devRef .tc main_c_97)) := by
  rw [split12 V]
  exact read_unary ops12_w2 tail13_w2 45 rfl (by decide) (by decide) (val12 V)

theorem W_main_v666 (V : Valuation τ sig (Elt F)) :
    after ops V (Proc.devRef .tc main_v666) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v665)) := by
  rw [split12 V]
  exact read_binary ops12_w2 tail13_w2 46 rfl (by decide) (by decide) (by decide) (val12 V)

theorem W_main_c_98 (V : Valuation τ sig (Elt F)) :
    after ops V (Proc.devRef .tc main_c_98) = (constantI S_ 32 8192#32) := by
  rw [split12 V]
  exact read_nullary ops12_w2 tail13_w2 47 rfl (by decide) (val12 V)

theorem W_main_v667 (V : Valuation τ sig (Elt F)) :
    after ops V (Proc.devRef .tc main_v667) = (broadcastInDim S4096 ![] bcast_S_S4096 : (⟨S_, .i32⟩ : BufTy).Contents (Elt F) → (⟨S4096, .i32⟩ : BufTy).Contents (Elt F)) (after ops V (Proc.devRef .tc main_c_98)) := by
  rw [split12 V]
  exact read_unary ops12_w2 tail13_w2 48 rfl (by decide) (by decide) (val12 V)

theorem W_main_v668 (V : Valuation τ sig (Elt F)) :
    after ops V (Proc.devRef .tc main_v668) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v667)) := by
  rw [split12 V]
  exact read_binary ops12_w2 tail13_w2 49 rfl (by decide) (by decide) (by decide) (val12 V)

theorem W_main_v669 (V : Valuation τ sig (Elt F)) :
    after ops V (Proc.devRef .tc main_v669) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v666)) (after ops V (Proc.devRef .tc main_v668)) (after ops V (Proc.devRef .tc main_v18)) := by
  rw [split12 V]
  exact read_ternary ops12_w2 tail13_w2 50 rfl (by decide) (by decide) (by decide) (by decide) (val12 V)

theorem W_main_v670 (V : Valuation τ sig (Elt F)) :
    after ops V (Proc.devRef .tc main_v670) = (broadcastInDim S4096x1 ![0] bcast_S4096_S4096x1_0 : (⟨S4096, .i32⟩ : BufTy).Contents (Elt F) → (⟨S4096x1, .i32⟩ : BufTy).Contents (Elt F)) (after ops V (Proc.devRef .tc main_v669)) := by
  rw [split12 V]
  exact read_unary ops12_w2 tail13_w2 51 rfl (by decide) (by decide) (val12 V)

theorem W_main_v671 (V : Valuation τ sig (Elt F)) :
    after ops V (Proc.devRef .tc main_v671) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v659)) (after ops V (Proc.devRef .tc main_v670)) := by
  rw [split12 V]
  exact read_binary ops12_w2 tail13_w2 52 rfl (by decide) (by decide) (by decide) (val12 V)

theorem W_main_c_99 (V : Valuation τ sig (Elt F)) :
    after ops V (Proc.devRef .tc main_c_99) = (constantI S_ 32 0#32) := by
  rw [split12 V]
  exact read_nullary ops12_w2 tail13_w2 53 rfl (by decide) (val12 V)

theorem W_main_v672 (V : Valuation τ sig (Elt F)) :
    after ops V (Proc.devRef .tc main_v672) = (broadcastInDim S4096 ![] bcast_S_S4096 : (⟨S_, .i32⟩ : BufTy).Contents (Elt F) → (⟨S4096, .i32⟩ : BufTy).Contents (Elt F)) (after ops V (Proc.devRef .tc main_c_99)) := by
  rw [split12 V]
  exact read_unary ops12_w2 tail13_w2 54 rfl (by decide) (by decide) (val12 V)

theorem W_main_v673 (V : Valuation τ sig (Elt F)) :
    after ops V (Proc.devRef .tc main_v673) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v672)) := by
  rw [split12 V]
  exact read_binary ops12_w2 tail13_w2 55 rfl (by decide) (by decide) (by decide) (val12 V)

theorem W_main_c_100 (V : Valuation τ sig (Elt F)) :
    after ops V (Proc.devRef .tc main_c_100) = (constantI S_ 32 8192#32) := by
  rw [split12 V]
  exact read_nullary ops12_w2 tail13_w2 56 rfl (by decide) (val12 V)

theorem W_main_v674 (V : Valuation τ sig (Elt F)) :
    after ops V (Proc.devRef .tc main_v674) = (broadcastInDim S4096 ![] bcast_S_S4096 : (⟨S_, .i32⟩ : BufTy).Contents (Elt F) → (⟨S4096, .i32⟩ : BufTy).Contents (Elt F)) (after ops V (Proc.devRef .tc main_c_100)) := by
  rw [split12 V]
  exact read_unary ops12_w2 tail13_w2 57 rfl (by decide) (by decide) (val12 V)

theorem W_main_v675 (V : Valuation τ sig (Elt F)) :
    after ops V (Proc.devRef .tc main_v675) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v674)) := by
  rw [split12 V]
  exact read_binary ops12_w2 tail13_w2 58 rfl (by decide) (by decide) (by decide) (val12 V)

theorem W_main_v676 (V : Valuation τ sig (Elt F)) :
    after ops V (Proc.devRef .tc main_v676) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v673)) (after ops V (Proc.devRef .tc main_v675)) (after ops V (Proc.devRef .tc main_v13)) := by
  rw [split12 V]
  exact read_ternary ops12_w2 tail13_w2 59 rfl (by decide) (by decide) (by decide) (by decide) (val12 V)

end Cert.RSide

end
-- ==== Proof.RFlow6.lean ====
import proofs.«175835_j29978871726094_1_alg».proof.Proof.RSsa0
import proofs.«175835_j29978871726094_1_alg».proof.Proof.RSsa10
import proofs.«175835_j29978871726094_1_alg».proof.Proof.RSsa11
import proofs.«175835_j29978871726094_1_alg».proof.Proof.RSsa12
import proofs.«175835_j29978871726094_1_alg».proof.Proof.RFlowBase
import proofs.«175835_j29978871726094_1_alg».proof.Proof.FlowRefTerms3

open scoped BigOperators

noncomputable section

namespace Cert.RSide

open Cert.ReferenceIdeal Cert.ReferenceIdeal.Gen Idealize.ShloMosaic Idealize.ShloMosaic.TcCoe Idealize.SL.Sem Idealize.ShloMosaic.StableHlo Cert.Flow Cert.Flow.RefTerms

/-- Layer 6 on the array: the second scatter's result is stepZ of the array the layer starts from. The two scatters
    write the conditioning columns and the transformed columns; the arrays they are computed from — the rescaled array, its
    columns of the two parities, the hidden array, the scales and the shifts — are each their own operations' function of the
    ones before (the equations of the run, read one operation at a time). -/
theorem flow6_z (V : Valuation τ sig (Elt Ideal)) :
    after ops V (Proc.devRef .tc main_v646) = stepZ (RP V) (Rcnd V) 6 (after ops V (Proc.devRef .tc main_v556)) := by
  rw [W_main_v646, W_main_v645, W_main_v644, W_main_v643, W_main_v642, W_main_c_94, W_main_v641, W_main_v640, W_main_c_93, W_main_v639, W_main_v638, W_main_v637, W_main_v636, W_main_v635, W_main_c_92, W_main_v634, W_main_v633, W_main_c_91, W_main_v632, W_main_cst_90, W_main_v631, W_main_v630, W_main_v629,
    W_main_v13, W_main_v12, W_main_c_2, W_main_v11, W_main_v10, W_main_c_1, W_main_v9,
    W_main_v18, W_main_v17, W_main_c_4, W_main_v16, W_main_v15, W_main_c_3, W_main_v14]
  beta_reduce
  apply layer_z_of_eqs (i := 6) (o := 6) (parC := 0) (parU := 1) (za := after ops V (Proc.devRef .tc main_v569))
    (hm := after ops V (Proc.devRef .tc main_v607))
  case hza =>
    rw [W_main_v569, W_main_v568, W_main_v567, W_main_v566, W_main_v565, W_main_v564, W_main_v563, W_main_v562, W_main_v561, W_main_v560, W_main_v559, W_main_arg3, W_main_arg4]
    all_goals rfl
  case hxc =>
    rw [W_main_v581, W_main_v580, W_main_v579, W_main_v578, W_main_v577, W_main_c_85, W_main_v576, W_main_v575, W_main_c_84, W_main_v13, W_main_v12, W_main_c_2, W_main_v11, W_main_v10, W_main_c_1, W_main_v9]
    all_goals rfl
  case hxu =>
    rw [W_main_v588, W_main_v587, W_main_v586, W_main_v585, W_main_v584, W_main_c_87, W_main_v583, W_main_v582, W_main_c_86, W_main_v18, W_main_v17, W_main_c_4, W_main_v16, W_main_v15, W_main_c_3, W_main_v14]
    all_goals rfl
  case hhm =>
    rw [W_main_v607, W_main_call13_v4, W_main_call13_v3, W_main_call13_v2, W_main_cst_89, W_main_call13_v1, W_main_call13_v0, W_main_call13_cst, W_main_v606, W_main_v605, W_main_v604, W_main_v603, W_main_v602, W_main_v601, W_main_v600, W_main_v599, W_main_v598, W_main_call12_v4, W_main_call12_v3, W_main_call12_v2, W_main_cst_88, W_main_call12_v1, W_main_call12_v0, W_main_call12_cst, W_main_v597, W_main_v596, W_main_v595, W_main_v594, W_main_v593, W_main_v592, W_main_v591, W_main_v590, W_main_v589, W_cond, W_main_arg5, W_main_arg6, W_main_arg7, W_main_arg8]
    all_goals rfl
  case hs_ =>
    rw [W_main_v620, W_main_v619, W_main_v618, W_main_v617, W_main_v616, W_main_v615, W_main_v614, W_main_v613, W_main_v612, W_main_v611, W_main_v610, W_main_v609, W_main_v608, W_main_arg9, W_main_arg10, W_main_arg13]
    all_goals rfl
  case ht =>
    rw [W_main_v628, W_main_v627, W_main_v626, W_main_v625, W_main_v624, W_main_v623, W_main_v622, W_main_v621, W_main_arg11, W_main_arg12]
    all_goals rfl
  all_goals rfl

/-- Layer 6 on the vector: the sum of the layer's logarithmic scales, then the row sums of the scales, added to the vector the
    layer starts from, are stepLd. -/
theorem flow6_ld (V : Valuation τ sig (Elt Ideal)) :
    after ops V (Proc.devRef .tc main_v648) = stepLd (RP V) (Rcnd V) 6 (after ops V (Proc.devRef .tc main_v556)) (after ops V (Proc.devRef .tc main_v558)) := by
  rw [W_main_v648, W_main_v647, W_main_cst_95, W_main_v574, W_main_v573, W_main_v572, W_main_cst_83, W_main_v571, W_main_v570, W_main_arg3]
  beta_reduce
  apply layer_ld_of_eqs (i := 6) (o := 6) (parC := 0) (parU := 1) (za := after ops V (Proc.devRef .tc main_v569))
    (xc := after ops V (Proc.devRef .tc main_v581)) (hm := after ops V (Proc.devRef .tc main_v607))
  case hza =>
    rw [W_main_v569, W_main_v568, W_main_v567, W_main_v566, W_main_v565, W_main_v564, W_main_v563, W_main_v562, W_main_v561, W_main_v560, W_main_v559, W_main_arg3, W_main_arg4]
    all_goals rfl
  case hxc =>
    rw [W_main_v581, W_main_v580, W_main_v579, W_main_v578, W_main_v577, W_main_c_85, W_main_v576, W_main_v575, W_main_c_84, W_main_v13, W_main_v12, W_main_c_2, W_main_v11, W_main_v10, W_main_c_1, W_main_v9]
    all_goals rfl
  case hhm =>
    rw [W_main_v607, W_main_call13_v4, W_main_call13_v3, W_main_call13_v2, W_main_cst_89, W_main_call13_v1, W_main_call13_v0, W_main_call13_cst, W_main_v606, W_main_v605, W_main_v604, W_main_v603, W_main_v602, W_main_v601, W_main_v600, W_main_v599, W_main_v598, W_main_call12_v4, W_main_call12_v3, W_main_call12_v2, W_main_cst_88, W_main_call12_v1, W_main_call12_v0, W_main_call12_cst, W_main_v597, W_main_v596, W_main_v595, W_main_v594, W_main_v593, W_main_v592, W_main_v591, W_main_v590, W_main_v589, W_cond, W_main_arg5, W_main_arg6, W_main_arg7, W_main_arg8]
    all_goals rfl
  case hs_ =>
    rw [W_main_v620, W_main_v619, W_main_v618, W_main_v617, W_main_v616, W_main_v615, W_main_v614, W_main_v613, W_main_v612, W_main_v611, W_main_v610, W_main_v609, W_main_v608, W_main_arg9, W_main_arg10, W_main_arg13]
    all_goals rfl
  all_goals rfl

end Cert.RSide

end
-- ==== Proof.RSsa13.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 13: each operation's buffer at the end of the run, as the operation's function of its operands' buffers at the end of the run. -/

theorem W_main_v677 (V : Valuation τ sig (Elt F)) :
    after ops V (Proc.devRef .tc main_v677) = (broadcastInDim S4096x1 ![0] bcast_S4096_S4096x1_0 : (⟨S4096, .i32⟩ : BufTy).Contents (Elt F) → (⟨S4096x1, .i32⟩ : BufTy).Contents (Elt F)) (after ops V (Proc.devRef .tc main_v676)) := by
  rw [split13 V]
  exact read_unary ops13_w2 tail14_w2 0 rfl (by decide) (by decide) (val13 V)

theorem W_main_v678 (V : Valuation τ sig (Elt F)) :
    after ops V (Proc.devRef .tc main_v678) = ((fun x i => Host.gather gather_S2048x8192_S4096x1_S2048x4096_0_1_n_n_1_1_20481 x i) : (⟨S2048x8192, .f32⟩ : BufTy).Contents (Elt F) → (⟨S4096x1, .i32⟩ : BufTy).Contents (Elt F) → (⟨S2048x4096, .f32⟩ : BufTy).Contents (Elt F)) (after ops V (Proc.devRef .tc main_v659)) (after ops V (Proc.devRef .tc main_v677)) := by
  rw [split13 V]
  exact read_binary ops13_w2 tail14_w2 1 rfl (by decide) (by decide) (by decide) (val13 V)

theorem W_main_v679 (V : Valuation τ sig (Elt F)) :
    after ops V (Proc.devRef .tc main_v679) = ((fun a b => concatenate S2048x5120 1 [⟨S2048x4096, a⟩, ⟨S2048x1024, b⟩] concatenates_S2048x4096_S2048x1024_S2048x5120_d1) : (⟨S2048x4096, .f32⟩ : BufTy).Contents (Elt F) → (⟨S2048x1024, .f32⟩ : BufTy).Contents (Elt F) → (⟨S2048x5120, .f32⟩ : BufTy).Contents (Elt F)) (after ops V (Proc.devRef .tc main_v671)) (after ops V (Proc.devRef .tc main_v7)) := by
  rw [split13 V]
  exact read_binary ops13_w2 tail14_w2 2 rfl (by decide) (by decide) (by decide) (val13 V)

theorem W_main_v680 (V : Valuation τ sig (Elt F)) :
    after ops V (Proc.devRef .tc main_v680) = ((extractStridedSlice S1x5120x1024 ![7, 0, 0] · slices_S8x5120x1024_S1x5120x1024_7_0_0) : (⟨S8x5120x1024, .f32⟩ : BufTy).Contents (Elt F) → (⟨S1x5120x1024, .f32⟩ : BufTy).Contents (Elt F)) (after ops V (Proc.devRef .tc main_arg5)) := by
  rw [split13 V]
  exact read_unary ops13_w2 tail14_w2 3 rfl (by decide) (by decide) (val13 V)

theorem W_main_v681 (V : Valuation τ sig (Elt F)) :
    after ops V (Proc.devRef .tc main_v681) = shapeCast S5120x1024 (after ops V (Proc.devRef .tc main_v680)) shapeCasts_S1x5120x1024_S5120x1024 := by
  rw [split13 V]
  exact read_reshape ops13_w2 tail14_w2 4 rfl (by decide) (by decide) (val13 V)

theorem W_main_v682 (V : Valuation τ sig (Elt F)) :
    after ops V (Proc.devRef .tc main_v682) = ((fun l r => Host.dotGeneral dot_S2048x5120_S5120x1024_S2048x1024_1_0_0_1_n_n none l r) : (⟨S2048x5120, .f32⟩ : BufTy).Contents (Elt F) → (⟨S5120x1024, .f32⟩ : BufTy).Contents (Elt F) → (⟨S2048x1024, .f32⟩ : BufTy).Contents (Elt F)) (after ops V (Proc.devRef .tc main_v679)) (after ops V (Proc.devRef .tc main_v681)) := by
  rw [split13 V]
  exact read_binary ops13_w2 tail14_w2 5 rfl (by decide) (by decide) (by decide) (val13 V)

theorem W_main_v683 (V : Valuation τ sig (Elt F)) :
    after ops V (Proc.devRef .tc main_v683) = ((extractStridedSlice S1x1024 ![7, 0] · slices_S8x1024_S1x1024_7_0) : (⟨S8x1024, .f32⟩ : BufTy).Contents (Elt F) → (⟨S1x1024, .f32⟩ : BufTy).Contents (Elt F)) (after ops V (Proc.devRef .tc main_arg6)) := by
  rw [split13 V]
  exact read_unary ops13_w2 tail14_w2 6 rfl (by decide) (by decide) (val13 V)

theorem W_main_v684 (V : Valuation τ sig (Elt F)) :
    after ops V (Proc.devRef .tc main_v684) = shapeCast S1024 (after ops V (Proc.devRef .tc main_v683)) shapeCasts_S1x1024_S1024 := by
  rw [split13 V]
  exact read_reshape ops13_w2 tail14_w2 7 rfl (by decide) (by decide) (val13 V)

theorem W_main_v685 (V : Valuation τ sig (Elt F)) :
    after ops V (Proc.devRef .tc main_v685) = (broadcastInDim S1x1024 ![1] bcast_S1024_S1x1024_1 : (⟨S1024, .f32⟩ : BufTy).Contents (Elt F) → (⟨S1x1024, .f32⟩ : BufTy).Contents (Elt F)) (after ops V (Proc.devRef .tc main_v684)) := by
  rw [split13 V]
  exact read_unary ops13_w2 tail14_w2 8 rfl (by decide) (by decide) (val13 V)

theorem W_main_v686 (V : Valuation τ sig (Elt F)) :
    after ops V (Proc.devRef .tc main_v686) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v685)) := by
  rw [split13 V]
  exact read_unary ops13_w2 tail14_w2 9 rfl (by decide) (by decide) (val13 V)

theorem W_main_v687 (V : Valuation τ sig (Elt F)) :
    after ops V (Proc.devRef .tc main_v687) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v682)) (after ops V (Proc.devRef .tc main_v686)) := by
  rw [split13 V]
  exact read_binary ops13_w2 tail14_w2 10 rfl (by decide) (by decide) (by decide) (val13 V)

theorem W_main_cst_101 (V : Valuation τ sig (Elt F)) :
    after ops V (Proc.devRef .tc main_cst_101) = (constant S_ .f32 0x3E4CCCCD#32) := by
  rw [split13 V]
  exact read_nullary ops13_w2 tail14_w2 11 rfl (by decide) (val13 V)

theorem W_main_call14_cst (V : Valuation τ sig (Elt F)) :
    after ops V (Proc.devRef .tc main_call14_cst) = (constant S_ .f32 0x00000000#32) := by
  rw [split13 V]
  exact read_nullary ops13_w2 tail14_w2 12 rfl (by decide) (val13 V)

theorem W_main_call14_v0 (V : Valuation τ sig (Elt F)) :
    after ops V (Proc.devRef .tc main_call14_v0) = (broadcastInDim S2048x1024 ![] bcast_S_S2048x1024 : (⟨S_, .f32⟩ : BufTy).Contents (Elt F) → (⟨S2048x1024, .f32⟩ : BufTy).Contents (Elt F)) (after ops V (Proc.devRef .tc main_call14_cst)) := by
  rw [split13 V]
  exact read_unary ops13_w2 tail14_w2 13 rfl (by decide) (by decide) (val13 V)

theorem W_main_call14_v1 (V : Valuation τ sig (Elt F)) :
    after ops V (Proc.devRef .tc main_call14_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v687)) (after ops V (Proc.devRef .tc main_call14_v0)) := by
  rw [split13 V]
  exact read_binary ops13_w2 tail14_w2 14 rfl (by decide) (by decide) (by decide) (val13 V)

theorem W_main_call14_v2 (V : Valuation τ sig (Elt F)) :
    after ops V (Proc.devRef .tc main_call14_v2) = (id : (⟨S_, .f32⟩ : BufTy).Contents (Elt F) → (⟨S_, .f32⟩ : BufTy).Contents (Elt F)) (after ops V (Proc.devRef .tc main_cst_101)) := by
  rw [split13 V]
  exact read_unary ops13_w2 tail14_w2 15 rfl (by decide) (by decide) (val13 V)

theorem W_main_call14_v3 (V : Valuation τ sig (Elt F)) :
    after ops V (Proc.devRef .tc main_call14_v3) = (broadcastInDim S2048x1024 ![] bcast_S_S2048x1024 : (⟨S_, .f32⟩ : BufTy).Contents (Elt F) → (⟨S2048x1024, .f32⟩ : BufTy).Contents (Elt F)) (after ops V (Proc.devRef .tc main_call14_v2)) := by
  rw [split13 V]
  exact read_unary ops13_w2 tail14_w2 16 rfl (by decide) (by decide) (val13 V)

theorem W_main_call14_v4 (V : Valuation τ sig (Elt F)) :
    after ops V (Proc.devRef .tc main_call14_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call14_v3)) (after ops V (Proc.devRef .tc main_v687)) := by
  rw [split13 V]
  exact read_binary ops13_w2 tail14_w2 17 rfl (by decide) (by decide) (by decide) (val13 V)

theorem W_main_v688 (V : Valuation τ sig (Elt F)) :
    after ops V (Proc.devRef .tc main_v688) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call14_v1)) (after ops V (Proc.devRef .tc main_v687)) (after ops V (Proc.devRef .tc main_call14_v4)) := by
  rw [split13 V]
  exact read_ternary ops13_w2 tail14_w2 18 rfl (by decide) (by decide) (by decide) (by decide) (val13 V)

theorem W_main_v689 (V : Valuation τ sig (Elt F)) :
    after ops V (Proc.devRef .tc main_v689) = ((extractStridedSlice S1x1024x1024 ![7, 0, 0] · slices_S8x1024x1024_S1x1024x1024_7_0_0) : (⟨S8x1024x1024, .f32⟩ : BufTy).Contents (Elt F) → (⟨S1x1024x1024, .f32⟩ : BufTy).Contents (Elt F)) (after ops V (Proc.devRef .tc main_arg7)) := by
  rw [split13 V]
  exact read_unary ops13_w2 tail14_w2 19 rfl (by decide) (by decide) (val13 V)

theorem W_main_v690 (V : Valuation τ sig (Elt F)) :
    after ops V (Proc.devRef .tc main_v690) = shapeCast S1024x1024 (after ops V (Proc.devRef .tc main_v689)) shapeCasts_S1x1024x1024_S1024x1024 := by
  rw [split13 V]
  exact read_reshape ops13_w2 tail14_w2 20 rfl (by decide) (by decide) (val13 V)

theorem W_main_v691 (V : Valuation τ sig (Elt F)) :
    after ops V (Proc.devRef .tc main_v691) = ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)) (after ops V (Proc.devRef .tc main_v688)) (after ops V (Proc.devRef .tc main_v690)) := by
  rw [split13 V]
  exact read_binary ops13_w2 tail14_w2 21 rfl (by decide) (by decide) (by decide) (val13 V)

theorem W_main_v692 (V : Valuation τ sig (Elt F)) :
    after ops V (Proc.devRef .tc main_v692) = ((extractStridedSlice S1x1024 ![7, 0] · slices_S8x1024_S1x1024_7_0) : (⟨S8x1024, .f32⟩ : BufTy).Contents (Elt F) → (⟨S1x1024, .f32⟩ : BufTy).Contents (Elt F)) (after ops V (Proc.devRef .tc main_arg8)) := by
  rw [split13 V]
  exact read_unary ops13_w2 tail14_w2 22 rfl (by decide) (by decide) (val13 V)

theorem W_main_v693 (V : Valuation τ sig (Elt F)) :
    after ops V (Proc.devRef .tc main_v693) = shapeCast S1024 (after ops V (Proc.devRef .tc main_v692)) shapeCasts_S1x1024_S1024 := by
  rw [split13 V]
  exact read_reshape ops13_w2 tail14_w2 23 rfl (by decide) (by decide) (val13 V)

theorem W_main_v694 (V : Valuation τ sig (Elt F)) :
    after ops V (Proc.devRef .tc main_v694) = (broadcastInDim S1x1024 ![1] bcast_S1024_S1x1024_1 : (⟨S1024, .f32⟩ : BufTy).Contents (Elt F) → (⟨S1x1024, .f32⟩ : BufTy).Contents (Elt F)) (after ops V (Proc.devRef .tc main_v693)) := by
  rw [split13 V]
  exact read_unary ops13_w2 tail14_w2 24 rfl (by decide) (by decide) (val13 V)

theorem W_main_v695 (V : Valuation τ sig (Elt F)) :
    after ops V (Proc.devRef .tc main_v695) = (broadcastInDim S2048x1024 ![0, 1] bcast_S1x1024_S2048x1024_0_1 : (⟨S1x1024, .f32⟩ : BufTy).Contents (Elt F) → (⟨S2048x1024, .f32⟩ : BufTy).Contents (Elt F)) (after ops V (Proc.devRef .tc main_v694)) := by
  rw [split13 V]
  exact read_unary ops13_w2 tail14_w2 25 rfl (by decide) (by decide) (val13 V)

theorem W_main_v696 (V : Valuation τ sig (Elt F)) :
    after ops V (Proc.devRef .tc main_v696) = (addf : (⟨S2048x1024, .f32⟩ : BufTy).Contents (Elt F) → (⟨S2048x1024, .f32⟩ : BufTy).Contents (Elt F) → (⟨S2048x1024, .f32⟩ : BufTy).Contents (Elt F)) (after ops V (Proc.devRef .tc main_v691)) (after ops V (Proc.devRef .tc main_v695)) := by
  rw [split13 V]
  exact read_binary ops13_w2 tail14_w2 26 rfl (by decide) (by decide) (by decide) (val13 V)

theorem W_main_cst_102 (V : Valuation τ sig (Elt F)) :
    after ops V (Proc.devRef .tc main_cst_102) = (constant S_ .f32 0x3E4CCCCD#32) := by
  rw [split13 V]
  exact read_nullary ops13_w2 tail14_w2 27 rfl (by decide) (val13 V)

theorem W_main_call15_cst (V : Valuation τ sig (Elt F)) :
    after ops V (Proc.devRef .tc main_call15_cst) = (constant S_ .f32 0x00000000#32) := by
  rw [split13 V]
  exact read_nullary ops13_w2 tail14_w2 28 rfl (by decide) (val13 V)

theorem W_main_call15_v0 (V : Valuation τ sig (Elt F)) :
    after ops V (Proc.devRef .tc main_call15_v0) = (broadcastInDim S2048x1024 ![] bcast_S_S2048x1024 : (⟨S_, .f32⟩ : BufTy).Contents (Elt F) → (⟨S2048x1024, .f32⟩ : BufTy).Contents (Elt F)) (after ops V (Proc.devRef .tc main_call15_cst)) := by
  rw [split13 V]
  exact read_unary ops13_w2 tail14_w2 29 rfl (by decide) (by decide) (val13 V)

theorem W_main_call15_v1 (V : Valuation τ sig (Elt F)) :
    after ops V (Proc.devRef .tc main_call15_v1) = (cmpf .oge : (⟨S2048x1024, .f32⟩ : BufTy).Contents (Elt F) → (⟨S2048x1024, .f32⟩ : BufTy).Contents (Elt F) → (⟨S2048x1024, .i1⟩ : BufTy).Contents (Elt F)) (after ops V (Proc.devRef .tc main_v696)) (after ops V (Proc.devRef .tc main_call15_v0)) := by
  rw [split13 V]
  exact read_binary ops13_w2 tail14_w2 30 rfl (by decide) (by decide) (by decide) (val13 V)

theorem W_main_call15_v2 (V : Valuation τ sig (Elt F)) :
    after ops V (Proc.devRef .tc main_call15_v2) = (id : (⟨S_, .f32⟩ : BufTy).Contents (Elt F) → (⟨S_, .f32⟩ : BufTy).Contents (Elt F)) (after ops V (Proc.devRef .tc main_cst_102)) := by
  rw [split13 V]
  exact read_unary ops13_w2 tail14_w2 31 rfl (by decide) (by decide) (val13 V)

theorem W_main_call15_v3 (V : Valuation τ sig (Elt F)) :
    after ops V (Proc.devRef .tc main_call15_v3) = (broadcastInDim S2048x1024 ![] bcast_S_S2048x1024 : (⟨S_, .f32⟩ : BufTy).Contents (Elt F) → (⟨S2048x1024, .f32⟩ : BufTy).Contents (Elt F)) (after ops V (Proc.devRef .tc main_call15_v2)) := by
  rw [split13 V]
  exact read_unary ops13_w2 tail14_w2 32 rfl (by decide) (by decide) (val13 V)

theorem W_main_call15_v4 (V : Valuation τ sig (Elt F)) :
    after ops V (Proc.devRef .tc main_call15_v4) = (mulf : (⟨S2048x1024, .f32⟩ : BufTy).Contents (Elt F) → (⟨S2048x1024, .f32⟩ : BufTy).Contents (Elt F) → (⟨S2048x1024, .f32⟩ : BufTy).Contents (Elt F)) (after ops V (Proc.devRef .tc main_call15_v3)) (after ops V (Proc.devRef .tc main_v696)) := by
  rw [split13 V]
  exact read_binary ops13_w2 tail14_w2 33 rfl (by decide) (by decide) (by decide) (val13 V)

theorem W_main_v697 (V : Valuation τ sig (Elt F)) :
    after ops V (Proc.devRef .tc main_v697) = (select : (⟨S2048x1024, .i1⟩ : BufTy).Contents (Elt F) → (⟨S2048x1024, .f32⟩ : BufTy).Contents (Elt F) → (⟨S2048x1024, .f32⟩ : BufTy).Contents (Elt F) → (⟨S2048x1024, .f32⟩ : BufTy).Contents (Elt F)) (after ops V (Proc.devRef .tc main_call15_v1)) (after ops V (Proc.devRef .tc main_v696)) (after ops V (Proc.devRef .tc main_call15_v4)) := by
  rw [split13 V]
  exact read_ternary ops13_w2 tail14_w2 34 rfl (by decide) (by decide) (by decide) (by decide) (val13 V)

theorem W_main_v698 (V : Valuation τ sig (Elt F)) :
    after ops V (Proc.devRef .tc main_v698) = ((extractStridedSlice S1x1024x4096 ![7, 0, 0] · slices_S8x1024x4096_S1x1024x4096_7_0_0) : (⟨S8x1024x4096, .f32⟩ : BufTy).Contents (Elt F) → (⟨S1x1024x4096, .f32⟩ : BufTy).Contents (Elt F)) (after ops V (Proc.devRef .tc main_arg9)) := by
  rw [split13 V]
  exact read_unary ops13_w2 tail14_w2 35 rfl (by decide) (by decide) (val13 V)

theorem W_main_v699 (V : Valuation τ sig (Elt F)) :
    after ops V (Proc.devRef .tc main_v699) = shapeCast S1024x4096 (after ops V (Proc.devRef .tc main_v698)) shapeCasts_S1x1024x4096_S1024x4096 := by
  rw [split13 V]
  exact read_reshape ops13_w2 tail14_w2 36 rfl (by decide) (by decide) (val13 V)

theorem W_main_v700 (V : Valuation τ sig (Elt F)) :
    after ops V (Proc.devRef .tc main_v700) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v697)) (after ops V (Proc.devRef .tc main_v699)) := by
  rw [split13 V]
  exact read_binary ops13_w2 tail14_w2 37 rfl (by decide) (by decide) (by decide) (val13 V)

theorem W_main_v701 (V : Valuation τ sig (Elt F)) :
    after ops V (Proc.devRef .tc main_v701) = ((extractStridedSlice S1x4096 ![7, 0] · slices_S8x4096_S1x4096_7_0) : (⟨S8x4096, .f32⟩ : BufTy).Contents (Elt F) → (⟨S1x4096, .f32⟩ : BufTy).Contents (Elt F)) (after ops V (Proc.devRef .tc main_arg10)) := by
  rw [split13 V]
  exact read_unary ops13_w2 tail14_w2 38 rfl (by decide) (by decide) (val13 V)

theorem W_main_v702 (V : Valuation τ sig (Elt F)) :
    after ops V (Proc.devRef .tc main_v702) = shapeCast S4096 (after ops V (Proc.devRef .tc main_v701)) shapeCasts_S1x4096_S4096 := by
  rw [split13 V]
  exact read_reshape ops13_w2 tail14_w2 39 rfl (by decide) (by decide) (val13 V)

theorem W_main_v703 (V : Valuation τ sig (Elt F)) :
    after ops V (Proc.devRef .tc main_v703) = (broadcastInDim S1x4096 ![1] bcast_S4096_S1x4096_1 : (⟨S4096, .f32⟩ : BufTy).Contents (Elt F) → (⟨S1x4096, .f32⟩ : BufTy).Contents (Elt F)) (after ops V (Proc.devRef .tc main_v702)) := by
  rw [split13 V]
  exact read_unary ops13_w2 tail14_w2 40 rfl (by decide) (by decide) (val13 V)

theorem W_main_v704 (V : Valuation τ sig (Elt F)) :
    after ops V (Proc.devRef .tc main_v704) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v703)) := by
  rw [split13 V]
  exact read_unary ops13_w2 tail14_w2 41 rfl (by decide) (by decide) (val13 V)

theorem W_main_v705 (V : Valuation τ sig (Elt F)) :
    after ops V (Proc.devRef .tc main_v705) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v700)) (after ops V (Proc.devRef .tc main_v704)) := by
  rw [split13 V]
  exact read_binary ops13_w2 tail14_w2 42 rfl (by decide) (by decide) (by decide) (val13 V)

theorem W_main_v706 (V : Valuation τ sig (Elt F)) :
    after ops V (Proc.devRef .tc main_v706) = (Host.tanh : (⟨S2048x4096, .f32⟩ : BufTy).Contents (Elt F) → (⟨S2048x4096, .f32⟩ : BufTy).Contents (Elt F)) (after ops V (Proc.devRef .tc main_v705)) := by
  rw [split13 V]
  exact read_unary ops13_w2 tail14_w2 43 rfl (by decide) (by decide) (val13 V)

theorem W_main_v707 (V : Valuation τ sig (Elt F)) :
    after ops V (Proc.devRef .tc main_v707) = ((extractStridedSlice S1 ![7] · slices_S8_S1_7) : (⟨S8, .f32⟩ : BufTy).Contents (Elt F) → (⟨S1, .f32⟩ : BufTy).Contents (Elt F)) (after ops V (Proc.devRef .tc main_arg13)) := by
  rw [split13 V]
  exact read_unary ops13_w2 tail14_w2 44 rfl (by decide) (by decide) (val13 V)

theorem W_main_v708 (V : Valuation τ sig (Elt F)) :
    after ops V (Proc.devRef .tc main_v708) = shapeCast S_ (after ops V (Proc.devRef .tc main_v707)) shapeCasts_S1_S_ := by
  rw [split13 V]
  exact read_reshape ops13_w2 tail14_w2 45 rfl (by decide) (by decide) (val13 V)

theorem W_main_v709 (V : Valuation τ sig (Elt F)) :
    after ops V (Proc.devRef .tc main_v709) = (broadcastInDim S2048x4096 ![] bcast_S_S2048x4096 : (⟨S_, .f32⟩ : BufTy).Contents (Elt F) → (⟨S2048x4096, .f32⟩ : BufTy).Contents (Elt F)) (after ops V (Proc.devRef .tc main_v708)) := by
  rw [split13 V]
  exact read_unary ops13_w2 tail14_w2 46 rfl (by decide) (by decide) (val13 V)

theorem W_main_v710 (V : Valuation τ sig (Elt F)) :
    after ops V (Proc.devRef .tc main_v710) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v706)) (after ops V (Proc.devRef .tc main_v709)) := by
  rw [split13 V]
  exact read_binary ops13_w2 tail14_w2 47 rfl (by decide) (by decide) (by decide) (val13 V)

theorem W_main_v711 (V : Valuation τ sig (Elt F)) :
    after ops V (Proc.devRef .tc main_v711) = ((extractStridedSlice S1x1024x4096 ![7, 0, 0] · slices_S8x1024x4096_S1x1024x4096_7_0_0) : (⟨S8x1024x4096, .f32⟩ : BufTy).Contents (Elt F) → (⟨S1x1024x4096, .f32⟩ : BufTy).Contents (Elt F)) (after ops V (Proc.devRef .tc main_arg11)) := by
  rw [split13 V]
  exact read_unary ops13_w2 tail14_w2 48 rfl (by decide) (by decide) (val13 V)

theorem W_main_v712 (V : Valuation τ sig (Elt F)) :
    after ops V (Proc.devRef .tc main_v712) = shapeCast S1024x4096 (after ops V (Proc.devRef .tc main_v711)) shapeCasts_S1x1024x4096_S1024x4096 := by
  rw [split13 V]
  exact read_reshape ops13_w2 tail14_w2 49 rfl (by decide) (by decide) (val13 V)

theorem W_main_v713 (V : Valuation τ sig (Elt F)) :
    after ops V (Proc.devRef .tc main_v713) = ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)) (after ops V (Proc.devRef .tc main_v697)) (after ops V (Proc.devRef .tc main_v712)) := by
  rw [split13 V]
  exact read_binary ops13_w2 tail14_w2 50 rfl (by decide) (by decide) (by decide) (val13 V)

theorem W_main_v714 (V : Valuation τ sig (Elt F)) :
    after ops V (Proc.devRef .tc main_v714) = ((extractStridedSlice S1x4096 ![7, 0] · slices_S8x4096_S1x4096_7_0) : (⟨S8x4096, .f32⟩ : BufTy).Contents (Elt F) → (⟨S1x4096, .f32⟩ : BufTy).Contents (Elt F)) (after ops V (Proc.devRef .tc main_arg12)) := by
  rw [split13 V]
  exact read_unary ops13_w2 tail14_w2 51 rfl (by decide) (by decide) (val13 V)

theorem W_main_v715 (V : Valuation τ sig (Elt F)) :
    after ops V (Proc.devRef .tc main_v715) = shapeCast S4096 (after ops V (Proc.devRef .tc main_v714)) shapeCasts_S1x4096_S4096 := by
  rw [split13 V]
  exact read_reshape ops13_w2 tail14_w2 52 rfl (by decide) (by decide) (val13 V)

theorem W_main_v716 (V : Valuation τ sig (Elt F)) :
    after ops V (Proc.devRef .tc main_v716) = (broadcastInDim S1x4096 ![1] bcast_S4096_S1x4096_1 : (⟨S4096, .f32⟩ : BufTy).Contents (Elt F) → (⟨S1x4096, .f32⟩ : BufTy).Contents (Elt F)) (after ops V (Proc.devRef .tc main_v715)) := by
  rw [split13 V]
  exact read_unary ops13_w2 tail14_w2 53 rfl (by decide) (by decide) (val13 V)

theorem W_main_v717 (V : Valuation τ sig (Elt F)) :
    after ops V (Proc.devRef .tc main_v717) = (broadcastInDim S2048x4096 ![0, 1] bcast_S1x4096_S2048x4096_0_1 : (⟨S1x4096, .f32⟩ : BufTy).Contents (Elt F) → (⟨S2048x4096, .f32⟩ : BufTy).Contents (Elt F)) (after ops V (Proc.devRef .tc main_v716)) := by
  rw [split13 V]
  exact read_unary ops13_w2 tail14_w2 54 rfl (by decide) (by decide) (val13 V)

theorem W_main_v718 (V : Valuation τ sig (Elt F)) :
    after ops V (Proc.devRef .tc main_v718) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v713)) (after ops V (Proc.devRef .tc main_v717)) := by
  rw [split13 V]
  exact read_binary ops13_w2 tail14_w2 55 rfl (by decide) (by decide) (by decide) (val13 V)

theorem W_main_v719 (V : Valuation τ sig (Elt F)) :
    after ops V (Proc.devRef .tc main_v719) = (Host.exp : (⟨S2048x4096, .f32⟩ : BufTy).Contents (Elt F) → (⟨S2048x4096, .f32⟩ : BufTy).Contents (Elt F)) (after ops V (Proc.devRef .tc main_v710)) := by
  rw [split13 V]
  exact read_unary ops13_w2 tail14_w2 56 rfl (by decide) (by decide) (val13 V)

theorem W_main_v720 (V : Valuation τ sig (Elt F)) :
    after ops V (Proc.devRef .tc main_v720) = (mulf : (⟨S2048x4096, .f32⟩ : BufTy).Contents (Elt F) → (⟨S2048x4096, .f32⟩ : BufTy).Contents (Elt F) → (⟨S2048x4096, .f32⟩ : BufTy).Contents (Elt F)) (after ops V (Proc.devRef .tc main_v678)) (after ops V (Proc.devRef .tc main_v719)) := by
  rw [split13 V]
  exact read_binary ops13_w2 tail14_w2 57 rfl (by decide) (by decide) (by decide) (val13 V)

theorem W_main_v721 (V : Valuation τ sig (Elt F)) :
    after ops V (Proc.devRef .tc main_v721) = (addf : (⟨S2048x4096, .f32⟩ : BufTy).Contents (Elt F) → (⟨S2048x4096, .f32⟩ : BufTy).Contents (Elt F) → (⟨S2048x4096, .f32⟩ : BufTy).Contents (Elt F)) (after ops V (Proc.devRef .tc main_v720)) (after ops V (Proc.devRef .tc main_v718)) := by
  rw [split13 V]
  exact read_binary ops13_w2 tail14_w2 58 rfl (by decide) (by decide) (by decide) (val13 V)

theorem W_main_cst_103 (V : Valuation τ sig (Elt F)) :
    after ops V (Proc.devRef .tc main_cst_103) = (constant S_ .f32 0x00000000#32) := by
  rw [split13 V]
  exact read_nullary ops13_w2 tail14_w2 59 rfl (by decide) (val13 V)

theorem W_main_v722 (V : Valuation τ sig (Elt F)) :
    after ops V (Proc.devRef .tc main_v722) = (broadcastInDim S2048x8192 ![] bcast_S_S2048x8192 : (⟨S_, .f32⟩ : BufTy).Contents (Elt F) → (⟨S2048x8192, .f32⟩ : BufTy).Contents (Elt F)) (after ops V (Proc.devRef .tc main_cst_103)) := by
  rw [split13 V]
  exact read_unary ops13_w2 tail14_w2 60 rfl (by decide) (by decide) (val13 V)

theorem W_main_c_104 (V : Valuation τ sig (Elt F)) :
    after ops V (Proc.devRef .tc main_c_104) = (constantI S_ 32 0#32) := by
  rw [split13 V]
  exact read_nullary ops13_w2 tail14_w2 61 rfl (by decide) (val13 V)

theorem W_main_v723 (V : Valuation τ sig (Elt F)) :
    after ops V (Proc.devRef .tc main_v723) = (broadcastInDim S4096 ![] bcast_S_S4096 : (⟨S_, .i32⟩ : BufTy).Contents (Elt F) → (⟨S4096, .i32⟩ : BufTy).Contents (Elt F)) (after ops V (Proc.devRef .tc main_c_104)) := by
  rw [split13 V]
  exact read_unary ops13_w2 tail14_w2 62 rfl (by decide) (by decide) (val13 V)

theorem W_main_v724 (V : Valuation τ sig (Elt F)) :
    after ops V (Proc.devRef .tc main_v724) = (cmpi .slt : (⟨S4096, .i32⟩ : BufTy).Contents (Elt F) → (⟨S4096, .i32⟩ : BufTy).Contents (Elt F) → (⟨S4096, .i1⟩ : BufTy).Contents (Elt F)) (after ops V (Proc.devRef .tc main_v18)) (after ops V (Proc.devRef .tc main_v723)) := by
  rw [split13 V]
  exact read_binary ops13_w2 tail14_w2 63 rfl (by decide) (by decide) (by decide) (val13 V)

theorem W_main_c_105 (V : Valuation τ sig (Elt F)) :
    after ops V (Proc.devRef .tc main_c_105) = (constantI S_ 32 8192#32) := by
  rw [split13 V]
  exact read_nullary ops13_w2 tail14_w2 64 rfl (by decide) (val13 V)

theorem W_main_v725 (V : Valuation τ sig (Elt F)) :
    after ops V (Proc.devRef .tc main_v725) = (broadcastInDim S4096 ![] bcast_S_S4096 : (⟨S_, .i32⟩ : BufTy).Contents (Elt F) → (⟨S4096, .i32⟩ : BufTy).Contents (Elt F)) (after ops V (Proc.devRef .tc main_c_105)) := by
  rw [split13 V]
  exact read_unary ops13_w2 tail14_w2 65 rfl (by decide) (by decide) (val13 V)

theorem W_main_v726 (V : Valuation τ sig (Elt F)) :
    after ops V (Proc.devRef .tc main_v726) = (addi : (⟨S4096, .i32⟩ : BufTy).Contents (Elt F) → (⟨S4096, .i32⟩ : BufTy).Contents (Elt F) → (⟨S4096, .i32⟩ : BufTy).Contents (Elt F)) (after ops V (Proc.devRef .tc main_v18)) (after ops V (Proc.devRef .tc main_v725)) := by
  rw [split13 V]
  exact read_binary ops13_w2 tail14_w2 66 rfl (by decide) (by decide) (by decide) (val13 V)

theorem W_main_v727 (V : Valuation τ sig (Elt F)) :
    after ops V (Proc.devRef .tc main_v727) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v724)) (after ops V (Proc.devRef .tc main_v726)) (after ops V (Proc.devRef .tc main_v18)) := by
  rw [split13 V]
  exact read_ternary ops13_w2 tail14_w2 67 rfl (by decide) (by decide) (by decide) (by decide) (val13 V)

theorem W_main_v728 (V : Valuation τ sig (Elt F)) :
    after ops V (Proc.devRef .tc main_v728) = (broadcastInDim S4096x1 ![0] bcast_S4096_S4096x1_0 : (⟨S4096, .i32⟩ : BufTy).Contents (Elt F) → (⟨S4096x1, .i32⟩ : BufTy).Contents (Elt F)) (after ops V (Proc.devRef .tc main_v727)) := by
  rw [split13 V]
  exact read_unary ops13_w2 tail14_w2 68 rfl (by decide) (by decide) (val13 V)

theorem W_main_v729 (V : Valuation τ sig (Elt F)) :
    after ops V (Proc.devRef .tc main_v729) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v722)) (after ops V (Proc.devRef .tc main_v728)) (after ops V (Proc.devRef .tc main_v671)) := by
  rw [split13 V]
  exact read_ternary ops13_w2 tail14_w2 69 rfl (by decide) (by decide) (by decide) (by decide) (val13 V)

theorem W_main_c_106 (V : Valuation τ sig (Elt F)) :
    after ops V (Proc.devRef .tc main_c_106) = (constantI S_ 32 0#32) := by
  rw [split13 V]
  exact read_nullary ops13_w2 tail14_w2 70 rfl (by decide) (val13 V)

theorem W_main_v730 (V : Valuation τ sig (Elt F)) :
    after ops V (Proc.devRef .tc main_v730) = (broadcastInDim S4096 ![] bcast_S_S4096 : (⟨S_, .i32⟩ : BufTy).Contents (Elt F) → (⟨S4096, .i32⟩ : BufTy).Contents (Elt F)) (after ops V (Proc.devRef .tc main_c_106)) := by
  rw [split13 V]
  exact read_unary ops13_w2 tail14_w2 71 rfl (by decide) (by decide) (val13 V)

end Cert.RSide

end
-- ==== Proof.RSsa14.lean ====
import proofs.«175835_j29978871726094_1_alg».proof.Proof.RWrites

noncomputable section

namespace Cert.RSide

open Cert.ReferenceIdeal Cert.ReferenceIdeal.Gen Idealize.ShloMosaic Idealize.ShloMosaic.TcCoe Idealize.SL.Sem Idealize.ShloMosaic.StableHlo Cert.Lib.SingleAssignment

variable {F : FTy → Type} [FloatOps F]

/-! Window 14: each operation's buffer at the end of the run, as the operation's function of its operands' buffers at the end of the run. -/

theorem W_main_v731 (V : Valuation τ sig (Elt F)) :
    after ops V (Proc.devRef .tc main_v731) = (cmpi .slt : (⟨S4096, .i32⟩ : BufTy).Contents (Elt F) → (⟨S4096, .i32⟩ : BufTy).Contents (Elt F) → (⟨S4096, .i1⟩ : BufTy).Contents (Elt F)) (after ops V (Proc.devRef .tc main_v13)) (after ops V (Proc.devRef .tc main_v730)) := by
  rw [split14 V]
  exact read_binary ops14_w2 (List.Forall₂.nil : Writes ([] : List (HloOp τ sig (Elt F))) []) 0 rfl (by decide) (by decide) (by decide) (val14 V)

theorem W_main_c_107 (V : Valuation τ sig (Elt F)) :
    after ops V (Proc.devRef .tc main_c_107) = (constantI S_ 32 8192#32) := by
  rw [split14 V]
  exact read_nullary ops14_w2 (List.Forall₂.nil : Writes ([] : List (HloOp τ sig (Elt F))) []) 1 rfl (by decide) (val14 V)

theorem W_main_v732 (V : Valuation τ sig (Elt F)) :
    after ops V (Proc.devRef .tc main_v732) = (broadcastInDim S4096 ![] bcast_S_S4096 : (⟨S_, .i32⟩ : BufTy).Contents (Elt F) → (⟨S4096, .i32⟩ : BufTy).Contents (Elt F)) (after ops V (Proc.devRef .tc main_c_107)) := by
  rw [split14 V]
  exact read_unary ops14_w2 (List.Forall₂.nil : Writes ([] : List (HloOp τ sig (Elt F))) []) 2 rfl (by decide) (by decide) (val14 V)

theorem W_main_v733 (V : Valuation τ sig (Elt F)) :
    after ops V (Proc.devRef .tc main_v733) = (addi : (⟨S4096, .i32⟩ : BufTy).Contents (Elt F) → (⟨S4096, .i32⟩ : BufTy).Contents (Elt F) → (⟨S4096, .i32⟩ : BufTy).Contents (Elt F)) (after ops V (Proc.devRef .tc main_v13)) (after ops V (Proc.devRef .tc main_v732)) := by
  rw [split14 V]
  exact read_binary ops14_w2 (List.Forall₂.nil : Writes ([] : List (HloOp τ sig (Elt F))) []) 3 rfl (by decide) (by decide) (by decide) (val14 V)

theorem W_main_v734 (V : Valuation τ sig (Elt F)) :
    after ops V (Proc.devRef .tc main_v734) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (after ops V (Proc.devRef .tc main_v731)) (after ops V (Proc.devRef .tc main_v733)) (after ops V (Proc.devRef .tc main_v13)) := by
  rw [split14 V]
  exact read_ternary ops14_w2 (List.Forall₂.nil : Writes ([] : List (HloOp τ sig (Elt F))) []) 4 rfl (by decide) (by decide) (by decide) (by decide) (val14 V)

theorem W_main_v735 (V : Valuation τ sig (Elt F)) :
    after ops V (Proc.devRef .tc main_v735) = (broadcastInDim S4096x1 ![0] bcast_S4096_S4096x1_0 : (⟨S4096, .i32⟩ : BufTy).Contents (Elt F) → (⟨S4096x1, .i32⟩ : BufTy).Contents (Elt F)) (after ops V (Proc.devRef .tc main_v734)) := by
  rw [split14 V]
  exact read_unary ops14_w2 (List.Forall₂.nil : Writes ([] : List (HloOp τ sig (Elt F))) []) 5 rfl (by decide) (by decide) (val14 V)

theorem W_main_v736 (V : Valuation τ sig (Elt F)) :
    after ops V (Proc.devRef .tc main_v736) = ((fun x i u => Host.scatter scatter_S2048x8192_S4096x1_S2048x4096_0_1_1_1 (fun _ b => b) x i u) : (⟨S2048x8192, .f32⟩ : BufTy).Contents (Elt F) → (⟨S4096x1, .i32⟩ : BufTy).Contents (Elt F) → (⟨S2048x4096, .f32⟩ : BufTy).Contents (Elt F) → (⟨S2048x8192, .f32⟩ : BufTy).Contents (Elt F)) (after ops V (Proc.devRef .tc main_v729)) (after ops V (Proc.devRef .tc main_v735)) (after ops V (Proc.devRef .tc main_v721)) := by
  rw [split14 V]
  exact read_ternary ops14_w2 (List.Forall₂.nil : Writes ([] : List (HloOp τ sig (Elt F))) []) 6 rfl (by decide) (by decide) (by decide) (by decide) (val14 V)

theorem W_main_cst_108 (V : Valuation τ sig (Elt F)) :
    after ops V (Proc.devRef .tc main_cst_108) = (constant S_ .f32 0x00000000#32) := by
  rw [split14 V]
  exact read_nullary ops14_w2 (List.Forall₂.nil : Writes ([] : List (HloOp τ sig (Elt F))) []) 7 rfl (by decide) (val14 V)

theorem W_main_v737 (V : Valuation τ sig (Elt F)) :
    after ops V (Proc.devRef .tc main_v737) = ((fun x v => Host.reduceAdd x v reducesTo_S2048x4096_S2048_d1 h_S_) : (⟨S2048x4096, .f32⟩ : BufTy).Contents (Elt F) → (⟨S_, .f32⟩ : BufTy).Contents (Elt F) → (⟨S2048, .f32⟩ : BufTy).Contents (Elt F)) (after ops V (Proc.devRef .tc main_v710)) (after ops V (Proc.devRef .tc main_cst_108)) := by
  rw [split14 V]
  exact read_binary ops14_w2 (List.Forall₂.nil : Writes ([] : List (HloOp τ sig (Elt F))) []) 8 rfl (by decide) (by decide) (by decide) (val14 V)

theorem W_main_v738 (V : Valuation τ sig (Elt F)) :
    after ops V (Proc.devRef .tc main_v738) = (addf : (⟨S2048, .f32⟩ : BufTy).Contents (Elt F) → (⟨S2048, .f32⟩ : BufTy).Contents (Elt F) → (⟨S2048, .f32⟩ : BufTy).Contents (Elt F)) (after ops V (Proc.devRef .tc main_v664)) (after ops V (Proc.devRef .tc main_v737)) := by
  rw [split14 V]
  exact read_binary ops14_w2 (List.Forall₂.nil : Writes ([] : List (HloOp τ sig (Elt F))) []) 9 rfl (by decide) (by decide) (by decide) (val14 V)

end Cert.RSide

end
-- ==== Proof.RFlow7.lean ====
import proofs.«175835_j29978871726094_1_alg».proof.Proof.RSsa0
import proofs.«175835_j29978871726094_1_alg».proof.Proof.RSsa12
import proofs.«175835_j29978871726094_1_alg».proof.Proof.RSsa13
import proofs.«175835_j29978871726094_1_alg».proof.Proof.RSsa14
import proofs.«175835_j29978871726094_1_alg».proof.Proof.RFlowBase
import proofs.«175835_j29978871726094_1_alg».proof.Proof.FlowRefTerms3

open scoped BigOperators

noncomputable section

namespace Cert.RSide

open Cert.ReferenceIdeal Cert.ReferenceIdeal.Gen Idealize.ShloMosaic Idealize.ShloMosaic.TcCoe Idealize.SL.Sem Idealize.ShloMosaic.StableHlo Cert.Flow Cert.Flow.RefTerms

/-- Layer 7 on the array: the second scatter's result is stepZ of the array the layer starts from. The two scatters
    write the conditioning columns and the transformed columns; the arrays they are computed from — the rescaled array, its
    columns of the two parities, the hidden array, the scales and the shifts — are each their own operations' function of the
    ones before (the equations of the run, read one operation at a time). -/
theorem flow7_z (V : Valuation τ sig (Elt Ideal)) :
    after ops V (Proc.devRef .tc main_v736) = stepZ (RP V) (Rcnd V) 7 (after ops V (Proc.devRef .tc main_v646)) := by
  rw [W_main_v736, W_main_v735, W_main_v734, W_main_v733, W_main_v732, W_main_c_107, W_main_v731, W_main_v730, W_main_c_106, W_main_v729, W_main_v728, W_main_v727, W_main_v726, W_main_v725, W_main_c_105, W_main_v724, W_main_v723, W_main_c_104, W_main_v722, W_main_cst_103, W_main_v721, W_main_v720, W_main_v719,
    W_main_v13, W_main_v12, W_main_c_2, W_main_v11, W_main_v10, W_main_c_1, W_main_v9,
    W_main_v18, W_main_v17, W_main_c_4, W_main_v16, W_main_v15, W_main_c_3, W_main_v14]
  beta_reduce
  apply layer_z_of_eqs (i := 7) (o := 7) (parC := 1) (parU := 0) (za := after ops V (Proc.devRef .tc main_v659))
    (hm := after ops V (Proc.devRef .tc main_v697))
  case hza =>
    rw [W_main_v659, W_main_v658, W_main_v657, W_main_v656, W_main_v655, W_main_v654, W_main_v653, W_main_v652, W_main_v651, W_main_v650, W_main_v649, W_main_arg3, W_main_arg4]
    all_goals rfl
  case hxc =>
    rw [W_main_v671, W_main_v670, W_main_v669, W_main_v668, W_main_v667, W_main_c_98, W_main_v666, W_main_v665, W_main_c_97, W_main_v18, W_main_v17, W_main_c_4, W_main_v16, W_main_v15, W_main_c_3, W_main_v14]
    all_goals rfl
  case hxu =>
    rw [W_main_v678, W_main_v677, W_main_v676, W_main_v675, W_main_v674, W_main_c_100, W_main_v673, W_main_v672, W_main_c_99, W_main_v13, W_main_v12, W_main_c_2, W_main_v11, W_main_v10, W_main_c_1, W_main_v9]
    all_goals rfl
  case hhm =>
    rw [W_main_v697, W_main_call15_v4, W_main_call15_v3, W_main_call15_v2, W_main_cst_102, W_main_call15_v1, W_main_call15_v0, W_main_call15_cst, W_main_v696, W_main_v695, W_main_v694, W_main_v693, W_main_v692, W_main_v691, W_main_v690, W_main_v689, W_main_v688, W_main_call14_v4, W_main_call14_v3, W_main_call14_v2, W_main_cst_101, W_main_call14_v1, W_main_call14_v0, W_main_call14_cst, W_main_v687, W_main_v686, W_main_v685, W_main_v684, W_main_v683, W_main_v682, W_main_v681, W_main_v680, W_main_v679, W_cond, W_main_arg5, W_main_arg6, W_main_arg7, W_main_arg8]
    all_goals rfl
  case hs_ =>
    rw [W_main_v710, W_main_v709, W_main_v708, W_main_v707, W_main_v706, W_main_v705, W_main_v704, W_main_v703, W_main_v702, W_main_v701, W_main_v700, W_main_v699, W_main_v698, W_main_arg9, W_main_arg10, W_main_arg13]
    all_goals rfl
  case ht =>
    rw [W_main_v718, W_main_v717, W_main_v716, W_main_v715, W_main_v714, W_main_v713, W_main_v712, W_main_v711, W_main_arg11, W_main_arg12]
    all_goals rfl
  all_goals rfl

/-- Layer 7 on the vector: the sum of the layer's logarithmic scales, then the row sums of the scales, added to the vector the
    layer starts from, are stepLd. -/
theorem flow7_ld (V : Valuation τ sig (Elt Ideal)) :
    after ops V (Proc.devRef .tc main_v738) = stepLd (RP V) (Rcnd V) 7 (after ops V (Proc.devRef .tc main_v646)) (after ops V (Proc.devRef .tc main_v648)) := by
  rw [W_main_v738, W_main_v737, W_main_cst_108, W_main_v664, W_main_v663, W_main_v662, W_main_cst_96, W_main_v661, W_main_v660, W_main_arg3]
  beta_reduce
  apply layer_ld_of_eqs (i := 7) (o := 7) (parC := 1) (parU := 0) (za := after ops V (Proc.devRef .tc main_v659))
    (xc := after ops V (Proc.devRef .tc main_v671)) (hm := after ops V (Proc.devRef .tc main_v697))
  case hza =>
    rw [W_main_v659, W_main_v658, W_main_v657, W_main_v656, W_main_v655, W_main_v654, W_main_v653, W_main_v652, W_main_v651, W_main_v650, W_main_v649, W_main_arg3, W_main_arg4]
    all_goals rfl
  case hxc =>
    rw [W_main_v671, W_main_v670, W_main_v669, W_main_v668, W_main_v667, W_main_c_98, W_main_v666, W_main_v665, W_main_c_97, W_main_v18, W_main_v17, W_main_c_4, W_main_v16, W_main_v15, W_main_c_3, W_main_v14]
    all_goals rfl
  case hhm =>
    rw [W_main_v697, W_main_call15_v4, W_main_call15_v3, W_main_call15_v2, W_main_cst_102, W_main_call15_v1, W_main_call15_v0, W_main_call15_cst, W_main_v696, W_main_v695, W_main_v694, W_main_v693, W_main_v692, W_main_v691, W_main_v690, W_main_v689, W_main_v688, W_main_call14_v4, W_main_call14_v3, W_main_call14_v2, W_main_cst_101, W_main_call14_v1, W_main_call14_v0, W_main_call14_cst, W_main_v687, W_main_v686, W_main_v685, W_main_v684, W_main_v683, W_main_v682, W_main_v681, W_main_v680, W_main_v679, W_cond, W_main_arg5, W_main_arg6, W_main_arg7, W_main_arg8]
    all_goals rfl
  case hs_ =>
    rw [W_main_v710, W_main_v709, W_main_v708, W_main_v707, W_main_v706, W_main_v705, W_main_v704, W_main_v703, W_main_v702, W_main_v701, W_main_v700, W_main_v699, W_main_v698, W_main_arg9, W_main_arg10, W_main_arg13]
    all_goals rfl
  all_goals rfl

end Cert.RSide

end
-- ==== Proof.RSide.lean ====
/-
  The reference side: the run of the reference program ends with the eight layers applied.

  The array the k-th layer starts from holds the array after the first k layers, and the vector it starts from holds the
  vector after the first k layers: for k = 0 these are the starting array and the zero vector, and each layer's two
  results are one step of the specification from the layer's inputs. The program's results are the eighth layer's; the
  argument buffers are written by no operation. All of it is read off the fold of the program's operations over the
  launch contents, which is what every execution ends with.
-/
import proofs.«175835_j29978871726094_1_alg».proof.Proof.RRun
import proofs.«175835_j29978871726094_1_alg».proof.Proof.RFlowBase
import proofs.«175835_j29978871726094_1_alg».proof.Proof.RFlow0
import proofs.«175835_j29978871726094_1_alg».proof.Proof.RFlow1
import proofs.«175835_j29978871726094_1_alg».proof.Proof.RFlow2
import proofs.«175835_j29978871726094_1_alg».proof.Proof.RFlow3
import proofs.«175835_j29978871726094_1_alg».proof.Proof.RFlow4
import proofs.«175835_j29978871726094_1_alg».proof.Proof.RFlow5
import proofs.«175835_j29978871726094_1_alg».proof.Proof.RFlow6
import proofs.«175835_j29978871726094_1_alg».proof.Proof.RFlow7

open scoped BigOperators

noncomputable section

namespace Cert.RSide

open Cert.ReferenceIdeal Cert.ReferenceIdeal.Gen Idealize.ShloMosaic Idealize.ShloMosaic.TcCoe Idealize.SL.Sem Idealize.ShloMosaic.StableHlo Cert.Flow

/-- The array the first layer starts from is the starting array. -/
theorem zAt_0 (V : Valuation τ sig (Elt Ideal)) : after ops V (Proc.devRef .tc main_v0) = zAt (RP V) (Rcnd V) (Rz0 V) 0 := W_z0 V

/-- The vector the first layer starts from is zero. -/
theorem lAt_0 (V : Valuation τ sig (Elt Ideal)) : after ops V (Proc.devRef .tc main_v8) = lAt (RP V) (Rcnd V) (Rz0 V) 0 := W_ld0 V

/-- After layer 0: the array after the first 1 layers. -/
theorem zAt_1 (V : Valuation τ sig (Elt Ideal)) : after ops V (Proc.devRef .tc main_v106) = zAt (RP V) (Rcnd V) (Rz0 V) 1 := by
  rw [flow0_z V, zAt_0 V]
  rfl

/-- After layer 0: the vector after the first 1 layers. -/
theorem lAt_1 (V : Valuation τ sig (Elt Ideal)) : after ops V (Proc.devRef .tc main_v108) = lAt (RP V) (Rcnd V) (Rz0 V) 1 := by
  rw [flow0_ld V, zAt_0 V, lAt_0 V]
  rfl

/-- After layer 1: the array after the first 2 layers. -/
theorem zAt_2 (V : Valuation τ sig (Elt Ideal)) : after ops V (Proc.devRef .tc main_v196) = zAt (RP V) (Rcnd V) (Rz0 V) 2 := by
  rw [flow1_z V, zAt_1 V]
  rfl

/-- After layer 1: the vector after the first 2 layers. -/
theorem lAt_2 (V : Valuation τ sig (Elt Ideal)) : after ops V (Proc.devRef .tc main_v198) = lAt (RP V) (Rcnd V) (Rz0 V) 2 := by
  rw [flow1_ld V, zAt_1 V, lAt_1 V]
  rfl

/-- After layer 2: the array after the first 3 layers. -/
theorem zAt_3 (V : Valuation τ sig (Elt Ideal)) : after ops V (Proc.devRef .tc main_v286) = zAt (RP V) (Rcnd V) (Rz0 V) 3 := by
  rw [flow2_z V, zAt_2 V]
  rfl

/-- After layer 2: the vector after the first 3 layers. -/
theorem lAt_3 (V : Valuation τ sig (Elt Ideal)) : after ops V (Proc.devRef .tc main_v288) = lAt (RP V) (Rcnd V) (Rz0 V) 3 := by
  rw [flow2_ld V, zAt_2 V, lAt_2 V]
  rfl

/-- After layer 3: the array after the first 4 layers. -/
theorem zAt_4 (V : Valuation τ sig (Elt Ideal)) : after ops V (Proc.devRef .tc main_v376) = zAt (RP V) (Rcnd V) (Rz0 V) 4 := by
  rw [flow3_z V, zAt_3 V]
  rfl

/-- After layer 3: the vector after the first 4 layers. -/
theorem lAt_4 (V : Valuation τ sig (Elt Ideal)) : after ops V (Proc.devRef .tc main_v378) = lAt (RP V) (Rcnd V) (Rz0 V) 4 := by
  rw [flow3_ld V, zAt_3 V, lAt_3 V]
  rfl

/-- After layer 4: the array after the first 5 layers. -/
theorem zAt_5 (V : Valuation τ sig (Elt Ideal)) : after ops V (Proc.devRef .tc main_v466) = zAt (RP V) (Rcnd V) (Rz0 V) 5 := by
  rw [flow4_z V, zAt_4 V]
  rfl

/-- After layer 4: the vector after the first 5 layers. -/
theorem lAt_5 (V : Valuation τ sig (Elt Ideal)) : after ops V (Proc.devRef .tc main_v468) = lAt (RP V) (Rcnd V) (Rz0 V) 5 := by
  rw [flow4_ld V, zAt_4 V, lAt_4 V]
  rfl

/-- After layer 5: the array after the first 6 layers. -/
theorem zAt_6 (V : Valuation τ sig (Elt Ideal)) : after ops V (Proc.devRef .tc main_v556) = zAt (RP V) (Rcnd V) (Rz0 V) 6 := by
  rw [flow5_z V, zAt_5 V]
  rfl

/-- After layer 5: the vector after the first 6 layers. -/
theorem lAt_6 (V : Valuation τ sig (Elt Ideal)) : after ops V (Proc.devRef .tc main_v558) = lAt (RP V) (Rcnd V) (Rz0 V) 6 := by
  rw [flow5_ld V, zAt_5 V, lAt_5 V]
  rfl

/-- After layer 6: the array after the first 7 layers. -/
theorem zAt_7 (V : Valuation τ sig (Elt Ideal)) : after ops V (Proc.devRef .tc main_v646) = zAt (RP V) (Rcnd V) (Rz0 V) 7 := by
  rw [flow6_z V, zAt_6 V]
  rfl

/-- After layer 6: the vector after the first 7 layers. -/
theorem lAt_7 (V : Valuation τ sig (Elt Ideal)) : after ops V (Proc.devRef .tc main_v648) = lAt (RP V) (Rcnd V) (Rz0 V) 7 := by
  rw [flow6_ld V, zAt_6 V, lAt_6 V]
  rfl

/-- After layer 7: the array after the first 8 layers. -/
theorem zAt_8 (V : Valuation τ sig (Elt Ideal)) : after ops V (Proc.devRef .tc main_v736) = zAt (RP V) (Rcnd V) (Rz0 V) 8 := by
  rw [flow7_z V, zAt_7 V]
  rfl

/-- After layer 7: the vector after the first 8 layers. -/
theorem lAt_8 (V : Valuation τ sig (Elt Ideal)) : after ops V (Proc.devRef .tc main_v738) = lAt (RP V) (Rcnd V) (Rz0 V) 8 := by
  rw [flow7_ld V, zAt_7 V, lAt_7 V]
  rfl

/-- The parameter arrays of the eight layers, read off the launch memory of device c. -/
abbrev Pm (m : (ℓ : Loc nD τ sig) → Buf (Elt Ideal) ℓ) (c : Dev nD) : Cert.Flow.Params where
  als := m ((c.tc : Thread nD τ).loc main_arg3)
  ab := m ((c.tc : Thread nD τ).loc main_arg4)
  W1 := m ((c.tc : Thread nD τ).loc main_arg5)
  b1 := m ((c.tc : Thread nD τ).loc main_arg6)
  W2 := m ((c.tc : Thread nD τ).loc main_arg7)
  b2 := m ((c.tc : Thread nD τ).loc main_arg8)
  Ws := m ((c.tc : Thread nD τ).loc main_arg9)
  bs := m ((c.tc : Thread nD τ).loc main_arg10)
  Wt := m ((c.tc : Thread nD τ).loc main_arg11)
  bt := m ((c.tc : Thread nD τ).loc main_arg12)
  sf := m ((c.tc : Thread nD τ).loc main_arg13)

/-- The conditioning array, read off the launch memory of device c. -/
abbrev cndm (m : (ℓ : Loc nD τ sig) → Buf (Elt Ideal) ℓ) (c : Dev nD) : Cert.Flow.A2 2048 1024 :=
  Cert.Flow.cond (m ((c.tc : Thread nD τ).loc main_arg1)) (m ((c.tc : Thread nD τ).loc main_arg2))

/-- The starting array, read off the launch memory of device c. -/
abbrev z0m (m : (ℓ : Loc nD τ sig) → Buf (Elt Ideal) ℓ) (c : Dev nD) : Cert.Flow.A2 2048 8192 :=
  Cert.Flow.z0 (m ((c.tc : Thread nD τ).loc main_arg0))

/-- On every device, at the extended reals, from any memory with zero counters: every weakly fair execution of the
    reference program terminates with its first result the array after the eight layers, its second result the vector
    after the eight layers, and the fourteen arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v736) = Cert.Flow.zAt (Pm m c) (cndm m c) (z0m m c) 8
      ∧ r.2.mem ((c.tc : Thread nD τ).loc main_v738) = Cert.Flow.lAt (Pm m c) (cndm m c) (z0m m c) 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v736).trans (zAt_8 (launchContents m c)), (h c main_v738).trans (lAt_8 (launchContents m c)),
      (h c main_arg0).trans (W_main_arg0 (launchContents m c)),
      (h c main_arg1).trans (W_main_arg1 (launchContents m c)),
      (h c main_arg2).trans (W_main_arg2 (launchContents m c)),
      (h c main_arg3).trans (W_main_arg3 (launchContents m c)),
      (h c main_arg4).trans (W_main_arg4 (launchContents m c)),
      (h c main_arg5).trans (W_main_arg5 (launchContents m c)),
      (h c main_arg6).trans (W_main_arg6 (launchContents m c)),
      (h c main_arg7).trans (W_main_arg7 (launchContents m c)),
      (h c main_arg8).trans (W_main_arg8 (launchContents m c)),
      (h c main_arg9).trans (W_main_arg9 (launchContents m c)),
      (h c main_arg10).trans (W_main_arg10 (launchContents m c)),
      (h c main_arg11).trans (W_main_arg11 (launchContents m c)),
      (h c main_arg12).trans (W_main_arg12 (launchContents m c)),
      (h c main_arg13).trans (W_main_arg13 (launchContents m c))⟩)
    (run m ρ)

end Cert.RSide

end
-- ==== Proof.lean ====
/-
  The idealized kernel and the idealized reference compute the same eight-layer coupling flow on the extended reals.

  Both programs start from the input laid out as 2048 rows of 8192 entries and a zero vector, and apply eight layers
  (Proof/FlowSpec.lean): rescale the columns, split them by parity, run a two-hidden-layer network on one half beside
  the conditioning array, transform the other half by x · exp(s) + t, put the columns back, and add the layer's sum of
  logarithmic scales and the row sums of s to the vector. The kernel program does the network in a blocked call per
  layer (32 blocks of 64 rows, each block's result a function of the same rows of the inputs) and the re-layouts by
  reshapes, slices and a join; the reference takes the two halves by index (every second column from an offset) and
  writes them back by index, and contracts the joined array [conditioning half | conditioning array] against the whole
  5120-row matrix where the kernel contracts the two bands separately: a sum over 5120 consecutive indices is the sum
  over the first 4096 plus the sum over the last 1024. Only commutativity and associativity of addition are used, so the
  finiteness of the inputs is never needed. Each side's run is stated against the one specification
  (Proof/KSide.lean, Proof/RSide.lean); here the two statements are put side by side, the reference's launch contents
  rewritten to the kernel's. The frames of the two kernel programs are the generated ones; the reference's frame is its
  run with the results dropped; no operation was rewritten by the idealization, so there is nothing to preserve.
-/
import proofs.«175835_j29978871726094_1_alg».proof.Defs
import proofs.«175835_j29978871726094_1_alg».proof.Proof.Gen.Kernel
import proofs.«175835_j29978871726094_1_alg».proof.Proof.Gen.Kernel.Skeleton
import proofs.«175835_j29978871726094_1_alg».proof.Proof.Gen.Kernel.Launch
import proofs.«175835_j29978871726094_1_alg».proof.Proof.Gen.Kernel.Points
import proofs.«175835_j29978871726094_1_alg».proof.Proof.Gen.Kernel.Frame
import proofs.«175835_j29978871726094_1_alg».proof.Proof.Gen.KernelIdeal
import proofs.«175835_j29978871726094_1_alg».proof.Proof.Gen.KernelIdeal.Skeleton
import proofs.«175835_j29978871726094_1_alg».proof.Proof.Gen.KernelIdeal.Launch
import proofs.«175835_j29978871726094_1_alg».proof.Proof.Gen.KernelIdeal.Points
import proofs.«175835_j29978871726094_1_alg».proof.Proof.Gen.KernelIdeal.Frame
import proofs.«175835_j29978871726094_1_alg».proof.Proof.Gen.ReferenceIdeal
import proofs.«175835_j29978871726094_1_alg».proof.Proof.Gen.Pre_finite_inputs
import proofs.«175835_j29978871726094_1_alg».proof.Proof.KSide
import proofs.«175835_j29978871726094_1_alg».proof.Proof.RSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.RSide.run_spec m ρ)

theorem preserves : Cert.preserves_Kernel_KernelIdeal := trivial

/-- Both runs end at the specification's array and vector after eight layers, of launch contents that agree. -/
theorem algebraic : Cert.algebraic_KernelIdeal_ReferenceIdeal := by
  intro m ρ m' ρ' _ hagree
  refine ⟨fun c => Cert.KernelIdeal.KSide.Zn m c 8, fun c => Cert.KernelIdeal.KSide.Ln m c 8,
    Cert.KernelIdeal.KSide.run_spec m ρ, ?_⟩
  refine (θ_run Cert.ReferenceIdeal.defs _ _).mono
    (fun _ h c => ⟨(h c).1.trans ?_, (h c).2.1.trans ?_, (h c).2.2⟩) (Cert.RSide.run_spec m' ρ')
  · show Cert.Flow.zAt (Cert.RSide.Pm m' c) (Cert.RSide.cndm m' c) (Cert.RSide.z0m m' c) 8 = _
    unfold Cert.RSide.Pm Cert.RSide.cndm Cert.RSide.z0m
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  · show Cert.Flow.lAt (Cert.RSide.Pm m' c) (Cert.RSide.cndm m' c) (Cert.RSide.z0m m' c) 8 = _
    unfold Cert.RSide.Pm Cert.RSide.cndm Cert.RSide.z0m
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
